-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x32 : Shape := ⟨2, ![1000000, 32]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x32 .f32) : IVec S_ 1 :=
  let main_v0 : FVec F S1000000x32 .f32 := Host.absf main_arg1
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x32 : Shape := ⟨2, ![1000000, 32]⟩
abbrev S32x1000000 : Shape := ⟨2, ![32, 1000000]⟩
abbrev S250000x128 : Shape := ⟨2, ![250000, 128]⟩
abbrev S32x16384 : Shape := ⟨2, ![32, 16384]⟩
abbrev S4096x128 : Shape := ⟨2, ![4096, 128]⟩
abbrev S16384x32 : Shape := ⟨2, ![16384, 32]⟩
abbrev S4096x4x32 : Shape := ⟨3, ![4096, 4, 32]⟩
abbrev S4096x1x32 : Shape := ⟨3, ![4096, 1, 32]⟩
abbrev S4096x32 : Shape := ⟨2, ![4096, 32]⟩
abbrev S4x128 : Shape := ⟨2, ![4, 128]⟩
abbrev S2x128x128 : Shape := ⟨3, ![2, 128, 128]⟩
abbrev S512x32 : Shape := ⟨2, ![512, 32]⟩
abbrev S_ : Shape := ⟨0, ![]⟩
abbrev S1x128 : Shape := ⟨2, ![1, 128]⟩
abbrev S128 : Shape := ⟨1, ![128]⟩
abbrev S1x16 : Shape := ⟨2, ![1, 16]⟩
abbrev S16 : Shape := ⟨1, ![16]⟩
abbrev S1x128x128 : Shape := ⟨3, ![1, 128, 128]⟩
abbrev S128x128 : Shape := ⟨2, ![128, 128]⟩
abbrev S1 : Shape := ⟨1, ![1]⟩
abbrev S1x1x16 : Shape := ⟨3, ![1, 1, 16]⟩

abbrev nBuf : Table → Nat
  | .hbm => 5
  | .local .tc .vmem => 4
  | .local .scVector .vmem => 4
  | _ => 0

abbrev bufTy : (tb : Table) → Fin (nBuf tb) → BufTy
  | .hbm, ⟨0, _⟩ => ⟨S16384, .i32⟩
  | .hbm, ⟨1, _⟩ => ⟨S1000000x32, .f32⟩
  | .hbm, ⟨2, _⟩ => ⟨S32x1000000, .f32⟩
  | .hbm, ⟨3, _⟩ => ⟨S250000x128, .f32⟩
  | .hbm, ⟨4, _⟩ => ⟨S16384x32, .f32⟩
  | .local .tc .vmem, ⟨0, _⟩ => ⟨S32x16384, .f32⟩
  | .local .tc .vmem, ⟨1, _⟩ => ⟨S32x16384, .f32⟩
  | .local .tc .vmem, ⟨2, _⟩ => ⟨S4096x128, .f32⟩
  | .local .tc .vmem, ⟨3, _⟩ => ⟨S4096x128, .f32⟩
  | .local .scVector .vmem, ⟨0, _⟩ => ⟨S4x128, .i32⟩
  | .local .scVector .vmem, ⟨1, _⟩ => ⟨S4x128, .i32⟩
  | .local .scVector .vmem, ⟨2, _⟩ => ⟨S2x128x128, .f32⟩
  | .local .scVector .vmem, ⟨3, _⟩ => ⟨S512x32, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
@[reducible] def k1_t1_loop : Scf.Loop 32 :=
  let c0_i32_175 : BitVec 32 := 0#32
  let c8_i32 : BitVec 32 := 8#32
  let v310 : BitVec 32 := Scalar.addi c0_i32_175 c8_i32
  let c1_i32_176 : BitVec 32 := 1#32
  ⟨c0_i32_175, v310, c1_i32_176⟩
def k1_off2 (k1_t1 : Fin k1_t1_loop.trips) : Fin 2 → Nat :=
  let c0_i32_225 : BitVec 32 := 0#32
  let v340 : Index := Scalar.indexCast c0_i32_225
  let c0_i32_175 : BitVec 32 := 0#32
  let c1_i32_176 : BitVec 32 := 1#32
  let arg10 : BitVec 32 := Scf.iv c0_i32_175 c1_i32_176 k1_t1
  let c16_i32 : BitVec 32 := 16#32
  let v339 : BitVec 32 := Scalar.muli arg10 c16_i32
  let v341 : Index := Scalar.indexCast v339
  ![0, v341.toNat]
def k1_off3 (k1_t1 : Fin k1_t1_loop.trips) (v345 : BitVec 32) : Fin 3 → Nat :=
  let c0_i32_229 : BitVec 32 := 0#32
  let v350 : Index := Scalar.indexCast c0_i32_229
  let c0_i32_175 : BitVec 32 := 0#32
  let c1_i32_176 : BitVec 32 := 1#32
  let arg10 : BitVec 32 := Scf.iv c0_i32_175 c1_i32_176 k1_t1
  let c16_i32_227 : BitVec 32 := 16#32
  let v348 : BitVec 32 := Scalar.muli arg10 c16_i32_227
  let c0_i32_228 : BitVec 32 := 0#32
  let v349 : BitVec 32 := Scalar.addi v348 c0_i32_228
  let v351 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let v352 : Index := Scalar.indexCast v347
  ![0, v351.toNat, v352.toNat]

def k1_off4 (k1_t1 : Fin k1_t1_loop.trips) : Fin 2 → Nat :=
  let c0_i32_230 : BitVec 32 := 0#32
  let c0_i32_175 : BitVec 32 := 0#32
  let c1_i32_176 : BitVec 32 := 1#32
  let arg10 : BitVec 32 := Scf.iv c0_i32_175 c1_i32_176 k1_t1
  let c16_i32_227 : BitVec 32 := 16#32
  let v348 : BitVec 32 := Scalar.muli arg10 c16_i32_227
  let c0_i32_228 : BitVec 32 := 0#32
  let v349 : BitVec 32 := Scalar.addi v348 c0_i32_228
  let v355 : BitVec 32 := Scalar.addi c0_i32_230 v349
  let v356 : Index := Scalar.indexCast v355
  let c0_231 : Index := 0#32
  ![v356.toNat, 0]
def k1_off5 (k1_t1 : Fin k1_t1_loop.trips) (v345 : BitVec 32) : Fin 3 → Nat :=
  let c0_i32_233 : BitVec 32 := 0#32
  let v361 : Index := Scalar.indexCast c0_i32_233
  let c0_i32_175 : BitVec 32 := 0#32
  let c1_i32_176 : BitVec 32 := 1#32
  let arg10 : BitVec 32 := Scf.iv c0_i32_175 c1_i32_176 k1_t1
  let c16_i32_227 : BitVec 32 := 16#32
  let v348 : BitVec 32 := Scalar.muli arg10 c16_i32_227
  let c0_i32_228 : BitVec 32 := 0#32
  let v349 : BitVec 32 := Scalar.addi v348 c0_i32_228
  let v362 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let c16_i32_232 : BitVec 32 := 16#32
  let v360 : BitVec 32 := Scalar.addi v347 c16_i32_232
  let v363 : Index := Scalar.indexCast v360
  ![0, v362.toNat, v363.toNat]

def k1_chk1 (k1_t1 : Fin k1_t1_loop.trips) (v345 : BitVec 32) : Prop :=
  (∀ a, (k1_off3 k1_t1 v345) a + S1x1x16.size a ≤ S2x128x128.size a) ∧
  (∀ a, (k1_off5 k1_t1 v345) a + S1x1x16.size a ≤ S2x128x128.size a)
instance k1_chk1.dec : ∀ (k1_t1 : Fin k1_t1_loop.trips) (v345 : BitVec 32), Decidable (k1_chk1 k1_t1 v345) := fun k1_t1 v345 => decidable_of_iff' _ (Iff.of_eq (k1_chk1.eq_1 k1_t1 v345))
theorem k1_off3_inb : ∀ (k1_t1 : Fin k1_t1_loop.trips) (v345 : BitVec 32) (k1_hw1 : k1_chk1 k1_t1 v345), ∀ a, (k1_off3 k1_t1 v345) a + S1x1x16.size a ≤ S2x128x128.size a := fun k1_t1 v345 k1_hw1 => k1_hw1.1
theorem k1_off5_inb : ∀ (k1_t1 : Fin k1_t1_loop.trips) (v345 : BitVec 32) (k1_hw1 : k1_chk1 k1_t1 v345), ∀ a, (k1_off5 k1_t1 v345) a + S1x1x16.size a ≤ S2x128x128.size a := fun k1_t1 v345 k1_hw1 => k1_hw1.2

def k1_off6 (k1_t1 : Fin k1_t1_loop.trips) : Fin 2 → Nat :=
  let c0_i32_234 : BitVec 32 := 0#32
  let c0_i32_175 : BitVec 32 := 0#32
  let c1_i32_176 : BitVec 32 := 1#32
  let arg10 : BitVec 32 := Scf.iv c0_i32_175 c1_i32_176 k1_t1
  let c16_i32_227 : BitVec 32 := 16#32
  let v348 : BitVec 32 := Scalar.muli arg10 c16_i32_227
  let c0_i32_228 : BitVec 32 := 0#32
  let v349 : BitVec 32 := Scalar.addi v348 c0_i32_228
  let v366 : BitVec 32 := Scalar.addi c0_i32_234 v349
  let v367 : Index := Scalar.indexCast v366
  let c16_235 : Index := 16#32
  ![v367.toNat, 16]
def k1_off7 (k1_t1 : Fin k1_t1_loop.trips) (v372 : BitVec 32) : Fin 3 → Nat :=
  let c0_i32_240 : BitVec 32 := 0#32
  let v377 : Index := Scalar.indexCast c0_i32_240
  let c0_i32_175 : BitVec 32 := 0#32
  let c1_i32_176 : BitVec 32 := 1#32
  let arg10 : BitVec 32 := Scf.iv c0_i32_175 c1_i32_176 k1_t1
  let c16_i32_238 : BitVec 32 := 16#32
  let v375 : BitVec 32 := Scalar.muli arg10 c16_i32_238
  let c1_i32_239 : BitVec 32 := 1#32
  let v376 : BitVec 32 := Scalar.addi v375 c1_i32_239
  let v378 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let v379 : Index := Scalar.indexCast v374
  ![0, v378.toNat, v379.toNat]

def k1_off8 (k1_t1 : Fin k1_t1_loop.trips) : Fin 2 → Nat :=
  let c0_i32_241 : BitVec 32 := 0#32
  let c0_i32_175 : BitVec 32 := 0#32
  let c1_i32_176 : BitVec 32 := 1#32
  let arg10 : BitVec 32 := Scf.iv c0_i32_175 c1_i32_176 k1_t1
  let c16_i32_238 : BitVec 32 := 16#32
  let v375 : BitVec 32 := Scalar.muli arg10 c16_i32_238
  let c1_i32_239 : BitVec 32 := 1#32
  let v376 : BitVec 32 := Scalar.addi v375 c1_i32_239
  let v382 : BitVec 32 := Scalar.addi c0_i32_241 v376
  let v383 : Index := Scalar.indexCast v382
  let c0_242 : Index := 0#32
  ![v383.toNat, 0]
def k1_off9 (k1_t1 : Fin k1_t1_loop.trips) (v372 : BitVec 32) : Fin 3 → Nat :=
  let c0_i32_244 : BitVec 32 := 0#32
  let v388 : Index := Scalar.indexCast c0_i32_244
  let c0_i32_175 : BitVec 32 := 0#32
  let c1_i32_176 : BitVec 32 := 1#32
  let arg10 : BitVec 32 := Scf.iv c0_i32_175 c1_i32_176 k1_t1
  let c16_i32_238 : BitVec 32 := 16#32
  let v375 : BitVec 32 := Scalar.muli arg10 c16_i32_238
  let c1_i32_239 : BitVec 32 := 1#32
  let v376 : BitVec 32 := Scalar.addi v375 c1_i32_239
  let v389 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let c16_i32_243 : BitVec 32 := 16#32
  let v387 : BitVec 32 := Scalar.addi v374 c16_i32_243
  let v390 : Index := Scalar.indexCast v387
  ![0, v389.toNat, v390.toNat]

def k1_chk2 (k1_t1 : Fin k1_t1_loop.trips) (v372 : BitVec 32) : Prop :=
  (∀ a, (k1_off7 k1_t1 v372) a + S1x1x16.size a ≤ S2x128x128.size a) ∧
  (∀ a, (k1_off9 k1_t1 v372) a + S1x1x16.size a ≤ S2x128x128.size a)
instance k1_chk2.dec : ∀ (k1_t1 : Fin k1_t1_loop.trips) (v372 : BitVec 32), Decidable (k1_chk2 k1_t1 v372) := fun k1_t1 v372 => decidable_of_iff' _ (Iff.of_eq (k1_chk2.eq_1 k1_t1 v372))
theorem k1_off7_inb : ∀ (k1_t1 : Fin k1_t1_loop.trips) (v372 : BitVec 32) (k1_hw2 : k1_chk2 k1_t1 v372), ∀ a, (k1_off7 k1_t1 v372) a + S1x1x16.size a ≤ S2x128x128.size a := fun k1_t1 v372 k1_hw2 => k1_hw2.1
theorem k1_off9_inb : ∀ (k1_t1 : Fin k1_t1_loop.trips) (v372 : BitVec 32) (k1_hw2 : k1_chk2 k1_t1 v372), ∀ a, (k1_off9 k1_t1 v372) a + S1x1x16.size a ≤ S2x128x128.size a := fun k1_t1 v372 k1_hw2 => k1_hw2.2

def k1_off10 (k1_t1 : Fin k1_t1_loop.trips) : Fin 2 → Nat :=
  let c0_i32_245 : BitVec 32 := 0#32
  let c0_i32_175 : BitVec 32 := 0#32
  let c1_i32_176 : BitVec 32 := 1#32
  let arg10 : BitVec 32 := Scf.iv c0_i32_175 c1_i32_176 k1_t1
  let c16_i32_238 : BitVec 32 := 16#32
  let v375 : BitVec 32 := Scalar.muli arg10 c16_i32_238
  let c1_i32_239 : BitVec 32 := 1#32
  let v376 : BitVec 32 := Scalar.addi v375 c1_i32_239
  let v393 : BitVec 32 := Scalar.addi c0_i32_245 v376
  let v394 : Index := Scalar.indexCast v393
  let c16_246 : Index := 16#32
  ![v394.toNat, 16]
def k1_off11 (k1_t1 : Fin k1_t1_loop.trips) (v399 : BitVec 32) : Fin 3 → Nat :=
  let c0_i32_251 : BitVec 32 := 0#32
  let v404 : Index := Scalar.indexCast c0_i32_251
  let c0_i32_175 : BitVec 32 := 0#32
  let c1_i32_176 : BitVec 32 := 1#32
  let arg10 : BitVec 32 := Scf.iv c0_i32_175 c1_i32_176 k1_t1
  let c16_i32_249 : BitVec 32 := 16#32
  let v402 : BitVec 32 := Scalar.muli arg10 c16_i32_249
  let c2_i32_250 : BitVec 32 := 2#32
  let v403 : BitVec 32 := Scalar.addi v402 c2_i32_250
  let v405 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let v406 : Index := Scalar.indexCast v401
  ![0, v405.toNat, v406.toNat]

def k1_off12 (k1_t1 : Fin k1_t1_loop.trips) : Fin 2 → Nat :=
  let c0_i32_252 : BitVec 32 := 0#32
  let c0_i32_175 : BitVec 32 := 0#32
  let c1_i32_176 : BitVec 32 := 1#32
  let arg10 : BitVec 32 := Scf.iv c0_i32_175 c1_i32_176 k1_t1
  let c16_i32_249 : BitVec 32 := 16#32
  let v402 : BitVec 32 := Scalar.muli arg10 c16_i32_249
  let c2_i32_250 : BitVec 32 := 2#32
  let v403 : BitVec 32 := Scalar.addi v402 c2_i32_250
  let v409 : BitVec 32 := Scalar.addi c0_i32_252 v403
  let v410 : Index := Scalar.indexCast v409
  let c0_253 : Index := 0#32
  ![v410.toNat, 0]
def k1_off13 (k1_t1 : Fin k1_t1_loop.trips) (v399 : BitVec 32) : Fin 3 → Nat :=
  let c0_i32_255 : BitVec 32 := 0#32
  let v415 : Index := Scalar.indexCast c0_i32_255
  let c0_i32_175 : BitVec 32 := 0#32
  let c1_i32_176 : BitVec 32 := 1#32
  let arg10 : BitVec 32 := Scf.iv c0_i32_175 c1_i32_176 k1_t1
  let c16_i32_249 : BitVec 32 := 16#32
  let v402 : BitVec 32 := Scalar.muli arg10 c16_i32_249
  let c2_i32_250 : BitVec 32 := 2#32
  let v403 : BitVec 32 := Scalar.addi v402 c2_i32_250
  let v416 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let c16_i32_254 : BitVec 32 := 16#32
  let v414 : BitVec 32 := Scalar.addi v401 c16_i32_254
  let v417 : Index := Scalar.indexCast v414
  ![0, v416.toNat, v417.toNat]

def k1_chk3 (k1_t1 : Fin k1_t1_loop.trips) (v399 : BitVec 32) : Prop :=
  (∀ a, (k1_off11 k1_t1 v399) a + S1x1x16.size a ≤ S2x128x128.size a) ∧
  (∀ a, (k1_off13 k1_t1 v399) a + S1x1x16.size a ≤ S2x128x128.size a)
instance k1_chk3.dec : ∀ (k1_t1 : Fin k1_t1_loop.trips) (v399 : BitVec 32), Decidable (k1_chk3 k1_t1 v399) := fun k1_t1 v399 => decidable_of_iff' _ (Iff.of_eq (k1_chk3.eq_1 k1_t1 v399))
theorem k1_off11_inb : ∀ (k1_t1 : Fin k1_t1_loop.trips) (v399 : BitVec 32) (k1_hw3 : k1_chk3 k1_t1 v399), ∀ a, (k1_off11 k1_t1 v399) a + S1x1x16.size a ≤ S2x128x128.size a := fun k1_t1 v399 k1_hw3 => k1_hw3.1
theorem k1_off13_inb : ∀ (k1_t1 : Fin k1_t1_loop.trips) (v399 : BitVec 32) (k1_hw3 : k1_chk3 k1_t1 v399), ∀ a, (k1_off13 k1_t1 v399) a + S1x1x16.size a ≤ S2x128x128.size a := fun k1_t1 v399 k1_hw3 => k1_hw3.2

def k1_off14 (k1_t1 : Fin k1_t1_loop.trips) : Fin 2 → Nat :=
  let c0_i32_256 : BitVec 32 := 0#32
  let c0_i32_175 : BitVec 32 := 0#32
  let c1_i32_176 : BitVec 32 := 1#32
  let arg10 : BitVec 32 := Scf.iv c0_i32_175 c1_i32_176 k1_t1
  let c16_i32_249 : BitVec 32 := 16#32
  let v402 : BitVec 32 := Scalar.muli arg10 c16_i32_249
  let c2_i32_250 : BitVec 32 := 2#32
  let v403 : BitVec 32 := Scalar.addi v402 c2_i32_250
  let v420 : BitVec 32 := Scalar.addi c0_i32_256 v403
  let v421 : Index := Scalar.indexCast v420
  let c16_257 : Index := 16#32
  ![v421.toNat, 16]
def k1_off15 (k1_t1 : Fin k1_t1_loop.trips) (v426 : BitVec 32) : Fin 3 → Nat :=
  let c0_i32_262 : BitVec 32 := 0#32
  let v431 : Index := Scalar.indexCast c0_i32_262
  let c0_i32_175 : BitVec 32 := 0#32
  let c1_i32_176 : BitVec 32 := 1#32
  let arg10 : BitVec 32 := Scf.iv c0_i32_175 c1_i32_176 k1_t1
  let c16_i32_260 : BitVec 32 := 16#32
  let v429 : BitVec 32 := Scalar.muli arg10 c16_i32_260
  let c3_i32_261 : BitVec 32 := 3#32
  let v430 : BitVec 32 := Scalar.addi v429 c3_i32_261
  let v432 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let v433 : Index := Scalar.indexCast v428
  ![0, v432.toNat, v433.toNat]

def k1_off16 (k1_t1 : Fin k1_t1_loop.trips) : Fin 2 → Nat :=
  let c0_i32_263 : BitVec 32 := 0#32
  let c0_i32_175 : BitVec 32 := 0#32
  let c1_i32_176 : BitVec 32 := 1#32
  let arg10 : BitVec 32 := Scf.iv c0_i32_175 c1_i32_176 k1_t1
  let c16_i32_260 : BitVec 32 := 16#32
  let v429 : BitVec 32 := Scalar.muli arg10 c16_i32_260
  let c3_i32_261 : BitVec 32 := 3#32
  let v430 : BitVec 32 := Scalar.addi v429 c3_i32_261
  let v436 : BitVec 32 := Scalar.addi c0_i32_263 v430
  let v437 : Index := Scalar.indexCast v436
  let c0_264 : Index := 0#32
  ![v437.toNat, 0]
def k1_off17 (k1_t1 : Fin k1_t1_loop.trips) (v426 : BitVec 32) : Fin 3 → Nat :=
  let c0_i32_266 : BitVec 32 := 0#32
  let v442 : Index := Scalar.indexCast c0_i32_266
  let c0_i32_175 : BitVec 32 := 0#32
  let c1_i32_176 : BitVec 32 := 1#32
  let arg10 : BitVec 32 := Scf.iv c0_i32_175 c1_i32_176 k1_t1
  let c16_i32_260 : BitVec 32 := 16#32
  let v429 : BitVec 32 := Scalar.muli arg10 c16_i32_260
  let c3_i32_261 : BitVec 32 := 3#32
  let v430 : BitVec 32 := Scalar.addi v429 c3_i32_261
  let v443 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let c16_i32_265 : BitVec 32 := 16#32
  let v441 : BitVec 32 := Scalar.addi v428 c16_i32_265
  let v444 : Index := Scalar.indexCast v441
  ![0, v443.toNat, v444.toNat]

def k1_chk4 (k1_t1 : Fin k1_t1_loop.trips) (v426 : BitVec 32) : Prop :=
  (∀ a, (k1_off15 k1_t1 v426) a + S1x1x16.size a ≤ S2x128x128.size a) ∧
  (∀ a, (k1_off17 k1_t1 v426) a + S1x1x16.size a ≤ S2x128x128.size a)
instance k1_chk4.dec : ∀ (k1_t1 : Fin k1_t1_loop.trips) (v426 : BitVec 32), Decidable (k1_chk4 k1_t1 v426) := fun k1_t1 v426 => decidable_of_iff' _ (Iff.of_eq (k1_chk4.eq_1 k1_t1 v426))
theorem k1_off15_inb : ∀ (k1_t1 : Fin k1_t1_loop.trips) (v426 : BitVec 32) (k1_hw4 : k1_chk4 k1_t1 v426), ∀ a, (k1_off15 k1_t1 v426) a + S1x1x16.size a ≤ S2x128x128.size a := fun k1_t1 v426 k1_hw4 => k1_hw4.1
theorem k1_off17_inb : ∀ (k1_t1 : Fin k1_t1_loop.trips) (v426 : BitVec 32) (k1_hw4 : k1_chk4 k1_t1 v426), ∀ a, (k1_off17 k1_t1 v426) a + S1x1x16.size a ≤ S2x128x128.size a := fun k1_t1 v426 k1_hw4 => k1_hw4.2

def k1_off18 (k1_t1 : Fin k1_t1_loop.trips) : Fin 2 → Nat :=
  let c0_i32_267 : BitVec 32 := 0#32
  let c0_i32_175 : BitVec 32 := 0#32
  let c1_i32_176 : BitVec 32 := 1#32
  let arg10 : BitVec 32 := Scf.iv c0_i32_175 c1_i32_176 k1_t1
  let c16_i32_260 : BitVec 32 := 16#32
  let v429 : BitVec 32 := Scalar.muli arg10 c16_i32_260
  let c3_i32_261 : BitVec 32 := 3#32
  let v430 : BitVec 32 := Scalar.addi v429 c3_i32_261
  let v447 : BitVec 32 := Scalar.addi c0_i32_267 v430
  let v448 : Index := Scalar.indexCast v447
  let c16_268 : Index := 16#32
  ![v448.toNat, 16]
def k1_off19 (k1_t1 : Fin k1_t1_loop.trips) (v453 : BitVec 32) : Fin 3 → Nat :=
  let c0_i32_272 : BitVec 32 := 0#32
  let v458 : Index := Scalar.indexCast c0_i32_272
  let c0_i32_175 : BitVec 32 := 0#32
  let c1_i32_176 : BitVec 32 := 1#32
  let arg10 : BitVec 32 := Scf.iv c0_i32_175 c1_i32_176 k1_t1
  let c16_i32_271 : BitVec 32 := 16#32
  let v456 : BitVec 32 := Scalar.muli arg10 c16_i32_271
  let c4_i32 : BitVec 32 := 4#32
  let v457 : BitVec 32 := Scalar.addi v456 c4_i32
  let v459 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let v460 : Index := Scalar.indexCast v455
  ![0, v459.toNat, v460.toNat]

def k1_off20 (k1_t1 : Fin k1_t1_loop.trips) : Fin 2 → Nat :=
  let c0_i32_273 : BitVec 32 := 0#32
  let c0_i32_175 : BitVec 32 := 0#32
  let c1_i32_176 : BitVec 32 := 1#32
  let arg10 : BitVec 32 := Scf.iv c0_i32_175 c1_i32_176 k1_t1
  let c16_i32_271 : BitVec 32 := 16#32
  let v456 : BitVec 32 := Scalar.muli arg10 c16_i32_271
  let c4_i32 : BitVec 32 := 4#32
  let v457 : BitVec 32 := Scalar.addi v456 c4_i32
  let v463 : BitVec 32 := Scalar.addi c0_i32_273 v457
  let v464 : Index := Scalar.indexCast v463
  let c0_274 : Index := 0#32
  ![v464.toNat, 0]
def k1_off21 (k1_t1 : Fin k1_t1_loop.trips) (v453 : BitVec 32) : Fin 3 → Nat :=
  let c0_i32_276 : BitVec 32 := 0#32
  let v469 : Index := Scalar.indexCast c0_i32_276
  let c0_i32_175 : BitVec 32 := 0#32
  let c1_i32_176 : BitVec 32 := 1#32
  let arg10 : BitVec 32 := Scf.iv c0_i32_175 c1_i32_176 k1_t1
  let c16_i32_271 : BitVec 32 := 16#32
  let v456 : BitVec 32 := Scalar.muli arg10 c16_i32_271
  let c4_i32 : BitVec 32 := 4#32
  let v457 : BitVec 32 := Scalar.addi v456 c4_i32
  let v470 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let c16_i32_275 : BitVec 32 := 16#32
  let v468 : BitVec 32 := Scalar.addi v455 c16_i32_275
  let v471 : Index := Scalar.indexCast v468
  ![0, v470.toNat, v471.toNat]

def k1_chk5 (k1_t1 : Fin k1_t1_loop.trips) (v453 : BitVec 32) : Prop :=
  (∀ a, (k1_off19 k1_t1 v453) a + S1x1x16.size a ≤ S2x128x128.size a) ∧
  (∀ a, (k1_off21 k1_t1 v453) a + S1x1x16.size a ≤ S2x128x128.size a)
instance k1_chk5.dec : ∀ (k1_t1 : Fin k1_t1_loop.trips) (v453 : BitVec 32), Decidable (k1_chk5 k1_t1 v453) := fun k1_t1 v453 => decidable_of_iff' _ (Iff.of_eq (k1_chk5.eq_1 k1_t1 v453))
theorem k1_off19_inb : ∀ (k1_t1 : Fin k1_t1_loop.trips) (v453 : BitVec 32) (k1_hw5 : k1_chk5 k1_t1 v453), ∀ a, (k1_off19 k1_t1 v453) a + S1x1x16.size a ≤ S2x128x128.size a := fun k1_t1 v453 k1_hw5 => k1_hw5.1
theorem k1_off21_inb : ∀ (k1_t1 : Fin k1_t1_loop.trips) (v453 : BitVec 32) (k1_hw5 : k1_chk5 k1_t1 v453), ∀ a, (k1_off21 k1_t1 v453) a + S1x1x16.size a ≤ S2x128x128.size a := fun k1_t1 v453 k1_hw5 => k1_hw5.2

def k1_off22 (k1_t1 : Fin k1_t1_loop.trips) : Fin 2 → Nat :=
  let c0_i32_277 : BitVec 32 := 0#32
  let c0_i32_175 : BitVec 32 := 0#32
  let c1_i32_176 : BitVec 32 := 1#32
  let arg10 : BitVec 32 := Scf.iv c0_i32_175 c1_i32_176 k1_t1
  let c16_i32_271 : BitVec 32 := 16#32
  let v456 : BitVec 32 := Scalar.muli arg10 c16_i32_271
  let c4_i32 : BitVec 32 := 4#32
  let v457 : BitVec 32 := Scalar.addi v456 c4_i32
  let v474 : BitVec 32 := Scalar.addi c0_i32_277 v457
  let v475 : Index := Scalar.indexCast v474
  let c16_278 : Index := 16#32
  ![v475.toNat, 16]
def k1_off23 (k1_t1 : Fin k1_t1_loop.trips) (v480 : BitVec 32) : Fin 3 → Nat :=
  let c0_i32_282 : BitVec 32 := 0#32
  let v485 : Index := Scalar.indexCast c0_i32_282
  let c0_i32_175 : BitVec 32 := 0#32
  let c1_i32_176 : BitVec 32 := 1#32
  let arg10 : BitVec 32 := Scf.iv c0_i32_175 c1_i32_176 k1_t1
  let c16_i32_281 : BitVec 32 := 16#32
  let v483 : BitVec 32 := Scalar.muli arg10 c16_i32_281
  let c5_i32 : BitVec 32 := 5#32
  let v484 : BitVec 32 := Scalar.addi v483 c5_i32
  let v486 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let v487 : Index := Scalar.indexCast v482
  ![0, v486.toNat, v487.toNat]

def k1_off24 (k1_t1 : Fin k1_t1_loop.trips) : Fin 2 → Nat :=
  let c0_i32_283 : BitVec 32 := 0#32
  let c0_i32_175 : BitVec 32 := 0#32
  let c1_i32_176 : BitVec 32 := 1#32
  let arg10 : BitVec 32 := Scf.iv c0_i32_175 c1_i32_176 k1_t1
  let c16_i32_281 : BitVec 32 := 16#32
  let v483 : BitVec 32 := Scalar.muli arg10 c16_i32_281
  let c5_i32 : BitVec 32 := 5#32
  let v484 : BitVec 32 := Scalar.addi v483 c5_i32
  let v490 : BitVec 32 := Scalar.addi c0_i32_283 v484
  let v491 : Index := Scalar.indexCast v490
  let c0_284 : Index := 0#32
  ![v491.toNat, 0]
def k1_off25 (k1_t1 : Fin k1_t1_loop.trips) (v480 : BitVec 32) : Fin 3 → Nat :=
  let c0_i32_286 : BitVec 32 := 0#32
  let v496 : Index := Scalar.indexCast c0_i32_286
  let c0_i32_175 : BitVec 32 := 0#32
  let c1_i32_176 : BitVec 32 := 1#32
  let arg10 : BitVec 32 := Scf.iv c0_i32_175 c1_i32_176 k1_t1
  let c16_i32_281 : BitVec 32 := 16#32
  let v483 : BitVec 32 := Scalar.muli arg10 c16_i32_281
  let c5_i32 : BitVec 32 := 5#32
  let v484 : BitVec 32 := Scalar.addi v483 c5_i32
  let v497 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let c16_i32_285 : BitVec 32 := 16#32
  let v495 : BitVec 32 := Scalar.addi v482 c16_i32_285
  let v498 : Index := Scalar.indexCast v495
  ![0, v497.toNat, v498.toNat]

def k1_chk6 (k1_t1 : Fin k1_t1_loop.trips) (v480 : BitVec 32) : Prop :=
  (∀ a, (k1_off23 k1_t1 v480) a + S1x1x16.size a ≤ S2x128x128.size a) ∧
  (∀ a, (k1_off25 k1_t1 v480) a + S1x1x16.size a ≤ S2x128x128.size a)
instance k1_chk6.dec : ∀ (k1_t1 : Fin k1_t1_loop.trips) (v480 : BitVec 32), Decidable (k1_chk6 k1_t1 v480) := fun k1_t1 v480 => decidable_of_iff' _ (Iff.of_eq (k1_chk6.eq_1 k1_t1 v480))
theorem k1_off23_inb : ∀ (k1_t1 : Fin k1_t1_loop.trips) (v480 : BitVec 32) (k1_hw6 : k1_chk6 k1_t1 v480), ∀ a, (k1_off23 k1_t1 v480) a + S1x1x16.size a ≤ S2x128x128.size a := fun k1_t1 v480 k1_hw6 => k1_hw6.1
theorem k1_off25_inb : ∀ (k1_t1 : Fin k1_t1_loop.trips) (v480 : BitVec 32) (k1_hw6 : k1_chk6 k1_t1 v480), ∀ a, (k1_off25 k1_t1 v480) a + S1x1x16.size a ≤ S2x128x128.size a := fun k1_t1 v480 k1_hw6 => k1_hw6.2

def k1_off26 (k1_t1 : Fin k1_t1_loop.trips) : Fin 2 → Nat :=
  let c0_i32_287 : BitVec 32 := 0#32
  let c0_i32_175 : BitVec 32 := 0#32
  let c1_i32_176 : BitVec 32 := 1#32
  let arg10 : BitVec 32 := Scf.iv c0_i32_175 c1_i32_176 k1_t1
  let c16_i32_281 : BitVec 32 := 16#32
  let v483 : BitVec 32 := Scalar.muli arg10 c16_i32_281
  let c5_i32 : BitVec 32 := 5#32
  let v484 : BitVec 32 := Scalar.addi v483 c5_i32
  let v501 : BitVec 32 := Scalar.addi c0_i32_287 v484
  let v502 : Index := Scalar.indexCast v501
  let c16_288 : Index := 16#32
  ![v502.toNat, 16]
def k1_off27 (k1_t1 : Fin k1_t1_loop.trips) (v507 : BitVec 32) : Fin 3 → Nat :=
  let c0_i32_292 : BitVec 32 := 0#32
  let v512 : Index := Scalar.indexCast c0_i32_292
  let c0_i32_175 : BitVec 32 := 0#32
  let c1_i32_176 : BitVec 32 := 1#32
  let arg10 : BitVec 32 := Scf.iv c0_i32_175 c1_i32_176 k1_t1
  let c16_i32_291 : BitVec 32 := 16#32
  let v510 : BitVec 32 := Scalar.muli arg10 c16_i32_291
  let c6_i32 : BitVec 32 := 6#32
  let v511 : BitVec 32 := Scalar.addi v510 c6_i32
  let v513 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let v514 : Index := Scalar.indexCast v509
  ![0, v513.toNat, v514.toNat]

def k1_off28 (k1_t1 : Fin k1_t1_loop.trips) : Fin 2 → Nat :=
  let c0_i32_293 : BitVec 32 := 0#32
  let c0_i32_175 : BitVec 32 := 0#32
  let c1_i32_176 : BitVec 32 := 1#32
  let arg10 : BitVec 32 := Scf.iv c0_i32_175 c1_i32_176 k1_t1
  let c16_i32_291 : BitVec 32 := 16#32
  let v510 : BitVec 32 := Scalar.muli arg10 c16_i32_291
  let c6_i32 : BitVec 32 := 6#32
  let v511 : BitVec 32 := Scalar.addi v510 c6_i32
  let v517 : BitVec 32 := Scalar.addi c0_i32_293 v511
  let v518 : Index := Scalar.indexCast v517
  let c0_294 : Index := 0#32
  ![v518.toNat, 0]
def k1_off29 (k1_t1 : Fin k1_t1_loop.trips) (v507 : BitVec 32) : Fin 3 → Nat :=
  let c0_i32_296 : BitVec 32 := 0#32
  let v523 : Index := Scalar.indexCast c0_i32_296
  let c0_i32_175 : BitVec 32 := 0#32
  let c1_i32_176 : BitVec 32 := 1#32
  let arg10 : BitVec 32 := Scf.iv c0_i32_175 c1_i32_176 k1_t1
  let c16_i32_291 : BitVec 32 := 16#32
  let v510 : BitVec 32 := Scalar.muli arg10 c16_i32_291
  let c6_i32 : BitVec 32 := 6#32
  let v511 : BitVec 32 := Scalar.addi v510 c6_i32
  let v524 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let c16_i32_295 : BitVec 32 := 16#32
  let v522 : BitVec 32 := Scalar.addi v509 c16_i32_295
  let v525 : Index := Scalar.indexCast v522
  ![0, v524.toNat, v525.toNat]

def k1_chk7 (k1_t1 : Fin k1_t1_loop.trips) (v507 : BitVec 32) : Prop :=
  (∀ a, (k1_off27 k1_t1 v507) a + S1x1x16.size a ≤ S2x128x128.size a) ∧
  (∀ a, (k1_off29 k1_t1 v507) a + S1x1x16.size a ≤ S2x128x128.size a)
instance k1_chk7.dec : ∀ (k1_t1 : Fin k1_t1_loop.trips) (v507 : BitVec 32), Decidable (k1_chk7 k1_t1 v507) := fun k1_t1 v507 => decidable_of_iff' _ (Iff.of_eq (k1_chk7.eq_1 k1_t1 v507))
theorem k1_off27_inb : ∀ (k1_t1 : Fin k1_t1_loop.trips) (v507 : BitVec 32) (k1_hw7 : k1_chk7 k1_t1 v507), ∀ a, (k1_off27 k1_t1 v507) a + S1x1x16.size a ≤ S2x128x128.size a := fun k1_t1 v507 k1_hw7 => k1_hw7.1
theorem k1_off29_inb : ∀ (k1_t1 : Fin k1_t1_loop.trips) (v507 : BitVec 32) (k1_hw7 : k1_chk7 k1_t1 v507), ∀ a, (k1_off29 k1_t1 v507) a + S1x1x16.size a ≤ S2x128x128.size a := fun k1_t1 v507 k1_hw7 => k1_hw7.2

def k1_off30 (k1_t1 : Fin k1_t1_loop.trips) : Fin 2 → Nat :=
  let c0_i32_297 : BitVec 32 := 0#32
  let c0_i32_175 : BitVec 32 := 0#32
  let c1_i32_176 : BitVec 32 := 1#32
  let arg10 : BitVec 32 := Scf.iv c0_i32_175 c1_i32_176 k1_t1
  let c16_i32_291 : BitVec 32 := 16#32
  let v510 : BitVec 32 := Scalar.muli arg10 c16_i32_291
  let c6_i32 : BitVec 32 := 6#32
  let v511 : BitVec 32 := Scalar.addi v510 c6_i32
  let v528 : BitVec 32 := Scalar.addi c0_i32_297 v511
  let v529 : Index := Scalar.indexCast v528
  let c16_298 : Index := 16#32
  ![v529.toNat, 16]
def k1_off31 (k1_t1 : Fin k1_t1_loop.trips) (v534 : BitVec 32) : Fin 3 → Nat :=
  let c0_i32_302 : BitVec 32 := 0#32
  let v539 : Index := Scalar.indexCast c0_i32_302
  let c0_i32_175 : BitVec 32 := 0#32
  let c1_i32_176 : BitVec 32 := 1#32
  let arg10 : BitVec 32 := Scf.iv c0_i32_175 c1_i32_176 k1_t1
  let c16_i32_301 : BitVec 32 := 16#32
  let v537 : BitVec 32 := Scalar.muli arg10 c16_i32_301
  let c7_i32 : BitVec 32 := 7#32
  let v538 : BitVec 32 := Scalar.addi v537 c7_i32
  let v540 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let v541 : Index := Scalar.indexCast v536
  ![0, v540.toNat, v541.toNat]

def k1_off32 (k1_t1 : Fin k1_t1_loop.trips) : Fin 2 → Nat :=
  let c0_i32_303 : BitVec 32 := 0#32
  let c0_i32_175 : BitVec 32 := 0#32
  let c1_i32_176 : BitVec 32 := 1#32
  let arg10 : BitVec 32 := Scf.iv c0_i32_175 c1_i32_176 k1_t1
  let c16_i32_301 : BitVec 32 := 16#32
  let v537 : BitVec 32 := Scalar.muli arg10 c16_i32_301
  let c7_i32 : BitVec 32 := 7#32
  let v538 : BitVec 32 := Scalar.addi v537 c7_i32
  let v544 : BitVec 32 := Scalar.addi c0_i32_303 v538
  let v545 : Index := Scalar.indexCast v544
  let c0_304 : Index := 0#32
  ![v545.toNat, 0]
def k1_off33 (k1_t1 : Fin k1_t1_loop.trips) (v534 : BitVec 32) : Fin 3 → Nat :=
  let c0_i32_306 : BitVec 32 := 0#32
  let v550 : Index := Scalar.indexCast c0_i32_306
  let c0_i32_175 : BitVec 32 := 0#32
  let c1_i32_176 : BitVec 32 := 1#32
  let arg10 : BitVec 32 := Scf.iv c0_i32_175 c1_i32_176 k1_t1
  let c16_i32_301 : BitVec 32 := 16#32
  let v537 : BitVec 32 := Scalar.muli arg10 c16_i32_301
  let c7_i32 : BitVec 32 := 7#32
  let v538 : BitVec 32 := Scalar.addi v537 c7_i32
  let v551 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let c16_i32_305 : BitVec 32 := 16#32
  let v549 : BitVec 32 := Scalar.addi v536 c16_i32_305
  let v552 : Index := Scalar.indexCast v549
  ![0, v551.toNat, v552.toNat]

def k1_chk8 (k1_t1 : Fin k1_t1_loop.trips) (v534 : BitVec 32) : Prop :=
  (∀ a, (k1_off31 k1_t1 v534) a + S1x1x16.size a ≤ S2x128x128.size a) ∧
  (∀ a, (k1_off33 k1_t1 v534) a + S1x1x16.size a ≤ S2x128x128.size a)
instance k1_chk8.dec : ∀ (k1_t1 : Fin k1_t1_loop.trips) (v534 : BitVec 32), Decidable (k1_chk8 k1_t1 v534) := fun k1_t1 v534 => decidable_of_iff' _ (Iff.of_eq (k1_chk8.eq_1 k1_t1 v534))
theorem k1_off31_inb : ∀ (k1_t1 : Fin k1_t1_loop.trips) (v534 : BitVec 32) (k1_hw8 : k1_chk8 k1_t1 v534), ∀ a, (k1_off31 k1_t1 v534) a + S1x1x16.size a ≤ S2x128x128.size a := fun k1_t1 v534 k1_hw8 => k1_hw8.1
theorem k1_off33_inb : ∀ (k1_t1 : Fin k1_t1_loop.trips) (v534 : BitVec 32) (k1_hw8 : k1_chk8 k1_t1 v534), ∀ a, (k1_off33 k1_t1 v534) a + S1x1x16.size a ≤ S2x128x128.size a := fun k1_t1 v534 k1_hw8 => k1_hw8.2

def k1_off34 (k1_t1 : Fin k1_t1_loop.trips) : Fin 2 → Nat :=
  let c0_i32_307 : BitVec 32 := 0#32
  let c0_i32_175 : BitVec 32 := 0#32
  let c1_i32_176 : BitVec 32 := 1#32
  let arg10 : BitVec 32 := Scf.iv c0_i32_175 c1_i32_176 k1_t1
  let c16_i32_301 : BitVec 32 := 16#32
  let v537 : BitVec 32 := Scalar.muli arg10 c16_i32_301
  let c7_i32 : BitVec 32 := 7#32
  let v538 : BitVec 32 := Scalar.addi v537 c7_i32
  let v555 : BitVec 32 := Scalar.addi c0_i32_307 v538
  let v556 : Index := Scalar.indexCast v555
  let c16_308 : Index := 16#32
  ![v556.toNat, 16]
def k1_off35 (k1_t1 : Fin k1_t1_loop.trips) (v561 : BitVec 32) : Fin 3 → Nat :=
  let c0_i32_313 : BitVec 32 := 0#32
  let v566 : Index := Scalar.indexCast c0_i32_313
  let c0_i32_175 : BitVec 32 := 0#32
  let c1_i32_176 : BitVec 32 := 1#32
  let arg10 : BitVec 32 := Scf.iv c0_i32_175 c1_i32_176 k1_t1
  let c16_i32_311 : BitVec 32 := 16#32
  let v564 : BitVec 32 := Scalar.muli arg10 c16_i32_311
  let c8_i32_312 : BitVec 32 := 8#32
  let v565 : BitVec 32 := Scalar.addi v564 c8_i32_312
  let v567 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let v568 : Index := Scalar.indexCast v563
  ![0, v567.toNat, v568.toNat]

def k1_off36 (k1_t1 : Fin k1_t1_loop.trips) : Fin 2 → Nat :=
  let c0_i32_314 : BitVec 32 := 0#32
  let c0_i32_175 : BitVec 32 := 0#32
  let c1_i32_176 : BitVec 32 := 1#32
  let arg10 : BitVec 32 := Scf.iv c0_i32_175 c1_i32_176 k1_t1
  let c16_i32_311 : BitVec 32 := 16#32
  let v564 : BitVec 32 := Scalar.muli arg10 c16_i32_311
  let c8_i32_312 : BitVec 32 := 8#32
  let v565 : BitVec 32 := Scalar.addi v564 c8_i32_312
  let v571 : BitVec 32 := Scalar.addi c0_i32_314 v565
  let v572 : Index := Scalar.indexCast v571
  let c0_315 : Index := 0#32
  ![v572.toNat, 0]
def k1_off37 (k1_t1 : Fin k1_t1_loop.trips) (v561 : BitVec 32) : Fin 3 → Nat :=
  let c0_i32_317 : BitVec 32 := 0#32
  let v577 : Index := Scalar.indexCast c0_i32_317
  let c0_i32_175 : BitVec 32 := 0#32
  let c1_i32_176 : BitVec 32 := 1#32
  let arg10 : BitVec 32 := Scf.iv c0_i32_175 c1_i32_176 k1_t1
  let c16_i32_311 : BitVec 32 := 16#32
  let v564 : BitVec 32 := Scalar.muli arg10 c16_i32_311
  let c8_i32_312 : BitVec 32 := 8#32
  let v565 : BitVec 32 := Scalar.addi v564 c8_i32_312
  let v578 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let c16_i32_316 : BitVec 32 := 16#32
  let v576 : BitVec 32 := Scalar.addi v563 c16_i32_316
  let v579 : Index := Scalar.indexCast v576
  ![0, v578.toNat, v579.toNat]

def k1_chk9 (k1_t1 : Fin k1_t1_loop.trips) (v561 : BitVec 32) : Prop :=
  (∀ a, (k1_off35 k1_t1 v561) a + S1x1x16.size a ≤ S2x128x128.size a) ∧
  (∀ a, (k1_off37 k1_t1 v561) a + S1x1x16.size a ≤ S2x128x128.size a)
instance k1_chk9.dec : ∀ (k1_t1 : Fin k1_t1_loop.trips) (v561 : BitVec 32), Decidable (k1_chk9 k1_t1 v561) := fun k1_t1 v561 => decidable_of_iff' _ (Iff.of_eq (k1_chk9.eq_1 k1_t1 v561))
theorem k1_off35_inb : ∀ (k1_t1 : Fin k1_t1_loop.trips) (v561 : BitVec 32) (k1_hw9 : k1_chk9 k1_t1 v561), ∀ a, (k1_off35 k1_t1 v561) a + S1x1x16.size a ≤ S2x128x128.size a := fun k1_t1 v561 k1_hw9 => k1_hw9.1
theorem k1_off37_inb : ∀ (k1_t1 : Fin k1_t1_loop.trips) (v561 : BitVec 32) (k1_hw9 : k1_chk9 k1_t1 v561), ∀ a, (k1_off37 k1_t1 v561) a + S1x1x16.size a ≤ S2x128x128.size a := fun k1_t1 v561 k1_hw9 => k1_hw9.2

def k1_off38 (k1_t1 : Fin k1_t1_loop.trips) : Fin 2 → Nat :=
  let c0_i32_318 : BitVec 32 := 0#32
  let c0_i32_175 : BitVec 32 := 0#32
  let c1_i32_176 : BitVec 32 := 1#32
  let arg10 : BitVec 32 := Scf.iv c0_i32_175 c1_i32_176 k1_t1
  let c16_i32_311 : BitVec 32 := 16#32
  let v564 : BitVec 32 := Scalar.muli arg10 c16_i32_311
  let c8_i32_312 : BitVec 32 := 8#32
  let v565 : BitVec 32 := Scalar.addi v564 c8_i32_312
  let v582 : BitVec 32 := Scalar.addi c0_i32_318 v565
  let v583 : Index := Scalar.indexCast v582
  let c16_319 : Index := 16#32
  ![v583.toNat, 16]
def k1_off39 (k1_t1 : Fin k1_t1_loop.trips) (v588 : BitVec 32) : Fin 3 → Nat :=
  let c0_i32_323 : BitVec 32 := 0#32
  let v593 : Index := Scalar.indexCast c0_i32_323
  let c0_i32_175 : BitVec 32 := 0#32
  let c1_i32_176 : BitVec 32 := 1#32
  let arg10 : BitVec 32 := Scf.iv c0_i32_175 c1_i32_176 k1_t1
  let c16_i32_322 : BitVec 32 := 16#32
  let v591 : BitVec 32 := Scalar.muli arg10 c16_i32_322
  let c9_i32 : BitVec 32 := 9#32
  let v592 : BitVec 32 := Scalar.addi v591 c9_i32
  let v594 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let v595 : Index := Scalar.indexCast v590
  ![0, v594.toNat, v595.toNat]

def k1_off40 (k1_t1 : Fin k1_t1_loop.trips) : Fin 2 → Nat :=
  let c0_i32_324 : BitVec 32 := 0#32
  let c0_i32_175 : BitVec 32 := 0#32
  let c1_i32_176 : BitVec 32 := 1#32
  let arg10 : BitVec 32 := Scf.iv c0_i32_175 c1_i32_176 k1_t1
  let c16_i32_322 : BitVec 32 := 16#32
  let v591 : BitVec 32 := Scalar.muli arg10 c16_i32_322
  let c9_i32 : BitVec 32 := 9#32
  let v592 : BitVec 32 := Scalar.addi v591 c9_i32
  let v598 : BitVec 32 := Scalar.addi c0_i32_324 v592
  let v599 : Index := Scalar.indexCast v598
  let c0_325 : Index := 0#32
  ![v599.toNat, 0]
def k1_off41 (k1_t1 : Fin k1_t1_loop.trips) (v588 : BitVec 32) : Fin 3 → Nat :=
  let c0_i32_327 : BitVec 32 := 0#32
  let v604 : Index := Scalar.indexCast c0_i32_327
  let c0_i32_175 : BitVec 32 := 0#32
  let c1_i32_176 : BitVec 32 := 1#32
  let arg10 : BitVec 32 := Scf.iv c0_i32_175 c1_i32_176 k1_t1
  let c16_i32_322 : BitVec 32 := 16#32
  let v591 : BitVec 32 := Scalar.muli arg10 c16_i32_322
  let c9_i32 : BitVec 32 := 9#32
  let v592 : BitVec 32 := Scalar.addi v591 c9_i32
  let v605 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let c16_i32_326 : BitVec 32 := 16#32
  let v603 : BitVec 32 := Scalar.addi v590 c16_i32_326
  let v606 : Index := Scalar.indexCast v603
  ![0, v605.toNat, v606.toNat]

def k1_chk10 (k1_t1 : Fin k1_t1_loop.trips) (v588 : BitVec 32) : Prop :=
  (∀ a, (k1_off39 k1_t1 v588) a + S1x1x16.size a ≤ S2x128x128.size a) ∧
  (∀ a, (k1_off41 k1_t1 v588) a + S1x1x16.size a ≤ S2x128x128.size a)
instance k1_chk10.dec : ∀ (k1_t1 : Fin k1_t1_loop.trips) (v588 : BitVec 32), Decidable (k1_chk10 k1_t1 v588) := fun k1_t1 v588 => decidable_of_iff' _ (Iff.of_eq (k1_chk10.eq_1 k1_t1 v588))
theorem k1_off39_inb : ∀ (k1_t1 : Fin k1_t1_loop.trips) (v588 : BitVec 32) (k1_hw10 : k1_chk10 k1_t1 v588), ∀ a, (k1_off39 k1_t1 v588) a + S1x1x16.size a ≤ S2x128x128.size a := fun k1_t1 v588 k1_hw10 => k1_hw10.1
theorem k1_off41_inb : ∀ (k1_t1 : Fin k1_t1_loop.trips) (v588 : BitVec 32) (k1_hw10 : k1_chk10 k1_t1 v588), ∀ a, (k1_off41 k1_t1 v588) a + S1x1x16.size a ≤ S2x128x128.size a := fun k1_t1 v588 k1_hw10 => k1_hw10.2

def k1_off42 (k1_t1 : Fin k1_t1_loop.trips) : Fin 2 → Nat :=
  let c0_i32_328 : BitVec 32 := 0#32
  let c0_i32_175 : BitVec 32 := 0#32
  let c1_i32_176 : BitVec 32 := 1#32
  let arg10 : BitVec 32 := Scf.iv c0_i32_175 c1_i32_176 k1_t1
  let c16_i32_322 : BitVec 32 := 16#32
  let v591 : BitVec 32 := Scalar.muli arg10 c16_i32_322
  let c9_i32 : BitVec 32 := 9#32
  let v592 : BitVec 32 := Scalar.addi v591 c9_i32
  let v609 : BitVec 32 := Scalar.addi c0_i32_328 v592
  let v610 : Index := Scalar.indexCast v609
  let c16_329 : Index := 16#32
  ![v610.toNat, 16]
def k1_off43 (k1_t1 : Fin k1_t1_loop.trips) (v615 : BitVec 32) : Fin 3 → Nat :=
  let c0_i32_333 : BitVec 32 := 0#32
  let v620 : Index := Scalar.indexCast c0_i32_333
  let c0_i32_175 : BitVec 32 := 0#32
  let c1_i32_176 : BitVec 32 := 1#32
  let arg10 : BitVec 32 := Scf.iv c0_i32_175 c1_i32_176 k1_t1
  let c16_i32_332 : BitVec 32 := 16#32
  let v618 : BitVec 32 := Scalar.muli arg10 c16_i32_332
  let c10_i32 : BitVec 32 := 10#32
  let v619 : BitVec 32 := Scalar.addi v618 c10_i32
  let v621 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let v622 : Index := Scalar.indexCast v617
  ![0, v621.toNat, v622.toNat]

def k1_off44 (k1_t1 : Fin k1_t1_loop.trips) : Fin 2 → Nat :=
  let c0_i32_334 : BitVec 32 := 0#32
  let c0_i32_175 : BitVec 32 := 0#32
  let c1_i32_176 : BitVec 32 := 1#32
  let arg10 : BitVec 32 := Scf.iv c0_i32_175 c1_i32_176 k1_t1
  let c16_i32_332 : BitVec 32 := 16#32
  let v618 : BitVec 32 := Scalar.muli arg10 c16_i32_332
  let c10_i32 : BitVec 32 := 10#32
  let v619 : BitVec 32 := Scalar.addi v618 c10_i32
  let v625 : BitVec 32 := Scalar.addi c0_i32_334 v619
  let v626 : Index := Scalar.indexCast v625
  let c0_335 : Index := 0#32
  ![v626.toNat, 0]
def k1_off45 (k1_t1 : Fin k1_t1_loop.trips) (v615 : BitVec 32) : Fin 3 → Nat :=
  let c0_i32_337 : BitVec 32 := 0#32
  let v631 : Index := Scalar.indexCast c0_i32_337
  let c0_i32_175 : BitVec 32 := 0#32
  let c1_i32_176 : BitVec 32 := 1#32
  let arg10 : BitVec 32 := Scf.iv c0_i32_175 c1_i32_176 k1_t1
  let c16_i32_332 : BitVec 32 := 16#32
  let v618 : BitVec 32 := Scalar.muli arg10 c16_i32_332
  let c10_i32 : BitVec 32 := 10#32
  let v619 : BitVec 32 := Scalar.addi v618 c10_i32
  let v632 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let c16_i32_336 : BitVec 32 := 16#32
  let v630 : BitVec 32 := Scalar.addi v617 c16_i32_336
  let v633 : Index := Scalar.indexCast v630
  ![0, v632.toNat, v633.toNat]

def k1_chk11 (k1_t1 : Fin k1_t1_loop.trips) (v615 : BitVec 32) : Prop :=
  (∀ a, (k1_off43 k1_t1 v615) a + S1x1x16.size a ≤ S2x128x128.size a) ∧
  (∀ a, (k1_off45 k1_t1 v615) a + S1x1x16.size a ≤ S2x128x128.size a)
instance k1_chk11.dec : ∀ (k1_t1 : Fin k1_t1_loop.trips) (v615 : BitVec 32), Decidable (k1_chk11 k1_t1 v615) := fun k1_t1 v615 => decidable_of_iff' _ (Iff.of_eq (k1_chk11.eq_1 k1_t1 v615))
theorem k1_off43_inb : ∀ (k1_t1 : Fin k1_t1_loop.trips) (v615 : BitVec 32) (k1_hw11 : k1_chk11 k1_t1 v615), ∀ a, (k1_off43 k1_t1 v615) a + S1x1x16.size a ≤ S2x128x128.size a := fun k1_t1 v615 k1_hw11 => k1_hw11.1
theorem k1_off45_inb : ∀ (k1_t1 : Fin k1_t1_loop.trips) (v615 : BitVec 32) (k1_hw11 : k1_chk11 k1_t1 v615), ∀ a, (k1_off45 k1_t1 v615) a + S1x1x16.size a ≤ S2x128x128.size a := fun k1_t1 v615 k1_hw11 => k1_hw11.2

def k1_off46 (k1_t1 : Fin k1_t1_loop.trips) : Fin 2 → Nat :=
  let c0_i32_338 : BitVec 32 := 0#32
  let c0_i32_175 : BitVec 32 := 0#32
  let c1_i32_176 : BitVec 32 := 1#32
  let arg10 : BitVec 32 := Scf.iv c0_i32_175 c1_i32_176 k1_t1
  let c16_i32_332 : BitVec 32 := 16#32
  let v618 : BitVec 32 := Scalar.muli arg10 c16_i32_332
  let c10_i32 : BitVec 32 := 10#32
  let v619 : BitVec 32 := Scalar.addi v618 c10_i32
  let v636 : BitVec 32 := Scalar.addi c0_i32_338 v619
  let v637 : Index := Scalar.indexCast v636
  let c16_339 : Index := 16#32
  ![v637.toNat, 16]
def k1_off47 (k1_t1 : Fin k1_t1_loop.trips) (v642 : BitVec 32) : Fin 3 → Nat :=
  let c0_i32_343 : BitVec 32 := 0#32
  let v647 : Index := Scalar.indexCast c0_i32_343
  let c0_i32_175 : BitVec 32 := 0#32
  let c1_i32_176 : BitVec 32 := 1#32
  let arg10 : BitVec 32 := Scf.iv c0_i32_175 c1_i32_176 k1_t1
  let c16_i32_342 : BitVec 32 := 16#32
  let v645 : BitVec 32 := Scalar.muli arg10 c16_i32_342
  let c11_i32 : BitVec 32 := 11#32
  let v646 : BitVec 32 := Scalar.addi v645 c11_i32
  let v648 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let v649 : Index := Scalar.indexCast v644
  ![0, v648.toNat, v649.toNat]

def k1_off48 (k1_t1 : Fin k1_t1_loop.trips) : Fin 2 → Nat :=
  let c0_i32_344 : BitVec 32 := 0#32
  let c0_i32_175 : BitVec 32 := 0#32
  let c1_i32_176 : BitVec 32 := 1#32
  let arg10 : BitVec 32 := Scf.iv c0_i32_175 c1_i32_176 k1_t1
  let c16_i32_342 : BitVec 32 := 16#32
  let v645 : BitVec 32 := Scalar.muli arg10 c16_i32_342
  let c11_i32 : BitVec 32 := 11#32
  let v646 : BitVec 32 := Scalar.addi v645 c11_i32
  let v652 : BitVec 32 := Scalar.addi c0_i32_344 v646
  let v653 : Index := Scalar.indexCast v652
  let c0_345 : Index := 0#32
  ![v653.toNat, 0]
def k1_off49 (k1_t1 : Fin k1_t1_loop.trips) (v642 : BitVec 32) : Fin 3 → Nat :=
  let c0_i32_347 : BitVec 32 := 0#32
  let v658 : Index := Scalar.indexCast c0_i32_347
  let c0_i32_175 : BitVec 32 := 0#32
  let c1_i32_176 : BitVec 32 := 1#32
  let arg10 : BitVec 32 := Scf.iv c0_i32_175 c1_i32_176 k1_t1
  let c16_i32_342 : BitVec 32 := 16#32
  let v645 : BitVec 32 := Scalar.muli arg10 c16_i32_342
  let c11_i32 : BitVec 32 := 11#32
  let v646 : BitVec 32 := Scalar.addi v645 c11_i32
  let v659 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let c16_i32_346 : BitVec 32 := 16#32
  let v657 : BitVec 32 := Scalar.addi v644 c16_i32_346
  let v660 : Index := Scalar.indexCast v657
  ![0, v659.toNat, v660.toNat]

def k1_chk12 (k1_t1 : Fin k1_t1_loop.trips) (v642 : BitVec 32) : Prop :=
  (∀ a, (k1_off47 k1_t1 v642) a + S1x1x16.size a ≤ S2x128x128.size a) ∧
  (∀ a, (k1_off49 k1_t1 v642) a + S1x1x16.size a ≤ S2x128x128.size a)
instance k1_chk12.dec : ∀ (k1_t1 : Fin k1_t1_loop.trips) (v642 : BitVec 32), Decidable (k1_chk12 k1_t1 v642) := fun k1_t1 v642 => decidable_of_iff' _ (Iff.of_eq (k1_chk12.eq_1 k1_t1 v642))
theorem k1_off47_inb : ∀ (k1_t1 : Fin k1_t1_loop.trips) (v642 : BitVec 32) (k1_hw12 : k1_chk12 k1_t1 v642), ∀ a, (k1_off47 k1_t1 v642) a + S1x1x16.size a ≤ S2x128x128.size a := fun k1_t1 v642 k1_hw12 => k1_hw12.1
theorem k1_off49_inb : ∀ (k1_t1 : Fin k1_t1_loop.trips) (v642 : BitVec 32) (k1_hw12 : k1_chk12 k1_t1 v642), ∀ a, (k1_off49 k1_t1 v642) a + S1x1x16.size a ≤ S2x128x128.size a := fun k1_t1 v642 k1_hw12 => k1_hw12.2

def k1_off50 (k1_t1 : Fin k1_t1_loop.trips) : Fin 2 → Nat :=
  let c0_i32_348 : BitVec 32 := 0#32
  let c0_i32_175 : BitVec 32 := 0#32
  let c1_i32_176 : BitVec 32 := 1#32
  let arg10 : BitVec 32 := Scf.iv c0_i32_175 c1_i32_176 k1_t1
  let c16_i32_342 : BitVec 32 := 16#32
  let v645 : BitVec 32 := Scalar.muli arg10 c16_i32_342
  let c11_i32 : BitVec 32 := 11#32
  let v646 : BitVec 32 := Scalar.addi v645 c11_i32
  let v663 : BitVec 32 := Scalar.addi c0_i32_348 v646
  let v664 : Index := Scalar.indexCast v663
  let c16_349 : Index := 16#32
  ![v664.toNat, 16]
def k1_off51 (k1_t1 : Fin k1_t1_loop.trips) (v669 : BitVec 32) : Fin 3 → Nat :=
  let c0_i32_353 : BitVec 32 := 0#32
  let v674 : Index := Scalar.indexCast c0_i32_353
  let c0_i32_175 : BitVec 32 := 0#32
  let c1_i32_176 : BitVec 32 := 1#32
  let arg10 : BitVec 32 := Scf.iv c0_i32_175 c1_i32_176 k1_t1
  let c16_i32_352 : BitVec 32 := 16#32
  let v672 : BitVec 32 := Scalar.muli arg10 c16_i32_352
  let c12_i32 : BitVec 32 := 12#32
  let v673 : BitVec 32 := Scalar.addi v672 c12_i32
  let v675 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let v676 : Index := Scalar.indexCast v671
  ![0, v675.toNat, v676.toNat]

def k1_off52 (k1_t1 : Fin k1_t1_loop.trips) : Fin 2 → Nat :=
  let c0_i32_354 : BitVec 32 := 0#32
  let c0_i32_175 : BitVec 32 := 0#32
  let c1_i32_176 : BitVec 32 := 1#32
  let arg10 : BitVec 32 := Scf.iv c0_i32_175 c1_i32_176 k1_t1
  let c16_i32_352 : BitVec 32 := 16#32
  let v672 : BitVec 32 := Scalar.muli arg10 c16_i32_352
  let c12_i32 : BitVec 32 := 12#32
  let v673 : BitVec 32 := Scalar.addi v672 c12_i32
  let v679 : BitVec 32 := Scalar.addi c0_i32_354 v673
  let v680 : Index := Scalar.indexCast v679
  let c0_355 : Index := 0#32
  ![v680.toNat, 0]
def k1_off53 (k1_t1 : Fin k1_t1_loop.trips) (v669 : BitVec 32) : Fin 3 → Nat :=
  let c0_i32_357 : BitVec 32 := 0#32
  let v685 : Index := Scalar.indexCast c0_i32_357
  let c0_i32_175 : BitVec 32 := 0#32
  let c1_i32_176 : BitVec 32 := 1#32
  let arg10 : BitVec 32 := Scf.iv c0_i32_175 c1_i32_176 k1_t1
  let c16_i32_352 : BitVec 32 := 16#32
  let v672 : BitVec 32 := Scalar.muli arg10 c16_i32_352
  let c12_i32 : BitVec 32 := 12#32
  let v673 : BitVec 32 := Scalar.addi v672 c12_i32
  let v686 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let c16_i32_356 : BitVec 32 := 16#32
  let v684 : BitVec 32 := Scalar.addi v671 c16_i32_356
  let v687 : Index := Scalar.indexCast v684
  ![0, v686.toNat, v687.toNat]

def k1_chk13 (k1_t1 : Fin k1_t1_loop.trips) (v669 : BitVec 32) : Prop :=
  (∀ a, (k1_off51 k1_t1 v669) a + S1x1x16.size a ≤ S2x128x128.size a) ∧
  (∀ a, (k1_off53 k1_t1 v669) a + S1x1x16.size a ≤ S2x128x128.size a)
instance k1_chk13.dec : ∀ (k1_t1 : Fin k1_t1_loop.trips) (v669 : BitVec 32), Decidable (k1_chk13 k1_t1 v669) := fun k1_t1 v669 => decidable_of_iff' _ (Iff.of_eq (k1_chk13.eq_1 k1_t1 v669))
theorem k1_off51_inb : ∀ (k1_t1 : Fin k1_t1_loop.trips) (v669 : BitVec 32) (k1_hw13 : k1_chk13 k1_t1 v669), ∀ a, (k1_off51 k1_t1 v669) a + S1x1x16.size a ≤ S2x128x128.size a := fun k1_t1 v669 k1_hw13 => k1_hw13.1
theorem k1_off53_inb : ∀ (k1_t1 : Fin k1_t1_loop.trips) (v669 : BitVec 32) (k1_hw13 : k1_chk13 k1_t1 v669), ∀ a, (k1_off53 k1_t1 v669) a + S1x1x16.size a ≤ S2x128x128.size a := fun k1_t1 v669 k1_hw13 => k1_hw13.2

def k1_off54 (k1_t1 : Fin k1_t1_loop.trips) : Fin 2 → Nat :=
  let c0_i32_358 : BitVec 32 := 0#32
  let c0_i32_175 : BitVec 32 := 0#32
  let c1_i32_176 : BitVec 32 := 1#32
  let arg10 : BitVec 32 := Scf.iv c0_i32_175 c1_i32_176 k1_t1
  let c16_i32_352 : BitVec 32 := 16#32
  let v672 : BitVec 32 := Scalar.muli arg10 c16_i32_352
  let c12_i32 : BitVec 32 := 12#32
  let v673 : BitVec 32 := Scalar.addi v672 c12_i32
  let v690 : BitVec 32 := Scalar.addi c0_i32_358 v673
  let v691 : Index := Scalar.indexCast v690
  let c16_359 : Index := 16#32
  ![v691.toNat, 16]
def k1_off55 (k1_t1 : Fin k1_t1_loop.trips) (v696 : BitVec 32) : Fin 3 → Nat :=
  let c0_i32_363 : BitVec 32 := 0#32
  let v701 : Index := Scalar.indexCast c0_i32_363
  let c0_i32_175 : BitVec 32 := 0#32
  let c1_i32_176 : BitVec 32 := 1#32
  let arg10 : BitVec 32 := Scf.iv c0_i32_175 c1_i32_176 k1_t1
  let c16_i32_362 : BitVec 32 := 16#32
  let v699 : BitVec 32 := Scalar.muli arg10 c16_i32_362
  let c13_i32 : BitVec 32 := 13#32
  let v700 : BitVec 32 := Scalar.addi v699 c13_i32
  let v702 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let v703 : Index := Scalar.indexCast v698
  ![0, v702.toNat, v703.toNat]

def k1_off56 (k1_t1 : Fin k1_t1_loop.trips) : Fin 2 → Nat :=
  let c0_i32_364 : BitVec 32 := 0#32
  let c0_i32_175 : BitVec 32 := 0#32
  let c1_i32_176 : BitVec 32 := 1#32
  let arg10 : BitVec 32 := Scf.iv c0_i32_175 c1_i32_176 k1_t1
  let c16_i32_362 : BitVec 32 := 16#32
  let v699 : BitVec 32 := Scalar.muli arg10 c16_i32_362
  let c13_i32 : BitVec 32 := 13#32
  let v700 : BitVec 32 := Scalar.addi v699 c13_i32
  let v706 : BitVec 32 := Scalar.addi c0_i32_364 v700
  let v707 : Index := Scalar.indexCast v706
  let c0_365 : Index := 0#32
  ![v707.toNat, 0]
def k1_off57 (k1_t1 : Fin k1_t1_loop.trips) (v696 : BitVec 32) : Fin 3 → Nat :=
  let c0_i32_367 : BitVec 32 := 0#32
  let v712 : Index := Scalar.indexCast c0_i32_367
  let c0_i32_175 : BitVec 32 := 0#32
  let c1_i32_176 : BitVec 32 := 1#32
  let arg10 : BitVec 32 := Scf.iv c0_i32_175 c1_i32_176 k1_t1
  let c16_i32_362 : BitVec 32 := 16#32
  let v699 : BitVec 32 := Scalar.muli arg10 c16_i32_362
  let c13_i32 : BitVec 32 := 13#32
  let v700 : BitVec 32 := Scalar.addi v699 c13_i32
  let v713 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let c16_i32_366 : BitVec 32 := 16#32
  let v711 : BitVec 32 := Scalar.addi v698 c16_i32_366
  let v714 : Index := Scalar.indexCast v711
  ![0, v713.toNat, v714.toNat]

def k1_chk14 (k1_t1 : Fin k1_t1_loop.trips) (v696 : BitVec 32) : Prop :=
  (∀ a, (k1_off55 k1_t1 v696) a + S1x1x16.size a ≤ S2x128x128.size a) ∧
  (∀ a, (k1_off57 k1_t1 v696) a + S1x1x16.size a ≤ S2x128x128.size a)
instance k1_chk14.dec : ∀ (k1_t1 : Fin k1_t1_loop.trips) (v696 : BitVec 32), Decidable (k1_chk14 k1_t1 v696) := fun k1_t1 v696 => decidable_of_iff' _ (Iff.of_eq (k1_chk14.eq_1 k1_t1 v696))
theorem k1_off55_inb : ∀ (k1_t1 : Fin k1_t1_loop.trips) (v696 : BitVec 32) (k1_hw14 : k1_chk14 k1_t1 v696), ∀ a, (k1_off55 k1_t1 v696) a + S1x1x16.size a ≤ S2x128x128.size a := fun k1_t1 v696 k1_hw14 => k1_hw14.1
theorem k1_off57_inb : ∀ (k1_t1 : Fin k1_t1_loop.trips) (v696 : BitVec 32) (k1_hw14 : k1_chk14 k1_t1 v696), ∀ a, (k1_off57 k1_t1 v696) a + S1x1x16.size a ≤ S2x128x128.size a := fun k1_t1 v696 k1_hw14 => k1_hw14.2

def k1_off58 (k1_t1 : Fin k1_t1_loop.trips) : Fin 2 → Nat :=
  let c0_i32_368 : BitVec 32 := 0#32
  let c0_i32_175 : BitVec 32 := 0#32
  let c1_i32_176 : BitVec 32 := 1#32
  let arg10 : BitVec 32 := Scf.iv c0_i32_175 c1_i32_176 k1_t1
  let c16_i32_362 : BitVec 32 := 16#32
  let v699 : BitVec 32 := Scalar.muli arg10 c16_i32_362
  let c13_i32 : BitVec 32 := 13#32
  let v700 : BitVec 32 := Scalar.addi v699 c13_i32
  let v717 : BitVec 32 := Scalar.addi c0_i32_368 v700
  let v718 : Index := Scalar.indexCast v717
  let c16_369 : Index := 16#32
  ![v718.toNat, 16]
def k1_off59 (k1_t1 : Fin k1_t1_loop.trips) (v723 : BitVec 32) : Fin 3 → Nat :=
  let c0_i32_373 : BitVec 32 := 0#32
  let v728 : Index := Scalar.indexCast c0_i32_373
  let c0_i32_175 : BitVec 32 := 0#32
  let c1_i32_176 : BitVec 32 := 1#32
  let arg10 : BitVec 32 := Scf.iv c0_i32_175 c1_i32_176 k1_t1
  let c16_i32_372 : BitVec 32 := 16#32
  let v726 : BitVec 32 := Scalar.muli arg10 c16_i32_372
  let c14_i32 : BitVec 32 := 14#32
  let v727 : BitVec 32 := Scalar.addi v726 c14_i32
  let v729 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let v730 : Index := Scalar.indexCast v725
  ![0, v729.toNat, v730.toNat]

def k1_off60 (k1_t1 : Fin k1_t1_loop.trips) : Fin 2 → Nat :=
  let c0_i32_374 : BitVec 32 := 0#32
  let c0_i32_175 : BitVec 32 := 0#32
  let c1_i32_176 : BitVec 32 := 1#32
  let arg10 : BitVec 32 := Scf.iv c0_i32_175 c1_i32_176 k1_t1
  let c16_i32_372 : BitVec 32 := 16#32
  let v726 : BitVec 32 := Scalar.muli arg10 c16_i32_372
  let c14_i32 : BitVec 32 := 14#32
  let v727 : BitVec 32 := Scalar.addi v726 c14_i32
  let v733 : BitVec 32 := Scalar.addi c0_i32_374 v727
  let v734 : Index := Scalar.indexCast v733
  let c0_375 : Index := 0#32
  ![v734.toNat, 0]
def k1_off61 (k1_t1 : Fin k1_t1_loop.trips) (v723 : BitVec 32) : Fin 3 → Nat :=
  let c0_i32_377 : BitVec 32 := 0#32
  let v739 : Index := Scalar.indexCast c0_i32_377
  let c0_i32_175 : BitVec 32 := 0#32
  let c1_i32_176 : BitVec 32 := 1#32
  let arg10 : BitVec 32 := Scf.iv c0_i32_175 c1_i32_176 k1_t1
  let c16_i32_372 : BitVec 32 := 16#32
  let v726 : BitVec 32 := Scalar.muli arg10 c16_i32_372
  let c14_i32 : BitVec 32 := 14#32
  let v727 : BitVec 32 := Scalar.addi v726 c14_i32
  let v740 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let c16_i32_376 : BitVec 32 := 16#32
  let v738 : BitVec 32 := Scalar.addi v725 c16_i32_376
  let v741 : Index := Scalar.indexCast v738
  ![0, v740.toNat, v741.toNat]

def k1_chk15 (k1_t1 : Fin k1_t1_loop.trips) (v723 : BitVec 32) : Prop :=
  (∀ a, (k1_off59 k1_t1 v723) a + S1x1x16.size a ≤ S2x128x128.size a) ∧
  (∀ a, (k1_off61 k1_t1 v723) a + S1x1x16.size a ≤ S2x128x128.size a)
instance k1_chk15.dec : ∀ (k1_t1 : Fin k1_t1_loop.trips) (v723 : BitVec 32), Decidable (k1_chk15 k1_t1 v723) := fun k1_t1 v723 => decidable_of_iff' _ (Iff.of_eq (k1_chk15.eq_1 k1_t1 v723))
theorem k1_off59_inb : ∀ (k1_t1 : Fin k1_t1_loop.trips) (v723 : BitVec 32) (k1_hw15 : k1_chk15 k1_t1 v723), ∀ a, (k1_off59 k1_t1 v723) a + S1x1x16.size a ≤ S2x128x128.size a := fun k1_t1 v723 k1_hw15 => k1_hw15.1
theorem k1_off61_inb : ∀ (k1_t1 : Fin k1_t1_loop.trips) (v723 : BitVec 32) (k1_hw15 : k1_chk15 k1_t1 v723), ∀ a, (k1_off61 k1_t1 v723) a + S1x1x16.size a ≤ S2x128x128.size a := fun k1_t1 v723 k1_hw15 => k1_hw15.2

def k1_off62 (k1_t1 : Fin k1_t1_loop.trips) : Fin 2 → Nat :=
  let c0_i32_378 : BitVec 32 := 0#32
  let c0_i32_175 : BitVec 32 := 0#32
  let c1_i32_176 : BitVec 32 := 1#32
  let arg10 : BitVec 32 := Scf.iv c0_i32_175 c1_i32_176 k1_t1
  let c16_i32_372 : BitVec 32 := 16#32
  let v726 : BitVec 32 := Scalar.muli arg10 c16_i32_372
  let c14_i32 : BitVec 32 := 14#32
  let v727 : BitVec 32 := Scalar.addi v726 c14_i32
  let v744 : BitVec 32 := Scalar.addi c0_i32_378 v727
  let v745 : Index := Scalar.indexCast v744
  let c16_379 : Index := 16#32
  ![v745.toNat, 16]
def k1_off63 (k1_t1 : Fin k1_t1_loop.trips) (v750 : BitVec 32) : Fin 3 → Nat :=
  let c0_i32_383 : BitVec 32 := 0#32
  let v755 : Index := Scalar.indexCast c0_i32_383
  let c0_i32_175 : BitVec 32 := 0#32
  let c1_i32_176 : BitVec 32 := 1#32
  let arg10 : BitVec 32 := Scf.iv c0_i32_175 c1_i32_176 k1_t1
  let c16_i32_382 : BitVec 32 := 16#32
  let v753 : BitVec 32 := Scalar.muli arg10 c16_i32_382
  let c15_i32 : BitVec 32 := 15#32
  let v754 : BitVec 32 := Scalar.addi v753 c15_i32
  let v756 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let v757 : Index := Scalar.indexCast v752
  ![0, v756.toNat, v757.toNat]

def k1_off64 (k1_t1 : Fin k1_t1_loop.trips) : Fin 2 → Nat :=
  let c0_i32_384 : BitVec 32 := 0#32
  let c0_i32_175 : BitVec 32 := 0#32
  let c1_i32_176 : BitVec 32 := 1#32
  let arg10 : BitVec 32 := Scf.iv c0_i32_175 c1_i32_176 k1_t1
  let c16_i32_382 : BitVec 32 := 16#32
  let v753 : BitVec 32 := Scalar.muli arg10 c16_i32_382
  let c15_i32 : BitVec 32 := 15#32
  let v754 : BitVec 32 := Scalar.addi v753 c15_i32
  let v760 : BitVec 32 := Scalar.addi c0_i32_384 v754
  let v761 : Index := Scalar.indexCast v760
  let c0_385 : Index := 0#32
  ![v761.toNat, 0]
def k1_off65 (k1_t1 : Fin k1_t1_loop.trips) (v750 : BitVec 32) : Fin 3 → Nat :=
  let c0_i32_387 : BitVec 32 := 0#32
  let v766 : Index := Scalar.indexCast c0_i32_387
  let c0_i32_175 : BitVec 32 := 0#32
  let c1_i32_176 : BitVec 32 := 1#32
  let arg10 : BitVec 32 := Scf.iv c0_i32_175 c1_i32_176 k1_t1
  let c16_i32_382 : BitVec 32 := 16#32
  let v753 : BitVec 32 := Scalar.muli arg10 c16_i32_382
  let c15_i32 : BitVec 32 := 15#32
  let v754 : BitVec 32 := Scalar.addi v753 c15_i32
  let v767 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let c16_i32_386 : BitVec 32 := 16#32
  let v765 : BitVec 32 := Scalar.addi v752 c16_i32_386
  let v768 : Index := Scalar.indexCast v765
  ![0, v767.toNat, v768.toNat]

def k1_chk16 (k1_t1 : Fin k1_t1_loop.trips) (v750 : BitVec 32) : Prop :=
  (∀ a, (k1_off63 k1_t1 v750) a + S1x1x16.size a ≤ S2x128x128.size a) ∧
  (∀ a, (k1_off65 k1_t1 v750) a + S1x1x16.size a ≤ S2x128x128.size a)
instance k1_chk16.dec : ∀ (k1_t1 : Fin k1_t1_loop.trips) (v750 : BitVec 32), Decidable (k1_chk16 k1_t1 v750) := fun k1_t1 v750 => decidable_of_iff' _ (Iff.of_eq (k1_chk16.eq_1 k1_t1 v750))
theorem k1_off63_inb : ∀ (k1_t1 : Fin k1_t1_loop.trips) (v750 : BitVec 32) (k1_hw16 : k1_chk16 k1_t1 v750), ∀ a, (k1_off63 k1_t1 v750) a + S1x1x16.size a ≤ S2x128x128.size a := fun k1_t1 v750 k1_hw16 => k1_hw16.1
theorem k1_off65_inb : ∀ (k1_t1 : Fin k1_t1_loop.trips) (v750 : BitVec 32) (k1_hw16 : k1_chk16 k1_t1 v750), ∀ a, (k1_off65 k1_t1 v750) a + S1x1x16.size a ≤ S2x128x128.size a := fun k1_t1 v750 k1_hw16 => k1_hw16.2

def k1_off66 (k1_t1 : Fin k1_t1_loop.trips) : Fin 2 → Nat :=
  let c0_i32_388 : BitVec 32 := 0#32
  let c0_i32_175 : BitVec 32 := 0#32
  let c1_i32_176 : BitVec 32 := 1#32
  let arg10 : BitVec 32 := Scf.iv c0_i32_175 c1_i32_176 k1_t1
  let c16_i32_382 : BitVec 32 := 16#32
  let v753 : BitVec 32 := Scalar.muli arg10 c16_i32_382
  let c15_i32 : BitVec 32 := 15#32
  let v754 : BitVec 32 := Scalar.addi v753 c15_i32
  let v771 : BitVec 32 := Scalar.addi c0_i32_388 v754
  let v772 : Index := Scalar.indexCast v771
  let c16_389 : Index := 16#32
  ![v772.toNat, 16]
@[reducible] def k1_t2_loop : Scf.Loop 32 :=
  let c0_i32_192 : BitVec 32 := 0#32
  let c8_i32_193 : BitVec 32 := 8#32
  let v321 : BitVec 32 := Scalar.addi c0_i32_192 c8_i32_193
  let c1_i32_194 : BitVec 32 := 1#32
  ⟨c0_i32_192, v321, c1_i32_194⟩
def k1_off67 (k1_t2 : Fin k1_t2_loop.trips) : Fin 2 → Nat :=
  let c1_i32_225 : BitVec 32 := 1#32
  let v340 : Index := Scalar.indexCast c1_i32_225
  let c0_i32_192 : BitVec 32 := 0#32
  let c1_i32_194 : BitVec 32 := 1#32
  let arg10 : BitVec 32 := Scf.iv c0_i32_192 c1_i32_194 k1_t2
  let c16_i32 : BitVec 32 := 16#32
  let v339 : BitVec 32 := Scalar.muli arg10 c16_i32
  let v341 : Index := Scalar.indexCast v339
  ![1, v341.toNat]
def k1_off68 (k1_t2 : Fin k1_t2_loop.trips) (v345 : BitVec 32) : Fin 3 → Nat :=
  let c1_i32_229 : BitVec 32 := 1#32
  let v350 : Index := Scalar.indexCast c1_i32_229
  let c0_i32_192 : BitVec 32 := 0#32
  let c1_i32_194 : BitVec 32 := 1#32
  let arg10 : BitVec 32 := Scf.iv c0_i32_192 c1_i32_194 k1_t2
  let c16_i32_227 : BitVec 32 := 16#32
  let v348 : BitVec 32 := Scalar.muli arg10 c16_i32_227
  let c0_i32_228 : BitVec 32 := 0#32
  let v349 : BitVec 32 := Scalar.addi v348 c0_i32_228
  let v351 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let v352 : Index := Scalar.indexCast v347
  ![1, v351.toNat, v352.toNat]

def k1_off69 (k1_t2 : Fin k1_t2_loop.trips) : Fin 2 → Nat :=
  let c128_i32_230 : BitVec 32 := 128#32
  let c0_i32_192 : BitVec 32 := 0#32
  let c1_i32_194 : BitVec 32 := 1#32
  let arg10 : BitVec 32 := Scf.iv c0_i32_192 c1_i32_194 k1_t2
  let c16_i32_227 : BitVec 32 := 16#32
  let v348 : BitVec 32 := Scalar.muli arg10 c16_i32_227
  let c0_i32_228 : BitVec 32 := 0#32
  let v349 : BitVec 32 := Scalar.addi v348 c0_i32_228
  let v355 : BitVec 32 := Scalar.addi c128_i32_230 v349
  let v356 : Index := Scalar.indexCast v355
  let c0_231 : Index := 0#32
  ![v356.toNat, 0]
def k1_off70 (k1_t2 : Fin k1_t2_loop.trips) (v345 : BitVec 32) : Fin 3 → Nat :=
  let c1_i32_233 : BitVec 32 := 1#32
  let v361 : Index := Scalar.indexCast c1_i32_233
  let c0_i32_192 : BitVec 32 := 0#32
  let c1_i32_194 : BitVec 32 := 1#32
  let arg10 : BitVec 32 := Scf.iv c0_i32_192 c1_i32_194 k1_t2
  let c16_i32_227 : BitVec 32 := 16#32
  let v348 : BitVec 32 := Scalar.muli arg10 c16_i32_227
  let c0_i32_228 : BitVec 32 := 0#32
  let v349 : BitVec 32 := Scalar.addi v348 c0_i32_228
  let v362 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let c16_i32_232 : BitVec 32 := 16#32
  let v360 : BitVec 32 := Scalar.addi v347 c16_i32_232
  let v363 : Index := Scalar.indexCast v360
  ![1, v362.toNat, v363.toNat]

def k1_chk17 (k1_t2 : Fin k1_t2_loop.trips) (v345 : BitVec 32) : Prop :=
  (∀ a, (k1_off68 k1_t2 v345) a + S1x1x16.size a ≤ S2x128x128.size a) ∧
  (∀ a, (k1_off70 k1_t2 v345) a + S1x1x16.size a ≤ S2x128x128.size a)
instance k1_chk17.dec : ∀ (k1_t2 : Fin k1_t2_loop.trips) (v345 : BitVec 32), Decidable (k1_chk17 k1_t2 v345) := fun k1_t2 v345 => decidable_of_iff' _ (Iff.of_eq (k1_chk17.eq_1 k1_t2 v345))
theorem k1_off68_inb : ∀ (k1_t2 : Fin k1_t2_loop.trips) (v345 : BitVec 32) (k1_hw17 : k1_chk17 k1_t2 v345), ∀ a, (k1_off68 k1_t2 v345) a + S1x1x16.size a ≤ S2x128x128.size a := fun k1_t2 v345 k1_hw17 => k1_hw17.1
theorem k1_off70_inb : ∀ (k1_t2 : Fin k1_t2_loop.trips) (v345 : BitVec 32) (k1_hw17 : k1_chk17 k1_t2 v345), ∀ a, (k1_off70 k1_t2 v345) a + S1x1x16.size a ≤ S2x128x128.size a := fun k1_t2 v345 k1_hw17 => k1_hw17.2

def k1_off71 (k1_t2 : Fin k1_t2_loop.trips) : Fin 2 → Nat :=
  let c128_i32_234 : BitVec 32 := 128#32
  let c0_i32_192 : BitVec 32 := 0#32
  let c1_i32_194 : BitVec 32 := 1#32
  let arg10 : BitVec 32 := Scf.iv c0_i32_192 c1_i32_194 k1_t2
  let c16_i32_227 : BitVec 32 := 16#32
  let v348 : BitVec 32 := Scalar.muli arg10 c16_i32_227
  let c0_i32_228 : BitVec 32 := 0#32
  let v349 : BitVec 32 := Scalar.addi v348 c0_i32_228
  let v366 : BitVec 32 := Scalar.addi c128_i32_234 v349
  let v367 : Index := Scalar.indexCast v366
  let c16_235 : Index := 16#32
  ![v367.toNat, 16]
def k1_off72 (k1_t2 : Fin k1_t2_loop.trips) (v372 : BitVec 32) : Fin 3 → Nat :=
  let c1_i32_240 : BitVec 32 := 1#32
  let v377 : Index := Scalar.indexCast c1_i32_240
  let c0_i32_192 : BitVec 32 := 0#32
  let c1_i32_194 : BitVec 32 := 1#32
  let arg10 : BitVec 32 := Scf.iv c0_i32_192 c1_i32_194 k1_t2
  let c16_i32_238 : BitVec 32 := 16#32
  let v375 : BitVec 32 := Scalar.muli arg10 c16_i32_238
  let c1_i32_239 : BitVec 32 := 1#32
  let v376 : BitVec 32 := Scalar.addi v375 c1_i32_239
  let v378 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let v379 : Index := Scalar.indexCast v374
  ![1, v378.toNat, v379.toNat]

def k1_off73 (k1_t2 : Fin k1_t2_loop.trips) : Fin 2 → Nat :=
  let c128_i32_241 : BitVec 32 := 128#32
  let c0_i32_192 : BitVec 32 := 0#32
  let c1_i32_194 : BitVec 32 := 1#32
  let arg10 : BitVec 32 := Scf.iv c0_i32_192 c1_i32_194 k1_t2
  let c16_i32_238 : BitVec 32 := 16#32
  let v375 : BitVec 32 := Scalar.muli arg10 c16_i32_238
  let c1_i32_239 : BitVec 32 := 1#32
  let v376 : BitVec 32 := Scalar.addi v375 c1_i32_239
  let v382 : BitVec 32 := Scalar.addi c128_i32_241 v376
  let v383 : Index := Scalar.indexCast v382
  let c0_242 : Index := 0#32
  ![v383.toNat, 0]
def k1_off74 (k1_t2 : Fin k1_t2_loop.trips) (v372 : BitVec 32) : Fin 3 → Nat :=
  let c1_i32_244 : BitVec 32 := 1#32
  let v388 : Index := Scalar.indexCast c1_i32_244
  let c0_i32_192 : BitVec 32 := 0#32
  let c1_i32_194 : BitVec 32 := 1#32
  let arg10 : BitVec 32 := Scf.iv c0_i32_192 c1_i32_194 k1_t2
  let c16_i32_238 : BitVec 32 := 16#32
  let v375 : BitVec 32 := Scalar.muli arg10 c16_i32_238
  let c1_i32_239 : BitVec 32 := 1#32
  let v376 : BitVec 32 := Scalar.addi v375 c1_i32_239
  let v389 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let c16_i32_243 : BitVec 32 := 16#32
  let v387 : BitVec 32 := Scalar.addi v374 c16_i32_243
  let v390 : Index := Scalar.indexCast v387
  ![1, v389.toNat, v390.toNat]

def k1_chk18 (k1_t2 : Fin k1_t2_loop.trips) (v372 : BitVec 32) : Prop :=
  (∀ a, (k1_off72 k1_t2 v372) a + S1x1x16.size a ≤ S2x128x128.size a) ∧
  (∀ a, (k1_off74 k1_t2 v372) a + S1x1x16.size a ≤ S2x128x128.size a)
instance k1_chk18.dec : ∀ (k1_t2 : Fin k1_t2_loop.trips) (v372 : BitVec 32), Decidable (k1_chk18 k1_t2 v372) := fun k1_t2 v372 => decidable_of_iff' _ (Iff.of_eq (k1_chk18.eq_1 k1_t2 v372))
theorem k1_off72_inb : ∀ (k1_t2 : Fin k1_t2_loop.trips) (v372 : BitVec 32) (k1_hw18 : k1_chk18 k1_t2 v372), ∀ a, (k1_off72 k1_t2 v372) a + S1x1x16.size a ≤ S2x128x128.size a := fun k1_t2 v372 k1_hw18 => k1_hw18.1
theorem k1_off74_inb : ∀ (k1_t2 : Fin k1_t2_loop.trips) (v372 : BitVec 32) (k1_hw18 : k1_chk18 k1_t2 v372), ∀ a, (k1_off74 k1_t2 v372) a + S1x1x16.size a ≤ S2x128x128.size a := fun k1_t2 v372 k1_hw18 => k1_hw18.2

def k1_off75 (k1_t2 : Fin k1_t2_loop.trips) : Fin 2 → Nat :=
  let c128_i32_245 : BitVec 32 := 128#32
  let c0_i32_192 : BitVec 32 := 0#32
  let c1_i32_194 : BitVec 32 := 1#32
  let arg10 : BitVec 32 := Scf.iv c0_i32_192 c1_i32_194 k1_t2
  let c16_i32_238 : BitVec 32 := 16#32
  let v375 : BitVec 32 := Scalar.muli arg10 c16_i32_238
  let c1_i32_239 : BitVec 32 := 1#32
  let v376 : BitVec 32 := Scalar.addi v375 c1_i32_239
  let v393 : BitVec 32 := Scalar.addi c128_i32_245 v376
  let v394 : Index := Scalar.indexCast v393
  let c16_246 : Index := 16#32
  ![v394.toNat, 16]
def k1_off76 (k1_t2 : Fin k1_t2_loop.trips) (v399 : BitVec 32) : Fin 3 → Nat :=
  let c1_i32_251 : BitVec 32 := 1#32
  let v404 : Index := Scalar.indexCast c1_i32_251
  let c0_i32_192 : BitVec 32 := 0#32
  let c1_i32_194 : BitVec 32 := 1#32
  let arg10 : BitVec 32 := Scf.iv c0_i32_192 c1_i32_194 k1_t2
  let c16_i32_249 : BitVec 32 := 16#32
  let v402 : BitVec 32 := Scalar.muli arg10 c16_i32_249
  let c2_i32_250 : BitVec 32 := 2#32
  let v403 : BitVec 32 := Scalar.addi v402 c2_i32_250
  let v405 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let v406 : Index := Scalar.indexCast v401
  ![1, v405.toNat, v406.toNat]

def k1_off77 (k1_t2 : Fin k1_t2_loop.trips) : Fin 2 → Nat :=
  let c128_i32_252 : BitVec 32 := 128#32
  let c0_i32_192 : BitVec 32 := 0#32
  let c1_i32_194 : BitVec 32 := 1#32
  let arg10 : BitVec 32 := Scf.iv c0_i32_192 c1_i32_194 k1_t2
  let c16_i32_249 : BitVec 32 := 16#32
  let v402 : BitVec 32 := Scalar.muli arg10 c16_i32_249
  let c2_i32_250 : BitVec 32 := 2#32
  let v403 : BitVec 32 := Scalar.addi v402 c2_i32_250
  let v409 : BitVec 32 := Scalar.addi c128_i32_252 v403
  let v410 : Index := Scalar.indexCast v409
  let c0_253 : Index := 0#32
  ![v410.toNat, 0]
def k1_off78 (k1_t2 : Fin k1_t2_loop.trips) (v399 : BitVec 32) : Fin 3 → Nat :=
  let c1_i32_255 : BitVec 32 := 1#32
  let v415 : Index := Scalar.indexCast c1_i32_255
  let c0_i32_192 : BitVec 32 := 0#32
  let c1_i32_194 : BitVec 32 := 1#32
  let arg10 : BitVec 32 := Scf.iv c0_i32_192 c1_i32_194 k1_t2
  let c16_i32_249 : BitVec 32 := 16#32
  let v402 : BitVec 32 := Scalar.muli arg10 c16_i32_249
  let c2_i32_250 : BitVec 32 := 2#32
  let v403 : BitVec 32 := Scalar.addi v402 c2_i32_250
  let v416 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let c16_i32_254 : BitVec 32 := 16#32
  let v414 : BitVec 32 := Scalar.addi v401 c16_i32_254
  let v417 : Index := Scalar.indexCast v414
  ![1, v416.toNat, v417.toNat]

def k1_chk19 (k1_t2 : Fin k1_t2_loop.trips) (v399 : BitVec 32) : Prop :=
  (∀ a, (k1_off76 k1_t2 v399) a + S1x1x16.size a ≤ S2x128x128.size a) ∧
  (∀ a, (k1_off78 k1_t2 v399) a + S1x1x16.size a ≤ S2x128x128.size a)
instance k1_chk19.dec : ∀ (k1_t2 : Fin k1_t2_loop.trips) (v399 : BitVec 32), Decidable (k1_chk19 k1_t2 v399) := fun k1_t2 v399 => decidable_of_iff' _ (Iff.of_eq (k1_chk19.eq_1 k1_t2 v399))
theorem k1_off76_inb : ∀ (k1_t2 : Fin k1_t2_loop.trips) (v399 : BitVec 32) (k1_hw19 : k1_chk19 k1_t2 v399), ∀ a, (k1_off76 k1_t2 v399) a + S1x1x16.size a ≤ S2x128x128.size a := fun k1_t2 v399 k1_hw19 => k1_hw19.1
theorem k1_off78_inb : ∀ (k1_t2 : Fin k1_t2_loop.trips) (v399 : BitVec 32) (k1_hw19 : k1_chk19 k1_t2 v399), ∀ a, (k1_off78 k1_t2 v399) a + S1x1x16.size a ≤ S2x128x128.size a := fun k1_t2 v399 k1_hw19 => k1_hw19.2

def k1_off79 (k1_t2 : Fin k1_t2_loop.trips) : Fin 2 → Nat :=
  let c128_i32_256 : BitVec 32 := 128#32
  let c0_i32_192 : BitVec 32 := 0#32
  let c1_i32_194 : BitVec 32 := 1#32
  let arg10 : BitVec 32 := Scf.iv c0_i32_192 c1_i32_194 k1_t2
  let c16_i32_249 : BitVec 32 := 16#32
  let v402 : BitVec 32 := Scalar.muli arg10 c16_i32_249
  let c2_i32_250 : BitVec 32 := 2#32
  let v403 : BitVec 32 := Scalar.addi v402 c2_i32_250
  let v420 : BitVec 32 := Scalar.addi c128_i32_256 v403
  let v421 : Index := Scalar.indexCast v420
  let c16_257 : Index := 16#32
  ![v421.toNat, 16]
def k1_off80 (k1_t2 : Fin k1_t2_loop.trips) (v426 : BitVec 32) : Fin 3 → Nat :=
  let c1_i32_262 : BitVec 32 := 1#32
  let v431 : Index := Scalar.indexCast c1_i32_262
  let c0_i32_192 : BitVec 32 := 0#32
  let c1_i32_194 : BitVec 32 := 1#32
  let arg10 : BitVec 32 := Scf.iv c0_i32_192 c1_i32_194 k1_t2
  let c16_i32_260 : BitVec 32 := 16#32
  let v429 : BitVec 32 := Scalar.muli arg10 c16_i32_260
  let c3_i32_261 : BitVec 32 := 3#32
  let v430 : BitVec 32 := Scalar.addi v429 c3_i32_261
  let v432 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let v433 : Index := Scalar.indexCast v428
  ![1, v432.toNat, v433.toNat]

def k1_off81 (k1_t2 : Fin k1_t2_loop.trips) : Fin 2 → Nat :=
  let c128_i32_263 : BitVec 32 := 128#32
  let c0_i32_192 : BitVec 32 := 0#32
  let c1_i32_194 : BitVec 32 := 1#32
  let arg10 : BitVec 32 := Scf.iv c0_i32_192 c1_i32_194 k1_t2
  let c16_i32_260 : BitVec 32 := 16#32
  let v429 : BitVec 32 := Scalar.muli arg10 c16_i32_260
  let c3_i32_261 : BitVec 32 := 3#32
  let v430 : BitVec 32 := Scalar.addi v429 c3_i32_261
  let v436 : BitVec 32 := Scalar.addi c128_i32_263 v430
  let v437 : Index := Scalar.indexCast v436
  let c0_264 : Index := 0#32
  ![v437.toNat, 0]
def k1_off82 (k1_t2 : Fin k1_t2_loop.trips) (v426 : BitVec 32) : Fin 3 → Nat :=
  let c1_i32_266 : BitVec 32 := 1#32
  let v442 : Index := Scalar.indexCast c1_i32_266
  let c0_i32_192 : BitVec 32 := 0#32
  let c1_i32_194 : BitVec 32 := 1#32
  let arg10 : BitVec 32 := Scf.iv c0_i32_192 c1_i32_194 k1_t2
  let c16_i32_260 : BitVec 32 := 16#32
  let v429 : BitVec 32 := Scalar.muli arg10 c16_i32_260
  let c3_i32_261 : BitVec 32 := 3#32
  let v430 : BitVec 32 := Scalar.addi v429 c3_i32_261
  let v443 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let c16_i32_265 : BitVec 32 := 16#32
  let v441 : BitVec 32 := Scalar.addi v428 c16_i32_265
  let v444 : Index := Scalar.indexCast v441
  ![1, v443.toNat, v444.toNat]

def k1_chk20 (k1_t2 : Fin k1_t2_loop.trips) (v426 : BitVec 32) : Prop :=
  (∀ a, (k1_off80 k1_t2 v426) a + S1x1x16.size a ≤ S2x128x128.size a) ∧
  (∀ a, (k1_off82 k1_t2 v426) a + S1x1x16.size a ≤ S2x128x128.size a)
instance k1_chk20.dec : ∀ (k1_t2 : Fin k1_t2_loop.trips) (v426 : BitVec 32), Decidable (k1_chk20 k1_t2 v426) := fun k1_t2 v426 => decidable_of_iff' _ (Iff.of_eq (k1_chk20.eq_1 k1_t2 v426))
theorem k1_off80_inb : ∀ (k1_t2 : Fin k1_t2_loop.trips) (v426 : BitVec 32) (k1_hw20 : k1_chk20 k1_t2 v426), ∀ a, (k1_off80 k1_t2 v426) a + S1x1x16.size a ≤ S2x128x128.size a := fun k1_t2 v426 k1_hw20 => k1_hw20.1
theorem k1_off82_inb : ∀ (k1_t2 : Fin k1_t2_loop.trips) (v426 : BitVec 32) (k1_hw20 : k1_chk20 k1_t2 v426), ∀ a, (k1_off82 k1_t2 v426) a + S1x1x16.size a ≤ S2x128x128.size a := fun k1_t2 v426 k1_hw20 => k1_hw20.2

def k1_off83 (k1_t2 : Fin k1_t2_loop.trips) : Fin 2 → Nat :=
  let c128_i32_267 : BitVec 32 := 128#32
  let c0_i32_192 : BitVec 32 := 0#32
  let c1_i32_194 : BitVec 32 := 1#32
  let arg10 : BitVec 32 := Scf.iv c0_i32_192 c1_i32_194 k1_t2
  let c16_i32_260 : BitVec 32 := 16#32
  let v429 : BitVec 32 := Scalar.muli arg10 c16_i32_260
  let c3_i32_261 : BitVec 32 := 3#32
  let v430 : BitVec 32 := Scalar.addi v429 c3_i32_261
  let v447 : BitVec 32 := Scalar.addi c128_i32_267 v430
  let v448 : Index := Scalar.indexCast v447
  let c16_268 : Index := 16#32
  ![v448.toNat, 16]
def k1_off84 (k1_t2 : Fin k1_t2_loop.trips) (v453 : BitVec 32) : Fin 3 → Nat :=
  let c1_i32_272 : BitVec 32 := 1#32
  let v458 : Index := Scalar.indexCast c1_i32_272
  let c0_i32_192 : BitVec 32 := 0#32
  let c1_i32_194 : BitVec 32 := 1#32
  let arg10 : BitVec 32 := Scf.iv c0_i32_192 c1_i32_194 k1_t2
  let c16_i32_271 : BitVec 32 := 16#32
  let v456 : BitVec 32 := Scalar.muli arg10 c16_i32_271
  let c4_i32 : BitVec 32 := 4#32
  let v457 : BitVec 32 := Scalar.addi v456 c4_i32
  let v459 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let v460 : Index := Scalar.indexCast v455
  ![1, v459.toNat, v460.toNat]

def k1_off85 (k1_t2 : Fin k1_t2_loop.trips) : Fin 2 → Nat :=
  let c128_i32_273 : BitVec 32 := 128#32
  let c0_i32_192 : BitVec 32 := 0#32
  let c1_i32_194 : BitVec 32 := 1#32
  let arg10 : BitVec 32 := Scf.iv c0_i32_192 c1_i32_194 k1_t2
  let c16_i32_271 : BitVec 32 := 16#32
  let v456 : BitVec 32 := Scalar.muli arg10 c16_i32_271
  let c4_i32 : BitVec 32 := 4#32
  let v457 : BitVec 32 := Scalar.addi v456 c4_i32
  let v463 : BitVec 32 := Scalar.addi c128_i32_273 v457
  let v464 : Index := Scalar.indexCast v463
  let c0_274 : Index := 0#32
  ![v464.toNat, 0]
def k1_off86 (k1_t2 : Fin k1_t2_loop.trips) (v453 : BitVec 32) : Fin 3 → Nat :=
  let c1_i32_276 : BitVec 32 := 1#32
  let v469 : Index := Scalar.indexCast c1_i32_276
  let c0_i32_192 : BitVec 32 := 0#32
  let c1_i32_194 : BitVec 32 := 1#32
  let arg10 : BitVec 32 := Scf.iv c0_i32_192 c1_i32_194 k1_t2
  let c16_i32_271 : BitVec 32 := 16#32
  let v456 : BitVec 32 := Scalar.muli arg10 c16_i32_271
  let c4_i32 : BitVec 32 := 4#32
  let v457 : BitVec 32 := Scalar.addi v456 c4_i32
  let v470 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let c16_i32_275 : BitVec 32 := 16#32
  let v468 : BitVec 32 := Scalar.addi v455 c16_i32_275
  let v471 : Index := Scalar.indexCast v468
  ![1, v470.toNat, v471.toNat]

def k1_chk21 (k1_t2 : Fin k1_t2_loop.trips) (v453 : BitVec 32) : Prop :=
  (∀ a, (k1_off84 k1_t2 v453) a + S1x1x16.size a ≤ S2x128x128.size a) ∧
  (∀ a, (k1_off86 k1_t2 v453) a + S1x1x16.size a ≤ S2x128x128.size a)
instance k1_chk21.dec : ∀ (k1_t2 : Fin k1_t2_loop.trips) (v453 : BitVec 32), Decidable (k1_chk21 k1_t2 v453) := fun k1_t2 v453 => decidable_of_iff' _ (Iff.of_eq (k1_chk21.eq_1 k1_t2 v453))
theorem k1_off84_inb : ∀ (k1_t2 : Fin k1_t2_loop.trips) (v453 : BitVec 32) (k1_hw21 : k1_chk21 k1_t2 v453), ∀ a, (k1_off84 k1_t2 v453) a + S1x1x16.size a ≤ S2x128x128.size a := fun k1_t2 v453 k1_hw21 => k1_hw21.1
theorem k1_off86_inb : ∀ (k1_t2 : Fin k1_t2_loop.trips) (v453 : BitVec 32) (k1_hw21 : k1_chk21 k1_t2 v453), ∀ a, (k1_off86 k1_t2 v453) a + S1x1x16.size a ≤ S2x128x128.size a := fun k1_t2 v453 k1_hw21 => k1_hw21.2

def k1_off87 (k1_t2 : Fin k1_t2_loop.trips) : Fin 2 → Nat :=
  let c128_i32_277 : BitVec 32 := 128#32
  let c0_i32_192 : BitVec 32 := 0#32
  let c1_i32_194 : BitVec 32 := 1#32
  let arg10 : BitVec 32 := Scf.iv c0_i32_192 c1_i32_194 k1_t2
  let c16_i32_271 : BitVec 32 := 16#32
  let v456 : BitVec 32 := Scalar.muli arg10 c16_i32_271
  let c4_i32 : BitVec 32 := 4#32
  let v457 : BitVec 32 := Scalar.addi v456 c4_i32
  let v474 : BitVec 32 := Scalar.addi c128_i32_277 v457
  let v475 : Index := Scalar.indexCast v474
  let c16_278 : Index := 16#32
  ![v475.toNat, 16]
def k1_off88 (k1_t2 : Fin k1_t2_loop.trips) (v480 : BitVec 32) : Fin 3 → Nat :=
  let c1_i32_282 : BitVec 32 := 1#32
  let v485 : Index := Scalar.indexCast c1_i32_282
  let c0_i32_192 : BitVec 32 := 0#32
  let c1_i32_194 : BitVec 32 := 1#32
  let arg10 : BitVec 32 := Scf.iv c0_i32_192 c1_i32_194 k1_t2
  let c16_i32_281 : BitVec 32 := 16#32
  let v483 : BitVec 32 := Scalar.muli arg10 c16_i32_281
  let c5_i32 : BitVec 32 := 5#32
  let v484 : BitVec 32 := Scalar.addi v483 c5_i32
  let v486 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let v487 : Index := Scalar.indexCast v482
  ![1, v486.toNat, v487.toNat]

def k1_off89 (k1_t2 : Fin k1_t2_loop.trips) : Fin 2 → Nat :=
  let c128_i32_283 : BitVec 32 := 128#32
  let c0_i32_192 : BitVec 32 := 0#32
  let c1_i32_194 : BitVec 32 := 1#32
  let arg10 : BitVec 32 := Scf.iv c0_i32_192 c1_i32_194 k1_t2
  let c16_i32_281 : BitVec 32 := 16#32
  let v483 : BitVec 32 := Scalar.muli arg10 c16_i32_281
  let c5_i32 : BitVec 32 := 5#32
  let v484 : BitVec 32 := Scalar.addi v483 c5_i32
  let v490 : BitVec 32 := Scalar.addi c128_i32_283 v484
  let v491 : Index := Scalar.indexCast v490
  let c0_284 : Index := 0#32
  ![v491.toNat, 0]
def k1_off90 (k1_t2 : Fin k1_t2_loop.trips) (v480 : BitVec 32) : Fin 3 → Nat :=
  let c1_i32_286 : BitVec 32 := 1#32
  let v496 : Index := Scalar.indexCast c1_i32_286
  let c0_i32_192 : BitVec 32 := 0#32
  let c1_i32_194 : BitVec 32 := 1#32
  let arg10 : BitVec 32 := Scf.iv c0_i32_192 c1_i32_194 k1_t2
  let c16_i32_281 : BitVec 32 := 16#32
  let v483 : BitVec 32 := Scalar.muli arg10 c16_i32_281
  let c5_i32 : BitVec 32 := 5#32
  let v484 : BitVec 32 := Scalar.addi v483 c5_i32
  let v497 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let c16_i32_285 : BitVec 32 := 16#32
  let v495 : BitVec 32 := Scalar.addi v482 c16_i32_285
  let v498 : Index := Scalar.indexCast v495
  ![1, v497.toNat, v498.toNat]

def k1_chk22 (k1_t2 : Fin k1_t2_loop.trips) (v480 : BitVec 32) : Prop :=
  (∀ a, (k1_off88 k1_t2 v480) a + S1x1x16.size a ≤ S2x128x128.size a) ∧
  (∀ a, (k1_off90 k1_t2 v480) a + S1x1x16.size a ≤ S2x128x128.size a)
instance k1_chk22.dec : ∀ (k1_t2 : Fin k1_t2_loop.trips) (v480 : BitVec 32), Decidable (k1_chk22 k1_t2 v480) := fun k1_t2 v480 => decidable_of_iff' _ (Iff.of_eq (k1_chk22.eq_1 k1_t2 v480))
theorem k1_off88_inb : ∀ (k1_t2 : Fin k1_t2_loop.trips) (v480 : BitVec 32) (k1_hw22 : k1_chk22 k1_t2 v480), ∀ a, (k1_off88 k1_t2 v480) a + S1x1x16.size a ≤ S2x128x128.size a := fun k1_t2 v480 k1_hw22 => k1_hw22.1
theorem k1_off90_inb : ∀ (k1_t2 : Fin k1_t2_loop.trips) (v480 : BitVec 32) (k1_hw22 : k1_chk22 k1_t2 v480), ∀ a, (k1_off90 k1_t2 v480) a + S1x1x16.size a ≤ S2x128x128.size a := fun k1_t2 v480 k1_hw22 => k1_hw22.2

def k1_off91 (k1_t2 : Fin k1_t2_loop.trips) : Fin 2 → Nat :=
  let c128_i32_287 : BitVec 32 := 128#32
  let c0_i32_192 : BitVec 32 := 0#32
  let c1_i32_194 : BitVec 32 := 1#32
  let arg10 : BitVec 32 := Scf.iv c0_i32_192 c1_i32_194 k1_t2
  let c16_i32_281 : BitVec 32 := 16#32
  let v483 : BitVec 32 := Scalar.muli arg10 c16_i32_281
  let c5_i32 : BitVec 32 := 5#32
  let v484 : BitVec 32 := Scalar.addi v483 c5_i32
  let v501 : BitVec 32 := Scalar.addi c128_i32_287 v484
  let v502 : Index := Scalar.indexCast v501
  let c16_288 : Index := 16#32
  ![v502.toNat, 16]
def k1_off92 (k1_t2 : Fin k1_t2_loop.trips) (v507 : BitVec 32) : Fin 3 → Nat :=
  let c1_i32_292 : BitVec 32 := 1#32
  let v512 : Index := Scalar.indexCast c1_i32_292
  let c0_i32_192 : BitVec 32 := 0#32
  let c1_i32_194 : BitVec 32 := 1#32
  let arg10 : BitVec 32 := Scf.iv c0_i32_192 c1_i32_194 k1_t2
  let c16_i32_291 : BitVec 32 := 16#32
  let v510 : BitVec 32 := Scalar.muli arg10 c16_i32_291
  let c6_i32 : BitVec 32 := 6#32
  let v511 : BitVec 32 := Scalar.addi v510 c6_i32
  let v513 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let v514 : Index := Scalar.indexCast v509
  ![1, v513.toNat, v514.toNat]

def k1_off93 (k1_t2 : Fin k1_t2_loop.trips) : Fin 2 → Nat :=
  let c128_i32_293 : BitVec 32 := 128#32
  let c0_i32_192 : BitVec 32 := 0#32
  let c1_i32_194 : BitVec 32 := 1#32
  let arg10 : BitVec 32 := Scf.iv c0_i32_192 c1_i32_194 k1_t2
  let c16_i32_291 : BitVec 32 := 16#32
  let v510 : BitVec 32 := Scalar.muli arg10 c16_i32_291
  let c6_i32 : BitVec 32 := 6#32
  let v511 : BitVec 32 := Scalar.addi v510 c6_i32
  let v517 : BitVec 32 := Scalar.addi c128_i32_293 v511
  let v518 : Index := Scalar.indexCast v517
  let c0_294 : Index := 0#32
  ![v518.toNat, 0]
def k1_off94 (k1_t2 : Fin k1_t2_loop.trips) (v507 : BitVec 32) : Fin 3 → Nat :=
  let c1_i32_296 : BitVec 32 := 1#32
  let v523 : Index := Scalar.indexCast c1_i32_296
  let c0_i32_192 : BitVec 32 := 0#32
  let c1_i32_194 : BitVec 32 := 1#32
  let arg10 : BitVec 32 := Scf.iv c0_i32_192 c1_i32_194 k1_t2
  let c16_i32_291 : BitVec 32 := 16#32
  let v510 : BitVec 32 := Scalar.muli arg10 c16_i32_291
  let c6_i32 : BitVec 32 := 6#32
  let v511 : BitVec 32 := Scalar.addi v510 c6_i32
  let v524 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let c16_i32_295 : BitVec 32 := 16#32
  let v522 : BitVec 32 := Scalar.addi v509 c16_i32_295
  let v525 : Index := Scalar.indexCast v522
  ![1, v524.toNat, v525.toNat]

def k1_chk23 (k1_t2 : Fin k1_t2_loop.trips) (v507 : BitVec 32) : Prop :=
  (∀ a, (k1_off92 k1_t2 v507) a + S1x1x16.size a ≤ S2x128x128.size a) ∧
  (∀ a, (k1_off94 k1_t2 v507) a + S1x1x16.size a ≤ S2x128x128.size a)
instance k1_chk23.dec : ∀ (k1_t2 : Fin k1_t2_loop.trips) (v507 : BitVec 32), Decidable (k1_chk23 k1_t2 v507) := fun k1_t2 v507 => decidable_of_iff' _ (Iff.of_eq (k1_chk23.eq_1 k1_t2 v507))
theorem k1_off92_inb : ∀ (k1_t2 : Fin k1_t2_loop.trips) (v507 : BitVec 32) (k1_hw23 : k1_chk23 k1_t2 v507), ∀ a, (k1_off92 k1_t2 v507) a + S1x1x16.size a ≤ S2x128x128.size a := fun k1_t2 v507 k1_hw23 => k1_hw23.1
theorem k1_off94_inb : ∀ (k1_t2 : Fin k1_t2_loop.trips) (v507 : BitVec 32) (k1_hw23 : k1_chk23 k1_t2 v507), ∀ a, (k1_off94 k1_t2 v507) a + S1x1x16.size a ≤ S2x128x128.size a := fun k1_t2 v507 k1_hw23 => k1_hw23.2

def k1_off95 (k1_t2 : Fin k1_t2_loop.trips) : Fin 2 → Nat :=
  let c128_i32_297 : BitVec 32 := 128#32
  let c0_i32_192 : BitVec 32 := 0#32
  let c1_i32_194 : BitVec 32 := 1#32
  let arg10 : BitVec 32 := Scf.iv c0_i32_192 c1_i32_194 k1_t2
  let c16_i32_291 : BitVec 32 := 16#32
  let v510 : BitVec 32 := Scalar.muli arg10 c16_i32_291
  let c6_i32 : BitVec 32 := 6#32
  let v511 : BitVec 32 := Scalar.addi v510 c6_i32
  let v528 : BitVec 32 := Scalar.addi c128_i32_297 v511
  let v529 : Index := Scalar.indexCast v528
  let c16_298 : Index := 16#32
  ![v529.toNat, 16]
def k1_off96 (k1_t2 : Fin k1_t2_loop.trips) (v534 : BitVec 32) : Fin 3 → Nat :=
  let c1_i32_302 : BitVec 32 := 1#32
  let v539 : Index := Scalar.indexCast c1_i32_302
  let c0_i32_192 : BitVec 32 := 0#32
  let c1_i32_194 : BitVec 32 := 1#32
  let arg10 : BitVec 32 := Scf.iv c0_i32_192 c1_i32_194 k1_t2
  let c16_i32_301 : BitVec 32 := 16#32
  let v537 : BitVec 32 := Scalar.muli arg10 c16_i32_301
  let c7_i32 : BitVec 32 := 7#32
  let v538 : BitVec 32 := Scalar.addi v537 c7_i32
  let v540 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let v541 : Index := Scalar.indexCast v536
  ![1, v540.toNat, v541.toNat]

def k1_off97 (k1_t2 : Fin k1_t2_loop.trips) : Fin 2 → Nat :=
  let c128_i32_303 : BitVec 32 := 128#32
  let c0_i32_192 : BitVec 32 := 0#32
  let c1_i32_194 : BitVec 32 := 1#32
  let arg10 : BitVec 32 := Scf.iv c0_i32_192 c1_i32_194 k1_t2
  let c16_i32_301 : BitVec 32 := 16#32
  let v537 : BitVec 32 := Scalar.muli arg10 c16_i32_301
  let c7_i32 : BitVec 32 := 7#32
  let v538 : BitVec 32 := Scalar.addi v537 c7_i32
  let v544 : BitVec 32 := Scalar.addi c128_i32_303 v538
  let v545 : Index := Scalar.indexCast v544
  let c0_304 : Index := 0#32
  ![v545.toNat, 0]
def k1_off98 (k1_t2 : Fin k1_t2_loop.trips) (v534 : BitVec 32) : Fin 3 → Nat :=
  let c1_i32_306 : BitVec 32 := 1#32
  let v550 : Index := Scalar.indexCast c1_i32_306
  let c0_i32_192 : BitVec 32 := 0#32
  let c1_i32_194 : BitVec 32 := 1#32
  let arg10 : BitVec 32 := Scf.iv c0_i32_192 c1_i32_194 k1_t2
  let c16_i32_301 : BitVec 32 := 16#32
  let v537 : BitVec 32 := Scalar.muli arg10 c16_i32_301
  let c7_i32 : BitVec 32 := 7#32
  let v538 : BitVec 32 := Scalar.addi v537 c7_i32
  let v551 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let c16_i32_305 : BitVec 32 := 16#32
  let v549 : BitVec 32 := Scalar.addi v536 c16_i32_305
  let v552 : Index := Scalar.indexCast v549
  ![1, v551.toNat, v552.toNat]

def k1_chk24 (k1_t2 : Fin k1_t2_loop.trips) (v534 : BitVec 32) : Prop :=
  (∀ a, (k1_off96 k1_t2 v534) a + S1x1x16.size a ≤ S2x128x128.size a) ∧
  (∀ a, (k1_off98 k1_t2 v534) a + S1x1x16.size a ≤ S2x128x128.size a)
instance k1_chk24.dec : ∀ (k1_t2 : Fin k1_t2_loop.trips) (v534 : BitVec 32), Decidable (k1_chk24 k1_t2 v534) := fun k1_t2 v534 => decidable_of_iff' _ (Iff.of_eq (k1_chk24.eq_1 k1_t2 v534))
theorem k1_off96_inb : ∀ (k1_t2 : Fin k1_t2_loop.trips) (v534 : BitVec 32) (k1_hw24 : k1_chk24 k1_t2 v534), ∀ a, (k1_off96 k1_t2 v534) a + S1x1x16.size a ≤ S2x128x128.size a := fun k1_t2 v534 k1_hw24 => k1_hw24.1
theorem k1_off98_inb : ∀ (k1_t2 : Fin k1_t2_loop.trips) (v534 : BitVec 32) (k1_hw24 : k1_chk24 k1_t2 v534), ∀ a, (k1_off98 k1_t2 v534) a + S1x1x16.size a ≤ S2x128x128.size a := fun k1_t2 v534 k1_hw24 => k1_hw24.2

def k1_off99 (k1_t2 : Fin k1_t2_loop.trips) : Fin 2 → Nat :=
  let c128_i32_307 : BitVec 32 := 128#32
  let c0_i32_192 : BitVec 32 := 0#32
  let c1_i32_194 : BitVec 32 := 1#32
  let arg10 : BitVec 32 := Scf.iv c0_i32_192 c1_i32_194 k1_t2
  let c16_i32_301 : BitVec 32 := 16#32
  let v537 : BitVec 32 := Scalar.muli arg10 c16_i32_301
  let c7_i32 : BitVec 32 := 7#32
  let v538 : BitVec 32 := Scalar.addi v537 c7_i32
  let v555 : BitVec 32 := Scalar.addi c128_i32_307 v538
  let v556 : Index := Scalar.indexCast v555
  let c16_308 : Index := 16#32
  ![v556.toNat, 16]
def k1_off100 (k1_t2 : Fin k1_t2_loop.trips) (v561 : BitVec 32) : Fin 3 → Nat :=
  let c1_i32_313 : BitVec 32 := 1#32
  let v566 : Index := Scalar.indexCast c1_i32_313
  let c0_i32_192 : BitVec 32 := 0#32
  let c1_i32_194 : BitVec 32 := 1#32
  let arg10 : BitVec 32 := Scf.iv c0_i32_192 c1_i32_194 k1_t2
  let c16_i32_311 : BitVec 32 := 16#32
  let v564 : BitVec 32 := Scalar.muli arg10 c16_i32_311
  let c8_i32_312 : BitVec 32 := 8#32
  let v565 : BitVec 32 := Scalar.addi v564 c8_i32_312
  let v567 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let v568 : Index := Scalar.indexCast v563
  ![1, v567.toNat, v568.toNat]

def k1_off101 (k1_t2 : Fin k1_t2_loop.trips) : Fin 2 → Nat :=
  let c128_i32_314 : BitVec 32 := 128#32
  let c0_i32_192 : BitVec 32 := 0#32
  let c1_i32_194 : BitVec 32 := 1#32
  let arg10 : BitVec 32 := Scf.iv c0_i32_192 c1_i32_194 k1_t2
  let c16_i32_311 : BitVec 32 := 16#32
  let v564 : BitVec 32 := Scalar.muli arg10 c16_i32_311
  let c8_i32_312 : BitVec 32 := 8#32
  let v565 : BitVec 32 := Scalar.addi v564 c8_i32_312
  let v571 : BitVec 32 := Scalar.addi c128_i32_314 v565
  let v572 : Index := Scalar.indexCast v571
  let c0_315 : Index := 0#32
  ![v572.toNat, 0]
def k1_off102 (k1_t2 : Fin k1_t2_loop.trips) (v561 : BitVec 32) : Fin 3 → Nat :=
  let c1_i32_317 : BitVec 32 := 1#32
  let v577 : Index := Scalar.indexCast c1_i32_317
  let c0_i32_192 : BitVec 32 := 0#32
  let c1_i32_194 : BitVec 32 := 1#32
  let arg10 : BitVec 32 := Scf.iv c0_i32_192 c1_i32_194 k1_t2
  let c16_i32_311 : BitVec 32 := 16#32
  let v564 : BitVec 32 := Scalar.muli arg10 c16_i32_311
  let c8_i32_312 : BitVec 32 := 8#32
  let v565 : BitVec 32 := Scalar.addi v564 c8_i32_312
  let v578 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let c16_i32_316 : BitVec 32 := 16#32
  let v576 : BitVec 32 := Scalar.addi v563 c16_i32_316
  let v579 : Index := Scalar.indexCast v576
  ![1, v578.toNat, v579.toNat]

def k1_chk25 (k1_t2 : Fin k1_t2_loop.trips) (v561 : BitVec 32) : Prop :=
  (∀ a, (k1_off100 k1_t2 v561) a + S1x1x16.size a ≤ S2x128x128.size a) ∧
  (∀ a, (k1_off102 k1_t2 v561) a + S1x1x16.size a ≤ S2x128x128.size a)
instance k1_chk25.dec : ∀ (k1_t2 : Fin k1_t2_loop.trips) (v561 : BitVec 32), Decidable (k1_chk25 k1_t2 v561) := fun k1_t2 v561 => decidable_of_iff' _ (Iff.of_eq (k1_chk25.eq_1 k1_t2 v561))
theorem k1_off100_inb : ∀ (k1_t2 : Fin k1_t2_loop.trips) (v561 : BitVec 32) (k1_hw25 : k1_chk25 k1_t2 v561), ∀ a, (k1_off100 k1_t2 v561) a + S1x1x16.size a ≤ S2x128x128.size a := fun k1_t2 v561 k1_hw25 => k1_hw25.1
theorem k1_off102_inb : ∀ (k1_t2 : Fin k1_t2_loop.trips) (v561 : BitVec 32) (k1_hw25 : k1_chk25 k1_t2 v561), ∀ a, (k1_off102 k1_t2 v561) a + S1x1x16.size a ≤ S2x128x128.size a := fun k1_t2 v561 k1_hw25 => k1_hw25.2

def k1_off103 (k1_t2 : Fin k1_t2_loop.trips) : Fin 2 → Nat :=
  let c128_i32_318 : BitVec 32 := 128#32
  let c0_i32_192 : BitVec 32 := 0#32
  let c1_i32_194 : BitVec 32 := 1#32
  let arg10 : BitVec 32 := Scf.iv c0_i32_192 c1_i32_194 k1_t2
  let c16_i32_311 : BitVec 32 := 16#32
  let v564 : BitVec 32 := Scalar.muli arg10 c16_i32_311
  let c8_i32_312 : BitVec 32 := 8#32
  let v565 : BitVec 32 := Scalar.addi v564 c8_i32_312
  let v582 : BitVec 32 := Scalar.addi c128_i32_318 v565
  let v583 : Index := Scalar.indexCast v582
  let c16_319 : Index := 16#32
  ![v583.toNat, 16]
def k1_off104 (k1_t2 : Fin k1_t2_loop.trips) (v588 : BitVec 32) : Fin 3 → Nat :=
  let c1_i32_323 : BitVec 32 := 1#32
  let v593 : Index := Scalar.indexCast c1_i32_323
  let c0_i32_192 : BitVec 32 := 0#32
  let c1_i32_194 : BitVec 32 := 1#32
  let arg10 : BitVec 32 := Scf.iv c0_i32_192 c1_i32_194 k1_t2
  let c16_i32_322 : BitVec 32 := 16#32
  let v591 : BitVec 32 := Scalar.muli arg10 c16_i32_322
  let c9_i32 : BitVec 32 := 9#32
  let v592 : BitVec 32 := Scalar.addi v591 c9_i32
  let v594 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let v595 : Index := Scalar.indexCast v590
  ![1, v594.toNat, v595.toNat]

def k1_off105 (k1_t2 : Fin k1_t2_loop.trips) : Fin 2 → Nat :=
  let c128_i32_324 : BitVec 32 := 128#32
  let c0_i32_192 : BitVec 32 := 0#32
  let c1_i32_194 : BitVec 32 := 1#32
  let arg10 : BitVec 32 := Scf.iv c0_i32_192 c1_i32_194 k1_t2
  let c16_i32_322 : BitVec 32 := 16#32
  let v591 : BitVec 32 := Scalar.muli arg10 c16_i32_322
  let c9_i32 : BitVec 32 := 9#32
  let v592 : BitVec 32 := Scalar.addi v591 c9_i32
  let v598 : BitVec 32 := Scalar.addi c128_i32_324 v592
  let v599 : Index := Scalar.indexCast v598
  let c0_325 : Index := 0#32
  ![v599.toNat, 0]
def k1_off106 (k1_t2 : Fin k1_t2_loop.trips) (v588 : BitVec 32) : Fin 3 → Nat :=
  let c1_i32_327 : BitVec 32 := 1#32
  let v604 : Index := Scalar.indexCast c1_i32_327
  let c0_i32_192 : BitVec 32 := 0#32
  let c1_i32_194 : BitVec 32 := 1#32
  let arg10 : BitVec 32 := Scf.iv c0_i32_192 c1_i32_194 k1_t2
  let c16_i32_322 : BitVec 32 := 16#32
  let v591 : BitVec 32 := Scalar.muli arg10 c16_i32_322
  let c9_i32 : BitVec 32 := 9#32
  let v592 : BitVec 32 := Scalar.addi v591 c9_i32
  let v605 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let c16_i32_326 : BitVec 32 := 16#32
  let v603 : BitVec 32 := Scalar.addi v590 c16_i32_326
  let v606 : Index := Scalar.indexCast v603
  ![1, v605.toNat, v606.toNat]

def k1_chk26 (k1_t2 : Fin k1_t2_loop.trips) (v588 : BitVec 32) : Prop :=
  (∀ a, (k1_off104 k1_t2 v588) a + S1x1x16.size a ≤ S2x128x128.size a) ∧
  (∀ a, (k1_off106 k1_t2 v588) a + S1x1x16.size a ≤ S2x128x128.size a)
instance k1_chk26.dec : ∀ (k1_t2 : Fin k1_t2_loop.trips) (v588 : BitVec 32), Decidable (k1_chk26 k1_t2 v588) := fun k1_t2 v588 => decidable_of_iff' _ (Iff.of_eq (k1_chk26.eq_1 k1_t2 v588))
theorem k1_off104_inb : ∀ (k1_t2 : Fin k1_t2_loop.trips) (v588 : BitVec 32) (k1_hw26 : k1_chk26 k1_t2 v588), ∀ a, (k1_off104 k1_t2 v588) a + S1x1x16.size a ≤ S2x128x128.size a := fun k1_t2 v588 k1_hw26 => k1_hw26.1
theorem k1_off106_inb : ∀ (k1_t2 : Fin k1_t2_loop.trips) (v588 : BitVec 32) (k1_hw26 : k1_chk26 k1_t2 v588), ∀ a, (k1_off106 k1_t2 v588) a + S1x1x16.size a ≤ S2x128x128.size a := fun k1_t2 v588 k1_hw26 => k1_hw26.2

def k1_off107 (k1_t2 : Fin k1_t2_loop.trips) : Fin 2 → Nat :=
  let c128_i32_328 : BitVec 32 := 128#32
  let c0_i32_192 : BitVec 32 := 0#32
  let c1_i32_194 : BitVec 32 := 1#32
  let arg10 : BitVec 32 := Scf.iv c0_i32_192 c1_i32_194 k1_t2
  let c16_i32_322 : BitVec 32 := 16#32
  let v591 : BitVec 32 := Scalar.muli arg10 c16_i32_322
  let c9_i32 : BitVec 32 := 9#32
  let v592 : BitVec 32 := Scalar.addi v591 c9_i32
  let v609 : BitVec 32 := Scalar.addi c128_i32_328 v592
  let v610 : Index := Scalar.indexCast v609
  let c16_329 : Index := 16#32
  ![v610.toNat, 16]
def k1_off108 (k1_t2 : Fin k1_t2_loop.trips) (v615 : BitVec 32) : Fin 3 → Nat :=
  let c1_i32_333 : BitVec 32 := 1#32
  let v620 : Index := Scalar.indexCast c1_i32_333
  let c0_i32_192 : BitVec 32 := 0#32
  let c1_i32_194 : BitVec 32 := 1#32
  let arg10 : BitVec 32 := Scf.iv c0_i32_192 c1_i32_194 k1_t2
  let c16_i32_332 : BitVec 32 := 16#32
  let v618 : BitVec 32 := Scalar.muli arg10 c16_i32_332
  let c10_i32 : BitVec 32 := 10#32
  let v619 : BitVec 32 := Scalar.addi v618 c10_i32
  let v621 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let v622 : Index := Scalar.indexCast v617
  ![1, v621.toNat, v622.toNat]

def k1_off109 (k1_t2 : Fin k1_t2_loop.trips) : Fin 2 → Nat :=
  let c128_i32_334 : BitVec 32 := 128#32
  let c0_i32_192 : BitVec 32 := 0#32
  let c1_i32_194 : BitVec 32 := 1#32
  let arg10 : BitVec 32 := Scf.iv c0_i32_192 c1_i32_194 k1_t2
  let c16_i32_332 : BitVec 32 := 16#32
  let v618 : BitVec 32 := Scalar.muli arg10 c16_i32_332
  let c10_i32 : BitVec 32 := 10#32
  let v619 : BitVec 32 := Scalar.addi v618 c10_i32
  let v625 : BitVec 32 := Scalar.addi c128_i32_334 v619
  let v626 : Index := Scalar.indexCast v625
  let c0_335 : Index := 0#32
  ![v626.toNat, 0]
def k1_off110 (k1_t2 : Fin k1_t2_loop.trips) (v615 : BitVec 32) : Fin 3 → Nat :=
  let c1_i32_337 : BitVec 32 := 1#32
  let v631 : Index := Scalar.indexCast c1_i32_337
  let c0_i32_192 : BitVec 32 := 0#32
  let c1_i32_194 : BitVec 32 := 1#32
  let arg10 : BitVec 32 := Scf.iv c0_i32_192 c1_i32_194 k1_t2
  let c16_i32_332 : BitVec 32 := 16#32
  let v618 : BitVec 32 := Scalar.muli arg10 c16_i32_332
  let c10_i32 : BitVec 32 := 10#32
  let v619 : BitVec 32 := Scalar.addi v618 c10_i32
  let v632 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let c16_i32_336 : BitVec 32 := 16#32
  let v630 : BitVec 32 := Scalar.addi v617 c16_i32_336
  let v633 : Index := Scalar.indexCast v630
  ![1, v632.toNat, v633.toNat]

def k1_chk27 (k1_t2 : Fin k1_t2_loop.trips) (v615 : BitVec 32) : Prop :=
  (∀ a, (k1_off108 k1_t2 v615) a + S1x1x16.size a ≤ S2x128x128.size a) ∧
  (∀ a, (k1_off110 k1_t2 v615) a + S1x1x16.size a ≤ S2x128x128.size a)
instance k1_chk27.dec : ∀ (k1_t2 : Fin k1_t2_loop.trips) (v615 : BitVec 32), Decidable (k1_chk27 k1_t2 v615) := fun k1_t2 v615 => decidable_of_iff' _ (Iff.of_eq (k1_chk27.eq_1 k1_t2 v615))
theorem k1_off108_inb : ∀ (k1_t2 : Fin k1_t2_loop.trips) (v615 : BitVec 32) (k1_hw27 : k1_chk27 k1_t2 v615), ∀ a, (k1_off108 k1_t2 v615) a + S1x1x16.size a ≤ S2x128x128.size a := fun k1_t2 v615 k1_hw27 => k1_hw27.1
theorem k1_off110_inb : ∀ (k1_t2 : Fin k1_t2_loop.trips) (v615 : BitVec 32) (k1_hw27 : k1_chk27 k1_t2 v615), ∀ a, (k1_off110 k1_t2 v615) a + S1x1x16.size a ≤ S2x128x128.size a := fun k1_t2 v615 k1_hw27 => k1_hw27.2

def k1_off111 (k1_t2 : Fin k1_t2_loop.trips) : Fin 2 → Nat :=
  let c128_i32_338 : BitVec 32 := 128#32
  let c0_i32_192 : BitVec 32 := 0#32
  let c1_i32_194 : BitVec 32 := 1#32
  let arg10 : BitVec 32 := Scf.iv c0_i32_192 c1_i32_194 k1_t2
  let c16_i32_332 : BitVec 32 := 16#32
  let v618 : BitVec 32 := Scalar.muli arg10 c16_i32_332
  let c10_i32 : BitVec 32 := 10#32
  let v619 : BitVec 32 := Scalar.addi v618 c10_i32
  let v636 : BitVec 32 := Scalar.addi c128_i32_338 v619
  let v637 : Index := Scalar.indexCast v636
  let c16_339 : Index := 16#32
  ![v637.toNat, 16]
def k1_off112 (k1_t2 : Fin k1_t2_loop.trips) (v642 : BitVec 32) : Fin 3 → Nat :=
  let c1_i32_343 : BitVec 32 := 1#32
  let v647 : Index := Scalar.indexCast c1_i32_343
  let c0_i32_192 : BitVec 32 := 0#32
  let c1_i32_194 : BitVec 32 := 1#32
  let arg10 : BitVec 32 := Scf.iv c0_i32_192 c1_i32_194 k1_t2
  let c16_i32_342 : BitVec 32 := 16#32
  let v645 : BitVec 32 := Scalar.muli arg10 c16_i32_342
  let c11_i32 : BitVec 32 := 11#32
  let v646 : BitVec 32 := Scalar.addi v645 c11_i32
  let v648 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let v649 : Index := Scalar.indexCast v644
  ![1, v648.toNat, v649.toNat]

def k1_off113 (k1_t2 : Fin k1_t2_loop.trips) : Fin 2 → Nat :=
  let c128_i32_344 : BitVec 32 := 128#32
  let c0_i32_192 : BitVec 32 := 0#32
  let c1_i32_194 : BitVec 32 := 1#32
  let arg10 : BitVec 32 := Scf.iv c0_i32_192 c1_i32_194 k1_t2
  let c16_i32_342 : BitVec 32 := 16#32
  let v645 : BitVec 32 := Scalar.muli arg10 c16_i32_342
  let c11_i32 : BitVec 32 := 11#32
  let v646 : BitVec 32 := Scalar.addi v645 c11_i32
  let v652 : BitVec 32 := Scalar.addi c128_i32_344 v646
  let v653 : Index := Scalar.indexCast v652
  let c0_345 : Index := 0#32
  ![v653.toNat, 0]
def k1_off114 (k1_t2 : Fin k1_t2_loop.trips) (v642 : BitVec 32) : Fin 3 → Nat :=
  let c1_i32_347 : BitVec 32 := 1#32
  let v658 : Index := Scalar.indexCast c1_i32_347
  let c0_i32_192 : BitVec 32 := 0#32
  let c1_i32_194 : BitVec 32 := 1#32
  let arg10 : BitVec 32 := Scf.iv c0_i32_192 c1_i32_194 k1_t2
  let c16_i32_342 : BitVec 32 := 16#32
  let v645 : BitVec 32 := Scalar.muli arg10 c16_i32_342
  let c11_i32 : BitVec 32 := 11#32
  let v646 : BitVec 32 := Scalar.addi v645 c11_i32
  let v659 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let c16_i32_346 : BitVec 32 := 16#32
  let v657 : BitVec 32 := Scalar.addi v644 c16_i32_346
  let v660 : Index := Scalar.indexCast v657
  ![1, v659.toNat, v660.toNat]

def k1_chk28 (k1_t2 : Fin k1_t2_loop.trips) (v642 : BitVec 32) : Prop :=
  (∀ a, (k1_off112 k1_t2 v642) a + S1x1x16.size a ≤ S2x128x128.size a) ∧
  (∀ a, (k1_off114 k1_t2 v642) a + S1x1x16.size a ≤ S2x128x128.size a)
instance k1_chk28.dec : ∀ (k1_t2 : Fin k1_t2_loop.trips) (v642 : BitVec 32), Decidable (k1_chk28 k1_t2 v642) := fun k1_t2 v642 => decidable_of_iff' _ (Iff.of_eq (k1_chk28.eq_1 k1_t2 v642))
theorem k1_off112_inb : ∀ (k1_t2 : Fin k1_t2_loop.trips) (v642 : BitVec 32) (k1_hw28 : k1_chk28 k1_t2 v642), ∀ a, (k1_off112 k1_t2 v642) a + S1x1x16.size a ≤ S2x128x128.size a := fun k1_t2 v642 k1_hw28 => k1_hw28.1
theorem k1_off114_inb : ∀ (k1_t2 : Fin k1_t2_loop.trips) (v642 : BitVec 32) (k1_hw28 : k1_chk28 k1_t2 v642), ∀ a, (k1_off114 k1_t2 v642) a + S1x1x16.size a ≤ S2x128x128.size a := fun k1_t2 v642 k1_hw28 => k1_hw28.2

def k1_off115 (k1_t2 : Fin k1_t2_loop.trips) : Fin 2 → Nat :=
  let c128_i32_348 : BitVec 32 := 128#32
  let c0_i32_192 : BitVec 32 := 0#32
  let c1_i32_194 : BitVec 32 := 1#32
  let arg10 : BitVec 32 := Scf.iv c0_i32_192 c1_i32_194 k1_t2
  let c16_i32_342 : BitVec 32 := 16#32
  let v645 : BitVec 32 := Scalar.muli arg10 c16_i32_342
  let c11_i32 : BitVec 32 := 11#32
  let v646 : BitVec 32 := Scalar.addi v645 c11_i32
  let v663 : BitVec 32 := Scalar.addi c128_i32_348 v646
  let v664 : Index := Scalar.indexCast v663
  let c16_349 : Index := 16#32
  ![v664.toNat, 16]
def k1_off116 (k1_t2 : Fin k1_t2_loop.trips) (v669 : BitVec 32) : Fin 3 → Nat :=
  let c1_i32_353 : BitVec 32 := 1#32
  let v674 : Index := Scalar.indexCast c1_i32_353
  let c0_i32_192 : BitVec 32 := 0#32
  let c1_i32_194 : BitVec 32 := 1#32
  let arg10 : BitVec 32 := Scf.iv c0_i32_192 c1_i32_194 k1_t2
  let c16_i32_352 : BitVec 32 := 16#32
  let v672 : BitVec 32 := Scalar.muli arg10 c16_i32_352
  let c12_i32 : BitVec 32 := 12#32
  let v673 : BitVec 32 := Scalar.addi v672 c12_i32
  let v675 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let v676 : Index := Scalar.indexCast v671
  ![1, v675.toNat, v676.toNat]

def k1_off117 (k1_t2 : Fin k1_t2_loop.trips) : Fin 2 → Nat :=
  let c128_i32_354 : BitVec 32 := 128#32
  let c0_i32_192 : BitVec 32 := 0#32
  let c1_i32_194 : BitVec 32 := 1#32
  let arg10 : BitVec 32 := Scf.iv c0_i32_192 c1_i32_194 k1_t2
  let c16_i32_352 : BitVec 32 := 16#32
  let v672 : BitVec 32 := Scalar.muli arg10 c16_i32_352
  let c12_i32 : BitVec 32 := 12#32
  let v673 : BitVec 32 := Scalar.addi v672 c12_i32
  let v679 : BitVec 32 := Scalar.addi c128_i32_354 v673
  let v680 : Index := Scalar.indexCast v679
  let c0_355 : Index := 0#32
  ![v680.toNat, 0]
def k1_off118 (k1_t2 : Fin k1_t2_loop.trips) (v669 : BitVec 32) : Fin 3 → Nat :=
  let c1_i32_357 : BitVec 32 := 1#32
  let v685 : Index := Scalar.indexCast c1_i32_357
  let c0_i32_192 : BitVec 32 := 0#32
  let c1_i32_194 : BitVec 32 := 1#32
  let arg10 : BitVec 32 := Scf.iv c0_i32_192 c1_i32_194 k1_t2
  let c16_i32_352 : BitVec 32 := 16#32
  let v672 : BitVec 32 := Scalar.muli arg10 c16_i32_352
  let c12_i32 : BitVec 32 := 12#32
  let v673 : BitVec 32 := Scalar.addi v672 c12_i32
  let v686 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let c16_i32_356 : BitVec 32 := 16#32
  let v684 : BitVec 32 := Scalar.addi v671 c16_i32_356
  let v687 : Index := Scalar.indexCast v684
  ![1, v686.toNat, v687.toNat]

def k1_chk29 (k1_t2 : Fin k1_t2_loop.trips) (v669 : BitVec 32) : Prop :=
  (∀ a, (k1_off116 k1_t2 v669) a + S1x1x16.size a ≤ S2x128x128.size a) ∧
  (∀ a, (k1_off118 k1_t2 v669) a + S1x1x16.size a ≤ S2x128x128.size a)
instance k1_chk29.dec : ∀ (k1_t2 : Fin k1_t2_loop.trips) (v669 : BitVec 32), Decidable (k1_chk29 k1_t2 v669) := fun k1_t2 v669 => decidable_of_iff' _ (Iff.of_eq (k1_chk29.eq_1 k1_t2 v669))
theorem k1_off116_inb : ∀ (k1_t2 : Fin k1_t2_loop.trips) (v669 : BitVec 32) (k1_hw29 : k1_chk29 k1_t2 v669), ∀ a, (k1_off116 k1_t2 v669) a + S1x1x16.size a ≤ S2x128x128.size a := fun k1_t2 v669 k1_hw29 => k1_hw29.1
theorem k1_off118_inb : ∀ (k1_t2 : Fin k1_t2_loop.trips) (v669 : BitVec 32) (k1_hw29 : k1_chk29 k1_t2 v669), ∀ a, (k1_off118 k1_t2 v669) a + S1x1x16.size a ≤ S2x128x128.size a := fun k1_t2 v669 k1_hw29 => k1_hw29.2

def k1_off119 (k1_t2 : Fin k1_t2_loop.trips) : Fin 2 → Nat :=
  let c128_i32_358 : BitVec 32 := 128#32
  let c0_i32_192 : BitVec 32 := 0#32
  let c1_i32_194 : BitVec 32 := 1#32
  let arg10 : BitVec 32 := Scf.iv c0_i32_192 c1_i32_194 k1_t2
  let c16_i32_352 : BitVec 32 := 16#32
  let v672 : BitVec 32 := Scalar.muli arg10 c16_i32_352
  let c12_i32 : BitVec 32 := 12#32
  let v673 : BitVec 32 := Scalar.addi v672 c12_i32
  let v690 : BitVec 32 := Scalar.addi c128_i32_358 v673
  let v691 : Index := Scalar.indexCast v690
  let c16_359 : Index := 16#32
  ![v691.toNat, 16]
def k1_off120 (k1_t2 : Fin k1_t2_loop.trips) (v696 : BitVec 32) : Fin 3 → Nat :=
  let c1_i32_363 : BitVec 32 := 1#32
  let v701 : Index := Scalar.indexCast c1_i32_363
  let c0_i32_192 : BitVec 32 := 0#32
  let c1_i32_194 : BitVec 32 := 1#32
  let arg10 : BitVec 32 := Scf.iv c0_i32_192 c1_i32_194 k1_t2
  let c16_i32_362 : BitVec 32 := 16#32
  let v699 : BitVec 32 := Scalar.muli arg10 c16_i32_362
  let c13_i32 : BitVec 32 := 13#32
  let v700 : BitVec 32 := Scalar.addi v699 c13_i32
  let v702 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let v703 : Index := Scalar.indexCast v698
  ![1, v702.toNat, v703.toNat]

def k1_off121 (k1_t2 : Fin k1_t2_loop.trips) : Fin 2 → Nat :=
  let c128_i32_364 : BitVec 32 := 128#32
  let c0_i32_192 : BitVec 32 := 0#32
  let c1_i32_194 : BitVec 32 := 1#32
  let arg10 : BitVec 32 := Scf.iv c0_i32_192 c1_i32_194 k1_t2
  let c16_i32_362 : BitVec 32 := 16#32
  let v699 : BitVec 32 := Scalar.muli arg10 c16_i32_362
  let c13_i32 : BitVec 32 := 13#32
  let v700 : BitVec 32 := Scalar.addi v699 c13_i32
  let v706 : BitVec 32 := Scalar.addi c128_i32_364 v700
  let v707 : Index := Scalar.indexCast v706
  let c0_365 : Index := 0#32
  ![v707.toNat, 0]
def k1_off122 (k1_t2 : Fin k1_t2_loop.trips) (v696 : BitVec 32) : Fin 3 → Nat :=
  let c1_i32_367 : BitVec 32 := 1#32
  let v712 : Index := Scalar.indexCast c1_i32_367
  let c0_i32_192 : BitVec 32 := 0#32
  let c1_i32_194 : BitVec 32 := 1#32
  let arg10 : BitVec 32 := Scf.iv c0_i32_192 c1_i32_194 k1_t2
  let c16_i32_362 : BitVec 32 := 16#32
  let v699 : BitVec 32 := Scalar.muli arg10 c16_i32_362
  let c13_i32 : BitVec 32 := 13#32
  let v700 : BitVec 32 := Scalar.addi v699 c13_i32
  let v713 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let c16_i32_366 : BitVec 32 := 16#32
  let v711 : BitVec 32 := Scalar.addi v698 c16_i32_366
  let v714 : Index := Scalar.indexCast v711
  ![1, v713.toNat, v714.toNat]

def k1_chk30 (k1_t2 : Fin k1_t2_loop.trips) (v696 : BitVec 32) : Prop :=
  (∀ a, (k1_off120 k1_t2 v696) a + S1x1x16.size a ≤ S2x128x128.size a) ∧
  (∀ a, (k1_off122 k1_t2 v696) a + S1x1x16.size a ≤ S2x128x128.size a)
instance k1_chk30.dec : ∀ (k1_t2 : Fin k1_t2_loop.trips) (v696 : BitVec 32), Decidable (k1_chk30 k1_t2 v696) := fun k1_t2 v696 => decidable_of_iff' _ (Iff.of_eq (k1_chk30.eq_1 k1_t2 v696))
theorem k1_off120_inb : ∀ (k1_t2 : Fin k1_t2_loop.trips) (v696 : BitVec 32) (k1_hw30 : k1_chk30 k1_t2 v696), ∀ a, (k1_off120 k1_t2 v696) a + S1x1x16.size a ≤ S2x128x128.size a := fun k1_t2 v696 k1_hw30 => k1_hw30.1
theorem k1_off122_inb : ∀ (k1_t2 : Fin k1_t2_loop.trips) (v696 : BitVec 32) (k1_hw30 : k1_chk30 k1_t2 v696), ∀ a, (k1_off122 k1_t2 v696) a + S1x1x16.size a ≤ S2x128x128.size a := fun k1_t2 v696 k1_hw30 => k1_hw30.2

def k1_off123 (k1_t2 : Fin k1_t2_loop.trips) : Fin 2 → Nat :=
  let c128_i32_368 : BitVec 32 := 128#32
  let c0_i32_192 : BitVec 32 := 0#32
  let c1_i32_194 : BitVec 32 := 1#32
  let arg10 : BitVec 32 := Scf.iv c0_i32_192 c1_i32_194 k1_t2
  let c16_i32_362 : BitVec 32 := 16#32
  let v699 : BitVec 32 := Scalar.muli arg10 c16_i32_362
  let c13_i32 : BitVec 32 := 13#32
  let v700 : BitVec 32 := Scalar.addi v699 c13_i32
  let v717 : BitVec 32 := Scalar.addi c128_i32_368 v700
  let v718 : Index := Scalar.indexCast v717
  let c16_369 : Index := 16#32
  ![v718.toNat, 16]
def k1_off124 (k1_t2 : Fin k1_t2_loop.trips) (v723 : BitVec 32) : Fin 3 → Nat :=
  let c1_i32_373 : BitVec 32 := 1#32
  let v728 : Index := Scalar.indexCast c1_i32_373
  let c0_i32_192 : BitVec 32 := 0#32
  let c1_i32_194 : BitVec 32 := 1#32
  let arg10 : BitVec 32 := Scf.iv c0_i32_192 c1_i32_194 k1_t2
  let c16_i32_372 : BitVec 32 := 16#32
  let v726 : BitVec 32 := Scalar.muli arg10 c16_i32_372
  let c14_i32 : BitVec 32 := 14#32
  let v727 : BitVec 32 := Scalar.addi v726 c14_i32
  let v729 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let v730 : Index := Scalar.indexCast v725
  ![1, v729.toNat, v730.toNat]

def k1_off125 (k1_t2 : Fin k1_t2_loop.trips) : Fin 2 → Nat :=
  let c128_i32_374 : BitVec 32 := 128#32
  let c0_i32_192 : BitVec 32 := 0#32
  let c1_i32_194 : BitVec 32 := 1#32
  let arg10 : BitVec 32 := Scf.iv c0_i32_192 c1_i32_194 k1_t2
  let c16_i32_372 : BitVec 32 := 16#32
  let v726 : BitVec 32 := Scalar.muli arg10 c16_i32_372
  let c14_i32 : BitVec 32 := 14#32
  let v727 : BitVec 32 := Scalar.addi v726 c14_i32
  let v733 : BitVec 32 := Scalar.addi c128_i32_374 v727
  let v734 : Index := Scalar.indexCast v733
  let c0_375 : Index := 0#32
  ![v734.toNat, 0]
def k1_off126 (k1_t2 : Fin k1_t2_loop.trips) (v723 : BitVec 32) : Fin 3 → Nat :=
  let c1_i32_377 : BitVec 32 := 1#32
  let v739 : Index := Scalar.indexCast c1_i32_377
  let c0_i32_192 : BitVec 32 := 0#32
  let c1_i32_194 : BitVec 32 := 1#32
  let arg10 : BitVec 32 := Scf.iv c0_i32_192 c1_i32_194 k1_t2
  let c16_i32_372 : BitVec 32 := 16#32
  let v726 : BitVec 32 := Scalar.muli arg10 c16_i32_372
  let c14_i32 : BitVec 32 := 14#32
  let v727 : BitVec 32 := Scalar.addi v726 c14_i32
  let v740 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let c16_i32_376 : BitVec 32 := 16#32
  let v738 : BitVec 32 := Scalar.addi v725 c16_i32_376
  let v741 : Index := Scalar.indexCast v738
  ![1, v740.toNat, v741.toNat]

def k1_chk31 (k1_t2 : Fin k1_t2_loop.trips) (v723 : BitVec 32) : Prop :=
  (∀ a, (k1_off124 k1_t2 v723) a + S1x1x16.size a ≤ S2x128x128.size a) ∧
  (∀ a, (k1_off126 k1_t2 v723) a + S1x1x16.size a ≤ S2x128x128.size a)
instance k1_chk31.dec : ∀ (k1_t2 : Fin k1_t2_loop.trips) (v723 : BitVec 32), Decidable (k1_chk31 k1_t2 v723) := fun k1_t2 v723 => decidable_of_iff' _ (Iff.of_eq (k1_chk31.eq_1 k1_t2 v723))
theorem k1_off124_inb : ∀ (k1_t2 : Fin k1_t2_loop.trips) (v723 : BitVec 32) (k1_hw31 : k1_chk31 k1_t2 v723), ∀ a, (k1_off124 k1_t2 v723) a + S1x1x16.size a ≤ S2x128x128.size a := fun k1_t2 v723 k1_hw31 => k1_hw31.1
theorem k1_off126_inb : ∀ (k1_t2 : Fin k1_t2_loop.trips) (v723 : BitVec 32) (k1_hw31 : k1_chk31 k1_t2 v723), ∀ a, (k1_off126 k1_t2 v723) a + S1x1x16.size a ≤ S2x128x128.size a := fun k1_t2 v723 k1_hw31 => k1_hw31.2

def k1_off127 (k1_t2 : Fin k1_t2_loop.trips) : Fin 2 → Nat :=
  let c128_i32_378 : BitVec 32 := 128#32
  let c0_i32_192 : BitVec 32 := 0#32
  let c1_i32_194 : BitVec 32 := 1#32
  let arg10 : BitVec 32 := Scf.iv c0_i32_192 c1_i32_194 k1_t2
  let c16_i32_372 : BitVec 32 := 16#32
  let v726 : BitVec 32 := Scalar.muli arg10 c16_i32_372
  let c14_i32 : BitVec 32 := 14#32
  let v727 : BitVec 32 := Scalar.addi v726 c14_i32
  let v744 : BitVec 32 := Scalar.addi c128_i32_378 v727
  let v745 : Index := Scalar.indexCast v744
  let c16_379 : Index := 16#32
  ![v745.toNat, 16]
def k1_off128 (k1_t2 : Fin k1_t2_loop.trips) (v750 : BitVec 32) : Fin 3 → Nat :=
  let c1_i32_383 : BitVec 32 := 1#32
  let v755 : Index := Scalar.indexCast c1_i32_383
  let c0_i32_192 : BitVec 32 := 0#32
  let c1_i32_194 : BitVec 32 := 1#32
  let arg10 : BitVec 32 := Scf.iv c0_i32_192 c1_i32_194 k1_t2
  let c16_i32_382 : BitVec 32 := 16#32
  let v753 : BitVec 32 := Scalar.muli arg10 c16_i32_382
  let c15_i32 : BitVec 32 := 15#32
  let v754 : BitVec 32 := Scalar.addi v753 c15_i32
  let v756 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let v757 : Index := Scalar.indexCast v752
  ![1, v756.toNat, v757.toNat]

def k1_off129 (k1_t2 : Fin k1_t2_loop.trips) : Fin 2 → Nat :=
  let c128_i32_384 : BitVec 32 := 128#32
  let c0_i32_192 : BitVec 32 := 0#32
  let c1_i32_194 : BitVec 32 := 1#32
  let arg10 : BitVec 32 := Scf.iv c0_i32_192 c1_i32_194 k1_t2
  let c16_i32_382 : BitVec 32 := 16#32
  let v753 : BitVec 32 := Scalar.muli arg10 c16_i32_382
  let c15_i32 : BitVec 32 := 15#32
  let v754 : BitVec 32 := Scalar.addi v753 c15_i32
  let v760 : BitVec 32 := Scalar.addi c128_i32_384 v754
  let v761 : Index := Scalar.indexCast v760
  let c0_385 : Index := 0#32
  ![v761.toNat, 0]
def k1_off130 (k1_t2 : Fin k1_t2_loop.trips) (v750 : BitVec 32) : Fin 3 → Nat :=
  let c1_i32_387 : BitVec 32 := 1#32
  let v766 : Index := Scalar.indexCast c1_i32_387
  let c0_i32_192 : BitVec 32 := 0#32
  let c1_i32_194 : BitVec 32 := 1#32
  let arg10 : BitVec 32 := Scf.iv c0_i32_192 c1_i32_194 k1_t2
  let c16_i32_382 : BitVec 32 := 16#32
  let v753 : BitVec 32 := Scalar.muli arg10 c16_i32_382
  let c15_i32 : BitVec 32 := 15#32
  let v754 : BitVec 32 := Scalar.addi v753 c15_i32
  let v767 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let c16_i32_386 : BitVec 32 := 16#32
  let v765 : BitVec 32 := Scalar.addi v752 c16_i32_386
  let v768 : Index := Scalar.indexCast v765
  ![1, v767.toNat, v768.toNat]

def k1_chk32 (k1_t2 : Fin k1_t2_loop.trips) (v750 : BitVec 32) : Prop :=
  (∀ a, (k1_off128 k1_t2 v750) a + S1x1x16.size a ≤ S2x128x128.size a) ∧
  (∀ a, (k1_off130 k1_t2 v750) a + S1x1x16.size a ≤ S2x128x128.size a)
instance k1_chk32.dec : ∀ (k1_t2 : Fin k1_t2_loop.trips) (v750 : BitVec 32), Decidable (k1_chk32 k1_t2 v750) := fun k1_t2 v750 => decidable_of_iff' _ (Iff.of_eq (k1_chk32.eq_1 k1_t2 v750))
theorem k1_off128_inb : ∀ (k1_t2 : Fin k1_t2_loop.trips) (v750 : BitVec 32) (k1_hw32 : k1_chk32 k1_t2 v750), ∀ a, (k1_off128 k1_t2 v750) a + S1x1x16.size a ≤ S2x128x128.size a := fun k1_t2 v750 k1_hw32 => k1_hw32.1
theorem k1_off130_inb : ∀ (k1_t2 : Fin k1_t2_loop.trips) (v750 : BitVec 32) (k1_hw32 : k1_chk32 k1_t2 v750), ∀ a, (k1_off130 k1_t2 v750) a + S1x1x16.size a ≤ S2x128x128.size a := fun k1_t2 v750 k1_hw32 => k1_hw32.2

def k1_off131 (k1_t2 : Fin k1_t2_loop.trips) : Fin 2 → Nat :=
  let c128_i32_388 : BitVec 32 := 128#32
  let c0_i32_192 : BitVec 32 := 0#32
  let c1_i32_194 : BitVec 32 := 1#32
  let arg10 : BitVec 32 := Scf.iv c0_i32_192 c1_i32_194 k1_t2
  let c16_i32_382 : BitVec 32 := 16#32
  let v753 : BitVec 32 := Scalar.muli arg10 c16_i32_382
  let c15_i32 : BitVec 32 := 15#32
  let v754 : BitVec 32 := Scalar.addi v753 c15_i32
  let v771 : BitVec 32 := Scalar.addi c128_i32_388 v754
  let v772 : Index := Scalar.indexCast v771
  let c16_389 : Index := 16#32
  ![v772.toNat, 16]
@[reducible] def k1_t3_loop : Scf.Loop 32 :=
  let c0_i32_210 : BitVec 32 := 0#32
  let c8_i32_211 : BitVec 32 := 8#32
  let v332 : BitVec 32 := Scalar.addi c0_i32_210 c8_i32_211
  let c1_i32_212 : BitVec 32 := 1#32
  ⟨c0_i32_210, v332, c1_i32_212⟩
def k1_off132 (k1_t3 : Fin k1_t3_loop.trips) : Fin 2 → Nat :=
  let c2_i32_225 : BitVec 32 := 2#32
  let v340 : Index := Scalar.indexCast c2_i32_225
  let c0_i32_210 : BitVec 32 := 0#32
  let c1_i32_212 : BitVec 32 := 1#32
  let arg10 : BitVec 32 := Scf.iv c0_i32_210 c1_i32_212 k1_t3
  let c16_i32 : BitVec 32 := 16#32
  let v339 : BitVec 32 := Scalar.muli arg10 c16_i32
  let v341 : Index := Scalar.indexCast v339
  ![2, v341.toNat]
def k1_off133 (k1_t3 : Fin k1_t3_loop.trips) (v345 : BitVec 32) : Fin 3 → Nat :=
  let c0_i32_229 : BitVec 32 := 0#32
  let v350 : Index := Scalar.indexCast c0_i32_229
  let c0_i32_210 : BitVec 32 := 0#32
  let c1_i32_212 : BitVec 32 := 1#32
  let arg10 : BitVec 32 := Scf.iv c0_i32_210 c1_i32_212 k1_t3
  let c16_i32_227 : BitVec 32 := 16#32
  let v348 : BitVec 32 := Scalar.muli arg10 c16_i32_227
  let c0_i32_228 : BitVec 32 := 0#32
  let v349 : BitVec 32 := Scalar.addi v348 c0_i32_228
  let v351 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let v352 : Index := Scalar.indexCast v347
  ![0, v351.toNat, v352.toNat]

def k1_off134 (k1_t3 : Fin k1_t3_loop.trips) : Fin 2 → Nat :=
  let c256_i32_230 : BitVec 32 := 256#32
  let c0_i32_210 : BitVec 32 := 0#32
  let c1_i32_212 : BitVec 32 := 1#32
  let arg10 : BitVec 32 := Scf.iv c0_i32_210 c1_i32_212 k1_t3
  let c16_i32_227 : BitVec 32 := 16#32
  let v348 : BitVec 32 := Scalar.muli arg10 c16_i32_227
  let c0_i32_228 : BitVec 32 := 0#32
  let v349 : BitVec 32 := Scalar.addi v348 c0_i32_228
  let v355 : BitVec 32 := Scalar.addi c256_i32_230 v349
  let v356 : Index := Scalar.indexCast v355
  let c0_231 : Index := 0#32
  ![v356.toNat, 0]
def k1_off135 (k1_t3 : Fin k1_t3_loop.trips) (v345 : BitVec 32) : Fin 3 → Nat :=
  let c0_i32_233 : BitVec 32 := 0#32
  let v361 : Index := Scalar.indexCast c0_i32_233
  let c0_i32_210 : BitVec 32 := 0#32
  let c1_i32_212 : BitVec 32 := 1#32
  let arg10 : BitVec 32 := Scf.iv c0_i32_210 c1_i32_212 k1_t3
  let c16_i32_227 : BitVec 32 := 16#32
  let v348 : BitVec 32 := Scalar.muli arg10 c16_i32_227
  let c0_i32_228 : BitVec 32 := 0#32
  let v349 : BitVec 32 := Scalar.addi v348 c0_i32_228
  let v362 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let c16_i32_232 : BitVec 32 := 16#32
  let v360 : BitVec 32 := Scalar.addi v347 c16_i32_232
  let v363 : Index := Scalar.indexCast v360
  ![0, v362.toNat, v363.toNat]

def k1_chk33 (k1_t3 : Fin k1_t3_loop.trips) (v345 : BitVec 32) : Prop :=
  (∀ a, (k1_off133 k1_t3 v345) a + S1x1x16.size a ≤ S2x128x128.size a) ∧
  (∀ a, (k1_off135 k1_t3 v345) a + S1x1x16.size a ≤ S2x128x128.size a)
instance k1_chk33.dec : ∀ (k1_t3 : Fin k1_t3_loop.trips) (v345 : BitVec 32), Decidable (k1_chk33 k1_t3 v345) := fun k1_t3 v345 => decidable_of_iff' _ (Iff.of_eq (k1_chk33.eq_1 k1_t3 v345))
theorem k1_off133_inb : ∀ (k1_t3 : Fin k1_t3_loop.trips) (v345 : BitVec 32) (k1_hw33 : k1_chk33 k1_t3 v345), ∀ a, (k1_off133 k1_t3 v345) a + S1x1x16.size a ≤ S2x128x128.size a := fun k1_t3 v345 k1_hw33 => k1_hw33.1
theorem k1_off135_inb : ∀ (k1_t3 : Fin k1_t3_loop.trips) (v345 : BitVec 32) (k1_hw33 : k1_chk33 k1_t3 v345), ∀ a, (k1_off135 k1_t3 v345) a + S1x1x16.size a ≤ S2x128x128.size a := fun k1_t3 v345 k1_hw33 => k1_hw33.2

def k1_off136 (k1_t3 : Fin k1_t3_loop.trips) : Fin 2 → Nat :=
  let c256_i32_234 : BitVec 32 := 256#32
  let c0_i32_210 : BitVec 32 := 0#32
  let c1_i32_212 : BitVec 32 := 1#32
  let arg10 : BitVec 32 := Scf.iv c0_i32_210 c1_i32_212 k1_t3
  let c16_i32_227 : BitVec 32 := 16#32
  let v348 : BitVec 32 := Scalar.muli arg10 c16_i32_227
  let c0_i32_228 : BitVec 32 := 0#32
  let v349 : BitVec 32 := Scalar.addi v348 c0_i32_228
  let v366 : BitVec 32 := Scalar.addi c256_i32_234 v349
  let v367 : Index := Scalar.indexCast v366
  let c16_235 : Index := 16#32
  ![v367.toNat, 16]
def k1_off137 (k1_t3 : Fin k1_t3_loop.trips) (v372 : BitVec 32) : Fin 3 → Nat :=
  let c0_i32_240 : BitVec 32 := 0#32
  let v377 : Index := Scalar.indexCast c0_i32_240
  let c0_i32_210 : BitVec 32 := 0#32
  let c1_i32_212 : BitVec 32 := 1#32
  let arg10 : BitVec 32 := Scf.iv c0_i32_210 c1_i32_212 k1_t3
  let c16_i32_238 : BitVec 32 := 16#32
  let v375 : BitVec 32 := Scalar.muli arg10 c16_i32_238
  let c1_i32_239 : BitVec 32 := 1#32
  let v376 : BitVec 32 := Scalar.addi v375 c1_i32_239
  let v378 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let v379 : Index := Scalar.indexCast v374
  ![0, v378.toNat, v379.toNat]

def k1_off138 (k1_t3 : Fin k1_t3_loop.trips) : Fin 2 → Nat :=
  let c256_i32_241 : BitVec 32 := 256#32
  let c0_i32_210 : BitVec 32 := 0#32
  let c1_i32_212 : BitVec 32 := 1#32
  let arg10 : BitVec 32 := Scf.iv c0_i32_210 c1_i32_212 k1_t3
  let c16_i32_238 : BitVec 32 := 16#32
  let v375 : BitVec 32 := Scalar.muli arg10 c16_i32_238
  let c1_i32_239 : BitVec 32 := 1#32
  let v376 : BitVec 32 := Scalar.addi v375 c1_i32_239
  let v382 : BitVec 32 := Scalar.addi c256_i32_241 v376
  let v383 : Index := Scalar.indexCast v382
  let c0_242 : Index := 0#32
  ![v383.toNat, 0]
def k1_off139 (k1_t3 : Fin k1_t3_loop.trips) (v372 : BitVec 32) : Fin 3 → Nat :=
  let c0_i32_244 : BitVec 32 := 0#32
  let v388 : Index := Scalar.indexCast c0_i32_244
  let c0_i32_210 : BitVec 32 := 0#32
  let c1_i32_212 : BitVec 32 := 1#32
  let arg10 : BitVec 32 := Scf.iv c0_i32_210 c1_i32_212 k1_t3
  let c16_i32_238 : BitVec 32 := 16#32
  let v375 : BitVec 32 := Scalar.muli arg10 c16_i32_238
  let c1_i32_239 : BitVec 32 := 1#32
  let v376 : BitVec 32 := Scalar.addi v375 c1_i32_239
  let v389 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let c16_i32_243 : BitVec 32 := 16#32
  let v387 : BitVec 32 := Scalar.addi v374 c16_i32_243
  let v390 : Index := Scalar.indexCast v387
  ![0, v389.toNat, v390.toNat]

def k1_chk34 (k1_t3 : Fin k1_t3_loop.trips) (v372 : BitVec 32) : Prop :=
  (∀ a, (k1_off137 k1_t3 v372) a + S1x1x16.size a ≤ S2x128x128.size a) ∧
  (∀ a, (k1_off139 k1_t3 v372) a + S1x1x16.size a ≤ S2x128x128.size a)
instance k1_chk34.dec : ∀ (k1_t3 : Fin k1_t3_loop.trips) (v372 : BitVec 32), Decidable (k1_chk34 k1_t3 v372) := fun k1_t3 v372 => decidable_of_iff' _ (Iff.of_eq (k1_chk34.eq_1 k1_t3 v372))
theorem k1_off137_inb : ∀ (k1_t3 : Fin k1_t3_loop.trips) (v372 : BitVec 32) (k1_hw34 : k1_chk34 k1_t3 v372), ∀ a, (k1_off137 k1_t3 v372) a + S1x1x16.size a ≤ S2x128x128.size a := fun k1_t3 v372 k1_hw34 => k1_hw34.1
theorem k1_off139_inb : ∀ (k1_t3 : Fin k1_t3_loop.trips) (v372 : BitVec 32) (k1_hw34 : k1_chk34 k1_t3 v372), ∀ a, (k1_off139 k1_t3 v372) a + S1x1x16.size a ≤ S2x128x128.size a := fun k1_t3 v372 k1_hw34 => k1_hw34.2

def k1_off140 (k1_t3 : Fin k1_t3_loop.trips) : Fin 2 → Nat :=
  let c256_i32_245 : BitVec 32 := 256#32
  let c0_i32_210 : BitVec 32 := 0#32
  let c1_i32_212 : BitVec 32 := 1#32
  let arg10 : BitVec 32 := Scf.iv c0_i32_210 c1_i32_212 k1_t3
  let c16_i32_238 : BitVec 32 := 16#32
  let v375 : BitVec 32 := Scalar.muli arg10 c16_i32_238
  let c1_i32_239 : BitVec 32 := 1#32
  let v376 : BitVec 32 := Scalar.addi v375 c1_i32_239
  let v393 : BitVec 32 := Scalar.addi c256_i32_245 v376
  let v394 : Index := Scalar.indexCast v393
  let c16_246 : Index := 16#32
  ![v394.toNat, 16]
def k1_off141 (k1_t3 : Fin k1_t3_loop.trips) (v399 : BitVec 32) : Fin 3 → Nat :=
  let c0_i32_251 : BitVec 32 := 0#32
  let v404 : Index := Scalar.indexCast c0_i32_251
  let c0_i32_210 : BitVec 32 := 0#32
  let c1_i32_212 : BitVec 32 := 1#32
  let arg10 : BitVec 32 := Scf.iv c0_i32_210 c1_i32_212 k1_t3
  let c16_i32_249 : BitVec 32 := 16#32
  let v402 : BitVec 32 := Scalar.muli arg10 c16_i32_249
  let c2_i32_250 : BitVec 32 := 2#32
  let v403 : BitVec 32 := Scalar.addi v402 c2_i32_250
  let v405 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let v406 : Index := Scalar.indexCast v401
  ![0, v405.toNat, v406.toNat]

def k1_off142 (k1_t3 : Fin k1_t3_loop.trips) : Fin 2 → Nat :=
  let c256_i32_252 : BitVec 32 := 256#32
  let c0_i32_210 : BitVec 32 := 0#32
  let c1_i32_212 : BitVec 32 := 1#32
  let arg10 : BitVec 32 := Scf.iv c0_i32_210 c1_i32_212 k1_t3
  let c16_i32_249 : BitVec 32 := 16#32
  let v402 : BitVec 32 := Scalar.muli arg10 c16_i32_249
  let c2_i32_250 : BitVec 32 := 2#32
  let v403 : BitVec 32 := Scalar.addi v402 c2_i32_250
  let v409 : BitVec 32 := Scalar.addi c256_i32_252 v403
  let v410 : Index := Scalar.indexCast v409
  let c0_253 : Index := 0#32
  ![v410.toNat, 0]
def k1_off143 (k1_t3 : Fin k1_t3_loop.trips) (v399 : BitVec 32) : Fin 3 → Nat :=
  let c0_i32_255 : BitVec 32 := 0#32
  let v415 : Index := Scalar.indexCast c0_i32_255
  let c0_i32_210 : BitVec 32 := 0#32
  let c1_i32_212 : BitVec 32 := 1#32
  let arg10 : BitVec 32 := Scf.iv c0_i32_210 c1_i32_212 k1_t3
  let c16_i32_249 : BitVec 32 := 16#32
  let v402 : BitVec 32 := Scalar.muli arg10 c16_i32_249
  let c2_i32_250 : BitVec 32 := 2#32
  let v403 : BitVec 32 := Scalar.addi v402 c2_i32_250
  let v416 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let c16_i32_254 : BitVec 32 := 16#32
  let v414 : BitVec 32 := Scalar.addi v401 c16_i32_254
  let v417 : Index := Scalar.indexCast v414
  ![0, v416.toNat, v417.toNat]

def k1_chk35 (k1_t3 : Fin k1_t3_loop.trips) (v399 : BitVec 32) : Prop :=
  (∀ a, (k1_off141 k1_t3 v399) a + S1x1x16.size a ≤ S2x128x128.size a) ∧
  (∀ a, (k1_off143 k1_t3 v399) a + S1x1x16.size a ≤ S2x128x128.size a)
instance k1_chk35.dec : ∀ (k1_t3 : Fin k1_t3_loop.trips) (v399 : BitVec 32), Decidable (k1_chk35 k1_t3 v399) := fun k1_t3 v399 => decidable_of_iff' _ (Iff.of_eq (k1_chk35.eq_1 k1_t3 v399))
theorem k1_off141_inb : ∀ (k1_t3 : Fin k1_t3_loop.trips) (v399 : BitVec 32) (k1_hw35 : k1_chk35 k1_t3 v399), ∀ a, (k1_off141 k1_t3 v399) a + S1x1x16.size a ≤ S2x128x128.size a := fun k1_t3 v399 k1_hw35 => k1_hw35.1
theorem k1_off143_inb : ∀ (k1_t3 : Fin k1_t3_loop.trips) (v399 : BitVec 32) (k1_hw35 : k1_chk35 k1_t3 v399), ∀ a, (k1_off143 k1_t3 v399) a + S1x1x16.size a ≤ S2x128x128.size a := fun k1_t3 v399 k1_hw35 => k1_hw35.2

def k1_off144 (k1_t3 : Fin k1_t3_loop.trips) : Fin 2 → Nat :=
  let c256_i32_256 : BitVec 32 := 256#32
  let c0_i32_210 : BitVec 32 := 0#32
  let c1_i32_212 : BitVec 32 := 1#32
  let arg10 : BitVec 32 := Scf.iv c0_i32_210 c1_i32_212 k1_t3
  let c16_i32_249 : BitVec 32 := 16#32
  let v402 : BitVec 32 := Scalar.muli arg10 c16_i32_249
  let c2_i32_250 : BitVec 32 := 2#32
  let v403 : BitVec 32 := Scalar.addi v402 c2_i32_250
  let v420 : BitVec 32 := Scalar.addi c256_i32_256 v403
  let v421 : Index := Scalar.indexCast v420
  let c16_257 : Index := 16#32
  ![v421.toNat, 16]
def k1_off145 (k1_t3 : Fin k1_t3_loop.trips) (v426 : BitVec 32) : Fin 3 → Nat :=
  let c0_i32_262 : BitVec 32 := 0#32
  let v431 : Index := Scalar.indexCast c0_i32_262
  let c0_i32_210 : BitVec 32 := 0#32
  let c1_i32_212 : BitVec 32 := 1#32
  let arg10 : BitVec 32 := Scf.iv c0_i32_210 c1_i32_212 k1_t3
  let c16_i32_260 : BitVec 32 := 16#32
  let v429 : BitVec 32 := Scalar.muli arg10 c16_i32_260
  let c3_i32_261 : BitVec 32 := 3#32
  let v430 : BitVec 32 := Scalar.addi v429 c3_i32_261
  let v432 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let v433 : Index := Scalar.indexCast v428
  ![0, v432.toNat, v433.toNat]

def k1_off146 (k1_t3 : Fin k1_t3_loop.trips) : Fin 2 → Nat :=
  let c256_i32_263 : BitVec 32 := 256#32
  let c0_i32_210 : BitVec 32 := 0#32
  let c1_i32_212 : BitVec 32 := 1#32
  let arg10 : BitVec 32 := Scf.iv c0_i32_210 c1_i32_212 k1_t3
  let c16_i32_260 : BitVec 32 := 16#32
  let v429 : BitVec 32 := Scalar.muli arg10 c16_i32_260
  let c3_i32_261 : BitVec 32 := 3#32
  let v430 : BitVec 32 := Scalar.addi v429 c3_i32_261
  let v436 : BitVec 32 := Scalar.addi c256_i32_263 v430
  let v437 : Index := Scalar.indexCast v436
  let c0_264 : Index := 0#32
  ![v437.toNat, 0]
def k1_off147 (k1_t3 : Fin k1_t3_loop.trips) (v426 : BitVec 32) : Fin 3 → Nat :=
  let c0_i32_266 : BitVec 32 := 0#32
  let v442 : Index := Scalar.indexCast c0_i32_266
  let c0_i32_210 : BitVec 32 := 0#32
  let c1_i32_212 : BitVec 32 := 1#32
  let arg10 : BitVec 32 := Scf.iv c0_i32_210 c1_i32_212 k1_t3
  let c16_i32_260 : BitVec 32 := 16#32
  let v429 : BitVec 32 := Scalar.muli arg10 c16_i32_260
  let c3_i32_261 : BitVec 32 := 3#32
  let v430 : BitVec 32 := Scalar.addi v429 c3_i32_261
  let v443 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let c16_i32_265 : BitVec 32 := 16#32
  let v441 : BitVec 32 := Scalar.addi v428 c16_i32_265
  let v444 : Index := Scalar.indexCast v441
  ![0, v443.toNat, v444.toNat]

def k1_chk36 (k1_t3 : Fin k1_t3_loop.trips) (v426 : BitVec 32) : Prop :=
  (∀ a, (k1_off145 k1_t3 v426) a + S1x1x16.size a ≤ S2x128x128.size a) ∧
  (∀ a, (k1_off147 k1_t3 v426) a + S1x1x16.size a ≤ S2x128x128.size a)
instance k1_chk36.dec : ∀ (k1_t3 : Fin k1_t3_loop.trips) (v426 : BitVec 32), Decidable (k1_chk36 k1_t3 v426) := fun k1_t3 v426 => decidable_of_iff' _ (Iff.of_eq (k1_chk36.eq_1 k1_t3 v426))
theorem k1_off145_inb : ∀ (k1_t3 : Fin k1_t3_loop.trips) (v426 : BitVec 32) (k1_hw36 : k1_chk36 k1_t3 v426), ∀ a, (k1_off145 k1_t3 v426) a + S1x1x16.size a ≤ S2x128x128.size a := fun k1_t3 v426 k1_hw36 => k1_hw36.1
theorem k1_off147_inb : ∀ (k1_t3 : Fin k1_t3_loop.trips) (v426 : BitVec 32) (k1_hw36 : k1_chk36 k1_t3 v426), ∀ a, (k1_off147 k1_t3 v426) a + S1x1x16.size a ≤ S2x128x128.size a := fun k1_t3 v426 k1_hw36 => k1_hw36.2

def k1_off148 (k1_t3 : Fin k1_t3_loop.trips) : Fin 2 → Nat :=
  let c256_i32_267 : BitVec 32 := 256#32
  let c0_i32_210 : BitVec 32 := 0#32
  let c1_i32_212 : BitVec 32 := 1#32
  let arg10 : BitVec 32 := Scf.iv c0_i32_210 c1_i32_212 k1_t3
  let c16_i32_260 : BitVec 32 := 16#32
  let v429 : BitVec 32 := Scalar.muli arg10 c16_i32_260
  let c3_i32_261 : BitVec 32 := 3#32
  let v430 : BitVec 32 := Scalar.addi v429 c3_i32_261
  let v447 : BitVec 32 := Scalar.addi c256_i32_267 v430
  let v448 : Index := Scalar.indexCast v447
  let c16_268 : Index := 16#32
  ![v448.toNat, 16]
def k1_off149 (k1_t3 : Fin k1_t3_loop.trips) (v453 : BitVec 32) : Fin 3 → Nat :=
  let c0_i32_272 : BitVec 32 := 0#32
  let v458 : Index := Scalar.indexCast c0_i32_272
  let c0_i32_210 : BitVec 32 := 0#32
  let c1_i32_212 : BitVec 32 := 1#32
  let arg10 : BitVec 32 := Scf.iv c0_i32_210 c1_i32_212 k1_t3
  let c16_i32_271 : BitVec 32 := 16#32
  let v456 : BitVec 32 := Scalar.muli arg10 c16_i32_271
  let c4_i32 : BitVec 32 := 4#32
  let v457 : BitVec 32 := Scalar.addi v456 c4_i32
  let v459 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let v460 : Index := Scalar.indexCast v455
  ![0, v459.toNat, v460.toNat]

def k1_off150 (k1_t3 : Fin k1_t3_loop.trips) : Fin 2 → Nat :=
  let c256_i32_273 : BitVec 32 := 256#32
  let c0_i32_210 : BitVec 32 := 0#32
  let c1_i32_212 : BitVec 32 := 1#32
  let arg10 : BitVec 32 := Scf.iv c0_i32_210 c1_i32_212 k1_t3
  let c16_i32_271 : BitVec 32 := 16#32
  let v456 : BitVec 32 := Scalar.muli arg10 c16_i32_271
  let c4_i32 : BitVec 32 := 4#32
  let v457 : BitVec 32 := Scalar.addi v456 c4_i32
  let v463 : BitVec 32 := Scalar.addi c256_i32_273 v457
  let v464 : Index := Scalar.indexCast v463
  let c0_274 : Index := 0#32
  ![v464.toNat, 0]
def k1_off151 (k1_t3 : Fin k1_t3_loop.trips) (v453 : BitVec 32) : Fin 3 → Nat :=
  let c0_i32_276 : BitVec 32 := 0#32
  let v469 : Index := Scalar.indexCast c0_i32_276
  let c0_i32_210 : BitVec 32 := 0#32
  let c1_i32_212 : BitVec 32 := 1#32
  let arg10 : BitVec 32 := Scf.iv c0_i32_210 c1_i32_212 k1_t3
  let c16_i32_271 : BitVec 32 := 16#32
  let v456 : BitVec 32 := Scalar.muli arg10 c16_i32_271
  let c4_i32 : BitVec 32 := 4#32
  let v457 : BitVec 32 := Scalar.addi v456 c4_i32
  let v470 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let c16_i32_275 : BitVec 32 := 16#32
  let v468 : BitVec 32 := Scalar.addi v455 c16_i32_275
  let v471 : Index := Scalar.indexCast v468
  ![0, v470.toNat, v471.toNat]

def k1_chk37 (k1_t3 : Fin k1_t3_loop.trips) (v453 : BitVec 32) : Prop :=
  (∀ a, (k1_off149 k1_t3 v453) a + S1x1x16.size a ≤ S2x128x128.size a) ∧
  (∀ a, (k1_off151 k1_t3 v453) a + S1x1x16.size a ≤ S2x128x128.size a)
instance k1_chk37.dec : ∀ (k1_t3 : Fin k1_t3_loop.trips) (v453 : BitVec 32), Decidable (k1_chk37 k1_t3 v453) := fun k1_t3 v453 => decidable_of_iff' _ (Iff.of_eq (k1_chk37.eq_1 k1_t3 v453))
theorem k1_off149_inb : ∀ (k1_t3 : Fin k1_t3_loop.trips) (v453 : BitVec 32) (k1_hw37 : k1_chk37 k1_t3 v453), ∀ a, (k1_off149 k1_t3 v453) a + S1x1x16.size a ≤ S2x128x128.size a := fun k1_t3 v453 k1_hw37 => k1_hw37.1
theorem k1_off151_inb : ∀ (k1_t3 : Fin k1_t3_loop.trips) (v453 : BitVec 32) (k1_hw37 : k1_chk37 k1_t3 v453), ∀ a, (k1_off151 k1_t3 v453) a + S1x1x16.size a ≤ S2x128x128.size a := fun k1_t3 v453 k1_hw37 => k1_hw37.2

def k1_off152 (k1_t3 : Fin k1_t3_loop.trips) : Fin 2 → Nat :=
  let c256_i32_277 : BitVec 32 := 256#32
  let c0_i32_210 : BitVec 32 := 0#32
  let c1_i32_212 : BitVec 32 := 1#32
  let arg10 : BitVec 32 := Scf.iv c0_i32_210 c1_i32_212 k1_t3
  let c16_i32_271 : BitVec 32 := 16#32
  let v456 : BitVec 32 := Scalar.muli arg10 c16_i32_271
  let c4_i32 : BitVec 32 := 4#32
  let v457 : BitVec 32 := Scalar.addi v456 c4_i32
  let v474 : BitVec 32 := Scalar.addi c256_i32_277 v457
  let v475 : Index := Scalar.indexCast v474
  let c16_278 : Index := 16#32
  ![v475.toNat, 16]
def k1_off153 (k1_t3 : Fin k1_t3_loop.trips) (v480 : BitVec 32) : Fin 3 → Nat :=
  let c0_i32_282 : BitVec 32 := 0#32
  let v485 : Index := Scalar.indexCast c0_i32_282
  let c0_i32_210 : BitVec 32 := 0#32
  let c1_i32_212 : BitVec 32 := 1#32
  let arg10 : BitVec 32 := Scf.iv c0_i32_210 c1_i32_212 k1_t3
  let c16_i32_281 : BitVec 32 := 16#32
  let v483 : BitVec 32 := Scalar.muli arg10 c16_i32_281
  let c5_i32 : BitVec 32 := 5#32
  let v484 : BitVec 32 := Scalar.addi v483 c5_i32
  let v486 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let v487 : Index := Scalar.indexCast v482
  ![0, v486.toNat, v487.toNat]

def k1_off154 (k1_t3 : Fin k1_t3_loop.trips) : Fin 2 → Nat :=
  let c256_i32_283 : BitVec 32 := 256#32
  let c0_i32_210 : BitVec 32 := 0#32
  let c1_i32_212 : BitVec 32 := 1#32
  let arg10 : BitVec 32 := Scf.iv c0_i32_210 c1_i32_212 k1_t3
  let c16_i32_281 : BitVec 32 := 16#32
  let v483 : BitVec 32 := Scalar.muli arg10 c16_i32_281
  let c5_i32 : BitVec 32 := 5#32
  let v484 : BitVec 32 := Scalar.addi v483 c5_i32
  let v490 : BitVec 32 := Scalar.addi c256_i32_283 v484
  let v491 : Index := Scalar.indexCast v490
  let c0_284 : Index := 0#32
  ![v491.toNat, 0]
def k1_off155 (k1_t3 : Fin k1_t3_loop.trips) (v480 : BitVec 32) : Fin 3 → Nat :=
  let c0_i32_286 : BitVec 32 := 0#32
  let v496 : Index := Scalar.indexCast c0_i32_286
  let c0_i32_210 : BitVec 32 := 0#32
  let c1_i32_212 : BitVec 32 := 1#32
  let arg10 : BitVec 32 := Scf.iv c0_i32_210 c1_i32_212 k1_t3
  let c16_i32_281 : BitVec 32 := 16#32
  let v483 : BitVec 32 := Scalar.muli arg10 c16_i32_281
  let c5_i32 : BitVec 32 := 5#32
  let v484 : BitVec 32 := Scalar.addi v483 c5_i32
  let v497 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let c16_i32_285 : BitVec 32 := 16#32
  let v495 : BitVec 32 := Scalar.addi v482 c16_i32_285
  let v498 : Index := Scalar.indexCast v495
  ![0, v497.toNat, v498.toNat]

def k1_chk38 (k1_t3 : Fin k1_t3_loop.trips) (v480 : BitVec 32) : Prop :=
  (∀ a, (k1_off153 k1_t3 v480) a + S1x1x16.size a ≤ S2x128x128.size a) ∧
  (∀ a, (k1_off155 k1_t3 v480) a + S1x1x16.size a ≤ S2x128x128.size a)
instance k1_chk38.dec : ∀ (k1_t3 : Fin k1_t3_loop.trips) (v480 : BitVec 32), Decidable (k1_chk38 k1_t3 v480) := fun k1_t3 v480 => decidable_of_iff' _ (Iff.of_eq (k1_chk38.eq_1 k1_t3 v480))
theorem k1_off153_inb : ∀ (k1_t3 : Fin k1_t3_loop.trips) (v480 : BitVec 32) (k1_hw38 : k1_chk38 k1_t3 v480), ∀ a, (k1_off153 k1_t3 v480) a + S1x1x16.size a ≤ S2x128x128.size a := fun k1_t3 v480 k1_hw38 => k1_hw38.1
theorem k1_off155_inb : ∀ (k1_t3 : Fin k1_t3_loop.trips) (v480 : BitVec 32) (k1_hw38 : k1_chk38 k1_t3 v480), ∀ a, (k1_off155 k1_t3 v480) a + S1x1x16.size a ≤ S2x128x128.size a := fun k1_t3 v480 k1_hw38 => k1_hw38.2

def k1_off156 (k1_t3 : Fin k1_t3_loop.trips) : Fin 2 → Nat :=
  let c256_i32_287 : BitVec 32 := 256#32
  let c0_i32_210 : BitVec 32 := 0#32
  let c1_i32_212 : BitVec 32 := 1#32
  let arg10 : BitVec 32 := Scf.iv c0_i32_210 c1_i32_212 k1_t3
  let c16_i32_281 : BitVec 32 := 16#32
  let v483 : BitVec 32 := Scalar.muli arg10 c16_i32_281
  let c5_i32 : BitVec 32 := 5#32
  let v484 : BitVec 32 := Scalar.addi v483 c5_i32
  let v501 : BitVec 32 := Scalar.addi c256_i32_287 v484
  let v502 : Index := Scalar.indexCast v501
  let c16_288 : Index := 16#32
  ![v502.toNat, 16]
def k1_off157 (k1_t3 : Fin k1_t3_loop.trips) (v507 : BitVec 32) : Fin 3 → Nat :=
  let c0_i32_292 : BitVec 32 := 0#32
  let v512 : Index := Scalar.indexCast c0_i32_292
  let c0_i32_210 : BitVec 32 := 0#32
  let c1_i32_212 : BitVec 32 := 1#32
  let arg10 : BitVec 32 := Scf.iv c0_i32_210 c1_i32_212 k1_t3
  let c16_i32_291 : BitVec 32 := 16#32
  let v510 : BitVec 32 := Scalar.muli arg10 c16_i32_291
  let c6_i32 : BitVec 32 := 6#32
  let v511 : BitVec 32 := Scalar.addi v510 c6_i32
  let v513 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let v514 : Index := Scalar.indexCast v509
  ![0, v513.toNat, v514.toNat]

def k1_off158 (k1_t3 : Fin k1_t3_loop.trips) : Fin 2 → Nat :=
  let c256_i32_293 : BitVec 32 := 256#32
  let c0_i32_210 : BitVec 32 := 0#32
  let c1_i32_212 : BitVec 32 := 1#32
  let arg10 : BitVec 32 := Scf.iv c0_i32_210 c1_i32_212 k1_t3
  let c16_i32_291 : BitVec 32 := 16#32
  let v510 : BitVec 32 := Scalar.muli arg10 c16_i32_291
  let c6_i32 : BitVec 32 := 6#32
  let v511 : BitVec 32 := Scalar.addi v510 c6_i32
  let v517 : BitVec 32 := Scalar.addi c256_i32_293 v511
  let v518 : Index := Scalar.indexCast v517
  let c0_294 : Index := 0#32
  ![v518.toNat, 0]
def k1_off159 (k1_t3 : Fin k1_t3_loop.trips) (v507 : BitVec 32) : Fin 3 → Nat :=
  let c0_i32_296 : BitVec 32 := 0#32
  let v523 : Index := Scalar.indexCast c0_i32_296
  let c0_i32_210 : BitVec 32 := 0#32
  let c1_i32_212 : BitVec 32 := 1#32
  let arg10 : BitVec 32 := Scf.iv c0_i32_210 c1_i32_212 k1_t3
  let c16_i32_291 : BitVec 32 := 16#32
  let v510 : BitVec 32 := Scalar.muli arg10 c16_i32_291
  let c6_i32 : BitVec 32 := 6#32
  let v511 : BitVec 32 := Scalar.addi v510 c6_i32
  let v524 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let c16_i32_295 : BitVec 32 := 16#32
  let v522 : BitVec 32 := Scalar.addi v509 c16_i32_295
  let v525 : Index := Scalar.indexCast v522
  ![0, v524.toNat, v525.toNat]

def k1_chk39 (k1_t3 : Fin k1_t3_loop.trips) (v507 : BitVec 32) : Prop :=
  (∀ a, (k1_off157 k1_t3 v507) a + S1x1x16.size a ≤ S2x128x128.size a) ∧
  (∀ a, (k1_off159 k1_t3 v507) a + S1x1x16.size a ≤ S2x128x128.size a)
instance k1_chk39.dec : ∀ (k1_t3 : Fin k1_t3_loop.trips) (v507 : BitVec 32), Decidable (k1_chk39 k1_t3 v507) := fun k1_t3 v507 => decidable_of_iff' _ (Iff.of_eq (k1_chk39.eq_1 k1_t3 v507))
theorem k1_off157_inb : ∀ (k1_t3 : Fin k1_t3_loop.trips) (v507 : BitVec 32) (k1_hw39 : k1_chk39 k1_t3 v507), ∀ a, (k1_off157 k1_t3 v507) a + S1x1x16.size a ≤ S2x128x128.size a := fun k1_t3 v507 k1_hw39 => k1_hw39.1
theorem k1_off159_inb : ∀ (k1_t3 : Fin k1_t3_loop.trips) (v507 : BitVec 32) (k1_hw39 : k1_chk39 k1_t3 v507), ∀ a, (k1_off159 k1_t3 v507) a + S1x1x16.size a ≤ S2x128x128.size a := fun k1_t3 v507 k1_hw39 => k1_hw39.2

def k1_off160 (k1_t3 : Fin k1_t3_loop.trips) : Fin 2 → Nat :=
  let c256_i32_297 : BitVec 32 := 256#32
  let c0_i32_210 : BitVec 32 := 0#32
  let c1_i32_212 : BitVec 32 := 1#32
  let arg10 : BitVec 32 := Scf.iv c0_i32_210 c1_i32_212 k1_t3
  let c16_i32_291 : BitVec 32 := 16#32
  let v510 : BitVec 32 := Scalar.muli arg10 c16_i32_291
  let c6_i32 : BitVec 32 := 6#32
  let v511 : BitVec 32 := Scalar.addi v510 c6_i32
  let v528 : BitVec 32 := Scalar.addi c256_i32_297 v511
  let v529 : Index := Scalar.indexCast v528
  let c16_298 : Index := 16#32
  ![v529.toNat, 16]
def k1_off161 (k1_t3 : Fin k1_t3_loop.trips) (v534 : BitVec 32) : Fin 3 → Nat :=
  let c0_i32_302 : BitVec 32 := 0#32
  let v539 : Index := Scalar.indexCast c0_i32_302
  let c0_i32_210 : BitVec 32 := 0#32
  let c1_i32_212 : BitVec 32 := 1#32
  let arg10 : BitVec 32 := Scf.iv c0_i32_210 c1_i32_212 k1_t3
  let c16_i32_301 : BitVec 32 := 16#32
  let v537 : BitVec 32 := Scalar.muli arg10 c16_i32_301
  let c7_i32 : BitVec 32 := 7#32
  let v538 : BitVec 32 := Scalar.addi v537 c7_i32
  let v540 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let v541 : Index := Scalar.indexCast v536
  ![0, v540.toNat, v541.toNat]

def k1_off162 (k1_t3 : Fin k1_t3_loop.trips) : Fin 2 → Nat :=
  let c256_i32_303 : BitVec 32 := 256#32
  let c0_i32_210 : BitVec 32 := 0#32
  let c1_i32_212 : BitVec 32 := 1#32
  let arg10 : BitVec 32 := Scf.iv c0_i32_210 c1_i32_212 k1_t3
  let c16_i32_301 : BitVec 32 := 16#32
  let v537 : BitVec 32 := Scalar.muli arg10 c16_i32_301
  let c7_i32 : BitVec 32 := 7#32
  let v538 : BitVec 32 := Scalar.addi v537 c7_i32
  let v544 : BitVec 32 := Scalar.addi c256_i32_303 v538
  let v545 : Index := Scalar.indexCast v544
  let c0_304 : Index := 0#32
  ![v545.toNat, 0]
def k1_off163 (k1_t3 : Fin k1_t3_loop.trips) (v534 : BitVec 32) : Fin 3 → Nat :=
  let c0_i32_306 : BitVec 32 := 0#32
  let v550 : Index := Scalar.indexCast c0_i32_306
  let c0_i32_210 : BitVec 32 := 0#32
  let c1_i32_212 : BitVec 32 := 1#32
  let arg10 : BitVec 32 := Scf.iv c0_i32_210 c1_i32_212 k1_t3
  let c16_i32_301 : BitVec 32 := 16#32
  let v537 : BitVec 32 := Scalar.muli arg10 c16_i32_301
  let c7_i32 : BitVec 32 := 7#32
  let v538 : BitVec 32 := Scalar.addi v537 c7_i32
  let v551 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let c16_i32_305 : BitVec 32 := 16#32
  let v549 : BitVec 32 := Scalar.addi v536 c16_i32_305
  let v552 : Index := Scalar.indexCast v549
  ![0, v551.toNat, v552.toNat]

def k1_chk40 (k1_t3 : Fin k1_t3_loop.trips) (v534 : BitVec 32) : Prop :=
  (∀ a, (k1_off161 k1_t3 v534) a + S1x1x16.size a ≤ S2x128x128.size a) ∧
  (∀ a, (k1_off163 k1_t3 v534) a + S1x1x16.size a ≤ S2x128x128.size a)
instance k1_chk40.dec : ∀ (k1_t3 : Fin k1_t3_loop.trips) (v534 : BitVec 32), Decidable (k1_chk40 k1_t3 v534) := fun k1_t3 v534 => decidable_of_iff' _ (Iff.of_eq (k1_chk40.eq_1 k1_t3 v534))
theorem k1_off161_inb : ∀ (k1_t3 : Fin k1_t3_loop.trips) (v534 : BitVec 32) (k1_hw40 : k1_chk40 k1_t3 v534), ∀ a, (k1_off161 k1_t3 v534) a + S1x1x16.size a ≤ S2x128x128.size a := fun k1_t3 v534 k1_hw40 => k1_hw40.1
theorem k1_off163_inb : ∀ (k1_t3 : Fin k1_t3_loop.trips) (v534 : BitVec 32) (k1_hw40 : k1_chk40 k1_t3 v534), ∀ a, (k1_off163 k1_t3 v534) a + S1x1x16.size a ≤ S2x128x128.size a := fun k1_t3 v534 k1_hw40 => k1_hw40.2

def k1_off164 (k1_t3 : Fin k1_t3_loop.trips) : Fin 2 → Nat :=
  let c256_i32_307 : BitVec 32 := 256#32
  let c0_i32_210 : BitVec 32 := 0#32
  let c1_i32_212 : BitVec 32 := 1#32
  let arg10 : BitVec 32 := Scf.iv c0_i32_210 c1_i32_212 k1_t3
  let c16_i32_301 : BitVec 32 := 16#32
  let v537 : BitVec 32 := Scalar.muli arg10 c16_i32_301
  let c7_i32 : BitVec 32 := 7#32
  let v538 : BitVec 32 := Scalar.addi v537 c7_i32
  let v555 : BitVec 32 := Scalar.addi c256_i32_307 v538
  let v556 : Index := Scalar.indexCast v555
  let c16_308 : Index := 16#32
  ![v556.toNat, 16]
def k1_off165 (k1_t3 : Fin k1_t3_loop.trips) (v561 : BitVec 32) : Fin 3 → Nat :=
  let c0_i32_313 : BitVec 32 := 0#32
  let v566 : Index := Scalar.indexCast c0_i32_313
  let c0_i32_210 : BitVec 32 := 0#32
  let c1_i32_212 : BitVec 32 := 1#32
  let arg10 : BitVec 32 := Scf.iv c0_i32_210 c1_i32_212 k1_t3
  let c16_i32_311 : BitVec 32 := 16#32
  let v564 : BitVec 32 := Scalar.muli arg10 c16_i32_311
  let c8_i32_312 : BitVec 32 := 8#32
  let v565 : BitVec 32 := Scalar.addi v564 c8_i32_312
  let v567 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let v568 : Index := Scalar.indexCast v563
  ![0, v567.toNat, v568.toNat]

def k1_off166 (k1_t3 : Fin k1_t3_loop.trips) : Fin 2 → Nat :=
  let c256_i32_314 : BitVec 32 := 256#32
  let c0_i32_210 : BitVec 32 := 0#32
  let c1_i32_212 : BitVec 32 := 1#32
  let arg10 : BitVec 32 := Scf.iv c0_i32_210 c1_i32_212 k1_t3
  let c16_i32_311 : BitVec 32 := 16#32
  let v564 : BitVec 32 := Scalar.muli arg10 c16_i32_311
  let c8_i32_312 : BitVec 32 := 8#32
  let v565 : BitVec 32 := Scalar.addi v564 c8_i32_312
  let v571 : BitVec 32 := Scalar.addi c256_i32_314 v565
  let v572 : Index := Scalar.indexCast v571
  let c0_315 : Index := 0#32
  ![v572.toNat, 0]
def k1_off167 (k1_t3 : Fin k1_t3_loop.trips) (v561 : BitVec 32) : Fin 3 → Nat :=
  let c0_i32_317 : BitVec 32 := 0#32
  let v577 : Index := Scalar.indexCast c0_i32_317
  let c0_i32_210 : BitVec 32 := 0#32
  let c1_i32_212 : BitVec 32 := 1#32
  let arg10 : BitVec 32 := Scf.iv c0_i32_210 c1_i32_212 k1_t3
  let c16_i32_311 : BitVec 32 := 16#32
  let v564 : BitVec 32 := Scalar.muli arg10 c16_i32_311
  let c8_i32_312 : BitVec 32 := 8#32
  let v565 : BitVec 32 := Scalar.addi v564 c8_i32_312
  let v578 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let c16_i32_316 : BitVec 32 := 16#32
  let v576 : BitVec 32 := Scalar.addi v563 c16_i32_316
  let v579 : Index := Scalar.indexCast v576
  ![0, v578.toNat, v579.toNat]

def k1_chk41 (k1_t3 : Fin k1_t3_loop.trips) (v561 : BitVec 32) : Prop :=
  (∀ a, (k1_off165 k1_t3 v561) a + S1x1x16.size a ≤ S2x128x128.size a) ∧
  (∀ a, (k1_off167 k1_t3 v561) a + S1x1x16.size a ≤ S2x128x128.size a)
instance k1_chk41.dec : ∀ (k1_t3 : Fin k1_t3_loop.trips) (v561 : BitVec 32), Decidable (k1_chk41 k1_t3 v561) := fun k1_t3 v561 => decidable_of_iff' _ (Iff.of_eq (k1_chk41.eq_1 k1_t3 v561))
theorem k1_off165_inb : ∀ (k1_t3 : Fin k1_t3_loop.trips) (v561 : BitVec 32) (k1_hw41 : k1_chk41 k1_t3 v561), ∀ a, (k1_off165 k1_t3 v561) a + S1x1x16.size a ≤ S2x128x128.size a := fun k1_t3 v561 k1_hw41 => k1_hw41.1
theorem k1_off167_inb : ∀ (k1_t3 : Fin k1_t3_loop.trips) (v561 : BitVec 32) (k1_hw41 : k1_chk41 k1_t3 v561), ∀ a, (k1_off167 k1_t3 v561) a + S1x1x16.size a ≤ S2x128x128.size a := fun k1_t3 v561 k1_hw41 => k1_hw41.2

def k1_off168 (k1_t3 : Fin k1_t3_loop.trips) : Fin 2 → Nat :=
  let c256_i32_318 : BitVec 32 := 256#32
  let c0_i32_210 : BitVec 32 := 0#32
  let c1_i32_212 : BitVec 32 := 1#32
  let arg10 : BitVec 32 := Scf.iv c0_i32_210 c1_i32_212 k1_t3
  let c16_i32_311 : BitVec 32 := 16#32
  let v564 : BitVec 32 := Scalar.muli arg10 c16_i32_311
  let c8_i32_312 : BitVec 32 := 8#32
  let v565 : BitVec 32 := Scalar.addi v564 c8_i32_312
  let v582 : BitVec 32 := Scalar.addi c256_i32_318 v565
  let v583 : Index := Scalar.indexCast v582
  let c16_319 : Index := 16#32
  ![v583.toNat, 16]
def k1_off169 (k1_t3 : Fin k1_t3_loop.trips) (v588 : BitVec 32) : Fin 3 → Nat :=
  let c0_i32_323 : BitVec 32 := 0#32
  let v593 : Index := Scalar.indexCast c0_i32_323
  let c0_i32_210 : BitVec 32 := 0#32
  let c1_i32_212 : BitVec 32 := 1#32
  let arg10 : BitVec 32 := Scf.iv c0_i32_210 c1_i32_212 k1_t3
  let c16_i32_322 : BitVec 32 := 16#32
  let v591 : BitVec 32 := Scalar.muli arg10 c16_i32_322
  let c9_i32 : BitVec 32 := 9#32
  let v592 : BitVec 32 := Scalar.addi v591 c9_i32
  let v594 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let v595 : Index := Scalar.indexCast v590
  ![0, v594.toNat, v595.toNat]

def k1_off170 (k1_t3 : Fin k1_t3_loop.trips) : Fin 2 → Nat :=
  let c256_i32_324 : BitVec 32 := 256#32
  let c0_i32_210 : BitVec 32 := 0#32
  let c1_i32_212 : BitVec 32 := 1#32
  let arg10 : BitVec 32 := Scf.iv c0_i32_210 c1_i32_212 k1_t3
  let c16_i32_322 : BitVec 32 := 16#32
  let v591 : BitVec 32 := Scalar.muli arg10 c16_i32_322
  let c9_i32 : BitVec 32 := 9#32
  let v592 : BitVec 32 := Scalar.addi v591 c9_i32
  let v598 : BitVec 32 := Scalar.addi c256_i32_324 v592
  let v599 : Index := Scalar.indexCast v598
  let c0_325 : Index := 0#32
  ![v599.toNat, 0]
def k1_off171 (k1_t3 : Fin k1_t3_loop.trips) (v588 : BitVec 32) : Fin 3 → Nat :=
  let c0_i32_327 : BitVec 32 := 0#32
  let v604 : Index := Scalar.indexCast c0_i32_327
  let c0_i32_210 : BitVec 32 := 0#32
  let c1_i32_212 : BitVec 32 := 1#32
  let arg10 : BitVec 32 := Scf.iv c0_i32_210 c1_i32_212 k1_t3
  let c16_i32_322 : BitVec 32 := 16#32
  let v591 : BitVec 32 := Scalar.muli arg10 c16_i32_322
  let c9_i32 : BitVec 32 := 9#32
  let v592 : BitVec 32 := Scalar.addi v591 c9_i32
  let v605 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let c16_i32_326 : BitVec 32 := 16#32
  let v603 : BitVec 32 := Scalar.addi v590 c16_i32_326
  let v606 : Index := Scalar.indexCast v603
  ![0, v605.toNat, v606.toNat]

def k1_chk42 (k1_t3 : Fin k1_t3_loop.trips) (v588 : BitVec 32) : Prop :=
  (∀ a, (k1_off169 k1_t3 v588) a + S1x1x16.size a ≤ S2x128x128.size a) ∧
  (∀ a, (k1_off171 k1_t3 v588) a + S1x1x16.size a ≤ S2x128x128.size a)
instance k1_chk42.dec : ∀ (k1_t3 : Fin k1_t3_loop.trips) (v588 : BitVec 32), Decidable (k1_chk42 k1_t3 v588) := fun k1_t3 v588 => decidable_of_iff' _ (Iff.of_eq (k1_chk42.eq_1 k1_t3 v588))
theorem k1_off169_inb : ∀ (k1_t3 : Fin k1_t3_loop.trips) (v588 : BitVec 32) (k1_hw42 : k1_chk42 k1_t3 v588), ∀ a, (k1_off169 k1_t3 v588) a + S1x1x16.size a ≤ S2x128x128.size a := fun k1_t3 v588 k1_hw42 => k1_hw42.1
theorem k1_off171_inb : ∀ (k1_t3 : Fin k1_t3_loop.trips) (v588 : BitVec 32) (k1_hw42 : k1_chk42 k1_t3 v588), ∀ a, (k1_off171 k1_t3 v588) a + S1x1x16.size a ≤ S2x128x128.size a := fun k1_t3 v588 k1_hw42 => k1_hw42.2

def k1_off172 (k1_t3 : Fin k1_t3_loop.trips) : Fin 2 → Nat :=
  let c256_i32_328 : BitVec 32 := 256#32
  let c0_i32_210 : BitVec 32 := 0#32
  let c1_i32_212 : BitVec 32 := 1#32
  let arg10 : BitVec 32 := Scf.iv c0_i32_210 c1_i32_212 k1_t3
  let c16_i32_322 : BitVec 32 := 16#32
  let v591 : BitVec 32 := Scalar.muli arg10 c16_i32_322
  let c9_i32 : BitVec 32 := 9#32
  let v592 : BitVec 32 := Scalar.addi v591 c9_i32
  let v609 : BitVec 32 := Scalar.addi c256_i32_328 v592
  let v610 : Index := Scalar.indexCast v609
  let c16_329 : Index := 16#32
  ![v610.toNat, 16]
def k1_off173 (k1_t3 : Fin k1_t3_loop.trips) (v615 : BitVec 32) : Fin 3 → Nat :=
  let c0_i32_333 : BitVec 32 := 0#32
  let v620 : Index := Scalar.indexCast c0_i32_333
  let c0_i32_210 : BitVec 32 := 0#32
  let c1_i32_212 : BitVec 32 := 1#32
  let arg10 : BitVec 32 := Scf.iv c0_i32_210 c1_i32_212 k1_t3
  let c16_i32_332 : BitVec 32 := 16#32
  let v618 : BitVec 32 := Scalar.muli arg10 c16_i32_332
  let c10_i32 : BitVec 32 := 10#32
  let v619 : BitVec 32 := Scalar.addi v618 c10_i32
  let v621 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let v622 : Index := Scalar.indexCast v617
  ![0, v621.toNat, v622.toNat]

def k1_off174 (k1_t3 : Fin k1_t3_loop.trips) : Fin 2 → Nat :=
  let c256_i32_334 : BitVec 32 := 256#32
  let c0_i32_210 : BitVec 32 := 0#32
  let c1_i32_212 : BitVec 32 := 1#32
  let arg10 : BitVec 32 := Scf.iv c0_i32_210 c1_i32_212 k1_t3
  let c16_i32_332 : BitVec 32 := 16#32
  let v618 : BitVec 32 := Scalar.muli arg10 c16_i32_332
  let c10_i32 : BitVec 32 := 10#32
  let v619 : BitVec 32 := Scalar.addi v618 c10_i32
  let v625 : BitVec 32 := Scalar.addi c256_i32_334 v619
  let v626 : Index := Scalar.indexCast v625
  let c0_335 : Index := 0#32
  ![v626.toNat, 0]
def k1_off175 (k1_t3 : Fin k1_t3_loop.trips) (v615 : BitVec 32) : Fin 3 → Nat :=
  let c0_i32_337 : BitVec 32 := 0#32
  let v631 : Index := Scalar.indexCast c0_i32_337
  let c0_i32_210 : BitVec 32 := 0#32
  let c1_i32_212 : BitVec 32 := 1#32
  let arg10 : BitVec 32 := Scf.iv c0_i32_210 c1_i32_212 k1_t3
  let c16_i32_332 : BitVec 32 := 16#32
  let v618 : BitVec 32 := Scalar.muli arg10 c16_i32_332
  let c10_i32 : BitVec 32 := 10#32
  let v619 : BitVec 32 := Scalar.addi v618 c10_i32
  let v632 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let c16_i32_336 : BitVec 32 := 16#32
  let v630 : BitVec 32 := Scalar.addi v617 c16_i32_336
  let v633 : Index := Scalar.indexCast v630
  ![0, v632.toNat, v633.toNat]

def k1_chk43 (k1_t3 : Fin k1_t3_loop.trips) (v615 : BitVec 32) : Prop :=
  (∀ a, (k1_off173 k1_t3 v615) a + S1x1x16.size a ≤ S2x128x128.size a) ∧
  (∀ a, (k1_off175 k1_t3 v615) a + S1x1x16.size a ≤ S2x128x128.size a)
instance k1_chk43.dec : ∀ (k1_t3 : Fin k1_t3_loop.trips) (v615 : BitVec 32), Decidable (k1_chk43 k1_t3 v615) := fun k1_t3 v615 => decidable_of_iff' _ (Iff.of_eq (k1_chk43.eq_1 k1_t3 v615))
theorem k1_off173_inb : ∀ (k1_t3 : Fin k1_t3_loop.trips) (v615 : BitVec 32) (k1_hw43 : k1_chk43 k1_t3 v615), ∀ a, (k1_off173 k1_t3 v615) a + S1x1x16.size a ≤ S2x128x128.size a := fun k1_t3 v615 k1_hw43 => k1_hw43.1
theorem k1_off175_inb : ∀ (k1_t3 : Fin k1_t3_loop.trips) (v615 : BitVec 32) (k1_hw43 : k1_chk43 k1_t3 v615), ∀ a, (k1_off175 k1_t3 v615) a + S1x1x16.size a ≤ S2x128x128.size a := fun k1_t3 v615 k1_hw43 => k1_hw43.2

def k1_off176 (k1_t3 : Fin k1_t3_loop.trips) : Fin 2 → Nat :=
  let c256_i32_338 : BitVec 32 := 256#32
  let c0_i32_210 : BitVec 32 := 0#32
  let c1_i32_212 : BitVec 32 := 1#32
  let arg10 : BitVec 32 := Scf.iv c0_i32_210 c1_i32_212 k1_t3
  let c16_i32_332 : BitVec 32 := 16#32
  let v618 : BitVec 32 := Scalar.muli arg10 c16_i32_332
  let c10_i32 : BitVec 32 := 10#32
  let v619 : BitVec 32 := Scalar.addi v618 c10_i32
  let v636 : BitVec 32 := Scalar.addi c256_i32_338 v619
  let v637 : Index := Scalar.indexCast v636
  let c16_339 : Index := 16#32
  ![v637.toNat, 16]
def k1_off177 (k1_t3 : Fin k1_t3_loop.trips) (v642 : BitVec 32) : Fin 3 → Nat :=
  let c0_i32_343 : BitVec 32 := 0#32
  let v647 : Index := Scalar.indexCast c0_i32_343
  let c0_i32_210 : BitVec 32 := 0#32
  let c1_i32_212 : BitVec 32 := 1#32
  let arg10 : BitVec 32 := Scf.iv c0_i32_210 c1_i32_212 k1_t3
  let c16_i32_342 : BitVec 32 := 16#32
  let v645 : BitVec 32 := Scalar.muli arg10 c16_i32_342
  let c11_i32 : BitVec 32 := 11#32
  let v646 : BitVec 32 := Scalar.addi v645 c11_i32
  let v648 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let v649 : Index := Scalar.indexCast v644
  ![0, v648.toNat, v649.toNat]

def k1_off178 (k1_t3 : Fin k1_t3_loop.trips) : Fin 2 → Nat :=
  let c256_i32_344 : BitVec 32 := 256#32
  let c0_i32_210 : BitVec 32 := 0#32
  let c1_i32_212 : BitVec 32 := 1#32
  let arg10 : BitVec 32 := Scf.iv c0_i32_210 c1_i32_212 k1_t3
  let c16_i32_342 : BitVec 32 := 16#32
  let v645 : BitVec 32 := Scalar.muli arg10 c16_i32_342
  let c11_i32 : BitVec 32 := 11#32
  let v646 : BitVec 32 := Scalar.addi v645 c11_i32
  let v652 : BitVec 32 := Scalar.addi c256_i32_344 v646
  let v653 : Index := Scalar.indexCast v652
  let c0_345 : Index := 0#32
  ![v653.toNat, 0]
def k1_off179 (k1_t3 : Fin k1_t3_loop.trips) (v642 : BitVec 32) : Fin 3 → Nat :=
  let c0_i32_347 : BitVec 32 := 0#32
  let v658 : Index := Scalar.indexCast c0_i32_347
  let c0_i32_210 : BitVec 32 := 0#32
  let c1_i32_212 : BitVec 32 := 1#32
  let arg10 : BitVec 32 := Scf.iv c0_i32_210 c1_i32_212 k1_t3
  let c16_i32_342 : BitVec 32 := 16#32
  let v645 : BitVec 32 := Scalar.muli arg10 c16_i32_342
  let c11_i32 : BitVec 32 := 11#32
  let v646 : BitVec 32 := Scalar.addi v645 c11_i32
  let v659 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let c16_i32_346 : BitVec 32 := 16#32
  let v657 : BitVec 32 := Scalar.addi v644 c16_i32_346
  let v660 : Index := Scalar.indexCast v657
  ![0, v659.toNat, v660.toNat]

def k1_chk44 (k1_t3 : Fin k1_t3_loop.trips) (v642 : BitVec 32) : Prop :=
  (∀ a, (k1_off177 k1_t3 v642) a + S1x1x16.size a ≤ S2x128x128.size a) ∧
  (∀ a, (k1_off179 k1_t3 v642) a + S1x1x16.size a ≤ S2x128x128.size a)
instance k1_chk44.dec : ∀ (k1_t3 : Fin k1_t3_loop.trips) (v642 : BitVec 32), Decidable (k1_chk44 k1_t3 v642) := fun k1_t3 v642 => decidable_of_iff' _ (Iff.of_eq (k1_chk44.eq_1 k1_t3 v642))
theorem k1_off177_inb : ∀ (k1_t3 : Fin k1_t3_loop.trips) (v642 : BitVec 32) (k1_hw44 : k1_chk44 k1_t3 v642), ∀ a, (k1_off177 k1_t3 v642) a + S1x1x16.size a ≤ S2x128x128.size a := fun k1_t3 v642 k1_hw44 => k1_hw44.1
theorem k1_off179_inb : ∀ (k1_t3 : Fin k1_t3_loop.trips) (v642 : BitVec 32) (k1_hw44 : k1_chk44 k1_t3 v642), ∀ a, (k1_off179 k1_t3 v642) a + S1x1x16.size a ≤ S2x128x128.size a := fun k1_t3 v642 k1_hw44 => k1_hw44.2

def k1_off180 (k1_t3 : Fin k1_t3_loop.trips) : Fin 2 → Nat :=
  let c256_i32_348 : BitVec 32 := 256#32
  let c0_i32_210 : BitVec 32 := 0#32
  let c1_i32_212 : BitVec 32 := 1#32
  let arg10 : BitVec 32 := Scf.iv c0_i32_210 c1_i32_212 k1_t3
  let c16_i32_342 : BitVec 32 := 16#32
  let v645 : BitVec 32 := Scalar.muli arg10 c16_i32_342
  let c11_i32 : BitVec 32 := 11#32
  let v646 : BitVec 32 := Scalar.addi v645 c11_i32
  let v663 : BitVec 32 := Scalar.addi c256_i32_348 v646
  let v664 : Index := Scalar.indexCast v663
  let c16_349 : Index := 16#32
  ![v664.toNat, 16]
def k1_off181 (k1_t3 : Fin k1_t3_loop.trips) (v669 : BitVec 32) : Fin 3 → Nat :=
  let c0_i32_353 : BitVec 32 := 0#32
  let v674 : Index := Scalar.indexCast c0_i32_353
  let c0_i32_210 : BitVec 32 := 0#32
  let c1_i32_212 : BitVec 32 := 1#32
  let arg10 : BitVec 32 := Scf.iv c0_i32_210 c1_i32_212 k1_t3
  let c16_i32_352 : BitVec 32 := 16#32
  let v672 : BitVec 32 := Scalar.muli arg10 c16_i32_352
  let c12_i32 : BitVec 32 := 12#32
  let v673 : BitVec 32 := Scalar.addi v672 c12_i32
  let v675 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let v676 : Index := Scalar.indexCast v671
  ![0, v675.toNat, v676.toNat]

def k1_off182 (k1_t3 : Fin k1_t3_loop.trips) : Fin 2 → Nat :=
  let c256_i32_354 : BitVec 32 := 256#32
  let c0_i32_210 : BitVec 32 := 0#32
  let c1_i32_212 : BitVec 32 := 1#32
  let arg10 : BitVec 32 := Scf.iv c0_i32_210 c1_i32_212 k1_t3
  let c16_i32_352 : BitVec 32 := 16#32
  let v672 : BitVec 32 := Scalar.muli arg10 c16_i32_352
  let c12_i32 : BitVec 32 := 12#32
  let v673 : BitVec 32 := Scalar.addi v672 c12_i32
  let v679 : BitVec 32 := Scalar.addi c256_i32_354 v673
  let v680 : Index := Scalar.indexCast v679
  let c0_355 : Index := 0#32
  ![v680.toNat, 0]
def k1_off183 (k1_t3 : Fin k1_t3_loop.trips) (v669 : BitVec 32) : Fin 3 → Nat :=
  let c0_i32_357 : BitVec 32 := 0#32
  let v685 : Index := Scalar.indexCast c0_i32_357
  let c0_i32_210 : BitVec 32 := 0#32
  let c1_i32_212 : BitVec 32 := 1#32
  let arg10 : BitVec 32 := Scf.iv c0_i32_210 c1_i32_212 k1_t3
  let c16_i32_352 : BitVec 32 := 16#32
  let v672 : BitVec 32 := Scalar.muli arg10 c16_i32_352
  let c12_i32 : BitVec 32 := 12#32
  let v673 : BitVec 32 := Scalar.addi v672 c12_i32
  let v686 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let c16_i32_356 : BitVec 32 := 16#32
  let v684 : BitVec 32 := Scalar.addi v671 c16_i32_356
  let v687 : Index := Scalar.indexCast v684
  ![0, v686.toNat, v687.toNat]

def k1_chk45 (k1_t3 : Fin k1_t3_loop.trips) (v669 : BitVec 32) : Prop :=
  (∀ a, (k1_off181 k1_t3 v669) a + S1x1x16.size a ≤ S2x128x128.size a) ∧
  (∀ a, (k1_off183 k1_t3 v669) a + S1x1x16.size a ≤ S2x128x128.size a)
instance k1_chk45.dec : ∀ (k1_t3 : Fin k1_t3_loop.trips) (v669 : BitVec 32), Decidable (k1_chk45 k1_t3 v669) := fun k1_t3 v669 => decidable_of_iff' _ (Iff.of_eq (k1_chk45.eq_1 k1_t3 v669))
theorem k1_off181_inb : ∀ (k1_t3 : Fin k1_t3_loop.trips) (v669 : BitVec 32) (k1_hw45 : k1_chk45 k1_t3 v669), ∀ a, (k1_off181 k1_t3 v669) a + S1x1x16.size a ≤ S2x128x128.size a := fun k1_t3 v669 k1_hw45 => k1_hw45.1
theorem k1_off183_inb : ∀ (k1_t3 : Fin k1_t3_loop.trips) (v669 : BitVec 32) (k1_hw45 : k1_chk45 k1_t3 v669), ∀ a, (k1_off183 k1_t3 v669) a + S1x1x16.size a ≤ S2x128x128.size a := fun k1_t3 v669 k1_hw45 => k1_hw45.2

def k1_off184 (k1_t3 : Fin k1_t3_loop.trips) : Fin 2 → Nat :=
  let c256_i32_358 : BitVec 32 := 256#32
  let c0_i32_210 : BitVec 32 := 0#32
  let c1_i32_212 : BitVec 32 := 1#32
  let arg10 : BitVec 32 := Scf.iv c0_i32_210 c1_i32_212 k1_t3
  let c16_i32_352 : BitVec 32 := 16#32
  let v672 : BitVec 32 := Scalar.muli arg10 c16_i32_352
  let c12_i32 : BitVec 32 := 12#32
  let v673 : BitVec 32 := Scalar.addi v672 c12_i32
  let v690 : BitVec 32 := Scalar.addi c256_i32_358 v673
  let v691 : Index := Scalar.indexCast v690
  let c16_359 : Index := 16#32
  ![v691.toNat, 16]
def k1_off185 (k1_t3 : Fin k1_t3_loop.trips) (v696 : BitVec 32) : Fin 3 → Nat :=
  let c0_i32_363 : BitVec 32 := 0#32
  let v701 : Index := Scalar.indexCast c0_i32_363
  let c0_i32_210 : BitVec 32 := 0#32
  let c1_i32_212 : BitVec 32 := 1#32
  let arg10 : BitVec 32 := Scf.iv c0_i32_210 c1_i32_212 k1_t3
  let c16_i32_362 : BitVec 32 := 16#32
  let v699 : BitVec 32 := Scalar.muli arg10 c16_i32_362
  let c13_i32 : BitVec 32 := 13#32
  let v700 : BitVec 32 := Scalar.addi v699 c13_i32
  let v702 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let v703 : Index := Scalar.indexCast v698
  ![0, v702.toNat, v703.toNat]

def k1_off186 (k1_t3 : Fin k1_t3_loop.trips) : Fin 2 → Nat :=
  let c256_i32_364 : BitVec 32 := 256#32
  let c0_i32_210 : BitVec 32 := 0#32
  let c1_i32_212 : BitVec 32 := 1#32
  let arg10 : BitVec 32 := Scf.iv c0_i32_210 c1_i32_212 k1_t3
  let c16_i32_362 : BitVec 32 := 16#32
  let v699 : BitVec 32 := Scalar.muli arg10 c16_i32_362
  let c13_i32 : BitVec 32 := 13#32
  let v700 : BitVec 32 := Scalar.addi v699 c13_i32
  let v706 : BitVec 32 := Scalar.addi c256_i32_364 v700
  let v707 : Index := Scalar.indexCast v706
  let c0_365 : Index := 0#32
  ![v707.toNat, 0]
def k1_off187 (k1_t3 : Fin k1_t3_loop.trips) (v696 : BitVec 32) : Fin 3 → Nat :=
  let c0_i32_367 : BitVec 32 := 0#32
  let v712 : Index := Scalar.indexCast c0_i32_367
  let c0_i32_210 : BitVec 32 := 0#32
  let c1_i32_212 : BitVec 32 := 1#32
  let arg10 : BitVec 32 := Scf.iv c0_i32_210 c1_i32_212 k1_t3
  let c16_i32_362 : BitVec 32 := 16#32
  let v699 : BitVec 32 := Scalar.muli arg10 c16_i32_362
  let c13_i32 : BitVec 32 := 13#32
  let v700 : BitVec 32 := Scalar.addi v699 c13_i32
  let v713 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let c16_i32_366 : BitVec 32 := 16#32
  let v711 : BitVec 32 := Scalar.addi v698 c16_i32_366
  let v714 : Index := Scalar.indexCast v711
  ![0, v713.toNat, v714.toNat]

def k1_chk46 (k1_t3 : Fin k1_t3_loop.trips) (v696 : BitVec 32) : Prop :=
  (∀ a, (k1_off185 k1_t3 v696) a + S1x1x16.size a ≤ S2x128x128.size a) ∧
  (∀ a, (k1_off187 k1_t3 v696) a + S1x1x16.size a ≤ S2x128x128.size a)
instance k1_chk46.dec : ∀ (k1_t3 : Fin k1_t3_loop.trips) (v696 : BitVec 32), Decidable (k1_chk46 k1_t3 v696) := fun k1_t3 v696 => decidable_of_iff' _ (Iff.of_eq (k1_chk46.eq_1 k1_t3 v696))
theorem k1_off185_inb : ∀ (k1_t3 : Fin k1_t3_loop.trips) (v696 : BitVec 32) (k1_hw46 : k1_chk46 k1_t3 v696), ∀ a, (k1_off185 k1_t3 v696) a + S1x1x16.size a ≤ S2x128x128.size a := fun k1_t3 v696 k1_hw46 => k1_hw46.1
theorem k1_off187_inb : ∀ (k1_t3 : Fin k1_t3_loop.trips) (v696 : BitVec 32) (k1_hw46 : k1_chk46 k1_t3 v696), ∀ a, (k1_off187 k1_t3 v696) a + S1x1x16.size a ≤ S2x128x128.size a := fun k1_t3 v696 k1_hw46 => k1_hw46.2

def k1_off188 (k1_t3 : Fin k1_t3_loop.trips) : Fin 2 → Nat :=
  let c256_i32_368 : BitVec 32 := 256#32
  let c0_i32_210 : BitVec 32 := 0#32
  let c1_i32_212 : BitVec 32 := 1#32
  let arg10 : BitVec 32 := Scf.iv c0_i32_210 c1_i32_212 k1_t3
  let c16_i32_362 : BitVec 32 := 16#32
  let v699 : BitVec 32 := Scalar.muli arg10 c16_i32_362
  let c13_i32 : BitVec 32 := 13#32
  let v700 : BitVec 32 := Scalar.addi v699 c13_i32
  let v717 : BitVec 32 := Scalar.addi c256_i32_368 v700
  let v718 : Index := Scalar.indexCast v717
  let c16_369 : Index := 16#32
  ![v718.toNat, 16]
def k1_off189 (k1_t3 : Fin k1_t3_loop.trips) (v723 : BitVec 32) : Fin 3 → Nat :=
  let c0_i32_373 : BitVec 32 := 0#32
  let v728 : Index := Scalar.indexCast c0_i32_373
  let c0_i32_210 : BitVec 32 := 0#32
  let c1_i32_212 : BitVec 32 := 1#32
  let arg10 : BitVec 32 := Scf.iv c0_i32_210 c1_i32_212 k1_t3
  let c16_i32_372 : BitVec 32 := 16#32
  let v726 : BitVec 32 := Scalar.muli arg10 c16_i32_372
  let c14_i32 : BitVec 32 := 14#32
  let v727 : BitVec 32 := Scalar.addi v726 c14_i32
  let v729 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let v730 : Index := Scalar.indexCast v725
  ![0, v729.toNat, v730.toNat]

def k1_off190 (k1_t3 : Fin k1_t3_loop.trips) : Fin 2 → Nat :=
  let c256_i32_374 : BitVec 32 := 256#32
  let c0_i32_210 : BitVec 32 := 0#32
  let c1_i32_212 : BitVec 32 := 1#32
  let arg10 : BitVec 32 := Scf.iv c0_i32_210 c1_i32_212 k1_t3
  let c16_i32_372 : BitVec 32 := 16#32
  let v726 : BitVec 32 := Scalar.muli arg10 c16_i32_372
  let c14_i32 : BitVec 32 := 14#32
  let v727 : BitVec 32 := Scalar.addi v726 c14_i32
  let v733 : BitVec 32 := Scalar.addi c256_i32_374 v727
  let v734 : Index := Scalar.indexCast v733
  let c0_375 : Index := 0#32
  ![v734.toNat, 0]
def k1_off191 (k1_t3 : Fin k1_t3_loop.trips) (v723 : BitVec 32) : Fin 3 → Nat :=
  let c0_i32_377 : BitVec 32 := 0#32
  let v739 : Index := Scalar.indexCast c0_i32_377
  let c0_i32_210 : BitVec 32 := 0#32
  let c1_i32_212 : BitVec 32 := 1#32
  let arg10 : BitVec 32 := Scf.iv c0_i32_210 c1_i32_212 k1_t3
  let c16_i32_372 : BitVec 32 := 16#32
  let v726 : BitVec 32 := Scalar.muli arg10 c16_i32_372
  let c14_i32 : BitVec 32 := 14#32
  let v727 : BitVec 32 := Scalar.addi v726 c14_i32
  let v740 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let c16_i32_376 : BitVec 32 := 16#32
  let v738 : BitVec 32 := Scalar.addi v725 c16_i32_376
  let v741 : Index := Scalar.indexCast v738
  ![0, v740.toNat, v741.toNat]

def k1_chk47 (k1_t3 : Fin k1_t3_loop.trips) (v723 : BitVec 32) : Prop :=
  (∀ a, (k1_off189 k1_t3 v723) a + S1x1x16.size a ≤ S2x128x128.size a) ∧
  (∀ a, (k1_off191 k1_t3 v723) a + S1x1x16.size a ≤ S2x128x128.size a)
instance k1_chk47.dec : ∀ (k1_t3 : Fin k1_t3_loop.trips) (v723 : BitVec 32), Decidable (k1_chk47 k1_t3 v723) := fun k1_t3 v723 => decidable_of_iff' _ (Iff.of_eq (k1_chk47.eq_1 k1_t3 v723))
theorem k1_off189_inb : ∀ (k1_t3 : Fin k1_t3_loop.trips) (v723 : BitVec 32) (k1_hw47 : k1_chk47 k1_t3 v723), ∀ a, (k1_off189 k1_t3 v723) a + S1x1x16.size a ≤ S2x128x128.size a := fun k1_t3 v723 k1_hw47 => k1_hw47.1
theorem k1_off191_inb : ∀ (k1_t3 : Fin k1_t3_loop.trips) (v723 : BitVec 32) (k1_hw47 : k1_chk47 k1_t3 v723), ∀ a, (k1_off191 k1_t3 v723) a + S1x1x16.size a ≤ S2x128x128.size a := fun k1_t3 v723 k1_hw47 => k1_hw47.2

def k1_off192 (k1_t3 : Fin k1_t3_loop.trips) : Fin 2 → Nat :=
  let c256_i32_378 : BitVec 32 := 256#32
  let c0_i32_210 : BitVec 32 := 0#32
  let c1_i32_212 : BitVec 32 := 1#32
  let arg10 : BitVec 32 := Scf.iv c0_i32_210 c1_i32_212 k1_t3
  let c16_i32_372 : BitVec 32 := 16#32
  let v726 : BitVec 32 := Scalar.muli arg10 c16_i32_372
  let c14_i32 : BitVec 32 := 14#32
  let v727 : BitVec 32 := Scalar.addi v726 c14_i32
  let v744 : BitVec 32 := Scalar.addi c256_i32_378 v727
  let v745 : Index := Scalar.indexCast v744
  let c16_379 : Index := 16#32
  ![v745.toNat, 16]
def k1_off193 (k1_t3 : Fin k1_t3_loop.trips) (v750 : BitVec 32) : Fin 3 → Nat :=
  let c0_i32_383 : BitVec 32 := 0#32
  let v755 : Index := Scalar.indexCast c0_i32_383
  let c0_i32_210 : BitVec 32 := 0#32
  let c1_i32_212 : BitVec 32 := 1#32
  let arg10 : BitVec 32 := Scf.iv c0_i32_210 c1_i32_212 k1_t3
  let c16_i32_382 : BitVec 32 := 16#32
  let v753 : BitVec 32 := Scalar.muli arg10 c16_i32_382
  let c15_i32 : BitVec 32 := 15#32
  let v754 : BitVec 32 := Scalar.addi v753 c15_i32
  let v756 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let v757 : Index := Scalar.indexCast v752
  ![0, v756.toNat, v757.toNat]

def k1_off194 (k1_t3 : Fin k1_t3_loop.trips) : Fin 2 → Nat :=
  let c256_i32_384 : BitVec 32 := 256#32
  let c0_i32_210 : BitVec 32 := 0#32
  let c1_i32_212 : BitVec 32 := 1#32
  let arg10 : BitVec 32 := Scf.iv c0_i32_210 c1_i32_212 k1_t3
  let c16_i32_382 : BitVec 32 := 16#32
  let v753 : BitVec 32 := Scalar.muli arg10 c16_i32_382
  let c15_i32 : BitVec 32 := 15#32
  let v754 : BitVec 32 := Scalar.addi v753 c15_i32
  let v760 : BitVec 32 := Scalar.addi c256_i32_384 v754
  let v761 : Index := Scalar.indexCast v760
  let c0_385 : Index := 0#32
  ![v761.toNat, 0]
def k1_off195 (k1_t3 : Fin k1_t3_loop.trips) (v750 : BitVec 32) : Fin 3 → Nat :=
  let c0_i32_387 : BitVec 32 := 0#32
  let v766 : Index := Scalar.indexCast c0_i32_387
  let c0_i32_210 : BitVec 32 := 0#32
  let c1_i32_212 : BitVec 32 := 1#32
  let arg10 : BitVec 32 := Scf.iv c0_i32_210 c1_i32_212 k1_t3
  let c16_i32_382 : BitVec 32 := 16#32
  let v753 : BitVec 32 := Scalar.muli arg10 c16_i32_382
  let c15_i32 : BitVec 32 := 15#32
  let v754 : BitVec 32 := Scalar.addi v753 c15_i32
  let v767 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let c16_i32_386 : BitVec 32 := 16#32
  let v765 : BitVec 32 := Scalar.addi v752 c16_i32_386
  let v768 : Index := Scalar.indexCast v765
  ![0, v767.toNat, v768.toNat]

def k1_chk48 (k1_t3 : Fin k1_t3_loop.trips) (v750 : BitVec 32) : Prop :=
  (∀ a, (k1_off193 k1_t3 v750) a + S1x1x16.size a ≤ S2x128x128.size a) ∧
  (∀ a, (k1_off195 k1_t3 v750) a + S1x1x16.size a ≤ S2x128x128.size a)
instance k1_chk48.dec : ∀ (k1_t3 : Fin k1_t3_loop.trips) (v750 : BitVec 32), Decidable (k1_chk48 k1_t3 v750) := fun k1_t3 v750 => decidable_of_iff' _ (Iff.of_eq (k1_chk48.eq_1 k1_t3 v750))
theorem k1_off193_inb : ∀ (k1_t3 : Fin k1_t3_loop.trips) (v750 : BitVec 32) (k1_hw48 : k1_chk48 k1_t3 v750), ∀ a, (k1_off193 k1_t3 v750) a + S1x1x16.size a ≤ S2x128x128.size a := fun k1_t3 v750 k1_hw48 => k1_hw48.1
theorem k1_off195_inb : ∀ (k1_t3 : Fin k1_t3_loop.trips) (v750 : BitVec 32) (k1_hw48 : k1_chk48 k1_t3 v750), ∀ a, (k1_off195 k1_t3 v750) a + S1x1x16.size a ≤ S2x128x128.size a := fun k1_t3 v750 k1_hw48 => k1_hw48.2

def k1_off196 (k1_t3 : Fin k1_t3_loop.trips) : Fin 2 → Nat :=
  let c256_i32_388 : BitVec 32 := 256#32
  let c0_i32_210 : BitVec 32 := 0#32
  let c1_i32_212 : BitVec 32 := 1#32
  let arg10 : BitVec 32 := Scf.iv c0_i32_210 c1_i32_212 k1_t3
  let c16_i32_382 : BitVec 32 := 16#32
  let v753 : BitVec 32 := Scalar.muli arg10 c16_i32_382
  let c15_i32 : BitVec 32 := 15#32
  let v754 : BitVec 32 := Scalar.addi v753 c15_i32
  let v771 : BitVec 32 := Scalar.addi c256_i32_388 v754
  let v772 : Index := Scalar.indexCast v771
  let c16_389 : Index := 16#32
  ![v772.toNat, 16]
@[reducible] def k1_t4_loop : Scf.Loop 32 :=
  let c0_i32_221 : BitVec 32 := 0#32
  let c8_i32_222 : BitVec 32 := 8#32
  let v338 : BitVec 32 := Scalar.addi c0_i32_221 c8_i32_222
  let c1_i32_223 : BitVec 32 := 1#32
  ⟨c0_i32_221, v338, c1_i32_223⟩
def k1_off197 (k1_t4 : Fin k1_t4_loop.trips) : Fin 2 → Nat :=
  let c3_i32_225 : BitVec 32 := 3#32
  let v340 : Index := Scalar.indexCast c3_i32_225
  let c0_i32_221 : BitVec 32 := 0#32
  let c1_i32_223 : BitVec 32 := 1#32
  let arg10 : BitVec 32 := Scf.iv c0_i32_221 c1_i32_223 k1_t4
  let c16_i32 : BitVec 32 := 16#32
  let v339 : BitVec 32 := Scalar.muli arg10 c16_i32
  let v341 : Index := Scalar.indexCast v339
  ![3, v341.toNat]
def k1_off198 (k1_t4 : Fin k1_t4_loop.trips) (v345 : BitVec 32) : Fin 3 → Nat :=
  let c1_i32_229 : BitVec 32 := 1#32
  let v350 : Index := Scalar.indexCast c1_i32_229
  let c0_i32_221 : BitVec 32 := 0#32
  let c1_i32_223 : BitVec 32 := 1#32
  let arg10 : BitVec 32 := Scf.iv c0_i32_221 c1_i32_223 k1_t4
  let c16_i32_227 : BitVec 32 := 16#32
  let v348 : BitVec 32 := Scalar.muli arg10 c16_i32_227
  let c0_i32_228 : BitVec 32 := 0#32
  let v349 : BitVec 32 := Scalar.addi v348 c0_i32_228
  let v351 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let v352 : Index := Scalar.indexCast v347
  ![1, v351.toNat, v352.toNat]

def k1_off199 (k1_t4 : Fin k1_t4_loop.trips) : Fin 2 → Nat :=
  let c384_i32_230 : BitVec 32 := 384#32
  let c0_i32_221 : BitVec 32 := 0#32
  let c1_i32_223 : BitVec 32 := 1#32
  let arg10 : BitVec 32 := Scf.iv c0_i32_221 c1_i32_223 k1_t4
  let c16_i32_227 : BitVec 32 := 16#32
  let v348 : BitVec 32 := Scalar.muli arg10 c16_i32_227
  let c0_i32_228 : BitVec 32 := 0#32
  let v349 : BitVec 32 := Scalar.addi v348 c0_i32_228
  let v355 : BitVec 32 := Scalar.addi c384_i32_230 v349
  let v356 : Index := Scalar.indexCast v355
  let c0_231 : Index := 0#32
  ![v356.toNat, 0]
def k1_off200 (k1_t4 : Fin k1_t4_loop.trips) (v345 : BitVec 32) : Fin 3 → Nat :=
  let c1_i32_233 : BitVec 32 := 1#32
  let v361 : Index := Scalar.indexCast c1_i32_233
  let c0_i32_221 : BitVec 32 := 0#32
  let c1_i32_223 : BitVec 32 := 1#32
  let arg10 : BitVec 32 := Scf.iv c0_i32_221 c1_i32_223 k1_t4
  let c16_i32_227 : BitVec 32 := 16#32
  let v348 : BitVec 32 := Scalar.muli arg10 c16_i32_227
  let c0_i32_228 : BitVec 32 := 0#32
  let v349 : BitVec 32 := Scalar.addi v348 c0_i32_228
  let v362 : Index := Scalar.indexCast v349
  let c3_i32_226 : BitVec 32 := 3#32
  let v346 : BitVec 32 := Scalar.andi v345 c3_i32_226
  let c32_i32 : BitVec 32 := 32#32
  let v347 : BitVec 32 := Scalar.muli v346 c32_i32
  let c16_i32_232 : BitVec 32 := 16#32
  let v360 : BitVec 32 := Scalar.addi v347 c16_i32_232
  let v363 : Index := Scalar.indexCast v360
  ![1, v362.toNat, v363.toNat]

def k1_chk49 (k1_t4 : Fin k1_t4_loop.trips) (v345 : BitVec 32) : Prop :=
  (∀ a, (k1_off198 k1_t4 v345) a + S1x1x16.size a ≤ S2x128x128.size a) ∧
  (∀ a, (k1_off200 k1_t4 v345) a + S1x1x16.size a ≤ S2x128x128.size a)
instance k1_chk49.dec : ∀ (k1_t4 : Fin k1_t4_loop.trips) (v345 : BitVec 32), Decidable (k1_chk49 k1_t4 v345) := fun k1_t4 v345 => decidable_of_iff' _ (Iff.of_eq (k1_chk49.eq_1 k1_t4 v345))
theorem k1_off198_inb : ∀ (k1_t4 : Fin k1_t4_loop.trips) (v345 : BitVec 32) (k1_hw49 : k1_chk49 k1_t4 v345), ∀ a, (k1_off198 k1_t4 v345) a + S1x1x16.size a ≤ S2x128x128.size a := fun k1_t4 v345 k1_hw49 => k1_hw49.1
theorem k1_off200_inb : ∀ (k1_t4 : Fin k1_t4_loop.trips) (v345 : BitVec 32) (k1_hw49 : k1_chk49 k1_t4 v345), ∀ a, (k1_off200 k1_t4 v345) a + S1x1x16.size a ≤ S2x128x128.size a := fun k1_t4 v345 k1_hw49 => k1_hw49.2

def k1_off201 (k1_t4 : Fin k1_t4_loop.trips) : Fin 2 → Nat :=
  let c384_i32_234 : BitVec 32 := 384#32
  let c0_i32_221 : BitVec 32 := 0#32
  let c1_i32_223 : BitVec 32 := 1#32
  let arg10 : BitVec 32 := Scf.iv c0_i32_221 c1_i32_223 k1_t4
  let c16_i32_227 : BitVec 32 := 16#32
  let v348 : BitVec 32 := Scalar.muli arg10 c16_i32_227
  let c0_i32_228 : BitVec 32 := 0#32
  let v349 : BitVec 32 := Scalar.addi v348 c0_i32_228
  let v366 : BitVec 32 := Scalar.addi c384_i32_234 v349
  let v367 : Index := Scalar.indexCast v366
  let c16_235 : Index := 16#32
  ![v367.toNat, 16]
def k1_off202 (k1_t4 : Fin k1_t4_loop.trips) (v372 : BitVec 32) : Fin 3 → Nat :=
  let c1_i32_240 : BitVec 32 := 1#32
  let v377 : Index := Scalar.indexCast c1_i32_240
  let c0_i32_221 : BitVec 32 := 0#32
  let c1_i32_223 : BitVec 32 := 1#32
  let arg10 : BitVec 32 := Scf.iv c0_i32_221 c1_i32_223 k1_t4
  let c16_i32_238 : BitVec 32 := 16#32
  let v375 : BitVec 32 := Scalar.muli arg10 c16_i32_238
  let c1_i32_239 : BitVec 32 := 1#32
  let v376 : BitVec 32 := Scalar.addi v375 c1_i32_239
  let v378 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let v379 : Index := Scalar.indexCast v374
  ![1, v378.toNat, v379.toNat]

def k1_off203 (k1_t4 : Fin k1_t4_loop.trips) : Fin 2 → Nat :=
  let c384_i32_241 : BitVec 32 := 384#32
  let c0_i32_221 : BitVec 32 := 0#32
  let c1_i32_223 : BitVec 32 := 1#32
  let arg10 : BitVec 32 := Scf.iv c0_i32_221 c1_i32_223 k1_t4
  let c16_i32_238 : BitVec 32 := 16#32
  let v375 : BitVec 32 := Scalar.muli arg10 c16_i32_238
  let c1_i32_239 : BitVec 32 := 1#32
  let v376 : BitVec 32 := Scalar.addi v375 c1_i32_239
  let v382 : BitVec 32 := Scalar.addi c384_i32_241 v376
  let v383 : Index := Scalar.indexCast v382
  let c0_242 : Index := 0#32
  ![v383.toNat, 0]
def k1_off204 (k1_t4 : Fin k1_t4_loop.trips) (v372 : BitVec 32) : Fin 3 → Nat :=
  let c1_i32_244 : BitVec 32 := 1#32
  let v388 : Index := Scalar.indexCast c1_i32_244
  let c0_i32_221 : BitVec 32 := 0#32
  let c1_i32_223 : BitVec 32 := 1#32
  let arg10 : BitVec 32 := Scf.iv c0_i32_221 c1_i32_223 k1_t4
  let c16_i32_238 : BitVec 32 := 16#32
  let v375 : BitVec 32 := Scalar.muli arg10 c16_i32_238
  let c1_i32_239 : BitVec 32 := 1#32
  let v376 : BitVec 32 := Scalar.addi v375 c1_i32_239
  let v389 : Index := Scalar.indexCast v376
  let c3_i32_236 : BitVec 32 := 3#32
  let v373 : BitVec 32 := Scalar.andi v372 c3_i32_236
  let c32_i32_237 : BitVec 32 := 32#32
  let v374 : BitVec 32 := Scalar.muli v373 c32_i32_237
  let c16_i32_243 : BitVec 32 := 16#32
  let v387 : BitVec 32 := Scalar.addi v374 c16_i32_243
  let v390 : Index := Scalar.indexCast v387
  ![1, v389.toNat, v390.toNat]

def k1_chk50 (k1_t4 : Fin k1_t4_loop.trips) (v372 : BitVec 32) : Prop :=
  (∀ a, (k1_off202 k1_t4 v372) a + S1x1x16.size a ≤ S2x128x128.size a) ∧
  (∀ a, (k1_off204 k1_t4 v372) a + S1x1x16.size a ≤ S2x128x128.size a)
instance k1_chk50.dec : ∀ (k1_t4 : Fin k1_t4_loop.trips) (v372 : BitVec 32), Decidable (k1_chk50 k1_t4 v372) := fun k1_t4 v372 => decidable_of_iff' _ (Iff.of_eq (k1_chk50.eq_1 k1_t4 v372))
theorem k1_off202_inb : ∀ (k1_t4 : Fin k1_t4_loop.trips) (v372 : BitVec 32) (k1_hw50 : k1_chk50 k1_t4 v372), ∀ a, (k1_off202 k1_t4 v372) a + S1x1x16.size a ≤ S2x128x128.size a := fun k1_t4 v372 k1_hw50 => k1_hw50.1
theorem k1_off204_inb : ∀ (k1_t4 : Fin k1_t4_loop.trips) (v372 : BitVec 32) (k1_hw50 : k1_chk50 k1_t4 v372), ∀ a, (k1_off204 k1_t4 v372) a + S1x1x16.size a ≤ S2x128x128.size a := fun k1_t4 v372 k1_hw50 => k1_hw50.2

def k1_off205 (k1_t4 : Fin k1_t4_loop.trips) : Fin 2 → Nat :=
  let c384_i32_245 : BitVec 32 := 384#32
  let c0_i32_221 : BitVec 32 := 0#32
  let c1_i32_223 : BitVec 32 := 1#32
  let arg10 : BitVec 32 := Scf.iv c0_i32_221 c1_i32_223 k1_t4
  let c16_i32_238 : BitVec 32 := 16#32
  let v375 : BitVec 32 := Scalar.muli arg10 c16_i32_238
  let c1_i32_239 : BitVec 32 := 1#32
  let v376 : BitVec 32 := Scalar.addi v375 c1_i32_239
  let v393 : BitVec 32 := Scalar.addi c384_i32_245 v376
  let v394 : Index := Scalar.indexCast v393
  let c16_246 : Index := 16#32
  ![v394.toNat, 16]
def k1_off206 (k1_t4 : Fin k1_t4_loop.trips) (v399 : BitVec 32) : Fin 3 → Nat :=
  let c1_i32_251 : BitVec 32 := 1#32
  let v404 : Index := Scalar.indexCast c1_i32_251
  let c0_i32_221 : BitVec 32 := 0#32
  let c1_i32_223 : BitVec 32 := 1#32
  let arg10 : BitVec 32 := Scf.iv c0_i32_221 c1_i32_223 k1_t4
  let c16_i32_249 : BitVec 32 := 16#32
  let v402 : BitVec 32 := Scalar.muli arg10 c16_i32_249
  let c2_i32_250 : BitVec 32 := 2#32
  let v403 : BitVec 32 := Scalar.addi v402 c2_i32_250
  let v405 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let v406 : Index := Scalar.indexCast v401
  ![1, v405.toNat, v406.toNat]

def k1_off207 (k1_t4 : Fin k1_t4_loop.trips) : Fin 2 → Nat :=
  let c384_i32_252 : BitVec 32 := 384#32
  let c0_i32_221 : BitVec 32 := 0#32
  let c1_i32_223 : BitVec 32 := 1#32
  let arg10 : BitVec 32 := Scf.iv c0_i32_221 c1_i32_223 k1_t4
  let c16_i32_249 : BitVec 32 := 16#32
  let v402 : BitVec 32 := Scalar.muli arg10 c16_i32_249
  let c2_i32_250 : BitVec 32 := 2#32
  let v403 : BitVec 32 := Scalar.addi v402 c2_i32_250
  let v409 : BitVec 32 := Scalar.addi c384_i32_252 v403
  let v410 : Index := Scalar.indexCast v409
  let c0_253 : Index := 0#32
  ![v410.toNat, 0]
def k1_off208 (k1_t4 : Fin k1_t4_loop.trips) (v399 : BitVec 32) : Fin 3 → Nat :=
  let c1_i32_255 : BitVec 32 := 1#32
  let v415 : Index := Scalar.indexCast c1_i32_255
  let c0_i32_221 : BitVec 32 := 0#32
  let c1_i32_223 : BitVec 32 := 1#32
  let arg10 : BitVec 32 := Scf.iv c0_i32_221 c1_i32_223 k1_t4
  let c16_i32_249 : BitVec 32 := 16#32
  let v402 : BitVec 32 := Scalar.muli arg10 c16_i32_249
  let c2_i32_250 : BitVec 32 := 2#32
  let v403 : BitVec 32 := Scalar.addi v402 c2_i32_250
  let v416 : Index := Scalar.indexCast v403
  let c3_i32_247 : BitVec 32 := 3#32
  let v400 : BitVec 32 := Scalar.andi v399 c3_i32_247
  let c32_i32_248 : BitVec 32 := 32#32
  let v401 : BitVec 32 := Scalar.muli v400 c32_i32_248
  let c16_i32_254 : BitVec 32 := 16#32
  let v414 : BitVec 32 := Scalar.addi v401 c16_i32_254
  let v417 : Index := Scalar.indexCast v414
  ![1, v416.toNat, v417.toNat]

def k1_chk51 (k1_t4 : Fin k1_t4_loop.trips) (v399 : BitVec 32) : Prop :=
  (∀ a, (k1_off206 k1_t4 v399) a + S1x1x16.size a ≤ S2x128x128.size a) ∧
  (∀ a, (k1_off208 k1_t4 v399) a + S1x1x16.size a ≤ S2x128x128.size a)
instance k1_chk51.dec : ∀ (k1_t4 : Fin k1_t4_loop.trips) (v399 : BitVec 32), Decidable (k1_chk51 k1_t4 v399) := fun k1_t4 v399 => decidable_of_iff' _ (Iff.of_eq (k1_chk51.eq_1 k1_t4 v399))
theorem k1_off206_inb : ∀ (k1_t4 : Fin k1_t4_loop.trips) (v399 : BitVec 32) (k1_hw51 : k1_chk51 k1_t4 v399), ∀ a, (k1_off206 k1_t4 v399) a + S1x1x16.size a ≤ S2x128x128.size a := fun k1_t4 v399 k1_hw51 => k1_hw51.1
theorem k1_off208_inb : ∀ (k1_t4 : Fin k1_t4_loop.trips) (v399 : BitVec 32) (k1_hw51 : k1_chk51 k1_t4 v399), ∀ a, (k1_off208 k1_t4 v399) a + S1x1x16.size a ≤ S2x128x128.size a := fun k1_t4 v399 k1_hw51 => k1_hw51.2

def k1_off209 (k1_t4 : Fin k1_t4_loop.trips) : Fin 2 → Nat :=
  let c384_i32_256 : BitVec 32 := 384#32
  let c0_i32_221 : BitVec 32 := 0#32
  let c1_i32_223 : BitVec 32 := 1#32
  let arg10 : BitVec 32 := Scf.iv c0_i32_221 c1_i32_223 k1_t4
  let c16_i32_249 : BitVec 32 := 16#32
  let v402 : BitVec 32 := Scalar.muli arg10 c16_i32_249
  let c2_i32_250 : BitVec 32 := 2#32
  let v403 : BitVec 32 := Scalar.addi v402 c2_i32_250
  let v420 : BitVec 32 := Scalar.addi c384_i32_256 v403
  let v421 : Index := Scalar.indexCast v420
  let c16_257 : Index := 16#32
  ![v421.toNat, 16]
def k1_off210 (k1_t4 : Fin k1_t4_loop.trips) (v426 : BitVec 32) : Fin 3 → Nat :=
  let c1_i32_262 : BitVec 32 := 1#32
  let v431 : Index := Scalar.indexCast c1_i32_262
  let c0_i32_221 : BitVec 32 := 0#32
  let c1_i32_223 : BitVec 32 := 1#32
  let arg10 : BitVec 32 := Scf.iv c0_i32_221 c1_i32_223 k1_t4
  let c16_i32_260 : BitVec 32 := 16#32
  let v429 : BitVec 32 := Scalar.muli arg10 c16_i32_260
  let c3_i32_261 : BitVec 32 := 3#32
  let v430 : BitVec 32 := Scalar.addi v429 c3_i32_261
  let v432 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let v433 : Index := Scalar.indexCast v428
  ![1, v432.toNat, v433.toNat]

def k1_off211 (k1_t4 : Fin k1_t4_loop.trips) : Fin 2 → Nat :=
  let c384_i32_263 : BitVec 32 := 384#32
  let c0_i32_221 : BitVec 32 := 0#32
  let c1_i32_223 : BitVec 32 := 1#32
  let arg10 : BitVec 32 := Scf.iv c0_i32_221 c1_i32_223 k1_t4
  let c16_i32_260 : BitVec 32 := 16#32
  let v429 : BitVec 32 := Scalar.muli arg10 c16_i32_260
  let c3_i32_261 : BitVec 32 := 3#32
  let v430 : BitVec 32 := Scalar.addi v429 c3_i32_261
  let v436 : BitVec 32 := Scalar.addi c384_i32_263 v430
  let v437 : Index := Scalar.indexCast v436
  let c0_264 : Index := 0#32
  ![v437.toNat, 0]
def k1_off212 (k1_t4 : Fin k1_t4_loop.trips) (v426 : BitVec 32) : Fin 3 → Nat :=
  let c1_i32_266 : BitVec 32 := 1#32
  let v442 : Index := Scalar.indexCast c1_i32_266
  let c0_i32_221 : BitVec 32 := 0#32
  let c1_i32_223 : BitVec 32 := 1#32
  let arg10 : BitVec 32 := Scf.iv c0_i32_221 c1_i32_223 k1_t4
  let c16_i32_260 : BitVec 32 := 16#32
  let v429 : BitVec 32 := Scalar.muli arg10 c16_i32_260
  let c3_i32_261 : BitVec 32 := 3#32
  let v430 : BitVec 32 := Scalar.addi v429 c3_i32_261
  let v443 : Index := Scalar.indexCast v430
  let c3_i32_258 : BitVec 32 := 3#32
  let v427 : BitVec 32 := Scalar.andi v426 c3_i32_258
  let c32_i32_259 : BitVec 32 := 32#32
  let v428 : BitVec 32 := Scalar.muli v427 c32_i32_259
  let c16_i32_265 : BitVec 32 := 16#32
  let v441 : BitVec 32 := Scalar.addi v428 c16_i32_265
  let v444 : Index := Scalar.indexCast v441
  ![1, v443.toNat, v444.toNat]

def k1_chk52 (k1_t4 : Fin k1_t4_loop.trips) (v426 : BitVec 32) : Prop :=
  (∀ a, (k1_off210 k1_t4 v426) a + S1x1x16.size a ≤ S2x128x128.size a) ∧
  (∀ a, (k1_off212 k1_t4 v426) a + S1x1x16.size a ≤ S2x128x128.size a)
instance k1_chk52.dec : ∀ (k1_t4 : Fin k1_t4_loop.trips) (v426 : BitVec 32), Decidable (k1_chk52 k1_t4 v426) := fun k1_t4 v426 => decidable_of_iff' _ (Iff.of_eq (k1_chk52.eq_1 k1_t4 v426))
theorem k1_off210_inb : ∀ (k1_t4 : Fin k1_t4_loop.trips) (v426 : BitVec 32) (k1_hw52 : k1_chk52 k1_t4 v426), ∀ a, (k1_off210 k1_t4 v426) a + S1x1x16.size a ≤ S2x128x128.size a := fun k1_t4 v426 k1_hw52 => k1_hw52.1
theorem k1_off212_inb : ∀ (k1_t4 : Fin k1_t4_loop.trips) (v426 : BitVec 32) (k1_hw52 : k1_chk52 k1_t4 v426), ∀ a, (k1_off212 k1_t4 v426) a + S1x1x16.size a ≤ S2x128x128.size a := fun k1_t4 v426 k1_hw52 => k1_hw52.2

def k1_off213 (k1_t4 : Fin k1_t4_loop.trips) : Fin 2 → Nat :=
  let c384_i32_267 : BitVec 32 := 384#32
  let c0_i32_221 : BitVec 32 := 0#32
  let c1_i32_223 : BitVec 32 := 1#32
  let arg10 : BitVec 32 := Scf.iv c0_i32_221 c1_i32_223 k1_t4
  let c16_i32_260 : BitVec 32 := 16#32
  let v429 : BitVec 32 := Scalar.muli arg10 c16_i32_260
  let c3_i32_261 : BitVec 32 := 3#32
  let v430 : BitVec 32 := Scalar.addi v429 c3_i32_261
  let v447 : BitVec 32 := Scalar.addi c384_i32_267 v430
  let v448 : Index := Scalar.indexCast v447
  let c16_268 : Index := 16#32
  ![v448.toNat, 16]
def k1_off214 (k1_t4 : Fin k1_t4_loop.trips) (v453 : BitVec 32) : Fin 3 → Nat :=
  let c1_i32_272 : BitVec 32 := 1#32
  let v458 : Index := Scalar.indexCast c1_i32_272
  let c0_i32_221 : BitVec 32 := 0#32
  let c1_i32_223 : BitVec 32 := 1#32
  let arg10 : BitVec 32 := Scf.iv c0_i32_221 c1_i32_223 k1_t4
  let c16_i32_271 : BitVec 32 := 16#32
  let v456 : BitVec 32 := Scalar.muli arg10 c16_i32_271
  let c4_i32 : BitVec 32 := 4#32
  let v457 : BitVec 32 := Scalar.addi v456 c4_i32
  let v459 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let v460 : Index := Scalar.indexCast v455
  ![1, v459.toNat, v460.toNat]

def k1_off215 (k1_t4 : Fin k1_t4_loop.trips) : Fin 2 → Nat :=
  let c384_i32_273 : BitVec 32 := 384#32
  let c0_i32_221 : BitVec 32 := 0#32
  let c1_i32_223 : BitVec 32 := 1#32
  let arg10 : BitVec 32 := Scf.iv c0_i32_221 c1_i32_223 k1_t4
  let c16_i32_271 : BitVec 32 := 16#32
  let v456 : BitVec 32 := Scalar.muli arg10 c16_i32_271
  let c4_i32 : BitVec 32 := 4#32
  let v457 : BitVec 32 := Scalar.addi v456 c4_i32
  let v463 : BitVec 32 := Scalar.addi c384_i32_273 v457
  let v464 : Index := Scalar.indexCast v463
  let c0_274 : Index := 0#32
  ![v464.toNat, 0]
def k1_off216 (k1_t4 : Fin k1_t4_loop.trips) (v453 : BitVec 32) : Fin 3 → Nat :=
  let c1_i32_276 : BitVec 32 := 1#32
  let v469 : Index := Scalar.indexCast c1_i32_276
  let c0_i32_221 : BitVec 32 := 0#32
  let c1_i32_223 : BitVec 32 := 1#32
  let arg10 : BitVec 32 := Scf.iv c0_i32_221 c1_i32_223 k1_t4
  let c16_i32_271 : BitVec 32 := 16#32
  let v456 : BitVec 32 := Scalar.muli arg10 c16_i32_271
  let c4_i32 : BitVec 32 := 4#32
  let v457 : BitVec 32 := Scalar.addi v456 c4_i32
  let v470 : Index := Scalar.indexCast v457
  let c3_i32_269 : BitVec 32 := 3#32
  let v454 : BitVec 32 := Scalar.andi v453 c3_i32_269
  let c32_i32_270 : BitVec 32 := 32#32
  let v455 : BitVec 32 := Scalar.muli v454 c32_i32_270
  let c16_i32_275 : BitVec 32 := 16#32
  let v468 : BitVec 32 := Scalar.addi v455 c16_i32_275
  let v471 : Index := Scalar.indexCast v468
  ![1, v470.toNat, v471.toNat]

def k1_chk53 (k1_t4 : Fin k1_t4_loop.trips) (v453 : BitVec 32) : Prop :=
  (∀ a, (k1_off214 k1_t4 v453) a + S1x1x16.size a ≤ S2x128x128.size a) ∧
  (∀ a, (k1_off216 k1_t4 v453) a + S1x1x16.size a ≤ S2x128x128.size a)
instance k1_chk53.dec : ∀ (k1_t4 : Fin k1_t4_loop.trips) (v453 : BitVec 32), Decidable (k1_chk53 k1_t4 v453) := fun k1_t4 v453 => decidable_of_iff' _ (Iff.of_eq (k1_chk53.eq_1 k1_t4 v453))
theorem k1_off214_inb : ∀ (k1_t4 : Fin k1_t4_loop.trips) (v453 : BitVec 32) (k1_hw53 : k1_chk53 k1_t4 v453), ∀ a, (k1_off214 k1_t4 v453) a + S1x1x16.size a ≤ S2x128x128.size a := fun k1_t4 v453 k1_hw53 => k1_hw53.1
theorem k1_off216_inb : ∀ (k1_t4 : Fin k1_t4_loop.trips) (v453 : BitVec 32) (k1_hw53 : k1_chk53 k1_t4 v453), ∀ a, (k1_off216 k1_t4 v453) a + S1x1x16.size a ≤ S2x128x128.size a := fun k1_t4 v453 k1_hw53 => k1_hw53.2

def k1_off217 (k1_t4 : Fin k1_t4_loop.trips) : Fin 2 → Nat :=
  let c384_i32_277 : BitVec 32 := 384#32
  let c0_i32_221 : BitVec 32 := 0#32
  let c1_i32_223 : BitVec 32 := 1#32
  let arg10 : BitVec 32 := Scf.iv c0_i32_221 c1_i32_223 k1_t4
  let c16_i32_271 : BitVec 32 := 16#32
  let v456 : BitVec 32 := Scalar.muli arg10 c16_i32_271
  let c4_i32 : BitVec 32 := 4#32
  let v457 : BitVec 32 := Scalar.addi v456 c4_i32
  let v474 : BitVec 32 := Scalar.addi c384_i32_277 v457
  let v475 : Index := Scalar.indexCast v474
  let c16_278 : Index := 16#32
  ![v475.toNat, 16]
def k1_off218 (k1_t4 : Fin k1_t4_loop.trips) (v480 : BitVec 32) : Fin 3 → Nat :=
  let c1_i32_282 : BitVec 32 := 1#32
  let v485 : Index := Scalar.indexCast c1_i32_282
  let c0_i32_221 : BitVec 32 := 0#32
  let c1_i32_223 : BitVec 32 := 1#32
  let arg10 : BitVec 32 := Scf.iv c0_i32_221 c1_i32_223 k1_t4
  let c16_i32_281 : BitVec 32 := 16#32
  let v483 : BitVec 32 := Scalar.muli arg10 c16_i32_281
  let c5_i32 : BitVec 32 := 5#32
  let v484 : BitVec 32 := Scalar.addi v483 c5_i32
  let v486 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let v487 : Index := Scalar.indexCast v482
  ![1, v486.toNat, v487.toNat]

def k1_off219 (k1_t4 : Fin k1_t4_loop.trips) : Fin 2 → Nat :=
  let c384_i32_283 : BitVec 32 := 384#32
  let c0_i32_221 : BitVec 32 := 0#32
  let c1_i32_223 : BitVec 32 := 1#32
  let arg10 : BitVec 32 := Scf.iv c0_i32_221 c1_i32_223 k1_t4
  let c16_i32_281 : BitVec 32 := 16#32
  let v483 : BitVec 32 := Scalar.muli arg10 c16_i32_281
  let c5_i32 : BitVec 32 := 5#32
  let v484 : BitVec 32 := Scalar.addi v483 c5_i32
  let v490 : BitVec 32 := Scalar.addi c384_i32_283 v484
  let v491 : Index := Scalar.indexCast v490
  let c0_284 : Index := 0#32
  ![v491.toNat, 0]
def k1_off220 (k1_t4 : Fin k1_t4_loop.trips) (v480 : BitVec 32) : Fin 3 → Nat :=
  let c1_i32_286 : BitVec 32 := 1#32
  let v496 : Index := Scalar.indexCast c1_i32_286
  let c0_i32_221 : BitVec 32 := 0#32
  let c1_i32_223 : BitVec 32 := 1#32
  let arg10 : BitVec 32 := Scf.iv c0_i32_221 c1_i32_223 k1_t4
  let c16_i32_281 : BitVec 32 := 16#32
  let v483 : BitVec 32 := Scalar.muli arg10 c16_i32_281
  let c5_i32 : BitVec 32 := 5#32
  let v484 : BitVec 32 := Scalar.addi v483 c5_i32
  let v497 : Index := Scalar.indexCast v484
  let c3_i32_279 : BitVec 32 := 3#32
  let v481 : BitVec 32 := Scalar.andi v480 c3_i32_279
  let c32_i32_280 : BitVec 32 := 32#32
  let v482 : BitVec 32 := Scalar.muli v481 c32_i32_280
  let c16_i32_285 : BitVec 32 := 16#32
  let v495 : BitVec 32 := Scalar.addi v482 c16_i32_285
  let v498 : Index := Scalar.indexCast v495
  ![1, v497.toNat, v498.toNat]

def k1_chk54 (k1_t4 : Fin k1_t4_loop.trips) (v480 : BitVec 32) : Prop :=
  (∀ a, (k1_off218 k1_t4 v480) a + S1x1x16.size a ≤ S2x128x128.size a) ∧
  (∀ a, (k1_off220 k1_t4 v480) a + S1x1x16.size a ≤ S2x128x128.size a)
instance k1_chk54.dec : ∀ (k1_t4 : Fin k1_t4_loop.trips) (v480 : BitVec 32), Decidable (k1_chk54 k1_t4 v480) := fun k1_t4 v480 => decidable_of_iff' _ (Iff.of_eq (k1_chk54.eq_1 k1_t4 v480))
theorem k1_off218_inb : ∀ (k1_t4 : Fin k1_t4_loop.trips) (v480 : BitVec 32) (k1_hw54 : k1_chk54 k1_t4 v480), ∀ a, (k1_off218 k1_t4 v480) a + S1x1x16.size a ≤ S2x128x128.size a := fun k1_t4 v480 k1_hw54 => k1_hw54.1
theorem k1_off220_inb : ∀ (k1_t4 : Fin k1_t4_loop.trips) (v480 : BitVec 32) (k1_hw54 : k1_chk54 k1_t4 v480), ∀ a, (k1_off220 k1_t4 v480) a + S1x1x16.size a ≤ S2x128x128.size a := fun k1_t4 v480 k1_hw54 => k1_hw54.2

def k1_off221 (k1_t4 : Fin k1_t4_loop.trips) : Fin 2 → Nat :=
  let c384_i32_287 : BitVec 32 := 384#32
  let c0_i32_221 : BitVec 32 := 0#32
  let c1_i32_223 : BitVec 32 := 1#32
  let arg10 : BitVec 32 := Scf.iv c0_i32_221 c1_i32_223 k1_t4
  let c16_i32_281 : BitVec 32 := 16#32
  let v483 : BitVec 32 := Scalar.muli arg10 c16_i32_281
  let c5_i32 : BitVec 32 := 5#32
  let v484 : BitVec 32 := Scalar.addi v483 c5_i32
  let v501 : BitVec 32 := Scalar.addi c384_i32_287 v484
  let v502 : Index := Scalar.indexCast v501
  let c16_288 : Index := 16#32
  ![v502.toNat, 16]
def k1_off222 (k1_t4 : Fin k1_t4_loop.trips) (v507 : BitVec 32) : Fin 3 → Nat :=
  let c1_i32_292 : BitVec 32 := 1#32
  let v512 : Index := Scalar.indexCast c1_i32_292
  let c0_i32_221 : BitVec 32 := 0#32
  let c1_i32_223 : BitVec 32 := 1#32
  let arg10 : BitVec 32 := Scf.iv c0_i32_221 c1_i32_223 k1_t4
  let c16_i32_291 : BitVec 32 := 16#32
  let v510 : BitVec 32 := Scalar.muli arg10 c16_i32_291
  let c6_i32 : BitVec 32 := 6#32
  let v511 : BitVec 32 := Scalar.addi v510 c6_i32
  let v513 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let v514 : Index := Scalar.indexCast v509
  ![1, v513.toNat, v514.toNat]

def k1_off223 (k1_t4 : Fin k1_t4_loop.trips) : Fin 2 → Nat :=
  let c384_i32_293 : BitVec 32 := 384#32
  let c0_i32_221 : BitVec 32 := 0#32
  let c1_i32_223 : BitVec 32 := 1#32
  let arg10 : BitVec 32 := Scf.iv c0_i32_221 c1_i32_223 k1_t4
  let c16_i32_291 : BitVec 32 := 16#32
  let v510 : BitVec 32 := Scalar.muli arg10 c16_i32_291
  let c6_i32 : BitVec 32 := 6#32
  let v511 : BitVec 32 := Scalar.addi v510 c6_i32
  let v517 : BitVec 32 := Scalar.addi c384_i32_293 v511
  let v518 : Index := Scalar.indexCast v517
  let c0_294 : Index := 0#32
  ![v518.toNat, 0]
def k1_off224 (k1_t4 : Fin k1_t4_loop.trips) (v507 : BitVec 32) : Fin 3 → Nat :=
  let c1_i32_296 : BitVec 32 := 1#32
  let v523 : Index := Scalar.indexCast c1_i32_296
  let c0_i32_221 : BitVec 32 := 0#32
  let c1_i32_223 : BitVec 32 := 1#32
  let arg10 : BitVec 32 := Scf.iv c0_i32_221 c1_i32_223 k1_t4
  let c16_i32_291 : BitVec 32 := 16#32
  let v510 : BitVec 32 := Scalar.muli arg10 c16_i32_291
  let c6_i32 : BitVec 32 := 6#32
  let v511 : BitVec 32 := Scalar.addi v510 c6_i32
  let v524 : Index := Scalar.indexCast v511
  let c3_i32_289 : BitVec 32 := 3#32
  let v508 : BitVec 32 := Scalar.andi v507 c3_i32_289
  let c32_i32_290 : BitVec 32 := 32#32
  let v509 : BitVec 32 := Scalar.muli v508 c32_i32_290
  let c16_i32_295 : BitVec 32 := 16#32
  let v522 : BitVec 32 := Scalar.addi v509 c16_i32_295
  let v525 : Index := Scalar.indexCast v522
  ![1, v524.toNat, v525.toNat]

def k1_chk55 (k1_t4 : Fin k1_t4_loop.trips) (v507 : BitVec 32) : Prop :=
  (∀ a, (k1_off222 k1_t4 v507) a + S1x1x16.size a ≤ S2x128x128.size a) ∧
  (∀ a, (k1_off224 k1_t4 v507) a + S1x1x16.size a ≤ S2x128x128.size a)
instance k1_chk55.dec : ∀ (k1_t4 : Fin k1_t4_loop.trips) (v507 : BitVec 32), Decidable (k1_chk55 k1_t4 v507) := fun k1_t4 v507 => decidable_of_iff' _ (Iff.of_eq (k1_chk55.eq_1 k1_t4 v507))
theorem k1_off222_inb : ∀ (k1_t4 : Fin k1_t4_loop.trips) (v507 : BitVec 32) (k1_hw55 : k1_chk55 k1_t4 v507), ∀ a, (k1_off222 k1_t4 v507) a + S1x1x16.size a ≤ S2x128x128.size a := fun k1_t4 v507 k1_hw55 => k1_hw55.1
theorem k1_off224_inb : ∀ (k1_t4 : Fin k1_t4_loop.trips) (v507 : BitVec 32) (k1_hw55 : k1_chk55 k1_t4 v507), ∀ a, (k1_off224 k1_t4 v507) a + S1x1x16.size a ≤ S2x128x128.size a := fun k1_t4 v507 k1_hw55 => k1_hw55.2

def k1_off225 (k1_t4 : Fin k1_t4_loop.trips) : Fin 2 → Nat :=
  let c384_i32_297 : BitVec 32 := 384#32
  let c0_i32_221 : BitVec 32 := 0#32
  let c1_i32_223 : BitVec 32 := 1#32
  let arg10 : BitVec 32 := Scf.iv c0_i32_221 c1_i32_223 k1_t4
  let c16_i32_291 : BitVec 32 := 16#32
  let v510 : BitVec 32 := Scalar.muli arg10 c16_i32_291
  let c6_i32 : BitVec 32 := 6#32
  let v511 : BitVec 32 := Scalar.addi v510 c6_i32
  let v528 : BitVec 32 := Scalar.addi c384_i32_297 v511
  let v529 : Index := Scalar.indexCast v528
  let c16_298 : Index := 16#32
  ![v529.toNat, 16]
def k1_off226 (k1_t4 : Fin k1_t4_loop.trips) (v534 : BitVec 32) : Fin 3 → Nat :=
  let c1_i32_302 : BitVec 32 := 1#32
  let v539 : Index := Scalar.indexCast c1_i32_302
  let c0_i32_221 : BitVec 32 := 0#32
  let c1_i32_223 : BitVec 32 := 1#32
  let arg10 : BitVec 32 := Scf.iv c0_i32_221 c1_i32_223 k1_t4
  let c16_i32_301 : BitVec 32 := 16#32
  let v537 : BitVec 32 := Scalar.muli arg10 c16_i32_301
  let c7_i32 : BitVec 32 := 7#32
  let v538 : BitVec 32 := Scalar.addi v537 c7_i32
  let v540 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let v541 : Index := Scalar.indexCast v536
  ![1, v540.toNat, v541.toNat]

def k1_off227 (k1_t4 : Fin k1_t4_loop.trips) : Fin 2 → Nat :=
  let c384_i32_303 : BitVec 32 := 384#32
  let c0_i32_221 : BitVec 32 := 0#32
  let c1_i32_223 : BitVec 32 := 1#32
  let arg10 : BitVec 32 := Scf.iv c0_i32_221 c1_i32_223 k1_t4
  let c16_i32_301 : BitVec 32 := 16#32
  let v537 : BitVec 32 := Scalar.muli arg10 c16_i32_301
  let c7_i32 : BitVec 32 := 7#32
  let v538 : BitVec 32 := Scalar.addi v537 c7_i32
  let v544 : BitVec 32 := Scalar.addi c384_i32_303 v538
  let v545 : Index := Scalar.indexCast v544
  let c0_304 : Index := 0#32
  ![v545.toNat, 0]
def k1_off228 (k1_t4 : Fin k1_t4_loop.trips) (v534 : BitVec 32) : Fin 3 → Nat :=
  let c1_i32_306 : BitVec 32 := 1#32
  let v550 : Index := Scalar.indexCast c1_i32_306
  let c0_i32_221 : BitVec 32 := 0#32
  let c1_i32_223 : BitVec 32 := 1#32
  let arg10 : BitVec 32 := Scf.iv c0_i32_221 c1_i32_223 k1_t4
  let c16_i32_301 : BitVec 32 := 16#32
  let v537 : BitVec 32 := Scalar.muli arg10 c16_i32_301
  let c7_i32 : BitVec 32 := 7#32
  let v538 : BitVec 32 := Scalar.addi v537 c7_i32
  let v551 : Index := Scalar.indexCast v538
  let c3_i32_299 : BitVec 32 := 3#32
  let v535 : BitVec 32 := Scalar.andi v534 c3_i32_299
  let c32_i32_300 : BitVec 32 := 32#32
  let v536 : BitVec 32 := Scalar.muli v535 c32_i32_300
  let c16_i32_305 : BitVec 32 := 16#32
  let v549 : BitVec 32 := Scalar.addi v536 c16_i32_305
  let v552 : Index := Scalar.indexCast v549
  ![1, v551.toNat, v552.toNat]

def k1_chk56 (k1_t4 : Fin k1_t4_loop.trips) (v534 : BitVec 32) : Prop :=
  (∀ a, (k1_off226 k1_t4 v534) a + S1x1x16.size a ≤ S2x128x128.size a) ∧
  (∀ a, (k1_off228 k1_t4 v534) a + S1x1x16.size a ≤ S2x128x128.size a)
instance k1_chk56.dec : ∀ (k1_t4 : Fin k1_t4_loop.trips) (v534 : BitVec 32), Decidable (k1_chk56 k1_t4 v534) := fun k1_t4 v534 => decidable_of_iff' _ (Iff.of_eq (k1_chk56.eq_1 k1_t4 v534))
theorem k1_off226_inb : ∀ (k1_t4 : Fin k1_t4_loop.trips) (v534 : BitVec 32) (k1_hw56 : k1_chk56 k1_t4 v534), ∀ a, (k1_off226 k1_t4 v534) a + S1x1x16.size a ≤ S2x128x128.size a := fun k1_t4 v534 k1_hw56 => k1_hw56.1
theorem k1_off228_inb : ∀ (k1_t4 : Fin k1_t4_loop.trips) (v534 : BitVec 32) (k1_hw56 : k1_chk56 k1_t4 v534), ∀ a, (k1_off228 k1_t4 v534) a + S1x1x16.size a ≤ S2x128x128.size a := fun k1_t4 v534 k1_hw56 => k1_hw56.2

def k1_off229 (k1_t4 : Fin k1_t4_loop.trips) : Fin 2 → Nat :=
  let c384_i32_307 : BitVec 32 := 384#32
  let c0_i32_221 : BitVec 32 := 0#32
  let c1_i32_223 : BitVec 32 := 1#32
  let arg10 : BitVec 32 := Scf.iv c0_i32_221 c1_i32_223 k1_t4
  let c16_i32_301 : BitVec 32 := 16#32
  let v537 : BitVec 32 := Scalar.muli arg10 c16_i32_301
  let c7_i32 : BitVec 32 := 7#32
  let v538 : BitVec 32 := Scalar.addi v537 c7_i32
  let v555 : BitVec 32 := Scalar.addi c384_i32_307 v538
  let v556 : Index := Scalar.indexCast v555
  let c16_308 : Index := 16#32
  ![v556.toNat, 16]
def k1_off230 (k1_t4 : Fin k1_t4_loop.trips) (v561 : BitVec 32) : Fin 3 → Nat :=
  let c1_i32_313 : BitVec 32 := 1#32
  let v566 : Index := Scalar.indexCast c1_i32_313
  let c0_i32_221 : BitVec 32 := 0#32
  let c1_i32_223 : BitVec 32 := 1#32
  let arg10 : BitVec 32 := Scf.iv c0_i32_221 c1_i32_223 k1_t4
  let c16_i32_311 : BitVec 32 := 16#32
  let v564 : BitVec 32 := Scalar.muli arg10 c16_i32_311
  let c8_i32_312 : BitVec 32 := 8#32
  let v565 : BitVec 32 := Scalar.addi v564 c8_i32_312
  let v567 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let v568 : Index := Scalar.indexCast v563
  ![1, v567.toNat, v568.toNat]

def k1_off231 (k1_t4 : Fin k1_t4_loop.trips) : Fin 2 → Nat :=
  let c384_i32_314 : BitVec 32 := 384#32
  let c0_i32_221 : BitVec 32 := 0#32
  let c1_i32_223 : BitVec 32 := 1#32
  let arg10 : BitVec 32 := Scf.iv c0_i32_221 c1_i32_223 k1_t4
  let c16_i32_311 : BitVec 32 := 16#32
  let v564 : BitVec 32 := Scalar.muli arg10 c16_i32_311
  let c8_i32_312 : BitVec 32 := 8#32
  let v565 : BitVec 32 := Scalar.addi v564 c8_i32_312
  let v571 : BitVec 32 := Scalar.addi c384_i32_314 v565
  let v572 : Index := Scalar.indexCast v571
  let c0_315 : Index := 0#32
  ![v572.toNat, 0]
def k1_off232 (k1_t4 : Fin k1_t4_loop.trips) (v561 : BitVec 32) : Fin 3 → Nat :=
  let c1_i32_317 : BitVec 32 := 1#32
  let v577 : Index := Scalar.indexCast c1_i32_317
  let c0_i32_221 : BitVec 32 := 0#32
  let c1_i32_223 : BitVec 32 := 1#32
  let arg10 : BitVec 32 := Scf.iv c0_i32_221 c1_i32_223 k1_t4
  let c16_i32_311 : BitVec 32 := 16#32
  let v564 : BitVec 32 := Scalar.muli arg10 c16_i32_311
  let c8_i32_312 : BitVec 32 := 8#32
  let v565 : BitVec 32 := Scalar.addi v564 c8_i32_312
  let v578 : Index := Scalar.indexCast v565
  let c3_i32_309 : BitVec 32 := 3#32
  let v562 : BitVec 32 := Scalar.andi v561 c3_i32_309
  let c32_i32_310 : BitVec 32 := 32#32
  let v563 : BitVec 32 := Scalar.muli v562 c32_i32_310
  let c16_i32_316 : BitVec 32 := 16#32
  let v576 : BitVec 32 := Scalar.addi v563 c16_i32_316
  let v579 : Index := Scalar.indexCast v576
  ![1, v578.toNat, v579.toNat]

def k1_chk57 (k1_t4 : Fin k1_t4_loop.trips) (v561 : BitVec 32) : Prop :=
  (∀ a, (k1_off230 k1_t4 v561) a + S1x1x16.size a ≤ S2x128x128.size a) ∧
  (∀ a, (k1_off232 k1_t4 v561) a + S1x1x16.size a ≤ S2x128x128.size a)
instance k1_chk57.dec : ∀ (k1_t4 : Fin k1_t4_loop.trips) (v561 : BitVec 32), Decidable (k1_chk57 k1_t4 v561) := fun k1_t4 v561 => decidable_of_iff' _ (Iff.of_eq (k1_chk57.eq_1 k1_t4 v561))
theorem k1_off230_inb : ∀ (k1_t4 : Fin k1_t4_loop.trips) (v561 : BitVec 32) (k1_hw57 : k1_chk57 k1_t4 v561), ∀ a, (k1_off230 k1_t4 v561) a + S1x1x16.size a ≤ S2x128x128.size a := fun k1_t4 v561 k1_hw57 => k1_hw57.1
theorem k1_off232_inb : ∀ (k1_t4 : Fin k1_t4_loop.trips) (v561 : BitVec 32) (k1_hw57 : k1_chk57 k1_t4 v561), ∀ a, (k1_off232 k1_t4 v561) a + S1x1x16.size a ≤ S2x128x128.size a := fun k1_t4 v561 k1_hw57 => k1_hw57.2

def k1_off233 (k1_t4 : Fin k1_t4_loop.trips) : Fin 2 → Nat :=
  let c384_i32_318 : BitVec 32 := 384#32
  let c0_i32_221 : BitVec 32 := 0#32
  let c1_i32_223 : BitVec 32 := 1#32
  let arg10 : BitVec 32 := Scf.iv c0_i32_221 c1_i32_223 k1_t4
  let c16_i32_311 : BitVec 32 := 16#32
  let v564 : BitVec 32 := Scalar.muli arg10 c16_i32_311
  let c8_i32_312 : BitVec 32 := 8#32
  let v565 : BitVec 32 := Scalar.addi v564 c8_i32_312
  let v582 : BitVec 32 := Scalar.addi c384_i32_318 v565
  let v583 : Index := Scalar.indexCast v582
  let c16_319 : Index := 16#32
  ![v583.toNat, 16]
def k1_off234 (k1_t4 : Fin k1_t4_loop.trips) (v588 : BitVec 32) : Fin 3 → Nat :=
  let c1_i32_323 : BitVec 32 := 1#32
  let v593 : Index := Scalar.indexCast c1_i32_323
  let c0_i32_221 : BitVec 32 := 0#32
  let c1_i32_223 : BitVec 32 := 1#32
  let arg10 : BitVec 32 := Scf.iv c0_i32_221 c1_i32_223 k1_t4
  let c16_i32_322 : BitVec 32 := 16#32
  let v591 : BitVec 32 := Scalar.muli arg10 c16_i32_322
  let c9_i32 : BitVec 32 := 9#32
  let v592 : BitVec 32 := Scalar.addi v591 c9_i32
  let v594 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let v595 : Index := Scalar.indexCast v590
  ![1, v594.toNat, v595.toNat]

def k1_off235 (k1_t4 : Fin k1_t4_loop.trips) : Fin 2 → Nat :=
  let c384_i32_324 : BitVec 32 := 384#32
  let c0_i32_221 : BitVec 32 := 0#32
  let c1_i32_223 : BitVec 32 := 1#32
  let arg10 : BitVec 32 := Scf.iv c0_i32_221 c1_i32_223 k1_t4
  let c16_i32_322 : BitVec 32 := 16#32
  let v591 : BitVec 32 := Scalar.muli arg10 c16_i32_322
  let c9_i32 : BitVec 32 := 9#32
  let v592 : BitVec 32 := Scalar.addi v591 c9_i32
  let v598 : BitVec 32 := Scalar.addi c384_i32_324 v592
  let v599 : Index := Scalar.indexCast v598
  let c0_325 : Index := 0#32
  ![v599.toNat, 0]
def k1_off236 (k1_t4 : Fin k1_t4_loop.trips) (v588 : BitVec 32) : Fin 3 → Nat :=
  let c1_i32_327 : BitVec 32 := 1#32
  let v604 : Index := Scalar.indexCast c1_i32_327
  let c0_i32_221 : BitVec 32 := 0#32
  let c1_i32_223 : BitVec 32 := 1#32
  let arg10 : BitVec 32 := Scf.iv c0_i32_221 c1_i32_223 k1_t4
  let c16_i32_322 : BitVec 32 := 16#32
  let v591 : BitVec 32 := Scalar.muli arg10 c16_i32_322
  let c9_i32 : BitVec 32 := 9#32
  let v592 : BitVec 32 := Scalar.addi v591 c9_i32
  let v605 : Index := Scalar.indexCast v592
  let c3_i32_320 : BitVec 32 := 3#32
  let v589 : BitVec 32 := Scalar.andi v588 c3_i32_320
  let c32_i32_321 : BitVec 32 := 32#32
  let v590 : BitVec 32 := Scalar.muli v589 c32_i32_321
  let c16_i32_326 : BitVec 32 := 16#32
  let v603 : BitVec 32 := Scalar.addi v590 c16_i32_326
  let v606 : Index := Scalar.indexCast v603
  ![1, v605.toNat, v606.toNat]

def k1_chk58 (k1_t4 : Fin k1_t4_loop.trips) (v588 : BitVec 32) : Prop :=
  (∀ a, (k1_off234 k1_t4 v588) a + S1x1x16.size a ≤ S2x128x128.size a) ∧
  (∀ a, (k1_off236 k1_t4 v588) a + S1x1x16.size a ≤ S2x128x128.size a)
instance k1_chk58.dec : ∀ (k1_t4 : Fin k1_t4_loop.trips) (v588 : BitVec 32), Decidable (k1_chk58 k1_t4 v588) := fun k1_t4 v588 => decidable_of_iff' _ (Iff.of_eq (k1_chk58.eq_1 k1_t4 v588))
theorem k1_off234_inb : ∀ (k1_t4 : Fin k1_t4_loop.trips) (v588 : BitVec 32) (k1_hw58 : k1_chk58 k1_t4 v588), ∀ a, (k1_off234 k1_t4 v588) a + S1x1x16.size a ≤ S2x128x128.size a := fun k1_t4 v588 k1_hw58 => k1_hw58.1
theorem k1_off236_inb : ∀ (k1_t4 : Fin k1_t4_loop.trips) (v588 : BitVec 32) (k1_hw58 : k1_chk58 k1_t4 v588), ∀ a, (k1_off236 k1_t4 v588) a + S1x1x16.size a ≤ S2x128x128.size a := fun k1_t4 v588 k1_hw58 => k1_hw58.2

def k1_off237 (k1_t4 : Fin k1_t4_loop.trips) : Fin 2 → Nat :=
  let c384_i32_328 : BitVec 32 := 384#32
  let c0_i32_221 : BitVec 32 := 0#32
  let c1_i32_223 : BitVec 32 := 1#32
  let arg10 : BitVec 32 := Scf.iv c0_i32_221 c1_i32_223 k1_t4
  let c16_i32_322 : BitVec 32 := 16#32
  let v591 : BitVec 32 := Scalar.muli arg10 c16_i32_322
  let c9_i32 : BitVec 32 := 9#32
  let v592 : BitVec 32 := Scalar.addi v591 c9_i32
  let v609 : BitVec 32 := Scalar.addi c384_i32_328 v592
  let v610 : Index := Scalar.indexCast v609
  let c16_329 : Index := 16#32
  ![v610.toNat, 16]
def k1_off238 (k1_t4 : Fin k1_t4_loop.trips) (v615 : BitVec 32) : Fin 3 → Nat :=
  let c1_i32_333 : BitVec 32 := 1#32
  let v620 : Index := Scalar.indexCast c1_i32_333
  let c0_i32_221 : BitVec 32 := 0#32
  let c1_i32_223 : BitVec 32 := 1#32
  let arg10 : BitVec 32 := Scf.iv c0_i32_221 c1_i32_223 k1_t4
  let c16_i32_332 : BitVec 32 := 16#32
  let v618 : BitVec 32 := Scalar.muli arg10 c16_i32_332
  let c10_i32 : BitVec 32 := 10#32
  let v619 : BitVec 32 := Scalar.addi v618 c10_i32
  let v621 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let v622 : Index := Scalar.indexCast v617
  ![1, v621.toNat, v622.toNat]

def k1_off239 (k1_t4 : Fin k1_t4_loop.trips) : Fin 2 → Nat :=
  let c384_i32_334 : BitVec 32 := 384#32
  let c0_i32_221 : BitVec 32 := 0#32
  let c1_i32_223 : BitVec 32 := 1#32
  let arg10 : BitVec 32 := Scf.iv c0_i32_221 c1_i32_223 k1_t4
  let c16_i32_332 : BitVec 32 := 16#32
  let v618 : BitVec 32 := Scalar.muli arg10 c16_i32_332
  let c10_i32 : BitVec 32 := 10#32
  let v619 : BitVec 32 := Scalar.addi v618 c10_i32
  let v625 : BitVec 32 := Scalar.addi c384_i32_334 v619
  let v626 : Index := Scalar.indexCast v625
  let c0_335 : Index := 0#32
  ![v626.toNat, 0]
def k1_off240 (k1_t4 : Fin k1_t4_loop.trips) (v615 : BitVec 32) : Fin 3 → Nat :=
  let c1_i32_337 : BitVec 32 := 1#32
  let v631 : Index := Scalar.indexCast c1_i32_337
  let c0_i32_221 : BitVec 32 := 0#32
  let c1_i32_223 : BitVec 32 := 1#32
  let arg10 : BitVec 32 := Scf.iv c0_i32_221 c1_i32_223 k1_t4
  let c16_i32_332 : BitVec 32 := 16#32
  let v618 : BitVec 32 := Scalar.muli arg10 c16_i32_332
  let c10_i32 : BitVec 32 := 10#32
  let v619 : BitVec 32 := Scalar.addi v618 c10_i32
  let v632 : Index := Scalar.indexCast v619
  let c3_i32_330 : BitVec 32 := 3#32
  let v616 : BitVec 32 := Scalar.andi v615 c3_i32_330
  let c32_i32_331 : BitVec 32 := 32#32
  let v617 : BitVec 32 := Scalar.muli v616 c32_i32_331
  let c16_i32_336 : BitVec 32 := 16#32
  let v630 : BitVec 32 := Scalar.addi v617 c16_i32_336
  let v633 : Index := Scalar.indexCast v630
  ![1, v632.toNat, v633.toNat]

def k1_chk59 (k1_t4 : Fin k1_t4_loop.trips) (v615 : BitVec 32) : Prop :=
  (∀ a, (k1_off238 k1_t4 v615) a + S1x1x16.size a ≤ S2x128x128.size a) ∧
  (∀ a, (k1_off240 k1_t4 v615) a + S1x1x16.size a ≤ S2x128x128.size a)
instance k1_chk59.dec : ∀ (k1_t4 : Fin k1_t4_loop.trips) (v615 : BitVec 32), Decidable (k1_chk59 k1_t4 v615) := fun k1_t4 v615 => decidable_of_iff' _ (Iff.of_eq (k1_chk59.eq_1 k1_t4 v615))
theorem k1_off238_inb : ∀ (k1_t4 : Fin k1_t4_loop.trips) (v615 : BitVec 32) (k1_hw59 : k1_chk59 k1_t4 v615), ∀ a, (k1_off238 k1_t4 v615) a + S1x1x16.size a ≤ S2x128x128.size a := fun k1_t4 v615 k1_hw59 => k1_hw59.1
theorem k1_off240_inb : ∀ (k1_t4 : Fin k1_t4_loop.trips) (v615 : BitVec 32) (k1_hw59 : k1_chk59 k1_t4 v615), ∀ a, (k1_off240 k1_t4 v615) a + S1x1x16.size a ≤ S2x128x128.size a := fun k1_t4 v615 k1_hw59 => k1_hw59.2

def k1_off241 (k1_t4 : Fin k1_t4_loop.trips) : Fin 2 → Nat :=
  let c384_i32_338 : BitVec 32 := 384#32
  let c0_i32_221 : BitVec 32 := 0#32
  let c1_i32_223 : BitVec 32 := 1#32
  let arg10 : BitVec 32 := Scf.iv c0_i32_221 c1_i32_223 k1_t4
  let c16_i32_332 : BitVec 32 := 16#32
  let v618 : BitVec 32 := Scalar.muli arg10 c16_i32_332
  let c10_i32 : BitVec 32 := 10#32
  let v619 : BitVec 32 := Scalar.addi v618 c10_i32
  let v636 : BitVec 32 := Scalar.addi c384_i32_338 v619
  let v637 : Index := Scalar.indexCast v636
  let c16_339 : Index := 16#32
  ![v637.toNat, 16]
def k1_off242 (k1_t4 : Fin k1_t4_loop.trips) (v642 : BitVec 32) : Fin 3 → Nat :=
  let c1_i32_343 : BitVec 32 := 1#32
  let v647 : Index := Scalar.indexCast c1_i32_343
  let c0_i32_221 : BitVec 32 := 0#32
  let c1_i32_223 : BitVec 32 := 1#32
  let arg10 : BitVec 32 := Scf.iv c0_i32_221 c1_i32_223 k1_t4
  let c16_i32_342 : BitVec 32 := 16#32
  let v645 : BitVec 32 := Scalar.muli arg10 c16_i32_342
  let c11_i32 : BitVec 32 := 11#32
  let v646 : BitVec 32 := Scalar.addi v645 c11_i32
  let v648 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let v649 : Index := Scalar.indexCast v644
  ![1, v648.toNat, v649.toNat]

def k1_off243 (k1_t4 : Fin k1_t4_loop.trips) : Fin 2 → Nat :=
  let c384_i32_344 : BitVec 32 := 384#32
  let c0_i32_221 : BitVec 32 := 0#32
  let c1_i32_223 : BitVec 32 := 1#32
  let arg10 : BitVec 32 := Scf.iv c0_i32_221 c1_i32_223 k1_t4
  let c16_i32_342 : BitVec 32 := 16#32
  let v645 : BitVec 32 := Scalar.muli arg10 c16_i32_342
  let c11_i32 : BitVec 32 := 11#32
  let v646 : BitVec 32 := Scalar.addi v645 c11_i32
  let v652 : BitVec 32 := Scalar.addi c384_i32_344 v646
  let v653 : Index := Scalar.indexCast v652
  let c0_345 : Index := 0#32
  ![v653.toNat, 0]
def k1_off244 (k1_t4 : Fin k1_t4_loop.trips) (v642 : BitVec 32) : Fin 3 → Nat :=
  let c1_i32_347 : BitVec 32 := 1#32
  let v658 : Index := Scalar.indexCast c1_i32_347
  let c0_i32_221 : BitVec 32 := 0#32
  let c1_i32_223 : BitVec 32 := 1#32
  let arg10 : BitVec 32 := Scf.iv c0_i32_221 c1_i32_223 k1_t4
  let c16_i32_342 : BitVec 32 := 16#32
  let v645 : BitVec 32 := Scalar.muli arg10 c16_i32_342
  let c11_i32 : BitVec 32 := 11#32
  let v646 : BitVec 32 := Scalar.addi v645 c11_i32
  let v659 : Index := Scalar.indexCast v646
  let c3_i32_340 : BitVec 32 := 3#32
  let v643 : BitVec 32 := Scalar.andi v642 c3_i32_340
  let c32_i32_341 : BitVec 32 := 32#32
  let v644 : BitVec 32 := Scalar.muli v643 c32_i32_341
  let c16_i32_346 : BitVec 32 := 16#32
  let v657 : BitVec 32 := Scalar.addi v644 c16_i32_346
  let v660 : Index := Scalar.indexCast v657
  ![1, v659.toNat, v660.toNat]

def k1_chk60 (k1_t4 : Fin k1_t4_loop.trips) (v642 : BitVec 32) : Prop :=
  (∀ a, (k1_off242 k1_t4 v642) a + S1x1x16.size a ≤ S2x128x128.size a) ∧
  (∀ a, (k1_off244 k1_t4 v642) a + S1x1x16.size a ≤ S2x128x128.size a)
instance k1_chk60.dec : ∀ (k1_t4 : Fin k1_t4_loop.trips) (v642 : BitVec 32), Decidable (k1_chk60 k1_t4 v642) := fun k1_t4 v642 => decidable_of_iff' _ (Iff.of_eq (k1_chk60.eq_1 k1_t4 v642))
theorem k1_off242_inb : ∀ (k1_t4 : Fin k1_t4_loop.trips) (v642 : BitVec 32) (k1_hw60 : k1_chk60 k1_t4 v642), ∀ a, (k1_off242 k1_t4 v642) a + S1x1x16.size a ≤ S2x128x128.size a := fun k1_t4 v642 k1_hw60 => k1_hw60.1
theorem k1_off244_inb : ∀ (k1_t4 : Fin k1_t4_loop.trips) (v642 : BitVec 32) (k1_hw60 : k1_chk60 k1_t4 v642), ∀ a, (k1_off244 k1_t4 v642) a + S1x1x16.size a ≤ S2x128x128.size a := fun k1_t4 v642 k1_hw60 => k1_hw60.2

def k1_off245 (k1_t4 : Fin k1_t4_loop.trips) : Fin 2 → Nat :=
  let c384_i32_348 : BitVec 32 := 384#32
  let c0_i32_221 : BitVec 32 := 0#32
  let c1_i32_223 : BitVec 32 := 1#32
  let arg10 : BitVec 32 := Scf.iv c0_i32_221 c1_i32_223 k1_t4
  let c16_i32_342 : BitVec 32 := 16#32
  let v645 : BitVec 32 := Scalar.muli arg10 c16_i32_342
  let c11_i32 : BitVec 32 := 11#32
  let v646 : BitVec 32 := Scalar.addi v645 c11_i32
  let v663 : BitVec 32 := Scalar.addi c384_i32_348 v646
  let v664 : Index := Scalar.indexCast v663
  let c16_349 : Index := 16#32
  ![v664.toNat, 16]
def k1_off246 (k1_t4 : Fin k1_t4_loop.trips) (v669 : BitVec 32) : Fin 3 → Nat :=
  let c1_i32_353 : BitVec 32 := 1#32
  let v674 : Index := Scalar.indexCast c1_i32_353
  let c0_i32_221 : BitVec 32 := 0#32
  let c1_i32_223 : BitVec 32 := 1#32
  let arg10 : BitVec 32 := Scf.iv c0_i32_221 c1_i32_223 k1_t4
  let c16_i32_352 : BitVec 32 := 16#32
  let v672 : BitVec 32 := Scalar.muli arg10 c16_i32_352
  let c12_i32 : BitVec 32 := 12#32
  let v673 : BitVec 32 := Scalar.addi v672 c12_i32
  let v675 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let v676 : Index := Scalar.indexCast v671
  ![1, v675.toNat, v676.toNat]

def k1_off247 (k1_t4 : Fin k1_t4_loop.trips) : Fin 2 → Nat :=
  let c384_i32_354 : BitVec 32 := 384#32
  let c0_i32_221 : BitVec 32 := 0#32
  let c1_i32_223 : BitVec 32 := 1#32
  let arg10 : BitVec 32 := Scf.iv c0_i32_221 c1_i32_223 k1_t4
  let c16_i32_352 : BitVec 32 := 16#32
  let v672 : BitVec 32 := Scalar.muli arg10 c16_i32_352
  let c12_i32 : BitVec 32 := 12#32
  let v673 : BitVec 32 := Scalar.addi v672 c12_i32
  let v679 : BitVec 32 := Scalar.addi c384_i32_354 v673
  let v680 : Index := Scalar.indexCast v679
  let c0_355 : Index := 0#32
  ![v680.toNat, 0]
def k1_off248 (k1_t4 : Fin k1_t4_loop.trips) (v669 : BitVec 32) : Fin 3 → Nat :=
  let c1_i32_357 : BitVec 32 := 1#32
  let v685 : Index := Scalar.indexCast c1_i32_357
  let c0_i32_221 : BitVec 32 := 0#32
  let c1_i32_223 : BitVec 32 := 1#32
  let arg10 : BitVec 32 := Scf.iv c0_i32_221 c1_i32_223 k1_t4
  let c16_i32_352 : BitVec 32 := 16#32
  let v672 : BitVec 32 := Scalar.muli arg10 c16_i32_352
  let c12_i32 : BitVec 32 := 12#32
  let v673 : BitVec 32 := Scalar.addi v672 c12_i32
  let v686 : Index := Scalar.indexCast v673
  let c3_i32_350 : BitVec 32 := 3#32
  let v670 : BitVec 32 := Scalar.andi v669 c3_i32_350
  let c32_i32_351 : BitVec 32 := 32#32
  let v671 : BitVec 32 := Scalar.muli v670 c32_i32_351
  let c16_i32_356 : BitVec 32 := 16#32
  let v684 : BitVec 32 := Scalar.addi v671 c16_i32_356
  let v687 : Index := Scalar.indexCast v684
  ![1, v686.toNat, v687.toNat]

def k1_chk61 (k1_t4 : Fin k1_t4_loop.trips) (v669 : BitVec 32) : Prop :=
  (∀ a, (k1_off246 k1_t4 v669) a + S1x1x16.size a ≤ S2x128x128.size a) ∧
  (∀ a, (k1_off248 k1_t4 v669) a + S1x1x16.size a ≤ S2x128x128.size a)
instance k1_chk61.dec : ∀ (k1_t4 : Fin k1_t4_loop.trips) (v669 : BitVec 32), Decidable (k1_chk61 k1_t4 v669) := fun k1_t4 v669 => decidable_of_iff' _ (Iff.of_eq (k1_chk61.eq_1 k1_t4 v669))
theorem k1_off246_inb : ∀ (k1_t4 : Fin k1_t4_loop.trips) (v669 : BitVec 32) (k1_hw61 : k1_chk61 k1_t4 v669), ∀ a, (k1_off246 k1_t4 v669) a + S1x1x16.size a ≤ S2x128x128.size a := fun k1_t4 v669 k1_hw61 => k1_hw61.1
theorem k1_off248_inb : ∀ (k1_t4 : Fin k1_t4_loop.trips) (v669 : BitVec 32) (k1_hw61 : k1_chk61 k1_t4 v669), ∀ a, (k1_off248 k1_t4 v669) a + S1x1x16.size a ≤ S2x128x128.size a := fun k1_t4 v669 k1_hw61 => k1_hw61.2

def k1_off249 (k1_t4 : Fin k1_t4_loop.trips) : Fin 2 → Nat :=
  let c384_i32_358 : BitVec 32 := 384#32
  let c0_i32_221 : BitVec 32 := 0#32
  let c1_i32_223 : BitVec 32 := 1#32
  let arg10 : BitVec 32 := Scf.iv c0_i32_221 c1_i32_223 k1_t4
  let c16_i32_352 : BitVec 32 := 16#32
  let v672 : BitVec 32 := Scalar.muli arg10 c16_i32_352
  let c12_i32 : BitVec 32 := 12#32
  let v673 : BitVec 32 := Scalar.addi v672 c12_i32
  let v690 : BitVec 32 := Scalar.addi c384_i32_358 v673
  let v691 : Index := Scalar.indexCast v690
  let c16_359 : Index := 16#32
  ![v691.toNat, 16]
def k1_off250 (k1_t4 : Fin k1_t4_loop.trips) (v696 : BitVec 32) : Fin 3 → Nat :=
  let c1_i32_363 : BitVec 32 := 1#32
  let v701 : Index := Scalar.indexCast c1_i32_363
  let c0_i32_221 : BitVec 32 := 0#32
  let c1_i32_223 : BitVec 32 := 1#32
  let arg10 : BitVec 32 := Scf.iv c0_i32_221 c1_i32_223 k1_t4
  let c16_i32_362 : BitVec 32 := 16#32
  let v699 : BitVec 32 := Scalar.muli arg10 c16_i32_362
  let c13_i32 : BitVec 32 := 13#32
  let v700 : BitVec 32 := Scalar.addi v699 c13_i32
  let v702 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let v703 : Index := Scalar.indexCast v698
  ![1, v702.toNat, v703.toNat]

def k1_off251 (k1_t4 : Fin k1_t4_loop.trips) : Fin 2 → Nat :=
  let c384_i32_364 : BitVec 32 := 384#32
  let c0_i32_221 : BitVec 32 := 0#32
  let c1_i32_223 : BitVec 32 := 1#32
  let arg10 : BitVec 32 := Scf.iv c0_i32_221 c1_i32_223 k1_t4
  let c16_i32_362 : BitVec 32 := 16#32
  let v699 : BitVec 32 := Scalar.muli arg10 c16_i32_362
  let c13_i32 : BitVec 32 := 13#32
  let v700 : BitVec 32 := Scalar.addi v699 c13_i32
  let v706 : BitVec 32 := Scalar.addi c384_i32_364 v700
  let v707 : Index := Scalar.indexCast v706
  let c0_365 : Index := 0#32
  ![v707.toNat, 0]
def k1_off252 (k1_t4 : Fin k1_t4_loop.trips) (v696 : BitVec 32) : Fin 3 → Nat :=
  let c1_i32_367 : BitVec 32 := 1#32
  let v712 : Index := Scalar.indexCast c1_i32_367
  let c0_i32_221 : BitVec 32 := 0#32
  let c1_i32_223 : BitVec 32 := 1#32
  let arg10 : BitVec 32 := Scf.iv c0_i32_221 c1_i32_223 k1_t4
  let c16_i32_362 : BitVec 32 := 16#32
  let v699 : BitVec 32 := Scalar.muli arg10 c16_i32_362
  let c13_i32 : BitVec 32 := 13#32
  let v700 : BitVec 32 := Scalar.addi v699 c13_i32
  let v713 : Index := Scalar.indexCast v700
  let c3_i32_360 : BitVec 32 := 3#32
  let v697 : BitVec 32 := Scalar.andi v696 c3_i32_360
  let c32_i32_361 : BitVec 32 := 32#32
  let v698 : BitVec 32 := Scalar.muli v697 c32_i32_361
  let c16_i32_366 : BitVec 32 := 16#32
  let v711 : BitVec 32 := Scalar.addi v698 c16_i32_366
  let v714 : Index := Scalar.indexCast v711
  ![1, v713.toNat, v714.toNat]

def k1_chk62 (k1_t4 : Fin k1_t4_loop.trips) (v696 : BitVec 32) : Prop :=
  (∀ a, (k1_off250 k1_t4 v696) a + S1x1x16.size a ≤ S2x128x128.size a) ∧
  (∀ a, (k1_off252 k1_t4 v696) a + S1x1x16.size a ≤ S2x128x128.size a)
instance k1_chk62.dec : ∀ (k1_t4 : Fin k1_t4_loop.trips) (v696 : BitVec 32), Decidable (k1_chk62 k1_t4 v696) := fun k1_t4 v696 => decidable_of_iff' _ (Iff.of_eq (k1_chk62.eq_1 k1_t4 v696))
theorem k1_off250_inb : ∀ (k1_t4 : Fin k1_t4_loop.trips) (v696 : BitVec 32) (k1_hw62 : k1_chk62 k1_t4 v696), ∀ a, (k1_off250 k1_t4 v696) a + S1x1x16.size a ≤ S2x128x128.size a := fun k1_t4 v696 k1_hw62 => k1_hw62.1
theorem k1_off252_inb : ∀ (k1_t4 : Fin k1_t4_loop.trips) (v696 : BitVec 32) (k1_hw62 : k1_chk62 k1_t4 v696), ∀ a, (k1_off252 k1_t4 v696) a + S1x1x16.size a ≤ S2x128x128.size a := fun k1_t4 v696 k1_hw62 => k1_hw62.2

def k1_off253 (k1_t4 : Fin k1_t4_loop.trips) : Fin 2 → Nat :=
  let c384_i32_368 : BitVec 32 := 384#32
  let c0_i32_221 : BitVec 32 := 0#32
  let c1_i32_223 : BitVec 32 := 1#32
  let arg10 : BitVec 32 := Scf.iv c0_i32_221 c1_i32_223 k1_t4
  let c16_i32_362 : BitVec 32 := 16#32
  let v699 : BitVec 32 := Scalar.muli arg10 c16_i32_362
  let c13_i32 : BitVec 32 := 13#32
  let v700 : BitVec 32 := Scalar.addi v699 c13_i32
  let v717 : BitVec 32 := Scalar.addi c384_i32_368 v700
  let v718 : Index := Scalar.indexCast v717
  let c16_369 : Index := 16#32
  ![v718.toNat, 16]
def k1_off254 (k1_t4 : Fin k1_t4_loop.trips) (v723 : BitVec 32) : Fin 3 → Nat :=
  let c1_i32_373 : BitVec 32 := 1#32
  let v728 : Index := Scalar.indexCast c1_i32_373
  let c0_i32_221 : BitVec 32 := 0#32
  let c1_i32_223 : BitVec 32 := 1#32
  let arg10 : BitVec 32 := Scf.iv c0_i32_221 c1_i32_223 k1_t4
  let c16_i32_372 : BitVec 32 := 16#32
  let v726 : BitVec 32 := Scalar.muli arg10 c16_i32_372
  let c14_i32 : BitVec 32 := 14#32
  let v727 : BitVec 32 := Scalar.addi v726 c14_i32
  let v729 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let v730 : Index := Scalar.indexCast v725
  ![1, v729.toNat, v730.toNat]

def k1_off255 (k1_t4 : Fin k1_t4_loop.trips) : Fin 2 → Nat :=
  let c384_i32_374 : BitVec 32 := 384#32
  let c0_i32_221 : BitVec 32 := 0#32
  let c1_i32_223 : BitVec 32 := 1#32
  let arg10 : BitVec 32 := Scf.iv c0_i32_221 c1_i32_223 k1_t4
  let c16_i32_372 : BitVec 32 := 16#32
  let v726 : BitVec 32 := Scalar.muli arg10 c16_i32_372
  let c14_i32 : BitVec 32 := 14#32
  let v727 : BitVec 32 := Scalar.addi v726 c14_i32
  let v733 : BitVec 32 := Scalar.addi c384_i32_374 v727
  let v734 : Index := Scalar.indexCast v733
  let c0_375 : Index := 0#32
  ![v734.toNat, 0]
def k1_off256 (k1_t4 : Fin k1_t4_loop.trips) (v723 : BitVec 32) : Fin 3 → Nat :=
  let c1_i32_377 : BitVec 32 := 1#32
  let v739 : Index := Scalar.indexCast c1_i32_377
  let c0_i32_221 : BitVec 32 := 0#32
  let c1_i32_223 : BitVec 32 := 1#32
  let arg10 : BitVec 32 := Scf.iv c0_i32_221 c1_i32_223 k1_t4
  let c16_i32_372 : BitVec 32 := 16#32
  let v726 : BitVec 32 := Scalar.muli arg10 c16_i32_372
  let c14_i32 : BitVec 32 := 14#32
  let v727 : BitVec 32 := Scalar.addi v726 c14_i32
  let v740 : Index := Scalar.indexCast v727
  let c3_i32_370 : BitVec 32 := 3#32
  let v724 : BitVec 32 := Scalar.andi v723 c3_i32_370
  let c32_i32_371 : BitVec 32 := 32#32
  let v725 : BitVec 32 := Scalar.muli v724 c32_i32_371
  let c16_i32_376 : BitVec 32 := 16#32
  let v738 : BitVec 32 := Scalar.addi v725 c16_i32_376
  let v741 : Index := Scalar.indexCast v738
  ![1, v740.toNat, v741.toNat]

def k1_chk63 (k1_t4 : Fin k1_t4_loop.trips) (v723 : BitVec 32) : Prop :=
  (∀ a, (k1_off254 k1_t4 v723) a + S1x1x16.size a ≤ S2x128x128.size a) ∧
  (∀ a, (k1_off256 k1_t4 v723) a + S1x1x16.size a ≤ S2x128x128.size a)
instance k1_chk63.dec : ∀ (k1_t4 : Fin k1_t4_loop.trips) (v723 : BitVec 32), Decidable (k1_chk63 k1_t4 v723) := fun k1_t4 v723 => decidable_of_iff' _ (Iff.of_eq (k1_chk63.eq_1 k1_t4 v723))
theorem k1_off254_inb : ∀ (k1_t4 : Fin k1_t4_loop.trips) (v723 : BitVec 32) (k1_hw63 : k1_chk63 k1_t4 v723), ∀ a, (k1_off254 k1_t4 v723) a + S1x1x16.size a ≤ S2x128x128.size a := fun k1_t4 v723 k1_hw63 => k1_hw63.1
theorem k1_off256_inb : ∀ (k1_t4 : Fin k1_t4_loop.trips) (v723 : BitVec 32) (k1_hw63 : k1_chk63 k1_t4 v723), ∀ a, (k1_off256 k1_t4 v723) a + S1x1x16.size a ≤ S2x128x128.size a := fun k1_t4 v723 k1_hw63 => k1_hw63.2

def k1_off257 (k1_t4 : Fin k1_t4_loop.trips) : Fin 2 → Nat :=
  let c384_i32_378 : BitVec 32 := 384#32
  let c0_i32_221 : BitVec 32 := 0#32
  let c1_i32_223 : BitVec 32 := 1#32
  let arg10 : BitVec 32 := Scf.iv c0_i32_221 c1_i32_223 k1_t4
  let c16_i32_372 : BitVec 32 := 16#32
  let v726 : BitVec 32 := Scalar.muli arg10 c16_i32_372
  let c14_i32 : BitVec 32 := 14#32
  let v727 : BitVec 32 := Scalar.addi v726 c14_i32
  let v744 : BitVec 32 := Scalar.addi c384_i32_378 v727
  let v745 : Index := Scalar.indexCast v744
  let c16_379 : Index := 16#32
  ![v745.toNat, 16]
def k1_off258 (k1_t4 : Fin k1_t4_loop.trips) (v750 : BitVec 32) : Fin 3 → Nat :=
  let c1_i32_383 : BitVec 32 := 1#32
  let v755 : Index := Scalar.indexCast c1_i32_383
  let c0_i32_221 : BitVec 32 := 0#32
  let c1_i32_223 : BitVec 32 := 1#32
  let arg10 : BitVec 32 := Scf.iv c0_i32_221 c1_i32_223 k1_t4
  let c16_i32_382 : BitVec 32 := 16#32
  let v753 : BitVec 32 := Scalar.muli arg10 c16_i32_382
  let c15_i32 : BitVec 32 := 15#32
  let v754 : BitVec 32 := Scalar.addi v753 c15_i32
  let v756 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let v757 : Index := Scalar.indexCast v752
  ![1, v756.toNat, v757.toNat]

def k1_off259 (k1_t4 : Fin k1_t4_loop.trips) : Fin 2 → Nat :=
  let c384_i32_384 : BitVec 32 := 384#32
  let c0_i32_221 : BitVec 32 := 0#32
  let c1_i32_223 : BitVec 32 := 1#32
  let arg10 : BitVec 32 := Scf.iv c0_i32_221 c1_i32_223 k1_t4
  let c16_i32_382 : BitVec 32 := 16#32
  let v753 : BitVec 32 := Scalar.muli arg10 c16_i32_382
  let c15_i32 : BitVec 32 := 15#32
  let v754 : BitVec 32 := Scalar.addi v753 c15_i32
  let v760 : BitVec 32 := Scalar.addi c384_i32_384 v754
  let v761 : Index := Scalar.indexCast v760
  let c0_385 : Index := 0#32
  ![v761.toNat, 0]
def k1_off260 (k1_t4 : Fin k1_t4_loop.trips) (v750 : BitVec 32) : Fin 3 → Nat :=
  let c1_i32_387 : BitVec 32 := 1#32
  let v766 : Index := Scalar.indexCast c1_i32_387
  let c0_i32_221 : BitVec 32 := 0#32
  let c1_i32_223 : BitVec 32 := 1#32
  let arg10 : BitVec 32 := Scf.iv c0_i32_221 c1_i32_223 k1_t4
  let c16_i32_382 : BitVec 32 := 16#32
  let v753 : BitVec 32 := Scalar.muli arg10 c16_i32_382
  let c15_i32 : BitVec 32 := 15#32
  let v754 : BitVec 32 := Scalar.addi v753 c15_i32
  let v767 : Index := Scalar.indexCast v754
  let c3_i32_380 : BitVec 32 := 3#32
  let v751 : BitVec 32 := Scalar.andi v750 c3_i32_380
  let c32_i32_381 : BitVec 32 := 32#32
  let v752 : BitVec 32 := Scalar.muli v751 c32_i32_381
  let c16_i32_386 : BitVec 32 := 16#32
  let v765 : BitVec 32 := Scalar.addi v752 c16_i32_386
  let v768 : Index := Scalar.indexCast v765
  ![1, v767.toNat, v768.toNat]

def k1_chk64 (k1_t4 : Fin k1_t4_loop.trips) (v750 : BitVec 32) : Prop :=
  (∀ a, (k1_off258 k1_t4 v750) a + S1x1x16.size a ≤ S2x128x128.size a) ∧
  (∀ a, (k1_off260 k1_t4 v750) a + S1x1x16.size a ≤ S2x128x128.size a)
instance k1_chk64.dec : ∀ (k1_t4 : Fin k1_t4_loop.trips) (v750 : BitVec 32), Decidable (k1_chk64 k1_t4 v750) := fun k1_t4 v750 => decidable_of_iff' _ (Iff.of_eq (k1_chk64.eq_1 k1_t4 v750))
theorem k1_off258_inb : ∀ (k1_t4 : Fin k1_t4_loop.trips) (v750 : BitVec 32) (k1_hw64 : k1_chk64 k1_t4 v750), ∀ a, (k1_off258 k1_t4 v750) a + S1x1x16.size a ≤ S2x128x128.size a := fun k1_t4 v750 k1_hw64 => k1_hw64.1
theorem k1_off260_inb : ∀ (k1_t4 : Fin k1_t4_loop.trips) (v750 : BitVec 32) (k1_hw64 : k1_chk64 k1_t4 v750), ∀ a, (k1_off260 k1_t4 v750) a + S1x1x16.size a ≤ S2x128x128.size a := fun k1_t4 v750 k1_hw64 => k1_hw64.2

def k1_off261 (k1_t4 : Fin k1_t4_loop.trips) : Fin 2 → Nat :=
  let c384_i32_388 : BitVec 32 := 384#32
  let c0_i32_221 : BitVec 32 := 0#32
  let c1_i32_223 : BitVec 32 := 1#32
  let arg10 : BitVec 32 := Scf.iv c0_i32_221 c1_i32_223 k1_t4
  let c16_i32_382 : BitVec 32 := 16#32
  let v753 : BitVec 32 := Scalar.muli arg10 c16_i32_382
  let c15_i32 : BitVec 32 := 15#32
  let v754 : BitVec 32 := Scalar.addi v753 c15_i32
  let v771 : BitVec 32 := Scalar.addi c384_i32_388 v754
  let v772 : Index := Scalar.indexCast v771
  let c16_389 : Index := 16#32
  ![v772.toNat, 16]
def k1_off262 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_225_r4 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x32_S32x1000000_1_0 : S1000000x32.Transposes [1, 0] S32x1000000
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  transposes_S32x16384_p1_0_S16384x32 : S32x16384.Transposes [1, 0] S16384x32
  shapeCasts_S16384x32_S4096x4x32 : S16384x32.ShapeCasts S4096x4x32
  slices_S4096x4x32_o0_0_0_S4096x1x32 : S4096x4x32.Slices ![0, 0, 0] S4096x1x32
  shapeCasts_S4096x1x32_S4096x32 : S4096x1x32.ShapeCasts S4096x32
  inb_S4096x128_S4096x32_0_0 : ∀ a, (![0, 0] : Fin 2 → Nat) a + S4096x32.size a ≤ S4096x128.size a
  h_S4096x32 : 0 < S4096x32.numel
  slices_S4096x4x32_o0_1_0_S4096x1x32 : S4096x4x32.Slices ![0, 1, 0] S4096x1x32
  inb_S4096x128_S4096x32_0_32 : ∀ a, (![0, 32] : Fin 2 → Nat) a + S4096x32.size a ≤ S4096x128.size a
  slices_S4096x4x32_o0_2_0_S4096x1x32 : S4096x4x32.Slices ![0, 2, 0] S4096x1x32
  inb_S4096x128_S4096x32_0_64 : ∀ a, (![0, 64] : Fin 2 → Nat) a + S4096x32.size a ≤ S4096x128.size a
  slices_S4096x4x32_o0_3_0_S4096x1x32 : S4096x4x32.Slices ![0, 3, 0] S4096x1x32
  inb_S4096x128_S4096x32_0_96 : ∀ a, (![0, 96] : Fin 2 → Nat) a + S4096x32.size a ≤ S4096x128.size a
  inb_S4x128_S1x128_0_0 : ∀ a, (![0, 0] : Fin 2 → Nat) a + S1x128.size a ≤ S4x128.size a
  squeezes_S1x128_S128 : S1x128.Squeezes S128
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  inb_S4x128_S1x16_0_0 : ∀ a, (![0, 0] : Fin 2 → Nat) a + S1x16.size a ≤ S4x128.size a
  h_S1x16 : 0 < S1x16.numel
  shapeCasts_S1x16_S16 : S1x16.ShapeCasts S16
  shapeCasts_S16_S1x16 : S16.ShapeCasts S1x16
  inb_S4x128_S1x16_0_16 : ∀ a, (![0, 16] : Fin 2 → Nat) a + S1x16.size a ≤ S4x128.size a
  inb_S4x128_S1x16_0_32 : ∀ a, (![0, 32] : Fin 2 → Nat) a + S1x16.size a ≤ S4x128.size a
  inb_S4x128_S1x16_0_48 : ∀ a, (![0, 48] : Fin 2 → Nat) a + S1x16.size a ≤ S4x128.size a
  inb_S4x128_S1x16_0_64 : ∀ a, (![0, 64] : Fin 2 → Nat) a + S1x16.size a ≤ S4x128.size a
  inb_S4x128_S1x16_0_80 : ∀ a, (![0, 80] : Fin 2 → Nat) a + S1x16.size a ≤ S4x128.size a
  inb_S4x128_S1x16_0_96 : ∀ a, (![0, 96] : Fin 2 → Nat) a + S1x16.size a ≤ S4x128.size a
  inb_S4x128_S1x16_0_112 : ∀ a, (![0, 112] : Fin 2 → Nat) a + S1x16.size a ≤ S4x128.size a
  inb_S4x128_S1x16_1_0 : ∀ a, (![1, 0] : Fin 2 → Nat) a + S1x16.size a ≤ S4x128.size a
  inb_S4x128_S1x16_1_16 : ∀ a, (![1, 16] : Fin 2 → Nat) a + S1x16.size a ≤ S4x128.size a
  inb_S4x128_S1x16_1_32 : ∀ a, (![1, 32] : Fin 2 → Nat) a + S1x16.size a ≤ S4x128.size a
  inb_S4x128_S1x16_1_48 : ∀ a, (![1, 48] : Fin 2 → Nat) a + S1x16.size a ≤ S4x128.size a
  inb_S4x128_S1x16_1_64 : ∀ a, (![1, 64] : Fin 2 → Nat) a + S1x16.size a ≤ S4x128.size a
  inb_S4x128_S1x16_1_80 : ∀ a, (![1, 80] : Fin 2 → Nat) a + S1x16.size a ≤ S4x128.size a
  inb_S4x128_S1x16_1_96 : ∀ a, (![1, 96] : Fin 2 → Nat) a + S1x16.size a ≤ S4x128.size a
  inb_S4x128_S1x16_1_112 : ∀ a, (![1, 112] : Fin 2 → Nat) a + S1x16.size a ≤ S4x128.size a
  inb_S4x128_S1x16_2_0 : ∀ a, (![2, 0] : Fin 2 → Nat) a + S1x16.size a ≤ S4x128.size a
  inb_S4x128_S1x16_2_16 : ∀ a, (![2, 16] : Fin 2 → Nat) a + S1x16.size a ≤ S4x128.size a
  inb_S4x128_S1x16_2_32 : ∀ a, (![2, 32] : Fin 2 → Nat) a + S1x16.size a ≤ S4x128.size a
  inb_S4x128_S1x16_2_48 : ∀ a, (![2, 48] : Fin 2 → Nat) a + S1x16.size a ≤ S4x128.size a
  inb_S4x128_S1x16_2_64 : ∀ a, (![2, 64] : Fin 2 → Nat) a + S1x16.size a ≤ S4x128.size a
  inb_S4x128_S1x16_2_80 : ∀ a, (![2, 80] : Fin 2 → Nat) a + S1x16.size a ≤ S4x128.size a
  inb_S4x128_S1x16_2_96 : ∀ a, (![2, 96] : Fin 2 → Nat) a + S1x16.size a ≤ S4x128.size a
  inb_S4x128_S1x16_2_112 : ∀ a, (![2, 112] : Fin 2 → Nat) a + S1x16.size a ≤ S4x128.size a
  inb_S4x128_S1x16_3_0 : ∀ a, (![3, 0] : Fin 2 → Nat) a + S1x16.size a ≤ S4x128.size a
  inb_S4x128_S1x16_3_16 : ∀ a, (![3, 16] : Fin 2 → Nat) a + S1x16.size a ≤ S4x128.size a
  inb_S4x128_S1x16_3_32 : ∀ a, (![3, 32] : Fin 2 → Nat) a + S1x16.size a ≤ S4x128.size a
  inb_S4x128_S1x16_3_48 : ∀ a, (![3, 48] : Fin 2 → Nat) a + S1x16.size a ≤ S4x128.size a
  inb_S4x128_S1x16_3_64 : ∀ a, (![3, 64] : Fin 2 → Nat) a + S1x16.size a ≤ S4x128.size a
  inb_S4x128_S1x16_3_80 : ∀ a, (![3, 80] : Fin 2 → Nat) a + S1x16.size a ≤ S4x128.size a
  inb_S4x128_S1x16_3_96 : ∀ a, (![3, 96] : Fin 2 → Nat) a + S1x16.size a ≤ S4x128.size a
  inb_S4x128_S1x16_3_112 : ∀ a, (![3, 112] : Fin 2 → Nat) a + S1x16.size a ≤ S4x128.size a
  inb_S2x128x128_S1x128x128_0_0_0 : ∀ a, (![0, 0, 0] : Fin 3 → Nat) a + S1x128x128.size a ≤ S2x128x128.size a
  squeezes_S1x128x128_S128x128 : S1x128x128.Squeezes S128x128
  inb_S250000x128_S250000x128_0_0 : ∀ a, (![0, 0] : Fin 2 → Nat) a + S250000x128.size a ≤ S250000x128.size a
  gathers_S250000x128_S128x128 : S250000x128.Gathers 0 S128x128
  inb_S2x128x128_S1x128x128_1_0_0 : ∀ a, (![1, 0, 0] : Fin 3 → Nat) a + S1x128x128.size a ≤ S2x128x128.size a
  slices_S16_o0_S1 : S16.Slices ![0] S1
  inpos_S1_p0 : ∀ a, (![0] : Fin 1 → Nat) a < S1.size a
  h_S1x1x16 : 0 < S1x1x16.numel
  shapeCasts_S1x1x16_S16 : S1x1x16.ShapeCasts S16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  hcc1_scratch4 : 4 + S_.numel ≤ 10
  hcc1_scoped0 : 5 + S_.numel ≤ 10
  hcc1_scoped1 : 6 + S_.numel ≤ 10
  hcc1_scoped2 : 7 + S_.numel ≤ 10
  hcc1_scoped3 : 8 + S_.numel ≤ 10
  hcc1_scoped4 : 9 + S_.numel ≤ 10
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x16384.size a < S32x1000000.size a
  hwx0_0 : ∀ i : grid0.Coords, EltTy.bits .f32 = 32 ∨ (Rect.unit (s := S32x1000000) (fun a => cc0_transform_0 i a * S32x16384.size a) (fun a => (Pipeline.Clip.of (cc0_transform_0 i a) (S32x16384.size a) (S32x1000000.size a)).extent (S32x16384.size a)) fun a => Pipeline.Clip.inb (Pipeline.Clip.ok_of (hstart0_0 i a))).WholeWords (EltTy.packing .f32)
  hwxs0_0 : ∀ i : grid0.Coords, EltTy.bits .f32 = 32 ∨ (Rect.unit (s := S32x16384) (fun _ => 0) (fun a => (Pipeline.Clip.of (cc0_transform_0 i a) (S32x16384.size a) (S32x1000000.size a)).extent (S32x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S250000x128.size a
  hwx0_1 : ∀ i : grid0.Coords, EltTy.bits .f32 = 32 ∨ (Rect.unit (s := S250000x128) (fun a => cc0_transform_1 i a * S4096x128.size a) (fun a => (Pipeline.Clip.of (cc0_transform_1 i a) (S4096x128.size a) (S250000x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S250000x128.size a)).extent (S4096x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ (r : Fin 4), ∀ a, (k1_off1 i (BitVec.ofNat 32 (128 * r.val))) a + S128.size a ≤ S16384.size a
  k1_t1_ok : k1_t1_loop.OK
  k1_off2_inb : ∀ k1_t1 : Fin k1_t1_loop.trips, ∀ a, (k1_off2 k1_t1) a + S1x16.size a ≤ S4x128.size a
  k1_off4_inb : ∀ k1_t1 : Fin k1_t1_loop.trips, ∀ a, (k1_off4 k1_t1) a + S1x16.size a ≤ S512x32.size a
  k1_off6_inb : ∀ k1_t1 : Fin k1_t1_loop.trips, ∀ a, (k1_off6 k1_t1) a + S1x16.size a ≤ S512x32.size a
  k1_off8_inb : ∀ k1_t1 : Fin k1_t1_loop.trips, ∀ a, (k1_off8 k1_t1) a + S1x16.size a ≤ S512x32.size a
  k1_off10_inb : ∀ k1_t1 : Fin k1_t1_loop.trips, ∀ a, (k1_off10 k1_t1) a + S1x16.size a ≤ S512x32.size a
  k1_off12_inb : ∀ k1_t1 : Fin k1_t1_loop.trips, ∀ a, (k1_off12 k1_t1) a + S1x16.size a ≤ S512x32.size a
  k1_off14_inb : ∀ k1_t1 : Fin k1_t1_loop.trips, ∀ a, (k1_off14 k1_t1) a + S1x16.size a ≤ S512x32.size a
  k1_off16_inb : ∀ k1_t1 : Fin k1_t1_loop.trips, ∀ a, (k1_off16 k1_t1) a + S1x16.size a ≤ S512x32.size a
  k1_off18_inb : ∀ k1_t1 : Fin k1_t1_loop.trips, ∀ a, (k1_off18 k1_t1) a + S1x16.size a ≤ S512x32.size a
  k1_off20_inb : ∀ k1_t1 : Fin k1_t1_loop.trips, ∀ a, (k1_off20 k1_t1) a + S1x16.size a ≤ S512x32.size a
  k1_off22_inb : ∀ k1_t1 : Fin k1_t1_loop.trips, ∀ a, (k1_off22 k1_t1) a + S1x16.size a ≤ S512x32.size a
  k1_off24_inb : ∀ k1_t1 : Fin k1_t1_loop.trips, ∀ a, (k1_off24 k1_t1) a + S1x16.size a ≤ S512x32.size a
  k1_off26_inb : ∀ k1_t1 : Fin k1_t1_loop.trips, ∀ a, (k1_off26 k1_t1) a + S1x16.size a ≤ S512x32.size a
  k1_off28_inb : ∀ k1_t1 : Fin k1_t1_loop.trips, ∀ a, (k1_off28 k1_t1) a + S1x16.size a ≤ S512x32.size a
  k1_off30_inb : ∀ k1_t1 : Fin k1_t1_loop.trips, ∀ a, (k1_off30 k1_t1) a + S1x16.size a ≤ S512x32.size a
  k1_off32_inb : ∀ k1_t1 : Fin k1_t1_loop.trips, ∀ a, (k1_off32 k1_t1) a + S1x16.size a ≤ S512x32.size a
  k1_off34_inb : ∀ k1_t1 : Fin k1_t1_loop.trips, ∀ a, (k1_off34 k1_t1) a + S1x16.size a ≤ S512x32.size a
  k1_off36_inb : ∀ k1_t1 : Fin k1_t1_loop.trips, ∀ a, (k1_off36 k1_t1) a + S1x16.size a ≤ S512x32.size a
  k1_off38_inb : ∀ k1_t1 : Fin k1_t1_loop.trips, ∀ a, (k1_off38 k1_t1) a + S1x16.size a ≤ S512x32.size a
  k1_off40_inb : ∀ k1_t1 : Fin k1_t1_loop.trips, ∀ a, (k1_off40 k1_t1) a + S1x16.size a ≤ S512x32.size a
  k1_off42_inb : ∀ k1_t1 : Fin k1_t1_loop.trips, ∀ a, (k1_off42 k1_t1) a + S1x16.size a ≤ S512x32.size a
  k1_off44_inb : ∀ k1_t1 : Fin k1_t1_loop.trips, ∀ a, (k1_off44 k1_t1) a + S1x16.size a ≤ S512x32.size a
  k1_off46_inb : ∀ k1_t1 : Fin k1_t1_loop.trips, ∀ a, (k1_off46 k1_t1) a + S1x16.size a ≤ S512x32.size a
  k1_off48_inb : ∀ k1_t1 : Fin k1_t1_loop.trips, ∀ a, (k1_off48 k1_t1) a + S1x16.size a ≤ S512x32.size a
  k1_off50_inb : ∀ k1_t1 : Fin k1_t1_loop.trips, ∀ a, (k1_off50 k1_t1) a + S1x16.size a ≤ S512x32.size a
  k1_off52_inb : ∀ k1_t1 : Fin k1_t1_loop.trips, ∀ a, (k1_off52 k1_t1) a + S1x16.size a ≤ S512x32.size a
  k1_off54_inb : ∀ k1_t1 : Fin k1_t1_loop.trips, ∀ a, (k1_off54 k1_t1) a + S1x16.size a ≤ S512x32.size a
  k1_off56_inb : ∀ k1_t1 : Fin k1_t1_loop.trips, ∀ a, (k1_off56 k1_t1) a + S1x16.size a ≤ S512x32.size a
  k1_off58_inb : ∀ k1_t1 : Fin k1_t1_loop.trips, ∀ a, (k1_off58 k1_t1) a + S1x16.size a ≤ S512x32.size a
  k1_off60_inb : ∀ k1_t1 : Fin k1_t1_loop.trips, ∀ a, (k1_off60 k1_t1) a + S1x16.size a ≤ S512x32.size a
  k1_off62_inb : ∀ k1_t1 : Fin k1_t1_loop.trips, ∀ a, (k1_off62 k1_t1) a + S1x16.size a ≤ S512x32.size a
  k1_off64_inb : ∀ k1_t1 : Fin k1_t1_loop.trips, ∀ a, (k1_off64 k1_t1) a + S1x16.size a ≤ S512x32.size a
  k1_off66_inb : ∀ k1_t1 : Fin k1_t1_loop.trips, ∀ a, (k1_off66 k1_t1) a + S1x16.size a ≤ S512x32.size a
  k1_t2_ok : k1_t2_loop.OK
  k1_off67_inb : ∀ k1_t2 : Fin k1_t2_loop.trips, ∀ a, (k1_off67 k1_t2) a + S1x16.size a ≤ S4x128.size a
  k1_off69_inb : ∀ k1_t2 : Fin k1_t2_loop.trips, ∀ a, (k1_off69 k1_t2) a + S1x16.size a ≤ S512x32.size a
  k1_off71_inb : ∀ k1_t2 : Fin k1_t2_loop.trips, ∀ a, (k1_off71 k1_t2) a + S1x16.size a ≤ S512x32.size a
  k1_off73_inb : ∀ k1_t2 : Fin k1_t2_loop.trips, ∀ a, (k1_off73 k1_t2) a + S1x16.size a ≤ S512x32.size a
  k1_off75_inb : ∀ k1_t2 : Fin k1_t2_loop.trips, ∀ a, (k1_off75 k1_t2) a + S1x16.size a ≤ S512x32.size a
  k1_off77_inb : ∀ k1_t2 : Fin k1_t2_loop.trips, ∀ a, (k1_off77 k1_t2) a + S1x16.size a ≤ S512x32.size a
  k1_off79_inb : ∀ k1_t2 : Fin k1_t2_loop.trips, ∀ a, (k1_off79 k1_t2) a + S1x16.size a ≤ S512x32.size a
  k1_off81_inb : ∀ k1_t2 : Fin k1_t2_loop.trips, ∀ a, (k1_off81 k1_t2) a + S1x16.size a ≤ S512x32.size a
  k1_off83_inb : ∀ k1_t2 : Fin k1_t2_loop.trips, ∀ a, (k1_off83 k1_t2) a + S1x16.size a ≤ S512x32.size a
  k1_off85_inb : ∀ k1_t2 : Fin k1_t2_loop.trips, ∀ a, (k1_off85 k1_t2) a + S1x16.size a ≤ S512x32.size a
  k1_off87_inb : ∀ k1_t2 : Fin k1_t2_loop.trips, ∀ a, (k1_off87 k1_t2) a + S1x16.size a ≤ S512x32.size a
  k1_off89_inb : ∀ k1_t2 : Fin k1_t2_loop.trips, ∀ a, (k1_off89 k1_t2) a + S1x16.size a ≤ S512x32.size a
  k1_off91_inb : ∀ k1_t2 : Fin k1_t2_loop.trips, ∀ a, (k1_off91 k1_t2) a + S1x16.size a ≤ S512x32.size a
  k1_off93_inb : ∀ k1_t2 : Fin k1_t2_loop.trips, ∀ a, (k1_off93 k1_t2) a + S1x16.size a ≤ S512x32.size a
  k1_off95_inb : ∀ k1_t2 : Fin k1_t2_loop.trips, ∀ a, (k1_off95 k1_t2) a + S1x16.size a ≤ S512x32.size a
  k1_off97_inb : ∀ k1_t2 : Fin k1_t2_loop.trips, ∀ a, (k1_off97 k1_t2) a + S1x16.size a ≤ S512x32.size a
  k1_off99_inb : ∀ k1_t2 : Fin k1_t2_loop.trips, ∀ a, (k1_off99 k1_t2) a + S1x16.size a ≤ S512x32.size a
  k1_off101_inb : ∀ k1_t2 : Fin k1_t2_loop.trips, ∀ a, (k1_off101 k1_t2) a + S1x16.size a ≤ S512x32.size a
  k1_off103_inb : ∀ k1_t2 : Fin k1_t2_loop.trips, ∀ a, (k1_off103 k1_t2) a + S1x16.size a ≤ S512x32.size a
  k1_off105_inb : ∀ k1_t2 : Fin k1_t2_loop.trips, ∀ a, (k1_off105 k1_t2) a + S1x16.size a ≤ S512x32.size a
  k1_off107_inb : ∀ k1_t2 : Fin k1_t2_loop.trips, ∀ a, (k1_off107 k1_t2) a + S1x16.size a ≤ S512x32.size a
  k1_off109_inb : ∀ k1_t2 : Fin k1_t2_loop.trips, ∀ a, (k1_off109 k1_t2) a + S1x16.size a ≤ S512x32.size a
  k1_off111_inb : ∀ k1_t2 : Fin k1_t2_loop.trips, ∀ a, (k1_off111 k1_t2) a + S1x16.size a ≤ S512x32.size a
  k1_off113_inb : ∀ k1_t2 : Fin k1_t2_loop.trips, ∀ a, (k1_off113 k1_t2) a + S1x16.size a ≤ S512x32.size a
  k1_off115_inb : ∀ k1_t2 : Fin k1_t2_loop.trips, ∀ a, (k1_off115 k1_t2) a + S1x16.size a ≤ S512x32.size a
  k1_off117_inb : ∀ k1_t2 : Fin k1_t2_loop.trips, ∀ a, (k1_off117 k1_t2) a + S1x16.size a ≤ S512x32.size a
  k1_off119_inb : ∀ k1_t2 : Fin k1_t2_loop.trips, ∀ a, (k1_off119 k1_t2) a + S1x16.size a ≤ S512x32.size a
  k1_off121_inb : ∀ k1_t2 : Fin k1_t2_loop.trips, ∀ a, (k1_off121 k1_t2) a + S1x16.size a ≤ S512x32.size a
  k1_off123_inb : ∀ k1_t2 : Fin k1_t2_loop.trips, ∀ a, (k1_off123 k1_t2) a + S1x16.size a ≤ S512x32.size a
  k1_off125_inb : ∀ k1_t2 : Fin k1_t2_loop.trips, ∀ a, (k1_off125 k1_t2) a + S1x16.size a ≤ S512x32.size a
  k1_off127_inb : ∀ k1_t2 : Fin k1_t2_loop.trips, ∀ a, (k1_off127 k1_t2) a + S1x16.size a ≤ S512x32.size a
  k1_off129_inb : ∀ k1_t2 : Fin k1_t2_loop.trips, ∀ a, (k1_off129 k1_t2) a + S1x16.size a ≤ S512x32.size a
  k1_off131_inb : ∀ k1_t2 : Fin k1_t2_loop.trips, ∀ a, (k1_off131 k1_t2) a + S1x16.size a ≤ S512x32.size a
  k1_t3_ok : k1_t3_loop.OK
  k1_off132_inb : ∀ k1_t3 : Fin k1_t3_loop.trips, ∀ a, (k1_off132 k1_t3) a + S1x16.size a ≤ S4x128.size a
  k1_off134_inb : ∀ k1_t3 : Fin k1_t3_loop.trips, ∀ a, (k1_off134 k1_t3) a + S1x16.size a ≤ S512x32.size a
  k1_off136_inb : ∀ k1_t3 : Fin k1_t3_loop.trips, ∀ a, (k1_off136 k1_t3) a + S1x16.size a ≤ S512x32.size a
  k1_off138_inb : ∀ k1_t3 : Fin k1_t3_loop.trips, ∀ a, (k1_off138 k1_t3) a + S1x16.size a ≤ S512x32.size a
  k1_off140_inb : ∀ k1_t3 : Fin k1_t3_loop.trips, ∀ a, (k1_off140 k1_t3) a + S1x16.size a ≤ S512x32.size a
  k1_off142_inb : ∀ k1_t3 : Fin k1_t3_loop.trips, ∀ a, (k1_off142 k1_t3) a + S1x16.size a ≤ S512x32.size a
  k1_off144_inb : ∀ k1_t3 : Fin k1_t3_loop.trips, ∀ a, (k1_off144 k1_t3) a + S1x16.size a ≤ S512x32.size a
  k1_off146_inb : ∀ k1_t3 : Fin k1_t3_loop.trips, ∀ a, (k1_off146 k1_t3) a + S1x16.size a ≤ S512x32.size a
  k1_off148_inb : ∀ k1_t3 : Fin k1_t3_loop.trips, ∀ a, (k1_off148 k1_t3) a + S1x16.size a ≤ S512x32.size a
  k1_off150_inb : ∀ k1_t3 : Fin k1_t3_loop.trips, ∀ a, (k1_off150 k1_t3) a + S1x16.size a ≤ S512x32.size a
  k1_off152_inb : ∀ k1_t3 : Fin k1_t3_loop.trips, ∀ a, (k1_off152 k1_t3) a + S1x16.size a ≤ S512x32.size a
  k1_off154_inb : ∀ k1_t3 : Fin k1_t3_loop.trips, ∀ a, (k1_off154 k1_t3) a + S1x16.size a ≤ S512x32.size a
  k1_off156_inb : ∀ k1_t3 : Fin k1_t3_loop.trips, ∀ a, (k1_off156 k1_t3) a + S1x16.size a ≤ S512x32.size a
  k1_off158_inb : ∀ k1_t3 : Fin k1_t3_loop.trips, ∀ a, (k1_off158 k1_t3) a + S1x16.size a ≤ S512x32.size a
  k1_off160_inb : ∀ k1_t3 : Fin k1_t3_loop.trips, ∀ a, (k1_off160 k1_t3) a + S1x16.size a ≤ S512x32.size a
  k1_off162_inb : ∀ k1_t3 : Fin k1_t3_loop.trips, ∀ a, (k1_off162 k1_t3) a + S1x16.size a ≤ S512x32.size a
  k1_off164_inb : ∀ k1_t3 : Fin k1_t3_loop.trips, ∀ a, (k1_off164 k1_t3) a + S1x16.size a ≤ S512x32.size a
  k1_off166_inb : ∀ k1_t3 : Fin k1_t3_loop.trips, ∀ a, (k1_off166 k1_t3) a + S1x16.size a ≤ S512x32.size a
  k1_off168_inb : ∀ k1_t3 : Fin k1_t3_loop.trips, ∀ a, (k1_off168 k1_t3) a + S1x16.size a ≤ S512x32.size a
  k1_off170_inb : ∀ k1_t3 : Fin k1_t3_loop.trips, ∀ a, (k1_off170 k1_t3) a + S1x16.size a ≤ S512x32.size a
  k1_off172_inb : ∀ k1_t3 : Fin k1_t3_loop.trips, ∀ a, (k1_off172 k1_t3) a + S1x16.size a ≤ S512x32.size a
  k1_off174_inb : ∀ k1_t3 : Fin k1_t3_loop.trips, ∀ a, (k1_off174 k1_t3) a + S1x16.size a ≤ S512x32.size a
  k1_off176_inb : ∀ k1_t3 : Fin k1_t3_loop.trips, ∀ a, (k1_off176 k1_t3) a + S1x16.size a ≤ S512x32.size a
  k1_off178_inb : ∀ k1_t3 : Fin k1_t3_loop.trips, ∀ a, (k1_off178 k1_t3) a + S1x16.size a ≤ S512x32.size a
  k1_off180_inb : ∀ k1_t3 : Fin k1_t3_loop.trips, ∀ a, (k1_off180 k1_t3) a + S1x16.size a ≤ S512x32.size a
  k1_off182_inb : ∀ k1_t3 : Fin k1_t3_loop.trips, ∀ a, (k1_off182 k1_t3) a + S1x16.size a ≤ S512x32.size a
  k1_off184_inb : ∀ k1_t3 : Fin k1_t3_loop.trips, ∀ a, (k1_off184 k1_t3) a + S1x16.size a ≤ S512x32.size a
  k1_off186_inb : ∀ k1_t3 : Fin k1_t3_loop.trips, ∀ a, (k1_off186 k1_t3) a + S1x16.size a ≤ S512x32.size a
  k1_off188_inb : ∀ k1_t3 : Fin k1_t3_loop.trips, ∀ a, (k1_off188 k1_t3) a + S1x16.size a ≤ S512x32.size a
  k1_off190_inb : ∀ k1_t3 : Fin k1_t3_loop.trips, ∀ a, (k1_off190 k1_t3) a + S1x16.size a ≤ S512x32.size a
  k1_off192_inb : ∀ k1_t3 : Fin k1_t3_loop.trips, ∀ a, (k1_off192 k1_t3) a + S1x16.size a ≤ S512x32.size a
  k1_off194_inb : ∀ k1_t3 : Fin k1_t3_loop.trips, ∀ a, (k1_off194 k1_t3) a + S1x16.size a ≤ S512x32.size a
  k1_off196_inb : ∀ k1_t3 : Fin k1_t3_loop.trips, ∀ a, (k1_off196 k1_t3) a + S1x16.size a ≤ S512x32.size a
  k1_t4_ok : k1_t4_loop.OK
  k1_off197_inb : ∀ k1_t4 : Fin k1_t4_loop.trips, ∀ a, (k1_off197 k1_t4) a + S1x16.size a ≤ S4x128.size a
  k1_off199_inb : ∀ k1_t4 : Fin k1_t4_loop.trips, ∀ a, (k1_off199 k1_t4) a + S1x16.size a ≤ S512x32.size a
  k1_off201_inb : ∀ k1_t4 : Fin k1_t4_loop.trips, ∀ a, (k1_off201 k1_t4) a + S1x16.size a ≤ S512x32.size a
  k1_off203_inb : ∀ k1_t4 : Fin k1_t4_loop.trips, ∀ a, (k1_off203 k1_t4) a + S1x16.size a ≤ S512x32.size a
  k1_off205_inb : ∀ k1_t4 : Fin k1_t4_loop.trips, ∀ a, (k1_off205 k1_t4) a + S1x16.size a ≤ S512x32.size a
  k1_off207_inb : ∀ k1_t4 : Fin k1_t4_loop.trips, ∀ a, (k1_off207 k1_t4) a + S1x16.size a ≤ S512x32.size a
  k1_off209_inb : ∀ k1_t4 : Fin k1_t4_loop.trips, ∀ a, (k1_off209 k1_t4) a + S1x16.size a ≤ S512x32.size a
  k1_off211_inb : ∀ k1_t4 : Fin k1_t4_loop.trips, ∀ a, (k1_off211 k1_t4) a + S1x16.size a ≤ S512x32.size a
  k1_off213_inb : ∀ k1_t4 : Fin k1_t4_loop.trips, ∀ a, (k1_off213 k1_t4) a + S1x16.size a ≤ S512x32.size a
  k1_off215_inb : ∀ k1_t4 : Fin k1_t4_loop.trips, ∀ a, (k1_off215 k1_t4) a + S1x16.size a ≤ S512x32.size a
  k1_off217_inb : ∀ k1_t4 : Fin k1_t4_loop.trips, ∀ a, (k1_off217 k1_t4) a + S1x16.size a ≤ S512x32.size a
  k1_off219_inb : ∀ k1_t4 : Fin k1_t4_loop.trips, ∀ a, (k1_off219 k1_t4) a + S1x16.size a ≤ S512x32.size a
  k1_off221_inb : ∀ k1_t4 : Fin k1_t4_loop.trips, ∀ a, (k1_off221 k1_t4) a + S1x16.size a ≤ S512x32.size a
  k1_off223_inb : ∀ k1_t4 : Fin k1_t4_loop.trips, ∀ a, (k1_off223 k1_t4) a + S1x16.size a ≤ S512x32.size a
  k1_off225_inb : ∀ k1_t4 : Fin k1_t4_loop.trips, ∀ a, (k1_off225 k1_t4) a + S1x16.size a ≤ S512x32.size a
  k1_off227_inb : ∀ k1_t4 : Fin k1_t4_loop.trips, ∀ a, (k1_off227 k1_t4) a + S1x16.size a ≤ S512x32.size a
  k1_off229_inb : ∀ k1_t4 : Fin k1_t4_loop.trips, ∀ a, (k1_off229 k1_t4) a + S1x16.size a ≤ S512x32.size a
  k1_off231_inb : ∀ k1_t4 : Fin k1_t4_loop.trips, ∀ a, (k1_off231 k1_t4) a + S1x16.size a ≤ S512x32.size a
  k1_off233_inb : ∀ k1_t4 : Fin k1_t4_loop.trips, ∀ a, (k1_off233 k1_t4) a + S1x16.size a ≤ S512x32.size a
  k1_off235_inb : ∀ k1_t4 : Fin k1_t4_loop.trips, ∀ a, (k1_off235 k1_t4) a + S1x16.size a ≤ S512x32.size a
  k1_off237_inb : ∀ k1_t4 : Fin k1_t4_loop.trips, ∀ a, (k1_off237 k1_t4) a + S1x16.size a ≤ S512x32.size a
  k1_off239_inb : ∀ k1_t4 : Fin k1_t4_loop.trips, ∀ a, (k1_off239 k1_t4) a + S1x16.size a ≤ S512x32.size a
  k1_off241_inb : ∀ k1_t4 : Fin k1_t4_loop.trips, ∀ a, (k1_off241 k1_t4) a + S1x16.size a ≤ S512x32.size a
  k1_off243_inb : ∀ k1_t4 : Fin k1_t4_loop.trips, ∀ a, (k1_off243 k1_t4) a + S1x16.size a ≤ S512x32.size a
  k1_off245_inb : ∀ k1_t4 : Fin k1_t4_loop.trips, ∀ a, (k1_off245 k1_t4) a + S1x16.size a ≤ S512x32.size a
  k1_off247_inb : ∀ k1_t4 : Fin k1_t4_loop.trips, ∀ a, (k1_off247 k1_t4) a + S1x16.size a ≤ S512x32.size a
  k1_off249_inb : ∀ k1_t4 : Fin k1_t4_loop.trips, ∀ a, (k1_off249 k1_t4) a + S1x16.size a ≤ S512x32.size a
  k1_off251_inb : ∀ k1_t4 : Fin k1_t4_loop.trips, ∀ a, (k1_off251 k1_t4) a + S1x16.size a ≤ S512x32.size a
  k1_off253_inb : ∀ k1_t4 : Fin k1_t4_loop.trips, ∀ a, (k1_off253 k1_t4) a + S1x16.size a ≤ S512x32.size a
  k1_off255_inb : ∀ k1_t4 : Fin k1_t4_loop.trips, ∀ a, (k1_off255 k1_t4) a + S1x16.size a ≤ S512x32.size a
  k1_off257_inb : ∀ k1_t4 : Fin k1_t4_loop.trips, ∀ a, (k1_off257 k1_t4) a + S1x16.size a ≤ S512x32.size a
  k1_off259_inb : ∀ k1_t4 : Fin k1_t4_loop.trips, ∀ a, (k1_off259 k1_t4) a + S1x16.size a ≤ S512x32.size a
  k1_off261_inb : ∀ k1_t4 : Fin k1_t4_loop.trips, ∀ a, (k1_off261 k1_t4) a + S1x16.size a ≤ S512x32.size a
  k1_off262_inb : ∀ i : grid1.Coords, ∀ a, (k1_off262 i) a + S512x32.size a ≤ S16384x32.size a

variable [Facts₀]

abbrev cc1_scratch4 : DmaSems sig S_ := SemArray.consecutive 4 S_ hcc1_scratch4
abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
abbrev cc1_scoped4 : DmaSems sig S_ := SemArray.consecutive 9 S_ hcc1_scoped4

abbrev win0_0 : Pipeline.Window sig grid0 :=
  Pipeline.Window.ofSpecClip (Memref.whole main_v0) S32x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S4096x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x32, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x32, .f32⟩
  | .hbm, ⟨21, _⟩ => ⟨S16384x32, .i1⟩
  | .hbm, ⟨22, _⟩ => ⟨S_, .f32⟩
  | .hbm, ⟨23, _⟩ => ⟨S16384x32, .f32⟩
  | .hbm, ⟨24, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  gather_S1000000x32_S16384x1_S16384x32_1_0_n_n_0_1_132_wf : GatherDims.WF S1000000x32 S16384x1 S16384x32 [1] [0] [] [0] [] 1 ![1, 32]

variable [Facts₀]

def gather_S1000000x32_S16384x1_S16384x32_1_0_n_n_0_1_132 : GatherDims S1000000x32 S16384x1 S16384x32 where
  offsetDims := [1]
  collapsedSliceDims := [0]
  operandBatchingDims := []
  startIndicesBatchingDims := []
  startIndexMap := [0]
  indexVectorDim := 1
  sliceSizes := ![1, 32]
  wf := gather_S1000000x32_S16384x1_S16384x32_1_0_n_n_0_1_132_wf

class Facts : Prop extends Facts₀ where

variable [Facts]
-- ==== Proof.Spec.lean ====
/-
  The specification of an embedding lookup, with no program in sight: entry (b, d) of the result is
  entry (ids b, d) of the table. Both programs are compared with this one function.
-/
import Idealize.ShloMosaic.PureOps
import Idealize.ShloMosaic.Lib.ValueIdx

noncomputable section

namespace Cert.Lookup

open Idealize.ShloMosaic Idealize.ShloMosaic.ValueIdx

/-- 16384 class ids. -/
abbrev SIds : Shape := ⟨1, ![16384]⟩
/-- A table of 1000000 rows of 32 numbers. -/
abbrev STab : Shape := ⟨2, ![1000000, 32]⟩
/-- One looked-up row per class id. -/
abbrev SOut : Shape := ⟨2, ![16384, 32]⟩

/-- The table row a 32-bit class id names. A word beyond the last row is sent to the last row, so that the
    function is total; under the range hypothesis `InRange` no such word is met. -/
def rowOf (w : BitVec 32) : Fin 1000000 := ⟨min w.toNat 999999, by omega⟩

/-- The lookup: entry (b, d) of the result is entry (ids b, d) of the table. -/
def lookup {α : Type} (ids : IVec SIds 32) (tab : STab.Idx → α) : SOut.Idx → α :=
  fun j => tab (ix2 (rowOf (ids (ix1 ⟨(j 0).val, idx2_lt0 j⟩))) ⟨(j 1).val, idx2_lt1 j⟩)

/-- Every class id, read as a signed integer, names a row of the table. -/
def InRange (ids : IVec SIds 32) : Prop :=
  ∀ b : Fin 16384, 0 ≤ (ids (ix1 b)).toInt ∧ (ids (ix1 b)).toInt ≤ 999999

/-- A signed word in range is the natural number it spells, and that number is a row. -/
theorem InRange.toNat_le {ids : IVec SIds 32} (h : InRange ids) (b : Fin 16384) :
    (ids (ix1 b)).toNat ≤ 999999 := by
  have h0 := (h b).1
  have h1 := (h b).2
  have := BitVec.toInt_eq_toNat_of_lt (x := ids (ix1 b)) (by
    by_contra hc
    have : (ids (ix1 b)).toInt < 0 := by
      rw [BitVec.toInt_eq_toNat_cond]; split <;> omega
    omega)
  omega

theorem InRange.toInt_toNat {ids : IVec SIds 32} (h : InRange ids) (b : Fin 16384) :
    (ids (ix1 b)).toInt.toNat = (ids (ix1 b)).toNat := by
  have h0 := (h b).1
  have hlt : 2 * (ids (ix1 b)).toNat < 2 ^ 32 := by
    by_contra hc
    have : (ids (ix1 b)).toInt < 0 := by
      rw [BitVec.toInt_eq_toNat_cond]; split <;> omega
    omega
  rw [BitVec.toInt_eq_toNat_of_lt hlt]; rfl

/-- Under the range hypothesis the row a class id names is the id itself. -/
theorem rowOf_val {ids : IVec SIds 32} (h : InRange ids) (b : Fin 16384) :
    (rowOf (ids (ix1 b))).val = (ids (ix1 b)).toNat := by
  have := h.toNat_le b
  simp only [rowOf]; omega

end Cert.Lookup

end
-- ==== Proof.PackMath.lean ====
/-
  The arithmetic of the packed table, with no program in sight. Four consecutive rows of a [1000000, 32] table laid
  side by side make one row of a [250000, 128] array (the row-major reshape). A class id i then names packed row
  i / 4 and, inside it, the 32 lanes starting at (i % 4) * 32: reading those lanes gives back row i of the table.
-/
import proofs.«204365_g77171972375186_cont_9to1c4b_67_15_alg».proof.Proof.Spec

noncomputable section

namespace Cert.Lookup

open Idealize.ShloMosaic Idealize.ShloMosaic.ValueIdx

/-- The table with its two axes exchanged. -/
abbrev STabT : Shape := ⟨2, ![32, 1000000]⟩
/-- The packed table: 250000 rows of 128 numbers. -/
abbrev SPk : Shape := ⟨2, ![250000, 128]⟩

/-- The packed table as a function of the table: entry (R, 32 q + e) is entry (4 R + q, e) of the table. -/
def packed {α : Type} (tab : STab.Idx → α) : SPk.Idx → α :=
  fun j => tab (ix2 ⟨4 * (j 0).val + (j 1).val / 32, by
      have h0 := idx2_lt0 j; have h1 := idx2_lt1 j; omega⟩ ⟨(j 1).val % 32, Nat.mod_lt _ (by decide)⟩)

/-- The packed row a class id names (ids beyond the table are sent to the last packed row; never met in range). -/
def pkRow (w : BitVec 32) : Fin 250000 := ⟨min (w.toNat / 4) 249999, by omega⟩
/-- The first of the 32 lanes a class id names inside its packed row. -/
def pkLane (w : BitVec 32) : ℕ := (w.toNat % 4) * 32

theorem pkLane_add_lt (w : BitVec 32) (e : Fin 32) : pkLane w + e.val < 128 := by
  have := e.isLt; have := Nat.mod_lt w.toNat (show 0 < 4 by decide); unfold pkLane; omega

/-- What the gather kernel leaves in the result: entry (b, e) is entry (pkRow (ids b), pkLane (ids b) + e) of the
    packed array. -/
def unpacked {α : Type} (ids : IVec SIds 32) (pk : SPk.Idx → α) : SOut.Idx → α :=
  fun j => pk (ix2 (pkRow (ids (ix1 ⟨(j 0).val, idx2_lt0 j⟩)))
    ⟨pkLane (ids (ix1 ⟨(j 0).val, idx2_lt0 j⟩)) + (j 1).val, pkLane_add_lt _ ⟨(j 1).val, idx2_lt1 j⟩⟩)

/-- Reading the named lanes of the named packed row gives back the table's row: 4 (i / 4) + i % 4 = i. -/
theorem unpacked_packed {α : Type} {ids : IVec SIds 32} (h : InRange ids) (tab : STab.Idx → α) :
    unpacked ids (packed tab) = lookup ids tab := by
  funext j
  have hb := h.toNat_le ⟨(j 0).val, idx2_lt0 j⟩
  have h1 := idx2_lt1 j
  unfold unpacked packed lookup
  congr 1
  funext a
  refine Fin.ext ?_
  match a with
  | ⟨0, _⟩ =>
    show 4 * (pkRow _).val + (pkLane _ + (j 1).val) / 32 = (rowOf _).val
    simp only [pkRow, pkLane, rowOf]
    omega
  | ⟨1, _⟩ =>
    show (pkLane _ + (j 1).val) % 32 = (j 1).val
    simp only [pkLane]
    omega

end Cert.Lookup

end
-- ==== Proof.CommonI.lean ====
/-
  The gather program as the launch theorem sees it: the SparseCore configuration and the body table under it, the
  resource algebra (the launch handshakes' rounds, the pack pipeline's rounds, the copies' counters), the five
  arrays of @main, and the block of 512 result rows that belongs to one vector subcore.
-/
import proofs.«204365_g77171972375186_cont_9to1c4b_67_15_alg».proof.KernelIdeal
import proofs.«204365_g77171972375186_cont_9to1c4b_67_15_alg».proof.Proof.Gen.KernelIdeal
import proofs.«204365_g77171972375186_cont_9to1c4b_67_15_alg».proof.Proof.Gen.KernelIdeal.Launch
import proofs.«204365_g77171972375186_cont_9to1c4b_67_15_alg».proof.Proof.Gen.KernelIdeal.Points
import proofs.«204365_g77171972375186_cont_9to1c4b_67_15_alg».proof.Proof.PackMath
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the pack pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans embR

instance EP_landsIn : (EP (F := F)).LandsIn (upEmb : UEmb _ (MT nD τ sig (HIx 1) (Elt F) ℕ UU ℕ)) := by
  unfold EP; infer_instance

/-! ## The arrays of @main, and their names on a vector subcore -/

abbrev idsLoc (d : Dev nD) : Loc nD τ sig := (SparseCore.T d).loc main_arg0
abbrev tabLoc (d : Dev nD) : Loc nD τ sig := (SparseCore.T d).loc main_arg1
abbrev tabTLoc (d : Dev nD) : Loc nD τ sig := (SparseCore.T d).loc main_v0
abbrev pkLoc (d : Dev nD) : Loc nD τ sig := (SparseCore.T d).loc main_v1
abbrev outLoc (d : Dev nD) : Loc nD τ sig := (SparseCore.T d).loc main_v2

/-- The class ids, the packed table and the result, as a vector subcore addresses them; its four scratch buffers. -/
abbrev iV : Memref sig Kind.scVector Space.hbm S16384 EltTy.i32 := Memref.whole main_arg0_scv
abbrev pV : Memref sig Kind.scVector Space.hbm S250000x128 EltTy.f32 := Memref.whole main_v1_scv
abbrev oV : Memref sig Kind.scVector Space.hbm S16384x32 EltTy.f32 := Memref.whole main_v2_scv
abbrev s0V : Memref sig Kind.scVector Space.vmem S4x128 EltTy.i32 := Memref.whole cc1_scratch0
abbrev s1V : Memref sig Kind.scVector Space.vmem S4x128 EltTy.i32 := Memref.whole cc1_scratch1
abbrev s2V : Memref sig Kind.scVector Space.vmem S2x128x128 EltTy.f32 := Memref.whole cc1_scratch2
abbrev s3V : Memref sig Kind.scVector Space.vmem S512x32 EltTy.f32 := Memref.whole cc1_scratch3

/-! ## One vector subcore's place and its block of the result -/

abbrev cV (L : grid1.Coords) : Fin τ.nSC := (L 0).castLE hcore1
abbrev jV (L : grid1.Coords) : Fin τ.nSub := (L 1).castLE hsub1

/-- The 512 result rows of the vector subcore at grid coordinates `L`: rows 1024 (L 1) + 512 (L 0) onward, as the
    kernel slices them for its copy out. -/
abbrev orowK (L : grid1.Coords) : Rect S16384x32 := Rect.unit (s := S16384x32) (k1_off262 L) S512x32.size (k1_off262_inb L)
abbrev oRowK (L : grid1.Coords) : Memref sig .scVector .hbm S512x32 .f32 := (oV).slice (orowK L) (fun _ => rfl)
abbrev oRowSet (L : grid1.Coords) : Finset S16384x32.Idx := (oRowK L).view.set

/-- The body of the gather kernel at grid coordinates `L`, on the whole arrays and the subcore's own scratch. -/
abbrev tileProg [FloatOps F] (L : grid1.Coords) :=
  cc1__gather_body (F := F) L iV (Memref.isWhole_whole _) pV (Memref.isWhole_whole _) oV (Memref.isWhole_whole _)
    s0V (Memref.isWhole_whole _) s1V (Memref.isWhole_whole _) s2V (Memref.isWhole_whole _) s3V (Memref.isWhole_whole _)
    cc1_scratch4 cc1_scoped0 cc1_scoped1 cc1_scoped2 cc1_scoped3 cc1_scoped4

end Cert.KernelIdeal.Lk

end
-- ==== Proof.LaunchIA.lean ====
/-
  The launch of the gather program: what the call hands each SparseCore and each vector subcore (the class ids and
  the packed table as read shares, the subcore's own 512 result rows), the obligations of the launch theorem, @main on
  the TensorCore (the transpose, the pack region, the call), and the program's run with the result named.
-/
import proofs.«204365_g77171972375186_cont_9to1c4b_67_15_alg».proof.Proof.CommonI

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_split pointsTo_toks_join)

variable {F : FTy → Type}

local notation "𝕄" => MT nD τ sig (HIx 1) (Elt F) ℕ UU ℕ

/-! ## The 32 blocks of 512 result rows: worker 2 s + c owns block 2 s + c -/

theorem odiv : 32 ∣ S16384x32.size 0 := ⟨512, rfl⟩
/-- Block `w` of the result: rows [512 w, 512 w + 512). -/
abbrev orow (w : Fin 32) : Rect S16384x32 := Rect.part (s := S16384x32) (a₀ := 0) odiv w
/-- The worker number of vector subcore `i` of SparseCore `c`. -/
def wid (c : Fin 2) (i : Fin 16) : Fin 32 := ⟨2 * i.val + c.val, by omega⟩
/-- The grid coordinates of that subcore. -/
def coordsV (c : Fin (grid1.bound 0)) (s : Fin (grid1.bound 1)) : grid1.Coords :=
  fun | 0 => c | 1 => s | ⟨_ + 2, h⟩ => absurd h (Nat.not_lt.2 (Nat.le_add_left _ _))

theorem orowK_eq (c : Fin 2) (i : Fin 16) : orowK (coordsV c i) = orow (wid c i) := by
  unfold orowK orow Rect.part Rect.block
  congr 1 <;> funext a
  · rw [k1_off262_eq]
    match a with
    | 0 => simp [Shape.partIx, Shape.partSize, wid, coordsV]; omega
    | 1 => simp [Shape.partIx, Shape.partSize]
  · match a with
    | 0 => simp [Shape.partSize]
    | 1 => simp [Shape.partSize]

theorem oRowSet_eq (c : Fin 2) (i : Fin 16) : oRowSet (coordsV c i) = (orow (wid c i)).set := by
  show ((View.whole (main_v2_scv : Ref sig .scVector)).slice (orowK (coordsV c i))).set = _
  rw [View.set_slice, orowK_eq]; exact Finset.map_refl

/-- The worker numbers are the pairs (SparseCore, subcore), one to one. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    refine Prod.ext (Fin.ext ?_) (Fin.ext ?_)
    · show (2 * i.val + c.val) % 2 = c.val; have := c.isLt; omega
    · show (2 * i.val + c.val) / 2 = i.val; have := c.isLt; omega
  right_inv w := Fin.ext (by show 2 * (w.val / 2) + w.val % 2 = w.val; omega)

/-! ## What the launch memory holds, and what the call makes of it -/

variable (m : (ℓ : Loc nD τ sig) → Buf (Elt F) ℓ) (ρ : Dev nD → PrngReg)

/-- The packed table as a function of the launch table, and the result the gather leaves: the packed array read at
    the row and lanes each class id names. -/
def pkOf (d : Dev nD) : Buf (Elt F) (pkLoc d) := Cert.Lookup.packed (α := Elt F .f32) (m (tabLoc d))
def outOf (d : Dev nD) : Buf (Elt F) (outLoc d) := Cert.Lookup.unpacked (α := Elt F .f32) (m (idsLoc d)) (pkOf m d)

/-- What the proof asks of the launch memory: every class id names a row of the table. -/
def PreOK : Prop := ∀ d : Dev nD, Cert.Lookup.InRange (m (idsLoc d))

/-- The read share of SparseCore `c`, and of its vector subcore `i`. -/
abbrev qC (c : Fin 2) : PosShare TreeShare := shareTok fullShare 2 c
abbrev qT (c : Fin 2) (i : Fin 16) : PosShare TreeShare := shareTok (qC c) 16 i

abbrev idsSh (d : Dev nD) (q : PosShare TreeShare) : sProp 𝕄 := idsLoc d ↦{q} m (idsLoc d)
abbrev pkSh (d : Dev nD) (q : PosShare TreeShare) : sProp 𝕄 := pkLoc d ↦{q} pkOf m d
abbrev oRowPts (d : Dev nD) (c : Fin 2) (i : Fin 16) (f : Buf (Elt F) (outLoc d)) : sProp 𝕄 :=
  outLoc d ↦[oRowSet (coordsV c i)]{fullShare} f

/-- The one call takes, per SparseCore, a read share of the class ids and of the packed table and that SparseCore's
    sixteen result blocks; each vector subcore a share of each and its own block; they come back with the blocks at
    the looked-up rows. -/
def P : (K (F := F)).Pay (nD := nD) (Val := Elt F) (Name := ℕ) (U := UU) where
  st := fun q d c => match q with
    | 0 => iprop(idsSh m d (qC (Fin.cast nCore_zero c)) ∗ pkSh m d (qC (Fin.cast nCore_zero c))
        ∗ bigSep Finset.univ fun i : Fin 16 => oRowPts d (Fin.cast nCore_zero c) i (m (outLoc d)))
  dn := fun q d c => match q with
    | 0 => iprop(idsSh m d (qC (Fin.cast nCore_zero c)) ∗ pkSh m d (qC (Fin.cast nCore_zero c))
        ∗ bigSep Finset.univ fun i : Fin 16 => oRowPts d (Fin.cast nCore_zero c) i (outOf m d))
  go := fun q d c i => match q with
    | 0 => iprop(idsSh m d (qT (Fin.cast nCore_zero c) (Fin.cast nSub_zero i)) ∗ pkSh m d (qT (Fin.cast nCore_zero c) (Fin.cast nSub_zero i))
        ∗ oRowPts d (Fin.cast nCore_zero c) (Fin.cast nSub_zero i) (m (outLoc d)))
  td := fun q d c i => match q with
    | 0 => iprop(idsSh m d (qT (Fin.cast nCore_zero c) (Fin.cast nSub_zero i)) ∗ pkSh m d (qT (Fin.cast nCore_zero c) (Fin.cast nSub_zero i))
        ∗ oRowPts d (Fin.cast nCore_zero c) (Fin.cast nSub_zero i) (outOf m d))
  x := fun _ _ => iprop(emp)

instance P_storable : (P (F := F) m).IsStorable where
  st q d c := match q with
    | 0 => (inferInstance : BI.Storable (upEmb : UEmb _ 𝕄) iprop(idsSh m d (qC (Fin.cast nCore_zero c)) ∗ pkSh m d (qC (Fin.cast nCore_zero c))
        ∗ bigSep Finset.univ fun i : Fin 16 => oRowPts d (Fin.cast nCore_zero c) i (m (outLoc d))))
  dn q d c := match q with
    | 0 => (inferInstance : BI.Storable (upEmb : UEmb _ 𝕄) iprop(idsSh m d (qC (Fin.cast nCore_zero c)) ∗ pkSh m d (qC (Fin.cast nCore_zero c))
        ∗ bigSep Finset.univ fun i : Fin 16 => oRowPts d (Fin.cast nCore_zero c) i (outOf m d)))
  go q d c i := match q with
    | 0 => (inferInstance : BI.Storable (upEmb : UEmb _ 𝕄)
        iprop(idsSh m d (qT (Fin.cast nCore_zero c) (Fin.cast nSub_zero i)) ∗ pkSh m d (qT (Fin.cast nCore_zero c) (Fin.cast nSub_zero i))
          ∗ oRowPts d (Fin.cast nCore_zero c) (Fin.cast nSub_zero i) (m (outLoc d))))
  td q d c i := match q with
    | 0 => (inferInstance : BI.Storable (upEmb : UEmb _ 𝕄)
        iprop(idsSh m d (qT (Fin.cast nCore_zero c) (Fin.cast nSub_zero i)) ∗ pkSh m d (qT (Fin.cast nCore_zero c) (Fin.cast nSub_zero i))
          ∗ oRowPts d (Fin.cast nCore_zero c) (Fin.cast nSub_zero i) (outOf m d)))

/-! ## The task of one vector subcore -/

/-- One vector subcore's task, proved apart: from read shares of the class ids and of the packed array (at ANY
    contents) and the subcore's own result block, its scoped storage and what it owes, the kernel's body runs to
    the end and leaves in the block the packed array read at the row and lanes each class id names. -/
def TileBodySpec [FloatOps F] : Prop :=
  ∀ (hF : (K (F := F)).Facts) (d : Dev nD) (L : grid1.Coords)
    (ids : Buf (Elt F) (idsLoc d)) (pk : Buf (Elt F) (pkLoc d)) (out0 : Buf (Elt F) (outLoc d))
    (qi qp : PosShare TreeShare) (hr : Cert.Lookup.InRange ids)
    (O : CellTallies nD τ sig (HIx 1)) (W : Waits sig (HIx 1)) (hO : ∀ g, O g none = 0),
    iprop(levAts (K (F := F)).L (K (F := F)).lev ∗ emp
        ∗ ((idsLoc d ↦{qi} ids) ∗ (pkLoc d ↦{qp} pk) ∗ (outLoc d ↦[oRowSet L]{fullShare} out0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (tileProg (F := F) L)
          fun _ => iprop(((idsLoc d ↦{qi} ids) ∗ (pkLoc d ↦{qp} pk) ∗ (outLoc d ↦[oRowSet L]{fullShare} Cert.Lookup.unpacked (α := Elt F .f32) ids pk))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

variable [FloatOps F]

theorem defs₀_vector (c : Fin τ.nSC) (s : Fin τ.nSub) :
    defs₀ (F := F) (.scVector c s) 1 ()
      = SparseCore.onTile hcore1 hsub1 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (htb : TileBodySpec (F := F)) (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (htb hF d (coordsV ⟨_, hci.1⟩ ⟨_, hci.2⟩) (m (idsLoc d)) (pkOf m d) (m (outLoc d)) _ _ (hpre d) O W hO).trans
    (wp_mono frame _ _ fun _ => obl_post)

/-! ## A SparseCore's shares and blocks split among its sixteen subcores, and come back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(idsSh m d (qC (Fin.cast nCore_zero c)) ∗ pkSh m d (qC (Fin.cast nCore_zero c))
        ∗ bigSep Finset.univ fun i : Fin 16 => oRowPts d (Fin.cast nCore_zero c) i (m (outLoc d))) ⊢ |={Set.univ}=> iprop(
      (bigSep Finset.univ fun i : Fin ((K (F := F)).nSub 0) =>
        iprop(idsSh m d (qT (Fin.cast nCore_zero c) (Fin.cast nSub_zero i)) ∗ pkSh m d (qT (Fin.cast nCore_zero c) (Fin.cast nSub_zero i))
          ∗ oRowPts d (Fin.cast nCore_zero c) (Fin.cast nSub_zero i) (m (outLoc d))))
      ∗ ((bigSep Finset.univ fun i : Fin ((K (F := F)).nSub 0) =>
          iprop(idsSh m d (qT (Fin.cast nCore_zero c) (Fin.cast nSub_zero i)) ∗ pkSh m d (qT (Fin.cast nCore_zero c) (Fin.cast nSub_zero i))
            ∗ oRowPts d (Fin.cast nCore_zero c) (Fin.cast nSub_zero i) (outOf m d)))
          -∗ iprop(idsSh m d (qC (Fin.cast nCore_zero c)) ∗ pkSh m d (qC (Fin.cast nCore_zero c))
            ∗ bigSep Finset.univ fun i : Fin 16 => oRowPts d (Fin.cast nCore_zero c) i (outOf m d))))
  rw [bigSep_tasks (F := F) (fun i => iprop(idsSh m d (qT (Fin.cast nCore_zero c) i) ∗ pkSh m d (qT (Fin.cast nCore_zero c) i)
        ∗ oRowPts d (Fin.cast nCore_zero c) i (m (outLoc d)))),
    bigSep_tasks (F := F) (fun i => iprop(idsSh m d (qT (Fin.cast nCore_zero c) i) ∗ pkSh m d (qT (Fin.cast nCore_zero c) i)
        ∗ oRowPts d (Fin.cast nCore_zero c) i (outOf m d))), bigSep_sep', bigSep_sep', bigSep_sep', bigSep_sep']
  iintro ⟨Hi, Hp, Ho⟩
  ihave Hi2 := (pointsTo_toks_split (qC (Fin.cast nCore_zero c)) 16) $$ Hi
  icases Hi2 with ⟨Hid, Hit⟩
  ihave Hp2 := (pointsTo_toks_split (qC (Fin.cast nCore_zero c)) 16) $$ Hp
  icases Hp2 with ⟨Hpd, Hpt⟩
  imodintro
  isplitl [Hit Hpt Ho]
  · isplitl [Hit]; · iexact Hit
    isplitl [Hpt]; · iexact Hpt
    iexact Ho
  iintro ⟨Hit, Hpt, Ho⟩
  isplitl [Hid Hit]
  · iapply (pointsTo_toks_join (qC (Fin.cast nCore_zero c)) 16); isplitl [Hid] <;> iassumption
  isplitl [Hpd Hpt]
  · iapply (pointsTo_toks_join (qC (Fin.cast nCore_zero c)) 16); isplitl [Hpd] <;> iassumption
  iexact Ho

end Cert.KernelIdeal.Lk

end
-- ==== Proof.PackIData.lean ====
/-
  The pack region's proof data. The region re-lays the transposed table X : [32, 1000000] as the packed table
  [250000, 128]: entry (R, 32 q + e) of the result is entry (e, 4 R + q) of X. It does so block by block: point k of
  the grid reads columns [16384 k, 16384 k + 16384) of X, cut at column 1000000, and writes rows
  [4096 k, 4096 k + 4096) of the result, cut at row 250000. Inside one block the same re-laying happens at block
  extents: entry (r, 32 q + e) of the output block is entry (e, 4 r + q) of the input block. Since
  4 (4096 k + r) + q < 1000000 exactly when 4096 k + r < 250000, the rows of the last output block that lie inside
  the result read only columns of the last input block that lie inside X.
-/
import proofs.«204365_g77171972375186_cont_9to1c4b_67_15_alg».proof.Proof.CommonI
import proofs.«204365_g77171972375186_cont_9to1c4b_67_15_alg».proof.Proof.Gen.KernelIdeal.Skeleton
import Idealize.ShloMosaic.Lib.ValueIdx

noncomputable section

namespace Cert.KernelIdeal.Lk

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-- The admissible contents of the prefetched tables: the pipeline has no table. -/
abbrev aAdm : (p : Fin 1) → (pcfgs (F := F) p).Adm := fun p => (cfgs p).toPCfg_adm

/-! ## The re-laying, at the arrays' extents and at a block's -/

/-- The packed table of a transposed table: entry (R, l) is entry (l % 32, 4 R + l / 32). -/
def repack {α : Type} (X : S32x1000000.Idx → α) : S250000x128.Idx → α :=
  fun j => X (ix2 ⟨(j 1).val % 32, Nat.mod_lt _ (by decide)⟩
    ⟨4 * (j 0).val + (j 1).val / 32, by have h0 := idx2_lt0 j; have h1 := idx2_lt1 j; omega⟩)

/-- The same inside one block: entry (r, l) of the output block is entry (l % 32, 4 r + l / 32) of the input block. -/
def pack4 {α : Type} (B : S32x16384.Idx → α) : S4096x128.Idx → α :=
  fun j => B (ix2 ⟨(j 1).val % 32, Nat.mod_lt _ (by decide)⟩
    ⟨4 * (j 0).val + (j 1).val / 32, by have h0 := idx2_lt0 j; have h1 := idx2_lt1 j; omega⟩)

/-! ## The proof data -/

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-- The input block at point `t` as its staging buffer holds it after the body: the columns of `X` the fetch reads,
    and past the array's end the zero word (nothing reads it: both windows are stated on the moved part only). -/
def inBlk (c : Dev nD) (t : Fin cfg0.N) : S32x16384.Idx → Elt F .f32 :=
  win0_0.fill (grid0.coords t) (fun _ => Scalar.ofBits .f32 0#32) ((win0_0.blk t).view.read (Elt F) (X c))

/-- The proof data of the pack pipeline on device `c`'s TensorCore: the transposed table at `X c` and the result at
    `Y₀ c` at entry; after the body at a point the input staging buffer holds the input block and the output staging
    buffer its re-laying; no invariant; full shares; the core owes `O₀ c` throughout, and the pairs its waits
    recorded before the region are `W₀ c`. -/
def packDat (c : Dev nD) : Dat τ (Elt F) (HIx 1) ℕ UU ℕ cfg0 c where
  A w := match w with
    | ⟨0, _⟩ => X c
    | ⟨1, _⟩ => Y₀ c
  after w t := match w with
    | ⟨0, _⟩ => inBlk X c t
    | ⟨1, _⟩ => pack4 (inBlk X c t)
  Φ _ := iprop(emp)
  q _ := fullShare
  owed _ := O₀ c
  recorded _ := ↑(W₀ c)

/-- The proof data of every pipeline of the program (there is one). -/
def packDats : (p : Fin 1) → (c : Dev nD) → Dat τ (Elt F) (HIx 1) ℕ UU ℕ (Pipeline.pin (pcfgs (F := F)) aAdm p) c :=
  fun _ c => packDat O₀ W₀ X Y₀ c

end Cert.KernelIdeal.Lk

end
-- ==== Proof.LaunchIB.lean ====
/-
  The launch of the gather program, second part: the launch element of the ghost state (the handshakes' rounds and
  the pack pipeline's cells), @main on the TensorCore — the transpose, the pack region, the call —, what the final
  memory says, and the program's run with the result named.
-/
import proofs.«204365_g77171972375186_cont_9to1c4b_67_15_alg».proof.Proof.LaunchIA
import proofs.«204365_g77171972375186_cont_9to1c4b_67_15_alg».proof.Proof.PackIData

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds, and the pack pipeline's cells and duty tokens on each device -/

abbrev pcs0 : Fin 1 → Pipeline.Cfg sig Λ₀ := Pipeline.pin (pcfgs (F := F)) aAdm
omit [FloatOps F] in
theorem hinj0 : Function.Injective (Pipeline.cellOf (nD := nD) (τ := τ) (pcs0 (F := F))) := Gen.cellOf_inj

/-- What the pack region is entered with on device `d`: its staging cells' launch state and its duty tokens. -/
def Gd (d : Dev nD) : sProp 𝕄 :=
  iprop(Pipeline.cellsGhost (pcs0 (F := F)) EP 0 d ∗ Pipeline.toksInit (pcs0 (F := F)) EP 0 d)

def u₀ : UU := (initOf (K (F := F)).hsCells (K (F := F)).hsToks,
  (initOf (Pipeline.cells (pcs0 (F := F)) hinj0) (Pipeline.launchToks (pcs0 (F := F)) hinj0), 1))

omit [FloatOps F] in
theorem bigSep_emp' {I : Type} (s : Finset I) : (bigSep s fun _ => iprop(emp)) = (iprop(emp) : sProp 𝕄) := bigSep_emp_const s

theorem Gd_intro :
    iprop((bigSep Finset.univ fun c : Dev nD => bigSep Finset.univ fun p : Fin 1 =>
          (Pipeline.cellsGhost (pcs0 (F := F)) ((Emb.inl : Emb UP (UP × Counters)).trans embR) p c : sProp 𝕄))
        ∗ (bigSep Finset.univ fun c : Dev nD => bigSep Finset.univ fun p : Fin 1 =>
          (Pipeline.toksInit (pcs0 (F := F)) ((Emb.inl : Emb UP (UP × Counters)).trans embR) p c : sProp 𝕄)))
      ⊢ (bigSep Finset.univ fun d : Dev nD => Gd (F := F) d) := by
  unfold Gd EP
  rw [bigSep_sep',
    show (bigSep Finset.univ fun c : Dev nD => bigSep Finset.univ fun p : Fin 1 => (Pipeline.cellsGhost (pcs0 (F := F)) ((Emb.inl : Emb UP (UP × Counters)).trans embR) p c : sProp 𝕄))
      = bigSep Finset.univ fun c : Dev nD => Pipeline.cellsGhost (pcs0 (F := F)) ((Emb.inl : Emb UP (UP × Counters)).trans embR) 0 c
      from bigSep_congr fun _ _ => bigSep_univ_of_subsingleton (0 : Fin 1),
    show (bigSep Finset.univ fun c : Dev nD => bigSep Finset.univ fun p : Fin 1 => (Pipeline.toksInit (pcs0 (F := F)) ((Emb.inl : Emb UP (UP × Counters)).trans embR) p c : sProp 𝕄))
      = bigSep Finset.univ fun c : Dev nD => Pipeline.toksInit (pcs0 (F := F)) ((Emb.inl : Emb UP (UP × Counters)).trans embR) 0 c
      from bigSep_congr fun _ _ => bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) (MT nD τ sig (HIx 1) (Elt F) ℕ UU ℕ))
    (initOf (Pipeline.cells (pcs0 (F := F)) hinj0) (Pipeline.launchToks (pcs0 (F := F)) hinj0)) (1 : Counters)) $$ HR
  icases H2 with ⟨HP, -⟩
  imod (Pipeline.fund_ghost (pcs0 (F := F)) ((Emb.inl : Emb UP (UP × Counters)).trans embR) hinj0) $$ HP with ⟨Hc, Ht⟩
  imodintro
  isplitl [HH]; · iexact HH
  isplitl [Hc Ht]
  · iapply (Gd_intro (F := F)); isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

open Idealize.ShloMosaic.StableHlo (held held_split held_sdiff_result wp_hlo_within)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The host's one operation: the table with its axes exchanged. -/
abbrev opT : HloOp τ sig (Elt F) := StableHlo.unary main_arg1 main_v0
  ((transpose S32x1000000 [1, 0] · transposes_S1000000x32_S32x1000000_1_0) : (⟨S1000000x32, .f32⟩ : BufTy).Contents (Elt F) → (⟨S32x1000000, .f32⟩ : BufTy).Contents (Elt F))

/-- The TensorCore's five arrays, all unscoped. -/
abbrev S5 : Finset (DevRef τ sig) := {a0', a1', v0', v1', v2'}

omit [FloatOps F] in
theorem held_S5 (d : Dev nD) (W : Valuation τ sig (Elt F)) :
    (held (T d) S5 W : sProp 𝕄)
      = iprop((idsLoc d ↦{fullShare} W a0') ∗ (tabLoc d ↦{fullShare} W a1') ∗ (tabTLoc d ↦{fullShare} W v0')
          ∗ (pkLoc d ↦{fullShare} W v1') ∗ outLoc d ↦{fullShare} W v2') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((idsLoc d ↦{fullShare} W main_arg0) ∗ (tabLoc d ↦{fullShare} W main_arg1) ∗ (tabTLoc d ↦{fullShare} W main_v0)
          ∗ (pkLoc d ↦{fullShare} W main_v1) ∗ outLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S5 (V0 m d) := by
  rw [unscopedBufs_eq, held_S5]; rfl

/-- The transposed table, as the host computes it from the launch table. -/
def tabTOf (d : Dev nD) : Buf (Elt F) (tabTLoc d) :=
  transpose (α := Elt F .f32) (s := S1000000x32) S32x1000000 [1, 0] (m (tabLoc d)) transposes_S1000000x32_S32x1000000_1_0

theorem hT : (opT (F := F)).bufs ⊆ S5 := show ({a1', v0'} : Finset (DevRef τ sig)) ⊆ S5 by decide

theorem held_V1 (d : Dev nD) :
    (held (T d) S5 ((opT (F := F)).result (V0 m d)) : sProp 𝕄)
      = iprop((idsLoc d ↦{fullShare} m (idsLoc d)) ∗ (tabLoc d ↦{fullShare} m (tabLoc d)) ∗ (tabTLoc d ↦{fullShare} tabTOf m d)
          ∗ (pkLoc d ↦{fullShare} m (pkLoc d)) ∗ outLoc d ↦{fullShare} m (outLoc d)) := by
  rw [held_S5]
  rw [StableHlo.unary_result_ne (r := main_arg0) _ _ _ _ _ _ (show (main_arg0 : Ref sig .tc) ≠ main_v0 by decide), StableHlo.unary_result_ne (r := main_arg1) _ _ _ _ _ _ (show (main_arg1 : Ref sig .tc) ≠ main_v0 by decide),
    StableHlo.unary_result_ne (r := main_v1) _ _ _ _ _ _ (show (main_v1 : Ref sig .tc) ≠ main_v0 by decide), StableHlo.unary_result_ne (r := main_v2) _ _ _ _ _ _ (show (main_v2 : Ref sig .tc) ≠ main_v0 by decide),
    show (opT (F := F)).result (V0 m d) v0' = tabTOf m d from StableHlo.unary_result _ _ _ _ _ _]
  rfl

/-- The pack region, proved apart, as one rule for its call on the TensorCore: from the region boundary, the level
    facts, the pipeline's launch state, the transposed table at `X`, the packed array at anything and what the
    TensorCore owes, the call runs and the continuation finds the packed array at `rp d X`, the rest unchanged. -/
def RegionSpec (rp : (d : Dev nD) → Buf (Elt F) (tabTLoc d) → Buf (Elt F) (pkLoc d)) : Prop :=
  ∀ (d : Dev nD) (X : Buf (Elt F) (tabTLoc d)) (k : PUnit → Prog (TpuEff nD τ sig (Elt F) (ΛP (F := F)) .tc) PUnit) (Q : PUnit → sProp 𝕄),
    iprop((iprop(boundary (T d) ∗ (tabTLoc d ↦{fullShare} X) ∗ (pkLoc d ↦{fullShare} rp d X)
            ∗ ∃ W, ⌜(K (F := F)).WBelow (T d) W 0⌝ ∗ owes (T d) ((K (F := F)).Otc d 0) W)
          -∗ wp frame (wpE (D (F := F)) 𝒱 (T d) none) Set.univ (k ⟨⟩) Q)
        ∗ boundary (T d) ∗ levAts (K (F := F)).L (K (F := F)).lev ∗ Gd (F := F) d
        ∗ (tabTLoc d ↦{fullShare} X) ∗ (∃ Y, pkLoc d ↦{fullShare} Y)
        ∗ ∃ W, ⌜(K (F := F)).WBelow (T d) W 0⌝ ∗ owes (T d) ((K (F := F)).Otc d 0) W)
      ⊢ wp frame (wpE (D (F := F)) 𝒱 (T d) none) Set.univ (.op (.customCall (Pipeline.entry 0) ()) k) Q

set_option maxHeartbeats 1000000 in
/-- The region's rule in the program's own body table: the call as @main spells it, under the SparseCore launch's
    extension of the kernels' table. -/
theorem region_lifted (rp : (d : Dev nD) → Buf (Elt F) (tabTLoc d) → Buf (Elt F) (pkLoc d)) (hreg : RegionSpec (F := F) rp)
    (d : Dev nD) (X : Buf (Elt F) (tabTLoc d)) (Q : PUnit → sProp 𝕄) :
    iprop((iprop(boundary (T d) ∗ (tabTLoc d ↦{fullShare} X) ∗ (pkLoc d ↦{fullShare} rp d X)
            ∗ ∃ W, ⌜(K (F := F)).WBelow (T d) W 0⌝ ∗ owes (T d) ((K (F := F)).Otc d 0) W)
          -∗ wp frame (wpE (D (F := F)) 𝒱 (T d) none) Set.univ (.ret ⟨⟩) Q)
        ∗ boundary (T d) ∗ levAts (K (F := F)).L (K (F := F)).lev ∗ Gd (F := F) d
        ∗ (tabTLoc d ↦{fullShare} X) ∗ (∃ Y, pkLoc d ↦{fullShare} Y)
        ∗ ∃ W, ⌜(K (F := F)).WBelow (T d) W 0⌝ ∗ owes (T d) ((K (F := F)).Otc d 0) W)
      ⊢ wp frame (wpE ((K (F := F)).defs (D (F := F))) 𝒱 (SparseCore.T d) none) Set.univ
          (Prog.lift (.customCall (SparseCore.inner (Pipeline.entry 0)) ())) Q := by
    have h := (K (F := F)).wp_liftProg (D (F := F)) 𝒱 (SparseCore.T d) Set.univ none (.op (.customCall (Pipeline.entry 0) ()) fun _ => .ret ⟨⟩) Q
    rw [SparseCore.liftProg_op] at h
    exact (hreg d X (fun _ => .ret ⟨⟩) Q).trans h

/-! ## The result's 32 blocks; the call's operands for the two SparseCores -/

omit [FloatOps F] in
theorem oblocks_disjoint : ∀ w ∈ (Finset.univ : Finset (Fin 32)), ∀ w' ∈ (Finset.univ : Finset (Fin 32)), w ≠ w' →
    Disjoint (orow w).set (orow w').set :=
  fun _ _ _ _ h => Rect.part_disjoint odiv h
omit [FloatOps F] in
theorem oblocks_cover : (Finset.univ : Finset (Fin 32)).biUnion (fun w => (orow w).set) = Finset.univ :=
  Rect.biUnion_part odiv

omit [FloatOps F] in
/-- The result held whole is its 32 blocks, grouped by SparseCore and subcore. -/
theorem oPts_blocks (d : Dev nD) (f : Buf (Elt F) (outLoc d)) :
    (outLoc d ↦{fullShare} f : sProp 𝕄) = bigSep Finset.univ fun c : Fin 2 => bigSep Finset.univ fun i : Fin 16 => oRowPts d c i f := by
  rw [← bigSep_univ_prod (fun p : Fin 2 × Fin 16 => (oRowPts d p.1 p.2 f : sProp 𝕄))]
  rw [show (fun p : Fin 2 × Fin 16 => (oRowPts d p.1 p.2 f : sProp 𝕄)) = fun p => (outLoc d ↦[(orow (widEquiv p)).set]{fullShare} f : sProp 𝕄) from
    funext fun p => by
      show (outLoc d ↦[oRowSet (coordsV p.1 p.2)]{fullShare} f : sProp 𝕄) = _
      rw [oRowSet_eq]; rfl]
  rw [← bigSep_univ_equiv widEquiv (fun w => (outLoc d ↦[(orow w).set]{fullShare} f : sProp 𝕄)),
    ← pointsTo_biUnion Finset.univ (ℓ := outLoc d) (fun w => (orow w).set) oblocks_disjoint, oblocks_cover]; try rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((bigSep Finset.univ fun c : Fin 2 => idsSh m d (qC c)) ∗ (bigSep Finset.univ fun c : Fin 2 => pkSh m d (qC c))
        ∗ bigSep Finset.univ fun c : Fin 2 => bigSep Finset.univ fun i : Fin 16 => oRowPts d c i (m (outLoc d))) := by
  show (bigSep Finset.univ fun c : Fin ((K (F := F)).nCore 0) => iprop(idsSh m d (qC (Fin.cast nCore_zero c)) ∗ pkSh m d (qC (Fin.cast nCore_zero c))
        ∗ bigSep Finset.univ fun i : Fin 16 => oRowPts d (Fin.cast nCore_zero c) i (m (outLoc d)))) = _
  rw [bigSep_cores (F := F) (fun c => iprop(idsSh m d (qC c) ∗ pkSh m d (qC c) ∗ bigSep Finset.univ fun i : Fin 16 => oRowPts d c i (m (outLoc d)))),
    bigSep_sep', bigSep_sep']
theorem dn0_eq (d : Dev nD) : (bigSep Finset.univ fun c : Fin ((K (F := F)).nCore 0) => (P m).dn 0 d c)
    = iprop((bigSep Finset.univ fun c : Fin 2 => idsSh m d (qC c)) ∗ (bigSep Finset.univ fun c : Fin 2 => pkSh m d (qC c))
        ∗ bigSep Finset.univ fun c : Fin 2 => bigSep Finset.univ fun i : Fin 16 => oRowPts d c i (outOf m d)) := by
  show (bigSep Finset.univ fun c : Fin ((K (F := F)).nCore 0) => iprop(idsSh m d (qC (Fin.cast nCore_zero c)) ∗ pkSh m d (qC (Fin.cast nCore_zero c))
        ∗ bigSep Finset.univ fun i : Fin 16 => oRowPts d (Fin.cast nCore_zero c) i (outOf m d))) = _
  rw [bigSep_cores (F := F) (fun c => iprop(idsSh m d (qC c) ∗ pkSh m d (qC c) ∗ bigSep Finset.univ fun i : Fin 16 => oRowPts d c i (outOf m d))),
    bigSep_sep', bigSep_sep']

/-- The TensorCore's handshake state before the call: what it owes, and the rest. -/
theorem tcSt_owes (d : Dev nD) : ∃ R : sProp 𝕄, ((K (F := F)).tcSt EH d 0 : sProp 𝕄)
    = iprop((∃ W, ⌜(K (F := F)).WBelow (T d) W 0⌝ ∗ owes (T d) ((K (F := F)).Otc d 0) W) ∗ R) := ⟨_, rfl⟩

/-- What @main leaves the claim: the class ids and the table as launched, the result at the looked-up lanes. -/
abbrev FIN (d : Dev nD) : sProp 𝕄 :=
  iprop((idsLoc d ↦{fullShare} m (idsLoc d)) ∗ (tabLoc d ↦{fullShare} m (tabLoc d)) ∗ outLoc d ↦{fullShare} outOf m d)

set_option maxHeartbeats 1000000 in
/-- @main on device `d`'s TensorCore: the transpose (a host operation over the five arrays held whole), the pack
    region (entered in the kernels' own body table and lifted), the call (read shares of the class ids and of the
    packed array and the result's blocks to the two SparseCores, and back). -/
theorem hmain (rp : (d : Dev nD) → Buf (Elt F) (tabTLoc d) → Buf (Elt F) (pkLoc d)) (hreg : RegionSpec (F := F) rp)
    (hrp : ∀ d, rp d (tabTOf m d) = pkOf m d) (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_owes (F := F) d
  unfold SparseCore.Cfg.tcRes
  rw [unscoped_held]
  simp only [main, wp_bind, wp_pure]
  iintro ⟨#Hctx, Hst, ⟨Hb, Hheld, -, -⟩, HG⟩
  ihave Hst2 := (Entails.of_eq hR) $$ Hst
  icases Hst2 with ⟨Howes, HR⟩
  ihave Hlev := (SparseCore.Cfg.ctx_levAts (K := K (F := F)) (EH := EH) (P := P m) κ) $$ Hctx
  -- the transpose
  iapply (wp_hlo_within 𝒱 (SparseCore.T d) none Set.univ (op := opT) (S := S5) hT (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Ht, Htt, Hpk, Ho⟩
  -- the pack region, in the kernels' own body table, lifted
  iapply (region_lifted rp hreg d (tabTOf m d) _) $$ [Hb Hlev HG Htt Hpk Howes Hi Ht Ho HR]
  isplitr [Hb Hlev HG Htt Hpk Howes]
  swap
  · isplitl [Hb]; · iexact Hb
    isplitl [Hlev]; · iexact Hlev
    isplitl [HG]; · iexact HG
    isplitl [Htt]; · iexact Htt
    isplitl [Hpk]; · iexists _; iexact Hpk
    iexact Howes
  rw [hrp d]
  iintro ⟨Hb, Htt, Hpk, Howes⟩
  rw [wp_ret]; imodintro
  -- the call
  ihave Hst := (Entails.of_eq hR.symm) $$ [Howes HR]
  · isplitl [Howes] <;> iassumption
  ihave Hi2 := (pointsTo_toks_split fullShare 2) $$ Hi
  icases Hi2 with ⟨Hid, Hit⟩
  ihave Hp2 := (pointsTo_toks_split fullShare 2) $$ Hpk
  icases Hp2 with ⟨Hpd, Hpt⟩
  ihave Ho2 := (Entails.of_eq (oPts_blocks (F := F) d (m (outLoc d)))) $$ Ho
  iapply ((K (F := F)).wp_run (D (F := F)) 𝒱 (EH := EH) (P := P m) κ d 0) $$ [Hst Hit Hpt Ho2 Hid Ht]
  isplitr; · iexact Hctx
  isplitl [Hst]; · iexact Hst
  isplitl [Hit Hpt Ho2]
  · rw [st0_eq]
    isplitl [Hit]; · iexact Hit
    isplitl [Hpt]; · iexact Hpt
    iexact Ho2
  iintro ⟨Hst, Hdn⟩
  ihave Hdn' := (Entails.of_eq (dn0_eq m d)) $$ Hdn
  icases Hdn' with ⟨Hit, -, Ho2⟩
  imodintro
  isplitl [Hst]; · iexact Hst
  isplitl [Hid Hit]
  · iapply (pointsTo_toks_join fullShare 2); isplitl [Hid] <;> iassumption
  isplitl [Ht]; · iexact Ht
  iapply (Entails.of_eq (oPts_blocks (F := F) d (outOf m d)).symm); iexact Ho2

def fq (d : Dev nD) (s' : Phys nD τ sig (Elt F)) : Prop :=
  s'.mem.mem (idsLoc d) = m (idsLoc d) ∧ s'.mem.mem (tabLoc d) = m (tabLoc d) ∧ s'.mem.mem (outLoc d) = outOf m d

set_option maxRecDepth 16384 in
theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h2, HSI, -⟩
  ihave H := (SI_pointsTo_agree (st := s') (ℓ := outLoc d) (I := Finset.univ) (q := fullShare) (f := outOf m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result at the packed array read where each class id names, the arguments unchanged. -/
def QC : PUnit × MemSt nD τ sig (Elt F) → Prop := fun r => ∀ c : Dev nD,
  r.2.mem (outLoc c) = outOf m c ∧ r.2.mem (idsLoc c) = m (idsLoc c) ∧ r.2.mem (tabLoc c) = m (tabLoc c)

theorem run_main [∀ e, Nonempty (Elt F e)] (htb : TileBodySpec (F := F))
    (rp : (d : Dev nD) → Buf (Elt F) (tabTLoc d) → Buf (Elt F) (pkLoc d)) (hreg : RegionSpec (F := F) rp)
    (hrp : ∀ d, rp d (tabTOf m d) = pkOf m d) (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htb facts hpre)
    (fun q _ => match q with | 0 => SparseCore.Cfg.VecSplit.of_plain (vecSplit m))
    m ρ main (fun d => Gd (F := F) d) (FIN m) (u₀ (F := F)) (sep_elim_left.trans (hu₀ m)) (hmain m ρ rp hreg hrp) (fq m) (hfin m) (QC m)
    (fun _ h c => ⟨(h c).2.2, (h c).1, (h c).2.1⟩)

end Cert.KernelIdeal.Lk

end
-- ==== Proof.CommonB.lean ====
/-
  The gather program as the launch theorem sees it: the SparseCore configuration and the body table under it, the
  resource algebra (the launch handshakes' rounds, the pack pipeline's rounds, the copies' counters), the five
  arrays of @main, and the block of 512 result rows that belongs to one vector subcore.
-/
import proofs.«204365_g77171972375186_cont_9to1c4b_67_15_alg».proof.Kernel
import proofs.«204365_g77171972375186_cont_9to1c4b_67_15_alg».proof.Proof.Gen.Kernel
import proofs.«204365_g77171972375186_cont_9to1c4b_67_15_alg».proof.Proof.Gen.Kernel.Launch
import proofs.«204365_g77171972375186_cont_9to1c4b_67_15_alg».proof.Proof.Gen.Kernel.Points
import proofs.«204365_g77171972375186_cont_9to1c4b_67_15_alg».proof.Proof.PackMath
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the pack pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans embR

instance EP_landsIn : (EP (F := F)).LandsIn (upEmb : UEmb _ (MT nD τ sig (HIx 1) (Elt F) ℕ UU ℕ)) := by
  unfold EP; infer_instance

/-! ## The arrays of @main, and their names on a vector subcore -/

abbrev idsLoc (d : Dev nD) : Loc nD τ sig := (SparseCore.T d).loc main_arg0
abbrev tabLoc (d : Dev nD) : Loc nD τ sig := (SparseCore.T d).loc main_arg1
abbrev tabTLoc (d : Dev nD) : Loc nD τ sig := (SparseCore.T d).loc main_v0
abbrev pkLoc (d : Dev nD) : Loc nD τ sig := (SparseCore.T d).loc main_v1
abbrev outLoc (d : Dev nD) : Loc nD τ sig := (SparseCore.T d).loc main_v2

/-- The class ids, the packed table and the result, as a vector subcore addresses them; its four scratch buffers. -/
abbrev iV : Memref sig Kind.scVector Space.hbm S16384 EltTy.i32 := Memref.whole main_arg0_scv
abbrev pV : Memref sig Kind.scVector Space.hbm S250000x128 EltTy.f32 := Memref.whole main_v1_scv
abbrev oV : Memref sig Kind.scVector Space.hbm S16384x32 EltTy.f32 := Memref.whole main_v2_scv
abbrev s0V : Memref sig Kind.scVector Space.vmem S4x128 EltTy.i32 := Memref.whole cc1_scratch0
abbrev s1V : Memref sig Kind.scVector Space.vmem S4x128 EltTy.i32 := Memref.whole cc1_scratch1
abbrev s2V : Memref sig Kind.scVector Space.vmem S2x128x128 EltTy.f32 := Memref.whole cc1_scratch2
abbrev s3V : Memref sig Kind.scVector Space.vmem S512x32 EltTy.f32 := Memref.whole cc1_scratch3

/-! ## One vector subcore's place and its block of the result -/

abbrev cV (L : grid1.Coords) : Fin τ.nSC := (L 0).castLE hcore1
abbrev jV (L : grid1.Coords) : Fin τ.nSub := (L 1).castLE hsub1

/-- The 512 result rows of the vector subcore at grid coordinates `L`: rows 1024 (L 1) + 512 (L 0) onward, as the
    kernel slices them for its copy out. -/
abbrev orowK (L : grid1.Coords) : Rect S16384x32 := Rect.unit (s := S16384x32) (k1_off262 L) S512x32.size (k1_off262_inb L)
abbrev oRowK (L : grid1.Coords) : Memref sig .scVector .hbm S512x32 .f32 := (oV).slice (orowK L) (fun _ => rfl)
abbrev oRowSet (L : grid1.Coords) : Finset S16384x32.Idx := (oRowK L).view.set

/-- The body of the gather kernel at grid coordinates `L`, on the whole arrays and the subcore's own scratch. -/
abbrev tileProg [FloatOps F] (L : grid1.Coords) :=
  cc1__gather_body (F := F) L iV (Memref.isWhole_whole _) pV (Memref.isWhole_whole _) oV (Memref.isWhole_whole _)
    s0V (Memref.isWhole_whole _) s1V (Memref.isWhole_whole _) s2V (Memref.isWhole_whole _) s3V (Memref.isWhole_whole _)
    cc1_scratch4 cc1_scoped0 cc1_scoped1 cc1_scoped2 cc1_scoped3 cc1_scoped4

end Cert.Kernel.Lk

end
-- ==== Proof.LaunchBA.lean ====
/-
  The launch of the gather program: what the call hands each SparseCore and each vector subcore (the class ids and
  the packed table as read shares, the subcore's own 512 result rows), the obligations of the launch theorem, @main on
  the TensorCore (the transpose, the pack region, the call), and the program's run with the result named.
-/
import proofs.«204365_g77171972375186_cont_9to1c4b_67_15_alg».proof.Proof.CommonB

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_split pointsTo_toks_join)

variable {F : FTy → Type}

local notation "𝕄" => MT nD τ sig (HIx 1) (Elt F) ℕ UU ℕ

/-! ## The 32 blocks of 512 result rows: worker 2 s + c owns block 2 s + c -/

theorem odiv : 32 ∣ S16384x32.size 0 := ⟨512, rfl⟩
/-- Block `w` of the result: rows [512 w, 512 w + 512). -/
abbrev orow (w : Fin 32) : Rect S16384x32 := Rect.part (s := S16384x32) (a₀ := 0) odiv w
/-- The worker number of vector subcore `i` of SparseCore `c`. -/
def wid (c : Fin 2) (i : Fin 16) : Fin 32 := ⟨2 * i.val + c.val, by omega⟩
/-- The grid coordinates of that subcore. -/
def coordsV (c : Fin (grid1.bound 0)) (s : Fin (grid1.bound 1)) : grid1.Coords :=
  fun | 0 => c | 1 => s | ⟨_ + 2, h⟩ => absurd h (Nat.not_lt.2 (Nat.le_add_left _ _))

theorem orowK_eq (c : Fin 2) (i : Fin 16) : orowK (coordsV c i) = orow (wid c i) := by
  unfold orowK orow Rect.part Rect.block
  congr 1 <;> funext a
  · rw [k1_off262_eq]
    match a with
    | 0 => simp [Shape.partIx, Shape.partSize, wid, coordsV]; omega
    | 1 => simp [Shape.partIx, Shape.partSize]
  · match a with
    | 0 => simp [Shape.partSize]
    | 1 => simp [Shape.partSize]

theorem oRowSet_eq (c : Fin 2) (i : Fin 16) : oRowSet (coordsV c i) = (orow (wid c i)).set := by
  show ((View.whole (main_v2_scv : Ref sig .scVector)).slice (orowK (coordsV c i))).set = _
  rw [View.set_slice, orowK_eq]; exact Finset.map_refl

/-- The worker numbers are the pairs (SparseCore, subcore), one to one. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    refine Prod.ext (Fin.ext ?_) (Fin.ext ?_)
    · show (2 * i.val + c.val) % 2 = c.val; have := c.isLt; omega
    · show (2 * i.val + c.val) / 2 = i.val; have := c.isLt; omega
  right_inv w := Fin.ext (by show 2 * (w.val / 2) + w.val % 2 = w.val; omega)

/-! ## What the launch memory holds, and what the call makes of it -/

variable (m : (ℓ : Loc nD τ sig) → Buf (Elt F) ℓ) (ρ : Dev nD → PrngReg)

/-- The packed table as a function of the launch table, and the result the gather leaves: the packed array read at
    the row and lanes each class id names. -/
def pkOf (d : Dev nD) : Buf (Elt F) (pkLoc d) := Cert.Lookup.packed (α := Elt F .f32) (m (tabLoc d))
def outOf (d : Dev nD) : Buf (Elt F) (outLoc d) := Cert.Lookup.unpacked (α := Elt F .f32) (m (idsLoc d)) (pkOf m d)

/-- What the proof asks of the launch memory: every class id names a row of the table. -/
def PreOK : Prop := ∀ d : Dev nD, Cert.Lookup.InRange (m (idsLoc d))

/-- The read share of SparseCore `c`, and of its vector subcore `i`. -/
abbrev qC (c : Fin 2) : PosShare TreeShare := shareTok fullShare 2 c
abbrev qT (c : Fin 2) (i : Fin 16) : PosShare TreeShare := shareTok (qC c) 16 i

abbrev idsSh (d : Dev nD) (q : PosShare TreeShare) : sProp 𝕄 := idsLoc d ↦{q} m (idsLoc d)
abbrev pkSh (d : Dev nD) (q : PosShare TreeShare) : sProp 𝕄 := pkLoc d ↦{q} pkOf m d
abbrev oRowPts (d : Dev nD) (c : Fin 2) (i : Fin 16) (f : Buf (Elt F) (outLoc d)) : sProp 𝕄 :=
  outLoc d ↦[oRowSet (coordsV c i)]{fullShare} f

/-- The one call takes, per SparseCore, a read share of the class ids and of the packed table and that SparseCore's
    sixteen result blocks; each vector subcore a share of each and its own block; they come back with the blocks at
    the looked-up rows. -/
def P : (K (F := F)).Pay (nD := nD) (Val := Elt F) (Name := ℕ) (U := UU) where
  st := fun q d c => match q with
    | 0 => iprop(idsSh m d (qC (Fin.cast nCore_zero c)) ∗ pkSh m d (qC (Fin.cast nCore_zero c))
        ∗ bigSep Finset.univ fun i : Fin 16 => oRowPts d (Fin.cast nCore_zero c) i (m (outLoc d)))
  dn := fun q d c => match q with
    | 0 => iprop(idsSh m d (qC (Fin.cast nCore_zero c)) ∗ pkSh m d (qC (Fin.cast nCore_zero c))
        ∗ bigSep Finset.univ fun i : Fin 16 => oRowPts d (Fin.cast nCore_zero c) i (outOf m d))
  go := fun q d c i => match q with
    | 0 => iprop(idsSh m d (qT (Fin.cast nCore_zero c) (Fin.cast nSub_zero i)) ∗ pkSh m d (qT (Fin.cast nCore_zero c) (Fin.cast nSub_zero i))
        ∗ oRowPts d (Fin.cast nCore_zero c) (Fin.cast nSub_zero i) (m (outLoc d)))
  td := fun q d c i => match q with
    | 0 => iprop(idsSh m d (qT (Fin.cast nCore_zero c) (Fin.cast nSub_zero i)) ∗ pkSh m d (qT (Fin.cast nCore_zero c) (Fin.cast nSub_zero i))
        ∗ oRowPts d (Fin.cast nCore_zero c) (Fin.cast nSub_zero i) (outOf m d))
  x := fun _ _ => iprop(emp)

instance P_storable : (P (F := F) m).IsStorable where
  st q d c := match q with
    | 0 => (inferInstance : BI.Storable (upEmb : UEmb _ 𝕄) iprop(idsSh m d (qC (Fin.cast nCore_zero c)) ∗ pkSh m d (qC (Fin.cast nCore_zero c))
        ∗ bigSep Finset.univ fun i : Fin 16 => oRowPts d (Fin.cast nCore_zero c) i (m (outLoc d))))
  dn q d c := match q with
    | 0 => (inferInstance : BI.Storable (upEmb : UEmb _ 𝕄) iprop(idsSh m d (qC (Fin.cast nCore_zero c)) ∗ pkSh m d (qC (Fin.cast nCore_zero c))
        ∗ bigSep Finset.univ fun i : Fin 16 => oRowPts d (Fin.cast nCore_zero c) i (outOf m d)))
  go q d c i := match q with
    | 0 => (inferInstance : BI.Storable (upEmb : UEmb _ 𝕄)
        iprop(idsSh m d (qT (Fin.cast nCore_zero c) (Fin.cast nSub_zero i)) ∗ pkSh m d (qT (Fin.cast nCore_zero c) (Fin.cast nSub_zero i))
          ∗ oRowPts d (Fin.cast nCore_zero c) (Fin.cast nSub_zero i) (m (outLoc d))))
  td q d c i := match q with
    | 0 => (inferInstance : BI.Storable (upEmb : UEmb _ 𝕄)
        iprop(idsSh m d (qT (Fin.cast nCore_zero c) (Fin.cast nSub_zero i)) ∗ pkSh m d (qT (Fin.cast nCore_zero c) (Fin.cast nSub_zero i))
          ∗ oRowPts d (Fin.cast nCore_zero c) (Fin.cast nSub_zero i) (outOf m d)))

/-! ## The task of one vector subcore -/

/-- One vector subcore's task, proved apart: from read shares of the class ids and of the packed array (at ANY
    contents) and the subcore's own result block, its scoped storage and what it owes, the kernel's body runs to
    the end and leaves in the block the packed array read at the row and lanes each class id names. -/
def TileBodySpec [FloatOps F] : Prop :=
  ∀ (hF : (K (F := F)).Facts) (d : Dev nD) (L : grid1.Coords)
    (ids : Buf (Elt F) (idsLoc d)) (pk : Buf (Elt F) (pkLoc d)) (out0 : Buf (Elt F) (outLoc d))
    (qi qp : PosShare TreeShare) (hr : Cert.Lookup.InRange ids)
    (O : CellTallies nD τ sig (HIx 1)) (W : Waits sig (HIx 1)) (hO : ∀ g, O g none = 0),
    iprop(levAts (K (F := F)).L (K (F := F)).lev ∗ emp
        ∗ ((idsLoc d ↦{qi} ids) ∗ (pkLoc d ↦{qp} pk) ∗ (outLoc d ↦[oRowSet L]{fullShare} out0))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (tileProg (F := F) L)
          fun _ => iprop(((idsLoc d ↦{qi} ids) ∗ (pkLoc d ↦{qp} pk) ∗ (outLoc d ↦[oRowSet L]{fullShare} Cert.Lookup.unpacked (α := Elt F .f32) ids pk))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

variable [FloatOps F]

theorem defs₀_vector (c : Fin τ.nSC) (s : Fin τ.nSub) :
    defs₀ (F := F) (.scVector c s) 1 ()
      = SparseCore.onTile hcore1 hsub1 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (htb : TileBodySpec (F := F)) (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (htb hF d (coordsV ⟨_, hci.1⟩ ⟨_, hci.2⟩) (m (idsLoc d)) (pkOf m d) (m (outLoc d)) _ _ (hpre d) O W hO).trans
    (wp_mono frame _ _ fun _ => obl_post)

/-! ## A SparseCore's shares and blocks split among its sixteen subcores, and come back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(idsSh m d (qC (Fin.cast nCore_zero c)) ∗ pkSh m d (qC (Fin.cast nCore_zero c))
        ∗ bigSep Finset.univ fun i : Fin 16 => oRowPts d (Fin.cast nCore_zero c) i (m (outLoc d))) ⊢ |={Set.univ}=> iprop(
      (bigSep Finset.univ fun i : Fin ((K (F := F)).nSub 0) =>
        iprop(idsSh m d (qT (Fin.cast nCore_zero c) (Fin.cast nSub_zero i)) ∗ pkSh m d (qT (Fin.cast nCore_zero c) (Fin.cast nSub_zero i))
          ∗ oRowPts d (Fin.cast nCore_zero c) (Fin.cast nSub_zero i) (m (outLoc d))))
      ∗ ((bigSep Finset.univ fun i : Fin ((K (F := F)).nSub 0) =>
          iprop(idsSh m d (qT (Fin.cast nCore_zero c) (Fin.cast nSub_zero i)) ∗ pkSh m d (qT (Fin.cast nCore_zero c) (Fin.cast nSub_zero i))
            ∗ oRowPts d (Fin.cast nCore_zero c) (Fin.cast nSub_zero i) (outOf m d)))
          -∗ iprop(idsSh m d (qC (Fin.cast nCore_zero c)) ∗ pkSh m d (qC (Fin.cast nCore_zero c))
            ∗ bigSep Finset.univ fun i : Fin 16 => oRowPts d (Fin.cast nCore_zero c) i (outOf m d))))
  rw [bigSep_tasks (F := F) (fun i => iprop(idsSh m d (qT (Fin.cast nCore_zero c) i) ∗ pkSh m d (qT (Fin.cast nCore_zero c) i)
        ∗ oRowPts d (Fin.cast nCore_zero c) i (m (outLoc d)))),
    bigSep_tasks (F := F) (fun i => iprop(idsSh m d (qT (Fin.cast nCore_zero c) i) ∗ pkSh m d (qT (Fin.cast nCore_zero c) i)
        ∗ oRowPts d (Fin.cast nCore_zero c) i (outOf m d))), bigSep_sep', bigSep_sep', bigSep_sep', bigSep_sep']
  iintro ⟨Hi, Hp, Ho⟩
  ihave Hi2 := (pointsTo_toks_split (qC (Fin.cast nCore_zero c)) 16) $$ Hi
  icases Hi2 with ⟨Hid, Hit⟩
  ihave Hp2 := (pointsTo_toks_split (qC (Fin.cast nCore_zero c)) 16) $$ Hp
  icases Hp2 with ⟨Hpd, Hpt⟩
  imodintro
  isplitl [Hit Hpt Ho]
  · isplitl [Hit]; · iexact Hit
    isplitl [Hpt]; · iexact Hpt
    iexact Ho
  iintro ⟨Hit, Hpt, Ho⟩
  isplitl [Hid Hit]
  · iapply (pointsTo_toks_join (qC (Fin.cast nCore_zero c)) 16); isplitl [Hid] <;> iassumption
  isplitl [Hpd Hpt]
  · iapply (pointsTo_toks_join (qC (Fin.cast nCore_zero c)) 16); isplitl [Hpd] <;> iassumption
  iexact Ho

end Cert.Kernel.Lk

end
-- ==== Proof.PackBData.lean ====
/-
  The pack region's proof data. The region re-lays the transposed table X : [32, 1000000] as the packed table
  [250000, 128]: entry (R, 32 q + e) of the result is entry (e, 4 R + q) of X. It does so block by block: point k of
  the grid reads columns [16384 k, 16384 k + 16384) of X, cut at column 1000000, and writes rows
  [4096 k, 4096 k + 4096) of the result, cut at row 250000. Inside one block the same re-laying happens at block
  extents: entry (r, 32 q + e) of the output block is entry (e, 4 r + q) of the input block. Since
  4 (4096 k + r) + q < 1000000 exactly when 4096 k + r < 250000, the rows of the last output block that lie inside
  the result read only columns of the last input block that lie inside X.
-/
import proofs.«204365_g77171972375186_cont_9to1c4b_67_15_alg».proof.Proof.CommonB
import proofs.«204365_g77171972375186_cont_9to1c4b_67_15_alg».proof.Proof.Gen.Kernel.Skeleton
import Idealize.ShloMosaic.Lib.ValueIdx

noncomputable section

namespace Cert.Kernel.Lk

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-- The admissible contents of the prefetched tables: the pipeline has no table. -/
abbrev aAdm : (p : Fin 1) → (pcfgs (F := F) p).Adm := fun p => (cfgs p).toPCfg_adm

/-! ## The re-laying, at the arrays' extents and at a block's -/

/-- The packed table of a transposed table: entry (R, l) is entry (l % 32, 4 R + l / 32). -/
def repack {α : Type} (X : S32x1000000.Idx → α) : S250000x128.Idx → α :=
  fun j => X (ix2 ⟨(j 1).val % 32, Nat.mod_lt _ (by decide)⟩
    ⟨4 * (j 0).val + (j 1).val / 32, by have h0 := idx2_lt0 j; have h1 := idx2_lt1 j; omega⟩)

/-- The same inside one block: entry (r, l) of the output block is entry (l % 32, 4 r + l / 32) of the input block. -/
def pack4 {α : Type} (B : S32x16384.Idx → α) : S4096x128.Idx → α :=
  fun j => B (ix2 ⟨(j 1).val % 32, Nat.mod_lt _ (by decide)⟩
    ⟨4 * (j 0).val + (j 1).val / 32, by have h0 := idx2_lt0 j; have h1 := idx2_lt1 j; omega⟩)

/-! ## The proof data -/

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-- The input block at point `t` as its staging buffer holds it after the body: the columns of `X` the fetch reads,
    and past the array's end the zero word (nothing reads it: both windows are stated on the moved part only). -/
def inBlk (c : Dev nD) (t : Fin cfg0.N) : S32x16384.Idx → Elt F .f32 :=
  win0_0.fill (grid0.coords t) (fun _ => Scalar.ofBits .f32 0#32) ((win0_0.blk t).view.read (Elt F) (X c))

/-- The proof data of the pack pipeline on device `c`'s TensorCore: the transposed table at `X c` and the result at
    `Y₀ c` at entry; after the body at a point the input staging buffer holds the input block and the output staging
    buffer its re-laying; no invariant; full shares; the core owes `O₀ c` throughout, and the pairs its waits
    recorded before the region are `W₀ c`. -/
def packDat (c : Dev nD) : Dat τ (Elt F) (HIx 1) ℕ UU ℕ cfg0 c where
  A w := match w with
    | ⟨0, _⟩ => X c
    | ⟨1, _⟩ => Y₀ c
  after w t := match w with
    | ⟨0, _⟩ => inBlk X c t
    | ⟨1, _⟩ => pack4 (inBlk X c t)
  Φ _ := iprop(emp)
  q _ := fullShare
  owed _ := O₀ c
  recorded _ := ↑(W₀ c)

/-- The proof data of every pipeline of the program (there is one). -/
def packDats : (p : Fin 1) → (c : Dev nD) → Dat τ (Elt F) (HIx 1) ℕ UU ℕ (Pipeline.pin (pcfgs (F := F)) aAdm p) c :=
  fun _ c => packDat O₀ W₀ X Y₀ c

end Cert.Kernel.Lk

end
-- ==== Proof.LaunchBB.lean ====
/-
  The launch of the gather program, second part: the launch element of the ghost state (the handshakes' rounds and
  the pack pipeline's cells), @main on the TensorCore — the transpose, the pack region, the call —, what the final
  memory says, and the program's run with the result named.
-/
import proofs.«204365_g77171972375186_cont_9to1c4b_67_15_alg».proof.Proof.LaunchBA
import proofs.«204365_g77171972375186_cont_9to1c4b_67_15_alg».proof.Proof.PackBData

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds, and the pack pipeline's cells and duty tokens on each device -/

abbrev pcs0 : Fin 1 → Pipeline.Cfg sig Λ₀ := Pipeline.pin (pcfgs (F := F)) aAdm
omit [FloatOps F] in
theorem hinj0 : Function.Injective (Pipeline.cellOf (nD := nD) (τ := τ) (pcs0 (F := F))) := Gen.cellOf_inj

/-- What the pack region is entered with on device `d`: its staging cells' launch state and its duty tokens. -/
def Gd (d : Dev nD) : sProp 𝕄 :=
  iprop(Pipeline.cellsGhost (pcs0 (F := F)) EP 0 d ∗ Pipeline.toksInit (pcs0 (F := F)) EP 0 d)

def u₀ : UU := (initOf (K (F := F)).hsCells (K (F := F)).hsToks,
  (initOf (Pipeline.cells (pcs0 (F := F)) hinj0) (Pipeline.launchToks (pcs0 (F := F)) hinj0), 1))

omit [FloatOps F] in
theorem bigSep_emp' {I : Type} (s : Finset I) : (bigSep s fun _ => iprop(emp)) = (iprop(emp) : sProp 𝕄) := bigSep_emp_const s

theorem Gd_intro :
    iprop((bigSep Finset.univ fun c : Dev nD => bigSep Finset.univ fun p : Fin 1 =>
          (Pipeline.cellsGhost (pcs0 (F := F)) ((Emb.inl : Emb UP (UP × Counters)).trans embR) p c : sProp 𝕄))
        ∗ (bigSep Finset.univ fun c : Dev nD => bigSep Finset.univ fun p : Fin 1 =>
          (Pipeline.toksInit (pcs0 (F := F)) ((Emb.inl : Emb UP (UP × Counters)).trans embR) p c : sProp 𝕄)))
      ⊢ (bigSep Finset.univ fun d : Dev nD => Gd (F := F) d) := by
  unfold Gd EP
  rw [bigSep_sep',
    show (bigSep Finset.univ fun c : Dev nD => bigSep Finset.univ fun p : Fin 1 => (Pipeline.cellsGhost (pcs0 (F := F)) ((Emb.inl : Emb UP (UP × Counters)).trans embR) p c : sProp 𝕄))
      = bigSep Finset.univ fun c : Dev nD => Pipeline.cellsGhost (pcs0 (F := F)) ((Emb.inl : Emb UP (UP × Counters)).trans embR) 0 c
      from bigSep_congr fun _ _ => bigSep_univ_of_subsingleton (0 : Fin 1),
    show (bigSep Finset.univ fun c : Dev nD => bigSep Finset.univ fun p : Fin 1 => (Pipeline.toksInit (pcs0 (F := F)) ((Emb.inl : Emb UP (UP × Counters)).trans embR) p c : sProp 𝕄))
      = bigSep Finset.univ fun c : Dev nD => Pipeline.toksInit (pcs0 (F := F)) ((Emb.inl : Emb UP (UP × Counters)).trans embR) 0 c
      from bigSep_congr fun _ _ => bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) (MT nD τ sig (HIx 1) (Elt F) ℕ UU ℕ))
    (initOf (Pipeline.cells (pcs0 (F := F)) hinj0) (Pipeline.launchToks (pcs0 (F := F)) hinj0)) (1 : Counters)) $$ HR
  icases H2 with ⟨HP, -⟩
  imod (Pipeline.fund_ghost (pcs0 (F := F)) ((Emb.inl : Emb UP (UP × Counters)).trans embR) hinj0) $$ HP with ⟨Hc, Ht⟩
  imodintro
  isplitl [HH]; · iexact HH
  isplitl [Hc Ht]
  · iapply (Gd_intro (F := F)); isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

open Idealize.ShloMosaic.StableHlo (held held_split held_sdiff_result wp_hlo_within)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The host's one operation: the table with its axes exchanged. -/
abbrev opT : HloOp τ sig (Elt F) := StableHlo.unary main_arg1 main_v0
  ((transpose S32x1000000 [1, 0] · transposes_S1000000x32_S32x1000000_1_0) : (⟨S1000000x32, .f32⟩ : BufTy).Contents (Elt F) → (⟨S32x1000000, .f32⟩ : BufTy).Contents (Elt F))

/-- The TensorCore's five arrays, all unscoped. -/
abbrev S5 : Finset (DevRef τ sig) := {a0', a1', v0', v1', v2'}

omit [FloatOps F] in
theorem held_S5 (d : Dev nD) (W : Valuation τ sig (Elt F)) :
    (held (T d) S5 W : sProp 𝕄)
      = iprop((idsLoc d ↦{fullShare} W a0') ∗ (tabLoc d ↦{fullShare} W a1') ∗ (tabTLoc d ↦{fullShare} W v0')
          ∗ (pkLoc d ↦{fullShare} W v1') ∗ outLoc d ↦{fullShare} W v2') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((idsLoc d ↦{fullShare} W main_arg0) ∗ (tabLoc d ↦{fullShare} W main_arg1) ∗ (tabTLoc d ↦{fullShare} W main_v0)
          ∗ (pkLoc d ↦{fullShare} W main_v1) ∗ outLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S5 (V0 m d) := by
  rw [unscopedBufs_eq, held_S5]; rfl

/-- The transposed table, as the host computes it from the launch table. -/
def tabTOf (d : Dev nD) : Buf (Elt F) (tabTLoc d) :=
  transpose (α := Elt F .f32) (s := S1000000x32) S32x1000000 [1, 0] (m (tabLoc d)) transposes_S1000000x32_S32x1000000_1_0

theorem hT : (opT (F := F)).bufs ⊆ S5 := show ({a1', v0'} : Finset (DevRef τ sig)) ⊆ S5 by decide

theorem held_V1 (d : Dev nD) :
    (held (T d) S5 ((opT (F := F)).result (V0 m d)) : sProp 𝕄)
      = iprop((idsLoc d ↦{fullShare} m (idsLoc d)) ∗ (tabLoc d ↦{fullShare} m (tabLoc d)) ∗ (tabTLoc d ↦{fullShare} tabTOf m d)
          ∗ (pkLoc d ↦{fullShare} m (pkLoc d)) ∗ outLoc d ↦{fullShare} m (outLoc d)) := by
  rw [held_S5]
  rw [StableHlo.unary_result_ne (r := main_arg0) _ _ _ _ _ _ (show (main_arg0 : Ref sig .tc) ≠ main_v0 by decide), StableHlo.unary_result_ne (r := main_arg1) _ _ _ _ _ _ (show (main_arg1 : Ref sig .tc) ≠ main_v0 by decide),
    StableHlo.unary_result_ne (r := main_v1) _ _ _ _ _ _ (show (main_v1 : Ref sig .tc) ≠ main_v0 by decide), StableHlo.unary_result_ne (r := main_v2) _ _ _ _ _ _ (show (main_v2 : Ref sig .tc) ≠ main_v0 by decide),
    show (opT (F := F)).result (V0 m d) v0' = tabTOf m d from StableHlo.unary_result _ _ _ _ _ _]
  rfl

/-- The pack region, proved apart, as one rule for its call on the TensorCore: from the region boundary, the level
    facts, the pipeline's launch state, the transposed table at `X`, the packed array at anything and what the
    TensorCore owes, the call runs and the continuation finds the packed array at `rp d X`, the rest unchanged. -/
def RegionSpec (rp : (d : Dev nD) → Buf (Elt F) (tabTLoc d) → Buf (Elt F) (pkLoc d)) : Prop :=
  ∀ (d : Dev nD) (X : Buf (Elt F) (tabTLoc d)) (k : PUnit → Prog (TpuEff nD τ sig (Elt F) (ΛP (F := F)) .tc) PUnit) (Q : PUnit → sProp 𝕄),
    iprop((iprop(boundary (T d) ∗ (tabTLoc d ↦{fullShare} X) ∗ (pkLoc d ↦{fullShare} rp d X)
            ∗ ∃ W, ⌜(K (F := F)).WBelow (T d) W 0⌝ ∗ owes (T d) ((K (F := F)).Otc d 0) W)
          -∗ wp frame (wpE (D (F := F)) 𝒱 (T d) none) Set.univ (k ⟨⟩) Q)
        ∗ boundary (T d) ∗ levAts (K (F := F)).L (K (F := F)).lev ∗ Gd (F := F) d
        ∗ (tabTLoc d ↦{fullShare} X) ∗ (∃ Y, pkLoc d ↦{fullShare} Y)
        ∗ ∃ W, ⌜(K (F := F)).WBelow (T d) W 0⌝ ∗ owes (T d) ((K (F := F)).Otc d 0) W)
      ⊢ wp frame (wpE (D (F := F)) 𝒱 (T d) none) Set.univ (.op (.customCall (Pipeline.entry 0) ()) k) Q

set_option maxHeartbeats 1000000 in
/-- The region's rule in the program's own body table: the call as @main spells it, under the SparseCore launch's
    extension of the kernels' table. -/
theorem region_lifted (rp : (d : Dev nD) → Buf (Elt F) (tabTLoc d) → Buf (Elt F) (pkLoc d)) (hreg : RegionSpec (F := F) rp)
    (d : Dev nD) (X : Buf (Elt F) (tabTLoc d)) (Q : PUnit → sProp 𝕄) :
    iprop((iprop(boundary (T d) ∗ (tabTLoc d ↦{fullShare} X) ∗ (pkLoc d ↦{fullShare} rp d X)
            ∗ ∃ W, ⌜(K (F := F)).WBelow (T d) W 0⌝ ∗ owes (T d) ((K (F := F)).Otc d 0) W)
          -∗ wp frame (wpE (D (F := F)) 𝒱 (T d) none) Set.univ (.ret ⟨⟩) Q)
        ∗ boundary (T d) ∗ levAts (K (F := F)).L (K (F := F)).lev ∗ Gd (F := F) d
        ∗ (tabTLoc d ↦{fullShare} X) ∗ (∃ Y, pkLoc d ↦{fullShare} Y)
        ∗ ∃ W, ⌜(K (F := F)).WBelow (T d) W 0⌝ ∗ owes (T d) ((K (F := F)).Otc d 0) W)
      ⊢ wp frame (wpE ((K (F := F)).defs (D (F := F))) 𝒱 (SparseCore.T d) none) Set.univ
          (Prog.lift (.customCall (SparseCore.inner (Pipeline.entry 0)) ())) Q := by
    have h := (K (F := F)).wp_liftProg (D (F := F)) 𝒱 (SparseCore.T d) Set.univ none (.op (.customCall (Pipeline.entry 0) ()) fun _ => .ret ⟨⟩) Q
    rw [SparseCore.liftProg_op] at h
    exact (hreg d X (fun _ => .ret ⟨⟩) Q).trans h

/-! ## The result's 32 blocks; the call's operands for the two SparseCores -/

omit [FloatOps F] in
theorem oblocks_disjoint : ∀ w ∈ (Finset.univ : Finset (Fin 32)), ∀ w' ∈ (Finset.univ : Finset (Fin 32)), w ≠ w' →
    Disjoint (orow w).set (orow w').set :=
  fun _ _ _ _ h => Rect.part_disjoint odiv h
omit [FloatOps F] in
theorem oblocks_cover : (Finset.univ : Finset (Fin 32)).biUnion (fun w => (orow w).set) = Finset.univ :=
  Rect.biUnion_part odiv

omit [FloatOps F] in
/-- The result held whole is its 32 blocks, grouped by SparseCore and subcore. -/
theorem oPts_blocks (d : Dev nD) (f : Buf (Elt F) (outLoc d)) :
    (outLoc d ↦{fullShare} f : sProp 𝕄) = bigSep Finset.univ fun c : Fin 2 => bigSep Finset.univ fun i : Fin 16 => oRowPts d c i f := by
  rw [← bigSep_univ_prod (fun p : Fin 2 × Fin 16 => (oRowPts d p.1 p.2 f : sProp 𝕄))]
  rw [show (fun p : Fin 2 × Fin 16 => (oRowPts d p.1 p.2 f : sProp 𝕄)) = fun p => (outLoc d ↦[(orow (widEquiv p)).set]{fullShare} f : sProp 𝕄) from
    funext fun p => by
      show (outLoc d ↦[oRowSet (coordsV p.1 p.2)]{fullShare} f : sProp 𝕄) = _
      rw [oRowSet_eq]; rfl]
  rw [← bigSep_univ_equiv widEquiv (fun w => (outLoc d ↦[(orow w).set]{fullShare} f : sProp 𝕄)),
    ← pointsTo_biUnion Finset.univ (ℓ := outLoc d) (fun w => (orow w).set) oblocks_disjoint, oblocks_cover]; try rfl

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((bigSep Finset.univ fun c : Fin 2 => idsSh m d (qC c)) ∗ (bigSep Finset.univ fun c : Fin 2 => pkSh m d (qC c))
        ∗ bigSep Finset.univ fun c : Fin 2 => bigSep Finset.univ fun i : Fin 16 => oRowPts d c i (m (outLoc d))) := by
  show (bigSep Finset.univ fun c : Fin ((K (F := F)).nCore 0) => iprop(idsSh m d (qC (Fin.cast nCore_zero c)) ∗ pkSh m d (qC (Fin.cast nCore_zero c))
        ∗ bigSep Finset.univ fun i : Fin 16 => oRowPts d (Fin.cast nCore_zero c) i (m (outLoc d)))) = _
  rw [bigSep_cores (F := F) (fun c => iprop(idsSh m d (qC c) ∗ pkSh m d (qC c) ∗ bigSep Finset.univ fun i : Fin 16 => oRowPts d c i (m (outLoc d)))),
    bigSep_sep', bigSep_sep']
theorem dn0_eq (d : Dev nD) : (bigSep Finset.univ fun c : Fin ((K (F := F)).nCore 0) => (P m).dn 0 d c)
    = iprop((bigSep Finset.univ fun c : Fin 2 => idsSh m d (qC c)) ∗ (bigSep Finset.univ fun c : Fin 2 => pkSh m d (qC c))
        ∗ bigSep Finset.univ fun c : Fin 2 => bigSep Finset.univ fun i : Fin 16 => oRowPts d c i (outOf m d)) := by
  show (bigSep Finset.univ fun c : Fin ((K (F := F)).nCore 0) => iprop(idsSh m d (qC (Fin.cast nCore_zero c)) ∗ pkSh m d (qC (Fin.cast nCore_zero c))
        ∗ bigSep Finset.univ fun i : Fin 16 => oRowPts d (Fin.cast nCore_zero c) i (outOf m d))) = _
  rw [bigSep_cores (F := F) (fun c => iprop(idsSh m d (qC c) ∗ pkSh m d (qC c) ∗ bigSep Finset.univ fun i : Fin 16 => oRowPts d c i (outOf m d))),
    bigSep_sep', bigSep_sep']

/-- The TensorCore's handshake state before the call: what it owes, and the rest. -/
theorem tcSt_owes (d : Dev nD) : ∃ R : sProp 𝕄, ((K (F := F)).tcSt EH d 0 : sProp 𝕄)
    = iprop((∃ W, ⌜(K (F := F)).WBelow (T d) W 0⌝ ∗ owes (T d) ((K (F := F)).Otc d 0) W) ∗ R) := ⟨_, rfl⟩

/-- What @main leaves the claim: the class ids and the table as launched, the result at the looked-up lanes. -/
abbrev FIN (d : Dev nD) : sProp 𝕄 :=
  iprop((idsLoc d ↦{fullShare} m (idsLoc d)) ∗ (tabLoc d ↦{fullShare} m (tabLoc d)) ∗ outLoc d ↦{fullShare} outOf m d)

set_option maxHeartbeats 1000000 in
/-- @main on device `d`'s TensorCore: the transpose (a host operation over the five arrays held whole), the pack
    region (entered in the kernels' own body table and lifted), the call (read shares of the class ids and of the
    packed array and the result's blocks to the two SparseCores, and back). -/
theorem hmain (rp : (d : Dev nD) → Buf (Elt F) (tabTLoc d) → Buf (Elt F) (pkLoc d)) (hreg : RegionSpec (F := F) rp)
    (hrp : ∀ d, rp d (tabTOf m d) = pkOf m d) (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_owes (F := F) d
  unfold SparseCore.Cfg.tcRes
  rw [unscoped_held]
  simp only [main, wp_bind, wp_pure]
  iintro ⟨#Hctx, Hst, ⟨Hb, Hheld, -, -⟩, HG⟩
  ihave Hst2 := (Entails.of_eq hR) $$ Hst
  icases Hst2 with ⟨Howes, HR⟩
  ihave Hlev := (SparseCore.Cfg.ctx_levAts (K := K (F := F)) (EH := EH) (P := P m) κ) $$ Hctx
  -- the transpose
  iapply (wp_hlo_within 𝒱 (SparseCore.T d) none Set.univ (op := opT) (S := S5) hT (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Ht, Htt, Hpk, Ho⟩
  -- the pack region, in the kernels' own body table, lifted
  iapply (region_lifted rp hreg d (tabTOf m d) _) $$ [Hb Hlev HG Htt Hpk Howes Hi Ht Ho HR]
  isplitr [Hb Hlev HG Htt Hpk Howes]
  swap
  · isplitl [Hb]; · iexact Hb
    isplitl [Hlev]; · iexact Hlev
    isplitl [HG]; · iexact HG
    isplitl [Htt]; · iexact Htt
    isplitl [Hpk]; · iexists _; iexact Hpk
    iexact Howes
  rw [hrp d]
  iintro ⟨Hb, Htt, Hpk, Howes⟩
  rw [wp_ret]; imodintro
  -- the call
  ihave Hst := (Entails.of_eq hR.symm) $$ [Howes HR]
  · isplitl [Howes] <;> iassumption
  ihave Hi2 := (pointsTo_toks_split fullShare 2) $$ Hi
  icases Hi2 with ⟨Hid, Hit⟩
  ihave Hp2 := (pointsTo_toks_split fullShare 2) $$ Hpk
  icases Hp2 with ⟨Hpd, Hpt⟩
  ihave Ho2 := (Entails.of_eq (oPts_blocks (F := F) d (m (outLoc d)))) $$ Ho
  iapply ((K (F := F)).wp_run (D (F := F)) 𝒱 (EH := EH) (P := P m) κ d 0) $$ [Hst Hit Hpt Ho2 Hid Ht]
  isplitr; · iexact Hctx
  isplitl [Hst]; · iexact Hst
  isplitl [Hit Hpt Ho2]
  · rw [st0_eq]
    isplitl [Hit]; · iexact Hit
    isplitl [Hpt]; · iexact Hpt
    iexact Ho2
  iintro ⟨Hst, Hdn⟩
  ihave Hdn' := (Entails.of_eq (dn0_eq m d)) $$ Hdn
  icases Hdn' with ⟨Hit, -, Ho2⟩
  imodintro
  isplitl [Hst]; · iexact Hst
  isplitl [Hid Hit]
  · iapply (pointsTo_toks_join fullShare 2); isplitl [Hid] <;> iassumption
  isplitl [Ht]; · iexact Ht
  iapply (Entails.of_eq (oPts_blocks (F := F) d (outOf m d)).symm); iexact Ho2

def fq (d : Dev nD) (s' : Phys nD τ sig (Elt F)) : Prop :=
  s'.mem.mem (idsLoc d) = m (idsLoc d) ∧ s'.mem.mem (tabLoc d) = m (tabLoc d) ∧ s'.mem.mem (outLoc d) = outOf m d

set_option maxRecDepth 16384 in
theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h2, HSI, -⟩
  ihave H := (SI_pointsTo_agree (st := s') (ℓ := outLoc d) (I := Finset.univ) (q := fullShare) (f := outOf m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result at the packed array read where each class id names, the arguments unchanged. -/
def QC : PUnit × MemSt nD τ sig (Elt F) → Prop := fun r => ∀ c : Dev nD,
  r.2.mem (outLoc c) = outOf m c ∧ r.2.mem (idsLoc c) = m (idsLoc c) ∧ r.2.mem (tabLoc c) = m (tabLoc c)

theorem run_main [∀ e, Nonempty (Elt F e)] (htb : TileBodySpec (F := F))
    (rp : (d : Dev nD) → Buf (Elt F) (tabTLoc d) → Buf (Elt F) (pkLoc d)) (hreg : RegionSpec (F := F) rp)
    (hrp : ∀ d, rp d (tabTOf m d) = pkOf m d) (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htb facts hpre)
    (fun q _ => match q with | 0 => SparseCore.Cfg.VecSplit.of_plain (vecSplit m))
    m ρ main (fun d => Gd (F := F) d) (FIN m) (u₀ (F := F)) (sep_elim_left.trans (hu₀ m)) (hmain m ρ rp hreg hrp) (fq m) (hfin m) (QC m)
    (fun _ h c => ⟨(h c).2.2, (h c).1, (h c).2.1⟩)

end Cert.Kernel.Lk

end
-- ==== Proof.LibSegmentMean.lean ====
/-
  A graph's segment sum read at an index. Edge `e` has a source row and a destination row, read off two integer index
  columns `[E, 1]`. A gather of rows takes row `src(e)` of a node matrix `[N, C]` (the start index read signed and clamped
  into `[0, N − 1]`); a scatter-add of rows adds edge row `e` of `[E, C]` into node row `dst(e)` (the start index read signed,
  not clamped: an edge whose index leaves `[0, N)` lands nowhere). Read at `(i, q)`, the scatter-add of the gathered rows is
  the sum, over the edges whose destination is `i`, of the entries `(src(e), q)`; this sum is linear in the matrix, so it
  commutes with a product by a matrix on the right, and so does its quotient by a nonzero real. The scatter-add of ones
  counts the edges into a node: a nonnegative real, at least one after the maximum with one.
-/
import Idealize.ShloMosaic.PureOps.Ideal.Laws
import Idealize.ShloMosaic.Lib.ValueIdx
import Idealize.ShloMosaic.Lib.Pipeline.Value

noncomputable section

open scoped BigOperators

namespace Cert.SegmentMean

open Idealize.ShloMosaic Idealize.ShloMosaic.ValueIdx

/-! ## The dimension numbers -/

/-- Scatter of rows: updates `[E, C]` into an operand `[N, C]` at the row indices `[E, 1]`. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of scalars: updates `[E]` into an operand `[N]` at the indices `[E, 1]`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of rows: result `[E, C]` out of an operand `[N, C]` at the row indices `[E, 1]`. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index, read signed and clamped into `[0, N − 1]`. A function of the index column and
    the edge alone, the same for every column count. -/
def rowOf {N E w : ℕ} (hN : 0 < N) (idx : IVec ⟨2, ![E, 1]⟩ w) (e : Fin E) : Fin N :=
  ⟨min (idx (ix2 e (0 : Fin 1))).toInt.toNat (N - 1), by omega⟩

/-! ## The gather of rows at an index -/

section Gather
variable {α : Type}

/-- The gather of rows at `(e, q)` is the operand at `(rowOf e, q)`: row the clamped signed start index of edge `e`, column `q`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q) = x (ix2 (rowOf hN idx e) q) := by
  unfold Host.gather
  congr 1
  funext a
  refine Fin.ext ?_
  match a with
  | ⟨0, _⟩ =>
    show (rowGather N E C wf).start (ix2 e q) idx 0 + (rowGather N E C wf).batchCoord (ix2 e q) 0
      + (rowGather N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e q) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e q) idx 1 + (rowGather N E C wf).batchCoord (ix2 e q) 1
      + (rowGather N E C wf).offCoord (ix2 e q) 1 = q.val
    rw [GatherDims.batchCoord_eq_zero _ _ _ List.not_mem_nil]
    have hst : (rowGather N E C wf).start (ix2 e q) idx 1 = 0 := by
      unfold GatherDims.start
      rw [dif_neg (show (1 : Fin 2) ∉ [(0 : Fin 2)] by decide)]
    rw [hst]
    simp only [Nat.add_zero, Nat.zero_add]
    unfold GatherDims.offCoord
    rw [dif_pos ((GatherDims.mem_sKept _ _).2 ⟨show (1 : Fin 2) ∉ [(0 : Fin 2)] by decide, List.not_mem_nil⟩)]
    rfl

end Gather

/-! ## The scatter-add of rows at an index -/

/-- Update entry `(e, q')` of a scatter of rows lands on `(i, q)` exactly when the columns agree and the signed start
    index of edge `e` is `i`. -/
theorem rowScatter_resultIdx?_eq_some {N E C w : ℕ}
    (wf : ScatterDims.WF ⟨2, ![N, C]⟩ ⟨2, ![E, 1]⟩ ⟨2, ![E, C]⟩ [1] [0] [0] 1)
    (idx : IVec ⟨2, ![E, 1]⟩ w) (e : Fin E) (q' : Fin C) (i : Fin N) (q : Fin C) :
    (rowScatter N E C wf).resultIdx? (ix2 e q') idx = some (ix2 i q)
      ↔ q' = q ∧ (idx (ix2 e (0 : Fin 1))).toInt = (i.val : ℤ) := by
  have hs0 : (rowScatter N E C wf).start (ix2 e q') idx 0 = (idx (ix2 e (0 : Fin 1))).toInt := by
    unfold ScatterDims.start
    rw [dif_pos (show (0 : Fin 2) ∈ (rowScatter N E C wf).scatterDimsToOperandDims from List.mem_singleton.mpr rfl)]
    have hsi : (rowScatter N E C wf).siIdx (ix2 e q') ⟨List.idxOf (0 : Fin 2) (rowScatter N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N E C wf).start (ix2 e q') idx 1 = 0 := by
    unfold ScatterDims.start
    rw [dif_neg (show (1 : Fin 2) ∉ [(0 : Fin 2)] by decide)]
  have hw0 : (rowScatter N E C wf).window (ix2 e q') 0 = 0 := by
    unfold ScatterDims.window
    rw [dif_neg (show (0 : Fin 2) ∉ Shape.kept (⟨2, ![N, C]⟩ : Shape) [(0 : Fin 2)] by simp [Shape.kept])]
  have hw1 : (rowScatter N E C wf).window (ix2 e q') 1 = q'.val := by
    unfold ScatterDims.window
    rw [dif_pos (show (1 : Fin 2) ∈ Shape.kept (⟨2, ![N, C]⟩ : Shape) [(0 : Fin 2)] by simp [Shape.kept])]
    rfl
  have hi := i.isLt
  have hq := q.isLt
  have hq' := q'.isLt
  unfold ScatterDims.resultIdx?
  split
  · rename_i h
    have h0 := (h 0).1
    rw [hs0, hw0] at h0
    rw [Option.some.injEq]
    constructor
    · intro hf
      have e0 := congrArg Fin.val (congrFun hf 0)
      have e1 := congrArg Fin.val (congrFun hf 1)
      change ((rowScatter N E C wf).start (ix2 e q') idx 0 + ((rowScatter N E C wf).window (ix2 e q') 0 : ℕ)).toNat = i.val at e0
      change ((rowScatter N E C wf).start (ix2 e q') idx 1 + ((rowScatter N E C wf).window (ix2 e q') 1 : ℕ)).toNat = q.val at e1
      rw [hs0, hw0] at e0
      rw [hs1, hw1] at e1
      refine ⟨Fin.ext (by omega), by omega⟩
    · rintro ⟨rfl, hP⟩
      funext a
      refine Fin.ext ?_
      match a with
      | ⟨0, _⟩ =>
        show ((rowScatter N E C wf).start (ix2 e q') idx 0 + ((rowScatter N E C wf).window (ix2 e q') 0 : ℕ)).toNat = i.val
        rw [hs0, hw0]; omega
      | ⟨1, _⟩ =>
        show ((rowScatter N E C wf).start (ix2 e q') idx 1 + ((rowScatter N E C wf).window (ix2 e q') 1 : ℕ)).toNat = q'.val
        rw [hs1, hw1]; omega
  · rename_i h
    constructor
    · intro hf; exact absurd hf (by simp)
    · rintro ⟨rfl, hP⟩
      exfalso
      apply h
      intro a
      match a with
      | ⟨0, _⟩ =>
        show 0 ≤ (rowScatter N E C wf).start (ix2 e q') idx 0 + ((rowScatter N E C wf).window (ix2 e q') 0 : ℕ)
          ∧ (rowScatter N E C wf).start (ix2 e q') idx 0 + ((rowScatter N E C wf).window (ix2 e q') 0 : ℕ) < (N : ℤ)
        rw [hs0, hw0]; omega
      | ⟨1, _⟩ =>
        show 0 ≤ (rowScatter N E C wf).start (ix2 e q') idx 1 + ((rowScatter N E C wf).window (ix2 e q') 1 : ℕ)
          ∧ (rowScatter N E C wf).start (ix2 e q') idx 1 + ((rowScatter N E C wf).window (ix2 e q') 1 : ℕ) < (C : ℤ)
        rw [hs1, hw1]; omega

/-- THE SCATTER-ADD OF ROWS AT `(i, q)`: the operand's entry plus the sum of the update entries `(e, q)` over the edges `e`
    whose signed start index is `i`. -/
theorem rowScatter_apply {N E C w : ℕ}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (q : Fin C) :
    Ideal.hostScatterAdd (rowScatter N E C wf) x idx upd (ix2 i q)
      = x (ix2 i q) + ∑ e ∈ Finset.univ.filter (fun e : Fin E => (idx (ix2 e (0 : Fin 1))).toInt = (i.val : ℤ)), upd (ix2 e q) := by
  unfold Ideal.hostScatterAdd
  congr 1
  rw [Finset.sum_filter, sum_idx2, Finset.sum_filter]
  refine Finset.sum_congr rfl fun e _ => ?_
  by_cases hP : (idx (ix2 e (0 : Fin 1))).toInt = (i.val : ℤ)
  · rw [if_pos hP, Finset.sum_eq_single q]
    · rw [if_pos ((rowScatter_resultIdx?_eq_some wf idx e q i q).2 ⟨rfl, hP⟩)]
    · intro b _ hb
      rw [if_neg fun h => hb ((rowScatter_resultIdx?_eq_some wf idx e b i q).1 h).1]
    · intro h; exact absurd (Finset.mem_univ q) h
  · rw [if_neg hP]
    exact Finset.sum_eq_zero fun b _ => if_neg fun h => hP ((rowScatter_resultIdx?_eq_some wf idx e b i q).1 h).2

/-! ## The scatter-add of scalars at an index -/

/-- Update entry `e` of a scatter of scalars lands on `i` exactly when the signed start index of edge `e` is `i`. -/
theorem vecScatter_resultIdx?_eq_some {N E w : ℕ}
    (wf : ScatterDims.WF ⟨1, ![N]⟩ ⟨2, ![E, 1]⟩ ⟨1, ![E]⟩ [] [0] [0] 1)
    (idx : IVec ⟨2, ![E, 1]⟩ w) (e : Fin E) (i : Fin N) :
    (vecScatter N E wf).resultIdx? (ix1 e) idx = some (ix1 i) ↔ (idx (ix2 e (0 : Fin 1))).toInt = (i.val : ℤ) := by
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl)]
    have hsi : (vecScatter N E wf).siIdx (ix1 e) ⟨List.idxOf (0 : Fin 1) (vecScatter N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N E wf).window (ix1 e) 0 = 0 := by
    unfold ScatterDims.window
    rw [dif_neg (show (0 : Fin 1) ∉ Shape.kept (⟨1, ![N]⟩ : Shape) [(0 : Fin 1)] by simp [Shape.kept])]
  have hi := i.isLt
  unfold ScatterDims.resultIdx?
  split
  · rename_i h
    have h0 := (h 0).1
    rw [hs0, hw0] at h0
    rw [Option.some.injEq]
    constructor
    · intro hf
      have e0 := congrArg Fin.val (congrFun hf 0)
      change ((vecScatter N E wf).start (ix1 e) idx 0 + ((vecScatter N E wf).window (ix1 e) 0 : ℕ)).toNat = i.val at e0
      rw [hs0, hw0] at e0
      omega
    · intro hP
      funext a
      refine Fin.ext ?_
      match a with
      | ⟨0, _⟩ =>
        show ((vecScatter N E wf).start (ix1 e) idx 0 + ((vecScatter N E wf).window (ix1 e) 0 : ℕ)).toNat = i.val
        rw [hs0, hw0]; omega
  · rename_i h
    constructor
    · intro hf; exact absurd hf (by simp)
    · intro hP
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [hs0, hw0]; omega

/-- A rank-1 index set is its coordinate's range, so a sum over it is the sum over the coordinate. -/
theorem sum_idx1 {M : Type*} [AddCommMonoid M] {n : ℕ} (f : (⟨1, ![n]⟩ : Shape).Idx → M) :
    ∑ j, f j = ∑ a : Fin n, f (ix1 a) := by
  refine Fintype.sum_equiv ⟨fun j => j 0, fun a => ix1 a, fun j => (eq_ix1 j).symm, fun _ => rfl⟩ _ _ fun j => ?_
  exact congrArg f (eq_ix1 j)

/-- THE SCATTER-ADD OF SCALARS AT `i`: the operand's entry plus the sum of the update entries `e` over the edges `e` whose
    signed start index is `i`. -/
theorem vecScatter_apply {N E w : ℕ}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e (0 : Fin 1))).toInt = (i.val : ℤ)), upd (ix1 e) := by
  unfold Ideal.hostScatterAdd
  congr 1
  rw [Finset.sum_filter, sum_idx1, Finset.sum_filter]
  refine Finset.sum_congr rfl fun e _ => ?_
  by_cases hP : (idx (ix2 e (0 : Fin 1))).toInt = (i.val : ℤ)
  · rw [if_pos hP, if_pos ((vecScatter_resultIdx?_eq_some wf idx e i).2 hP)]
  · rw [if_neg hP, if_neg fun h => hP ((vecScatter_resultIdx?_eq_some wf idx e i).1 h)]

/-! ## The segment sum of gathered rows, its linearity, and the degree -/

/-- The coercion of a finite sum of reals into the extended reals is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- THE SEGMENT SUM AT `(i, q)`: rows of `M` gathered at the sources and scatter-added from zero at the destinations give the
    sum, over the edges whose destination is `i`, of the entries `(rowOf src e, q)` of `M`. -/
theorem segmentSum_apply {N E C w : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (M : (⟨2, ![N, C]⟩ : Shape).Idx → EReal) (src dst : IVec ⟨2, ![E, 1]⟩ w) (i : Fin N) (q : Fin C) :
    Ideal.hostScatterAdd (rowScatter N E C wfs) (fun _ => 0) dst (Host.gather (rowGather N E C wfg) M src) (ix2 i q)
      = ∑ e ∈ Finset.univ.filter (fun e : Fin E => (dst (ix2 e (0 : Fin 1))).toInt = (i.val : ℤ)),
          M (ix2 (rowOf hN src e) q) := by
  rw [rowScatter_apply, zero_add]
  exact Finset.sum_congr rfl fun e _ => rowGather_apply hN wfg M src e q

/-- THE SEGMENT MEAN IS LINEAR: over real data, the segment sum of the rows of a product `P = X · W`, divided by a nonzero
    real, is the segment sum of the rows of `X` divided by it, times `W`. -/
theorem segmentMean_mul {N E K C w : ℕ}
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wfs' : ScatterDims.WF ⟨2, ![N, K]⟩ ⟨2, ![E, 1]⟩ ⟨2, ![E, K]⟩ [1] [0] [0] 1)
    (wfg' : GatherDims.WF ⟨2, ![N, K]⟩ ⟨2, ![E, 1]⟩ ⟨2, ![E, K]⟩ [1] [0] [] [0] [] 1 ![1, K])
    (X : (⟨2, ![N, K]⟩ : Shape).Idx → EReal) (W : (⟨2, ![K, C]⟩ : Shape).Idx → EReal)
    (P : (⟨2, ![N, C]⟩ : Shape).Idx → EReal)
    (hX : ∀ j, ∃ r : ℝ, X j = (r : EReal)) (hW : ∀ j, ∃ r : ℝ, W j = (r : EReal))
    (hP : ∀ (n : Fin N) (q : Fin C), P (ix2 n q) = ∑ k : Fin K, X (ix2 n k) * W (ix2 k q))
    (src dst : IVec ⟨2, ![E, 1]⟩ w) (c : EReal) (hc : ∃ r : ℝ, r ≠ 0 ∧ c = (r : EReal)) (i : Fin N) (q : Fin C) :
    Ideal.div (Ideal.hostScatterAdd (rowScatter N E C wfs) (fun _ => 0) dst
        (Host.gather (rowGather N E C wfg) P src) (ix2 i q)) c
      = ∑ k : Fin K, Ideal.div (Ideal.hostScatterAdd (rowScatter N E K wfs') (fun _ => 0) dst
          (Host.gather (rowGather N E K wfg') X src) (ix2 i k)) c * W (ix2 k q) := by
  have hN : 0 < N := Nat.lt_of_le_of_lt (Nat.zero_le _) i.isLt
  choose xr hxr using hX
  choose wr hwr using hW
  obtain ⟨r, hr, rfl⟩ := hc
  simp only [segmentSum_apply hN, Ideal.div_coe hr, hP, hxr, hwr]
  simp only [← EReal.coe_mul, ← coe_sum]
  rw [EReal.coe_eq_coe_iff]
  simp only [Finset.sum_mul]
  refine Finset.sum_comm.trans ?_
  refine Finset.sum_congr rfl fun k _ => Finset.sum_congr rfl fun e _ => ?_
  ring

/-- THE DEGREE, FLOORED AT ONE, IS A NONZERO REAL: the scatter-add of ones from zero counts the edges into node `i`, and
    the maximum of that count and one is a real number, at least one. -/
theorem degree_max_one {N E w : ℕ}
    (wf : ScatterDims.WF ⟨1, ![N]⟩ ⟨2, ![E, 1]⟩ ⟨1, ![E]⟩ [] [0] [0] 1)
    (dst : IVec ⟨2, ![E, 1]⟩ w) (one : EReal) (h1 : one = ((1 : ℝ) : EReal)) (i : Fin N) :
    ∃ r : ℝ, r ≠ 0 ∧
      max (Ideal.hostScatterAdd (vecScatter N E wf) (fun _ => 0) dst (fun _ => one) (ix1 i)) one = (r : EReal) := by
  subst h1
  simp only [vecScatter_apply, zero_add]
  have hsum : ∑ _e ∈ Finset.univ.filter (fun e : Fin E => (dst (ix2 e (0 : Fin 1))).toInt = (i.val : ℤ)), ((1 : ℝ) : EReal)
      = (((Finset.univ.filter (fun e : Fin E => (dst (ix2 e (0 : Fin 1))).toInt = (i.val : ℤ))).card : ℝ) : EReal) := by
    rw [← coe_sum _ (fun _ => (1 : ℝ)), Finset.sum_const, nsmul_eq_mul, mul_one]
  rw [hsum]
  refine ⟨max ((Finset.univ.filter (fun e : Fin E => (dst (ix2 e (0 : Fin 1))).toInt = (i.val : ℤ))).card : ℝ) 1, ?_, ?_⟩
  · exact ne_of_gt (lt_of_lt_of_le one_pos (le_max_right _ _))
  · exact (EReal.coe_strictMono.monotone.map_max).symm

end Cert.SegmentMean

end
-- ==== Proof.RefTerm.lean ====
/-
  The reference's result as one term of its two arguments, and that term's value. The reference wraps negative
  ids (id + 1000000 where id < 0), tests the wrapped id against [0, 999999], gathers row (wrapped id) of the
  table — the start index read signed and clamped into the table — and keeps the gathered row where the test
  held, the constant 0x7FC00000 elsewhere. For ids in [0, 999999]: nothing is wrapped, every test holds, the
  clamp does nothing, and entry (b, d) of the result is entry (ids b, d) of the table.
-/
import proofs.«204365_g77171972375186_cont_9to1c4b_67_15_alg».proof.ReferenceIdeal
import proofs.«204365_g77171972375186_cont_9to1c4b_67_15_alg».proof.Proof.Spec
import proofs.«204365_g77171972375186_cont_9to1c4b_67_15_alg».proof.Proof.LibSegmentMean
import Idealize.ShloMosaic.PureOps.Reduce
import Idealize.ShloMosaic.Lib.Affine
import Idealize.ShloMosaic.Lib.Pipeline.Value

noncomputable section

namespace Cert.ReferenceIdeal.RefValue

open Cert.ReferenceIdeal Idealize.ShloMosaic Idealize.ShloMosaic.ValueIdx
open Facts₀ Facts

variable {F : FTy → Type} [FloatOps F] [Cert.ReferenceIdeal.Facts]

/-- The class ids with the negative ones moved up by the number of rows (a negative id counts from the end). -/
def wrapped (ids : IVec S16384 32) : IVec S16384 32 :=
  select (cmpi .slt ids (broadcastInDim S16384 ![] bcast_S_S16384 (constantI S_ 32 0#32)))
    (addi ids (broadcastInDim S16384 ![] bcast_S_S16384 (constantI S_ 32 1000000#32))) ids

/-- The wrapped ids as a column of start indices, one row index per id. -/
def column (ids : IVec S16384 32) : IVec S16384x1 32 :=
  broadcastInDim S16384x1 ![0] bcast_S16384_S16384x1_0 (wrapped ids)

/-- Per id, whether its wrapped value is a row of the table: 0 ≤ it and it ≤ 999999. -/
def inBounds (ids : IVec S16384 32) : IVec S16384 1 :=
  Host.reduce IntOp.andi
    (andi (cmpi .sge (column ids) (broadcastInDim S16384x1 ![] bcast_S_S16384x1 (constantI S_ 32 0#32)))
      (cmpi .sle (column ids) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The reference's result as one term of its two arguments: the gathered rows where the id is in bounds,
    the constant 0x7FC00000 elsewhere. -/
def value (ids : IVec S16384 32) (tab : FVec F S1000000x32 .f32) : FVec F S16384x32 .f32 :=
  select (broadcastInDim S16384x32 ![0] bcast_S16384_S16384x32_0 (inBounds ids))
    (Host.gather gather_S1000000x32_S16384x1_S16384x32_1_0_n_n_0_1_132 tab (column ids))
    (broadcastInDim S16384x32 ![] bcast_S_S16384x32 (constant S_ .f32 0x7FC00000#32))

/-! ## A conjunction of ones -/

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-- A reduction by `and` from 1 of an array of ones is 1 at every result index. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x hx _

/-! ## The stages at an index, for ids in range -/

variable {ids : IVec S16384 32}

/-- A nonnegative id is not moved. -/
theorem wrapped_apply (h : Cert.Lookup.InRange ids) (b : Fin 16384) : wrapped ids (ix1 b) = ids (ix1 b) := by
  show Scalar.select (IntOp.cmpi .slt (ids (ix1 b)) 0#32) _ (ids (ix1 b)) = _
  unfold Scalar.select
  rw [if_neg]
  intro hc
  have h1 := IntOp.cmpi_slt.1 hc
  have h0 := (h b).1
  rw [show (0#32 : BitVec 32).toInt = 0 from by decide] at h1
  omega

/-- The column of start indices at row b is id b. -/
theorem column_apply (h : Cert.Lookup.InRange ids) (i : S16384x1.Idx) :
    column ids i = ids (ix1 ⟨(i 0).val, idx2_lt0 i⟩) := by
  unfold column
  rw [broadcastInDim_apply (![0] : Fin 1 → Fin 2) bcast_S16384_S16384x1_0 (wrapped ids) i (ix1 ⟨(i 0).val, idx2_lt0 i⟩)
    (fun a => by match a with | ⟨0, _⟩ => exact (if_neg (show ¬((16384 : ℕ) = 1) by decide)).symm)]
  exact wrapped_apply h _

/-- Every id is in bounds. -/
theorem inBounds_apply (h : Cert.Lookup.InRange ids) (b : S16384.Idx) : inBounds ids b = 1#1 := by
  unfold inBounds
  refine reduce_andi_of_all _ _ _ _ _ (fun i => ?_) (fun _ => rfl)
  refine IntOp.andi_eq_one.2 ⟨IntOp.cmpi_sge.2 ?_, IntOp.cmpi_sle.2 ?_⟩
  · show (0#32 : BitVec 32).toInt ≤ (column ids i).toInt
    rw [column_apply h, show (0#32 : BitVec 32).toInt = 0 from by decide]
    exact (h _).1
  · show (column ids i).toInt ≤ (999999#32 : BitVec 32).toInt
    rw [column_apply h, show (999999#32 : BitVec 32).toInt = 999999 from by decide]
    exact (h _).2

/-- The gathered row b is row (ids b) of the table: the start index, read signed and clamped into the table, is the id. -/
theorem gather_apply (h : Cert.Lookup.InRange ids) (tab : FVec F S1000000x32 .f32) (e : Fin 16384) (q : Fin 32) :
    Host.gather gather_S1000000x32_S16384x1_S16384x32_1_0_n_n_0_1_132 tab (column ids) (ix2 e q)
      = tab (ix2 (Cert.Lookup.rowOf (ids (ix1 e))) q) := by
  refine (Cert.SegmentMean.rowGather_apply (N := 1000000) (E := 16384) (C := 32) (by decide)
    gather_S1000000x32_S16384x1_S16384x32_1_0_n_n_0_1_132_wf tab (column ids) e q).trans ?_
  refine congrArg (fun r => tab (ix2 r q)) (Fin.ext ?_)
  show min (column ids (ix2 e (0 : Fin 1))).toInt.toNat (1000000 - 1) = min (ids (ix1 e)).toNat 999999
  rw [column_apply h]
  show min (ids (ix1 e)).toInt.toNat (1000000 - 1) = min (ids (ix1 e)).toNat 999999
  rw [h.toInt_toNat e]

/-- THE REFERENCE'S VALUE: for ids in range, entry (b, d) of the result is entry (ids b, d) of the table. -/
theorem value_eq_lookup (h : Cert.Lookup.InRange ids) (tab : FVec F S1000000x32 .f32) :
    value ids tab = Cert.Lookup.lookup ids tab := by
  funext j
  unfold value
  rw [select_apply]
  have hm : broadcastInDim S16384x32 ![0] bcast_S16384_S16384x32_0 (inBounds ids) j = 1#1 := by
    rw [broadcastInDim_apply (![0] : Fin 1 → Fin 2) bcast_S16384_S16384x32_0 (inBounds ids) j (ix1 ⟨(j 0).val, idx2_lt0 j⟩)
      (fun a => by match a with | ⟨0, _⟩ => exact (if_neg (show ¬((16384 : ℕ) = 1) by decide)).symm)]
    exact inBounds_apply h _
  rw [hm, select_one]
  exact (congrArg (Host.gather gather_S1000000x32_S16384x1_S16384x32_1_0_n_n_0_1_132 tab (column ids)) (eq_ix2 j)).trans
    (gather_apply h tab ⟨(j 0).val, idx2_lt0 j⟩ ⟨(j 1).val, idx2_lt1 j⟩)

end Cert.ReferenceIdeal.RefValue

end
-- ==== Proof.RefRun.lean ====
/-
  The reference program's run. Its @main calls the lookup function, which calls the select function: with the
  two bodies written out at their call sites the program is one straight line of 23 array operations, each
  writing a buffer of its own. Every weakly fair execution terminates with the result buffer at the
  operations' composed term of the two arguments (`value`) and the arguments unchanged; for class ids in
  [0, 999999] that term is the specification's lookup.
-/
import proofs.«204365_g77171972375186_cont_9to1c4b_67_15_alg».proof.ReferenceIdeal
import proofs.«204365_g77171972375186_cont_9to1c4b_67_15_alg».proof.Proof.Gen.ReferenceIdeal
import proofs.«204365_g77171972375186_cont_9to1c4b_67_15_alg».proof.Proof.Spec
import proofs.«204365_g77171972375186_cont_9to1c4b_67_15_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F] [Cert.ReferenceIdeal.Facts]

/-- @main's 23 operations in order, the called functions' operations at the call sites over the call's buffers. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x32_S16384x1_S16384x32_1_0_n_n_0_1_132 x i),
    TRef.unary main_call0.v12 main_call0.v14 (broadcastInDim S16384x32 ![0] bcast_S16384_S16384x32_0),
    TRef.nullary main_call0.cst (constant S_ .f32 0x7FC00000#32),
    TRef.unary main_call0.cst main_call0.v15 (broadcastInDim S16384x32 ![] bcast_S_S16384x32),
    TRef.ternary main_call0.v14 main_call0.v13 main_call0.v15 main_call0.v16 select ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- The fold of the operations at the result buffer is the composed term: each operation's result read at its own
    buffer is its function of its operands' contents, at another buffer what was there. -/
theorem out_eq (V : Valuation τ sig (Elt F)) :
    after ops V (main_v0 : DevRef τ sig) = value (V (main_arg0 : DevRef τ sig)) (V (main_arg1 : DevRef τ sig)) := by
  after_results
  unfold value inBounds column wrapped
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of @main
    terminates with the result at the composed term of the arguments and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _), (h c main_arg1).trans (arg1_eq _)⟩)
    (run_seq scopedRefs_eq scopedSems_eq defs main (fun _ => ops) main_eq (fun _ => ops_sub) m ρ)

/-- At the extended reals, for class ids in [0, 999999]: the reference ends with the lookup of the table at the ids. -/
theorem run (m : (ℓ : Loc nD τ sig) → Buf (Elt Ideal) ℓ) (g : Dev nD → PrngReg)
    (hr : ∀ c : Dev nD, Cert.Lookup.InRange (m ((c.tc : Thread nD τ).loc main_arg0))) :
    θ_run (defs (F := Ideal)) (onTc (τ := τ) (main (F := Ideal))) ⟨m, fun _ => 0, g⟩ (fun r => ∀ c : Dev nD,
      r.2.mem ((c.tc : Thread nD τ).loc main_v0) = Cert.Lookup.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value_eq_lookup (hr c) _), (h c).2⟩) (run_value m g)

end Cert.ReferenceIdeal.RefValue

end
-- ==== Proof.PreRange.lean ====
/-
  From the precondition to the range of the class ids. The precondition is the conjunction of two
  statements, each a conjunction over a whole array: every table entry is finite, and every class id b
  satisfies 0 ≤ b and b ≤ 999999, read as signed integers. Its value being 1 gives the second statement
  at every position, which is the range hypothesis of the specification.
-/
import proofs.«204365_g77171972375186_cont_9to1c4b_67_15_alg».proof.Pre_input_domain
import proofs.«204365_g77171972375186_cont_9to1c4b_67_15_alg».proof.Proof.Gen.Pre_input_domain
import proofs.«204365_g77171972375186_cont_9to1c4b_67_15_alg».proof.Proof.Spec
import Idealize.ShloMosaic.Lib.ReduceAll
import Idealize.ShloMosaic.Lib.ValueIdx

namespace Cert.Lookup

open Idealize.ShloMosaic Idealize.ShloMosaic.ValueIdx

/-- A rank-0 array has exactly one index. -/
instance : Subsingleton Cert.Pre_input_domain.S_.Idx := ⟨fun a b => funext fun d => d.elim0⟩

/-- If the precondition holds of (ids, tab) then every class id names a row of the table. -/
theorem inRange_of_pre {F : FTy → Type} [FloatOps F] [Cert.Pre_input_domain.Facts]
    (ids : IVec Cert.Pre_input_domain.S16384 32) (tab : FVec F Cert.Pre_input_domain.S1000000x32 .f32)
    (h : Cert.Pre_input_domain.fn (F := F) ids tab = fun _ => 1#1) : InRange ids := by
  intro b
  -- the one entry of the rank-0 result
  have h0 := congrFun h ix0
  dsimp only [Cert.Pre_input_domain.fn] at h0
  -- the second conjunct: the conjunction over all positions of (0 ≤ id) ∧ (id ≤ 999999)
  have h1 := (IntOp.andi_eq_one.1 h0).2
  -- at position b
  have h2 := Host.reduce_andi_all _ _ _ _ _ h1 (ix1 b)
  obtain ⟨h4, h5⟩ := IntOp.andi_eq_one.1 h2
  -- the two signed comparisons, against the broadcast constants 0 and 999999
  have h6 : (0#32 : BitVec 32).toInt ≤ (ids (ix1 b)).toInt := IntOp.cmpi_sge.1 h4
  have h7 : (ids (ix1 b)).toInt ≤ (999999#32 : BitVec 32).toInt := IntOp.cmpi_sle.1 h5
  have e0 : (0#32 : BitVec 32).toInt = 0 := by decide
  have e1 : (999999#32 : BitVec 32).toInt = 999999 := by decide
  rw [e0] at h6
  rw [e1] at h7
  exact ⟨h6, h7⟩

end Cert.Lookup
-- ==== Proof.PackIBody.lean ====
/-
  The pack region's body obligation. The body loads the input block B : [32, 16384] whole, transposes it, reads the
  transpose as [4096, 4, 32], and stores row q of every group of four to lanes [32 q, 32 q + 32) of the output block:
  entry (r, 32 q + e) of the output block becomes B (e, 4 r + q). The four stores' lane ranges tile the output block,
  so what they leave does not depend on what the output buffer held. At the last grid point both blocks overhang
  their arrays; the rows of the output block inside the result read only columns of the input block inside the
  table, so the part of the output block that is written back does not depend on what the input buffer holds past
  the table's end.
-/
import proofs.«204365_g77171972375186_cont_9to1c4b_67_15_alg».proof.Proof.PackIData
import Idealize.ShloMosaic.Lib.ValueLayout
import Idealize.ShloMosaic.Lib.Writes

noncomputable section

namespace Cert.KernelIdeal.Lk

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-! ## The blocks' extents -/

/-- The index maps at a grid point: input block `k` is at block index (0, k), output block `k` at (k, 0). -/
theorem tr0_0 (i : grid0.Coords) : cc0_transform_0 i 0 = 0 := rfl
theorem tr0_1 (i : grid0.Coords) : cc0_transform_0 i 1 = (i 0).val := by
  have h : (i 0).val < 62 := (i 0).isLt
  show (BitVec.ofNat 32 (i 0).val).toNat = _
  rw [BitVec.toNat_ofNat]; exact Nat.mod_eq_of_lt (by omega)
theorem tr1_0 (i : grid0.Coords) : cc0_transform_1 i 0 = (i 0).val := by
  have h : (i 0).val < 62 := (i 0).isLt
  show (BitVec.ofNat 32 (i 0).val).toNat = _
  rw [BitVec.toNat_ofNat]; exact Nat.mod_eq_of_lt (by omega)
theorem tr1_1 (i : grid0.Coords) : cc0_transform_1 i 1 = 0 := rfl

/-- What a transfer moves of each block: all 32 rows and the columns up to column 1000000 of the input block; the
    rows up to row 250000 and all 128 lanes of the output block. -/
theorem xsize0_0 (i : grid0.Coords) : win0_0.xsize i 0 = 32 := by
  show (Pipeline.Clip.of (cc0_transform_0 i 0) 32 32).extent 32 = 32
  rw [tr0_0]; rfl
theorem xsize0_1 (i : grid0.Coords) : win0_0.xsize i 1 = min 16384 (1000000 - 16384 * (i 0).val) := by
  have h : (i 0).val < 62 := (i 0).isLt
  show (Pipeline.Clip.of (cc0_transform_0 i 1) 16384 1000000).extent 16384 = _
  rw [tr0_1]; unfold Pipeline.Clip.of
  split
  · show 16384 = _; omega
  · show 1000000 - (i 0).val * 16384 = _; omega
theorem xsize1_0 (i : grid0.Coords) : win0_1.xsize i 0 = min 4096 (250000 - 4096 * (i 0).val) := by
  have h : (i 0).val < 62 := (i 0).isLt
  show (Pipeline.Clip.of (cc0_transform_1 i 0) 4096 250000).extent 4096 = _
  rw [tr1_0]; unfold Pipeline.Clip.of
  split
  · show 4096 = _; omega
  · show 250000 - (i 0).val * 4096 = _; omega
theorem xsize1_1 (i : grid0.Coords) : win0_1.xsize i 1 = 128 := by
  show (Pipeline.Clip.of (cc0_transform_1 i 1) 128 128).extent 128 = 128
  rw [tr1_1]; rfl

/-- A row of the output block that the write-back moves reads, in the input block, only columns the fetch moved:
    4 (4096 k + r) + q < 1000000 when 4096 k + r < 250000. So the moved part of the re-laid block does not depend
    on what the input staging buffer holds past the array's end. -/
theorem cut_pack4_fill {α : Type} (i : grid0.Coords) (d d' : S32x16384.Idx → α) (g : (win0_0.xblock i).Idx → α) :
    win0_1.cut i (pack4 (win0_0.fill i d g)) = win0_1.cut i (pack4 (win0_0.fill i d' g)) := by
  funext j
  have h0 : (j 0).val < win0_1.xsize i 0 := (j 0).isLt
  have h1 : (j 1).val < win0_1.xsize i 1 := (j 1).isLt
  rw [xsize1_0] at h0; rw [xsize1_1] at h1
  have hm : win0_0.moved i (ix2 (⟨(j 1).val % 32, Nat.mod_lt _ (by decide)⟩ : Fin 32)
      (⟨4 * (j 0).val + (j 1).val / 32, by omega⟩ : Fin 16384)) = true :=
    (win0_0.moved_iff i _).mpr fun a => by
      match a with
      | ⟨0, _⟩ => show (j 1).val % 32 < win0_0.xsize i 0; rw [xsize0_0]; exact Nat.mod_lt _ (by decide)
      | ⟨1, _⟩ => show 4 * (j 0).val + (j 1).val / 32 < win0_0.xsize i 1; rw [xsize0_1]; omega
  have key : ∀ k : S32x16384.Idx, win0_0.moved i k = true → win0_0.fill i d g k = win0_0.fill i d' g k := fun k hk => by
    unfold Window.fill; rw [dif_pos hk, dif_pos hk]
  exact key _ hm

/-! ## The body's values -/

/-- The loaded block, transposed and cut into groups of four rows, read at (r, q, e): the block at (e, 4 r + q). -/
theorem pay1_apply (v0 : Vec F S32x16384 .f32) (r : Fin 4096) (q : Fin 4) (e : Fin 32) :
    k0_pay1 v0 (ix3 r q e) = v0 (ix2 e ⟨4 * r.val + q.val, by omega⟩) := by
  show shapeCast S4096x4x32 (transpose S16384x32 [1, 0] (shapeCast S32x16384 v0 shapeCasts_S32x16384_S32x16384)
    transposes_S32x16384_p1_0_S16384x32) shapeCasts_S16384x32_S4096x4x32 (ix3 r q e) = _
  rw [shapeCast_apply _ _ (ix3 r q e) (ix2 (⟨4 * r.val + q.val, by omega⟩ : Fin 16384) e)
    (by rw [Shape.rowMajor_val_two, Shape.rowMajor_val_three]; show (4 * r.val + q.val) * 32 + e.val = (r.val * 4 + q.val) * 32 + e.val; omega),
    transpose_ix2_apply, shapeCast_self]

/-- One store's payload, row `o` of every group, read at (r, e): the block at (e, 4 r + o). -/
theorem pay_apply (v0 : Vec F S32x16384 .f32) (o : Fin 4) (h : S4096x4x32.Slices ![0, o.val, 0] S4096x1x32) (r : Fin 4096) (e : Fin 32) :
    shapeCast S4096x32 (extractStridedSlice S4096x1x32 ![0, o.val, 0] (k0_pay1 v0) h) shapeCasts_S4096x1x32_S4096x32 (ix2 r e)
      = v0 (ix2 e ⟨4 * r.val + o.val, by omega⟩) := by
  rw [shapeCast_apply _ _ (ix2 r e) (ix3 r (0 : Fin 1) e)
    (by rw [Shape.rowMajor_val_two, Shape.rowMajor_val_three]; show (r.val * 1 + 0) * 32 + e.val = r.val * 32 + e.val; omega),
    slice3_axis1_apply o.val _ h r 0 e o (by simp), pay1_apply]

/-- The re-laid block at (r, 32 o + e), for o < 4 and e < 32. -/
theorem pack4_at {α : Type} (B : S32x16384.Idx → α) (j : S4096x128.Idx) (r : Fin 4096) (o : Fin 4) (e : Fin 32)
    (h0 : (j 0).val = r.val) (h1 : (j 1).val = 32 * o.val + e.val) :
    pack4 B j = B (ix2 e ⟨4 * r.val + o.val, by omega⟩) := by
  unfold pack4
  congr 1
  funext a
  match a with
  | ⟨0, _⟩ => exact Fin.ext (by show (j 1).val % 32 = e.val; omega)
  | ⟨1, _⟩ => exact Fin.ext (by show 4 * (j 0).val + (j 1).val / 32 = 4 * r.val + o.val; omega)

/-- One store's payload is the re-laid block on the store's lanes [32 o, 32 o + 32). -/
theorem piece_ok (v0 : Vec F S32x16384 .f32) (o : Fin 4) (h : S4096x4x32.Slices ![0, o.val, 0] S4096x1x32)
    (inb : ∀ a, (![0, 32 * o.val] : Fin 2 → Nat) a + (![4096, 32] : Fin 2 → Nat) a ≤ S4096x128.size a) (x : S4096x32.Idx) :
    shapeCast S4096x32 (extractStridedSlice S4096x1x32 ![0, o.val, 0] (k0_pay1 v0) h) shapeCasts_S4096x1x32_S4096x32 x
      = pack4 v0 ((Rect.unit (s := S4096x128) ![0, 32 * o.val] ![4096, 32] inb).emb x) := by
  obtain ⟨a, b, rfl⟩ : ∃ (a : Fin 4096) (b : Fin 32), x = ix2 a b := ⟨x 0, x 1, eq_ix2 (n0 := 4096) (n1 := 32) x⟩
  rw [pay_apply]
  exact (pack4_at v0 _ a o b (by show 0 + 1 * a.val = a.val; omega)
    (by show 32 * o.val + 1 * b.val = 32 * o.val + b.val; omega)).symm

/-- The body's four stores, the last first: lanes [96, 128), [64, 96), [32, 64), [0, 32) of every row. -/
def packStores (v0 : Vec F S32x16384 .f32) : List (View.Piece (Elt F) S4096x128 .f32) :=
  [⟨Rect.unit ![0, 96] ![4096, 32] inb_S4096x128_S4096x32_0_96, k0_pay5 v0⟩,
   ⟨Rect.unit ![0, 64] ![4096, 32] inb_S4096x128_S4096x32_0_64, k0_pay4 v0⟩,
   ⟨Rect.unit ![0, 32] ![4096, 32] inb_S4096x128_S4096x32_0_32, k0_pay3 v0⟩,
   ⟨Rect.unit ![0, 0] ![4096, 32] inb_S4096x128_S4096x32_0_0, k0_pay2 v0⟩]

/-- Each store writes the re-laid block's entries on its lanes, and the four lane ranges make up the row: what the
    stores leave is the re-laid block, whatever the buffer held. -/
theorem read_packStores {κ : Kind} {sp : Space} (v : View sig κ sp S4096x128 .f32) (f : v.ty.Contents (Elt F)) (v0 : Vec F S32x16384 .f32) :
    v.read (Elt F) (v.writes (Elt F) f (packStores v0)) = pack4 v0 := by
  funext y
  refine View.read_writes_apply_of_pieces v f (pack4 v0) (packStores v0) ?_ y
    (View.cover_of_tiled (packStores v0) ![4096, 32] rfl y)
  intro p hp
  simp only [packStores, List.mem_cons, List.not_mem_nil, or_false] at hp
  rcases hp with rfl | rfl | rfl | rfl
  · exact fun x => piece_ok v0 3 slices_S4096x4x32_o0_3_0_S4096x1x32 inb_S4096x128_S4096x32_0_96 x
  · exact fun x => piece_ok v0 2 slices_S4096x4x32_o0_2_0_S4096x1x32 inb_S4096x128_S4096x32_0_64 x
  · exact fun x => piece_ok v0 1 slices_S4096x4x32_o0_1_0_S4096x1x32 inb_S4096x128_S4096x32_0_32 x
  · exact fun x => piece_ok v0 0 slices_S4096x4x32_o0_0_0_S4096x1x32 inb_S4096x128_S4096x32_0_0 x

/-! ## What the body finds in the staging buffers -/

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-- The input's buffer just fetched: the columns of `X` inside the array, `d` past its end. -/
theorem before_0 (c : Dev nD) (t : Fin cfg0.N) (d) :
    (packDat O₀ W₀ X Y₀ c).before (0 : Fin 2) t d
      = win0_0.fill (grid0.coords t) d ((win0_0.blk t).view.read (Elt F) (X c)) := by
  unfold Dat.before; rw [if_pos (fetch0_0 t)]; rfl

/-- The result's buffer at contents nothing names: it is never fetched, and every point writes it back. -/
theorem before_1 (c : Dev nD) (t : Fin cfg0.N) (d) : (packDat O₀ W₀ X Y₀ c).before (1 : Fin 2) t d = d := by
  unfold Dat.before
  rw [if_neg (by rw [show (cfg0.win (1 : Fin 2)).fetch t = false from rfl]; exact Bool.false_ne_true)]
  by_cases ht : t.val = 0
  · rw [if_pos ht]
  · rw [if_neg ht]; exact if_pos (flush0_1 _)

/-! ## The body -/

set_option maxHeartbeats 2000000 in
/-- The body on staging buffer `s0` of the input's window and `s1` of the result's: one whole load, four stores of
    the re-laid block's lane ranges (each after a load of the same rectangle, which changes nothing). The result's
    buffer ends holding the re-laid contents of the input's, which is unchanged. -/
theorem pack_body_sound (c : Dev nD) (E : Set ℕ) (i : grid0.Coords) (s0 s1 : Fin 2)
    (B : S32x16384.Idx → Elt F .f32) (D1 : S4096x128.Idx → Elt F .f32) (Kc : PUnit → sProp 𝕄) :
    iprop((owns (T c) (stage0_0 s0) fullShare B ∗ owns (T c) (stage0_1 s1) fullShare D1)
          ∗ (iprop(owns (T c) (stage0_0 s0) fullShare B ∗ owns (T c) (stage0_1 s1) fullShare (pack4 B)) -∗ Kc ⟨⟩))
      ⊢ wp frame (wpE (defs₀ (F := F)) 𝒱₀ (T c) none) E
          (cc0__pack_body i (stage0_0 s0) (hstage0_0 s0) (stage0_1 s1) (hstage0_1 s1)) Kc := by
  have hz : (![0, 0] : Fin 2 → Nat) = fun _ => 0 := funext fun a => by fin_cases a <;> rfl
  fin_cases s0 <;> fin_cases s1
  · -- the input's buffer `cc0_stg0_0`, the result's `cc0_stg1_0`
    have hr : ∀ f, (Memref.whole cc0_stg0_0 : Memref sig .tc _ _ _).view.readAt (Elt F) (Rect.unit (s := S32x16384) ![0, 0] S32x16384.size
        inb_S32x16384_S32x16384_0_0).toLoadRect f = f := Memref.readAt_unit_zero (Elt F) cc0_stg0_0 hz _
    have hw : ∀ f (v0 : Vec F S32x16384 .f32),
        (Memref.whole cc0_stg1_0 : Memref sig .tc _ _ _).view.writes (Elt F) f (packStores v0) = pack4 v0 := fun f v0 => by
      have h := read_packStores (View.whole cc0_stg1_0) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1
  · -- the input's buffer `cc0_stg0_0`, the result's `cc0_stg1_1`
    have hr : ∀ f, (Memref.whole cc0_stg0_0 : Memref sig .tc _ _ _).view.readAt (Elt F) (Rect.unit (s := S32x16384) ![0, 0] S32x16384.size
        inb_S32x16384_S32x16384_0_0).toLoadRect f = f := Memref.readAt_unit_zero (Elt F) cc0_stg0_0 hz _
    have hw : ∀ f (v0 : Vec F S32x16384 .f32),
        (Memref.whole cc0_stg1_1 : Memref sig .tc _ _ _).view.writes (Elt F) f (packStores v0) = pack4 v0 := fun f v0 => by
      have h := read_packStores (View.whole cc0_stg1_1) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1
  · -- the input's buffer `cc0_stg0_1`, the result's `cc0_stg1_0`
    have hr : ∀ f, (Memref.whole cc0_stg0_1 : Memref sig .tc _ _ _).view.readAt (Elt F) (Rect.unit (s := S32x16384) ![0, 0] S32x16384.size
        inb_S32x16384_S32x16384_0_0).toLoadRect f = f := Memref.readAt_unit_zero (Elt F) cc0_stg0_1 hz _
    have hw : ∀ f (v0 : Vec F S32x16384 .f32),
        (Memref.whole cc0_stg1_0 : Memref sig .tc _ _ _).view.writes (Elt F) f (packStores v0) = pack4 v0 := fun f v0 => by
      have h := read_packStores (View.whole cc0_stg1_0) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1
  · -- the input's buffer `cc0_stg0_1`, the result's `cc0_stg1_1`
    have hr : ∀ f, (Memref.whole cc0_stg0_1 : Memref sig .tc _ _ _).view.readAt (Elt F) (Rect.unit (s := S32x16384) ![0, 0] S32x16384.size
        inb_S32x16384_S32x16384_0_0).toLoadRect f = f := Memref.readAt_unit_zero (Elt F) cc0_stg0_1 hz _
    have hw : ∀ f (v0 : Vec F S32x16384 .f32),
        (Memref.whole cc0_stg1_1 : Memref sig .tc _ _ _).view.writes (Elt F) f (packStores v0) = pack4 v0 := fun f v0 => by
      have h := read_packStores (View.whole cc0_stg1_1) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1

/-- The library's body obligation, at a symbolic point and whichever staging buffers the point's slots are: the
    input's buffer arrives holding its block filled out with some `d0` past the array's end and leaves unchanged;
    the result's arrives holding anything and leaves holding the re-laid buffer, whose rows inside the array do not
    depend on `d0` (`cut_pack4_fill`) — all either loose window's obligation states. -/
theorem packBody (c : Dev nD) :
    BodyObligationLoose (packDat O₀ W₀ X Y₀ c) (defs₀ (F := F)) 𝒱₀ (none : HIx 1) Set.univ := fun t => by
  rw [bigSep_W0, bigSep_W0]
  simp only
  rw [show (packDat O₀ W₀ X Y₀ c).Φ t.succ = (packDat O₀ W₀ X Y₀ c).Φ t.castSucc from rfl,
    show (packDat O₀ W₀ X Y₀ c).owesAt none t.succ = (packDat O₀ W₀ X Y₀ c).owesAt none t.castSucc from rfl]
  iintro ⟨HΦ, Ho, ⟨%d0, H0⟩, ⟨%d1, H1⟩⟩
  rw [before_0 O₀ W₀ X Y₀ c t d0, before_1 O₀ W₀ X Y₀ c t d1]
  iapply (pack_body_sound (F := F) c Set.univ (grid0.coords t) (cfg0.slots t 0) (cfg0.slots t 1)
    (win0_0.fill (grid0.coords t) d0 ((win0_0.blk t).view.read (Elt F) (X c))) d1 _)
  isplitl [H0 H1]
  · isplitl [H0]
    · iexact H0
    · iexact H1
  iintro ⟨H0, H1⟩
  isplitl [HΦ]; · iexact HΦ
  isplitl [Ho]; · iexact Ho
  isplitl [H0]
  · iexists d0
    change _ ⊢ owns (T c) (stage0_0 (cfg0.slots t 0)) fullShare
      (win0_0.fill (grid0.coords t) d0 (win0_0.cut (grid0.coords t) (inBlk X c t)))
    rw [show win0_0.cut (grid0.coords t) (inBlk X c t) = (win0_0.blk t).view.read (Elt F) (X c) from win0_0.cut_fill _ _ _]
    try iexact H0
  · iexists pack4 (win0_0.fill (grid0.coords t) d0 ((win0_0.blk t).view.read (Elt F) (X c)))
    change _ ⊢ owns (T c) (stage0_1 (cfg0.slots t 1)) fullShare
      (win0_1.fill (grid0.coords t) (pack4 (win0_0.fill (grid0.coords t) d0 ((win0_0.blk t).view.read (Elt F) (X c))))
        (win0_1.cut (grid0.coords t) (pack4 (inBlk X c t))))
    unfold inBlk
    rw [win0_1.fill_congr_cut (grid0.coords t) (cut_pack4_fill (grid0.coords t) d0 _ _)]
    try iexact H1

end Cert.KernelIdeal.Lk

end
-- ==== Proof.PackIValue.lean ====
/-
  The pack region's result in closed form. What the write-back at grid point t writes is the packed table read
  through the point's block: rows [4096 t, 4096 t + 4096) cut at row 250000, all 128 lanes. Every row lies in the
  block of the point its number divided by 4096 names, so after the last write-back the result array is the packed
  table, whatever it held before. And the packed table of the transposed table is the table's rows laid four to a
  row.
-/
import proofs.«204365_g77171972375186_cont_9to1c4b_67_15_alg».proof.Proof.PackIBody
import Idealize.ShloMosaic.Lib.Pipeline.Value

noncomputable section

namespace Cert.KernelIdeal.Lk

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-! ## A block in the array's coordinates -/

/-- A point's coordinate is its number: the grid has one axis. -/
theorem coords0 (t : Fin cfg0.N) : (grid0.coords t 0).val = t.val := by
  have h : t.val < 62 := by have h1 : t.val < grid0.N := t.isLt; have h2 := N_0; omega
  show t.val / grid0.stride 0 % 62 = t.val
  rw [show grid0.stride 0 = 1 from by decide]; omega

theorem index0_0 (t : Fin cfg0.N) : win0_0.index t 0 = 0 := tr0_0 (grid0.coords t)
theorem index0_1 (t : Fin cfg0.N) : win0_0.index t 1 = t.val := (tr0_1 (grid0.coords t)).trans (coords0 t)
theorem index1_0 (t : Fin cfg0.N) : win0_1.index t 0 = t.val := (tr1_0 (grid0.coords t)).trans (coords0 t)
theorem index1_1 (t : Fin cfg0.N) : win0_1.index t 1 = 0 := tr1_1 (grid0.coords t)

/-- The input block at point `t` reads the array through its rectangle; -/
theorem read_blk0 (t : Fin cfg0.N) (A : S32x1000000.Idx → Elt F .f32) (k : (win0_0.xblock (grid0.coords t)).Idx) :
    (win0_0.blk t).view.read (Elt F) A k = A ((win0_0.rect t).emb k) := by
  rw [View.read_apply]; rfl
/-- the output block likewise. -/
theorem read_blk1 (t : Fin cfg0.N) (A : S250000x128.Idx → Elt F .f32) (j : (win0_1.xblock (grid0.coords t)).Idx) :
    (win0_1.blk t).view.read (Elt F) A j = A ((win0_1.rect t).emb j) := by
  rw [View.read_apply]; rfl

/-- The entry of the input block that a moved entry of the output block reads was itself moved by the fetch. -/
theorem moved_pack4 (i : grid0.Coords) (j : (win0_1.xblock i).Idx) :
    win0_0.moved i (ix2 (⟨(j 1).val % 32, Nat.mod_lt _ (by decide)⟩ : Fin 32)
      (⟨4 * (j 0).val + (j 1).val / 32, by
        have h0 : (j 0).val < win0_1.xsize i 0 := (j 0).isLt
        have h1 : (j 1).val < win0_1.xsize i 1 := (j 1).isLt
        rw [xsize1_0] at h0; rw [xsize1_1] at h1; omega⟩ : Fin 16384)) = true := by
  have h0 : (j 0).val < win0_1.xsize i 0 := (j 0).isLt
  have h1 : (j 1).val < win0_1.xsize i 1 := (j 1).isLt
  rw [xsize1_0] at h0; rw [xsize1_1] at h1
  refine (win0_0.moved_iff i _).mpr fun a => ?_
  match a with
  | ⟨0, _⟩ => show (j 1).val % 32 < win0_0.xsize i 0; rw [xsize0_0]; exact Nat.mod_lt _ (by decide)
  | ⟨1, _⟩ => show 4 * (j 0).val + (j 1).val / 32 < win0_0.xsize i 1; rw [xsize0_1]; omega

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-! ## The result array, in closed form -/

/-- What the write-back at point `t` writes is the packed table read through the point's block: row r, lane l of the
    output block is the input block at (l % 32, 4 r + l / 32), which is `X` at (l % 32, 16384 t + 4 r + l / 32), and
    16384 t + 4 r = 4 (4096 t + r). -/
theorem flushed_1 (c : Dev nD) (t : Fin cfg0.N) :
    (packDat O₀ W₀ X Y₀ c).flushed (1 : Fin 2) t = (win0_1.blk t).view.read (Elt F) (repack (X c)) := by
  funext j
  have hm := moved_pack4 (grid0.coords t) j
  rw [read_blk1]
  show win0_0.fill (grid0.coords t) (fun _ => Scalar.ofBits .f32 0#32) ((win0_0.blk t).view.read (Elt F) (X c))
    (ix2 (⟨(j 1).val % 32, Nat.mod_lt _ (by decide)⟩ : Fin 32) (⟨4 * (j 0).val + (j 1).val / 32, _⟩ : Fin 16384)) = _
  unfold Window.fill
  rw [dif_pos hm, read_blk0]
  unfold repack
  refine congrArg (X c) (funext fun a => Fin.ext ?_)
  match a with
  | ⟨0, _⟩ =>
    show ((win0_0.rect t).emb _ 0).val = ((win0_1.rect t).emb j 1).val % 32
    rw [Pipeline.Window.rect_emb_val, Pipeline.Window.rect_emb_val, index0_0, index1_1]
    show 0 * 32 + (j 1).val % 32 = (0 * 128 + (j 1).val) % 32
    omega
  | ⟨1, _⟩ =>
    show ((win0_0.rect t).emb _ 1).val = 4 * ((win0_1.rect t).emb j 0).val + ((win0_1.rect t).emb j 1).val / 32
    rw [Pipeline.Window.rect_emb_val, Pipeline.Window.rect_emb_val, Pipeline.Window.rect_emb_val, index0_1, index1_0, index1_1]
    show t.val * 16384 + (4 * (j 0).val + (j 1).val / 32) = 4 * (t.val * 4096 + (j 0).val) + (0 * 128 + (j 1).val) / 32
    omega

/-- Every row of the result lies in the block of the point its number divided by 4096 names: the 62 blocks, the last
    cut at row 250000, cover the array. -/
theorem cover_1 (i : S250000x128.Idx) : ∃ t : Fin cfg0.N, (cfg0.win (1 : Fin 2)).flush t = true ∧ i ∈ ((cfg0.win (1 : Fin 2)).blk t).view.set := by
  have h0 := idx2_lt0 i
  have h1 := idx2_lt1 i
  let t : Fin cfg0.N := ⟨(i 0).val / 4096, by show (i 0).val / 4096 < grid0.N; have h2 := N_0; omega⟩
  refine ⟨t, flush0_1 t, ?_⟩
  show i ∈ ((View.whole main_v1).slice (win0_1.rect t)).set
  rw [View.set_slice_whole, Rect.mem_set_unit]
  intro a
  match a with
  | ⟨0, _⟩ =>
    show win0_1.index t 0 * 4096 ≤ (i 0).val ∧ (i 0).val < win0_1.index t 0 * 4096 + win0_1.xsize (grid0.coords t) 0
    rw [index1_0, xsize1_0, coords0]
    show (i 0).val / 4096 * 4096 ≤ (i 0).val ∧ (i 0).val < (i 0).val / 4096 * 4096 + min 4096 (250000 - 4096 * ((i 0).val / 4096))
    omega
  | ⟨1, _⟩ =>
    show win0_1.index t 1 * 128 ≤ (i 1).val ∧ (i 1).val < win0_1.index t 1 * 128 + win0_1.xsize (grid0.coords t) 1
    rw [index1_1, xsize1_1]
    omega

/-- The result array after the last write-back is the packed table, -/
theorem packDat_final (c : Dev nD) : (packDat O₀ W₀ X Y₀ c).arrAt (1 : Fin 2) cfg0.N = repack (X c) :=
  Pipeline.Dat.arrAt_eq_of_cover (packDat O₀ W₀ X Y₀ c) (1 : Fin 2) (repack (X c))
    (fun t _ => flushed_1 O₀ W₀ X Y₀ c t) cover_1

/-- and the transposed table, an input, is what it was. -/
theorem packDat_final_in (c : Dev nD) : (packDat O₀ W₀ X Y₀ c).arrAt (0 : Fin 2) cfg0.N = X c :=
  Pipeline.Dat.arrAt_in (packDat O₀ W₀ X Y₀ c) (0 : Fin 2) rfl _

/-! ## The packed table of the transposed table -/

/-- Transposing the table and re-laying the transpose gives the packed table: entry (R, 32 q + e) is entry
    (4 R + q, e) of the table. -/
theorem repack_transpose {α : Type} (tab : S1000000x32.Idx → α) :
    repack (transpose S32x1000000 [1, 0] tab transposes_S1000000x32_S32x1000000_1_0) = Cert.Lookup.packed tab := by
  funext j
  unfold repack Cert.Lookup.packed
  rw [transpose_ix2_apply]

end Cert.KernelIdeal.Lk

end
-- ==== Proof.PackISeg.lean ====
/-
  The pack region as a segment of @main. Entered with the transposed table and the result array whole at the full
  share and the TensorCore owing only at the SparseCore calls' indices (nothing at the index of the pipeline's own
  waits), the region runs its 62 grid points and is left with the transposed table as it was and the result array
  the packed table. The region has no semaphore of its own and no invariant; every pair its waits record sits at the
  pipeline's index, below everything the core owes.
-/
import proofs.«204365_g77171972375186_cont_9to1c4b_67_15_alg».proof.Proof.PackIValue

noncomputable section

namespace Cert.KernelIdeal.Lk

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-! ## The pipeline's resources, opened -/

/-- Both arrays are held whole at the full share. -/
theorem packDat_share (c : Dev nD) (w : Fin cfg0.W) : (packDats O₀ W₀ X Y₀ 0 c).share w = fullShare :=
  Pipeline.Dat.share_full _ (fun _ => rfl) w

/-- The pipeline's arrays at contents `Fa`: the transposed table and the result, each whole at the full share. -/
theorem packDat_arrays (c : Dev nD) (Fa : (w : Fin cfg0.W) → Buf (Elt F) ((cfg0.win w).arr.view.loc (T c))) :
    ((packDats O₀ W₀ X Y₀ 0 c).arrays Fa : sProp 𝕄)
      = iprop((tabTLoc c ↦{fullShare} Fa 0) ∗ (pkLoc c ↦{fullShare} Fa 1)) := by
  rw [Pipeline.arrays_eq cfgs (packDats O₀ W₀ X Y₀) 0 c arr_whole0 (packDat_share O₀ W₀ X Y₀ c) Fa, bigSep_W0]

/-- At the last point the arrays hold the transposed table and the packed table. -/
theorem packDat_arrays_final (c : Dev nD) :
    ((packDats O₀ W₀ X Y₀ 0 c).arrays ((packDats O₀ W₀ X Y₀ 0 c).arrAt · (Pipeline.pin (pcfgs (F := F)) aAdm 0).N) : sProp 𝕄)
      = iprop((tabTLoc c ↦{fullShare} X c) ∗ (pkLoc c ↦{fullShare} repack (X c))) := by
  rw [packDat_arrays]
  show iprop((tabTLoc c ↦{fullShare} (packDat O₀ W₀ X Y₀ c).arrAt (0 : Fin 2) cfg0.N)
    ∗ (pkLoc c ↦{fullShare} (packDat O₀ W₀ X Y₀ c).arrAt (1 : Fin 2) cfg0.N)) = _
  rw [packDat_final, packDat_final_in]

/-- At the first point they hold what the region was entered with. -/
theorem packDat_arrays_entry (c : Dev nD) :
    ((packDats O₀ W₀ X Y₀ 0 c).arrays ((packDats O₀ W₀ X Y₀ 0 c).arrAt · 0) : sProp 𝕄)
      = iprop((tabTLoc c ↦{fullShare} X c) ∗ (pkLoc c ↦{fullShare} Y₀ c)) := by
  rw [packDat_arrays]
  rfl

/-- The pipeline prefetches no table. -/
theorem bigSep_none {M : Type} [URA M] (Φ : Fin 0 → sProp M) : bigSep Finset.univ Φ = (BI.emp : sProp M) :=
  bigSep_univ_eq_bigSepL [] (by decide) (by decide) Φ
theorem prefHeld_eq (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The TensorCore has no scoped buffer besides the staging buffers. -/
theorem scopedRest_eq (c : Dev nD) :
    (Pipeline.scopedRest (Ix := HIx 1) (Name := ℕ) (U := UU) (Lvl := ℕ) (Val := Elt F) (Pipeline.pin (pcfgs (F := F)) aAdm 0).spec c : sProp 𝕄) = BI.emp :=
  scopedRest0_eq c

/-- The core's `owes` entering the pipeline: the tallies `O₀ c`, the recorded pairs `W₀ c`. -/
theorem owesAt_intro (c : Dev nD) (t : Fin (cfg0.N + 1)) :
    owes (T c) (O₀ c) (W₀ c) ⊢ ((packDats O₀ W₀ X Y₀ 0 c).owesAt none t : sProp 𝕄) := by
  unfold Pipeline.Dat.owesAt Pipeline.owesWithin
  iintro HO; iexists (W₀ c); isplitr
  · ipureintro; exact Set.subset_union_left
  iexact HO

/-- The core's `owes` leaving it: the same tallies; every pair recorded since sits at index `none` (the loop's waits
    on its staging semaphores). -/
theorem owesAt_elim (c : Dev nD) (t : Fin (cfg0.N + 1)) :
    ((packDats O₀ W₀ X Y₀ 0 c).owesAt none t : sProp 𝕄)
      ⊢ iprop(∃ W : Waits sig (HIx 1), ⌜∀ p ∈ W, p ∈ W₀ c ∨ p.2 = none⌝ ∗ owes (T c) (O₀ c) W) := by
  unfold Pipeline.Dat.owesAt Pipeline.owesWithin
  iintro ⟨%W, %hW, HO⟩; iexists W; isplitr
  · ipureintro
    intro p hp
    rcases hW (Finset.mem_coe.mpr hp) with h | ⟨w, s, rfl⟩
    · exact Or.inl (Finset.mem_coe.mp h)
    · exact Or.inr rfl
  iexact HO

/-! ## The region -/

/-- The pack region: entered with the transposed table at `X c`, the result at `Y₀ c` and the core owing `O₀ c`
    (nothing at index `none`, where the pipeline's waits sit) with recorded pairs `W₀ c`; left with the table as it
    was, the result the packed table, and the core owing the same. No semaphore of the kernel's own, no invariant,
    nothing bypassing. -/
def packSeg (hO₀ : ∀ c g, O₀ c g none = 0) :
    Pipeline.RegionSeg (pcfgs (F := F)) aAdm (packDats O₀ W₀ X Y₀) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := packBody O₀ W₀ X Y₀ c
  hwaits c := Pipeline.cellsWaits_intro cfgs (packDats O₀ W₀ X Y₀) none 0 c fun w s _ =>
    (K (F := F)).mayWait_none (.dma ((cfg0.win w).sem s)) (hO₀ c)
  pre c := iprop((tabTLoc c ↦{fullShare} X c) ∗ (pkLoc c ↦{fullShare} Y₀ c) ∗ owes (T c) (O₀ c) (W₀ c))
  post c := iprop((tabTLoc c ↦{fullShare} X c) ∗ (pkLoc c ↦{fullShare} repack (X c))
    ∗ ∃ W : Waits sig (HIx 1), ⌜∀ p ∈ W, p ∈ W₀ c ∨ p.2 = none⌝ ∗ owes (T c) (O₀ c) W)
  X _ := iprop(emp)
  Y _ := iprop(emp)
  Z _ := iprop(emp)
  hentry c := by
    rw [Pipeline.ownSems0_none, packDat_arrays_entry, prefHeld_eq]
    iintro ⟨⟨Hx, Hy, HO⟩, -, -⟩
    imodintro
    isplitl [Hx Hy]
    · isplitl [Hx]
      · iexact Hx
      · iexact Hy
    isplitr; · iempintro
    isplitl [HO]; · iapply (owesAt_intro O₀ W₀ X Y₀ c 0); iexact HO
    isplitr <;> iempintro
  hin c := by
    iintro -; iempintro
  hout c := by
    rw [Pipeline.ownSems0_none, scopedRest_eq]
    iintro -
    isplitr; · iempintro
    isplitr <;> iempintro
  hexit c := by
    rw [packDat_arrays_final]
    iintro ⟨⟨Hx, Hy⟩, HO, -, -⟩
    imodintro
    isplitl [Hx]; · iexact Hx
    isplitl [Hy]; · iexact Hy
    iapply (owesAt_elim O₀ W₀ X Y₀ c _); iexact HO

theorem packSeg_pre (hO₀ : ∀ c g, O₀ c g none = 0) (c : Dev nD) :
    (packSeg O₀ W₀ X Y₀ hO₀).pre c
      = iprop((tabTLoc c ↦{fullShare} X c) ∗ (pkLoc c ↦{fullShare} Y₀ c) ∗ owes (T c) (O₀ c) (W₀ c)) := rfl

theorem packSeg_post (hO₀ : ∀ c g, O₀ c g none = 0) (c : Dev nD) :
    (packSeg O₀ W₀ X Y₀ hO₀).post c
      = iprop((tabTLoc c ↦{fullShare} X c) ∗ (pkLoc c ↦{fullShare} repack (X c))
          ∗ ∃ W : Waits sig (HIx 1), ⌜∀ p ∈ W, p ∈ W₀ c ∨ p.2 = none⌝ ∗ owes (T c) (O₀ c) W) := rfl

/-! ## The region's step, as @main uses it -/

/-- On device `d`'s TensorCore: from the boundary, the level facts, the pack pipeline's ghost state, the transposed
    table at `Xd`, the result array at some contents, and the core owing `O` (nothing at index `none`) with every
    recorded pair at level 0, the region's custom call runs to the boundary, the table as it was, the result the
    packed table, and the core owing the same with every recorded pair still at level 0, for the continuation. -/
theorem pack_wp (d : Dev nD) (Xd : Buf (Elt F) (tabTLoc d)) (O : CellTallies nD τ sig (HIx 1)) (hO : ∀ g, O g none = 0)
    {α : Type} (k : PUnit → Prog (TpuEff nD τ sig (Elt F) (ΛP (F := F)) .tc) α) (Q : α → sProp 𝕄) :
    iprop((iprop(boundary (T d) ∗ (tabTLoc d ↦{fullShare} Xd) ∗ (pkLoc d ↦{fullShare} repack Xd)
              ∗ (∃ W : Waits sig (HIx 1), ⌜(K (F := F)).WBelow (T d) W 0⌝ ∗ owes (T d) O W))
            -∗ wp frame (wpE (D (F := F)) 𝒱 (T d) none) Set.univ (k ⟨⟩) Q)
        ∗ boundary (T d) ∗ levAts (K (F := F)).L (K (F := F)).lev
        ∗ (Pipeline.cellsGhost (Pipeline.pin (pcfgs (F := F)) aAdm) EP 0 d ∗ Pipeline.toksInit (Pipeline.pin (pcfgs (F := F)) aAdm) EP 0 d)
        ∗ (tabTLoc d ↦{fullShare} Xd) ∗ (∃ Y : Buf (Elt F) (pkLoc d), pkLoc d ↦{fullShare} Y)
        ∗ (∃ W : Waits sig (HIx 1), ⌜(K (F := F)).WBelow (T d) W 0⌝ ∗ owes (T d) O W))
      ⊢ wp frame (wpE (D (F := F)) 𝒱 (T d) none) Set.univ (.op (.customCall (Pipeline.entry 0) ()) k) Q := by
  iintro ⟨Hk, Hb, Hlev, ⟨Hg, Htok⟩, Hx, ⟨%Y, Hy⟩, ⟨%W, %hW, HO⟩⟩
  have h := Pipeline.RegionSeg.wp (pcfgs (F := F)) aAdm (packDats (fun _ => O) (fun _ => W) (fun _ => Xd) (fun _ => Y)) none
    cellOf_inj EP defs₀ 𝒱₀ (K (F := F)).L (K (F := F)).lev
    (packSeg (fun _ => O) (fun _ => W) (fun _ => Xd) (fun _ => Y) (fun _ => hO)) d none (fun u hu => absurd hu (by simp)) k Q
  rw [packSeg_pre, packSeg_post] at h
  iapply h
  isplitl [Hk]
  · iintro ⟨Hb, Hx, Hy, ⟨%W', %hW', HO⟩⟩
    iapply Hk
    isplitl [Hb]; · iexact Hb
    isplitl [Hx]; · iexact Hx
    isplitl [Hy]; · iexact Hy
    iexists W'; isplitr
    · ipureintro
      intro p hp
      rcases hW' p hp with h | h
      · exact hW p h
      · rw [h]; exact le_of_eq ((K (F := F)).lev_none _)
    iexact HO
  isplitl [Hb]; · iexact Hb
  isplitl [Hx Hy HO]
  · isplitl [Hx]; · iexact Hx
    isplitl [Hy]; · iexact Hy
    iexact HO
  isplitl [Hlev]; · iexact Hlev
  isplitl [Hg]; · iexact Hg
  iexact Htok

end Cert.KernelIdeal.Lk

end
-- ==== Proof.PackBBody.lean ====
/-
  The pack region's body obligation. The body loads the input block B : [32, 16384] whole, transposes it, reads the
  transpose as [4096, 4, 32], and stores row q of every group of four to lanes [32 q, 32 q + 32) of the output block:
  entry (r, 32 q + e) of the output block becomes B (e, 4 r + q). The four stores' lane ranges tile the output block,
  so what they leave does not depend on what the output buffer held. At the last grid point both blocks overhang
  their arrays; the rows of the output block inside the result read only columns of the input block inside the
  table, so the part of the output block that is written back does not depend on what the input buffer holds past
  the table's end.
-/
import proofs.«204365_g77171972375186_cont_9to1c4b_67_15_alg».proof.Proof.PackBData
import Idealize.ShloMosaic.Lib.ValueLayout
import Idealize.ShloMosaic.Lib.Writes

noncomputable section

namespace Cert.Kernel.Lk

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-! ## The blocks' extents -/

/-- The index maps at a grid point: input block `k` is at block index (0, k), output block `k` at (k, 0). -/
theorem tr0_0 (i : grid0.Coords) : cc0_transform_0 i 0 = 0 := rfl
theorem tr0_1 (i : grid0.Coords) : cc0_transform_0 i 1 = (i 0).val := by
  have h : (i 0).val < 62 := (i 0).isLt
  show (BitVec.ofNat 32 (i 0).val).toNat = _
  rw [BitVec.toNat_ofNat]; exact Nat.mod_eq_of_lt (by omega)
theorem tr1_0 (i : grid0.Coords) : cc0_transform_1 i 0 = (i 0).val := by
  have h : (i 0).val < 62 := (i 0).isLt
  show (BitVec.ofNat 32 (i 0).val).toNat = _
  rw [BitVec.toNat_ofNat]; exact Nat.mod_eq_of_lt (by omega)
theorem tr1_1 (i : grid0.Coords) : cc0_transform_1 i 1 = 0 := rfl

/-- What a transfer moves of each block: all 32 rows and the columns up to column 1000000 of the input block; the
    rows up to row 250000 and all 128 lanes of the output block. -/
theorem xsize0_0 (i : grid0.Coords) : win0_0.xsize i 0 = 32 := by
  show (Pipeline.Clip.of (cc0_transform_0 i 0) 32 32).extent 32 = 32
  rw [tr0_0]; rfl
theorem xsize0_1 (i : grid0.Coords) : win0_0.xsize i 1 = min 16384 (1000000 - 16384 * (i 0).val) := by
  have h : (i 0).val < 62 := (i 0).isLt
  show (Pipeline.Clip.of (cc0_transform_0 i 1) 16384 1000000).extent 16384 = _
  rw [tr0_1]; unfold Pipeline.Clip.of
  split
  · show 16384 = _; omega
  · show 1000000 - (i 0).val * 16384 = _; omega
theorem xsize1_0 (i : grid0.Coords) : win0_1.xsize i 0 = min 4096 (250000 - 4096 * (i 0).val) := by
  have h : (i 0).val < 62 := (i 0).isLt
  show (Pipeline.Clip.of (cc0_transform_1 i 0) 4096 250000).extent 4096 = _
  rw [tr1_0]; unfold Pipeline.Clip.of
  split
  · show 4096 = _; omega
  · show 250000 - (i 0).val * 4096 = _; omega
theorem xsize1_1 (i : grid0.Coords) : win0_1.xsize i 1 = 128 := by
  show (Pipeline.Clip.of (cc0_transform_1 i 1) 128 128).extent 128 = 128
  rw [tr1_1]; rfl

/-- A row of the output block that the write-back moves reads, in the input block, only columns the fetch moved:
    4 (4096 k + r) + q < 1000000 when 4096 k + r < 250000. So the moved part of the re-laid block does not depend
    on what the input staging buffer holds past the array's end. -/
theorem cut_pack4_fill {α : Type} (i : grid0.Coords) (d d' : S32x16384.Idx → α) (g : (win0_0.xblock i).Idx → α) :
    win0_1.cut i (pack4 (win0_0.fill i d g)) = win0_1.cut i (pack4 (win0_0.fill i d' g)) := by
  funext j
  have h0 : (j 0).val < win0_1.xsize i 0 := (j 0).isLt
  have h1 : (j 1).val < win0_1.xsize i 1 := (j 1).isLt
  rw [xsize1_0] at h0; rw [xsize1_1] at h1
  have hm : win0_0.moved i (ix2 (⟨(j 1).val % 32, Nat.mod_lt _ (by decide)⟩ : Fin 32)
      (⟨4 * (j 0).val + (j 1).val / 32, by omega⟩ : Fin 16384)) = true :=
    (win0_0.moved_iff i _).mpr fun a => by
      match a with
      | ⟨0, _⟩ => show (j 1).val % 32 < win0_0.xsize i 0; rw [xsize0_0]; exact Nat.mod_lt _ (by decide)
      | ⟨1, _⟩ => show 4 * (j 0).val + (j 1).val / 32 < win0_0.xsize i 1; rw [xsize0_1]; omega
  have key : ∀ k : S32x16384.Idx, win0_0.moved i k = true → win0_0.fill i d g k = win0_0.fill i d' g k := fun k hk => by
    unfold Window.fill; rw [dif_pos hk, dif_pos hk]
  exact key _ hm

/-! ## The body's values -/

/-- The loaded block, transposed and cut into groups of four rows, read at (r, q, e): the block at (e, 4 r + q). -/
theorem pay1_apply (v0 : Vec F S32x16384 .f32) (r : Fin 4096) (q : Fin 4) (e : Fin 32) :
    k0_pay1 v0 (ix3 r q e) = v0 (ix2 e ⟨4 * r.val + q.val, by omega⟩) := by
  show shapeCast S4096x4x32 (transpose S16384x32 [1, 0] (shapeCast S32x16384 v0 shapeCasts_S32x16384_S32x16384)
    transposes_S32x16384_p1_0_S16384x32) shapeCasts_S16384x32_S4096x4x32 (ix3 r q e) = _
  rw [shapeCast_apply _ _ (ix3 r q e) (ix2 (⟨4 * r.val + q.val, by omega⟩ : Fin 16384) e)
    (by rw [Shape.rowMajor_val_two, Shape.rowMajor_val_three]; show (4 * r.val + q.val) * 32 + e.val = (r.val * 4 + q.val) * 32 + e.val; omega),
    transpose_ix2_apply, shapeCast_self]

/-- One store's payload, row `o` of every group, read at (r, e): the block at (e, 4 r + o). -/
theorem pay_apply (v0 : Vec F S32x16384 .f32) (o : Fin 4) (h : S4096x4x32.Slices ![0, o.val, 0] S4096x1x32) (r : Fin 4096) (e : Fin 32) :
    shapeCast S4096x32 (extractStridedSlice S4096x1x32 ![0, o.val, 0] (k0_pay1 v0) h) shapeCasts_S4096x1x32_S4096x32 (ix2 r e)
      = v0 (ix2 e ⟨4 * r.val + o.val, by omega⟩) := by
  rw [shapeCast_apply _ _ (ix2 r e) (ix3 r (0 : Fin 1) e)
    (by rw [Shape.rowMajor_val_two, Shape.rowMajor_val_three]; show (r.val * 1 + 0) * 32 + e.val = r.val * 32 + e.val; omega),
    slice3_axis1_apply o.val _ h r 0 e o (by simp), pay1_apply]

/-- The re-laid block at (r, 32 o + e), for o < 4 and e < 32. -/
theorem pack4_at {α : Type} (B : S32x16384.Idx → α) (j : S4096x128.Idx) (r : Fin 4096) (o : Fin 4) (e : Fin 32)
    (h0 : (j 0).val = r.val) (h1 : (j 1).val = 32 * o.val + e.val) :
    pack4 B j = B (ix2 e ⟨4 * r.val + o.val, by omega⟩) := by
  unfold pack4
  congr 1
  funext a
  match a with
  | ⟨0, _⟩ => exact Fin.ext (by show (j 1).val % 32 = e.val; omega)
  | ⟨1, _⟩ => exact Fin.ext (by show 4 * (j 0).val + (j 1).val / 32 = 4 * r.val + o.val; omega)

/-- One store's payload is the re-laid block on the store's lanes [32 o, 32 o + 32). -/
theorem piece_ok (v0 : Vec F S32x16384 .f32) (o : Fin 4) (h : S4096x4x32.Slices ![0, o.val, 0] S4096x1x32)
    (inb : ∀ a, (![0, 32 * o.val] : Fin 2 → Nat) a + (![4096, 32] : Fin 2 → Nat) a ≤ S4096x128.size a) (x : S4096x32.Idx) :
    shapeCast S4096x32 (extractStridedSlice S4096x1x32 ![0, o.val, 0] (k0_pay1 v0) h) shapeCasts_S4096x1x32_S4096x32 x
      = pack4 v0 ((Rect.unit (s := S4096x128) ![0, 32 * o.val] ![4096, 32] inb).emb x) := by
  obtain ⟨a, b, rfl⟩ : ∃ (a : Fin 4096) (b : Fin 32), x = ix2 a b := ⟨x 0, x 1, eq_ix2 (n0 := 4096) (n1 := 32) x⟩
  rw [pay_apply]
  exact (pack4_at v0 _ a o b (by show 0 + 1 * a.val = a.val; omega)
    (by show 32 * o.val + 1 * b.val = 32 * o.val + b.val; omega)).symm

/-- The body's four stores, the last first: lanes [96, 128), [64, 96), [32, 64), [0, 32) of every row. -/
def packStores (v0 : Vec F S32x16384 .f32) : List (View.Piece (Elt F) S4096x128 .f32) :=
  [⟨Rect.unit ![0, 96] ![4096, 32] inb_S4096x128_S4096x32_0_96, k0_pay5 v0⟩,
   ⟨Rect.unit ![0, 64] ![4096, 32] inb_S4096x128_S4096x32_0_64, k0_pay4 v0⟩,
   ⟨Rect.unit ![0, 32] ![4096, 32] inb_S4096x128_S4096x32_0_32, k0_pay3 v0⟩,
   ⟨Rect.unit ![0, 0] ![4096, 32] inb_S4096x128_S4096x32_0_0, k0_pay2 v0⟩]

/-- Each store writes the re-laid block's entries on its lanes, and the four lane ranges make up the row: what the
    stores leave is the re-laid block, whatever the buffer held. -/
theorem read_packStores {κ : Kind} {sp : Space} (v : View sig κ sp S4096x128 .f32) (f : v.ty.Contents (Elt F)) (v0 : Vec F S32x16384 .f32) :
    v.read (Elt F) (v.writes (Elt F) f (packStores v0)) = pack4 v0 := by
  funext y
  refine View.read_writes_apply_of_pieces v f (pack4 v0) (packStores v0) ?_ y
    (View.cover_of_tiled (packStores v0) ![4096, 32] rfl y)
  intro p hp
  simp only [packStores, List.mem_cons, List.not_mem_nil, or_false] at hp
  rcases hp with rfl | rfl | rfl | rfl
  · exact fun x => piece_ok v0 3 slices_S4096x4x32_o0_3_0_S4096x1x32 inb_S4096x128_S4096x32_0_96 x
  · exact fun x => piece_ok v0 2 slices_S4096x4x32_o0_2_0_S4096x1x32 inb_S4096x128_S4096x32_0_64 x
  · exact fun x => piece_ok v0 1 slices_S4096x4x32_o0_1_0_S4096x1x32 inb_S4096x128_S4096x32_0_32 x
  · exact fun x => piece_ok v0 0 slices_S4096x4x32_o0_0_0_S4096x1x32 inb_S4096x128_S4096x32_0_0 x

/-! ## What the body finds in the staging buffers -/

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-- The input's buffer just fetched: the columns of `X` inside the array, `d` past its end. -/
theorem before_0 (c : Dev nD) (t : Fin cfg0.N) (d) :
    (packDat O₀ W₀ X Y₀ c).before (0 : Fin 2) t d
      = win0_0.fill (grid0.coords t) d ((win0_0.blk t).view.read (Elt F) (X c)) := by
  unfold Dat.before; rw [if_pos (fetch0_0 t)]; rfl

/-- The result's buffer at contents nothing names: it is never fetched, and every point writes it back. -/
theorem before_1 (c : Dev nD) (t : Fin cfg0.N) (d) : (packDat O₀ W₀ X Y₀ c).before (1 : Fin 2) t d = d := by
  unfold Dat.before
  rw [if_neg (by rw [show (cfg0.win (1 : Fin 2)).fetch t = false from rfl]; exact Bool.false_ne_true)]
  by_cases ht : t.val = 0
  · rw [if_pos ht]
  · rw [if_neg ht]; exact if_pos (flush0_1 _)

/-! ## The body -/

set_option maxHeartbeats 2000000 in
/-- The body on staging buffer `s0` of the input's window and `s1` of the result's: one whole load, four stores of
    the re-laid block's lane ranges (each after a load of the same rectangle, which changes nothing). The result's
    buffer ends holding the re-laid contents of the input's, which is unchanged. -/
theorem pack_body_sound (c : Dev nD) (E : Set ℕ) (i : grid0.Coords) (s0 s1 : Fin 2)
    (B : S32x16384.Idx → Elt F .f32) (D1 : S4096x128.Idx → Elt F .f32) (Kc : PUnit → sProp 𝕄) :
    iprop((owns (T c) (stage0_0 s0) fullShare B ∗ owns (T c) (stage0_1 s1) fullShare D1)
          ∗ (iprop(owns (T c) (stage0_0 s0) fullShare B ∗ owns (T c) (stage0_1 s1) fullShare (pack4 B)) -∗ Kc ⟨⟩))
      ⊢ wp frame (wpE (defs₀ (F := F)) 𝒱₀ (T c) none) E
          (cc0__pack_body i (stage0_0 s0) (hstage0_0 s0) (stage0_1 s1) (hstage0_1 s1)) Kc := by
  have hz : (![0, 0] : Fin 2 → Nat) = fun _ => 0 := funext fun a => by fin_cases a <;> rfl
  fin_cases s0 <;> fin_cases s1
  · -- the input's buffer `cc0_stg0_0`, the result's `cc0_stg1_0`
    have hr : ∀ f, (Memref.whole cc0_stg0_0 : Memref sig .tc _ _ _).view.readAt (Elt F) (Rect.unit (s := S32x16384) ![0, 0] S32x16384.size
        inb_S32x16384_S32x16384_0_0).toLoadRect f = f := Memref.readAt_unit_zero (Elt F) cc0_stg0_0 hz _
    have hw : ∀ f (v0 : Vec F S32x16384 .f32),
        (Memref.whole cc0_stg1_0 : Memref sig .tc _ _ _).view.writes (Elt F) f (packStores v0) = pack4 v0 := fun f v0 => by
      have h := read_packStores (View.whole cc0_stg1_0) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1
  · -- the input's buffer `cc0_stg0_0`, the result's `cc0_stg1_1`
    have hr : ∀ f, (Memref.whole cc0_stg0_0 : Memref sig .tc _ _ _).view.readAt (Elt F) (Rect.unit (s := S32x16384) ![0, 0] S32x16384.size
        inb_S32x16384_S32x16384_0_0).toLoadRect f = f := Memref.readAt_unit_zero (Elt F) cc0_stg0_0 hz _
    have hw : ∀ f (v0 : Vec F S32x16384 .f32),
        (Memref.whole cc0_stg1_1 : Memref sig .tc _ _ _).view.writes (Elt F) f (packStores v0) = pack4 v0 := fun f v0 => by
      have h := read_packStores (View.whole cc0_stg1_1) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1
  · -- the input's buffer `cc0_stg0_1`, the result's `cc0_stg1_0`
    have hr : ∀ f, (Memref.whole cc0_stg0_1 : Memref sig .tc _ _ _).view.readAt (Elt F) (Rect.unit (s := S32x16384) ![0, 0] S32x16384.size
        inb_S32x16384_S32x16384_0_0).toLoadRect f = f := Memref.readAt_unit_zero (Elt F) cc0_stg0_1 hz _
    have hw : ∀ f (v0 : Vec F S32x16384 .f32),
        (Memref.whole cc0_stg1_0 : Memref sig .tc _ _ _).view.writes (Elt F) f (packStores v0) = pack4 v0 := fun f v0 => by
      have h := read_packStores (View.whole cc0_stg1_0) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1
  · -- the input's buffer `cc0_stg0_1`, the result's `cc0_stg1_1`
    have hr : ∀ f, (Memref.whole cc0_stg0_1 : Memref sig .tc _ _ _).view.readAt (Elt F) (Rect.unit (s := S32x16384) ![0, 0] S32x16384.size
        inb_S32x16384_S32x16384_0_0).toLoadRect f = f := Memref.readAt_unit_zero (Elt F) cc0_stg0_1 hz _
    have hw : ∀ f (v0 : Vec F S32x16384 .f32),
        (Memref.whole cc0_stg1_1 : Memref sig .tc _ _ _).view.writes (Elt F) f (packStores v0) = pack4 v0 := fun f v0 => by
      have h := read_packStores (View.whole cc0_stg1_1) f v0
      rw [View.read_whole] at h
      exact h
    unfold packStores at hw
    simp only [owns_whole_eq, cc0__pack_body_eq_skeleton]; unfold cc0__pack_body_skel
    simp only [Prog.lift, Prog.bind_op, Prog.bind_ret]
    iintro ⟨⟨⟨%f0, %hf0, H0⟩, ⟨%f1, %hf1, H1⟩⟩, Hk⟩
    sl_steps
    iapply Hk
    rw [hw, hr]
    isplitl [H0]
    · iexists f0; isplitr; · ipureintro; exact hf0
      iexact H0
    · iexists pack4 f0; isplitr; · ipureintro; rw [hf0]
      iexact H1

/-- The library's body obligation, at a symbolic point and whichever staging buffers the point's slots are: the
    input's buffer arrives holding its block filled out with some `d0` past the array's end and leaves unchanged;
    the result's arrives holding anything and leaves holding the re-laid buffer, whose rows inside the array do not
    depend on `d0` (`cut_pack4_fill`) — all either loose window's obligation states. -/
theorem packBody (c : Dev nD) :
    BodyObligationLoose (packDat O₀ W₀ X Y₀ c) (defs₀ (F := F)) 𝒱₀ (none : HIx 1) Set.univ := fun t => by
  rw [bigSep_W0, bigSep_W0]
  simp only
  rw [show (packDat O₀ W₀ X Y₀ c).Φ t.succ = (packDat O₀ W₀ X Y₀ c).Φ t.castSucc from rfl,
    show (packDat O₀ W₀ X Y₀ c).owesAt none t.succ = (packDat O₀ W₀ X Y₀ c).owesAt none t.castSucc from rfl]
  iintro ⟨HΦ, Ho, ⟨%d0, H0⟩, ⟨%d1, H1⟩⟩
  rw [before_0 O₀ W₀ X Y₀ c t d0, before_1 O₀ W₀ X Y₀ c t d1]
  iapply (pack_body_sound (F := F) c Set.univ (grid0.coords t) (cfg0.slots t 0) (cfg0.slots t 1)
    (win0_0.fill (grid0.coords t) d0 ((win0_0.blk t).view.read (Elt F) (X c))) d1 _)
  isplitl [H0 H1]
  · isplitl [H0]
    · iexact H0
    · iexact H1
  iintro ⟨H0, H1⟩
  isplitl [HΦ]; · iexact HΦ
  isplitl [Ho]; · iexact Ho
  isplitl [H0]
  · iexists d0
    change _ ⊢ owns (T c) (stage0_0 (cfg0.slots t 0)) fullShare
      (win0_0.fill (grid0.coords t) d0 (win0_0.cut (grid0.coords t) (inBlk X c t)))
    rw [show win0_0.cut (grid0.coords t) (inBlk X c t) = (win0_0.blk t).view.read (Elt F) (X c) from win0_0.cut_fill _ _ _]
    try iexact H0
  · iexists pack4 (win0_0.fill (grid0.coords t) d0 ((win0_0.blk t).view.read (Elt F) (X c)))
    change _ ⊢ owns (T c) (stage0_1 (cfg0.slots t 1)) fullShare
      (win0_1.fill (grid0.coords t) (pack4 (win0_0.fill (grid0.coords t) d0 ((win0_0.blk t).view.read (Elt F) (X c))))
        (win0_1.cut (grid0.coords t) (pack4 (inBlk X c t))))
    unfold inBlk
    rw [win0_1.fill_congr_cut (grid0.coords t) (cut_pack4_fill (grid0.coords t) d0 _ _)]
    try iexact H1

end Cert.Kernel.Lk

end
-- ==== Proof.PackBValue.lean ====
/-
  The pack region's result in closed form. What the write-back at grid point t writes is the packed table read
  through the point's block: rows [4096 t, 4096 t + 4096) cut at row 250000, all 128 lanes. Every row lies in the
  block of the point its number divided by 4096 names, so after the last write-back the result array is the packed
  table, whatever it held before. And the packed table of the transposed table is the table's rows laid four to a
  row.
-/
import proofs.«204365_g77171972375186_cont_9to1c4b_67_15_alg».proof.Proof.PackBBody
import Idealize.ShloMosaic.Lib.Pipeline.Value

noncomputable section

namespace Cert.Kernel.Lk

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

/-! ## A block in the array's coordinates -/

/-- A point's coordinate is its number: the grid has one axis. -/
theorem coords0 (t : Fin cfg0.N) : (grid0.coords t 0).val = t.val := by
  have h : t.val < 62 := by have h1 : t.val < grid0.N := t.isLt; have h2 := N_0; omega
  show t.val / grid0.stride 0 % 62 = t.val
  rw [show grid0.stride 0 = 1 from by decide]; omega

theorem index0_0 (t : Fin cfg0.N) : win0_0.index t 0 = 0 := tr0_0 (grid0.coords t)
theorem index0_1 (t : Fin cfg0.N) : win0_0.index t 1 = t.val := (tr0_1 (grid0.coords t)).trans (coords0 t)
theorem index1_0 (t : Fin cfg0.N) : win0_1.index t 0 = t.val := (tr1_0 (grid0.coords t)).trans (coords0 t)
theorem index1_1 (t : Fin cfg0.N) : win0_1.index t 1 = 0 := tr1_1 (grid0.coords t)

/-- The input block at point `t` reads the array through its rectangle; -/
theorem read_blk0 (t : Fin cfg0.N) (A : S32x1000000.Idx → Elt F .f32) (k : (win0_0.xblock (grid0.coords t)).Idx) :
    (win0_0.blk t).view.read (Elt F) A k = A ((win0_0.rect t).emb k) := by
  rw [View.read_apply]; rfl
/-- the output block likewise. -/
theorem read_blk1 (t : Fin cfg0.N) (A : S250000x128.Idx → Elt F .f32) (j : (win0_1.xblock (grid0.coords t)).Idx) :
    (win0_1.blk t).view.read (Elt F) A j = A ((win0_1.rect t).emb j) := by
  rw [View.read_apply]; rfl

/-- The entry of the input block that a moved entry of the output block reads was itself moved by the fetch. -/
theorem moved_pack4 (i : grid0.Coords) (j : (win0_1.xblock i).Idx) :
    win0_0.moved i (ix2 (⟨(j 1).val % 32, Nat.mod_lt _ (by decide)⟩ : Fin 32)
      (⟨4 * (j 0).val + (j 1).val / 32, by
        have h0 : (j 0).val < win0_1.xsize i 0 := (j 0).isLt
        have h1 : (j 1).val < win0_1.xsize i 1 := (j 1).isLt
        rw [xsize1_0] at h0; rw [xsize1_1] at h1; omega⟩ : Fin 16384)) = true := by
  have h0 : (j 0).val < win0_1.xsize i 0 := (j 0).isLt
  have h1 : (j 1).val < win0_1.xsize i 1 := (j 1).isLt
  rw [xsize1_0] at h0; rw [xsize1_1] at h1
  refine (win0_0.moved_iff i _).mpr fun a => ?_
  match a with
  | ⟨0, _⟩ => show (j 1).val % 32 < win0_0.xsize i 0; rw [xsize0_0]; exact Nat.mod_lt _ (by decide)
  | ⟨1, _⟩ => show 4 * (j 0).val + (j 1).val / 32 < win0_0.xsize i 1; rw [xsize0_1]; omega

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-! ## The result array, in closed form -/

/-- What the write-back at point `t` writes is the packed table read through the point's block: row r, lane l of the
    output block is the input block at (l % 32, 4 r + l / 32), which is `X` at (l % 32, 16384 t + 4 r + l / 32), and
    16384 t + 4 r = 4 (4096 t + r). -/
theorem flushed_1 (c : Dev nD) (t : Fin cfg0.N) :
    (packDat O₀ W₀ X Y₀ c).flushed (1 : Fin 2) t = (win0_1.blk t).view.read (Elt F) (repack (X c)) := by
  funext j
  have hm := moved_pack4 (grid0.coords t) j
  rw [read_blk1]
  show win0_0.fill (grid0.coords t) (fun _ => Scalar.ofBits .f32 0#32) ((win0_0.blk t).view.read (Elt F) (X c))
    (ix2 (⟨(j 1).val % 32, Nat.mod_lt _ (by decide)⟩ : Fin 32) (⟨4 * (j 0).val + (j 1).val / 32, _⟩ : Fin 16384)) = _
  unfold Window.fill
  rw [dif_pos hm, read_blk0]
  unfold repack
  refine congrArg (X c) (funext fun a => Fin.ext ?_)
  match a with
  | ⟨0, _⟩ =>
    show ((win0_0.rect t).emb _ 0).val = ((win0_1.rect t).emb j 1).val % 32
    rw [Pipeline.Window.rect_emb_val, Pipeline.Window.rect_emb_val, index0_0, index1_1]
    show 0 * 32 + (j 1).val % 32 = (0 * 128 + (j 1).val) % 32
    omega
  | ⟨1, _⟩ =>
    show ((win0_0.rect t).emb _ 1).val = 4 * ((win0_1.rect t).emb j 0).val + ((win0_1.rect t).emb j 1).val / 32
    rw [Pipeline.Window.rect_emb_val, Pipeline.Window.rect_emb_val, Pipeline.Window.rect_emb_val, index0_1, index1_0, index1_1]
    show t.val * 16384 + (4 * (j 0).val + (j 1).val / 32) = 4 * (t.val * 4096 + (j 0).val) + (0 * 128 + (j 1).val) / 32
    omega

/-- Every row of the result lies in the block of the point its number divided by 4096 names: the 62 blocks, the last
    cut at row 250000, cover the array. -/
theorem cover_1 (i : S250000x128.Idx) : ∃ t : Fin cfg0.N, (cfg0.win (1 : Fin 2)).flush t = true ∧ i ∈ ((cfg0.win (1 : Fin 2)).blk t).view.set := by
  have h0 := idx2_lt0 i
  have h1 := idx2_lt1 i
  let t : Fin cfg0.N := ⟨(i 0).val / 4096, by show (i 0).val / 4096 < grid0.N; have h2 := N_0; omega⟩
  refine ⟨t, flush0_1 t, ?_⟩
  show i ∈ ((View.whole main_v1).slice (win0_1.rect t)).set
  rw [View.set_slice_whole, Rect.mem_set_unit]
  intro a
  match a with
  | ⟨0, _⟩ =>
    show win0_1.index t 0 * 4096 ≤ (i 0).val ∧ (i 0).val < win0_1.index t 0 * 4096 + win0_1.xsize (grid0.coords t) 0
    rw [index1_0, xsize1_0, coords0]
    show (i 0).val / 4096 * 4096 ≤ (i 0).val ∧ (i 0).val < (i 0).val / 4096 * 4096 + min 4096 (250000 - 4096 * ((i 0).val / 4096))
    omega
  | ⟨1, _⟩ =>
    show win0_1.index t 1 * 128 ≤ (i 1).val ∧ (i 1).val < win0_1.index t 1 * 128 + win0_1.xsize (grid0.coords t) 1
    rw [index1_1, xsize1_1]
    omega

/-- The result array after the last write-back is the packed table, -/
theorem packDat_final (c : Dev nD) : (packDat O₀ W₀ X Y₀ c).arrAt (1 : Fin 2) cfg0.N = repack (X c) :=
  Pipeline.Dat.arrAt_eq_of_cover (packDat O₀ W₀ X Y₀ c) (1 : Fin 2) (repack (X c))
    (fun t _ => flushed_1 O₀ W₀ X Y₀ c t) cover_1

/-- and the transposed table, an input, is what it was. -/
theorem packDat_final_in (c : Dev nD) : (packDat O₀ W₀ X Y₀ c).arrAt (0 : Fin 2) cfg0.N = X c :=
  Pipeline.Dat.arrAt_in (packDat O₀ W₀ X Y₀ c) (0 : Fin 2) rfl _

/-! ## The packed table of the transposed table -/

/-- Transposing the table and re-laying the transpose gives the packed table: entry (R, 32 q + e) is entry
    (4 R + q, e) of the table. -/
theorem repack_transpose {α : Type} (tab : S1000000x32.Idx → α) :
    repack (transpose S32x1000000 [1, 0] tab transposes_S1000000x32_S32x1000000_1_0) = Cert.Lookup.packed tab := by
  funext j
  unfold repack Cert.Lookup.packed
  rw [transpose_ix2_apply]

end Cert.Kernel.Lk

end
-- ==== Proof.PackBSeg.lean ====
/-
  The pack region as a segment of @main. Entered with the transposed table and the result array whole at the full
  share and the TensorCore owing only at the SparseCore calls' indices (nothing at the index of the pipeline's own
  waits), the region runs its 62 grid points and is left with the transposed table as it was and the result array
  the packed table. The region has no semaphore of its own and no invariant; every pair its waits record sits at the
  pipeline's index, below everything the core owes.
-/
import proofs.«204365_g77171972375186_cont_9to1c4b_67_15_alg».proof.Proof.PackBValue

noncomputable section

namespace Cert.Kernel.Lk

open Cert.Kernel Cert.Kernel.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F]

local notation "𝕄" => MT nD τ sig (HIx 1) (Elt F) ℕ UU ℕ

variable (O₀ : Dev nD → CellTallies nD τ sig (HIx 1)) (W₀ : Dev nD → Waits sig (HIx 1))
  (X : (c : Dev nD) → Buf (Elt F) (tabTLoc c)) (Y₀ : (c : Dev nD) → Buf (Elt F) (pkLoc c))

/-! ## The pipeline's resources, opened -/

/-- Both arrays are held whole at the full share. -/
theorem packDat_share (c : Dev nD) (w : Fin cfg0.W) : (packDats O₀ W₀ X Y₀ 0 c).share w = fullShare :=
  Pipeline.Dat.share_full _ (fun _ => rfl) w

/-- The pipeline's arrays at contents `Fa`: the transposed table and the result, each whole at the full share. -/
theorem packDat_arrays (c : Dev nD) (Fa : (w : Fin cfg0.W) → Buf (Elt F) ((cfg0.win w).arr.view.loc (T c))) :
    ((packDats O₀ W₀ X Y₀ 0 c).arrays Fa : sProp 𝕄)
      = iprop((tabTLoc c ↦{fullShare} Fa 0) ∗ (pkLoc c ↦{fullShare} Fa 1)) := by
  rw [Pipeline.arrays_eq cfgs (packDats O₀ W₀ X Y₀) 0 c arr_whole0 (packDat_share O₀ W₀ X Y₀ c) Fa, bigSep_W0]

/-- At the last point the arrays hold the transposed table and the packed table. -/
theorem packDat_arrays_final (c : Dev nD) :
    ((packDats O₀ W₀ X Y₀ 0 c).arrays ((packDats O₀ W₀ X Y₀ 0 c).arrAt · (Pipeline.pin (pcfgs (F := F)) aAdm 0).N) : sProp 𝕄)
      = iprop((tabTLoc c ↦{fullShare} X c) ∗ (pkLoc c ↦{fullShare} repack (X c))) := by
  rw [packDat_arrays]
  show iprop((tabTLoc c ↦{fullShare} (packDat O₀ W₀ X Y₀ c).arrAt (0 : Fin 2) cfg0.N)
    ∗ (pkLoc c ↦{fullShare} (packDat O₀ W₀ X Y₀ c).arrAt (1 : Fin 2) cfg0.N)) = _
  rw [packDat_final, packDat_final_in]

/-- At the first point they hold what the region was entered with. -/
theorem packDat_arrays_entry (c : Dev nD) :
    ((packDats O₀ W₀ X Y₀ 0 c).arrays ((packDats O₀ W₀ X Y₀ 0 c).arrAt · 0) : sProp 𝕄)
      = iprop((tabTLoc c ↦{fullShare} X c) ∗ (pkLoc c ↦{fullShare} Y₀ c)) := by
  rw [packDat_arrays]
  rfl

/-- The pipeline prefetches no table. -/
theorem bigSep_none {M : Type} [URA M] (Φ : Fin 0 → sProp M) : bigSep Finset.univ Φ = (BI.emp : sProp M) :=
  bigSep_univ_eq_bigSepL [] (by decide) (by decide) Φ
theorem prefHeld_eq (c : Dev nD) (q) (pf) :
    (Pipeline.prefHeld (Ix := HIx 1) (Name := ℕ) (U := UU) (Lvl := ℕ) (Val := Elt F) (pcfgs (F := F) 0).pre c q pf : sProp 𝕄) = BI.emp :=
  bigSep_none _

/-- The TensorCore has no scoped buffer besides the staging buffers. -/
theorem scopedRest_eq (c : Dev nD) :
    (Pipeline.scopedRest (Ix := HIx 1) (Name := ℕ) (U := UU) (Lvl := ℕ) (Val := Elt F) (Pipeline.pin (pcfgs (F := F)) aAdm 0).spec c : sProp 𝕄) = BI.emp :=
  scopedRest0_eq c

/-- The core's `owes` entering the pipeline: the tallies `O₀ c`, the recorded pairs `W₀ c`. -/
theorem owesAt_intro (c : Dev nD) (t : Fin (cfg0.N + 1)) :
    owes (T c) (O₀ c) (W₀ c) ⊢ ((packDats O₀ W₀ X Y₀ 0 c).owesAt none t : sProp 𝕄) := by
  unfold Pipeline.Dat.owesAt Pipeline.owesWithin
  iintro HO; iexists (W₀ c); isplitr
  · ipureintro; exact Set.subset_union_left
  iexact HO

/-- The core's `owes` leaving it: the same tallies; every pair recorded since sits at index `none` (the loop's waits
    on its staging semaphores). -/
theorem owesAt_elim (c : Dev nD) (t : Fin (cfg0.N + 1)) :
    ((packDats O₀ W₀ X Y₀ 0 c).owesAt none t : sProp 𝕄)
      ⊢ iprop(∃ W : Waits sig (HIx 1), ⌜∀ p ∈ W, p ∈ W₀ c ∨ p.2 = none⌝ ∗ owes (T c) (O₀ c) W) := by
  unfold Pipeline.Dat.owesAt Pipeline.owesWithin
  iintro ⟨%W, %hW, HO⟩; iexists W; isplitr
  · ipureintro
    intro p hp
    rcases hW (Finset.mem_coe.mpr hp) with h | ⟨w, s, rfl⟩
    · exact Or.inl (Finset.mem_coe.mp h)
    · exact Or.inr rfl
  iexact HO

/-! ## The region -/

/-- The pack region: entered with the transposed table at `X c`, the result at `Y₀ c` and the core owing `O₀ c`
    (nothing at index `none`, where the pipeline's waits sit) with recorded pairs `W₀ c`; left with the table as it
    was, the result the packed table, and the core owing the same. No semaphore of the kernel's own, no invariant,
    nothing bypassing. -/
def packSeg (hO₀ : ∀ c g, O₀ c g none = 0) :
    Pipeline.RegionSeg (pcfgs (F := F)) aAdm (packDats O₀ W₀ X Y₀) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := packBody O₀ W₀ X Y₀ c
  hwaits c := Pipeline.cellsWaits_intro cfgs (packDats O₀ W₀ X Y₀) none 0 c fun w s _ =>
    (K (F := F)).mayWait_none (.dma ((cfg0.win w).sem s)) (hO₀ c)
  pre c := iprop((tabTLoc c ↦{fullShare} X c) ∗ (pkLoc c ↦{fullShare} Y₀ c) ∗ owes (T c) (O₀ c) (W₀ c))
  post c := iprop((tabTLoc c ↦{fullShare} X c) ∗ (pkLoc c ↦{fullShare} repack (X c))
    ∗ ∃ W : Waits sig (HIx 1), ⌜∀ p ∈ W, p ∈ W₀ c ∨ p.2 = none⌝ ∗ owes (T c) (O₀ c) W)
  X _ := iprop(emp)
  Y _ := iprop(emp)
  Z _ := iprop(emp)
  hentry c := by
    rw [Pipeline.ownSems0_none, packDat_arrays_entry, prefHeld_eq]
    iintro ⟨⟨Hx, Hy, HO⟩, -, -⟩
    imodintro
    isplitl [Hx Hy]
    · isplitl [Hx]
      · iexact Hx
      · iexact Hy
    isplitr; · iempintro
    isplitl [HO]; · iapply (owesAt_intro O₀ W₀ X Y₀ c 0); iexact HO
    isplitr <;> iempintro
  hin c := by
    iintro -; iempintro
  hout c := by
    rw [Pipeline.ownSems0_none, scopedRest_eq]
    iintro -
    isplitr; · iempintro
    isplitr <;> iempintro
  hexit c := by
    rw [packDat_arrays_final]
    iintro ⟨⟨Hx, Hy⟩, HO, -, -⟩
    imodintro
    isplitl [Hx]; · iexact Hx
    isplitl [Hy]; · iexact Hy
    iapply (owesAt_elim O₀ W₀ X Y₀ c _); iexact HO

theorem packSeg_pre (hO₀ : ∀ c g, O₀ c g none = 0) (c : Dev nD) :
    (packSeg O₀ W₀ X Y₀ hO₀).pre c
      = iprop((tabTLoc c ↦{fullShare} X c) ∗ (pkLoc c ↦{fullShare} Y₀ c) ∗ owes (T c) (O₀ c) (W₀ c)) := rfl

theorem packSeg_post (hO₀ : ∀ c g, O₀ c g none = 0) (c : Dev nD) :
    (packSeg O₀ W₀ X Y₀ hO₀).post c
      = iprop((tabTLoc c ↦{fullShare} X c) ∗ (pkLoc c ↦{fullShare} repack (X c))
          ∗ ∃ W : Waits sig (HIx 1), ⌜∀ p ∈ W, p ∈ W₀ c ∨ p.2 = none⌝ ∗ owes (T c) (O₀ c) W) := rfl

/-! ## The region's step, as @main uses it -/

/-- On device `d`'s TensorCore: from the boundary, the level facts, the pack pipeline's ghost state, the transposed
    table at `Xd`, the result array at some contents, and the core owing `O` (nothing at index `none`) with every
    recorded pair at level 0, the region's custom call runs to the boundary, the table as it was, the result the
    packed table, and the core owing the same with every recorded pair still at level 0, for the continuation. -/
theorem pack_wp (d : Dev nD) (Xd : Buf (Elt F) (tabTLoc d)) (O : CellTallies nD τ sig (HIx 1)) (hO : ∀ g, O g none = 0)
    {α : Type} (k : PUnit → Prog (TpuEff nD τ sig (Elt F) (ΛP (F := F)) .tc) α) (Q : α → sProp 𝕄) :
    iprop((iprop(boundary (T d) ∗ (tabTLoc d ↦{fullShare} Xd) ∗ (pkLoc d ↦{fullShare} repack Xd)
              ∗ (∃ W : Waits sig (HIx 1), ⌜(K (F := F)).WBelow (T d) W 0⌝ ∗ owes (T d) O W))
            -∗ wp frame (wpE (D (F := F)) 𝒱 (T d) none) Set.univ (k ⟨⟩) Q)
        ∗ boundary (T d) ∗ levAts (K (F := F)).L (K (F := F)).lev
        ∗ (Pipeline.cellsGhost (Pipeline.pin (pcfgs (F := F)) aAdm) EP 0 d ∗ Pipeline.toksInit (Pipeline.pin (pcfgs (F := F)) aAdm) EP 0 d)
        ∗ (tabTLoc d ↦{fullShare} Xd) ∗ (∃ Y : Buf (Elt F) (pkLoc d), pkLoc d ↦{fullShare} Y)
        ∗ (∃ W : Waits sig (HIx 1), ⌜(K (F := F)).WBelow (T d) W 0⌝ ∗ owes (T d) O W))
      ⊢ wp frame (wpE (D (F := F)) 𝒱 (T d) none) Set.univ (.op (.customCall (Pipeline.entry 0) ()) k) Q := by
  iintro ⟨Hk, Hb, Hlev, ⟨Hg, Htok⟩, Hx, ⟨%Y, Hy⟩, ⟨%W, %hW, HO⟩⟩
  have h := Pipeline.RegionSeg.wp (pcfgs (F := F)) aAdm (packDats (fun _ => O) (fun _ => W) (fun _ => Xd) (fun _ => Y)) none
    cellOf_inj EP defs₀ 𝒱₀ (K (F := F)).L (K (F := F)).lev
    (packSeg (fun _ => O) (fun _ => W) (fun _ => Xd) (fun _ => Y) (fun _ => hO)) d none (fun u hu => absurd hu (by simp)) k Q
  rw [packSeg_pre, packSeg_post] at h
  iapply h
  isplitl [Hk]
  · iintro ⟨Hb, Hx, Hy, ⟨%W', %hW', HO⟩⟩
    iapply Hk
    isplitl [Hb]; · iexact Hb
    isplitl [Hx]; · iexact Hx
    isplitl [Hy]; · iexact Hy
    iexists W'; isplitr
    · ipureintro
      intro p hp
      rcases hW' p hp with h | h
      · exact hW p h
      · rw [h]; exact le_of_eq ((K (F := F)).lev_none _)
    iexact HO
  isplitl [Hb]; · iexact Hb
  isplitl [Hx Hy HO]
  · isplitl [Hx]; · iexact Hx
    isplitl [Hy]; · iexact Hy
    iexact HO
  isplitl [Hlev]; · iexact Hlev
  isplitl [Hg]; · iexact Hg
  iexact Htok

end Cert.Kernel.Lk

end
-- ==== Proof.TileI0.lean ====
import proofs.«204365_g77171972375186_cont_9to1c4b_67_15_alg».proof.Proof.CommonI
import proofs.«204365_g77171972375186_cont_9to1c4b_67_15_alg».proof.Proof.Gen.KernelIdeal.Skeleton

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- The subcore's six DMA counters: the gathers' and the five copies'. -/
abbrev gCell (d : Dev nD) (c : Fin τ.nSC) (i : Fin τ.nSub) : GSem nD τ sig := (V d c i, .dma cc1_scratch4.sem)
abbrev c0Cell (d : Dev nD) (c : Fin τ.nSC) (i : Fin τ.nSub) : GSem nD τ sig := (V d c i, .dma cc1_scoped0.sem)
abbrev c1Cell (d : Dev nD) (c : Fin τ.nSC) (i : Fin τ.nSub) : GSem nD τ sig := (V d c i, .dma cc1_scoped1.sem)
abbrev c2Cell (d : Dev nD) (c : Fin τ.nSC) (i : Fin τ.nSub) : GSem nD τ sig := (V d c i, .dma cc1_scoped2.sem)
abbrev c3Cell (d : Dev nD) (c : Fin τ.nSC) (i : Fin τ.nSub) : GSem nD τ sig := (V d c i, .dma cc1_scoped3.sem)
abbrev c4Cell (d : Dev nD) (c : Fin τ.nSC) (i : Fin τ.nSub) : GSem nD τ sig := (V d c i, .dma cc1_scoped4.sem)

omit [FloatOps F] in
theorem cell_ne {thr : Thread nD τ} {a b : SemLoc sig} (h : a ≠ b) : ((thr, a) : GSem nD τ sig) ≠ (thr, b) :=
  fun e => h (congrArg Prod.snd e)

omit [FloatOps F] in
theorem ownSems0_V :
    (ownSems0 (V d (cV L) (jV L)) : sProp 𝕄)
      = iprop(semVal (gCell d (cV L) (jV L)) 0 ∗ semVal (c0Cell d (cV L) (jV L)) 0 ∗ semVal (c1Cell d (cV L) (jV L)) 0
          ∗ semVal (c2Cell d (cV L) (jV L)) 0 ∗ semVal (c3Cell d (cV L) (jV L)) 0 ∗ semVal (c4Cell d (cV L) (jV L)) 0
          ∗ bigSep ((((((((ownCells (V d (cV L) (jV L))).erase (gCell d (cV L) (jV L))).erase (c0Cell d (cV L) (jV L))).erase (c1Cell d (cV L) (jV L))).erase
              (c2Cell d (cV L) (jV L))).erase (c3Cell d (cV L) (jV L))).erase (c4Cell d (cV L) (jV L)))) fun g => semVal g 0) := by
  unfold SparseCore.Cfg.ownSems0
  have m : ∀ s : SemLoc sig, s.isScoped .scVector = true → ((V d (cV L) (jV L), s) : GSem nD τ sig) ∈ ownCells (V d (cV L) (jV L)) :=
    fun s hs => (mem_ownCells (g := (V d (cV L) (jV L), s))).mpr ⟨rfl, hs⟩
  rw [SparseCore.bigSep_erase' (m (.dma cc1_scratch4.sem) (by decide)),
    SparseCore.bigSep_erase' (Finset.mem_erase.mpr ⟨cell_ne (by decide), m (.dma cc1_scoped0.sem) (by decide)⟩),
    SparseCore.bigSep_erase' (Finset.mem_erase.mpr ⟨cell_ne (by decide), Finset.mem_erase.mpr ⟨cell_ne (by decide), m (.dma cc1_scoped1.sem) (by decide)⟩⟩),
    SparseCore.bigSep_erase' (Finset.mem_erase.mpr ⟨cell_ne (by decide), Finset.mem_erase.mpr ⟨cell_ne (by decide), Finset.mem_erase.mpr ⟨cell_ne (by decide),
      m (.dma cc1_scoped2.sem) (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), m (.dma cc1_scoped3.sem) (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), m (.dma cc1_scoped4.sem) (by decide)⟩⟩⟩⟩⟩)]

omit [FloatOps F] in
theorem ref_ne (c : Fin τ.nSC) (i : Fin τ.nSub) {a b : Ref sig .scVector} (h : a ≠ b) :
    (Proc.scVector c i).devRef a ≠ (Proc.scVector c i).devRef b :=
  fun e => h (Proc.devRef_injective _ e)

omit [FloatOps F] in
/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have m0 := SparseCore.Cfg.mem_ownRefs_of_owner (τ := τ) (sig := sig) (p := Proc.scVector (cV L) (jV L)) (b := (Proc.scVector (cV L) (jV L)).devRef cc1_scratch0) rfl
  have m1 := SparseCore.Cfg.mem_ownRefs_of_owner (τ := τ) (sig := sig) (p := Proc.scVector (cV L) (jV L)) (b := (Proc.scVector (cV L) (jV L)).devRef cc1_scratch1) rfl
  have m2 := SparseCore.Cfg.mem_ownRefs_of_owner (τ := τ) (sig := sig) (p := Proc.scVector (cV L) (jV L)) (b := (Proc.scVector (cV L) (jV L)).devRef cc1_scratch2) rfl
  have m3 := SparseCore.Cfg.mem_ownRefs_of_owner (τ := τ) (sig := sig) (p := Proc.scVector (cV L) (jV L)) (b := (Proc.scVector (cV L) (jV L)).devRef cc1_scratch3) rfl
  refine (SparseCore.bigSep_erase' m0).trans ?_
  rw [SparseCore.bigSep_erase' (Finset.mem_erase.mpr ⟨ref_ne (cV L) (jV L) (by decide), m1⟩),
    SparseCore.bigSep_erase' (Finset.mem_erase.mpr ⟨ref_ne (cV L) (jV L) (by decide),
      Finset.mem_erase.mpr ⟨ref_ne (cV L) (jV L) (by decide), m2⟩⟩),
    SparseCore.bigSep_erase' (Finset.mem_erase.mpr ⟨ref_ne (cV L) (jV L) (by decide),
      Finset.mem_erase.mpr ⟨ref_ne (cV L) (jV L) (by decide), Finset.mem_erase.mpr ⟨ref_ne (cV L) (jV L) (by decide), m3⟩⟩⟩)]

end Cert.KernelIdeal.Lk

end
-- ==== Proof.TileI1.lean ====
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.TileI0

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## Three facts about held buffers -/

/-- A held buffer's contents given a name: the same buffer at a variable equal to the contents. -/
theorem pts_abs {ℓ : Loc nD τ sig} {S : Finset (Idx ℓ)} {q : PosShare TreeShare} (f : Buf (Elt F) ℓ) :
    (ℓ ↦[S]{q} f : sProp 𝕄) ⊢ iprop(∃ g, ⌜g = f⌝ ∗ (ℓ ↦[S]{q} g)) := by
  iintro H
  iexists f
  isplitr
  · ipureintro; rfl
  · iexact H

/-- An assertion kept folded: the same assertion under a name that does not unfold by itself. -/
@[irreducible] def Aside (P : sProp 𝕄) : sProp 𝕄 := P
theorem aside_eq (P : sProp 𝕄) : Aside P = P := by unfold Aside; rfl

open Classical in
/-- Two complementary parts of a buffer, each at its own contents, are the buffer whole at some contents. -/
theorem pts_join_any {ℓ : Loc nD τ sig} {A : Finset (Idx ℓ)} {q : PosShare TreeShare} (f g : Buf (Elt F) ℓ) :
    iprop((ℓ ↦[A]{q} f) ∗ (ℓ ↦[Finset.univ \ A]{q} g) : sProp 𝕄) ⊢ iprop(∃ h, ℓ ↦{q} h) := by
  iintro ⟨Hf, Hg⟩
  iexists (fun i => if i ∈ A then f i else g i)
  ihave Hf := (Entails.of_eq (pointsTo_congr (q := q) (f := f) (g := fun i => if i ∈ A then f i else g i) (I := A)
    (fun i hi => by simp [hi]))) $$ Hf
  ihave Hg := (Entails.of_eq (pointsTo_congr (q := q) (f := g) (g := fun i => if i ∈ A then f i else g i) (I := Finset.univ \ A)
    (fun i hi => by simp [(Finset.mem_sdiff.mp hi).2]))) $$ Hg
  iapply (pointsTo_split_subset (q := q) (S := Finset.univ) (Finset.subset_univ A)).2 $$ [Hf Hg]
  isplitl [Hf]; · iexact Hf
  iexact Hg

end Cert.KernelIdeal.Lk

end
-- ==== Proof.TileIMath.lean ====
/-
  Three pure facts about one vector subcore's scratch. (1) The shift payload: each of the 32 vector steps that fill
  the row-index scratch shifts sixteen class ids right by two — the quotient by four, below 250000 for an id in
  range. (2) The two halves of the row buffer partition it. (3) After the four copies of 128 class ids each into the
  four rows of the id scratch, entry (r, k) of the scratch is the subcore's class id number 128 r + k.
-/
import proofs.«204365_g77171972375186_cont_9to1c4b_67_15_alg».proof.Proof.CommonI
import proofs.«204365_g77171972375186_cont_9to1c4b_67_15_alg».proof.Proof.Gen.KernelIdeal.Skeleton
import Idealize.ShloMosaic.Lib.Writes

noncomputable section

namespace Cert.KernelIdeal.Lk

open Cert.KernelIdeal Cert.KernelIdeal.Gen

open Idealize.ShloMosaic Idealize.ShloMosaic.ValueIdx
open Idealize.ShloMosaic.SparseCore (S V T)

variable {F : FTy → Type}

/-! ## Words -/

theorem shr_toNat (w : BitVec 32) : (w >>> 2).toNat = w.toNat / 4 := by
  rw [BitVec.toNat_ushiftRight, Nat.shiftRight_eq_div_pow]

theorem shr_lt (w : BitVec 32) (h : w.toNat ≤ 999999) : (w >>> 2).toNat < 250000 := by
  rw [shr_toNat]; omega

theorem shrui_two (w : BitVec 32) : IntOp.shrui .vector w 2#32 = w >>> 2 := by
  have h : (2#32 : BitVec 32).toNat < 32 := by decide
  simp only [IntOp.shrui, h, if_true]
  rfl

/-! ## The shift payload -/

variable [FloatOps F]

/-- Sixteen class ids, each shifted right by two. -/
theorem pay_shr (v : Vec F S1x16 .i32) (x : S1x16.Idx) : k1_pay205 (F := F) v x = v x >>> 2 := by
  unfold k1_pay205
  show shrui (shapeCast S16 v shapeCasts_S1x16_S16) (broadcast S16 2#32) (Shape.reshapeEquiv _ x) = _
  show IntOp.shrui .vector (v (Shape.reshapeEquiv _ (Shape.reshapeEquiv _ x))) 2#32 = _
  rw [Shape.reshapeEquiv_reshapeEquiv, Shape.reshapeEquiv_self, shrui_two]

/-! ## The two halves of the row buffer -/

omit [FloatOps F] in
theorem rows_compl :
    (Finset.univ \ (((s2V).slice (Rect.unit (s := S2x128x128) ![0, 0, 0] S1x128x128.size inb_S2x128x128_S1x128x128_0_0_0) (fun _ => rfl)).squeeze S128x128 squeezes_S1x128x128_S128x128).view.set)
      = (((s2V).slice (Rect.unit (s := S2x128x128) ![1, 0, 0] S1x128x128.size inb_S2x128x128_S1x128x128_1_0_0) (fun _ => rfl)).squeeze S128x128 squeezes_S1x128x128_S128x128).view.set := by
  show (Finset.univ \ (((View.whole (cc1_scratch2 : Ref sig .scVector)).slice (Rect.unit (s := S2x128x128) ![0, 0, 0] S1x128x128.size inb_S2x128x128_S1x128x128_0_0_0)).reshape S128x128 squeezes_S1x128x128_S128x128.numel_eq).set)
      = (((View.whole (cc1_scratch2 : Ref sig .scVector)).slice (Rect.unit (s := S2x128x128) ![1, 0, 0] S1x128x128.size inb_S2x128x128_S1x128x128_1_0_0)).reshape S128x128 squeezes_S1x128x128_S128x128.numel_eq).set
  rw [View.set_reshape, View.set_reshape, View.set_slice, View.set_slice]
  show (Finset.univ \ Finset.map (Function.Embedding.refl _) _) = Finset.map (Function.Embedding.refl _) _
  rw [Finset.map_refl, Finset.map_refl]
  ext j
  have h0 : (j 0).val < 2 := (j 0).isLt
  have h1 : (j 1).val < 128 := (j 1).isLt
  have h2 : (j 2).val < 128 := (j 2).isLt
  simp only [Finset.mem_sdiff, Finset.mem_univ, true_and, Rect.mem_set_unit]
  constructor
  · intro h
    have hj0 : 1 ≤ (j 0).val := by
      by_contra hc
      refine h fun a => ?_
      match a with
      | ⟨0, _⟩ => exact ⟨Nat.zero_le _, by show (j 0).val < 0 + 1; omega⟩
      | ⟨1, _⟩ => exact ⟨Nat.zero_le _, by show (j 1).val < 0 + 128; omega⟩
      | ⟨2, _⟩ => exact ⟨Nat.zero_le _, by show (j 2).val < 0 + 128; omega⟩
    intro a
    match a with
    | ⟨0, _⟩ => exact ⟨hj0, by show (j 0).val < 1 + 1; omega⟩
    | ⟨1, _⟩ => exact ⟨Nat.zero_le _, by show (j 1).val < 0 + 128; omega⟩
    | ⟨2, _⟩ => exact ⟨Nat.zero_le _, by show (j 2).val < 0 + 128; omega⟩
  · intro h hc
    have ha : 1 ≤ (j 0).val := (h 0).1
    have hb : (j 0).val < 0 + 1 := (hc 0).2
    omega

/-! ## The id scratch after the four copies -/

/-- The subcore's class id number `n`: entry 1024 (L 1) + 512 (L 0) + n of the class ids. -/
def tileId (L : grid1.Coords) (n : ℕ) (hn : n < 512) : Fin 16384 :=
  ⟨1024 * (L 1).val + 512 * (L 0).val + n, by
    have h1 : (L 1).val < 16 := (L 1).isLt
    have h0 : (L 0).val < 2 := (L 0).isLt
    omega⟩

omit [FloatOps F] in
/-- A length-128 vector re-indexed as a [1, 128] row: the row's entry (0, k) is the vector's entry k. -/
theorem row_of_vec (h : S128.numel = (⟨2, S1x128.size⟩ : Shape).numel) (x : (⟨2, S1x128.size⟩ : Shape).Idx) :
    (((Shape.reshapeEquiv h).symm x) 0).val = (x 1).val := by
  have e : x = Shape.reshapeEquiv h ((Shape.reshapeEquiv h).symm x) := (Equiv.apply_symm_apply _ x).symm
  have e2 := Shape.reshapeEquiv_cons_one (n := 1) (d := ![128]) h ((Shape.reshapeEquiv h).symm x)
  rw [e2] at e
  have := congrArg (fun z => (z 1).val) e
  exact this.symm

omit [FloatOps F] in
/-- After the four copies, entry (r, k) of the id scratch is the subcore's class id number 128 r + k, whatever the
    scratch held before. -/
theorem idx_filled (d : Dev nD) (L : grid1.Coords) (ids : S16384.Idx → Elt F .i32)
    (f0 : Buf (Elt F) ((V d (cV L) (jV L)).loc cc1_scratch0)) (p0 p1 p2 p3 : Vec F S128 .i32)
    (h0 : ∀ x : S128.Idx, p0 x = ids (ix1 (tileId L (128 * 0 + (x 0).val) (by have : (x 0).val < 128 := (x 0).isLt; omega))))
    (h1 : ∀ x : S128.Idx, p1 x = ids (ix1 (tileId L (128 * 1 + (x 0).val) (by have : (x 0).val < 128 := (x 0).isLt; omega))))
    (h2 : ∀ x : S128.Idx, p2 x = ids (ix1 (tileId L (128 * 2 + (x 0).val) (by have : (x 0).val < 128 := (x 0).isLt; omega))))
    (h3 : ∀ x : S128.Idx, p3 x = ids (ix1 (tileId L (128 * 3 + (x 0).val) (by have : (x 0).val < 128 := (x 0).isLt; omega)))) :
    ∀ y : S4x128.Idx, (s0V).view.read (Elt F)
      (View.write (Elt F) (((s0V).slice (Rect.unit (s := S4x128) ![3, 0] S1x128.size inb_S4x128_S1x128_3_0) (fun _ => rfl)).squeeze S128 squeezes_S1x128_S128).view
        (View.write (Elt F) (((s0V).slice (Rect.unit (s := S4x128) ![2, 0] S1x128.size inb_S4x128_S1x128_2_0) (fun _ => rfl)).squeeze S128 squeezes_S1x128_S128).view
          (View.write (Elt F) (((s0V).slice (Rect.unit (s := S4x128) ![1, 0] S1x128.size inb_S4x128_S1x128_1_0) (fun _ => rfl)).squeeze S128 squeezes_S1x128_S128).view
            (View.write (Elt F) (((s0V).slice (Rect.unit (s := S4x128) ![0, 0] S1x128.size inb_S4x128_S1x128_0_0) (fun _ => rfl)).squeeze S128 squeezes_S1x128_S128).view
              f0 p0 Finset.univ) p1 Finset.univ) p2 Finset.univ) p3 Finset.univ) y
      = ids (ix1 (tileId L (128 * (y 0).val + (y 1).val) (by
          have : (y 0).val < 4 := (y 0).isLt
          have : (y 1).val < 128 := (y 1).isLt
          omega))) := by
  intro y
  show (s0V).view.read (Elt F)
      ((((s0V).view.slice (Rect.unit (s := S4x128) ![3, 0] S1x128.size inb_S4x128_S1x128_3_0)).reshape S128 squeezes_S1x128_S128.numel_eq).write (Elt F)
        ((((s0V).view.slice (Rect.unit (s := S4x128) ![2, 0] S1x128.size inb_S4x128_S1x128_2_0)).reshape S128 squeezes_S1x128_S128.numel_eq).write (Elt F)
          ((((s0V).view.slice (Rect.unit (s := S4x128) ![1, 0] S1x128.size inb_S4x128_S1x128_1_0)).reshape S128 squeezes_S1x128_S128.numel_eq).write (Elt F)
            ((((s0V).view.slice (Rect.unit (s := S4x128) ![0, 0] S1x128.size inb_S4x128_S1x128_0_0)).reshape S128 squeezes_S1x128_S128.numel_eq).write (Elt F)
              f0 p0 Finset.univ) p1 Finset.univ) p2 Finset.univ) p3 Finset.univ) y = _
  rw [View.write_reshape_univ, View.write_reshape_univ, View.write_reshape_univ, View.write_reshape_univ]
  refine View.read_writes_apply_of_pieces (v := (s0V).view) (f := f0)
    (fun y : S4x128.Idx => ids (ix1 (tileId L (128 * (y 0).val + (y 1).val) (by
      have : (y 0).val < 4 := (y 0).isLt
      have : (y 1).val < 128 := (y 1).isLt
      omega))))
    [⟨Rect.unit (s := S4x128) ![3, 0] S1x128.size inb_S4x128_S1x128_3_0, fun x => p3 ((Shape.reshapeEquiv squeezes_S1x128_S128.numel_eq).symm x)⟩,
     ⟨Rect.unit (s := S4x128) ![2, 0] S1x128.size inb_S4x128_S1x128_2_0, fun x => p2 ((Shape.reshapeEquiv squeezes_S1x128_S128.numel_eq).symm x)⟩,
     ⟨Rect.unit (s := S4x128) ![1, 0] S1x128.size inb_S4x128_S1x128_1_0, fun x => p1 ((Shape.reshapeEquiv squeezes_S1x128_S128.numel_eq).symm x)⟩,
     ⟨Rect.unit (s := S4x128) ![0, 0] S1x128.size inb_S4x128_S1x128_0_0, fun x => p0 ((Shape.reshapeEquiv squeezes_S1x128_S128.numel_eq).symm x)⟩]
    ?_ y (View.cover_of_tiled _ ![1, 128] rfl y)
  intro p hp x
  simp only [List.mem_cons, List.mem_nil_iff, or_false] at hp
  rcases hp with rfl | rfl | rfl | rfl
  · show p3 _ = _
    rw [h3]
    refine congrArg ids (congrArg ix1 (Fin.ext ?_))
    show 1024 * (L 1).val + 512 * (L 0).val + (128 * 3 + _) = 1024 * (L 1).val + 512 * (L 0).val + (128 * (3 + 1 * (x 0).val) + (0 + 1 * (x 1).val))
    have hx0 : (x 0).val = 0 := by have : (x 0).val < 1 := (x 0).isLt; omega
    rw [row_of_vec, hx0]
    omega
  · show p2 _ = _
    rw [h2]
    refine congrArg ids (congrArg ix1 (Fin.ext ?_))
    show 1024 * (L 1).val + 512 * (L 0).val + (128 * 2 + _) = 1024 * (L 1).val + 512 * (L 0).val + (128 * (2 + 1 * (x 0).val) + (0 + 1 * (x 1).val))
    have hx0 : (x 0).val = 0 := by have : (x 0).val < 1 := (x 0).isLt; omega
    rw [row_of_vec, hx0]
    omega
  · show p1 _ = _
    rw [h1]
    refine congrArg ids (congrArg ix1 (Fin.ext ?_))
    show 1024 * (L 1).val + 512 * (L 0).val + (128 * 1 + _) = 1024 * (L 1).val + 512 * (L 0).val + (128 * (1 + 1 * (x 0).val) + (0 + 1 * (x 1).val))
    have hx0 : (x 0).val = 0 := by have : (x 0).val < 1 := (x 0).isLt; omega
    rw [row_of_vec, hx0]
    omega
  · show p0 _ = _
    rw [h0]
    refine congrArg ids (congrArg ix1 (Fin.ext ?_))
    show 1024 * (L 1).val + 512 * (L 0).val + (128 * 0 + _) = 1024 * (L 1).val + 512 * (L 0).val + (128 * (0 + 1 * (x 0).val) + (0 + 1 * (x 1).val))
    have hx0 : (x 0).val = 0 := by have : (x 0).val < 1 := (x 0).isLt; omega
    rw [row_of_vec, hx0]
    omega

end Cert.KernelIdeal.Lk

end
-- ==== Proof.TileI2.lean ====
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.TileI0
import proofs.«204365_g77171972375186_cont_9to1c4b_67_15_alg».proof.Proof.TileI1
import proofs.«204365_g77171972375186_cont_9to1c4b_67_15_alg».proof.Proof.TileIMath

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx
variable (d : Dev nD) (L : grid1.Coords)

/-! ## Lists of pieces, member by member -/

theorem all_nil {α : Type _} {P : α → Prop} : ∀ q ∈ ([] : List α), P q := fun _ h => absurd h List.not_mem_nil
theorem all_cons {α : Type _} {P : α → Prop} {a : α} {l : List α} (h : P a) (hl : ∀ q ∈ l, P q) : ∀ q ∈ a :: l, P q :=
  List.forall_mem_cons.mpr ⟨h, hl⟩

/-! ## What one id copy carries -/

omit [FloatOps F] in
/-- Copy r of the four carries the subcore's class ids number 128 r onward. -/
theorem ids_row (r : Fin 4) (ids : Buf (Elt F) (idsLoc d)) (x : S128.Idx) :
    View.read (Elt F) ((iV).slice (Rect.unit (s := S16384) (k1_off1 L (BitVec.ofNat 32 (128 * r.val))) S128.size (k1_off1_inb L r)) (fun _ => rfl)).view ids x
      = ids (ix1 (tileId L (128 * r.val + (x 0).val) (by have hx : (x 0).val < 128 := (x 0).isLt; have := r.isLt; omega))) := by
  rw [View.read_apply]
  show ids _ = ids _
  congr 1
  funext a
  match a with
  | ⟨0, _⟩ =>
    refine Fin.ext ?_
    show (k1_off1 L (BitVec.ofNat 32 (128 * r.val))) 0 + 1 * (x 0).val = 1024 * (L 1).val + 512 * (L 0).val + (128 * r.val + (x 0).val)
    rw [k1_off1_eq L r]
    simp
    omega

end Cert.KernelIdeal.Lk

end
-- ==== Proof.LoopIWords.lean ====
/-
  The four counted loops of the gather kernel's tile body, part 1: the words a trip computes from a class id, the
  side conditions it assumes of them (true of every word), and the two halves of the row buffer.
-/
import proofs.«204365_g77171972375186_cont_9to1c4b_67_15_alg».proof.Proof.CommonI
import proofs.«204365_g77171972375186_cont_9to1c4b_67_15_alg».proof.Proof.Gen.KernelIdeal.Skeleton

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The words a trip computes

A trip of one of the four loops reads sixteen class ids; for an id `v` it reads, from row `16 k + l` of one half
of the row buffer, the sixteen lanes from `(v mod 4) * 32` and the sixteen after them. These are the values of
those words as natural numbers, for any word `v`: the low two bits of a word select one of four lane groups, so
both windows lie inside a row of 128 lanes whatever the word is. -/

/-- The lane a class id selects, `(v &&& 3) * 32`, is `(v mod 4) * 32`. -/
theorem lane_val (v : BitVec 32) :
    (Scalar.indexCast (Scalar.muli (Scalar.andi v 3#32) 32#32)).toNat = Cert.Lookup.pkLane v := by
  show ((v &&& 3#32) * 32#32).toNat = (v.toNat % 4) * 32
  rw [BitVec.toNat_mul, BitVec.toNat_and]
  have h : v.toNat &&& (3#32 : BitVec 32).toNat = v.toNat % 4 := Nat.and_two_pow_sub_one_eq_mod v.toNat 2
  rw [h]
  have := Nat.mod_lt v.toNat (show 0 < 4 by decide)
  show v.toNat % 4 * 32 % 2 ^ 32 = v.toNat % 4 * 32
  omega

/-- Sixteen lanes further: `(v &&& 3) * 32 + 16`. -/
theorem lane16_val (v : BitVec 32) :
    (Scalar.indexCast (Scalar.addi (Scalar.muli (Scalar.andi v 3#32) 32#32) 16#32)).toNat = Cert.Lookup.pkLane v + 16 := by
  have h := lane_val v
  have hl : Cert.Lookup.pkLane v ≤ 96 := by
    have := Nat.mod_lt v.toNat (show 0 < 4 by decide); unfold Cert.Lookup.pkLane; omega
  show (((v &&& 3#32) * 32#32) + 16#32).toNat = _
  rw [BitVec.toNat_add]
  have h' : ((v &&& 3#32) * 32#32).toNat = Cert.Lookup.pkLane v := h
  rw [h']
  show (Cert.Lookup.pkLane v + 16) % 2 ^ 32 = _
  omega

/-- Row `16 k + c` of a chunk, as the trip computes it from the induction variable: `k < 8`, `c < 16`. -/
theorem row_val (k : ℕ) (hk : k < 8) (c : BitVec 32) (hc : c.toNat < 16) :
    (Scalar.indexCast (Scalar.addi (Scalar.muli (Scf.iv 0#32 1#32 k) 16#32) c)).toNat = 16 * k + c.toNat := by
  show ((0#32 + BitVec.ofNat 32 k * 1#32) * 16#32 + c).toNat = _
  rw [BitVec.toNat_add, BitVec.toNat_mul, BitVec.toNat_add, BitVec.toNat_mul, BitVec.toNat_ofNat]
  show ((0 + k % 2 ^ 32 * 1 % 2 ^ 32) % 2 ^ 32 * 16 % 2 ^ 32 + c.toNat) % 2 ^ 32 = _
  omega

theorem lane_le (v : BitVec 32) : (Scalar.indexCast (Scalar.muli (Scalar.andi v 3#32) 32#32)).toNat + 16 ≤ 128 := by
  rw [lane_val]; have := Nat.mod_lt v.toNat (show 0 < 4 by decide); unfold Cert.Lookup.pkLane; omega

theorem lane16_le (v : BitVec 32) :
    (Scalar.indexCast (Scalar.addi (Scalar.muli (Scalar.andi v 3#32) 32#32) 16#32)).toNat + 16 ≤ 128 := by
  rw [lane16_val]; have := Nat.mod_lt v.toNat (show 0 < 4 by decide); unfold Cert.Lookup.pkLane; omega

theorem row_le (k : Fin 8) (c : BitVec 32) (hc : c.toNat < 16) :
    (Scalar.indexCast (Scalar.addi (Scalar.muli (Scf.iv 0#32 1#32 k.val) 16#32) c)).toNat + 1 ≤ 128 := by
  rw [row_val k.val k.isLt c hc]; have := k.isLt; omega

theorem slot0_le : (0 : ℕ) + 1 ≤ 2 := by decide
theorem slot1_le : (1 : ℕ) + 1 ≤ 2 := by decide

/-- The side condition a trip assumes of each class id it has read — the two windows of sixteen lanes lie inside
    the row buffer — holds of every word: axis by axis, the half is 0 or 1, the row is below 128, and the lanes are
    `lane_le`, `lane16_le`. -/
macro "lk_chk" : tactic => `(tactic| (
  refine ⟨fun a => ?_, fun a => ?_⟩
  · fin_cases a
    · first | exact slot0_le | exact slot1_le
    · exact row_le _ _ (by decide)
    · exact lane_le _
  · fin_cases a
    · first | exact slot0_le | exact slot1_le
    · exact row_le _ _ (by decide)
    · exact lane16_le _))

/-! ## The two halves of the row buffer

The row buffer is two slots of 128 rows of 128 lanes. While a loop reads one slot the next chunk's rows are on
their way into the other, so a loop holds only the slot it reads, by that slot's own elements. Every window a trip
reads — one row, sixteen lanes, in the slot the loop reads — lies in that slot. -/

/-- Slot 0 of the row buffer, as the program slices it for a gather's target. -/
abbrev rowsA : Memref sig Kind.scVector Space.vmem S128x128 EltTy.f32 :=
  ((s2V).slice (Rect.unit (s := S2x128x128) ![0, 0, 0] S1x128x128.size inb_S2x128x128_S1x128x128_0_0_0) (fun _ => rfl)).squeeze S128x128 squeezes_S1x128x128_S128x128
/-- Slot 1. -/
abbrev rowsB : Memref sig Kind.scVector Space.vmem S128x128 EltTy.f32 :=
  ((s2V).slice (Rect.unit (s := S2x128x128) ![1, 0, 0] S1x128x128.size inb_S2x128x128_S1x128x128_1_0_0) (fun _ => rfl)).squeeze S128x128 squeezes_S1x128x128_S128x128

/-- A window of one row and sixteen lanes whose slot coordinate is 0 lies in slot 0. -/
theorem rowsA_incl (o : Fin 3 → ℕ) (h : ∀ a, o a + S1x1x16.size a ≤ S2x128x128.size a) (h0 : o 0 = 0) :
    ((s2V).access (Rect.unit (s := S2x128x128) o S1x1x16.size h)).set ⊆ (rowsA).view.set := by
  have hw : LoadRect.within (Rect.unit (s := S2x128x128) ![0, 0, 0] S1x128x128.size inb_S2x128x128_S1x128x128_0_0_0)
      (Rect.unit (s := S2x128x128) o S1x1x16.size h).toLoadRect = true := by
    refine LoadRect.within_of_withinP fun a => ?_
    have ha := h a
    fin_cases a
    · refine ⟨?_, ?_, Or.inl rfl⟩
      · show 0 ≤ o 0; omega
      · show o 0 + 1 * (1 - 1) < 0 + 1 * 1; omega
    · refine ⟨?_, ?_, Or.inl rfl⟩
      · show 0 ≤ o 1; omega
      · show o 1 + 1 * (1 - 1) < 0 + 1 * 128
        have : o 1 + 1 ≤ 128 := ha
        omega
    · refine ⟨?_, ?_, Or.inl rfl⟩
      · show 0 ≤ o 2; omega
      · show o 2 + 1 * (16 - 1) < 0 + 1 * 128
        have : o 2 + 16 ≤ 128 := ha
        omega
  have := Memref.setOn_access_subset_slice_of_within (s2V) _ (fun _ => rfl) (Rect.unit (s := S2x128x128) o S1x1x16.size h) Finset.univ hw
  simpa only [Memref.view_squeeze, View.set_reshape, View.setOn_univ] using this

/-- And one whose slot coordinate is 1 lies in slot 1. -/
theorem rowsB_incl (o : Fin 3 → ℕ) (h : ∀ a, o a + S1x1x16.size a ≤ S2x128x128.size a) (h0 : o 0 = 1) :
    ((s2V).access (Rect.unit (s := S2x128x128) o S1x1x16.size h)).set ⊆ (rowsB).view.set := by
  have hw : LoadRect.within (Rect.unit (s := S2x128x128) ![1, 0, 0] S1x128x128.size inb_S2x128x128_S1x128x128_1_0_0)
      (Rect.unit (s := S2x128x128) o S1x1x16.size h).toLoadRect = true := by
    refine LoadRect.within_of_withinP fun a => ?_
    have ha := h a
    fin_cases a
    · refine ⟨?_, ?_, Or.inl rfl⟩
      · show 1 ≤ o 0; omega
      · show o 0 + 1 * (1 - 1) < 1 + 1 * 1; omega
    · refine ⟨?_, ?_, Or.inl rfl⟩
      · show 0 ≤ o 1; omega
      · show o 1 + 1 * (1 - 1) < 0 + 1 * 128
        have : o 1 + 1 ≤ 128 := ha
        omega
    · refine ⟨?_, ?_, Or.inl rfl⟩
      · show 0 ≤ o 2; omega
      · show o 2 + 1 * (16 - 1) < 0 + 1 * 128
        have : o 2 + 16 ≤ 128 := ha
        omega
  have := Memref.setOn_access_subset_slice_of_within (s2V) _ (fun _ => rfl) (Rect.unit (s := S2x128x128) o S1x1x16.size h) Finset.univ hw
  simpa only [Memref.view_squeeze, View.set_reshape, View.setOn_univ] using this

example (k : Fin k1_t1_loop.trips) (v : BitVec 32) : k1_chk1 k v := by lk_chk
example (k : Fin k1_t1_loop.trips) (v : BitVec 32) : k1_chk16 k v := by lk_chk
example (k : Fin k1_t2_loop.trips) (v : BitVec 32) : k1_chk18 k v := by lk_chk
example (k : Fin k1_t4_loop.trips) (v : BitVec 32) : k1_chk64 k v := by lk_chk

end Cert.KernelIdeal.Lk

end
-- ==== Proof.LoopIPure.lean ====
/-
  The four counted loops of the gather kernel's tile body, part 2: what a loop leaves in the result scratch, as a
  function. Loop c (c = 0, 1, 2, 3) fills rows 128 c … 128 c + 127 of the result scratch: row 128 c + n takes, from
  row n of half c mod 2 of the row buffer, the 32 lanes starting at (i mod 4) * 32, where i is class id n of chunk c.
  A trip does sixteen rows, each by two stores of sixteen lanes.
-/
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.LoopIWords
import Idealize.ShloMosaic.Lib.ValueLayout

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

/-! ## Reading the index scratch and the row buffer at natural-number coordinates

Total functions of natural numbers (coordinates reduced modulo the extents, which changes nothing in range), so that
a statement about them carries no proofs of bounds. -/

/-- Class id `b` of chunk `a`. -/
def rd2 (I : S4x128.Idx → BitVec 32) (a b : ℕ) : BitVec 32 :=
  I (ix2 ⟨a % 4, Nat.mod_lt _ (by decide)⟩ ⟨b % 128, Nat.mod_lt _ (by decide)⟩)

/-- Lane `c` of row `b` of half `a` of the row buffer. -/
def rd3 (Rw : S2x128x128.Idx → Elt F .f32) (a b c : ℕ) : Elt F .f32 :=
  Rw (ix3 ⟨a % 2, Nat.mod_lt _ (by decide)⟩ ⟨b % 128, Nat.mod_lt _ (by decide)⟩ ⟨c % 128, Nat.mod_lt _ (by decide)⟩)

/-- The result scratch once the first `n` rows of chunk `c` are done, from contents `Rs`. -/
def resRows (c : ℕ) (I : S4x128.Idx → BitVec 32) (Rw : S2x128x128.Idx → Elt F .f32) (Rs : S512x32.Idx → Elt F .f32) (n : ℕ) :
    S512x32.Idx → Elt F .f32 :=
  fun j => if 128 * c ≤ (j 0).val ∧ (j 0).val < 128 * c + n then
      rd3 Rw (c % 2) ((j 0).val - 128 * c) (Cert.Lookup.pkLane (rd2 I c ((j 0).val - 128 * c)) + (j 1).val)
    else Rs j

theorem resRows_zero (c : ℕ) (I : S4x128.Idx → BitVec 32) (Rw : S2x128x128.Idx → Elt F .f32) (Rs : S512x32.Idx → Elt F .f32) :
    resRows c I Rw Rs 0 = Rs := by
  funext j; unfold resRows; rw [if_neg]; omega

/-! ## One store of sixteen lanes, read at an index -/

/-- A store of sixteen lanes at row `o 0`, lanes `o 1 …`, of the result scratch: inside the window the payload,
    elsewhere what was there. -/
theorem write_unit_apply (g : S512x32.Idx → Elt F .f32) (o : Fin 2 → ℕ) (h : ∀ a, o a + S1x16.size a ≤ S512x32.size a)
    (w : S1x16.Idx → Elt F .f32) (j : S512x32.Idx) :
    (((s3V).view.slice (Rect.unit (s := S512x32) o S1x16.size h)).write (Elt F) g w Finset.univ) j
      = if hm : (j 0).val = o 0 ∧ o 1 ≤ (j 1).val ∧ (j 1).val < o 1 + 16 then
          w (ix2 ⟨0, by decide⟩ ⟨(j 1).val - o 1, by omega⟩)
        else g j := by
  by_cases hm : (j 0).val = o 0 ∧ o 1 ≤ (j 1).val ∧ (j 1).val < o 1 + 16
  · rw [dif_pos hm]
    have hj : j = (Rect.unit (s := S512x32) o S1x16.size h).emb (ix2 ⟨0, by decide⟩ ⟨(j 1).val - o 1, by omega⟩) := by
      funext a
      refine Fin.ext ?_
      rw [Rect.emb_apply]
      match a with
      | ⟨0, _⟩ => show (j 0).val = o 0 + 1 * 0; omega
      | ⟨1, _⟩ => show (j 1).val = o 1 + 1 * ((j 1).val - o 1); omega
    conv_lhs => rw [hj]
    exact View.read_slice_write_emb (v := (s3V).view) (Rect.unit (s := S512x32) o S1x16.size h) g w (Finset.mem_univ _)
  · rw [dif_neg hm]
    refine View.read_slice_write_of_not_mem (v := (s3V).view) (Rect.unit (s := S512x32) o S1x16.size h) g w Finset.univ ?_
    rw [Rect.map_emb_univ, Rect.mem_set_unit]
    intro hall
    apply hm
    have h0 := hall 0
    have h1 := hall 1
    have e0 : S1x16.size 0 = 1 := rfl
    have e1 : S1x16.size 1 = 16 := rfl
    rw [e0] at h0; rw [e1] at h1
    omega

/-! ## One row: two stores of sixteen lanes -/

/-- Row `r = 128 c + n` done after rows `128 c … 128 c + n - 1`: the store of lanes 0–15 (`o4`, `w4`) and then of
    lanes 16–31 (`o6`, `w6`), whose payloads are the two windows of row `n` of the half `c mod 2` of the row buffer
    at the lane class id `n` of chunk `c` selects. -/
theorem writes_lane (c : ℕ) (I : S4x128.Idx → BitVec 32) (Rw : S2x128x128.Idx → Elt F .f32) (Rs : S512x32.Idx → Elt F .f32)
    (f : S512x32.Idx → Elt F .f32) {n m r : ℕ} {L : List (View.Piece (Elt F) S512x32 .f32)}
    {o6 o4 : Fin 2 → ℕ} {h6 : ∀ a, o6 a + S1x16.size a ≤ S512x32.size a} {h4 : ∀ a, o4 a + S1x16.size a ≤ S512x32.size a}
    {w6 w4 : S1x16.Idx → Elt F .f32}
    (e6 : o6 = ![r, 16]) (e4 : o4 = ![r, 0]) (hr : r = 128 * c + n) (hm : m = n + 1)
    (p4 : ∀ x : S1x16.Idx, w4 x = rd3 Rw (c % 2) n (Cert.Lookup.pkLane (rd2 I c n) + (x 1).val))
    (p6 : ∀ x : S1x16.Idx, w6 x = rd3 Rw (c % 2) n (Cert.Lookup.pkLane (rd2 I c n) + 16 + (x 1).val))
    (ih : (s3V).view.writes (Elt F) f L = resRows c I Rw Rs n) :
    (s3V).view.writes (Elt F) f (⟨Rect.unit (s := S512x32) o6 S1x16.size h6, w6⟩ :: ⟨Rect.unit (s := S512x32) o4 S1x16.size h4, w4⟩ :: L)
      = resRows c I Rw Rs m := by
  subst e6 e4 hm
  rw [View.writes_cons, View.writes_cons, ih]
  funext j
  have hj1 := idx2_lt1 j
  rw [write_unit_apply, write_unit_apply]
  have a60 : (![r, 16] : Fin 2 → ℕ) 0 = r := rfl
  have a61 : (![r, 16] : Fin 2 → ℕ) 1 = 16 := rfl
  have a40 : (![r, 0] : Fin 2 → ℕ) 0 = r := rfl
  have a41 : (![r, 0] : Fin 2 → ℕ) 1 = 0 := rfl
  unfold resRows
  by_cases h0 : (j 0).val = r
  · have hn : (j 0).val - 128 * c = n := by omega
    by_cases h1 : 16 ≤ (j 1).val
    · rw [dif_pos (by rw [a60, a61]; omega)]
      show w6 _ = _
      rw [p6, if_pos (by omega), hn]
      congr 1
      show Cert.Lookup.pkLane (rd2 I c n) + 16 + ((j 1).val - (![r, 16] : Fin 2 → ℕ) 1) = _
      rw [a61]; omega
    · rw [dif_neg (by rw [a60, a61]; omega), dif_pos (by rw [a40, a41]; omega)]
      show w4 _ = _
      rw [p4, if_pos (by omega), hn]
      congr 1
  · rw [dif_neg (by rw [a60]; omega), dif_neg (by rw [a40]; omega)]
    by_cases hlt : 128 * c ≤ (j 0).val ∧ (j 0).val < 128 * c + n
    · rw [if_pos hlt, if_pos (by omega)]
    · rw [if_neg hlt, if_neg (by omega)]

/-! ## What a trip loads: a class id, and the two windows it selects -/

/-- The window of one row and sixteen lanes at `o`, as the trip reshapes it for its store, read at a lane. -/
theorem rows_pay (Rw : S2x128x128.Idx → Elt F .f32) (o : Fin 3 → ℕ) (h : ∀ a, o a + S1x1x16.size a ≤ S2x128x128.size a)
    (x : S1x16.Idx) :
    shapeCast S1x16 (shapeCast S16 ((s2V).view.readAt (Elt F) (Rect.unit (s := S2x128x128) o S1x1x16.size h).toLoadRect Rw)
        shapeCasts_S1x1x16_S16) shapeCasts_S16_S1x16 x
      = rd3 Rw (o 0) (o 1) (o 2 + (x 1).val) := by
  have hx0 := idx2_lt0 x
  have hx1 := idx2_lt1 x
  rw [shapeCast_apply _ _ x (ix1 ⟨(x 1).val, hx1⟩) (by
        rw [Shape.rowMajor_val_one, Shape.rowMajor_val_two]
        show (x 1).val = (x 0).val * 16 + (x 1).val
        omega),
    shapeCast_apply _ _ (ix1 ⟨(x 1).val, hx1⟩) (ix3 ⟨0, by decide⟩ ⟨0, by decide⟩ ⟨(x 1).val, hx1⟩) (by
        rw [Shape.rowMajor_val_three, Shape.rowMajor_val_one]
        show (0 * 1 + 0) * 16 + (x 1).val = (x 1).val
        omega)]
  have h0 : o 0 + 1 ≤ 2 := h 0
  have h1 : o 1 + 1 ≤ 128 := h 1
  have h2 : o 2 + 16 ≤ 128 := h 2
  show Rw ((Rect.unit (s := S2x128x128) o S1x1x16.size h).toLoadRect.idx _) = Rw _
  congr 1
  funext a
  refine Fin.ext ?_
  rw [LoadRect.idx_apply]
  match a with
  | ⟨0, _⟩ => show o 0 + 1 * 0 = o 0 % 2; omega
  | ⟨1, _⟩ => show o 1 + 1 * 0 = o 1 % 128; omega
  | ⟨2, _⟩ => show o 2 + 1 * (x 1).val = (o 2 + (x 1).val) % 128; omega

/-- Lane `l` of the sixteen class ids a trip loads at `o`. -/
theorem id_word (I : S4x128.Idx → BitVec 32) (o : Fin 2 → ℕ) (h : ∀ a, o a + S1x16.size a ≤ S4x128.size a) (l : ℕ) (hl : l < 16)
    (hs : S16.Slices ![l] S1) (hp : ∀ a, (![0] : Fin 1 → ℕ) a < S1.size a) :
    extractAt ![0] (extractStridedSlice S1 ![l]
        (shapeCast S16 ((s0V).view.readAt (Elt F) (Rect.unit (s := S4x128) o S1x16.size h).toLoadRect I) shapeCasts_S1x16_S16) hs) hp
      = rd2 I (o 0) (o 1 + l) := by
  unfold extractAt extractStridedSlice
  rw [shapeCast_apply _ _ _ (ix2 ⟨0, by decide⟩ ⟨l, hl⟩) (by
        rw [Shape.rowMajor_val_one, Shape.rowMajor_val_two]
        show 0 * 16 + l = l + 0
        omega)]
  have h0 : o 0 + 1 ≤ 4 := h 0
  have h1 : o 1 + 16 ≤ 128 := h 1
  show I ((Rect.unit (s := S4x128) o S1x16.size h).toLoadRect.idx _) = I _
  congr 1
  funext a
  refine Fin.ext ?_
  rw [LoadRect.idx_apply]
  match a with
  | ⟨0, _⟩ => show o 0 + 1 * 0 = o 0 % 4; omega
  | ⟨1, _⟩ => show o 1 + 1 * l = (o 1 + l) % 128; omega

/-- The two payloads of row `n` of chunk `c`, from the class id `v` the trip read for it: lanes 0–15 … -/
theorem pay_lo (I : S4x128.Idx → BitVec 32) (Rw : S2x128x128.Idx → Elt F .f32) (c n : ℕ) (v : BitVec 32)
    {o : Fin 3 → ℕ} {h : ∀ a, o a + S1x1x16.size a ≤ S2x128x128.size a}
    (hv : v = rd2 I c n) (e0 : o 0 = c % 2) (e1 : o 1 = n) (e2 : o 2 = Cert.Lookup.pkLane v) (x : S1x16.Idx) :
    shapeCast S1x16 (shapeCast S16 ((s2V).view.readAt (Elt F) (Rect.unit (s := S2x128x128) o S1x1x16.size h).toLoadRect Rw)
        shapeCasts_S1x1x16_S16) shapeCasts_S16_S1x16 x
      = rd3 Rw (c % 2) n (Cert.Lookup.pkLane (rd2 I c n) + (x 1).val) := by
  rw [rows_pay, e0, e1, e2, hv]

/-- … and lanes 16–31. -/
theorem pay_hi (I : S4x128.Idx → BitVec 32) (Rw : S2x128x128.Idx → Elt F .f32) (c n : ℕ) (v : BitVec 32)
    {o : Fin 3 → ℕ} {h : ∀ a, o a + S1x1x16.size a ≤ S2x128x128.size a}
    (hv : v = rd2 I c n) (e0 : o 0 = c % 2) (e1 : o 1 = n) (e2 : o 2 = Cert.Lookup.pkLane v + 16) (x : S1x16.Idx) :
    shapeCast S1x16 (shapeCast S16 ((s2V).view.readAt (Elt F) (Rect.unit (s := S2x128x128) o S1x1x16.size h).toLoadRect Rw)
        shapeCasts_S1x1x16_S16) shapeCasts_S16_S1x16 x
      = rd3 Rw (c % 2) n (Cert.Lookup.pkLane (rd2 I c n) + 16 + (x 1).val) := by
  rw [rows_pay, e0, e1, e2, hv]

/-- The class id of row `n` of chunk `c`, as lane `l` of the sixteen the trip loaded at `o`. -/
theorem id_of (I : S4x128.Idx → BitVec 32) (c n : ℕ) {o : Fin 2 → ℕ} {h : ∀ a, o a + S1x16.size a ≤ S4x128.size a} {l : ℕ} (hl : l < 16)
    {hs : S16.Slices ![l] S1} {hp : ∀ a, (![0] : Fin 1 → ℕ) a < S1.size a} {b : ℕ} (e : o = ![c, b]) (hn : n = b + l) :
    extractAt ![0] (extractStridedSlice S1 ![l]
        (shapeCast S16 ((s0V).view.readAt (Elt F) (Rect.unit (s := S4x128) o S1x16.size h).toLoadRect I) shapeCasts_S1x16_S16) hs) hp
      = rd2 I c n := by
  rw [id_word I o h l hl]
  subst e hn
  rfl

/-! ## For the use of the closed form -/

theorem rd2_of_lt (I : S4x128.Idx → BitVec 32) {a b : ℕ} (ha : a < 4) (hb : b < 128) : rd2 I a b = I (ix2 ⟨a, ha⟩ ⟨b, hb⟩) := by
  unfold rd2
  congr 1
  funext x
  match x with
  | ⟨0, _⟩ => exact Fin.ext (Nat.mod_eq_of_lt ha)
  | ⟨1, _⟩ => exact Fin.ext (Nat.mod_eq_of_lt hb)

theorem rd3_of_lt (Rw : S2x128x128.Idx → Elt F .f32) {a b c : ℕ} (ha : a < 2) (hb : b < 128) (hc : c < 128) :
    rd3 Rw a b c = Rw (ix3 ⟨a, ha⟩ ⟨b, hb⟩ ⟨c, hc⟩) := by
  unfold rd3
  congr 1
  funext x
  match x with
  | ⟨0, _⟩ => exact Fin.ext (Nat.mod_eq_of_lt ha)
  | ⟨1, _⟩ => exact Fin.ext (Nat.mod_eq_of_lt hb)
  | ⟨2, _⟩ => exact Fin.ext (Nat.mod_eq_of_lt hc)

/-- The closed form: after `n` rows of chunk `c`, row `128 c + m` (`m < n`) holds the 32 lanes that class id `m` of
    the chunk selects in row `m` of half `c mod 2` of the row buffer; every other row is as before. -/
theorem resRows_apply (c : ℕ) (I : S4x128.Idx → BitVec 32) (Rw : S2x128x128.Idx → Elt F .f32) (Rs : S512x32.Idx → Elt F .f32)
    (n : ℕ) (j : S512x32.Idx) :
    resRows c I Rw Rs n j = if 128 * c ≤ (j 0).val ∧ (j 0).val < 128 * c + n then
        rd3 Rw (c % 2) ((j 0).val - 128 * c) (Cert.Lookup.pkLane (rd2 I c ((j 0).val - 128 * c)) + (j 1).val)
      else Rs j := rfl

/-- Equal contents, the same points-to assertion. -/
theorem pts_congr (d : Dev nD) (c : Fin τ.nSC) (i : Fin τ.nSub) (f g : Buf (Elt F) ((s3V).view.loc (V d c i))) (h : f = g) :
    ((s3V).view.loc (V d c i) ↦{fullShare} f : sProp (MT nD τ sig (HIx 1) (Elt F) ℕ UU ℕ)) ⊢ ((s3V).view.loc (V d c i) ↦{fullShare} g) :=
  Entails.of_eq (by rw [h])

end Cert.KernelIdeal.Lk

end
-- ==== Proof.TileIFinal.lean ====
/-
  The result scratch after the four loops, read as the lookup. Loop c fills rows 128 c … 128 c + 127 from the half
  c mod 2 of the row buffer as the gather of chunk c left it: row k of that half is packed row (i / 4) for the class
  id i = number 128 c + k of the subcore, and the loop takes its 32 lanes from lane (i mod 4) * 32. So row n of the
  scratch is the packed array read at the row and lanes the subcore's class id number n names.
-/
import proofs.«204365_g77171972375186_cont_9to1c4b_67_15_alg».proof.Proof.LoopIPure
import proofs.«204365_g77171972375186_cont_9to1c4b_67_15_alg».proof.Proof.TileIMath

noncomputable section

namespace Cert.KernelIdeal.Lk

open Cert.KernelIdeal Cert.KernelIdeal.Gen

open Idealize.ShloMosaic Idealize.ShloMosaic.ValueIdx

variable {F : FTy → Type}

/-- One chunk's rows: what loop `c` wrote at row `n` (128 c ≤ n < 128 c + 128) is the packed array at the row and
    lanes the subcore's class id number `n` names. -/
theorem chunk_rows (L : grid1.Coords) (I : S4x128.Idx → BitVec 32) (ids : Cert.Lookup.SIds.Idx → BitVec 32)
    (pk : Cert.Lookup.SPk.Idx → Elt F .f32)
    (hI : ∀ y : S4x128.Idx, I y = ids (ix1 (tileId L (128 * (y 0).val + (y 1).val) (by
      have : (y 0).val < 4 := (y 0).isLt
      have : (y 1).val < 128 := (y 1).isLt
      omega))))
    (c : ℕ) (hc : c < 4) (R : S2x128x128.Idx → Elt F .f32)
    (hG : ∀ (k col : Fin 128), R (ix3 ⟨c % 2, Nat.mod_lt _ (by decide)⟩ k col)
      = pk (ix2 (Cert.Lookup.pkRow (I (ix2 ⟨c, hc⟩ k))) col))
    (j : S512x32.Idx) (h : 128 * c ≤ (j 0).val ∧ (j 0).val < 128 * c + 128) :
    rd3 R (c % 2) ((j 0).val - 128 * c) (Cert.Lookup.pkLane (rd2 I c ((j 0).val - 128 * c)) + (j 1).val)
      = Cert.Lookup.unpacked ids pk (ix2 (tileId L (j 0).val (idx2_lt0 j)) ⟨(j 1).val, idx2_lt1 j⟩) := by
  have hj0 : (j 0).val < 512 := idx2_lt0 j
  have hj1 : (j 1).val < 32 := idx2_lt1 j
  obtain ⟨k, hk⟩ : ∃ k, k = (j 0).val - 128 * c := ⟨_, rfl⟩
  rw [← hk]
  have hk128 : k < 128 := by omega
  have hG' : ∀ col : Fin 128, R (ix3 ⟨c % 2, Nat.mod_lt _ (by decide)⟩ ⟨k, hk128⟩ col)
      = pk (ix2 (Cert.Lookup.pkRow (rd2 I c k)) col) := fun col => by
    rw [rd2_of_lt I hc hk128]; exact hG ⟨k, hk128⟩ col
  have hw : rd2 I c k = ids (ix1 (tileId L (128 * c + k) (by omega))) :=
    (rd2_of_lt I hc hk128).trans (hI (ix2 ⟨c, hc⟩ ⟨k, hk128⟩))
  generalize rd2 I c k = w at hG' hw ⊢
  subst hw
  rw [rd3_of_lt R (Nat.mod_lt _ (by decide)) hk128 (Cert.Lookup.pkLane_add_lt _ ⟨(j 1).val, hj1⟩), hG']
  have hidx : tileId L (128 * c + k) (by omega) = tileId L (j 0).val hj0 :=
    Fin.ext (by show 1024 * (L 1).val + 512 * (L 0).val + (128 * c + k) = 1024 * (L 1).val + 512 * (L 0).val + (j 0).val; omega)
  exact congrArg (fun i : Fin 16384 => pk (ix2 (Cert.Lookup.pkRow (ids (ix1 i)))
    ⟨Cert.Lookup.pkLane (ids (ix1 i)) + (j 1).val, Cert.Lookup.pkLane_add_lt _ ⟨(j 1).val, hj1⟩⟩)) hidx

/-- After the four loops the result scratch is the lookup of the subcore's 512 class ids in the packed array. -/
theorem res_final (L : grid1.Coords) (I : S4x128.Idx → BitVec 32) (R0 R1 R2 R3 : S2x128x128.Idx → Elt F .f32)
    (Rs0 : S512x32.Idx → Elt F .f32) (ids : Cert.Lookup.SIds.Idx → BitVec 32) (pk : Cert.Lookup.SPk.Idx → Elt F .f32)
    (hI : ∀ y : S4x128.Idx, I y = ids (ix1 (tileId L (128 * (y 0).val + (y 1).val) (by
      have : (y 0).val < 4 := (y 0).isLt
      have : (y 1).val < 128 := (y 1).isLt
      omega))))
    (hG0 : ∀ (k col : Fin 128), R0 (ix3 ⟨0, by decide⟩ k col) = pk (ix2 (Cert.Lookup.pkRow (I (ix2 ⟨0, by decide⟩ k))) col))
    (hG1 : ∀ (k col : Fin 128), R1 (ix3 ⟨1, by decide⟩ k col) = pk (ix2 (Cert.Lookup.pkRow (I (ix2 ⟨1, by decide⟩ k))) col))
    (hG2 : ∀ (k col : Fin 128), R2 (ix3 ⟨0, by decide⟩ k col) = pk (ix2 (Cert.Lookup.pkRow (I (ix2 ⟨2, by decide⟩ k))) col))
    (hG3 : ∀ (k col : Fin 128), R3 (ix3 ⟨1, by decide⟩ k col) = pk (ix2 (Cert.Lookup.pkRow (I (ix2 ⟨3, by decide⟩ k))) col)) :
    ∀ j : S512x32.Idx, resRows 3 I R3 (resRows 2 I R2 (resRows 1 I R1 (resRows 0 I R0 Rs0 128) 128) 128) 128 j
      = Cert.Lookup.unpacked ids pk (ix2 (tileId L (j 0).val (idx2_lt0 j)) ⟨(j 1).val, idx2_lt1 j⟩) := by
  intro j
  have hj0 : (j 0).val < 512 := idx2_lt0 j
  by_cases h3 : 128 * 3 ≤ (j 0).val ∧ (j 0).val < 128 * 3 + 128
  · rw [resRows_apply, if_pos h3]
    exact chunk_rows L I ids pk hI 3 (by decide) R3 hG3 j h3
  rw [resRows_apply, if_neg h3]
  by_cases h2 : 128 * 2 ≤ (j 0).val ∧ (j 0).val < 128 * 2 + 128
  · rw [resRows_apply, if_pos h2]
    exact chunk_rows L I ids pk hI 2 (by decide) R2 hG2 j h2
  rw [resRows_apply, if_neg h2]
  by_cases h1 : 128 * 1 ≤ (j 0).val ∧ (j 0).val < 128 * 1 + 128
  · rw [resRows_apply, if_pos h1]
    exact chunk_rows L I ids pk hI 1 (by decide) R1 hG1 j h1
  rw [resRows_apply, if_neg h1]
  have h0 : 128 * 0 ≤ (j 0).val ∧ (j 0).val < 128 * 0 + 128 := by omega
  rw [resRows_apply, if_pos h0]
  exact chunk_rows L I ids pk hI 0 (by decide) R0 hG0 j h0

end Cert.KernelIdeal.Lk

end
-- ==== Proof.TileIOut.lean ====
/-
  The copy out. The subcore's result scratch, written whole onto its block of 512 result rows, makes row n of the
  block the scratch's row n: if the scratch holds the lookup of the subcore's class ids, the block holds the lookup.
-/
import proofs.«204365_g77171972375186_cont_9to1c4b_67_15_alg».proof.Proof.TileIMath

noncomputable section

namespace Cert.KernelIdeal.Lk

open Cert.KernelIdeal Cert.KernelIdeal.Gen

open Idealize.ShloMosaic Idealize.ShloMosaic.ValueIdx
open Idealize.ShloMosaic.SparseCore (S V T)

variable {F : FTy → Type}

theorem out_block (d : Dev nD) (L : grid1.Coords) (ids : Cert.Lookup.SIds.Idx → BitVec 32) (pk : Cert.Lookup.SPk.Idx → Elt F .f32)
    (w : S512x32.Idx → Elt F .f32) (out0 : Buf (Elt F) (outLoc d))
    (hw : ∀ j : S512x32.Idx, w j = Cert.Lookup.unpacked ids pk (ix2 (tileId L (j 0).val (idx2_lt0 j)) ⟨(j 1).val, idx2_lt1 j⟩)) :
    ∀ i ∈ (oRowK L).view.set, ((oRowK L).view.writes (Elt F) out0 [⟨Rect.whole S512x32, w⟩]) i = Cert.Lookup.unpacked ids pk i := by
  intro i hi
  obtain ⟨x, -, rfl⟩ := Finset.mem_map.mp hi
  have he : (Rect.whole S512x32).emb x = x := funext fun a => Fin.ext (by
    show 0 + 1 * (x a).val = (x a).val; omega)
  have h1 := View.read_writes_cons_emb (v := (oRowK L).view) (f := out0) (Rect.whole S512x32) w [] x
  rw [he] at h1
  have h2 : (oRowK L).view.read (Elt F) ((oRowK L).view.writes (Elt F) out0 [⟨Rect.whole S512x32, w⟩]) x
      = ((oRowK L).view.writes (Elt F) out0 [⟨Rect.whole S512x32, w⟩]) ((oRowK L).view.emb x) :=
    (View.read_apply _ _).trans (cast_eq _ _)
  rw [h2] at h1
  rw [h1, hw]
  refine congrArg (Cert.Lookup.unpacked ids pk) (funext fun a => Fin.ext ?_)
  have ho := k1_off262_eq L
  match a with
  | ⟨0, _⟩ =>
    show 1024 * (L 1).val + 512 * (L 0).val + (x 0).val = k1_off262 L 0 + 1 * (x 0).val
    rw [ho]; show _ = (1024 * (L 1).val + 512 * (L 0).val) + 1 * (x 0).val; omega
  | ⟨1, _⟩ =>
    show (x 1).val = k1_off262 L 1 + 1 * (x 1).val
    rw [ho]; show _ = 0 + 1 * (x 1).val; omega

end Cert.KernelIdeal.Lk

end
-- ==== Proof.TileIGather.lean ====
/-
  What an indirect row gather leaves in a half of the row buffer. The gather of chunk c copies, for k = 0 … 127, the
  packed row whose number is word k of row c of the row-index scratch into row k of the half: entry (k, l) of the half
  is entry (that row, l) of the packed array.
-/
import proofs.«204365_g77171972375186_cont_9to1c4b_67_15_alg».proof.Proof.TileIMath

noncomputable section

namespace Cert.KernelIdeal.Lk

open Cert.KernelIdeal Cert.KernelIdeal.Gen

open Idealize.ShloMosaic Idealize.ShloMosaic.ValueIdx
open Idealize.ShloMosaic.SparseCore (S V T)

variable {F : FTy → Type}

/-- A [128, 128] block re-indexed as a [1, 128, 128] slab: entry (0, k, l) of the slab is entry (k, l) of the block. -/
theorem slab_of_block (h : S128x128.numel = (⟨3, S1x128x128.size⟩ : Shape).numel) (y : S128x128.Idx) :
    Shape.reshapeEquiv h y = Fin.cons ⟨0, Nat.one_pos⟩ y :=
  Shape.reshapeEquiv_cons_one (n := 2) (d := ![128, 128]) h y

/-- A length-128 vector re-indexed as a [1, 128] row. -/
theorem row_of_vec' (h : S128.numel = (⟨2, S1x128.size⟩ : Shape).numel) (z : S128.Idx) :
    Shape.reshapeEquiv h z = Fin.cons ⟨0, Nat.one_pos⟩ z :=
  Shape.reshapeEquiv_cons_one (n := 1) (d := ![128]) h z

/-- The row the list names for entry `q`: word `q` of row `c` of the row-index scratch, read unsigned. -/
theorem rows_val (c : ℕ) (hc : c < 4) (i2 : ∀ a, (![c, 0] : Fin 2 → ℕ) a + S1x128.size a ≤ S4x128.size a)
    (R : S4x128.Idx → Elt F .i32) (hn : S128.numel = S128x128.size gathers_S250000x128_S128x128.axis')
    (hin : ∀ x, ((((s1V).slice (Rect.unit (s := S4x128) ![c, 0] S1x128.size i2) (fun _ => rfl)).squeeze S128 squeezes_S1x128_S128).view.read (Elt F) R x).toNat
      < S250000x128.size gathers_S250000x128_S128x128.axis)
    (q : Fin (S128x128.size gathers_S250000x128_S128x128.axis')) :
    (SparseCore.rows (View.read (Elt F) (((s1V).slice (Rect.unit (s := S4x128) ![c, 0] S1x128.size i2) (fun _ => rfl)).squeeze S128 squeezes_S1x128_S128).view R) hn hin q).val
      = (R (ix2 ⟨c, hc⟩ ⟨q.val, q.isLt⟩)).toNat := by
  simp only [SparseCore.rows]
  rw [View.read_apply, cast_eq]
  refine congrArg (fun i => (R i).toNat) ?_
  show ((View.whole (cc1_scratch1 : Ref sig .scVector)).slice (Rect.unit (s := S4x128) ![c, 0] S1x128.size i2)).emb
    (Shape.reshapeEquiv squeezes_S1x128_S128.numel_eq (S128.rowMajor.symm (q.cast hn.symm))) = _
  rw [row_of_vec']
  funext b
  refine Fin.ext ?_
  match b with
  | ⟨0, _⟩ => show c + 1 * 0 = c; omega
  | ⟨1, _⟩ =>
    show 0 + 1 * ((S128.rowMajor.symm (q.cast hn.symm)) 0).val = q.val
    have e := congrArg Fin.val ((S128.rowMajor).apply_symm_apply (q.cast hn.symm))
    rw [Shape.rowMajor_val_one] at e
    rw [Nat.zero_add, Nat.one_mul]
    exact e

theorem gathered_half (hh : ℕ) (hh2 : hh < 2) (c : ℕ) (hc : c < 4)
    (i3 : ∀ a, (![hh, 0, 0] : Fin 3 → ℕ) a + S1x128x128.size a ≤ S2x128x128.size a)
    (i2 : ∀ a, (![c, 0] : Fin 2 → ℕ) a + S1x128.size a ≤ S4x128.size a)
    (R : S4x128.Idx → Elt F .i32) (pk : S250000x128.Idx → Elt F .f32)
    (junk : S2x128x128.Idx → Elt F .f32)
    (hn : S128.numel = S128x128.size gathers_S250000x128_S128x128.axis')
    (hin : ∀ x, ((((s1V).slice (Rect.unit (s := S4x128) ![c, 0] S1x128.size i2) (fun _ => rfl)).squeeze S128 squeezes_S1x128_S128).view.read (Elt F) R x).toNat
      < S250000x128.size gathers_S250000x128_S128x128.axis) (k col : Fin 128)
    (w : BitVec 32) (hw : R (ix2 ⟨c, hc⟩ k) = w >>> 2) (hwr : w.toNat ≤ 999999) :
    ((((s2V).slice (Rect.unit (s := S2x128x128) ![hh, 0, 0] S1x128x128.size i3) (fun _ => rfl)).squeeze S128x128 squeezes_S1x128x128_S128x128).view.writes (Elt F) junk
        [⟨Rect.whole S128x128, SparseCore.gatherPayload gathers_S250000x128_S128x128
          (View.read (Elt F) ((pV).slice (Rect.unit (s := S250000x128) ![0, 0] S250000x128.size inb_S250000x128_S250000x128_0_0) (fun _ => rfl)).view pk)
          (SparseCore.rows (View.read (Elt F) (((s1V).slice (Rect.unit (s := S4x128) ![c, 0] S1x128.size i2) (fun _ => rfl)).squeeze S128 squeezes_S1x128_S128).view R) hn hin)⟩])
      (ix3 ⟨hh, hh2⟩ k col)
      = pk (ix2 (Cert.Lookup.pkRow w) col) := by
  -- the half's entry (k, l) sits at entry (hh, k, l) of the row buffer
  have hemb : (((s2V).slice (Rect.unit (s := S2x128x128) ![hh, 0, 0] S1x128x128.size i3) (fun _ => rfl)).squeeze S128x128 squeezes_S1x128x128_S128x128).view.emb (ix2 k col)
      = ix3 ⟨hh, hh2⟩ k col := by
    show ((View.whole (cc1_scratch2 : Ref sig .scVector)).slice (Rect.unit (s := S2x128x128) ![hh, 0, 0] S1x128x128.size i3)).emb
        (Shape.reshapeEquiv squeezes_S1x128x128_S128x128.numel_eq (ix2 k col)) = _
    rw [slab_of_block]
    funext a
    refine Fin.ext ?_
    match a with
    | ⟨0, _⟩ => show hh + 1 * 0 = hh; omega
    | ⟨1, _⟩ => show 0 + 1 * k.val = k.val; omega
    | ⟨2, _⟩ => show 0 + 1 * col.val = col.val; omega
  have he : (Rect.whole S128x128).emb (ix2 k col) = ix2 k col := funext fun a => Fin.ext (by
    show 0 + 1 * ((ix2 k col : S128x128.Idx) a).val = _; omega)
  have h1 := View.read_writes_cons_emb
    (v := (((s2V).slice (Rect.unit (s := S2x128x128) ![hh, 0, 0] S1x128x128.size i3) (fun _ => rfl)).squeeze S128x128 squeezes_S1x128x128_S128x128).view)
    (f := junk) (Rect.whole S128x128)
    (SparseCore.gatherPayload gathers_S250000x128_S128x128
      (View.read (Elt F) ((pV).slice (Rect.unit (s := S250000x128) ![0, 0] S250000x128.size inb_S250000x128_S250000x128_0_0) (fun _ => rfl)).view pk)
      (SparseCore.rows (View.read (Elt F) (((s1V).slice (Rect.unit (s := S4x128) ![c, 0] S1x128.size i2) (fun _ => rfl)).squeeze S128 squeezes_S1x128_S128).view R) hn hin))
    [] (ix2 k col)
  rw [he] at h1
  rw [← hemb]
  refine ((View.read_apply _ _).trans (cast_eq _ _)).symm.trans (h1.trans ?_)
  -- the payload at (k, l): the packed array at the row the list names for k, lane l
  unfold SparseCore.gatherPayload
  refine ((View.read_apply _ _).trans (cast_eq _ _)).trans ?_
  refine congrArg pk (funext fun a => Fin.ext ?_)
  match a with
  | ⟨0, _⟩ =>
    show 0 + 1 * ((gathers_S250000x128_S128x128).idx _ (ix2 k col) ⟨0, _⟩).val = (Cert.Lookup.pkRow w).val
    have hax := Shape.Gathers.idx_axis gathers_S250000x128_S128x128
      (SparseCore.rows (View.read (Elt F) (((s1V).slice (Rect.unit (s := S4x128) ![c, 0] S1x128.size i2) (fun _ => rfl)).squeeze S128 squeezes_S1x128_S128).view R) hn hin) (ix2 k col)
    have hax' := congrArg Fin.val hax
    rw [Nat.zero_add, Nat.one_mul]
    refine hax'.trans ((rows_val c hc i2 R hn hin _).trans ?_)
    show (R (ix2 ⟨c, hc⟩ k)).toNat = _
    rw [hw, shr_toNat]
    simp only [Cert.Lookup.pkRow]
    omega
  | ⟨1, _⟩ =>
    show 0 + 1 * ((gathers_S250000x128_S128x128).idx _ (ix2 k col) ⟨1, _⟩).val = col.val
    rw [Nat.zero_add, Nat.one_mul]
    exact Shape.Gathers.idx_of_ne gathers_S250000x128_S128x128 _ (ix2 k col) ⟨1, by decide⟩ (by decide)

end Cert.KernelIdeal.Lk

end
-- ==== Proof.LoopI1.lean ====
/-
  The four counted loops of the gather kernel's tile body, part 3: loop 1 — its invariant over the trip count and
  one trip's run from the invariant to the invariant.
-/
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.LoopIPure

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 1: chunk 0, read from half 0 of the row buffer -/

/-- Before trip `g` of loop 1: the index scratch whole at `I`, half 0 of the row buffer by its own elements at `Rw`,
    and the result scratch with the first `16 g` rows of chunk 0 done over `Rs`. -/
def inv1 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsA).view.loc (V d (cV L) (jV L)) ↦[(rowsA).view.set]{fullShare} Rw)
    ∗ ((s3V).view.loc (V d (cV L) (jV L)) ↦{fullShare} resRows 0 I Rw Rs (16 * g)))

set_option maxHeartbeats 8000000 in
/-- One trip of loop 1 from the invariant to the invariant at the next trip: the sixteen class ids are loaded, each
    id's side condition holds of any word, each of its two windows lies in the half held, and the thirty-two stores
    are the sixteen rows `writes_lane` adds. -/
theorem trip1 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t1_loop.trips) (acc : Unit) :
    inv1 d L I Rw Rs k.val acc
      ⊢ wp frame (wpE (defs₀ (F := F)) 𝒱₀ (V d (cV L) (jV L)) none) Set.univ
          (k1_t1_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv1 d L I Rw Rs (k.val + 1)) := by
  unfold inv1 k1_t1_body
  have e3 : ∀ v h, ((s2V).access (Rect.unit (s := S2x128x128) (k1_off3 k v) S1x1x16.size h)).set ⊆ (rowsA).view.set := fun v h => rowsA_incl _ h rfl
  have e5 : ∀ v h, ((s2V).access (Rect.unit (s := S2x128x128) (k1_off5 k v) S1x1x16.size h)).set ⊆ (rowsA).view.set := fun v h => rowsA_incl _ h rfl
  have e7 : ∀ v h, ((s2V).access (Rect.unit (s := S2x128x128) (k1_off7 k v) S1x1x16.size h)).set ⊆ (rowsA).view.set := fun v h => rowsA_incl _ h rfl
  have e9 : ∀ v h, ((s2V).access (Rect.unit (s := S2x128x128) (k1_off9 k v) S1x1x16.size h)).set ⊆ (rowsA).view.set := fun v h => rowsA_incl _ h rfl
  have e11 : ∀ v h, ((s2V).access (Rect.unit (s := S2x128x128) (k1_off11 k v) S1x1x16.size h)).set ⊆ (rowsA).view.set := fun v h => rowsA_incl _ h rfl
  have e13 : ∀ v h, ((s2V).access (Rect.unit (s := S2x128x128) (k1_off13 k v) S1x1x16.size h)).set ⊆ (rowsA).view.set := fun v h => rowsA_incl _ h rfl
  have e15 : ∀ v h, ((s2V).access (Rect.unit (s := S2x128x128) (k1_off15 k v) S1x1x16.size h)).set ⊆ (rowsA).view.set := fun v h => rowsA_incl _ h rfl
  have e17 : ∀ v h, ((s2V).access (Rect.unit (s := S2x128x128) (k1_off17 k v) S1x1x16.size h)).set ⊆ (rowsA).view.set := fun v h => rowsA_incl _ h rfl
  have e19 : ∀ v h, ((s2V).access (Rect.unit (s := S2x128x128) (k1_off19 k v) S1x1x16.size h)).set ⊆ (rowsA).view.set := fun v h => rowsA_incl _ h rfl
  have e21 : ∀ v h, ((s2V).access (Rect.unit (s := S2x128x128) (k1_off21 k v) S1x1x16.size h)).set ⊆ (rowsA).view.set := fun v h => rowsA_incl _ h rfl
  have e23 : ∀ v h, ((s2V).access (Rect.unit (s := S2x128x128) (k1_off23 k v) S1x1x16.size h)).set ⊆ (rowsA).view.set := fun v h => rowsA_incl _ h rfl
  have e25 : ∀ v h, ((s2V).access (Rect.unit (s := S2x128x128) (k1_off25 k v) S1x1x16.size h)).set ⊆ (rowsA).view.set := fun v h => rowsA_incl _ h rfl
  have e27 : ∀ v h, ((s2V).access (Rect.unit (s := S2x128x128) (k1_off27 k v) S1x1x16.size h)).set ⊆ (rowsA).view.set := fun v h => rowsA_incl _ h rfl
  have e29 : ∀ v h, ((s2V).access (Rect.unit (s := S2x128x128) (k1_off29 k v) S1x1x16.size h)).set ⊆ (rowsA).view.set := fun v h => rowsA_incl _ h rfl
  have e31 : ∀ v h, ((s2V).access (Rect.unit (s := S2x128x128) (k1_off31 k v) S1x1x16.size h)).set ⊆ (rowsA).view.set := fun v h => rowsA_incl _ h rfl
  have e33 : ∀ v h, ((s2V).access (Rect.unit (s := S2x128x128) (k1_off33 k v) S1x1x16.size h)).set ⊆ (rowsA).view.set := fun v h => rowsA_incl _ h rfl
  have e35 : ∀ v h, ((s2V).access (Rect.unit (s := S2x128x128) (k1_off35 k v) S1x1x16.size h)).set ⊆ (rowsA).view.set := fun v h => rowsA_incl _ h rfl
  have e37 : ∀ v h, ((s2V).access (Rect.unit (s := S2x128x128) (k1_off37 k v) S1x1x16.size h)).set ⊆ (rowsA).view.set := fun v h => rowsA_incl _ h rfl
  have e39 : ∀ v h, ((s2V).access (Rect.unit (s := S2x128x128) (k1_off39 k v) S1x1x16.size h)).set ⊆ (rowsA).view.set := fun v h => rowsA_incl _ h rfl
  have e41 : ∀ v h, ((s2V).access (Rect.unit (s := S2x128x128) (k1_off41 k v) S1x1x16.size h)).set ⊆ (rowsA).view.set := fun v h => rowsA_incl _ h rfl
  have e43 : ∀ v h, ((s2V).access (Rect.unit (s := S2x128x128) (k1_off43 k v) S1x1x16.size h)).set ⊆ (rowsA).view.set := fun v h => rowsA_incl _ h rfl
  have e45 : ∀ v h, ((s2V).access (Rect.unit (s := S2x128x128) (k1_off45 k v) S1x1x16.size h)).set ⊆ (rowsA).view.set := fun v h => rowsA_incl _ h rfl
  have e47 : ∀ v h, ((s2V).access (Rect.unit (s := S2x128x128) (k1_off47 k v) S1x1x16.size h)).set ⊆ (rowsA).view.set := fun v h => rowsA_incl _ h rfl
  have e49 : ∀ v h, ((s2V).access (Rect.unit (s := S2x128x128) (k1_off49 k v) S1x1x16.size h)).set ⊆ (rowsA).view.set := fun v h => rowsA_incl _ h rfl
  have e51 : ∀ v h, ((s2V).access (Rect.unit (s := S2x128x128) (k1_off51 k v) S1x1x16.size h)).set ⊆ (rowsA).view.set := fun v h => rowsA_incl _ h rfl
  have e53 : ∀ v h, ((s2V).access (Rect.unit (s := S2x128x128) (k1_off53 k v) S1x1x16.size h)).set ⊆ (rowsA).view.set := fun v h => rowsA_incl _ h rfl
  have e55 : ∀ v h, ((s2V).access (Rect.unit (s := S2x128x128) (k1_off55 k v) S1x1x16.size h)).set ⊆ (rowsA).view.set := fun v h => rowsA_incl _ h rfl
  have e57 : ∀ v h, ((s2V).access (Rect.unit (s := S2x128x128) (k1_off57 k v) S1x1x16.size h)).set ⊆ (rowsA).view.set := fun v h => rowsA_incl _ h rfl
  have e59 : ∀ v h, ((s2V).access (Rect.unit (s := S2x128x128) (k1_off59 k v) S1x1x16.size h)).set ⊆ (rowsA).view.set := fun v h => rowsA_incl _ h rfl
  have e61 : ∀ v h, ((s2V).access (Rect.unit (s := S2x128x128) (k1_off61 k v) S1x1x16.size h)).set ⊆ (rowsA).view.set := fun v h => rowsA_incl _ h rfl
  have e63 : ∀ v h, ((s2V).access (Rect.unit (s := S2x128x128) (k1_off63 k v) S1x1x16.size h)).set ⊆ (rowsA).view.set := fun v h => rowsA_incl _ h rfl
  have e65 : ∀ v h, ((s2V).access (Rect.unit (s := S2x128x128) (k1_off65 k v) S1x1x16.size h)).set ⊆ (rowsA).view.set := fun v h => rowsA_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 0 I Rw Rs _ (n := 16 * k.val + 15) (k1_off66_eq k) (k1_off64_eq k) (by omega) (by omega)
    (pay_lo I Rw 0 (16 * k.val + 15) _ (id_of I 0 (16 * k.val + 15) (by decide) (k1_off2_eq k) (by omega)) rfl (row_val k.val k.isLt 15#32 (by decide)) (lane_val _))
    (pay_hi I Rw 0 (16 * k.val + 15) _ (id_of I 0 (16 * k.val + 15) (by decide) (k1_off2_eq k) (by omega)) rfl (row_val k.val k.isLt 15#32 (by decide)) (lane16_val _)) ?_
  refine writes_lane 0 I Rw Rs _ (n := 16 * k.val + 14) (k1_off62_eq k) (k1_off60_eq k) (by omega) (by omega)
    (pay_lo I Rw 0 (16 * k.val + 14) _ (id_of I 0 (16 * k.val + 14) (by decide) (k1_off2_eq k) (by omega)) rfl (row_val k.val k.isLt 14#32 (by decide)) (lane_val _))
    (pay_hi I Rw 0 (16 * k.val + 14) _ (id_of I 0 (16 * k.val + 14) (by decide) (k1_off2_eq k) (by omega)) rfl (row_val k.val k.isLt 14#32 (by decide)) (lane16_val _)) ?_
  refine writes_lane 0 I Rw Rs _ (n := 16 * k.val + 13) (k1_off58_eq k) (k1_off56_eq k) (by omega) (by omega)
    (pay_lo I Rw 0 (16 * k.val + 13) _ (id_of I 0 (16 * k.val + 13) (by decide) (k1_off2_eq k) (by omega)) rfl (row_val k.val k.isLt 13#32 (by decide)) (lane_val _))
    (pay_hi I Rw 0 (16 * k.val + 13) _ (id_of I 0 (16 * k.val + 13) (by decide) (k1_off2_eq k) (by omega)) rfl (row_val k.val k.isLt 13#32 (by decide)) (lane16_val _)) ?_
  refine writes_lane 0 I Rw Rs _ (n := 16 * k.val + 12) (k1_off54_eq k) (k1_off52_eq k) (by omega) (by omega)
    (pay_lo I Rw 0 (16 * k.val + 12) _ (id_of I 0 (16 * k.val + 12) (by decide) (k1_off2_eq k) (by omega)) rfl (row_val k.val k.isLt 12#32 (by decide)) (lane_val _))
    (pay_hi I Rw 0 (16 * k.val + 12) _ (id_of I 0 (16 * k.val + 12) (by decide) (k1_off2_eq k) (by omega)) rfl (row_val k.val k.isLt 12#32 (by decide)) (lane16_val _)) ?_
  refine writes_lane 0 I Rw Rs _ (n := 16 * k.val + 11) (k1_off50_eq k) (k1_off48_eq k) (by omega) (by omega)
    (pay_lo I Rw 0 (16 * k.val + 11) _ (id_of I 0 (16 * k.val + 11) (by decide) (k1_off2_eq k) (by omega)) rfl (row_val k.val k.isLt 11#32 (by decide)) (lane_val _))
    (pay_hi I Rw 0 (16 * k.val + 11) _ (id_of I 0 (16 * k.val + 11) (by decide) (k1_off2_eq k) (by omega)) rfl (row_val k.val k.isLt 11#32 (by decide)) (lane16_val _)) ?_
  refine writes_lane 0 I Rw Rs _ (n := 16 * k.val + 10) (k1_off46_eq k) (k1_off44_eq k) (by omega) (by omega)
    (pay_lo I Rw 0 (16 * k.val + 10) _ (id_of I 0 (16 * k.val + 10) (by decide) (k1_off2_eq k) (by omega)) rfl (row_val k.val k.isLt 10#32 (by decide)) (lane_val _))
    (pay_hi I Rw 0 (16 * k.val + 10) _ (id_of I 0 (16 * k.val + 10) (by decide) (k1_off2_eq k) (by omega)) rfl (row_val k.val k.isLt 10#32 (by decide)) (lane16_val _)) ?_
  refine writes_lane 0 I Rw Rs _ (n := 16 * k.val + 9) (k1_off42_eq k) (k1_off40_eq k) (by omega) (by omega)
    (pay_lo I Rw 0 (16 * k.val + 9) _ (id_of I 0 (16 * k.val + 9) (by decide) (k1_off2_eq k) (by omega)) rfl (row_val k.val k.isLt 9#32 (by decide)) (lane_val _))
    (pay_hi I Rw 0 (16 * k.val + 9) _ (id_of I 0 (16 * k.val + 9) (by decide) (k1_off2_eq k) (by omega)) rfl (row_val k.val k.isLt 9#32 (by decide)) (lane16_val _)) ?_
  refine writes_lane 0 I Rw Rs _ (n := 16 * k.val + 8) (k1_off38_eq k) (k1_off36_eq k) (by omega) (by omega)
    (pay_lo I Rw 0 (16 * k.val + 8) _ (id_of I 0 (16 * k.val + 8) (by decide) (k1_off2_eq k) (by omega)) rfl (row_val k.val k.isLt 8#32 (by decide)) (lane_val _))
    (pay_hi I Rw 0 (16 * k.val + 8) _ (id_of I 0 (16 * k.val + 8) (by decide) (k1_off2_eq k) (by omega)) rfl (row_val k.val k.isLt 8#32 (by decide)) (lane16_val _)) ?_
  refine writes_lane 0 I Rw Rs _ (n := 16 * k.val + 7) (k1_off34_eq k) (k1_off32_eq k) (by omega) (by omega)
    (pay_lo I Rw 0 (16 * k.val + 7) _ (id_of I 0 (16 * k.val + 7) (by decide) (k1_off2_eq k) (by omega)) rfl (row_val k.val k.isLt 7#32 (by decide)) (lane_val _))
    (pay_hi I Rw 0 (16 * k.val + 7) _ (id_of I 0 (16 * k.val + 7) (by decide) (k1_off2_eq k) (by omega)) rfl (row_val k.val k.isLt 7#32 (by decide)) (lane16_val _)) ?_
  refine writes_lane 0 I Rw Rs _ (n := 16 * k.val + 6) (k1_off30_eq k) (k1_off28_eq k) (by omega) (by omega)
    (pay_lo I Rw 0 (16 * k.val + 6) _ (id_of I 0 (16 * k.val + 6) (by decide) (k1_off2_eq k) (by omega)) rfl (row_val k.val k.isLt 6#32 (by decide)) (lane_val _))
    (pay_hi I Rw 0 (16 * k.val + 6) _ (id_of I 0 (16 * k.val + 6) (by decide) (k1_off2_eq k) (by omega)) rfl (row_val k.val k.isLt 6#32 (by decide)) (lane16_val _)) ?_
  refine writes_lane 0 I Rw Rs _ (n := 16 * k.val + 5) (k1_off26_eq k) (k1_off24_eq k) (by omega) (by omega)
    (pay_lo I Rw 0 (16 * k.val + 5) _ (id_of I 0 (16 * k.val + 5) (by decide) (k1_off2_eq k) (by omega)) rfl (row_val k.val k.isLt 5#32 (by decide)) (lane_val _))
    (pay_hi I Rw 0 (16 * k.val + 5) _ (id_of I 0 (16 * k.val + 5) (by decide) (k1_off2_eq k) (by omega)) rfl (row_val k.val k.isLt 5#32 (by decide)) (lane16_val _)) ?_
  refine writes_lane 0 I Rw Rs _ (n := 16 * k.val + 4) (k1_off22_eq k) (k1_off20_eq k) (by omega) (by omega)
    (pay_lo I Rw 0 (16 * k.val + 4) _ (id_of I 0 (16 * k.val + 4) (by decide) (k1_off2_eq k) (by omega)) rfl (row_val k.val k.isLt 4#32 (by decide)) (lane_val _))
    (pay_hi I Rw 0 (16 * k.val + 4) _ (id_of I 0 (16 * k.val + 4) (by decide) (k1_off2_eq k) (by omega)) rfl (row_val k.val k.isLt 4#32 (by decide)) (lane16_val _)) ?_
  refine writes_lane 0 I Rw Rs _ (n := 16 * k.val + 3) (k1_off18_eq k) (k1_off16_eq k) (by omega) (by omega)
    (pay_lo I Rw 0 (16 * k.val + 3) _ (id_of I 0 (16 * k.val + 3) (by decide) (k1_off2_eq k) (by omega)) rfl (row_val k.val k.isLt 3#32 (by decide)) (lane_val _))
    (pay_hi I Rw 0 (16 * k.val + 3) _ (id_of I 0 (16 * k.val + 3) (by decide) (k1_off2_eq k) (by omega)) rfl (row_val k.val k.isLt 3#32 (by decide)) (lane16_val _)) ?_
  refine writes_lane 0 I Rw Rs _ (n := 16 * k.val + 2) (k1_off14_eq k) (k1_off12_eq k) (by omega) (by omega)
    (pay_lo I Rw 0 (16 * k.val + 2) _ (id_of I 0 (16 * k.val + 2) (by decide) (k1_off2_eq k) (by omega)) rfl (row_val k.val k.isLt 2#32 (by decide)) (lane_val _))
    (pay_hi I Rw 0 (16 * k.val + 2) _ (id_of I 0 (16 * k.val + 2) (by decide) (k1_off2_eq k) (by omega)) rfl (row_val k.val k.isLt 2#32 (by decide)) (lane16_val _)) ?_
  refine writes_lane 0 I Rw Rs _ (n := 16 * k.val + 1) (k1_off10_eq k) (k1_off8_eq k) (by omega) (by omega)
    (pay_lo I Rw 0 (16 * k.val + 1) _ (id_of I 0 (16 * k.val + 1) (by decide) (k1_off2_eq k) (by omega)) rfl (row_val k.val k.isLt 1#32 (by decide)) (lane_val _))
    (pay_hi I Rw 0 (16 * k.val + 1) _ (id_of I 0 (16 * k.val + 1) (by decide) (k1_off2_eq k) (by omega)) rfl (row_val k.val k.isLt 1#32 (by decide)) (lane16_val _)) ?_
  refine writes_lane 0 I Rw Rs _ (n := 16 * k.val) (k1_off6_eq k) (k1_off4_eq k) (by omega) (by omega)
    (pay_lo I Rw 0 (16 * k.val) _ (id_of I 0 (16 * k.val) (by decide) (k1_off2_eq k) (by omega)) rfl (row_val k.val k.isLt 0#32 (by decide)) (lane_val _))
    (pay_hi I Rw 0 (16 * k.val) _ (id_of I 0 (16 * k.val) (by decide) (k1_off2_eq k) (by omega)) rfl (row_val k.val k.isLt 0#32 (by decide)) (lane16_val _)) ?_
  rfl

end Cert.KernelIdeal.Lk

end
-- ==== Proof.LoopI2.lean ====
/-
  The four counted loops of the gather kernel's tile body, part 4: loop 2 — its invariant over the trip count and
  one trip's run from the invariant to the invariant.
-/
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.LoopIPure

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 2: chunk 1, read from half 1 of the row buffer -/

/-- Before trip `g` of loop 2: the index scratch whole at `I`, half 1 of the row buffer by its own elements at `Rw`,
    and the result scratch with the first `16 g` rows of chunk 1 done over `Rs`. -/
def inv2 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsB).view.loc (V d (cV L) (jV L)) ↦[(rowsB).view.set]{fullShare} Rw)
    ∗ ((s3V).view.loc (V d (cV L) (jV L)) ↦{fullShare} resRows 1 I Rw Rs (16 * g)))

set_option maxHeartbeats 8000000 in
/-- One trip of loop 2 from the invariant to the invariant at the next trip: the sixteen class ids are loaded, each
    id's side condition holds of any word, each of its two windows lies in the half held, and the thirty-two stores
    are the sixteen rows `writes_lane` adds. -/
theorem trip2 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t2_loop.trips) (acc : Unit) :
    inv2 d L I Rw Rs k.val acc
      ⊢ wp frame (wpE (defs₀ (F := F)) 𝒱₀ (V d (cV L) (jV L)) none) Set.univ
          (k1_t2_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv2 d L I Rw Rs (k.val + 1)) := by
  unfold inv2 k1_t2_body
  have e68 : ∀ v h, ((s2V).access (Rect.unit (s := S2x128x128) (k1_off68 k v) S1x1x16.size h)).set ⊆ (rowsB).view.set := fun v h => rowsB_incl _ h rfl
  have e70 : ∀ v h, ((s2V).access (Rect.unit (s := S2x128x128) (k1_off70 k v) S1x1x16.size h)).set ⊆ (rowsB).view.set := fun v h => rowsB_incl _ h rfl
  have e72 : ∀ v h, ((s2V).access (Rect.unit (s := S2x128x128) (k1_off72 k v) S1x1x16.size h)).set ⊆ (rowsB).view.set := fun v h => rowsB_incl _ h rfl
  have e74 : ∀ v h, ((s2V).access (Rect.unit (s := S2x128x128) (k1_off74 k v) S1x1x16.size h)).set ⊆ (rowsB).view.set := fun v h => rowsB_incl _ h rfl
  have e76 : ∀ v h, ((s2V).access (Rect.unit (s := S2x128x128) (k1_off76 k v) S1x1x16.size h)).set ⊆ (rowsB).view.set := fun v h => rowsB_incl _ h rfl
  have e78 : ∀ v h, ((s2V).access (Rect.unit (s := S2x128x128) (k1_off78 k v) S1x1x16.size h)).set ⊆ (rowsB).view.set := fun v h => rowsB_incl _ h rfl
  have e80 : ∀ v h, ((s2V).access (Rect.unit (s := S2x128x128) (k1_off80 k v) S1x1x16.size h)).set ⊆ (rowsB).view.set := fun v h => rowsB_incl _ h rfl
  have e82 : ∀ v h, ((s2V).access (Rect.unit (s := S2x128x128) (k1_off82 k v) S1x1x16.size h)).set ⊆ (rowsB).view.set := fun v h => rowsB_incl _ h rfl
  have e84 : ∀ v h, ((s2V).access (Rect.unit (s := S2x128x128) (k1_off84 k v) S1x1x16.size h)).set ⊆ (rowsB).view.set := fun v h => rowsB_incl _ h rfl
  have e86 : ∀ v h, ((s2V).access (Rect.unit (s := S2x128x128) (k1_off86 k v) S1x1x16.size h)).set ⊆ (rowsB).view.set := fun v h => rowsB_incl _ h rfl
  have e88 : ∀ v h, ((s2V).access (Rect.unit (s := S2x128x128) (k1_off88 k v) S1x1x16.size h)).set ⊆ (rowsB).view.set := fun v h => rowsB_incl _ h rfl
  have e90 : ∀ v h, ((s2V).access (Rect.unit (s := S2x128x128) (k1_off90 k v) S1x1x16.size h)).set ⊆ (rowsB).view.set := fun v h => rowsB_incl _ h rfl
  have e92 : ∀ v h, ((s2V).access (Rect.unit (s := S2x128x128) (k1_off92 k v) S1x1x16.size h)).set ⊆ (rowsB).view.set := fun v h => rowsB_incl _ h rfl
  have e94 : ∀ v h, ((s2V).access (Rect.unit (s := S2x128x128) (k1_off94 k v) S1x1x16.size h)).set ⊆ (rowsB).view.set := fun v h => rowsB_incl _ h rfl
  have e96 : ∀ v h, ((s2V).access (Rect.unit (s := S2x128x128) (k1_off96 k v) S1x1x16.size h)).set ⊆ (rowsB).view.set := fun v h => rowsB_incl _ h rfl
  have e98 : ∀ v h, ((s2V).access (Rect.unit (s := S2x128x128) (k1_off98 k v) S1x1x16.size h)).set ⊆ (rowsB).view.set := fun v h => rowsB_incl _ h rfl
  have e100 : ∀ v h, ((s2V).access (Rect.unit (s := S2x128x128) (k1_off100 k v) S1x1x16.size h)).set ⊆ (rowsB).view.set := fun v h => rowsB_incl _ h rfl
  have e102 : ∀ v h, ((s2V).access (Rect.unit (s := S2x128x128) (k1_off102 k v) S1x1x16.size h)).set ⊆ (rowsB).view.set := fun v h => rowsB_incl _ h rfl
  have e104 : ∀ v h, ((s2V).access (Rect.unit (s := S2x128x128) (k1_off104 k v) S1x1x16.size h)).set ⊆ (rowsB).view.set := fun v h => rowsB_incl _ h rfl
  have e106 : ∀ v h, ((s2V).access (Rect.unit (s := S2x128x128) (k1_off106 k v) S1x1x16.size h)).set ⊆ (rowsB).view.set := fun v h => rowsB_incl _ h rfl
  have e108 : ∀ v h, ((s2V).access (Rect.unit (s := S2x128x128) (k1_off108 k v) S1x1x16.size h)).set ⊆ (rowsB).view.set := fun v h => rowsB_incl _ h rfl
  have e110 : ∀ v h, ((s2V).access (Rect.unit (s := S2x128x128) (k1_off110 k v) S1x1x16.size h)).set ⊆ (rowsB).view.set := fun v h => rowsB_incl _ h rfl
  have e112 : ∀ v h, ((s2V).access (Rect.unit (s := S2x128x128) (k1_off112 k v) S1x1x16.size h)).set ⊆ (rowsB).view.set := fun v h => rowsB_incl _ h rfl
  have e114 : ∀ v h, ((s2V).access (Rect.unit (s := S2x128x128) (k1_off114 k v) S1x1x16.size h)).set ⊆ (rowsB).view.set := fun v h => rowsB_incl _ h rfl
  have e116 : ∀ v h, ((s2V).access (Rect.unit (s := S2x128x128) (k1_off116 k v) S1x1x16.size h)).set ⊆ (rowsB).view.set := fun v h => rowsB_incl _ h rfl
  have e118 : ∀ v h, ((s2V).access (Rect.unit (s := S2x128x128) (k1_off118 k v) S1x1x16.size h)).set ⊆ (rowsB).view.set := fun v h => rowsB_incl _ h rfl
  have e120 : ∀ v h, ((s2V).access (Rect.unit (s := S2x128x128) (k1_off120 k v) S1x1x16.size h)).set ⊆ (rowsB).view.set := fun v h => rowsB_incl _ h rfl
  have e122 : ∀ v h, ((s2V).access (Rect.unit (s := S2x128x128) (k1_off122 k v) S1x1x16.size h)).set ⊆ (rowsB).view.set := fun v h => rowsB_incl _ h rfl
  have e124 : ∀ v h, ((s2V).access (Rect.unit (s := S2x128x128) (k1_off124 k v) S1x1x16.size h)).set ⊆ (rowsB).view.set := fun v h => rowsB_incl _ h rfl
  have e126 : ∀ v h, ((s2V).access (Rect.unit (s := S2x128x128) (k1_off126 k v) S1x1x16.size h)).set ⊆ (rowsB).view.set := fun v h => rowsB_incl _ h rfl
  have e128 : ∀ v h, ((s2V).access (Rect.unit (s := S2x128x128) (k1_off128 k v) S1x1x16.size h)).set ⊆ (rowsB).view.set := fun v h => rowsB_incl _ h rfl
  have e130 : ∀ v h, ((s2V).access (Rect.unit (s := S2x128x128) (k1_off130 k v) S1x1x16.size h)).set ⊆ (rowsB).view.set := fun v h => rowsB_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 1 I Rw Rs _ (n := 16 * k.val + 15) (k1_off131_eq k) (k1_off129_eq k) (by omega) (by omega)
    (pay_lo I Rw 1 (16 * k.val + 15) _ (id_of I 1 (16 * k.val + 15) (by decide) (k1_off67_eq k) (by omega)) rfl (row_val k.val k.isLt 15#32 (by decide)) (lane_val _))
    (pay_hi I Rw 1 (16 * k.val + 15) _ (id_of I 1 (16 * k.val + 15) (by decide) (k1_off67_eq k) (by omega)) rfl (row_val k.val k.isLt 15#32 (by decide)) (lane16_val _)) ?_
  refine writes_lane 1 I Rw Rs _ (n := 16 * k.val + 14) (k1_off127_eq k) (k1_off125_eq k) (by omega) (by omega)
    (pay_lo I Rw 1 (16 * k.val + 14) _ (id_of I 1 (16 * k.val + 14) (by decide) (k1_off67_eq k) (by omega)) rfl (row_val k.val k.isLt 14#32 (by decide)) (lane_val _))
    (pay_hi I Rw 1 (16 * k.val + 14) _ (id_of I 1 (16 * k.val + 14) (by decide) (k1_off67_eq k) (by omega)) rfl (row_val k.val k.isLt 14#32 (by decide)) (lane16_val _)) ?_
  refine writes_lane 1 I Rw Rs _ (n := 16 * k.val + 13) (k1_off123_eq k) (k1_off121_eq k) (by omega) (by omega)
    (pay_lo I Rw 1 (16 * k.val + 13) _ (id_of I 1 (16 * k.val + 13) (by decide) (k1_off67_eq k) (by omega)) rfl (row_val k.val k.isLt 13#32 (by decide)) (lane_val _))
    (pay_hi I Rw 1 (16 * k.val + 13) _ (id_of I 1 (16 * k.val + 13) (by decide) (k1_off67_eq k) (by omega)) rfl (row_val k.val k.isLt 13#32 (by decide)) (lane16_val _)) ?_
  refine writes_lane 1 I Rw Rs _ (n := 16 * k.val + 12) (k1_off119_eq k) (k1_off117_eq k) (by omega) (by omega)
    (pay_lo I Rw 1 (16 * k.val + 12) _ (id_of I 1 (16 * k.val + 12) (by decide) (k1_off67_eq k) (by omega)) rfl (row_val k.val k.isLt 12#32 (by decide)) (lane_val _))
    (pay_hi I Rw 1 (16 * k.val + 12) _ (id_of I 1 (16 * k.val + 12) (by decide) (k1_off67_eq k) (by omega)) rfl (row_val k.val k.isLt 12#32 (by decide)) (lane16_val _)) ?_
  refine writes_lane 1 I Rw Rs _ (n := 16 * k.val + 11) (k1_off115_eq k) (k1_off113_eq k) (by omega) (by omega)
    (pay_lo I Rw 1 (16 * k.val + 11) _ (id_of I 1 (16 * k.val + 11) (by decide) (k1_off67_eq k) (by omega)) rfl (row_val k.val k.isLt 11#32 (by decide)) (lane_val _))
    (pay_hi I Rw 1 (16 * k.val + 11) _ (id_of I 1 (16 * k.val + 11) (by decide) (k1_off67_eq k) (by omega)) rfl (row_val k.val k.isLt 11#32 (by decide)) (lane16_val _)) ?_
  refine writes_lane 1 I Rw Rs _ (n := 16 * k.val + 10) (k1_off111_eq k) (k1_off109_eq k) (by omega) (by omega)
    (pay_lo I Rw 1 (16 * k.val + 10) _ (id_of I 1 (16 * k.val + 10) (by decide) (k1_off67_eq k) (by omega)) rfl (row_val k.val k.isLt 10#32 (by decide)) (lane_val _))
    (pay_hi I Rw 1 (16 * k.val + 10) _ (id_of I 1 (16 * k.val + 10) (by decide) (k1_off67_eq k) (by omega)) rfl (row_val k.val k.isLt 10#32 (by decide)) (lane16_val _)) ?_
  refine writes_lane 1 I Rw Rs _ (n := 16 * k.val + 9) (k1_off107_eq k) (k1_off105_eq k) (by omega) (by omega)
    (pay_lo I Rw 1 (16 * k.val + 9) _ (id_of I 1 (16 * k.val + 9) (by decide) (k1_off67_eq k) (by omega)) rfl (row_val k.val k.isLt 9#32 (by decide)) (lane_val _))
    (pay_hi I Rw 1 (16 * k.val + 9) _ (id_of I 1 (16 * k.val + 9) (by decide) (k1_off67_eq k) (by omega)) rfl (row_val k.val k.isLt 9#32 (by decide)) (lane16_val _)) ?_
  refine writes_lane 1 I Rw Rs _ (n := 16 * k.val + 8) (k1_off103_eq k) (k1_off101_eq k) (by omega) (by omega)
    (pay_lo I Rw 1 (16 * k.val + 8) _ (id_of I 1 (16 * k.val + 8) (by decide) (k1_off67_eq k) (by omega)) rfl (row_val k.val k.isLt 8#32 (by decide)) (lane_val _))
    (pay_hi I Rw 1 (16 * k.val + 8) _ (id_of I 1 (16 * k.val + 8) (by decide) (k1_off67_eq k) (by omega)) rfl (row_val k.val k.isLt 8#32 (by decide)) (lane16_val _)) ?_
  refine writes_lane 1 I Rw Rs _ (n := 16 * k.val + 7) (k1_off99_eq k) (k1_off97_eq k) (by omega) (by omega)
    (pay_lo I Rw 1 (16 * k.val + 7) _ (id_of I 1 (16 * k.val + 7) (by decide) (k1_off67_eq k) (by omega)) rfl (row_val k.val k.isLt 7#32 (by decide)) (lane_val _))
    (pay_hi I Rw 1 (16 * k.val + 7) _ (id_of I 1 (16 * k.val + 7) (by decide) (k1_off67_eq k) (by omega)) rfl (row_val k.val k.isLt 7#32 (by decide)) (lane16_val _)) ?_
  refine writes_lane 1 I Rw Rs _ (n := 16 * k.val + 6) (k1_off95_eq k) (k1_off93_eq k) (by omega) (by omega)
    (pay_lo I Rw 1 (16 * k.val + 6) _ (id_of I 1 (16 * k.val + 6) (by decide) (k1_off67_eq k) (by omega)) rfl (row_val k.val k.isLt 6#32 (by decide)) (lane_val _))
    (pay_hi I Rw 1 (16 * k.val + 6) _ (id_of I 1 (16 * k.val + 6) (by decide) (k1_off67_eq k) (by omega)) rfl (row_val k.val k.isLt 6#32 (by decide)) (lane16_val _)) ?_
  refine writes_lane 1 I Rw Rs _ (n := 16 * k.val + 5) (k1_off91_eq k) (k1_off89_eq k) (by omega) (by omega)
    (pay_lo I Rw 1 (16 * k.val + 5) _ (id_of I 1 (16 * k.val + 5) (by decide) (k1_off67_eq k) (by omega)) rfl (row_val k.val k.isLt 5#32 (by decide)) (lane_val _))
    (pay_hi I Rw 1 (16 * k.val + 5) _ (id_of I 1 (16 * k.val + 5) (by decide) (k1_off67_eq k) (by omega)) rfl (row_val k.val k.isLt 5#32 (by decide)) (lane16_val _)) ?_
  refine writes_lane 1 I Rw Rs _ (n := 16 * k.val + 4) (k1_off87_eq k) (k1_off85_eq k) (by omega) (by omega)
    (pay_lo I Rw 1 (16 * k.val + 4) _ (id_of I 1 (16 * k.val + 4) (by decide) (k1_off67_eq k) (by omega)) rfl (row_val k.val k.isLt 4#32 (by decide)) (lane_val _))
    (pay_hi I Rw 1 (16 * k.val + 4) _ (id_of I 1 (16 * k.val + 4) (by decide) (k1_off67_eq k) (by omega)) rfl (row_val k.val k.isLt 4#32 (by decide)) (lane16_val _)) ?_
  refine writes_lane 1 I Rw Rs _ (n := 16 * k.val + 3) (k1_off83_eq k) (k1_off81_eq k) (by omega) (by omega)
    (pay_lo I Rw 1 (16 * k.val + 3) _ (id_of I 1 (16 * k.val + 3) (by decide) (k1_off67_eq k) (by omega)) rfl (row_val k.val k.isLt 3#32 (by decide)) (lane_val _))
    (pay_hi I Rw 1 (16 * k.val + 3) _ (id_of I 1 (16 * k.val + 3) (by decide) (k1_off67_eq k) (by omega)) rfl (row_val k.val k.isLt 3#32 (by decide)) (lane16_val _)) ?_
  refine writes_lane 1 I Rw Rs _ (n := 16 * k.val + 2) (k1_off79_eq k) (k1_off77_eq k) (by omega) (by omega)
    (pay_lo I Rw 1 (16 * k.val + 2) _ (id_of I 1 (16 * k.val + 2) (by decide) (k1_off67_eq k) (by omega)) rfl (row_val k.val k.isLt 2#32 (by decide)) (lane_val _))
    (pay_hi I Rw 1 (16 * k.val + 2) _ (id_of I 1 (16 * k.val + 2) (by decide) (k1_off67_eq k) (by omega)) rfl (row_val k.val k.isLt 2#32 (by decide)) (lane16_val _)) ?_
  refine writes_lane 1 I Rw Rs _ (n := 16 * k.val + 1) (k1_off75_eq k) (k1_off73_eq k) (by omega) (by omega)
    (pay_lo I Rw 1 (16 * k.val + 1) _ (id_of I 1 (16 * k.val + 1) (by decide) (k1_off67_eq k) (by omega)) rfl (row_val k.val k.isLt 1#32 (by decide)) (lane_val _))
    (pay_hi I Rw 1 (16 * k.val + 1) _ (id_of I 1 (16 * k.val + 1) (by decide) (k1_off67_eq k) (by omega)) rfl (row_val k.val k.isLt 1#32 (by decide)) (lane16_val _)) ?_
  refine writes_lane 1 I Rw Rs _ (n := 16 * k.val) (k1_off71_eq k) (k1_off69_eq k) (by omega) (by omega)
    (pay_lo I Rw 1 (16 * k.val) _ (id_of I 1 (16 * k.val) (by decide) (k1_off67_eq k) (by omega)) rfl (row_val k.val k.isLt 0#32 (by decide)) (lane_val _))
    (pay_hi I Rw 1 (16 * k.val) _ (id_of I 1 (16 * k.val) (by decide) (k1_off67_eq k) (by omega)) rfl (row_val k.val k.isLt 0#32 (by decide)) (lane16_val _)) ?_
  rfl

end Cert.KernelIdeal.Lk

end
-- ==== Proof.LoopI3.lean ====
/-
  The four counted loops of the gather kernel's tile body, part 5: loop 3 — its invariant over the trip count and
  one trip's run from the invariant to the invariant.
-/
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.LoopIPure

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 3: chunk 2, read from half 0 of the row buffer -/

/-- Before trip `g` of loop 3: the index scratch whole at `I`, half 0 of the row buffer by its own elements at `Rw`,
    and the result scratch with the first `16 g` rows of chunk 2 done over `Rs`. -/
def inv3 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsA).view.loc (V d (cV L) (jV L)) ↦[(rowsA).view.set]{fullShare} Rw)
    ∗ ((s3V).view.loc (V d (cV L) (jV L)) ↦{fullShare} resRows 2 I Rw Rs (16 * g)))

set_option maxHeartbeats 8000000 in
/-- One trip of loop 3 from the invariant to the invariant at the next trip: the sixteen class ids are loaded, each
    id's side condition holds of any word, each of its two windows lies in the half held, and the thirty-two stores
    are the sixteen rows `writes_lane` adds. -/
theorem trip3 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t3_loop.trips) (acc : Unit) :
    inv3 d L I Rw Rs k.val acc
      ⊢ wp frame (wpE (defs₀ (F := F)) 𝒱₀ (V d (cV L) (jV L)) none) Set.univ
          (k1_t3_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv3 d L I Rw Rs (k.val + 1)) := by
  unfold inv3 k1_t3_body
  have e133 : ∀ v h, ((s2V).access (Rect.unit (s := S2x128x128) (k1_off133 k v) S1x1x16.size h)).set ⊆ (rowsA).view.set := fun v h => rowsA_incl _ h rfl
  have e135 : ∀ v h, ((s2V).access (Rect.unit (s := S2x128x128) (k1_off135 k v) S1x1x16.size h)).set ⊆ (rowsA).view.set := fun v h => rowsA_incl _ h rfl
  have e137 : ∀ v h, ((s2V).access (Rect.unit (s := S2x128x128) (k1_off137 k v) S1x1x16.size h)).set ⊆ (rowsA).view.set := fun v h => rowsA_incl _ h rfl
  have e139 : ∀ v h, ((s2V).access (Rect.unit (s := S2x128x128) (k1_off139 k v) S1x1x16.size h)).set ⊆ (rowsA).view.set := fun v h => rowsA_incl _ h rfl
  have e141 : ∀ v h, ((s2V).access (Rect.unit (s := S2x128x128) (k1_off141 k v) S1x1x16.size h)).set ⊆ (rowsA).view.set := fun v h => rowsA_incl _ h rfl
  have e143 : ∀ v h, ((s2V).access (Rect.unit (s := S2x128x128) (k1_off143 k v) S1x1x16.size h)).set ⊆ (rowsA).view.set := fun v h => rowsA_incl _ h rfl
  have e145 : ∀ v h, ((s2V).access (Rect.unit (s := S2x128x128) (k1_off145 k v) S1x1x16.size h)).set ⊆ (rowsA).view.set := fun v h => rowsA_incl _ h rfl
  have e147 : ∀ v h, ((s2V).access (Rect.unit (s := S2x128x128) (k1_off147 k v) S1x1x16.size h)).set ⊆ (rowsA).view.set := fun v h => rowsA_incl _ h rfl
  have e149 : ∀ v h, ((s2V).access (Rect.unit (s := S2x128x128) (k1_off149 k v) S1x1x16.size h)).set ⊆ (rowsA).view.set := fun v h => rowsA_incl _ h rfl
  have e151 : ∀ v h, ((s2V).access (Rect.unit (s := S2x128x128) (k1_off151 k v) S1x1x16.size h)).set ⊆ (rowsA).view.set := fun v h => rowsA_incl _ h rfl
  have e153 : ∀ v h, ((s2V).access (Rect.unit (s := S2x128x128) (k1_off153 k v) S1x1x16.size h)).set ⊆ (rowsA).view.set := fun v h => rowsA_incl _ h rfl
  have e155 : ∀ v h, ((s2V).access (Rect.unit (s := S2x128x128) (k1_off155 k v) S1x1x16.size h)).set ⊆ (rowsA).view.set := fun v h => rowsA_incl _ h rfl
  have e157 : ∀ v h, ((s2V).access (Rect.unit (s := S2x128x128) (k1_off157 k v) S1x1x16.size h)).set ⊆ (rowsA).view.set := fun v h => rowsA_incl _ h rfl
  have e159 : ∀ v h, ((s2V).access (Rect.unit (s := S2x128x128) (k1_off159 k v) S1x1x16.size h)).set ⊆ (rowsA).view.set := fun v h => rowsA_incl _ h rfl
  have e161 : ∀ v h, ((s2V).access (Rect.unit (s := S2x128x128) (k1_off161 k v) S1x1x16.size h)).set ⊆ (rowsA).view.set := fun v h => rowsA_incl _ h rfl
  have e163 : ∀ v h, ((s2V).access (Rect.unit (s := S2x128x128) (k1_off163 k v) S1x1x16.size h)).set ⊆ (rowsA).view.set := fun v h => rowsA_incl _ h rfl
  have e165 : ∀ v h, ((s2V).access (Rect.unit (s := S2x128x128) (k1_off165 k v) S1x1x16.size h)).set ⊆ (rowsA).view.set := fun v h => rowsA_incl _ h rfl
  have e167 : ∀ v h, ((s2V).access (Rect.unit (s := S2x128x128) (k1_off167 k v) S1x1x16.size h)).set ⊆ (rowsA).view.set := fun v h => rowsA_incl _ h rfl
  have e169 : ∀ v h, ((s2V).access (Rect.unit (s := S2x128x128) (k1_off169 k v) S1x1x16.size h)).set ⊆ (rowsA).view.set := fun v h => rowsA_incl _ h rfl
  have e171 : ∀ v h, ((s2V).access (Rect.unit (s := S2x128x128) (k1_off171 k v) S1x1x16.size h)).set ⊆ (rowsA).view.set := fun v h => rowsA_incl _ h rfl
  have e173 : ∀ v h, ((s2V).access (Rect.unit (s := S2x128x128) (k1_off173 k v) S1x1x16.size h)).set ⊆ (rowsA).view.set := fun v h => rowsA_incl _ h rfl
  have e175 : ∀ v h, ((s2V).access (Rect.unit (s := S2x128x128) (k1_off175 k v) S1x1x16.size h)).set ⊆ (rowsA).view.set := fun v h => rowsA_incl _ h rfl
  have e177 : ∀ v h, ((s2V).access (Rect.unit (s := S2x128x128) (k1_off177 k v) S1x1x16.size h)).set ⊆ (rowsA).view.set := fun v h => rowsA_incl _ h rfl
  have e179 : ∀ v h, ((s2V).access (Rect.unit (s := S2x128x128) (k1_off179 k v) S1x1x16.size h)).set ⊆ (rowsA).view.set := fun v h => rowsA_incl _ h rfl
  have e181 : ∀ v h, ((s2V).access (Rect.unit (s := S2x128x128) (k1_off181 k v) S1x1x16.size h)).set ⊆ (rowsA).view.set := fun v h => rowsA_incl _ h rfl
  have e183 : ∀ v h, ((s2V).access (Rect.unit (s := S2x128x128) (k1_off183 k v) S1x1x16.size h)).set ⊆ (rowsA).view.set := fun v h => rowsA_incl _ h rfl
  have e185 : ∀ v h, ((s2V).access (Rect.unit (s := S2x128x128) (k1_off185 k v) S1x1x16.size h)).set ⊆ (rowsA).view.set := fun v h => rowsA_incl _ h rfl
  have e187 : ∀ v h, ((s2V).access (Rect.unit (s := S2x128x128) (k1_off187 k v) S1x1x16.size h)).set ⊆ (rowsA).view.set := fun v h => rowsA_incl _ h rfl
  have e189 : ∀ v h, ((s2V).access (Rect.unit (s := S2x128x128) (k1_off189 k v) S1x1x16.size h)).set ⊆ (rowsA).view.set := fun v h => rowsA_incl _ h rfl
  have e191 : ∀ v h, ((s2V).access (Rect.unit (s := S2x128x128) (k1_off191 k v) S1x1x16.size h)).set ⊆ (rowsA).view.set := fun v h => rowsA_incl _ h rfl
  have e193 : ∀ v h, ((s2V).access (Rect.unit (s := S2x128x128) (k1_off193 k v) S1x1x16.size h)).set ⊆ (rowsA).view.set := fun v h => rowsA_incl _ h rfl
  have e195 : ∀ v h, ((s2V).access (Rect.unit (s := S2x128x128) (k1_off195 k v) S1x1x16.size h)).set ⊆ (rowsA).view.set := fun v h => rowsA_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 2 I Rw Rs _ (n := 16 * k.val + 15) (k1_off196_eq k) (k1_off194_eq k) (by omega) (by omega)
    (pay_lo I Rw 2 (16 * k.val + 15) _ (id_of I 2 (16 * k.val + 15) (by decide) (k1_off132_eq k) (by omega)) rfl (row_val k.val k.isLt 15#32 (by decide)) (lane_val _))
    (pay_hi I Rw 2 (16 * k.val + 15) _ (id_of I 2 (16 * k.val + 15) (by decide) (k1_off132_eq k) (by omega)) rfl (row_val k.val k.isLt 15#32 (by decide)) (lane16_val _)) ?_
  refine writes_lane 2 I Rw Rs _ (n := 16 * k.val + 14) (k1_off192_eq k) (k1_off190_eq k) (by omega) (by omega)
    (pay_lo I Rw 2 (16 * k.val + 14) _ (id_of I 2 (16 * k.val + 14) (by decide) (k1_off132_eq k) (by omega)) rfl (row_val k.val k.isLt 14#32 (by decide)) (lane_val _))
    (pay_hi I Rw 2 (16 * k.val + 14) _ (id_of I 2 (16 * k.val + 14) (by decide) (k1_off132_eq k) (by omega)) rfl (row_val k.val k.isLt 14#32 (by decide)) (lane16_val _)) ?_
  refine writes_lane 2 I Rw Rs _ (n := 16 * k.val + 13) (k1_off188_eq k) (k1_off186_eq k) (by omega) (by omega)
    (pay_lo I Rw 2 (16 * k.val + 13) _ (id_of I 2 (16 * k.val + 13) (by decide) (k1_off132_eq k) (by omega)) rfl (row_val k.val k.isLt 13#32 (by decide)) (lane_val _))
    (pay_hi I Rw 2 (16 * k.val + 13) _ (id_of I 2 (16 * k.val + 13) (by decide) (k1_off132_eq k) (by omega)) rfl (row_val k.val k.isLt 13#32 (by decide)) (lane16_val _)) ?_
  refine writes_lane 2 I Rw Rs _ (n := 16 * k.val + 12) (k1_off184_eq k) (k1_off182_eq k) (by omega) (by omega)
    (pay_lo I Rw 2 (16 * k.val + 12) _ (id_of I 2 (16 * k.val + 12) (by decide) (k1_off132_eq k) (by omega)) rfl (row_val k.val k.isLt 12#32 (by decide)) (lane_val _))
    (pay_hi I Rw 2 (16 * k.val + 12) _ (id_of I 2 (16 * k.val + 12) (by decide) (k1_off132_eq k) (by omega)) rfl (row_val k.val k.isLt 12#32 (by decide)) (lane16_val _)) ?_
  refine writes_lane 2 I Rw Rs _ (n := 16 * k.val + 11) (k1_off180_eq k) (k1_off178_eq k) (by omega) (by omega)
    (pay_lo I Rw 2 (16 * k.val + 11) _ (id_of I 2 (16 * k.val + 11) (by decide) (k1_off132_eq k) (by omega)) rfl (row_val k.val k.isLt 11#32 (by decide)) (lane_val _))
    (pay_hi I Rw 2 (16 * k.val + 11) _ (id_of I 2 (16 * k.val + 11) (by decide) (k1_off132_eq k) (by omega)) rfl (row_val k.val k.isLt 11#32 (by decide)) (lane16_val _)) ?_
  refine writes_lane 2 I Rw Rs _ (n := 16 * k.val + 10) (k1_off176_eq k) (k1_off174_eq k) (by omega) (by omega)
    (pay_lo I Rw 2 (16 * k.val + 10) _ (id_of I 2 (16 * k.val + 10) (by decide) (k1_off132_eq k) (by omega)) rfl (row_val k.val k.isLt 10#32 (by decide)) (lane_val _))
    (pay_hi I Rw 2 (16 * k.val + 10) _ (id_of I 2 (16 * k.val + 10) (by decide) (k1_off132_eq k) (by omega)) rfl (row_val k.val k.isLt 10#32 (by decide)) (lane16_val _)) ?_
  refine writes_lane 2 I Rw Rs _ (n := 16 * k.val + 9) (k1_off172_eq k) (k1_off170_eq k) (by omega) (by omega)
    (pay_lo I Rw 2 (16 * k.val + 9) _ (id_of I 2 (16 * k.val + 9) (by decide) (k1_off132_eq k) (by omega)) rfl (row_val k.val k.isLt 9#32 (by decide)) (lane_val _))
    (pay_hi I Rw 2 (16 * k.val + 9) _ (id_of I 2 (16 * k.val + 9) (by decide) (k1_off132_eq k) (by omega)) rfl (row_val k.val k.isLt 9#32 (by decide)) (lane16_val _)) ?_
  refine writes_lane 2 I Rw Rs _ (n := 16 * k.val + 8) (k1_off168_eq k) (k1_off166_eq k) (by omega) (by omega)
    (pay_lo I Rw 2 (16 * k.val + 8) _ (id_of I 2 (16 * k.val + 8) (by decide) (k1_off132_eq k) (by omega)) rfl (row_val k.val k.isLt 8#32 (by decide)) (lane_val _))
    (pay_hi I Rw 2 (16 * k.val + 8) _ (id_of I 2 (16 * k.val + 8) (by decide) (k1_off132_eq k) (by omega)) rfl (row_val k.val k.isLt 8#32 (by decide)) (lane16_val _)) ?_
  refine writes_lane 2 I Rw Rs _ (n := 16 * k.val + 7) (k1_off164_eq k) (k1_off162_eq k) (by omega) (by omega)
    (pay_lo I Rw 2 (16 * k.val + 7) _ (id_of I 2 (16 * k.val + 7) (by decide) (k1_off132_eq k) (by omega)) rfl (row_val k.val k.isLt 7#32 (by decide)) (lane_val _))
    (pay_hi I Rw 2 (16 * k.val + 7) _ (id_of I 2 (16 * k.val + 7) (by decide) (k1_off132_eq k) (by omega)) rfl (row_val k.val k.isLt 7#32 (by decide)) (lane16_val _)) ?_
  refine writes_lane 2 I Rw Rs _ (n := 16 * k.val + 6) (k1_off160_eq k) (k1_off158_eq k) (by omega) (by omega)
    (pay_lo I Rw 2 (16 * k.val + 6) _ (id_of I 2 (16 * k.val + 6) (by decide) (k1_off132_eq k) (by omega)) rfl (row_val k.val k.isLt 6#32 (by decide)) (lane_val _))
    (pay_hi I Rw 2 (16 * k.val + 6) _ (id_of I 2 (16 * k.val + 6) (by decide) (k1_off132_eq k) (by omega)) rfl (row_val k.val k.isLt 6#32 (by decide)) (lane16_val _)) ?_
  refine writes_lane 2 I Rw Rs _ (n := 16 * k.val + 5) (k1_off156_eq k) (k1_off154_eq k) (by omega) (by omega)
    (pay_lo I Rw 2 (16 * k.val + 5) _ (id_of I 2 (16 * k.val + 5) (by decide) (k1_off132_eq k) (by omega)) rfl (row_val k.val k.isLt 5#32 (by decide)) (lane_val _))
    (pay_hi I Rw 2 (16 * k.val + 5) _ (id_of I 2 (16 * k.val + 5) (by decide) (k1_off132_eq k) (by omega)) rfl (row_val k.val k.isLt 5#32 (by decide)) (lane16_val _)) ?_
  refine writes_lane 2 I Rw Rs _ (n := 16 * k.val + 4) (k1_off152_eq k) (k1_off150_eq k) (by omega) (by omega)
    (pay_lo I Rw 2 (16 * k.val + 4) _ (id_of I 2 (16 * k.val + 4) (by decide) (k1_off132_eq k) (by omega)) rfl (row_val k.val k.isLt 4#32 (by decide)) (lane_val _))
    (pay_hi I Rw 2 (16 * k.val + 4) _ (id_of I 2 (16 * k.val + 4) (by decide) (k1_off132_eq k) (by omega)) rfl (row_val k.val k.isLt 4#32 (by decide)) (lane16_val _)) ?_
  refine writes_lane 2 I Rw Rs _ (n := 16 * k.val + 3) (k1_off148_eq k) (k1_off146_eq k) (by omega) (by omega)
    (pay_lo I Rw 2 (16 * k.val + 3) _ (id_of I 2 (16 * k.val + 3) (by decide) (k1_off132_eq k) (by omega)) rfl (row_val k.val k.isLt 3#32 (by decide)) (lane_val _))
    (pay_hi I Rw 2 (16 * k.val + 3) _ (id_of I 2 (16 * k.val + 3) (by decide) (k1_off132_eq k) (by omega)) rfl (row_val k.val k.isLt 3#32 (by decide)) (lane16_val _)) ?_
  refine writes_lane 2 I Rw Rs _ (n := 16 * k.val + 2) (k1_off144_eq k) (k1_off142_eq k) (by omega) (by omega)
    (pay_lo I Rw 2 (16 * k.val + 2) _ (id_of I 2 (16 * k.val + 2) (by decide) (k1_off132_eq k) (by omega)) rfl (row_val k.val k.isLt 2#32 (by decide)) (lane_val _))
    (pay_hi I Rw 2 (16 * k.val + 2) _ (id_of I 2 (16 * k.val + 2) (by decide) (k1_off132_eq k) (by omega)) rfl (row_val k.val k.isLt 2#32 (by decide)) (lane16_val _)) ?_
  refine writes_lane 2 I Rw Rs _ (n := 16 * k.val + 1) (k1_off140_eq k) (k1_off138_eq k) (by omega) (by omega)
    (pay_lo I Rw 2 (16 * k.val + 1) _ (id_of I 2 (16 * k.val + 1) (by decide) (k1_off132_eq k) (by omega)) rfl (row_val k.val k.isLt 1#32 (by decide)) (lane_val _))
    (pay_hi I Rw 2 (16 * k.val + 1) _ (id_of I 2 (16 * k.val + 1) (by decide) (k1_off132_eq k) (by omega)) rfl (row_val k.val k.isLt 1#32 (by decide)) (lane16_val _)) ?_
  refine writes_lane 2 I Rw Rs _ (n := 16 * k.val) (k1_off136_eq k) (k1_off134_eq k) (by omega) (by omega)
    (pay_lo I Rw 2 (16 * k.val) _ (id_of I 2 (16 * k.val) (by decide) (k1_off132_eq k) (by omega)) rfl (row_val k.val k.isLt 0#32 (by decide)) (lane_val _))
    (pay_hi I Rw 2 (16 * k.val) _ (id_of I 2 (16 * k.val) (by decide) (k1_off132_eq k) (by omega)) rfl (row_val k.val k.isLt 0#32 (by decide)) (lane16_val _)) ?_
  rfl

end Cert.KernelIdeal.Lk

end
-- ==== Proof.LoopI4.lean ====
/-
  The four counted loops of the gather kernel's tile body, part 6: loop 4 — its invariant over the trip count and
  one trip's run from the invariant to the invariant.
-/
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.LoopIPure

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 4: chunk 3, read from half 1 of the row buffer -/

/-- Before trip `g` of loop 4: the index scratch whole at `I`, half 1 of the row buffer by its own elements at `Rw`,
    and the result scratch with the first `16 g` rows of chunk 3 done over `Rs`. -/
def inv4 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsB).view.loc (V d (cV L) (jV L)) ↦[(rowsB).view.set]{fullShare} Rw)
    ∗ ((s3V).view.loc (V d (cV L) (jV L)) ↦{fullShare} resRows 3 I Rw Rs (16 * g)))

set_option maxHeartbeats 8000000 in
/-- One trip of loop 4 from the invariant to the invariant at the next trip: the sixteen class ids are loaded, each
    id's side condition holds of any word, each of its two windows lies in the half held, and the thirty-two stores
    are the sixteen rows `writes_lane` adds. -/
theorem trip4 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t4_loop.trips) (acc : Unit) :
    inv4 d L I Rw Rs k.val acc
      ⊢ wp frame (wpE (defs₀ (F := F)) 𝒱₀ (V d (cV L) (jV L)) none) Set.univ
          (k1_t4_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv4 d L I Rw Rs (k.val + 1)) := by
  unfold inv4 k1_t4_body
  have e198 : ∀ v h, ((s2V).access (Rect.unit (s := S2x128x128) (k1_off198 k v) S1x1x16.size h)).set ⊆ (rowsB).view.set := fun v h => rowsB_incl _ h rfl
  have e200 : ∀ v h, ((s2V).access (Rect.unit (s := S2x128x128) (k1_off200 k v) S1x1x16.size h)).set ⊆ (rowsB).view.set := fun v h => rowsB_incl _ h rfl
  have e202 : ∀ v h, ((s2V).access (Rect.unit (s := S2x128x128) (k1_off202 k v) S1x1x16.size h)).set ⊆ (rowsB).view.set := fun v h => rowsB_incl _ h rfl
  have e204 : ∀ v h, ((s2V).access (Rect.unit (s := S2x128x128) (k1_off204 k v) S1x1x16.size h)).set ⊆ (rowsB).view.set := fun v h => rowsB_incl _ h rfl
  have e206 : ∀ v h, ((s2V).access (Rect.unit (s := S2x128x128) (k1_off206 k v) S1x1x16.size h)).set ⊆ (rowsB).view.set := fun v h => rowsB_incl _ h rfl
  have e208 : ∀ v h, ((s2V).access (Rect.unit (s := S2x128x128) (k1_off208 k v) S1x1x16.size h)).set ⊆ (rowsB).view.set := fun v h => rowsB_incl _ h rfl
  have e210 : ∀ v h, ((s2V).access (Rect.unit (s := S2x128x128) (k1_off210 k v) S1x1x16.size h)).set ⊆ (rowsB).view.set := fun v h => rowsB_incl _ h rfl
  have e212 : ∀ v h, ((s2V).access (Rect.unit (s := S2x128x128) (k1_off212 k v) S1x1x16.size h)).set ⊆ (rowsB).view.set := fun v h => rowsB_incl _ h rfl
  have e214 : ∀ v h, ((s2V).access (Rect.unit (s := S2x128x128) (k1_off214 k v) S1x1x16.size h)).set ⊆ (rowsB).view.set := fun v h => rowsB_incl _ h rfl
  have e216 : ∀ v h, ((s2V).access (Rect.unit (s := S2x128x128) (k1_off216 k v) S1x1x16.size h)).set ⊆ (rowsB).view.set := fun v h => rowsB_incl _ h rfl
  have e218 : ∀ v h, ((s2V).access (Rect.unit (s := S2x128x128) (k1_off218 k v) S1x1x16.size h)).set ⊆ (rowsB).view.set := fun v h => rowsB_incl _ h rfl
  have e220 : ∀ v h, ((s2V).access (Rect.unit (s := S2x128x128) (k1_off220 k v) S1x1x16.size h)).set ⊆ (rowsB).view.set := fun v h => rowsB_incl _ h rfl
  have e222 : ∀ v h, ((s2V).access (Rect.unit (s := S2x128x128) (k1_off222 k v) S1x1x16.size h)).set ⊆ (rowsB).view.set := fun v h => rowsB_incl _ h rfl
  have e224 : ∀ v h, ((s2V).access (Rect.unit (s := S2x128x128) (k1_off224 k v) S1x1x16.size h)).set ⊆ (rowsB).view.set := fun v h => rowsB_incl _ h rfl
  have e226 : ∀ v h, ((s2V).access (Rect.unit (s := S2x128x128) (k1_off226 k v) S1x1x16.size h)).set ⊆ (rowsB).view.set := fun v h => rowsB_incl _ h rfl
  have e228 : ∀ v h, ((s2V).access (Rect.unit (s := S2x128x128) (k1_off228 k v) S1x1x16.size h)).set ⊆ (rowsB).view.set := fun v h => rowsB_incl _ h rfl
  have e230 : ∀ v h, ((s2V).access (Rect.unit (s := S2x128x128) (k1_off230 k v) S1x1x16.size h)).set ⊆ (rowsB).view.set := fun v h => rowsB_incl _ h rfl
  have e232 : ∀ v h, ((s2V).access (Rect.unit (s := S2x128x128) (k1_off232 k v) S1x1x16.size h)).set ⊆ (rowsB).view.set := fun v h => rowsB_incl _ h rfl
  have e234 : ∀ v h, ((s2V).access (Rect.unit (s := S2x128x128) (k1_off234 k v) S1x1x16.size h)).set ⊆ (rowsB).view.set := fun v h => rowsB_incl _ h rfl
  have e236 : ∀ v h, ((s2V).access (Rect.unit (s := S2x128x128) (k1_off236 k v) S1x1x16.size h)).set ⊆ (rowsB).view.set := fun v h => rowsB_incl _ h rfl
  have e238 : ∀ v h, ((s2V).access (Rect.unit (s := S2x128x128) (k1_off238 k v) S1x1x16.size h)).set ⊆ (rowsB).view.set := fun v h => rowsB_incl _ h rfl
  have e240 : ∀ v h, ((s2V).access (Rect.unit (s := S2x128x128) (k1_off240 k v) S1x1x16.size h)).set ⊆ (rowsB).view.set := fun v h => rowsB_incl _ h rfl
  have e242 : ∀ v h, ((s2V).access (Rect.unit (s := S2x128x128) (k1_off242 k v) S1x1x16.size h)).set ⊆ (rowsB).view.set := fun v h => rowsB_incl _ h rfl
  have e244 : ∀ v h, ((s2V).access (Rect.unit (s := S2x128x128) (k1_off244 k v) S1x1x16.size h)).set ⊆ (rowsB).view.set := fun v h => rowsB_incl _ h rfl
  have e246 : ∀ v h, ((s2V).access (Rect.unit (s := S2x128x128) (k1_off246 k v) S1x1x16.size h)).set ⊆ (rowsB).view.set := fun v h => rowsB_incl _ h rfl
  have e248 : ∀ v h, ((s2V).access (Rect.unit (s := S2x128x128) (k1_off248 k v) S1x1x16.size h)).set ⊆ (rowsB).view.set := fun v h => rowsB_incl _ h rfl
  have e250 : ∀ v h, ((s2V).access (Rect.unit (s := S2x128x128) (k1_off250 k v) S1x1x16.size h)).set ⊆ (rowsB).view.set := fun v h => rowsB_incl _ h rfl
  have e252 : ∀ v h, ((s2V).access (Rect.unit (s := S2x128x128) (k1_off252 k v) S1x1x16.size h)).set ⊆ (rowsB).view.set := fun v h => rowsB_incl _ h rfl
  have e254 : ∀ v h, ((s2V).access (Rect.unit (s := S2x128x128) (k1_off254 k v) S1x1x16.size h)).set ⊆ (rowsB).view.set := fun v h => rowsB_incl _ h rfl
  have e256 : ∀ v h, ((s2V).access (Rect.unit (s := S2x128x128) (k1_off256 k v) S1x1x16.size h)).set ⊆ (rowsB).view.set := fun v h => rowsB_incl _ h rfl
  have e258 : ∀ v h, ((s2V).access (Rect.unit (s := S2x128x128) (k1_off258 k v) S1x1x16.size h)).set ⊆ (rowsB).view.set := fun v h => rowsB_incl _ h rfl
  have e260 : ∀ v h, ((s2V).access (Rect.unit (s := S2x128x128) (k1_off260 k v) S1x1x16.size h)).set ⊆ (rowsB).view.set := fun v h => rowsB_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 3 I Rw Rs _ (n := 16 * k.val + 15) (k1_off261_eq k) (k1_off259_eq k) (by omega) (by omega)
    (pay_lo I Rw 3 (16 * k.val + 15) _ (id_of I 3 (16 * k.val + 15) (by decide) (k1_off197_eq k) (by omega)) rfl (row_val k.val k.isLt 15#32 (by decide)) (lane_val _))
    (pay_hi I Rw 3 (16 * k.val + 15) _ (id_of I 3 (16 * k.val + 15) (by decide) (k1_off197_eq k) (by omega)) rfl (row_val k.val k.isLt 15#32 (by decide)) (lane16_val _)) ?_
  refine writes_lane 3 I Rw Rs _ (n := 16 * k.val + 14) (k1_off257_eq k) (k1_off255_eq k) (by omega) (by omega)
    (pay_lo I Rw 3 (16 * k.val + 14) _ (id_of I 3 (16 * k.val + 14) (by decide) (k1_off197_eq k) (by omega)) rfl (row_val k.val k.isLt 14#32 (by decide)) (lane_val _))
    (pay_hi I Rw 3 (16 * k.val + 14) _ (id_of I 3 (16 * k.val + 14) (by decide) (k1_off197_eq k) (by omega)) rfl (row_val k.val k.isLt 14#32 (by decide)) (lane16_val _)) ?_
  refine writes_lane 3 I Rw Rs _ (n := 16 * k.val + 13) (k1_off253_eq k) (k1_off251_eq k) (by omega) (by omega)
    (pay_lo I Rw 3 (16 * k.val + 13) _ (id_of I 3 (16 * k.val + 13) (by decide) (k1_off197_eq k) (by omega)) rfl (row_val k.val k.isLt 13#32 (by decide)) (lane_val _))
    (pay_hi I Rw 3 (16 * k.val + 13) _ (id_of I 3 (16 * k.val + 13) (by decide) (k1_off197_eq k) (by omega)) rfl (row_val k.val k.isLt 13#32 (by decide)) (lane16_val _)) ?_
  refine writes_lane 3 I Rw Rs _ (n := 16 * k.val + 12) (k1_off249_eq k) (k1_off247_eq k) (by omega) (by omega)
    (pay_lo I Rw 3 (16 * k.val + 12) _ (id_of I 3 (16 * k.val + 12) (by decide) (k1_off197_eq k) (by omega)) rfl (row_val k.val k.isLt 12#32 (by decide)) (lane_val _))
    (pay_hi I Rw 3 (16 * k.val + 12) _ (id_of I 3 (16 * k.val + 12) (by decide) (k1_off197_eq k) (by omega)) rfl (row_val k.val k.isLt 12#32 (by decide)) (lane16_val _)) ?_
  refine writes_lane 3 I Rw Rs _ (n := 16 * k.val + 11) (k1_off245_eq k) (k1_off243_eq k) (by omega) (by omega)
    (pay_lo I Rw 3 (16 * k.val + 11) _ (id_of I 3 (16 * k.val + 11) (by decide) (k1_off197_eq k) (by omega)) rfl (row_val k.val k.isLt 11#32 (by decide)) (lane_val _))
    (pay_hi I Rw 3 (16 * k.val + 11) _ (id_of I 3 (16 * k.val + 11) (by decide) (k1_off197_eq k) (by omega)) rfl (row_val k.val k.isLt 11#32 (by decide)) (lane16_val _)) ?_
  refine writes_lane 3 I Rw Rs _ (n := 16 * k.val + 10) (k1_off241_eq k) (k1_off239_eq k) (by omega) (by omega)
    (pay_lo I Rw 3 (16 * k.val + 10) _ (id_of I 3 (16 * k.val + 10) (by decide) (k1_off197_eq k) (by omega)) rfl (row_val k.val k.isLt 10#32 (by decide)) (lane_val _))
    (pay_hi I Rw 3 (16 * k.val + 10) _ (id_of I 3 (16 * k.val + 10) (by decide) (k1_off197_eq k) (by omega)) rfl (row_val k.val k.isLt 10#32 (by decide)) (lane16_val _)) ?_
  refine writes_lane 3 I Rw Rs _ (n := 16 * k.val + 9) (k1_off237_eq k) (k1_off235_eq k) (by omega) (by omega)
    (pay_lo I Rw 3 (16 * k.val + 9) _ (id_of I 3 (16 * k.val + 9) (by decide) (k1_off197_eq k) (by omega)) rfl (row_val k.val k.isLt 9#32 (by decide)) (lane_val _))
    (pay_hi I Rw 3 (16 * k.val + 9) _ (id_of I 3 (16 * k.val + 9) (by decide) (k1_off197_eq k) (by omega)) rfl (row_val k.val k.isLt 9#32 (by decide)) (lane16_val _)) ?_
  refine writes_lane 3 I Rw Rs _ (n := 16 * k.val + 8) (k1_off233_eq k) (k1_off231_eq k) (by omega) (by omega)
    (pay_lo I Rw 3 (16 * k.val + 8) _ (id_of I 3 (16 * k.val + 8) (by decide) (k1_off197_eq k) (by omega)) rfl (row_val k.val k.isLt 8#32 (by decide)) (lane_val _))
    (pay_hi I Rw 3 (16 * k.val + 8) _ (id_of I 3 (16 * k.val + 8) (by decide) (k1_off197_eq k) (by omega)) rfl (row_val k.val k.isLt 8#32 (by decide)) (lane16_val _)) ?_
  refine writes_lane 3 I Rw Rs _ (n := 16 * k.val + 7) (k1_off229_eq k) (k1_off227_eq k) (by omega) (by omega)
    (pay_lo I Rw 3 (16 * k.val + 7) _ (id_of I 3 (16 * k.val + 7) (by decide) (k1_off197_eq k) (by omega)) rfl (row_val k.val k.isLt 7#32 (by decide)) (lane_val _))
    (pay_hi I Rw 3 (16 * k.val + 7) _ (id_of I 3 (16 * k.val + 7) (by decide) (k1_off197_eq k) (by omega)) rfl (row_val k.val k.isLt 7#32 (by decide)) (lane16_val _)) ?_
  refine writes_lane 3 I Rw Rs _ (n := 16 * k.val + 6) (k1_off225_eq k) (k1_off223_eq k) (by omega) (by omega)
    (pay_lo I Rw 3 (16 * k.val + 6) _ (id_of I 3 (16 * k.val + 6) (by decide) (k1_off197_eq k) (by omega)) rfl (row_val k.val k.isLt 6#32 (by decide)) (lane_val _))
    (pay_hi I Rw 3 (16 * k.val + 6) _ (id_of I 3 (16 * k.val + 6) (by decide) (k1_off197_eq k) (by omega)) rfl (row_val k.val k.isLt 6#32 (by decide)) (lane16_val _)) ?_
  refine writes_lane 3 I Rw Rs _ (n := 16 * k.val + 5) (k1_off221_eq k) (k1_off219_eq k) (by omega) (by omega)
    (pay_lo I Rw 3 (16 * k.val + 5) _ (id_of I 3 (16 * k.val + 5) (by decide) (k1_off197_eq k) (by omega)) rfl (row_val k.val k.isLt 5#32 (by decide)) (lane_val _))
    (pay_hi I Rw 3 (16 * k.val + 5) _ (id_of I 3 (16 * k.val + 5) (by decide) (k1_off197_eq k) (by omega)) rfl (row_val k.val k.isLt 5#32 (by decide)) (lane16_val _)) ?_
  refine writes_lane 3 I Rw Rs _ (n := 16 * k.val + 4) (k1_off217_eq k) (k1_off215_eq k) (by omega) (by omega)
    (pay_lo I Rw 3 (16 * k.val + 4) _ (id_of I 3 (16 * k.val + 4) (by decide) (k1_off197_eq k) (by omega)) rfl (row_val k.val k.isLt 4#32 (by decide)) (lane_val _))
    (pay_hi I Rw 3 (16 * k.val + 4) _ (id_of I 3 (16 * k.val + 4) (by decide) (k1_off197_eq k) (by omega)) rfl (row_val k.val k.isLt 4#32 (by decide)) (lane16_val _)) ?_
  refine writes_lane 3 I Rw Rs _ (n := 16 * k.val + 3) (k1_off213_eq k) (k1_off211_eq k) (by omega) (by omega)
    (pay_lo I Rw 3 (16 * k.val + 3) _ (id_of I 3 (16 * k.val + 3) (by decide) (k1_off197_eq k) (by omega)) rfl (row_val k.val k.isLt 3#32 (by decide)) (lane_val _))
    (pay_hi I Rw 3 (16 * k.val + 3) _ (id_of I 3 (16 * k.val + 3) (by decide) (k1_off197_eq k) (by omega)) rfl (row_val k.val k.isLt 3#32 (by decide)) (lane16_val _)) ?_
  refine writes_lane 3 I Rw Rs _ (n := 16 * k.val + 2) (k1_off209_eq k) (k1_off207_eq k) (by omega) (by omega)
    (pay_lo I Rw 3 (16 * k.val + 2) _ (id_of I 3 (16 * k.val + 2) (by decide) (k1_off197_eq k) (by omega)) rfl (row_val k.val k.isLt 2#32 (by decide)) (lane_val _))
    (pay_hi I Rw 3 (16 * k.val + 2) _ (id_of I 3 (16 * k.val + 2) (by decide) (k1_off197_eq k) (by omega)) rfl (row_val k.val k.isLt 2#32 (by decide)) (lane16_val _)) ?_
  refine writes_lane 3 I Rw Rs _ (n := 16 * k.val + 1) (k1_off205_eq k) (k1_off203_eq k) (by omega) (by omega)
    (pay_lo I Rw 3 (16 * k.val + 1) _ (id_of I 3 (16 * k.val + 1) (by decide) (k1_off197_eq k) (by omega)) rfl (row_val k.val k.isLt 1#32 (by decide)) (lane_val _))
    (pay_hi I Rw 3 (16 * k.val + 1) _ (id_of I 3 (16 * k.val + 1) (by decide) (k1_off197_eq k) (by omega)) rfl (row_val k.val k.isLt 1#32 (by decide)) (lane16_val _)) ?_
  refine writes_lane 3 I Rw Rs _ (n := 16 * k.val) (k1_off201_eq k) (k1_off199_eq k) (by omega) (by omega)
    (pay_lo I Rw 3 (16 * k.val) _ (id_of I 3 (16 * k.val) (by decide) (k1_off197_eq k) (by omega)) rfl (row_val k.val k.isLt 0#32 (by decide)) (lane_val _))
    (pay_hi I Rw 3 (16 * k.val) _ (id_of I 3 (16 * k.val) (by decide) (k1_off197_eq k) (by omega)) rfl (row_val k.val k.isLt 0#32 (by decide)) (lane16_val _)) ?_
  rfl

end Cert.KernelIdeal.Lk

end
-- ==== Proof.TileI3.lean ====
/-
  One vector subcore's task, whole. The subcore at grid coordinates L owns class ids and result rows
  [1024 (L 1) + 512 (L 0), + 512). It copies its four chunks of 128 ids into the id scratch; stores every id shifted
  right by two (its quotient by four: the packed row that holds the id's table row) into the row-index scratch; then,
  chunk by chunk, gathers the 128 packed rows the chunk's row indices name into one half of the row buffer — every index
  below 250000, the ids being in range —, and from each gathered row keeps the 32 lanes starting at (id mod 4) * 32, as a
  row of the result scratch, while the next chunk's rows are gathered into the other half; at the end the result scratch
  goes out to the subcore's 512 result rows. What those rows then hold is entry (id / 4, (id mod 4) * 32 + e) of the
  packed array at (b, e): the function Cert.Lookup.unpacked. The ids and the packed array are only read; every scratch
  buffer and every counter comes back as it was lent: at some contents, at zero.
-/
import proofs.«204365_g77171972375186_cont_9to1c4b_67_15_alg».proof.Proof.CommonI
import proofs.«204365_g77171972375186_cont_9to1c4b_67_15_alg».proof.Proof.Gen.KernelIdeal.Skeleton
import proofs.«204365_g77171972375186_cont_9to1c4b_67_15_alg».proof.Proof.TileI0
import proofs.«204365_g77171972375186_cont_9to1c4b_67_15_alg».proof.Proof.TileI1
import proofs.«204365_g77171972375186_cont_9to1c4b_67_15_alg».proof.Proof.TileIMath
import proofs.«204365_g77171972375186_cont_9to1c4b_67_15_alg».proof.Proof.TileI2
import proofs.«204365_g77171972375186_cont_9to1c4b_67_15_alg».proof.Proof.TileIFinal
import proofs.«204365_g77171972375186_cont_9to1c4b_67_15_alg».proof.Proof.TileIOut
import proofs.«204365_g77171972375186_cont_9to1c4b_67_15_alg».proof.Proof.TileIGather
import proofs.«204365_g77171972375186_cont_9to1c4b_67_15_alg».proof.Proof.LoopI1
import proofs.«204365_g77171972375186_cont_9to1c4b_67_15_alg».proof.Proof.LoopI2
import proofs.«204365_g77171972375186_cont_9to1c4b_67_15_alg».proof.Proof.LoopI3
import proofs.«204365_g77171972375186_cont_9to1c4b_67_15_alg».proof.Proof.LoopI4

noncomputable section

namespace Cert.KernelIdeal.Lk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-- Row c of the row-index scratch: the list of packed rows chunk c's gather reads. -/
abbrev ridx0 : Memref sig .scVector .vmem S128 .i32 :=
  ((s1V).slice (Rect.unit (s := S4x128) ![0, 0] S1x128.size inb_S4x128_S1x128_0_0) (fun _ => rfl)).squeeze S128 squeezes_S1x128_S128
abbrev ridx1 : Memref sig .scVector .vmem S128 .i32 :=
  ((s1V).slice (Rect.unit (s := S4x128) ![1, 0] S1x128.size inb_S4x128_S1x128_1_0) (fun _ => rfl)).squeeze S128 squeezes_S1x128_S128
abbrev ridx2 : Memref sig .scVector .vmem S128 .i32 :=
  ((s1V).slice (Rect.unit (s := S4x128) ![2, 0] S1x128.size inb_S4x128_S1x128_2_0) (fun _ => rfl)).squeeze S128 squeezes_S1x128_S128
abbrev ridx3 : Memref sig .scVector .vmem S128 .i32 :=
  ((s1V).slice (Rect.unit (s := S4x128) ![3, 0] S1x128.size inb_S4x128_S1x128_3_0) (fun _ => rfl)).squeeze S128 squeezes_S1x128_S128

set_option maxHeartbeats 4000000 in
/-- The subcore's task from its share of the ids and of the packed array, its block of the result at any contents and
    its own scratch: the block ends at the lookup of the subcore's ids in the packed array. -/
theorem tile_body (hF : (K (F := F)).Facts) (d : Dev nD) (L : grid1.Coords)
    (ids : Buf (Elt F) (idsLoc d)) (pk : Buf (Elt F) (pkLoc d)) (out0 : Buf (Elt F) (outLoc d))
    (qi qp : PosShare TreeShare) (hr : Cert.Lookup.InRange ids)
    (O : CellTallies nD τ sig (HIx 1)) (W : Waits sig (HIx 1)) (hO : ∀ g, O g none = 0) :
    iprop((levAts (K (F := F)).L (K (F := F)).lev : sProp 𝕄) ∗ emp
        ∗ ((idsLoc d ↦{qi} ids) ∗ (pkLoc d ↦{qp} pk) ∗ (outLoc d ↦[oRowSet L]{fullShare} out0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(((idsLoc d ↦{qi} ids) ∗ (pkLoc d ↦{qp} pk) ∗ (outLoc d ↦[oRowSet L]{fullShare} Cert.Lookup.unpacked ids pk))
            ∗ scopedBufs (V d (cV L) (jV L)) ∗ scopedSems0 (V d (cV L) (jV L))
            ∗ ∃ W', ⌜∀ p ∈ W', p ∈ W ∨ p.2 = none⌝ ∗ owes (V d (cV L) (jV L)) O W') := by
  delta tileProg; rw [cc1__gather_body_eq_skeleton]; unfold cc1__gather_body_skel
  rw [(K (F := F)).scopedBufs_V hF d (cV L) (jV L), SparseCore.Cfg.scopedSems0_V (Val := Elt F) d (cV L) (jV L), ownSems0_V, ownBufs_V]
  iintro ⟨#Hlv, -, ⟨Hi, Hp, Ho⟩, ⟨⟨%f0, Hs0⟩, ⟨%f1, Hs1⟩, ⟨%f2, Hs2⟩, ⟨%f3, Hs3⟩, Hbufs⟩, ⟨HsemG, Hsem0, Hsem1, Hsem2, Hsem3, Hsem4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (idsLoc d ↦{qi} ids : sProp 𝕄) = (iV).view.loc (V d (cV L) (jV L)) ↦{qi} ids from rfl)) $$ Hi
  ihave HpA := (Entails.of_eq (aside_eq (F := F) (pkLoc d ↦{qp} pk)).symm) $$ Hp
  ihave Ho' := (Entails.of_eq (show (outLoc d ↦[oRowSet L]{fullShare} out0 : sProp 𝕄)
      = (oRowK L).view.loc (V d (cV L) (jV L)) ↦[(oRowK L).view.set]{fullShare} out0 from rfl)) $$ Ho
  ihave Hs0' := (Entails.of_eq (show ((V d (cV L) (jV L)).loc cc1_scratch0 ↦{fullShare} f0 : sProp 𝕄) = (s0V).view.loc (V d (cV L) (jV L)) ↦{fullShare} f0 from rfl)) $$ Hs0
  ihave Hs1' := (Entails.of_eq (show ((V d (cV L) (jV L)).loc cc1_scratch1 ↦{fullShare} f1 : sProp 𝕄) = (s1V).view.loc (V d (cV L) (jV L)) ↦{fullShare} f1 from rfl)) $$ Hs1
  ihave Hs3' := (Entails.of_eq (show ((V d (cV L) (jV L)).loc cc1_scratch3 ↦{fullShare} f3 : sProp 𝕄) = (s3V).view.loc (V d (cV L) (jV L)) ↦{fullShare} f3 from rfl)) $$ Hs3

  ihave Hs2' := (Entails.of_eq (show ((V d (cV L) (jV L)).loc cc1_scratch2 ↦{fullShare} f2 : sProp 𝕄) = (s2V).view.loc (V d (cV L) (jV L)) ↦{fullShare} f2 from rfl)) $$ Hs2
  sl_exec_parts
  ihave Hs0a := (pts_abs (F := F) _) $$ Hs0'
  icases Hs0a with ⟨%I, %hI, Hs0'⟩
  ihave Hs1a := (pts_abs (F := F) _) $$ Hs1'
  icases Hs1a with ⟨%R, %hR, Hs1'⟩

  -- the id scratch holds the subcore's 512 ids; the row-index scratch holds each shifted right by two
  have hIv : ∀ y : S4x128.Idx, (s0V).view.read (Elt F) I y = ids (ix1 (tileId L (128 * (y 0).val + (y 1).val) (by
          have : (y 0).val < 4 := (y 0).isLt
          have : (y 1).val < 128 := (y 1).isLt
          omega))) := by
    rw [hI]
    exact idx_filled d L ids f0 _ _ _ _ (fun x => ids_row d L ⟨0, by decide⟩ ids x) (fun x => ids_row d L ⟨1, by decide⟩ ids x)
      (fun x => ids_row d L ⟨2, by decide⟩ ids x) (fun x => ids_row d L ⟨3, by decide⟩ ids x)
  have hRv : ∀ y : S4x128.Idx, ((s1V).view.read (Elt F) R y : BitVec 32) = ((s0V).view.read (Elt F) I y : BitVec 32) >>> 2 := by
    intro y
    rw [hR]
    refine View.read_writes_apply_of_pieces (v := (s1V).view) (f := f1)
      (fun y : S4x128.Idx => (((s0V).view.read (Elt F) I y : BitVec 32) >>> 2 : BitVec 32)) _ ?hp y ?hc
    case hc => exact View.cover_of_tiled _ ![1, 16] (by sl_kernel_rfl) y
    case hp =>
      rw [hI]
      exact all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_nil))))))))))))))))))))))))))))))))

  -- so every row index is below 250000, the ids being in range
  have hin0 : ∀ x, ((ridx0).view.read (Elt F) R x).toNat < S250000x128.size gathers_S250000x128_S128x128.axis := fun x => by
    have e : ((ridx0).view.read (Elt F) R x : BitVec 32) = (s1V).view.read (Elt F) R ((ridx0).view.emb x) := rfl
    show BitVec.toNat _ < 250000
    rw [e, hRv, hIv]
    exact shr_lt _ (hr.toNat_le _)
  have hin1 : ∀ x, ((ridx1).view.read (Elt F) R x).toNat < S250000x128.size gathers_S250000x128_S128x128.axis := fun x => by
    have e : ((ridx1).view.read (Elt F) R x : BitVec 32) = (s1V).view.read (Elt F) R ((ridx1).view.emb x) := rfl
    show BitVec.toNat _ < 250000
    rw [e, hRv, hIv]
    exact shr_lt _ (hr.toNat_le _)
  have hin2 : ∀ x, ((ridx2).view.read (Elt F) R x).toNat < S250000x128.size gathers_S250000x128_S128x128.axis := fun x => by
    have e : ((ridx2).view.read (Elt F) R x : BitVec 32) = (s1V).view.read (Elt F) R ((ridx2).view.emb x) := rfl
    show BitVec.toNat _ < 250000
    rw [e, hRv, hIv]
    exact shr_lt _ (hr.toNat_le _)
  have hin3 : ∀ x, ((ridx3).view.read (Elt F) R x).toNat < S250000x128.size gathers_S250000x128_S128x128.axis := fun x => by
    have e : ((ridx3).view.read (Elt F) R x : BitVec 32) = (s1V).view.read (Elt F) R ((ridx3).view.emb x) := rfl
    show BitVec.toNat _ < 250000
    rw [e, hRv, hIv]
    exact shr_lt _ (hr.toNat_le _)
  -- the row buffer as its two halves, each held by its own elements
  ihave Hs2s := (pointsTo_split_subset (q := fullShare) (f := f2) (S := Finset.univ) (Finset.subset_univ (rowsA).view.set)).1 $$ Hs2'
  icases Hs2s with ⟨HrA, HrB⟩
  ihave HrA := (Entails.of_eq (show ((s2V).view.loc (V d (cV L) (jV L)) ↦[(rowsA).view.set]{fullShare} f2 : sProp 𝕄)
      = (rowsA).view.loc (V d (cV L) (jV L)) ↦[(rowsA).view.set]{fullShare} f2 from rfl)) $$ HrA
  ihave HrB := (Entails.of_eq (show ((s2V).view.loc (V d (cV L) (jV L)) ↦[Finset.univ \ (rowsA).view.set]{fullShare} f2 : sProp 𝕄)
      = (rowsB).view.loc (V d (cV L) (jV L)) ↦[(rowsB).view.set]{fullShare} f2 by rw [rows_compl])) $$ HrB
  ihave Hp := (Entails.of_eq (aside_eq (F := F) (pkLoc d ↦{qp} pk))) $$ HpA
  ihave Hp' := (Entails.of_eq (show (pkLoc d ↦{qp} pk : sProp 𝕄) = (pV).view.loc (V d (cV L) (jV L)) ↦{qp} pk from rfl)) $$ Hp
  sl_exec_parts

  -- the first counted loop: rows [0, 128) of the result scratch, read off half 0 of the row buffer
  ihave Hra := (pts_abs (F := F) _) $$ HrA
  icases Hra with ⟨%Rw1, %hRw1, HrA⟩
  ihave Hsa := (pts_abs (F := F) _) $$ Hs3'
  icases Hsa with ⟨%Rs1, %hRs1, Hs3'⟩
  sl_for (inv1 d L I Rw1 Rs1) $$ [Hs0' HrA Hs3']
  case region => exact fun k acc => trip1 d L I Rw1 Rs1 k acc
  · unfold inv1
    rw [Nat.mul_zero, resRows_zero]
    isplitl [Hs0']; · iexact Hs0'
    isplitl [HrA]; · iexact HrA
    iexact Hs3'
  iintro %_ HI
  have ht1 : Scf.trips k1_t1_loop.lb k1_t1_loop.ub k1_t1_loop.st = 8 := by decide
  rw [ht1]
  unfold inv1
  icases HI with ⟨Hs0', HrA, Hs3'⟩

  sl_exec_parts

  -- the second counted loop: rows [128, 256) of the result scratch, read off half 1 of the row buffer
  ihave Hra := (pts_abs (F := F) _) $$ HrB
  icases Hra with ⟨%Rw2, %hRw2, HrB⟩
  ihave Hsa := (pts_abs (F := F) _) $$ Hs3'
  icases Hsa with ⟨%Rs2, %hRs2, Hs3'⟩
  sl_for (inv2 d L I Rw2 Rs2) $$ [Hs0' HrB Hs3']
  case region => exact fun k acc => trip2 d L I Rw2 Rs2 k acc
  · unfold inv2
    rw [Nat.mul_zero, resRows_zero]
    isplitl [Hs0']; · iexact Hs0'
    isplitl [HrB]; · iexact HrB
    iexact Hs3'
  iintro %_ HI
  have ht2 : Scf.trips k1_t2_loop.lb k1_t2_loop.ub k1_t2_loop.st = 8 := by decide
  rw [ht2]
  unfold inv2
  icases HI with ⟨Hs0', HrB, Hs3'⟩

  sl_exec_parts

  -- the third counted loop: rows [256, 384) of the result scratch, read off half 0 of the row buffer
  ihave Hra := (pts_abs (F := F) _) $$ HrA
  icases Hra with ⟨%Rw3, %hRw3, HrA⟩
  ihave Hsa := (pts_abs (F := F) _) $$ Hs3'
  icases Hsa with ⟨%Rs3, %hRs3, Hs3'⟩
  sl_for (inv3 d L I Rw3 Rs3) $$ [Hs0' HrA Hs3']
  case region => exact fun k acc => trip3 d L I Rw3 Rs3 k acc
  · unfold inv3
    rw [Nat.mul_zero, resRows_zero]
    isplitl [Hs0']; · iexact Hs0'
    isplitl [HrA]; · iexact HrA
    iexact Hs3'
  iintro %_ HI
  have ht3 : Scf.trips k1_t3_loop.lb k1_t3_loop.ub k1_t3_loop.st = 8 := by decide
  rw [ht3]
  unfold inv3
  icases HI with ⟨Hs0', HrA, Hs3'⟩

  sl_exec_parts

  -- the fourth counted loop: rows [384, 512) of the result scratch, read off half 1 of the row buffer
  ihave Hra := (pts_abs (F := F) _) $$ HrB
  icases Hra with ⟨%Rw4, %hRw4, HrB⟩
  ihave Hsa := (pts_abs (F := F) _) $$ Hs3'
  icases Hsa with ⟨%Rs4, %hRs4, Hs3'⟩
  sl_for (inv4 d L I Rw4 Rs4) $$ [Hs0' HrB Hs3']
  case region => exact fun k acc => trip4 d L I Rw4 Rs4 k acc
  · unfold inv4
    rw [Nat.mul_zero, resRows_zero]
    isplitl [Hs0']; · iexact Hs0'
    isplitl [HrB]; · iexact HrB
    iexact Hs3'
  iintro %_ HI
  have ht4 : Scf.trips k1_t4_loop.lb k1_t4_loop.ub k1_t4_loop.st = 8 := by decide
  rw [ht4]
  unfold inv4
  icases HI with ⟨Hs0', HrB, Hs3'⟩

  sl_exec_parts

  -- what the copy out leaves in the subcore's block of the result, and why it is the lookup there
  ihave Hoa := (pts_abs (F := F) _) $$ Ho'
  icases Hoa with ⟨%Fo, %hFo, Ho'⟩
  -- each half, when its loop read it, held the packed rows its chunk's ids name
  have hG0 : ∀ (k col : Fin 128), Rw1 (ix3 ⟨0, by decide⟩ k col) = pk (ix2 (Cert.Lookup.pkRow (I (ix2 ⟨0, by decide⟩ k))) col) := fun k col => by
    rw [hRw1]
    refine gathered_half 0 (by decide) 0 (by decide) _ _ R pk _ _ hin0 k col (I (ix2 ⟨0, by decide⟩ k)) (hRv (ix2 ⟨0, by decide⟩ k)) ?_
    have e := hIv (ix2 ⟨0, by decide⟩ k)
    change I (ix2 ⟨0, by decide⟩ k) = _ at e
    rw [e]
    exact hr.toNat_le _
  have hG1 : ∀ (k col : Fin 128), Rw2 (ix3 ⟨1, by decide⟩ k col) = pk (ix2 (Cert.Lookup.pkRow (I (ix2 ⟨1, by decide⟩ k))) col) := fun k col => by
    rw [hRw2]
    refine gathered_half 1 (by decide) 1 (by decide) _ _ R pk _ _ hin1 k col (I (ix2 ⟨1, by decide⟩ k)) (hRv (ix2 ⟨1, by decide⟩ k)) ?_
    have e := hIv (ix2 ⟨1, by decide⟩ k)
    change I (ix2 ⟨1, by decide⟩ k) = _ at e
    rw [e]
    exact hr.toNat_le _
  have hG2 : ∀ (k col : Fin 128), Rw3 (ix3 ⟨0, by decide⟩ k col) = pk (ix2 (Cert.Lookup.pkRow (I (ix2 ⟨2, by decide⟩ k))) col) := fun k col => by
    rw [hRw3]
    refine gathered_half 0 (by decide) 2 (by decide) _ _ R pk _ _ hin2 k col (I (ix2 ⟨2, by decide⟩ k)) (hRv (ix2 ⟨2, by decide⟩ k)) ?_
    have e := hIv (ix2 ⟨2, by decide⟩ k)
    change I (ix2 ⟨2, by decide⟩ k) = _ at e
    rw [e]
    exact hr.toNat_le _
  have hG3 : ∀ (k col : Fin 128), Rw4 (ix3 ⟨1, by decide⟩ k col) = pk (ix2 (Cert.Lookup.pkRow (I (ix2 ⟨3, by decide⟩ k))) col) := fun k col => by
    rw [hRw4]
    refine gathered_half 1 (by decide) 3 (by decide) _ _ R pk _ _ hin3 k col (I (ix2 ⟨3, by decide⟩ k)) (hRv (ix2 ⟨3, by decide⟩ k)) ?_
    have e := hIv (ix2 ⟨3, by decide⟩ k)
    change I (ix2 ⟨3, by decide⟩ k) = _ at e
    rw [e]
    exact hr.toNat_le _
  have hfin : ∀ i ∈ (oRowK L).view.set, Fo i = Cert.Lookup.unpacked ids pk i := by
    rw [hFo]
    refine out_block d L ids pk _ out0 ?_
    intro j
    show resRows 3 I Rw4 Rs4 (16 * 8) j = _
    rw [hRs4, hRs3, hRs2]
    exact res_final L I Rw1 Rw2 Rw3 Rw4 Rs1 ids pk (fun y => hIv y) hG0 hG1 hG2 hG3 j
  sl_step
  isplitl [Hi' Hp' Ho']
  · isplitl [Hi']; · iexact Hi'
    isplitl [Hp']; · iexact Hp'
    iapply (Entails.of_eq (pointsTo_congr (q := fullShare) hfin)) $$ Ho'
  isplitl [Hs0' Hs1' HrA HrB Hs3' Hbufs]
  · isplitl [Hs0']; · iexists _; iexact Hs0'
    isplitl [Hs1']; · iexists _; iexact Hs1'
    isplitl [HrA HrB]
    · ihave HrB := (Entails.of_eq (show ((rowsB).view.loc (V d (cV L) (jV L)) ↦[(rowsB).view.set]{fullShare} _ : sProp 𝕄)
          = (rowsA).view.loc (V d (cV L) (jV L)) ↦[Finset.univ \ (rowsA).view.set]{fullShare} _ by rw [rows_compl])) $$ HrB
      iapply (pts_join_any (F := F) _ _) $$ [HrA HrB]
      isplitl [HrA]; · iexact HrA
      iexact HrB
    isplitl [Hs3']; · iexists _; iexact Hs3'
    iexact Hbufs
  isplitl [HsemG Hsem0 Hsem1 Hsem2 Hsem3 Hsem4 Hsems]
  · isplitl [HsemG]; · iexact HsemG
    isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  swap; · iexact HO
  ipureintro; intro p hp
  repeat (rcases Finset.mem_insert.mp hp with hp | hp; · exact .inr (hp ▸ rfl))
  exact .inl hp

end Cert.KernelIdeal.Lk

end
-- ==== Proof.TileB0.lean ====
import proofs.«204365_g77171972375186_cont_9to1c4b_67_15_alg».proof.Proof.CommonB
import proofs.«204365_g77171972375186_cont_9to1c4b_67_15_alg».proof.Proof.Gen.Kernel.Skeleton

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- The subcore's six DMA counters: the gathers' and the five copies'. -/
abbrev gCell (d : Dev nD) (c : Fin τ.nSC) (i : Fin τ.nSub) : GSem nD τ sig := (V d c i, .dma cc1_scratch4.sem)
abbrev c0Cell (d : Dev nD) (c : Fin τ.nSC) (i : Fin τ.nSub) : GSem nD τ sig := (V d c i, .dma cc1_scoped0.sem)
abbrev c1Cell (d : Dev nD) (c : Fin τ.nSC) (i : Fin τ.nSub) : GSem nD τ sig := (V d c i, .dma cc1_scoped1.sem)
abbrev c2Cell (d : Dev nD) (c : Fin τ.nSC) (i : Fin τ.nSub) : GSem nD τ sig := (V d c i, .dma cc1_scoped2.sem)
abbrev c3Cell (d : Dev nD) (c : Fin τ.nSC) (i : Fin τ.nSub) : GSem nD τ sig := (V d c i, .dma cc1_scoped3.sem)
abbrev c4Cell (d : Dev nD) (c : Fin τ.nSC) (i : Fin τ.nSub) : GSem nD τ sig := (V d c i, .dma cc1_scoped4.sem)

omit [FloatOps F] in
theorem cell_ne {thr : Thread nD τ} {a b : SemLoc sig} (h : a ≠ b) : ((thr, a) : GSem nD τ sig) ≠ (thr, b) :=
  fun e => h (congrArg Prod.snd e)

omit [FloatOps F] in
theorem ownSems0_V :
    (ownSems0 (V d (cV L) (jV L)) : sProp 𝕄)
      = iprop(semVal (gCell d (cV L) (jV L)) 0 ∗ semVal (c0Cell d (cV L) (jV L)) 0 ∗ semVal (c1Cell d (cV L) (jV L)) 0
          ∗ semVal (c2Cell d (cV L) (jV L)) 0 ∗ semVal (c3Cell d (cV L) (jV L)) 0 ∗ semVal (c4Cell d (cV L) (jV L)) 0
          ∗ bigSep ((((((((ownCells (V d (cV L) (jV L))).erase (gCell d (cV L) (jV L))).erase (c0Cell d (cV L) (jV L))).erase (c1Cell d (cV L) (jV L))).erase
              (c2Cell d (cV L) (jV L))).erase (c3Cell d (cV L) (jV L))).erase (c4Cell d (cV L) (jV L)))) fun g => semVal g 0) := by
  unfold SparseCore.Cfg.ownSems0
  have m : ∀ s : SemLoc sig, s.isScoped .scVector = true → ((V d (cV L) (jV L), s) : GSem nD τ sig) ∈ ownCells (V d (cV L) (jV L)) :=
    fun s hs => (mem_ownCells (g := (V d (cV L) (jV L), s))).mpr ⟨rfl, hs⟩
  rw [SparseCore.bigSep_erase' (m (.dma cc1_scratch4.sem) (by decide)),
    SparseCore.bigSep_erase' (Finset.mem_erase.mpr ⟨cell_ne (by decide), m (.dma cc1_scoped0.sem) (by decide)⟩),
    SparseCore.bigSep_erase' (Finset.mem_erase.mpr ⟨cell_ne (by decide), Finset.mem_erase.mpr ⟨cell_ne (by decide), m (.dma cc1_scoped1.sem) (by decide)⟩⟩),
    SparseCore.bigSep_erase' (Finset.mem_erase.mpr ⟨cell_ne (by decide), Finset.mem_erase.mpr ⟨cell_ne (by decide), Finset.mem_erase.mpr ⟨cell_ne (by decide),
      m (.dma cc1_scoped2.sem) (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), m (.dma cc1_scoped3.sem) (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), m (.dma cc1_scoped4.sem) (by decide)⟩⟩⟩⟩⟩)]

omit [FloatOps F] in
theorem ref_ne (c : Fin τ.nSC) (i : Fin τ.nSub) {a b : Ref sig .scVector} (h : a ≠ b) :
    (Proc.scVector c i).devRef a ≠ (Proc.scVector c i).devRef b :=
  fun e => h (Proc.devRef_injective _ e)

omit [FloatOps F] in
/-- The four scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  have m0 := SparseCore.Cfg.mem_ownRefs_of_owner (τ := τ) (sig := sig) (p := Proc.scVector (cV L) (jV L)) (b := (Proc.scVector (cV L) (jV L)).devRef cc1_scratch0) rfl
  have m1 := SparseCore.Cfg.mem_ownRefs_of_owner (τ := τ) (sig := sig) (p := Proc.scVector (cV L) (jV L)) (b := (Proc.scVector (cV L) (jV L)).devRef cc1_scratch1) rfl
  have m2 := SparseCore.Cfg.mem_ownRefs_of_owner (τ := τ) (sig := sig) (p := Proc.scVector (cV L) (jV L)) (b := (Proc.scVector (cV L) (jV L)).devRef cc1_scratch2) rfl
  have m3 := SparseCore.Cfg.mem_ownRefs_of_owner (τ := τ) (sig := sig) (p := Proc.scVector (cV L) (jV L)) (b := (Proc.scVector (cV L) (jV L)).devRef cc1_scratch3) rfl
  refine (SparseCore.bigSep_erase' m0).trans ?_
  rw [SparseCore.bigSep_erase' (Finset.mem_erase.mpr ⟨ref_ne (cV L) (jV L) (by decide), m1⟩),
    SparseCore.bigSep_erase' (Finset.mem_erase.mpr ⟨ref_ne (cV L) (jV L) (by decide),
      Finset.mem_erase.mpr ⟨ref_ne (cV L) (jV L) (by decide), m2⟩⟩),
    SparseCore.bigSep_erase' (Finset.mem_erase.mpr ⟨ref_ne (cV L) (jV L) (by decide),
      Finset.mem_erase.mpr ⟨ref_ne (cV L) (jV L) (by decide), Finset.mem_erase.mpr ⟨ref_ne (cV L) (jV L) (by decide), m3⟩⟩⟩)]

end Cert.Kernel.Lk

end
-- ==== Proof.TileB1.lean ====
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.TileB0

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## Three facts about held buffers -/

/-- A held buffer's contents given a name: the same buffer at a variable equal to the contents. -/
theorem pts_abs {ℓ : Loc nD τ sig} {S : Finset (Idx ℓ)} {q : PosShare TreeShare} (f : Buf (Elt F) ℓ) :
    (ℓ ↦[S]{q} f : sProp 𝕄) ⊢ iprop(∃ g, ⌜g = f⌝ ∗ (ℓ ↦[S]{q} g)) := by
  iintro H
  iexists f
  isplitr
  · ipureintro; rfl
  · iexact H

/-- An assertion kept folded: the same assertion under a name that does not unfold by itself. -/
@[irreducible] def Aside (P : sProp 𝕄) : sProp 𝕄 := P
theorem aside_eq (P : sProp 𝕄) : Aside P = P := by unfold Aside; rfl

open Classical in
/-- Two complementary parts of a buffer, each at its own contents, are the buffer whole at some contents. -/
theorem pts_join_any {ℓ : Loc nD τ sig} {A : Finset (Idx ℓ)} {q : PosShare TreeShare} (f g : Buf (Elt F) ℓ) :
    iprop((ℓ ↦[A]{q} f) ∗ (ℓ ↦[Finset.univ \ A]{q} g) : sProp 𝕄) ⊢ iprop(∃ h, ℓ ↦{q} h) := by
  iintro ⟨Hf, Hg⟩
  iexists (fun i => if i ∈ A then f i else g i)
  ihave Hf := (Entails.of_eq (pointsTo_congr (q := q) (f := f) (g := fun i => if i ∈ A then f i else g i) (I := A)
    (fun i hi => by simp [hi]))) $$ Hf
  ihave Hg := (Entails.of_eq (pointsTo_congr (q := q) (f := g) (g := fun i => if i ∈ A then f i else g i) (I := Finset.univ \ A)
    (fun i hi => by simp [(Finset.mem_sdiff.mp hi).2]))) $$ Hg
  iapply (pointsTo_split_subset (q := q) (S := Finset.univ) (Finset.subset_univ A)).2 $$ [Hf Hg]
  isplitl [Hf]; · iexact Hf
  iexact Hg

end Cert.Kernel.Lk

end
-- ==== Proof.TileBMath.lean ====
/-
  Three pure facts about one vector subcore's scratch. (1) The shift payload: each of the 32 vector steps that fill
  the row-index scratch shifts sixteen class ids right by two — the quotient by four, below 250000 for an id in
  range. (2) The two halves of the row buffer partition it. (3) After the four copies of 128 class ids each into the
  four rows of the id scratch, entry (r, k) of the scratch is the subcore's class id number 128 r + k.
-/
import proofs.«204365_g77171972375186_cont_9to1c4b_67_15_alg».proof.Proof.CommonB
import proofs.«204365_g77171972375186_cont_9to1c4b_67_15_alg».proof.Proof.Gen.Kernel.Skeleton
import Idealize.ShloMosaic.Lib.Writes

noncomputable section

namespace Cert.Kernel.Lk

open Cert.Kernel Cert.Kernel.Gen

open Idealize.ShloMosaic Idealize.ShloMosaic.ValueIdx
open Idealize.ShloMosaic.SparseCore (S V T)

variable {F : FTy → Type}

/-! ## Words -/

theorem shr_toNat (w : BitVec 32) : (w >>> 2).toNat = w.toNat / 4 := by
  rw [BitVec.toNat_ushiftRight, Nat.shiftRight_eq_div_pow]

theorem shr_lt (w : BitVec 32) (h : w.toNat ≤ 999999) : (w >>> 2).toNat < 250000 := by
  rw [shr_toNat]; omega

theorem shrui_two (w : BitVec 32) : IntOp.shrui .vector w 2#32 = w >>> 2 := by
  have h : (2#32 : BitVec 32).toNat < 32 := by decide
  simp only [IntOp.shrui, h, if_true]
  rfl

/-! ## The shift payload -/

variable [FloatOps F]

/-- Sixteen class ids, each shifted right by two. -/
theorem pay_shr (v : Vec F S1x16 .i32) (x : S1x16.Idx) : k1_pay205 (F := F) v x = v x >>> 2 := by
  unfold k1_pay205
  show shrui (shapeCast S16 v shapeCasts_S1x16_S16) (broadcast S16 2#32) (Shape.reshapeEquiv _ x) = _
  show IntOp.shrui .vector (v (Shape.reshapeEquiv _ (Shape.reshapeEquiv _ x))) 2#32 = _
  rw [Shape.reshapeEquiv_reshapeEquiv, Shape.reshapeEquiv_self, shrui_two]

/-! ## The two halves of the row buffer -/

omit [FloatOps F] in
theorem rows_compl :
    (Finset.univ \ (((s2V).slice (Rect.unit (s := S2x128x128) ![0, 0, 0] S1x128x128.size inb_S2x128x128_S1x128x128_0_0_0) (fun _ => rfl)).squeeze S128x128 squeezes_S1x128x128_S128x128).view.set)
      = (((s2V).slice (Rect.unit (s := S2x128x128) ![1, 0, 0] S1x128x128.size inb_S2x128x128_S1x128x128_1_0_0) (fun _ => rfl)).squeeze S128x128 squeezes_S1x128x128_S128x128).view.set := by
  show (Finset.univ \ (((View.whole (cc1_scratch2 : Ref sig .scVector)).slice (Rect.unit (s := S2x128x128) ![0, 0, 0] S1x128x128.size inb_S2x128x128_S1x128x128_0_0_0)).reshape S128x128 squeezes_S1x128x128_S128x128.numel_eq).set)
      = (((View.whole (cc1_scratch2 : Ref sig .scVector)).slice (Rect.unit (s := S2x128x128) ![1, 0, 0] S1x128x128.size inb_S2x128x128_S1x128x128_1_0_0)).reshape S128x128 squeezes_S1x128x128_S128x128.numel_eq).set
  rw [View.set_reshape, View.set_reshape, View.set_slice, View.set_slice]
  show (Finset.univ \ Finset.map (Function.Embedding.refl _) _) = Finset.map (Function.Embedding.refl _) _
  rw [Finset.map_refl, Finset.map_refl]
  ext j
  have h0 : (j 0).val < 2 := (j 0).isLt
  have h1 : (j 1).val < 128 := (j 1).isLt
  have h2 : (j 2).val < 128 := (j 2).isLt
  simp only [Finset.mem_sdiff, Finset.mem_univ, true_and, Rect.mem_set_unit]
  constructor
  · intro h
    have hj0 : 1 ≤ (j 0).val := by
      by_contra hc
      refine h fun a => ?_
      match a with
      | ⟨0, _⟩ => exact ⟨Nat.zero_le _, by show (j 0).val < 0 + 1; omega⟩
      | ⟨1, _⟩ => exact ⟨Nat.zero_le _, by show (j 1).val < 0 + 128; omega⟩
      | ⟨2, _⟩ => exact ⟨Nat.zero_le _, by show (j 2).val < 0 + 128; omega⟩
    intro a
    match a with
    | ⟨0, _⟩ => exact ⟨hj0, by show (j 0).val < 1 + 1; omega⟩
    | ⟨1, _⟩ => exact ⟨Nat.zero_le _, by show (j 1).val < 0 + 128; omega⟩
    | ⟨2, _⟩ => exact ⟨Nat.zero_le _, by show (j 2).val < 0 + 128; omega⟩
  · intro h hc
    have ha : 1 ≤ (j 0).val := (h 0).1
    have hb : (j 0).val < 0 + 1 := (hc 0).2
    omega

/-! ## The id scratch after the four copies -/

/-- The subcore's class id number `n`: entry 1024 (L 1) + 512 (L 0) + n of the class ids. -/
def tileId (L : grid1.Coords) (n : ℕ) (hn : n < 512) : Fin 16384 :=
  ⟨1024 * (L 1).val + 512 * (L 0).val + n, by
    have h1 : (L 1).val < 16 := (L 1).isLt
    have h0 : (L 0).val < 2 := (L 0).isLt
    omega⟩

omit [FloatOps F] in
/-- A length-128 vector re-indexed as a [1, 128] row: the row's entry (0, k) is the vector's entry k. -/
theorem row_of_vec (h : S128.numel = (⟨2, S1x128.size⟩ : Shape).numel) (x : (⟨2, S1x128.size⟩ : Shape).Idx) :
    (((Shape.reshapeEquiv h).symm x) 0).val = (x 1).val := by
  have e : x = Shape.reshapeEquiv h ((Shape.reshapeEquiv h).symm x) := (Equiv.apply_symm_apply _ x).symm
  have e2 := Shape.reshapeEquiv_cons_one (n := 1) (d := ![128]) h ((Shape.reshapeEquiv h).symm x)
  rw [e2] at e
  have := congrArg (fun z => (z 1).val) e
  exact this.symm

omit [FloatOps F] in
/-- After the four copies, entry (r, k) of the id scratch is the subcore's class id number 128 r + k, whatever the
    scratch held before. -/
theorem idx_filled (d : Dev nD) (L : grid1.Coords) (ids : S16384.Idx → Elt F .i32)
    (f0 : Buf (Elt F) ((V d (cV L) (jV L)).loc cc1_scratch0)) (p0 p1 p2 p3 : Vec F S128 .i32)
    (h0 : ∀ x : S128.Idx, p0 x = ids (ix1 (tileId L (128 * 0 + (x 0).val) (by have : (x 0).val < 128 := (x 0).isLt; omega))))
    (h1 : ∀ x : S128.Idx, p1 x = ids (ix1 (tileId L (128 * 1 + (x 0).val) (by have : (x 0).val < 128 := (x 0).isLt; omega))))
    (h2 : ∀ x : S128.Idx, p2 x = ids (ix1 (tileId L (128 * 2 + (x 0).val) (by have : (x 0).val < 128 := (x 0).isLt; omega))))
    (h3 : ∀ x : S128.Idx, p3 x = ids (ix1 (tileId L (128 * 3 + (x 0).val) (by have : (x 0).val < 128 := (x 0).isLt; omega)))) :
    ∀ y : S4x128.Idx, (s0V).view.read (Elt F)
      (View.write (Elt F) (((s0V).slice (Rect.unit (s := S4x128) ![3, 0] S1x128.size inb_S4x128_S1x128_3_0) (fun _ => rfl)).squeeze S128 squeezes_S1x128_S128).view
        (View.write (Elt F) (((s0V).slice (Rect.unit (s := S4x128) ![2, 0] S1x128.size inb_S4x128_S1x128_2_0) (fun _ => rfl)).squeeze S128 squeezes_S1x128_S128).view
          (View.write (Elt F) (((s0V).slice (Rect.unit (s := S4x128) ![1, 0] S1x128.size inb_S4x128_S1x128_1_0) (fun _ => rfl)).squeeze S128 squeezes_S1x128_S128).view
            (View.write (Elt F) (((s0V).slice (Rect.unit (s := S4x128) ![0, 0] S1x128.size inb_S4x128_S1x128_0_0) (fun _ => rfl)).squeeze S128 squeezes_S1x128_S128).view
              f0 p0 Finset.univ) p1 Finset.univ) p2 Finset.univ) p3 Finset.univ) y
      = ids (ix1 (tileId L (128 * (y 0).val + (y 1).val) (by
          have : (y 0).val < 4 := (y 0).isLt
          have : (y 1).val < 128 := (y 1).isLt
          omega))) := by
  intro y
  show (s0V).view.read (Elt F)
      ((((s0V).view.slice (Rect.unit (s := S4x128) ![3, 0] S1x128.size inb_S4x128_S1x128_3_0)).reshape S128 squeezes_S1x128_S128.numel_eq).write (Elt F)
        ((((s0V).view.slice (Rect.unit (s := S4x128) ![2, 0] S1x128.size inb_S4x128_S1x128_2_0)).reshape S128 squeezes_S1x128_S128.numel_eq).write (Elt F)
          ((((s0V).view.slice (Rect.unit (s := S4x128) ![1, 0] S1x128.size inb_S4x128_S1x128_1_0)).reshape S128 squeezes_S1x128_S128.numel_eq).write (Elt F)
            ((((s0V).view.slice (Rect.unit (s := S4x128) ![0, 0] S1x128.size inb_S4x128_S1x128_0_0)).reshape S128 squeezes_S1x128_S128.numel_eq).write (Elt F)
              f0 p0 Finset.univ) p1 Finset.univ) p2 Finset.univ) p3 Finset.univ) y = _
  rw [View.write_reshape_univ, View.write_reshape_univ, View.write_reshape_univ, View.write_reshape_univ]
  refine View.read_writes_apply_of_pieces (v := (s0V).view) (f := f0)
    (fun y : S4x128.Idx => ids (ix1 (tileId L (128 * (y 0).val + (y 1).val) (by
      have : (y 0).val < 4 := (y 0).isLt
      have : (y 1).val < 128 := (y 1).isLt
      omega))))
    [⟨Rect.unit (s := S4x128) ![3, 0] S1x128.size inb_S4x128_S1x128_3_0, fun x => p3 ((Shape.reshapeEquiv squeezes_S1x128_S128.numel_eq).symm x)⟩,
     ⟨Rect.unit (s := S4x128) ![2, 0] S1x128.size inb_S4x128_S1x128_2_0, fun x => p2 ((Shape.reshapeEquiv squeezes_S1x128_S128.numel_eq).symm x)⟩,
     ⟨Rect.unit (s := S4x128) ![1, 0] S1x128.size inb_S4x128_S1x128_1_0, fun x => p1 ((Shape.reshapeEquiv squeezes_S1x128_S128.numel_eq).symm x)⟩,
     ⟨Rect.unit (s := S4x128) ![0, 0] S1x128.size inb_S4x128_S1x128_0_0, fun x => p0 ((Shape.reshapeEquiv squeezes_S1x128_S128.numel_eq).symm x)⟩]
    ?_ y (View.cover_of_tiled _ ![1, 128] rfl y)
  intro p hp x
  simp only [List.mem_cons, List.mem_nil_iff, or_false] at hp
  rcases hp with rfl | rfl | rfl | rfl
  · show p3 _ = _
    rw [h3]
    refine congrArg ids (congrArg ix1 (Fin.ext ?_))
    show 1024 * (L 1).val + 512 * (L 0).val + (128 * 3 + _) = 1024 * (L 1).val + 512 * (L 0).val + (128 * (3 + 1 * (x 0).val) + (0 + 1 * (x 1).val))
    have hx0 : (x 0).val = 0 := by have : (x 0).val < 1 := (x 0).isLt; omega
    rw [row_of_vec, hx0]
    omega
  · show p2 _ = _
    rw [h2]
    refine congrArg ids (congrArg ix1 (Fin.ext ?_))
    show 1024 * (L 1).val + 512 * (L 0).val + (128 * 2 + _) = 1024 * (L 1).val + 512 * (L 0).val + (128 * (2 + 1 * (x 0).val) + (0 + 1 * (x 1).val))
    have hx0 : (x 0).val = 0 := by have : (x 0).val < 1 := (x 0).isLt; omega
    rw [row_of_vec, hx0]
    omega
  · show p1 _ = _
    rw [h1]
    refine congrArg ids (congrArg ix1 (Fin.ext ?_))
    show 1024 * (L 1).val + 512 * (L 0).val + (128 * 1 + _) = 1024 * (L 1).val + 512 * (L 0).val + (128 * (1 + 1 * (x 0).val) + (0 + 1 * (x 1).val))
    have hx0 : (x 0).val = 0 := by have : (x 0).val < 1 := (x 0).isLt; omega
    rw [row_of_vec, hx0]
    omega
  · show p0 _ = _
    rw [h0]
    refine congrArg ids (congrArg ix1 (Fin.ext ?_))
    show 1024 * (L 1).val + 512 * (L 0).val + (128 * 0 + _) = 1024 * (L 1).val + 512 * (L 0).val + (128 * (0 + 1 * (x 0).val) + (0 + 1 * (x 1).val))
    have hx0 : (x 0).val = 0 := by have : (x 0).val < 1 := (x 0).isLt; omega
    rw [row_of_vec, hx0]
    omega

end Cert.Kernel.Lk

end
-- ==== Proof.TileB2.lean ====
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.TileB0
import proofs.«204365_g77171972375186_cont_9to1c4b_67_15_alg».proof.Proof.TileB1
import proofs.«204365_g77171972375186_cont_9to1c4b_67_15_alg».proof.Proof.TileBMath

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx
variable (d : Dev nD) (L : grid1.Coords)

/-! ## Lists of pieces, member by member -/

theorem all_nil {α : Type _} {P : α → Prop} : ∀ q ∈ ([] : List α), P q := fun _ h => absurd h List.not_mem_nil
theorem all_cons {α : Type _} {P : α → Prop} {a : α} {l : List α} (h : P a) (hl : ∀ q ∈ l, P q) : ∀ q ∈ a :: l, P q :=
  List.forall_mem_cons.mpr ⟨h, hl⟩

/-! ## What one id copy carries -/

omit [FloatOps F] in
/-- Copy r of the four carries the subcore's class ids number 128 r onward. -/
theorem ids_row (r : Fin 4) (ids : Buf (Elt F) (idsLoc d)) (x : S128.Idx) :
    View.read (Elt F) ((iV).slice (Rect.unit (s := S16384) (k1_off1 L (BitVec.ofNat 32 (128 * r.val))) S128.size (k1_off1_inb L r)) (fun _ => rfl)).view ids x
      = ids (ix1 (tileId L (128 * r.val + (x 0).val) (by have hx : (x 0).val < 128 := (x 0).isLt; have := r.isLt; omega))) := by
  rw [View.read_apply]
  show ids _ = ids _
  congr 1
  funext a
  match a with
  | ⟨0, _⟩ =>
    refine Fin.ext ?_
    show (k1_off1 L (BitVec.ofNat 32 (128 * r.val))) 0 + 1 * (x 0).val = 1024 * (L 1).val + 512 * (L 0).val + (128 * r.val + (x 0).val)
    rw [k1_off1_eq L r]
    simp
    omega

end Cert.Kernel.Lk

end
-- ==== Proof.LoopBWords.lean ====
/-
  The four counted loops of the gather kernel's tile body, part 1: the words a trip computes from a class id, the
  side conditions it assumes of them (true of every word), and the two halves of the row buffer.
-/
import proofs.«204365_g77171972375186_cont_9to1c4b_67_15_alg».proof.Proof.CommonB
import proofs.«204365_g77171972375186_cont_9to1c4b_67_15_alg».proof.Proof.Gen.Kernel.Skeleton

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The words a trip computes

A trip of one of the four loops reads sixteen class ids; for an id `v` it reads, from row `16 k + l` of one half
of the row buffer, the sixteen lanes from `(v mod 4) * 32` and the sixteen after them. These are the values of
those words as natural numbers, for any word `v`: the low two bits of a word select one of four lane groups, so
both windows lie inside a row of 128 lanes whatever the word is. -/

/-- The lane a class id selects, `(v &&& 3) * 32`, is `(v mod 4) * 32`. -/
theorem lane_val (v : BitVec 32) :
    (Scalar.indexCast (Scalar.muli (Scalar.andi v 3#32) 32#32)).toNat = Cert.Lookup.pkLane v := by
  show ((v &&& 3#32) * 32#32).toNat = (v.toNat % 4) * 32
  rw [BitVec.toNat_mul, BitVec.toNat_and]
  have h : v.toNat &&& (3#32 : BitVec 32).toNat = v.toNat % 4 := Nat.and_two_pow_sub_one_eq_mod v.toNat 2
  rw [h]
  have := Nat.mod_lt v.toNat (show 0 < 4 by decide)
  show v.toNat % 4 * 32 % 2 ^ 32 = v.toNat % 4 * 32
  omega

/-- Sixteen lanes further: `(v &&& 3) * 32 + 16`. -/
theorem lane16_val (v : BitVec 32) :
    (Scalar.indexCast (Scalar.addi (Scalar.muli (Scalar.andi v 3#32) 32#32) 16#32)).toNat = Cert.Lookup.pkLane v + 16 := by
  have h := lane_val v
  have hl : Cert.Lookup.pkLane v ≤ 96 := by
    have := Nat.mod_lt v.toNat (show 0 < 4 by decide); unfold Cert.Lookup.pkLane; omega
  show (((v &&& 3#32) * 32#32) + 16#32).toNat = _
  rw [BitVec.toNat_add]
  have h' : ((v &&& 3#32) * 32#32).toNat = Cert.Lookup.pkLane v := h
  rw [h']
  show (Cert.Lookup.pkLane v + 16) % 2 ^ 32 = _
  omega

/-- Row `16 k + c` of a chunk, as the trip computes it from the induction variable: `k < 8`, `c < 16`. -/
theorem row_val (k : ℕ) (hk : k < 8) (c : BitVec 32) (hc : c.toNat < 16) :
    (Scalar.indexCast (Scalar.addi (Scalar.muli (Scf.iv 0#32 1#32 k) 16#32) c)).toNat = 16 * k + c.toNat := by
  show ((0#32 + BitVec.ofNat 32 k * 1#32) * 16#32 + c).toNat = _
  rw [BitVec.toNat_add, BitVec.toNat_mul, BitVec.toNat_add, BitVec.toNat_mul, BitVec.toNat_ofNat]
  show ((0 + k % 2 ^ 32 * 1 % 2 ^ 32) % 2 ^ 32 * 16 % 2 ^ 32 + c.toNat) % 2 ^ 32 = _
  omega

theorem lane_le (v : BitVec 32) : (Scalar.indexCast (Scalar.muli (Scalar.andi v 3#32) 32#32)).toNat + 16 ≤ 128 := by
  rw [lane_val]; have := Nat.mod_lt v.toNat (show 0 < 4 by decide); unfold Cert.Lookup.pkLane; omega

theorem lane16_le (v : BitVec 32) :
    (Scalar.indexCast (Scalar.addi (Scalar.muli (Scalar.andi v 3#32) 32#32) 16#32)).toNat + 16 ≤ 128 := by
  rw [lane16_val]; have := Nat.mod_lt v.toNat (show 0 < 4 by decide); unfold Cert.Lookup.pkLane; omega

theorem row_le (k : Fin 8) (c : BitVec 32) (hc : c.toNat < 16) :
    (Scalar.indexCast (Scalar.addi (Scalar.muli (Scf.iv 0#32 1#32 k.val) 16#32) c)).toNat + 1 ≤ 128 := by
  rw [row_val k.val k.isLt c hc]; have := k.isLt; omega

theorem slot0_le : (0 : ℕ) + 1 ≤ 2 := by decide
theorem slot1_le : (1 : ℕ) + 1 ≤ 2 := by decide

/-- The side condition a trip assumes of each class id it has read — the two windows of sixteen lanes lie inside
    the row buffer — holds of every word: axis by axis, the half is 0 or 1, the row is below 128, and the lanes are
    `lane_le`, `lane16_le`. -/
macro "lk_chk" : tactic => `(tactic| (
  refine ⟨fun a => ?_, fun a => ?_⟩
  · fin_cases a
    · first | exact slot0_le | exact slot1_le
    · exact row_le _ _ (by decide)
    · exact lane_le _
  · fin_cases a
    · first | exact slot0_le | exact slot1_le
    · exact row_le _ _ (by decide)
    · exact lane16_le _))

/-! ## The two halves of the row buffer

The row buffer is two slots of 128 rows of 128 lanes. While a loop reads one slot the next chunk's rows are on
their way into the other, so a loop holds only the slot it reads, by that slot's own elements. Every window a trip
reads — one row, sixteen lanes, in the slot the loop reads — lies in that slot. -/

/-- Slot 0 of the row buffer, as the program slices it for a gather's target. -/
abbrev rowsA : Memref sig Kind.scVector Space.vmem S128x128 EltTy.f32 :=
  ((s2V).slice (Rect.unit (s := S2x128x128) ![0, 0, 0] S1x128x128.size inb_S2x128x128_S1x128x128_0_0_0) (fun _ => rfl)).squeeze S128x128 squeezes_S1x128x128_S128x128
/-- Slot 1. -/
abbrev rowsB : Memref sig Kind.scVector Space.vmem S128x128 EltTy.f32 :=
  ((s2V).slice (Rect.unit (s := S2x128x128) ![1, 0, 0] S1x128x128.size inb_S2x128x128_S1x128x128_1_0_0) (fun _ => rfl)).squeeze S128x128 squeezes_S1x128x128_S128x128

/-- A window of one row and sixteen lanes whose slot coordinate is 0 lies in slot 0. -/
theorem rowsA_incl (o : Fin 3 → ℕ) (h : ∀ a, o a + S1x1x16.size a ≤ S2x128x128.size a) (h0 : o 0 = 0) :
    ((s2V).access (Rect.unit (s := S2x128x128) o S1x1x16.size h)).set ⊆ (rowsA).view.set := by
  have hw : LoadRect.within (Rect.unit (s := S2x128x128) ![0, 0, 0] S1x128x128.size inb_S2x128x128_S1x128x128_0_0_0)
      (Rect.unit (s := S2x128x128) o S1x1x16.size h).toLoadRect = true := by
    refine LoadRect.within_of_withinP fun a => ?_
    have ha := h a
    fin_cases a
    · refine ⟨?_, ?_, Or.inl rfl⟩
      · show 0 ≤ o 0; omega
      · show o 0 + 1 * (1 - 1) < 0 + 1 * 1; omega
    · refine ⟨?_, ?_, Or.inl rfl⟩
      · show 0 ≤ o 1; omega
      · show o 1 + 1 * (1 - 1) < 0 + 1 * 128
        have : o 1 + 1 ≤ 128 := ha
        omega
    · refine ⟨?_, ?_, Or.inl rfl⟩
      · show 0 ≤ o 2; omega
      · show o 2 + 1 * (16 - 1) < 0 + 1 * 128
        have : o 2 + 16 ≤ 128 := ha
        omega
  have := Memref.setOn_access_subset_slice_of_within (s2V) _ (fun _ => rfl) (Rect.unit (s := S2x128x128) o S1x1x16.size h) Finset.univ hw
  simpa only [Memref.view_squeeze, View.set_reshape, View.setOn_univ] using this

/-- And one whose slot coordinate is 1 lies in slot 1. -/
theorem rowsB_incl (o : Fin 3 → ℕ) (h : ∀ a, o a + S1x1x16.size a ≤ S2x128x128.size a) (h0 : o 0 = 1) :
    ((s2V).access (Rect.unit (s := S2x128x128) o S1x1x16.size h)).set ⊆ (rowsB).view.set := by
  have hw : LoadRect.within (Rect.unit (s := S2x128x128) ![1, 0, 0] S1x128x128.size inb_S2x128x128_S1x128x128_1_0_0)
      (Rect.unit (s := S2x128x128) o S1x1x16.size h).toLoadRect = true := by
    refine LoadRect.within_of_withinP fun a => ?_
    have ha := h a
    fin_cases a
    · refine ⟨?_, ?_, Or.inl rfl⟩
      · show 1 ≤ o 0; omega
      · show o 0 + 1 * (1 - 1) < 1 + 1 * 1; omega
    · refine ⟨?_, ?_, Or.inl rfl⟩
      · show 0 ≤ o 1; omega
      · show o 1 + 1 * (1 - 1) < 0 + 1 * 128
        have : o 1 + 1 ≤ 128 := ha
        omega
    · refine ⟨?_, ?_, Or.inl rfl⟩
      · show 0 ≤ o 2; omega
      · show o 2 + 1 * (16 - 1) < 0 + 1 * 128
        have : o 2 + 16 ≤ 128 := ha
        omega
  have := Memref.setOn_access_subset_slice_of_within (s2V) _ (fun _ => rfl) (Rect.unit (s := S2x128x128) o S1x1x16.size h) Finset.univ hw
  simpa only [Memref.view_squeeze, View.set_reshape, View.setOn_univ] using this

example (k : Fin k1_t1_loop.trips) (v : BitVec 32) : k1_chk1 k v := by lk_chk
example (k : Fin k1_t1_loop.trips) (v : BitVec 32) : k1_chk16 k v := by lk_chk
example (k : Fin k1_t2_loop.trips) (v : BitVec 32) : k1_chk18 k v := by lk_chk
example (k : Fin k1_t4_loop.trips) (v : BitVec 32) : k1_chk64 k v := by lk_chk

end Cert.Kernel.Lk

end
-- ==== Proof.LoopBPure.lean ====
/-
  The four counted loops of the gather kernel's tile body, part 2: what a loop leaves in the result scratch, as a
  function. Loop c (c = 0, 1, 2, 3) fills rows 128 c … 128 c + 127 of the result scratch: row 128 c + n takes, from
  row n of half c mod 2 of the row buffer, the 32 lanes starting at (i mod 4) * 32, where i is class id n of chunk c.
  A trip does sixteen rows, each by two stores of sixteen lanes.
-/
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.LoopBWords
import Idealize.ShloMosaic.Lib.ValueLayout

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type}

/-! ## Reading the index scratch and the row buffer at natural-number coordinates

Total functions of natural numbers (coordinates reduced modulo the extents, which changes nothing in range), so that
a statement about them carries no proofs of bounds. -/

/-- Class id `b` of chunk `a`. -/
def rd2 (I : S4x128.Idx → BitVec 32) (a b : ℕ) : BitVec 32 :=
  I (ix2 ⟨a % 4, Nat.mod_lt _ (by decide)⟩ ⟨b % 128, Nat.mod_lt _ (by decide)⟩)

/-- Lane `c` of row `b` of half `a` of the row buffer. -/
def rd3 (Rw : S2x128x128.Idx → Elt F .f32) (a b c : ℕ) : Elt F .f32 :=
  Rw (ix3 ⟨a % 2, Nat.mod_lt _ (by decide)⟩ ⟨b % 128, Nat.mod_lt _ (by decide)⟩ ⟨c % 128, Nat.mod_lt _ (by decide)⟩)

/-- The result scratch once the first `n` rows of chunk `c` are done, from contents `Rs`. -/
def resRows (c : ℕ) (I : S4x128.Idx → BitVec 32) (Rw : S2x128x128.Idx → Elt F .f32) (Rs : S512x32.Idx → Elt F .f32) (n : ℕ) :
    S512x32.Idx → Elt F .f32 :=
  fun j => if 128 * c ≤ (j 0).val ∧ (j 0).val < 128 * c + n then
      rd3 Rw (c % 2) ((j 0).val - 128 * c) (Cert.Lookup.pkLane (rd2 I c ((j 0).val - 128 * c)) + (j 1).val)
    else Rs j

theorem resRows_zero (c : ℕ) (I : S4x128.Idx → BitVec 32) (Rw : S2x128x128.Idx → Elt F .f32) (Rs : S512x32.Idx → Elt F .f32) :
    resRows c I Rw Rs 0 = Rs := by
  funext j; unfold resRows; rw [if_neg]; omega

/-! ## One store of sixteen lanes, read at an index -/

/-- A store of sixteen lanes at row `o 0`, lanes `o 1 …`, of the result scratch: inside the window the payload,
    elsewhere what was there. -/
theorem write_unit_apply (g : S512x32.Idx → Elt F .f32) (o : Fin 2 → ℕ) (h : ∀ a, o a + S1x16.size a ≤ S512x32.size a)
    (w : S1x16.Idx → Elt F .f32) (j : S512x32.Idx) :
    (((s3V).view.slice (Rect.unit (s := S512x32) o S1x16.size h)).write (Elt F) g w Finset.univ) j
      = if hm : (j 0).val = o 0 ∧ o 1 ≤ (j 1).val ∧ (j 1).val < o 1 + 16 then
          w (ix2 ⟨0, by decide⟩ ⟨(j 1).val - o 1, by omega⟩)
        else g j := by
  by_cases hm : (j 0).val = o 0 ∧ o 1 ≤ (j 1).val ∧ (j 1).val < o 1 + 16
  · rw [dif_pos hm]
    have hj : j = (Rect.unit (s := S512x32) o S1x16.size h).emb (ix2 ⟨0, by decide⟩ ⟨(j 1).val - o 1, by omega⟩) := by
      funext a
      refine Fin.ext ?_
      rw [Rect.emb_apply]
      match a with
      | ⟨0, _⟩ => show (j 0).val = o 0 + 1 * 0; omega
      | ⟨1, _⟩ => show (j 1).val = o 1 + 1 * ((j 1).val - o 1); omega
    conv_lhs => rw [hj]
    exact View.read_slice_write_emb (v := (s3V).view) (Rect.unit (s := S512x32) o S1x16.size h) g w (Finset.mem_univ _)
  · rw [dif_neg hm]
    refine View.read_slice_write_of_not_mem (v := (s3V).view) (Rect.unit (s := S512x32) o S1x16.size h) g w Finset.univ ?_
    rw [Rect.map_emb_univ, Rect.mem_set_unit]
    intro hall
    apply hm
    have h0 := hall 0
    have h1 := hall 1
    have e0 : S1x16.size 0 = 1 := rfl
    have e1 : S1x16.size 1 = 16 := rfl
    rw [e0] at h0; rw [e1] at h1
    omega

/-! ## One row: two stores of sixteen lanes -/

/-- Row `r = 128 c + n` done after rows `128 c … 128 c + n - 1`: the store of lanes 0–15 (`o4`, `w4`) and then of
    lanes 16–31 (`o6`, `w6`), whose payloads are the two windows of row `n` of the half `c mod 2` of the row buffer
    at the lane class id `n` of chunk `c` selects. -/
theorem writes_lane (c : ℕ) (I : S4x128.Idx → BitVec 32) (Rw : S2x128x128.Idx → Elt F .f32) (Rs : S512x32.Idx → Elt F .f32)
    (f : S512x32.Idx → Elt F .f32) {n m r : ℕ} {L : List (View.Piece (Elt F) S512x32 .f32)}
    {o6 o4 : Fin 2 → ℕ} {h6 : ∀ a, o6 a + S1x16.size a ≤ S512x32.size a} {h4 : ∀ a, o4 a + S1x16.size a ≤ S512x32.size a}
    {w6 w4 : S1x16.Idx → Elt F .f32}
    (e6 : o6 = ![r, 16]) (e4 : o4 = ![r, 0]) (hr : r = 128 * c + n) (hm : m = n + 1)
    (p4 : ∀ x : S1x16.Idx, w4 x = rd3 Rw (c % 2) n (Cert.Lookup.pkLane (rd2 I c n) + (x 1).val))
    (p6 : ∀ x : S1x16.Idx, w6 x = rd3 Rw (c % 2) n (Cert.Lookup.pkLane (rd2 I c n) + 16 + (x 1).val))
    (ih : (s3V).view.writes (Elt F) f L = resRows c I Rw Rs n) :
    (s3V).view.writes (Elt F) f (⟨Rect.unit (s := S512x32) o6 S1x16.size h6, w6⟩ :: ⟨Rect.unit (s := S512x32) o4 S1x16.size h4, w4⟩ :: L)
      = resRows c I Rw Rs m := by
  subst e6 e4 hm
  rw [View.writes_cons, View.writes_cons, ih]
  funext j
  have hj1 := idx2_lt1 j
  rw [write_unit_apply, write_unit_apply]
  have a60 : (![r, 16] : Fin 2 → ℕ) 0 = r := rfl
  have a61 : (![r, 16] : Fin 2 → ℕ) 1 = 16 := rfl
  have a40 : (![r, 0] : Fin 2 → ℕ) 0 = r := rfl
  have a41 : (![r, 0] : Fin 2 → ℕ) 1 = 0 := rfl
  unfold resRows
  by_cases h0 : (j 0).val = r
  · have hn : (j 0).val - 128 * c = n := by omega
    by_cases h1 : 16 ≤ (j 1).val
    · rw [dif_pos (by rw [a60, a61]; omega)]
      show w6 _ = _
      rw [p6, if_pos (by omega), hn]
      congr 1
      show Cert.Lookup.pkLane (rd2 I c n) + 16 + ((j 1).val - (![r, 16] : Fin 2 → ℕ) 1) = _
      rw [a61]; omega
    · rw [dif_neg (by rw [a60, a61]; omega), dif_pos (by rw [a40, a41]; omega)]
      show w4 _ = _
      rw [p4, if_pos (by omega), hn]
      congr 1
  · rw [dif_neg (by rw [a60]; omega), dif_neg (by rw [a40]; omega)]
    by_cases hlt : 128 * c ≤ (j 0).val ∧ (j 0).val < 128 * c + n
    · rw [if_pos hlt, if_pos (by omega)]
    · rw [if_neg hlt, if_neg (by omega)]

/-! ## What a trip loads: a class id, and the two windows it selects -/

/-- The window of one row and sixteen lanes at `o`, as the trip reshapes it for its store, read at a lane. -/
theorem rows_pay (Rw : S2x128x128.Idx → Elt F .f32) (o : Fin 3 → ℕ) (h : ∀ a, o a + S1x1x16.size a ≤ S2x128x128.size a)
    (x : S1x16.Idx) :
    shapeCast S1x16 (shapeCast S16 ((s2V).view.readAt (Elt F) (Rect.unit (s := S2x128x128) o S1x1x16.size h).toLoadRect Rw)
        shapeCasts_S1x1x16_S16) shapeCasts_S16_S1x16 x
      = rd3 Rw (o 0) (o 1) (o 2 + (x 1).val) := by
  have hx0 := idx2_lt0 x
  have hx1 := idx2_lt1 x
  rw [shapeCast_apply _ _ x (ix1 ⟨(x 1).val, hx1⟩) (by
        rw [Shape.rowMajor_val_one, Shape.rowMajor_val_two]
        show (x 1).val = (x 0).val * 16 + (x 1).val
        omega),
    shapeCast_apply _ _ (ix1 ⟨(x 1).val, hx1⟩) (ix3 ⟨0, by decide⟩ ⟨0, by decide⟩ ⟨(x 1).val, hx1⟩) (by
        rw [Shape.rowMajor_val_three, Shape.rowMajor_val_one]
        show (0 * 1 + 0) * 16 + (x 1).val = (x 1).val
        omega)]
  have h0 : o 0 + 1 ≤ 2 := h 0
  have h1 : o 1 + 1 ≤ 128 := h 1
  have h2 : o 2 + 16 ≤ 128 := h 2
  show Rw ((Rect.unit (s := S2x128x128) o S1x1x16.size h).toLoadRect.idx _) = Rw _
  congr 1
  funext a
  refine Fin.ext ?_
  rw [LoadRect.idx_apply]
  match a with
  | ⟨0, _⟩ => show o 0 + 1 * 0 = o 0 % 2; omega
  | ⟨1, _⟩ => show o 1 + 1 * 0 = o 1 % 128; omega
  | ⟨2, _⟩ => show o 2 + 1 * (x 1).val = (o 2 + (x 1).val) % 128; omega

/-- Lane `l` of the sixteen class ids a trip loads at `o`. -/
theorem id_word (I : S4x128.Idx → BitVec 32) (o : Fin 2 → ℕ) (h : ∀ a, o a + S1x16.size a ≤ S4x128.size a) (l : ℕ) (hl : l < 16)
    (hs : S16.Slices ![l] S1) (hp : ∀ a, (![0] : Fin 1 → ℕ) a < S1.size a) :
    extractAt ![0] (extractStridedSlice S1 ![l]
        (shapeCast S16 ((s0V).view.readAt (Elt F) (Rect.unit (s := S4x128) o S1x16.size h).toLoadRect I) shapeCasts_S1x16_S16) hs) hp
      = rd2 I (o 0) (o 1 + l) := by
  unfold extractAt extractStridedSlice
  rw [shapeCast_apply _ _ _ (ix2 ⟨0, by decide⟩ ⟨l, hl⟩) (by
        rw [Shape.rowMajor_val_one, Shape.rowMajor_val_two]
        show 0 * 16 + l = l + 0
        omega)]
  have h0 : o 0 + 1 ≤ 4 := h 0
  have h1 : o 1 + 16 ≤ 128 := h 1
  show I ((Rect.unit (s := S4x128) o S1x16.size h).toLoadRect.idx _) = I _
  congr 1
  funext a
  refine Fin.ext ?_
  rw [LoadRect.idx_apply]
  match a with
  | ⟨0, _⟩ => show o 0 + 1 * 0 = o 0 % 4; omega
  | ⟨1, _⟩ => show o 1 + 1 * l = (o 1 + l) % 128; omega

/-- The two payloads of row `n` of chunk `c`, from the class id `v` the trip read for it: lanes 0–15 … -/
theorem pay_lo (I : S4x128.Idx → BitVec 32) (Rw : S2x128x128.Idx → Elt F .f32) (c n : ℕ) (v : BitVec 32)
    {o : Fin 3 → ℕ} {h : ∀ a, o a + S1x1x16.size a ≤ S2x128x128.size a}
    (hv : v = rd2 I c n) (e0 : o 0 = c % 2) (e1 : o 1 = n) (e2 : o 2 = Cert.Lookup.pkLane v) (x : S1x16.Idx) :
    shapeCast S1x16 (shapeCast S16 ((s2V).view.readAt (Elt F) (Rect.unit (s := S2x128x128) o S1x1x16.size h).toLoadRect Rw)
        shapeCasts_S1x1x16_S16) shapeCasts_S16_S1x16 x
      = rd3 Rw (c % 2) n (Cert.Lookup.pkLane (rd2 I c n) + (x 1).val) := by
  rw [rows_pay, e0, e1, e2, hv]

/-- … and lanes 16–31. -/
theorem pay_hi (I : S4x128.Idx → BitVec 32) (Rw : S2x128x128.Idx → Elt F .f32) (c n : ℕ) (v : BitVec 32)
    {o : Fin 3 → ℕ} {h : ∀ a, o a + S1x1x16.size a ≤ S2x128x128.size a}
    (hv : v = rd2 I c n) (e0 : o 0 = c % 2) (e1 : o 1 = n) (e2 : o 2 = Cert.Lookup.pkLane v + 16) (x : S1x16.Idx) :
    shapeCast S1x16 (shapeCast S16 ((s2V).view.readAt (Elt F) (Rect.unit (s := S2x128x128) o S1x1x16.size h).toLoadRect Rw)
        shapeCasts_S1x1x16_S16) shapeCasts_S16_S1x16 x
      = rd3 Rw (c % 2) n (Cert.Lookup.pkLane (rd2 I c n) + 16 + (x 1).val) := by
  rw [rows_pay, e0, e1, e2, hv]

/-- The class id of row `n` of chunk `c`, as lane `l` of the sixteen the trip loaded at `o`. -/
theorem id_of (I : S4x128.Idx → BitVec 32) (c n : ℕ) {o : Fin 2 → ℕ} {h : ∀ a, o a + S1x16.size a ≤ S4x128.size a} {l : ℕ} (hl : l < 16)
    {hs : S16.Slices ![l] S1} {hp : ∀ a, (![0] : Fin 1 → ℕ) a < S1.size a} {b : ℕ} (e : o = ![c, b]) (hn : n = b + l) :
    extractAt ![0] (extractStridedSlice S1 ![l]
        (shapeCast S16 ((s0V).view.readAt (Elt F) (Rect.unit (s := S4x128) o S1x16.size h).toLoadRect I) shapeCasts_S1x16_S16) hs) hp
      = rd2 I c n := by
  rw [id_word I o h l hl]
  subst e hn
  rfl

/-! ## For the use of the closed form -/

theorem rd2_of_lt (I : S4x128.Idx → BitVec 32) {a b : ℕ} (ha : a < 4) (hb : b < 128) : rd2 I a b = I (ix2 ⟨a, ha⟩ ⟨b, hb⟩) := by
  unfold rd2
  congr 1
  funext x
  match x with
  | ⟨0, _⟩ => exact Fin.ext (Nat.mod_eq_of_lt ha)
  | ⟨1, _⟩ => exact Fin.ext (Nat.mod_eq_of_lt hb)

theorem rd3_of_lt (Rw : S2x128x128.Idx → Elt F .f32) {a b c : ℕ} (ha : a < 2) (hb : b < 128) (hc : c < 128) :
    rd3 Rw a b c = Rw (ix3 ⟨a, ha⟩ ⟨b, hb⟩ ⟨c, hc⟩) := by
  unfold rd3
  congr 1
  funext x
  match x with
  | ⟨0, _⟩ => exact Fin.ext (Nat.mod_eq_of_lt ha)
  | ⟨1, _⟩ => exact Fin.ext (Nat.mod_eq_of_lt hb)
  | ⟨2, _⟩ => exact Fin.ext (Nat.mod_eq_of_lt hc)

/-- The closed form: after `n` rows of chunk `c`, row `128 c + m` (`m < n`) holds the 32 lanes that class id `m` of
    the chunk selects in row `m` of half `c mod 2` of the row buffer; every other row is as before. -/
theorem resRows_apply (c : ℕ) (I : S4x128.Idx → BitVec 32) (Rw : S2x128x128.Idx → Elt F .f32) (Rs : S512x32.Idx → Elt F .f32)
    (n : ℕ) (j : S512x32.Idx) :
    resRows c I Rw Rs n j = if 128 * c ≤ (j 0).val ∧ (j 0).val < 128 * c + n then
        rd3 Rw (c % 2) ((j 0).val - 128 * c) (Cert.Lookup.pkLane (rd2 I c ((j 0).val - 128 * c)) + (j 1).val)
      else Rs j := rfl

/-- Equal contents, the same points-to assertion. -/
theorem pts_congr (d : Dev nD) (c : Fin τ.nSC) (i : Fin τ.nSub) (f g : Buf (Elt F) ((s3V).view.loc (V d c i))) (h : f = g) :
    ((s3V).view.loc (V d c i) ↦{fullShare} f : sProp (MT nD τ sig (HIx 1) (Elt F) ℕ UU ℕ)) ⊢ ((s3V).view.loc (V d c i) ↦{fullShare} g) :=
  Entails.of_eq (by rw [h])

end Cert.Kernel.Lk

end
-- ==== Proof.TileBFinal.lean ====
/-
  The result scratch after the four loops, read as the lookup. Loop c fills rows 128 c … 128 c + 127 from the half
  c mod 2 of the row buffer as the gather of chunk c left it: row k of that half is packed row (i / 4) for the class
  id i = number 128 c + k of the subcore, and the loop takes its 32 lanes from lane (i mod 4) * 32. So row n of the
  scratch is the packed array read at the row and lanes the subcore's class id number n names.
-/
import proofs.«204365_g77171972375186_cont_9to1c4b_67_15_alg».proof.Proof.LoopBPure
import proofs.«204365_g77171972375186_cont_9to1c4b_67_15_alg».proof.Proof.TileBMath

noncomputable section

namespace Cert.Kernel.Lk

open Cert.Kernel Cert.Kernel.Gen

open Idealize.ShloMosaic Idealize.ShloMosaic.ValueIdx

variable {F : FTy → Type}

/-- One chunk's rows: what loop `c` wrote at row `n` (128 c ≤ n < 128 c + 128) is the packed array at the row and
    lanes the subcore's class id number `n` names. -/
theorem chunk_rows (L : grid1.Coords) (I : S4x128.Idx → BitVec 32) (ids : Cert.Lookup.SIds.Idx → BitVec 32)
    (pk : Cert.Lookup.SPk.Idx → Elt F .f32)
    (hI : ∀ y : S4x128.Idx, I y = ids (ix1 (tileId L (128 * (y 0).val + (y 1).val) (by
      have : (y 0).val < 4 := (y 0).isLt
      have : (y 1).val < 128 := (y 1).isLt
      omega))))
    (c : ℕ) (hc : c < 4) (R : S2x128x128.Idx → Elt F .f32)
    (hG : ∀ (k col : Fin 128), R (ix3 ⟨c % 2, Nat.mod_lt _ (by decide)⟩ k col)
      = pk (ix2 (Cert.Lookup.pkRow (I (ix2 ⟨c, hc⟩ k))) col))
    (j : S512x32.Idx) (h : 128 * c ≤ (j 0).val ∧ (j 0).val < 128 * c + 128) :
    rd3 R (c % 2) ((j 0).val - 128 * c) (Cert.Lookup.pkLane (rd2 I c ((j 0).val - 128 * c)) + (j 1).val)
      = Cert.Lookup.unpacked ids pk (ix2 (tileId L (j 0).val (idx2_lt0 j)) ⟨(j 1).val, idx2_lt1 j⟩) := by
  have hj0 : (j 0).val < 512 := idx2_lt0 j
  have hj1 : (j 1).val < 32 := idx2_lt1 j
  obtain ⟨k, hk⟩ : ∃ k, k = (j 0).val - 128 * c := ⟨_, rfl⟩
  rw [← hk]
  have hk128 : k < 128 := by omega
  have hG' : ∀ col : Fin 128, R (ix3 ⟨c % 2, Nat.mod_lt _ (by decide)⟩ ⟨k, hk128⟩ col)
      = pk (ix2 (Cert.Lookup.pkRow (rd2 I c k)) col) := fun col => by
    rw [rd2_of_lt I hc hk128]; exact hG ⟨k, hk128⟩ col
  have hw : rd2 I c k = ids (ix1 (tileId L (128 * c + k) (by omega))) :=
    (rd2_of_lt I hc hk128).trans (hI (ix2 ⟨c, hc⟩ ⟨k, hk128⟩))
  generalize rd2 I c k = w at hG' hw ⊢
  subst hw
  rw [rd3_of_lt R (Nat.mod_lt _ (by decide)) hk128 (Cert.Lookup.pkLane_add_lt _ ⟨(j 1).val, hj1⟩), hG']
  have hidx : tileId L (128 * c + k) (by omega) = tileId L (j 0).val hj0 :=
    Fin.ext (by show 1024 * (L 1).val + 512 * (L 0).val + (128 * c + k) = 1024 * (L 1).val + 512 * (L 0).val + (j 0).val; omega)
  exact congrArg (fun i : Fin 16384 => pk (ix2 (Cert.Lookup.pkRow (ids (ix1 i)))
    ⟨Cert.Lookup.pkLane (ids (ix1 i)) + (j 1).val, Cert.Lookup.pkLane_add_lt _ ⟨(j 1).val, hj1⟩⟩)) hidx

/-- After the four loops the result scratch is the lookup of the subcore's 512 class ids in the packed array. -/
theorem res_final (L : grid1.Coords) (I : S4x128.Idx → BitVec 32) (R0 R1 R2 R3 : S2x128x128.Idx → Elt F .f32)
    (Rs0 : S512x32.Idx → Elt F .f32) (ids : Cert.Lookup.SIds.Idx → BitVec 32) (pk : Cert.Lookup.SPk.Idx → Elt F .f32)
    (hI : ∀ y : S4x128.Idx, I y = ids (ix1 (tileId L (128 * (y 0).val + (y 1).val) (by
      have : (y 0).val < 4 := (y 0).isLt
      have : (y 1).val < 128 := (y 1).isLt
      omega))))
    (hG0 : ∀ (k col : Fin 128), R0 (ix3 ⟨0, by decide⟩ k col) = pk (ix2 (Cert.Lookup.pkRow (I (ix2 ⟨0, by decide⟩ k))) col))
    (hG1 : ∀ (k col : Fin 128), R1 (ix3 ⟨1, by decide⟩ k col) = pk (ix2 (Cert.Lookup.pkRow (I (ix2 ⟨1, by decide⟩ k))) col))
    (hG2 : ∀ (k col : Fin 128), R2 (ix3 ⟨0, by decide⟩ k col) = pk (ix2 (Cert.Lookup.pkRow (I (ix2 ⟨2, by decide⟩ k))) col))
    (hG3 : ∀ (k col : Fin 128), R3 (ix3 ⟨1, by decide⟩ k col) = pk (ix2 (Cert.Lookup.pkRow (I (ix2 ⟨3, by decide⟩ k))) col)) :
    ∀ j : S512x32.Idx, resRows 3 I R3 (resRows 2 I R2 (resRows 1 I R1 (resRows 0 I R0 Rs0 128) 128) 128) 128 j
      = Cert.Lookup.unpacked ids pk (ix2 (tileId L (j 0).val (idx2_lt0 j)) ⟨(j 1).val, idx2_lt1 j⟩) := by
  intro j
  have hj0 : (j 0).val < 512 := idx2_lt0 j
  by_cases h3 : 128 * 3 ≤ (j 0).val ∧ (j 0).val < 128 * 3 + 128
  · rw [resRows_apply, if_pos h3]
    exact chunk_rows L I ids pk hI 3 (by decide) R3 hG3 j h3
  rw [resRows_apply, if_neg h3]
  by_cases h2 : 128 * 2 ≤ (j 0).val ∧ (j 0).val < 128 * 2 + 128
  · rw [resRows_apply, if_pos h2]
    exact chunk_rows L I ids pk hI 2 (by decide) R2 hG2 j h2
  rw [resRows_apply, if_neg h2]
  by_cases h1 : 128 * 1 ≤ (j 0).val ∧ (j 0).val < 128 * 1 + 128
  · rw [resRows_apply, if_pos h1]
    exact chunk_rows L I ids pk hI 1 (by decide) R1 hG1 j h1
  rw [resRows_apply, if_neg h1]
  have h0 : 128 * 0 ≤ (j 0).val ∧ (j 0).val < 128 * 0 + 128 := by omega
  rw [resRows_apply, if_pos h0]
  exact chunk_rows L I ids pk hI 0 (by decide) R0 hG0 j h0

end Cert.Kernel.Lk

end
-- ==== Proof.TileBOut.lean ====
/-
  The copy out. The subcore's result scratch, written whole onto its block of 512 result rows, makes row n of the
  block the scratch's row n: if the scratch holds the lookup of the subcore's class ids, the block holds the lookup.
-/
import proofs.«204365_g77171972375186_cont_9to1c4b_67_15_alg».proof.Proof.TileBMath

noncomputable section

namespace Cert.Kernel.Lk

open Cert.Kernel Cert.Kernel.Gen

open Idealize.ShloMosaic Idealize.ShloMosaic.ValueIdx
open Idealize.ShloMosaic.SparseCore (S V T)

variable {F : FTy → Type}

theorem out_block (d : Dev nD) (L : grid1.Coords) (ids : Cert.Lookup.SIds.Idx → BitVec 32) (pk : Cert.Lookup.SPk.Idx → Elt F .f32)
    (w : S512x32.Idx → Elt F .f32) (out0 : Buf (Elt F) (outLoc d))
    (hw : ∀ j : S512x32.Idx, w j = Cert.Lookup.unpacked ids pk (ix2 (tileId L (j 0).val (idx2_lt0 j)) ⟨(j 1).val, idx2_lt1 j⟩)) :
    ∀ i ∈ (oRowK L).view.set, ((oRowK L).view.writes (Elt F) out0 [⟨Rect.whole S512x32, w⟩]) i = Cert.Lookup.unpacked ids pk i := by
  intro i hi
  obtain ⟨x, -, rfl⟩ := Finset.mem_map.mp hi
  have he : (Rect.whole S512x32).emb x = x := funext fun a => Fin.ext (by
    show 0 + 1 * (x a).val = (x a).val; omega)
  have h1 := View.read_writes_cons_emb (v := (oRowK L).view) (f := out0) (Rect.whole S512x32) w [] x
  rw [he] at h1
  have h2 : (oRowK L).view.read (Elt F) ((oRowK L).view.writes (Elt F) out0 [⟨Rect.whole S512x32, w⟩]) x
      = ((oRowK L).view.writes (Elt F) out0 [⟨Rect.whole S512x32, w⟩]) ((oRowK L).view.emb x) :=
    (View.read_apply _ _).trans (cast_eq _ _)
  rw [h2] at h1
  rw [h1, hw]
  refine congrArg (Cert.Lookup.unpacked ids pk) (funext fun a => Fin.ext ?_)
  have ho := k1_off262_eq L
  match a with
  | ⟨0, _⟩ =>
    show 1024 * (L 1).val + 512 * (L 0).val + (x 0).val = k1_off262 L 0 + 1 * (x 0).val
    rw [ho]; show _ = (1024 * (L 1).val + 512 * (L 0).val) + 1 * (x 0).val; omega
  | ⟨1, _⟩ =>
    show (x 1).val = k1_off262 L 1 + 1 * (x 1).val
    rw [ho]; show _ = 0 + 1 * (x 1).val; omega

end Cert.Kernel.Lk

end
-- ==== Proof.TileBGather.lean ====
/-
  What an indirect row gather leaves in a half of the row buffer. The gather of chunk c copies, for k = 0 … 127, the
  packed row whose number is word k of row c of the row-index scratch into row k of the half: entry (k, l) of the half
  is entry (that row, l) of the packed array.
-/
import proofs.«204365_g77171972375186_cont_9to1c4b_67_15_alg».proof.Proof.TileBMath

noncomputable section

namespace Cert.Kernel.Lk

open Cert.Kernel Cert.Kernel.Gen

open Idealize.ShloMosaic Idealize.ShloMosaic.ValueIdx
open Idealize.ShloMosaic.SparseCore (S V T)

variable {F : FTy → Type}

/-- A [128, 128] block re-indexed as a [1, 128, 128] slab: entry (0, k, l) of the slab is entry (k, l) of the block. -/
theorem slab_of_block (h : S128x128.numel = (⟨3, S1x128x128.size⟩ : Shape).numel) (y : S128x128.Idx) :
    Shape.reshapeEquiv h y = Fin.cons ⟨0, Nat.one_pos⟩ y :=
  Shape.reshapeEquiv_cons_one (n := 2) (d := ![128, 128]) h y

/-- A length-128 vector re-indexed as a [1, 128] row. -/
theorem row_of_vec' (h : S128.numel = (⟨2, S1x128.size⟩ : Shape).numel) (z : S128.Idx) :
    Shape.reshapeEquiv h z = Fin.cons ⟨0, Nat.one_pos⟩ z :=
  Shape.reshapeEquiv_cons_one (n := 1) (d := ![128]) h z

/-- The row the list names for entry `q`: word `q` of row `c` of the row-index scratch, read unsigned. -/
theorem rows_val (c : ℕ) (hc : c < 4) (i2 : ∀ a, (![c, 0] : Fin 2 → ℕ) a + S1x128.size a ≤ S4x128.size a)
    (R : S4x128.Idx → Elt F .i32) (hn : S128.numel = S128x128.size gathers_S250000x128_S128x128.axis')
    (hin : ∀ x, ((((s1V).slice (Rect.unit (s := S4x128) ![c, 0] S1x128.size i2) (fun _ => rfl)).squeeze S128 squeezes_S1x128_S128).view.read (Elt F) R x).toNat
      < S250000x128.size gathers_S250000x128_S128x128.axis)
    (q : Fin (S128x128.size gathers_S250000x128_S128x128.axis')) :
    (SparseCore.rows (View.read (Elt F) (((s1V).slice (Rect.unit (s := S4x128) ![c, 0] S1x128.size i2) (fun _ => rfl)).squeeze S128 squeezes_S1x128_S128).view R) hn hin q).val
      = (R (ix2 ⟨c, hc⟩ ⟨q.val, q.isLt⟩)).toNat := by
  simp only [SparseCore.rows]
  rw [View.read_apply, cast_eq]
  refine congrArg (fun i => (R i).toNat) ?_
  show ((View.whole (cc1_scratch1 : Ref sig .scVector)).slice (Rect.unit (s := S4x128) ![c, 0] S1x128.size i2)).emb
    (Shape.reshapeEquiv squeezes_S1x128_S128.numel_eq (S128.rowMajor.symm (q.cast hn.symm))) = _
  rw [row_of_vec']
  funext b
  refine Fin.ext ?_
  match b with
  | ⟨0, _⟩ => show c + 1 * 0 = c; omega
  | ⟨1, _⟩ =>
    show 0 + 1 * ((S128.rowMajor.symm (q.cast hn.symm)) 0).val = q.val
    have e := congrArg Fin.val ((S128.rowMajor).apply_symm_apply (q.cast hn.symm))
    rw [Shape.rowMajor_val_one] at e
    rw [Nat.zero_add, Nat.one_mul]
    exact e

theorem gathered_half (hh : ℕ) (hh2 : hh < 2) (c : ℕ) (hc : c < 4)
    (i3 : ∀ a, (![hh, 0, 0] : Fin 3 → ℕ) a + S1x128x128.size a ≤ S2x128x128.size a)
    (i2 : ∀ a, (![c, 0] : Fin 2 → ℕ) a + S1x128.size a ≤ S4x128.size a)
    (R : S4x128.Idx → Elt F .i32) (pk : S250000x128.Idx → Elt F .f32)
    (junk : S2x128x128.Idx → Elt F .f32)
    (hn : S128.numel = S128x128.size gathers_S250000x128_S128x128.axis')
    (hin : ∀ x, ((((s1V).slice (Rect.unit (s := S4x128) ![c, 0] S1x128.size i2) (fun _ => rfl)).squeeze S128 squeezes_S1x128_S128).view.read (Elt F) R x).toNat
      < S250000x128.size gathers_S250000x128_S128x128.axis) (k col : Fin 128)
    (w : BitVec 32) (hw : R (ix2 ⟨c, hc⟩ k) = w >>> 2) (hwr : w.toNat ≤ 999999) :
    ((((s2V).slice (Rect.unit (s := S2x128x128) ![hh, 0, 0] S1x128x128.size i3) (fun _ => rfl)).squeeze S128x128 squeezes_S1x128x128_S128x128).view.writes (Elt F) junk
        [⟨Rect.whole S128x128, SparseCore.gatherPayload gathers_S250000x128_S128x128
          (View.read (Elt F) ((pV).slice (Rect.unit (s := S250000x128) ![0, 0] S250000x128.size inb_S250000x128_S250000x128_0_0) (fun _ => rfl)).view pk)
          (SparseCore.rows (View.read (Elt F) (((s1V).slice (Rect.unit (s := S4x128) ![c, 0] S1x128.size i2) (fun _ => rfl)).squeeze S128 squeezes_S1x128_S128).view R) hn hin)⟩])
      (ix3 ⟨hh, hh2⟩ k col)
      = pk (ix2 (Cert.Lookup.pkRow w) col) := by
  -- the half's entry (k, l) sits at entry (hh, k, l) of the row buffer
  have hemb : (((s2V).slice (Rect.unit (s := S2x128x128) ![hh, 0, 0] S1x128x128.size i3) (fun _ => rfl)).squeeze S128x128 squeezes_S1x128x128_S128x128).view.emb (ix2 k col)
      = ix3 ⟨hh, hh2⟩ k col := by
    show ((View.whole (cc1_scratch2 : Ref sig .scVector)).slice (Rect.unit (s := S2x128x128) ![hh, 0, 0] S1x128x128.size i3)).emb
        (Shape.reshapeEquiv squeezes_S1x128x128_S128x128.numel_eq (ix2 k col)) = _
    rw [slab_of_block]
    funext a
    refine Fin.ext ?_
    match a with
    | ⟨0, _⟩ => show hh + 1 * 0 = hh; omega
    | ⟨1, _⟩ => show 0 + 1 * k.val = k.val; omega
    | ⟨2, _⟩ => show 0 + 1 * col.val = col.val; omega
  have he : (Rect.whole S128x128).emb (ix2 k col) = ix2 k col := funext fun a => Fin.ext (by
    show 0 + 1 * ((ix2 k col : S128x128.Idx) a).val = _; omega)
  have h1 := View.read_writes_cons_emb
    (v := (((s2V).slice (Rect.unit (s := S2x128x128) ![hh, 0, 0] S1x128x128.size i3) (fun _ => rfl)).squeeze S128x128 squeezes_S1x128x128_S128x128).view)
    (f := junk) (Rect.whole S128x128)
    (SparseCore.gatherPayload gathers_S250000x128_S128x128
      (View.read (Elt F) ((pV).slice (Rect.unit (s := S250000x128) ![0, 0] S250000x128.size inb_S250000x128_S250000x128_0_0) (fun _ => rfl)).view pk)
      (SparseCore.rows (View.read (Elt F) (((s1V).slice (Rect.unit (s := S4x128) ![c, 0] S1x128.size i2) (fun _ => rfl)).squeeze S128 squeezes_S1x128_S128).view R) hn hin))
    [] (ix2 k col)
  rw [he] at h1
  rw [← hemb]
  refine ((View.read_apply _ _).trans (cast_eq _ _)).symm.trans (h1.trans ?_)
  -- the payload at (k, l): the packed array at the row the list names for k, lane l
  unfold SparseCore.gatherPayload
  refine ((View.read_apply _ _).trans (cast_eq _ _)).trans ?_
  refine congrArg pk (funext fun a => Fin.ext ?_)
  match a with
  | ⟨0, _⟩ =>
    show 0 + 1 * ((gathers_S250000x128_S128x128).idx _ (ix2 k col) ⟨0, _⟩).val = (Cert.Lookup.pkRow w).val
    have hax := Shape.Gathers.idx_axis gathers_S250000x128_S128x128
      (SparseCore.rows (View.read (Elt F) (((s1V).slice (Rect.unit (s := S4x128) ![c, 0] S1x128.size i2) (fun _ => rfl)).squeeze S128 squeezes_S1x128_S128).view R) hn hin) (ix2 k col)
    have hax' := congrArg Fin.val hax
    rw [Nat.zero_add, Nat.one_mul]
    refine hax'.trans ((rows_val c hc i2 R hn hin _).trans ?_)
    show (R (ix2 ⟨c, hc⟩ k)).toNat = _
    rw [hw, shr_toNat]
    simp only [Cert.Lookup.pkRow]
    omega
  | ⟨1, _⟩ =>
    show 0 + 1 * ((gathers_S250000x128_S128x128).idx _ (ix2 k col) ⟨1, _⟩).val = col.val
    rw [Nat.zero_add, Nat.one_mul]
    exact Shape.Gathers.idx_of_ne gathers_S250000x128_S128x128 _ (ix2 k col) ⟨1, by decide⟩ (by decide)

end Cert.Kernel.Lk

end
-- ==== Proof.LoopB1.lean ====
/-
  The four counted loops of the gather kernel's tile body, part 3: loop 1 — its invariant over the trip count and
  one trip's run from the invariant to the invariant.
-/
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.LoopBPure

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 1: chunk 0, read from half 0 of the row buffer -/

/-- Before trip `g` of loop 1: the index scratch whole at `I`, half 0 of the row buffer by its own elements at `Rw`,
    and the result scratch with the first `16 g` rows of chunk 0 done over `Rs`. -/
def inv1 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsA).view.loc (V d (cV L) (jV L)) ↦[(rowsA).view.set]{fullShare} Rw)
    ∗ ((s3V).view.loc (V d (cV L) (jV L)) ↦{fullShare} resRows 0 I Rw Rs (16 * g)))

set_option maxHeartbeats 8000000 in
/-- One trip of loop 1 from the invariant to the invariant at the next trip: the sixteen class ids are loaded, each
    id's side condition holds of any word, each of its two windows lies in the half held, and the thirty-two stores
    are the sixteen rows `writes_lane` adds. -/
theorem trip1 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t1_loop.trips) (acc : Unit) :
    inv1 d L I Rw Rs k.val acc
      ⊢ wp frame (wpE (defs₀ (F := F)) 𝒱₀ (V d (cV L) (jV L)) none) Set.univ
          (k1_t1_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv1 d L I Rw Rs (k.val + 1)) := by
  unfold inv1 k1_t1_body
  have e3 : ∀ v h, ((s2V).access (Rect.unit (s := S2x128x128) (k1_off3 k v) S1x1x16.size h)).set ⊆ (rowsA).view.set := fun v h => rowsA_incl _ h rfl
  have e5 : ∀ v h, ((s2V).access (Rect.unit (s := S2x128x128) (k1_off5 k v) S1x1x16.size h)).set ⊆ (rowsA).view.set := fun v h => rowsA_incl _ h rfl
  have e7 : ∀ v h, ((s2V).access (Rect.unit (s := S2x128x128) (k1_off7 k v) S1x1x16.size h)).set ⊆ (rowsA).view.set := fun v h => rowsA_incl _ h rfl
  have e9 : ∀ v h, ((s2V).access (Rect.unit (s := S2x128x128) (k1_off9 k v) S1x1x16.size h)).set ⊆ (rowsA).view.set := fun v h => rowsA_incl _ h rfl
  have e11 : ∀ v h, ((s2V).access (Rect.unit (s := S2x128x128) (k1_off11 k v) S1x1x16.size h)).set ⊆ (rowsA).view.set := fun v h => rowsA_incl _ h rfl
  have e13 : ∀ v h, ((s2V).access (Rect.unit (s := S2x128x128) (k1_off13 k v) S1x1x16.size h)).set ⊆ (rowsA).view.set := fun v h => rowsA_incl _ h rfl
  have e15 : ∀ v h, ((s2V).access (Rect.unit (s := S2x128x128) (k1_off15 k v) S1x1x16.size h)).set ⊆ (rowsA).view.set := fun v h => rowsA_incl _ h rfl
  have e17 : ∀ v h, ((s2V).access (Rect.unit (s := S2x128x128) (k1_off17 k v) S1x1x16.size h)).set ⊆ (rowsA).view.set := fun v h => rowsA_incl _ h rfl
  have e19 : ∀ v h, ((s2V).access (Rect.unit (s := S2x128x128) (k1_off19 k v) S1x1x16.size h)).set ⊆ (rowsA).view.set := fun v h => rowsA_incl _ h rfl
  have e21 : ∀ v h, ((s2V).access (Rect.unit (s := S2x128x128) (k1_off21 k v) S1x1x16.size h)).set ⊆ (rowsA).view.set := fun v h => rowsA_incl _ h rfl
  have e23 : ∀ v h, ((s2V).access (Rect.unit (s := S2x128x128) (k1_off23 k v) S1x1x16.size h)).set ⊆ (rowsA).view.set := fun v h => rowsA_incl _ h rfl
  have e25 : ∀ v h, ((s2V).access (Rect.unit (s := S2x128x128) (k1_off25 k v) S1x1x16.size h)).set ⊆ (rowsA).view.set := fun v h => rowsA_incl _ h rfl
  have e27 : ∀ v h, ((s2V).access (Rect.unit (s := S2x128x128) (k1_off27 k v) S1x1x16.size h)).set ⊆ (rowsA).view.set := fun v h => rowsA_incl _ h rfl
  have e29 : ∀ v h, ((s2V).access (Rect.unit (s := S2x128x128) (k1_off29 k v) S1x1x16.size h)).set ⊆ (rowsA).view.set := fun v h => rowsA_incl _ h rfl
  have e31 : ∀ v h, ((s2V).access (Rect.unit (s := S2x128x128) (k1_off31 k v) S1x1x16.size h)).set ⊆ (rowsA).view.set := fun v h => rowsA_incl _ h rfl
  have e33 : ∀ v h, ((s2V).access (Rect.unit (s := S2x128x128) (k1_off33 k v) S1x1x16.size h)).set ⊆ (rowsA).view.set := fun v h => rowsA_incl _ h rfl
  have e35 : ∀ v h, ((s2V).access (Rect.unit (s := S2x128x128) (k1_off35 k v) S1x1x16.size h)).set ⊆ (rowsA).view.set := fun v h => rowsA_incl _ h rfl
  have e37 : ∀ v h, ((s2V).access (Rect.unit (s := S2x128x128) (k1_off37 k v) S1x1x16.size h)).set ⊆ (rowsA).view.set := fun v h => rowsA_incl _ h rfl
  have e39 : ∀ v h, ((s2V).access (Rect.unit (s := S2x128x128) (k1_off39 k v) S1x1x16.size h)).set ⊆ (rowsA).view.set := fun v h => rowsA_incl _ h rfl
  have e41 : ∀ v h, ((s2V).access (Rect.unit (s := S2x128x128) (k1_off41 k v) S1x1x16.size h)).set ⊆ (rowsA).view.set := fun v h => rowsA_incl _ h rfl
  have e43 : ∀ v h, ((s2V).access (Rect.unit (s := S2x128x128) (k1_off43 k v) S1x1x16.size h)).set ⊆ (rowsA).view.set := fun v h => rowsA_incl _ h rfl
  have e45 : ∀ v h, ((s2V).access (Rect.unit (s := S2x128x128) (k1_off45 k v) S1x1x16.size h)).set ⊆ (rowsA).view.set := fun v h => rowsA_incl _ h rfl
  have e47 : ∀ v h, ((s2V).access (Rect.unit (s := S2x128x128) (k1_off47 k v) S1x1x16.size h)).set ⊆ (rowsA).view.set := fun v h => rowsA_incl _ h rfl
  have e49 : ∀ v h, ((s2V).access (Rect.unit (s := S2x128x128) (k1_off49 k v) S1x1x16.size h)).set ⊆ (rowsA).view.set := fun v h => rowsA_incl _ h rfl
  have e51 : ∀ v h, ((s2V).access (Rect.unit (s := S2x128x128) (k1_off51 k v) S1x1x16.size h)).set ⊆ (rowsA).view.set := fun v h => rowsA_incl _ h rfl
  have e53 : ∀ v h, ((s2V).access (Rect.unit (s := S2x128x128) (k1_off53 k v) S1x1x16.size h)).set ⊆ (rowsA).view.set := fun v h => rowsA_incl _ h rfl
  have e55 : ∀ v h, ((s2V).access (Rect.unit (s := S2x128x128) (k1_off55 k v) S1x1x16.size h)).set ⊆ (rowsA).view.set := fun v h => rowsA_incl _ h rfl
  have e57 : ∀ v h, ((s2V).access (Rect.unit (s := S2x128x128) (k1_off57 k v) S1x1x16.size h)).set ⊆ (rowsA).view.set := fun v h => rowsA_incl _ h rfl
  have e59 : ∀ v h, ((s2V).access (Rect.unit (s := S2x128x128) (k1_off59 k v) S1x1x16.size h)).set ⊆ (rowsA).view.set := fun v h => rowsA_incl _ h rfl
  have e61 : ∀ v h, ((s2V).access (Rect.unit (s := S2x128x128) (k1_off61 k v) S1x1x16.size h)).set ⊆ (rowsA).view.set := fun v h => rowsA_incl _ h rfl
  have e63 : ∀ v h, ((s2V).access (Rect.unit (s := S2x128x128) (k1_off63 k v) S1x1x16.size h)).set ⊆ (rowsA).view.set := fun v h => rowsA_incl _ h rfl
  have e65 : ∀ v h, ((s2V).access (Rect.unit (s := S2x128x128) (k1_off65 k v) S1x1x16.size h)).set ⊆ (rowsA).view.set := fun v h => rowsA_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 0 I Rw Rs _ (n := 16 * k.val + 15) (k1_off66_eq k) (k1_off64_eq k) (by omega) (by omega)
    (pay_lo I Rw 0 (16 * k.val + 15) _ (id_of I 0 (16 * k.val + 15) (by decide) (k1_off2_eq k) (by omega)) rfl (row_val k.val k.isLt 15#32 (by decide)) (lane_val _))
    (pay_hi I Rw 0 (16 * k.val + 15) _ (id_of I 0 (16 * k.val + 15) (by decide) (k1_off2_eq k) (by omega)) rfl (row_val k.val k.isLt 15#32 (by decide)) (lane16_val _)) ?_
  refine writes_lane 0 I Rw Rs _ (n := 16 * k.val + 14) (k1_off62_eq k) (k1_off60_eq k) (by omega) (by omega)
    (pay_lo I Rw 0 (16 * k.val + 14) _ (id_of I 0 (16 * k.val + 14) (by decide) (k1_off2_eq k) (by omega)) rfl (row_val k.val k.isLt 14#32 (by decide)) (lane_val _))
    (pay_hi I Rw 0 (16 * k.val + 14) _ (id_of I 0 (16 * k.val + 14) (by decide) (k1_off2_eq k) (by omega)) rfl (row_val k.val k.isLt 14#32 (by decide)) (lane16_val _)) ?_
  refine writes_lane 0 I Rw Rs _ (n := 16 * k.val + 13) (k1_off58_eq k) (k1_off56_eq k) (by omega) (by omega)
    (pay_lo I Rw 0 (16 * k.val + 13) _ (id_of I 0 (16 * k.val + 13) (by decide) (k1_off2_eq k) (by omega)) rfl (row_val k.val k.isLt 13#32 (by decide)) (lane_val _))
    (pay_hi I Rw 0 (16 * k.val + 13) _ (id_of I 0 (16 * k.val + 13) (by decide) (k1_off2_eq k) (by omega)) rfl (row_val k.val k.isLt 13#32 (by decide)) (lane16_val _)) ?_
  refine writes_lane 0 I Rw Rs _ (n := 16 * k.val + 12) (k1_off54_eq k) (k1_off52_eq k) (by omega) (by omega)
    (pay_lo I Rw 0 (16 * k.val + 12) _ (id_of I 0 (16 * k.val + 12) (by decide) (k1_off2_eq k) (by omega)) rfl (row_val k.val k.isLt 12#32 (by decide)) (lane_val _))
    (pay_hi I Rw 0 (16 * k.val + 12) _ (id_of I 0 (16 * k.val + 12) (by decide) (k1_off2_eq k) (by omega)) rfl (row_val k.val k.isLt 12#32 (by decide)) (lane16_val _)) ?_
  refine writes_lane 0 I Rw Rs _ (n := 16 * k.val + 11) (k1_off50_eq k) (k1_off48_eq k) (by omega) (by omega)
    (pay_lo I Rw 0 (16 * k.val + 11) _ (id_of I 0 (16 * k.val + 11) (by decide) (k1_off2_eq k) (by omega)) rfl (row_val k.val k.isLt 11#32 (by decide)) (lane_val _))
    (pay_hi I Rw 0 (16 * k.val + 11) _ (id_of I 0 (16 * k.val + 11) (by decide) (k1_off2_eq k) (by omega)) rfl (row_val k.val k.isLt 11#32 (by decide)) (lane16_val _)) ?_
  refine writes_lane 0 I Rw Rs _ (n := 16 * k.val + 10) (k1_off46_eq k) (k1_off44_eq k) (by omega) (by omega)
    (pay_lo I Rw 0 (16 * k.val + 10) _ (id_of I 0 (16 * k.val + 10) (by decide) (k1_off2_eq k) (by omega)) rfl (row_val k.val k.isLt 10#32 (by decide)) (lane_val _))
    (pay_hi I Rw 0 (16 * k.val + 10) _ (id_of I 0 (16 * k.val + 10) (by decide) (k1_off2_eq k) (by omega)) rfl (row_val k.val k.isLt 10#32 (by decide)) (lane16_val _)) ?_
  refine writes_lane 0 I Rw Rs _ (n := 16 * k.val + 9) (k1_off42_eq k) (k1_off40_eq k) (by omega) (by omega)
    (pay_lo I Rw 0 (16 * k.val + 9) _ (id_of I 0 (16 * k.val + 9) (by decide) (k1_off2_eq k) (by omega)) rfl (row_val k.val k.isLt 9#32 (by decide)) (lane_val _))
    (pay_hi I Rw 0 (16 * k.val + 9) _ (id_of I 0 (16 * k.val + 9) (by decide) (k1_off2_eq k) (by omega)) rfl (row_val k.val k.isLt 9#32 (by decide)) (lane16_val _)) ?_
  refine writes_lane 0 I Rw Rs _ (n := 16 * k.val + 8) (k1_off38_eq k) (k1_off36_eq k) (by omega) (by omega)
    (pay_lo I Rw 0 (16 * k.val + 8) _ (id_of I 0 (16 * k.val + 8) (by decide) (k1_off2_eq k) (by omega)) rfl (row_val k.val k.isLt 8#32 (by decide)) (lane_val _))
    (pay_hi I Rw 0 (16 * k.val + 8) _ (id_of I 0 (16 * k.val + 8) (by decide) (k1_off2_eq k) (by omega)) rfl (row_val k.val k.isLt 8#32 (by decide)) (lane16_val _)) ?_
  refine writes_lane 0 I Rw Rs _ (n := 16 * k.val + 7) (k1_off34_eq k) (k1_off32_eq k) (by omega) (by omega)
    (pay_lo I Rw 0 (16 * k.val + 7) _ (id_of I 0 (16 * k.val + 7) (by decide) (k1_off2_eq k) (by omega)) rfl (row_val k.val k.isLt 7#32 (by decide)) (lane_val _))
    (pay_hi I Rw 0 (16 * k.val + 7) _ (id_of I 0 (16 * k.val + 7) (by decide) (k1_off2_eq k) (by omega)) rfl (row_val k.val k.isLt 7#32 (by decide)) (lane16_val _)) ?_
  refine writes_lane 0 I Rw Rs _ (n := 16 * k.val + 6) (k1_off30_eq k) (k1_off28_eq k) (by omega) (by omega)
    (pay_lo I Rw 0 (16 * k.val + 6) _ (id_of I 0 (16 * k.val + 6) (by decide) (k1_off2_eq k) (by omega)) rfl (row_val k.val k.isLt 6#32 (by decide)) (lane_val _))
    (pay_hi I Rw 0 (16 * k.val + 6) _ (id_of I 0 (16 * k.val + 6) (by decide) (k1_off2_eq k) (by omega)) rfl (row_val k.val k.isLt 6#32 (by decide)) (lane16_val _)) ?_
  refine writes_lane 0 I Rw Rs _ (n := 16 * k.val + 5) (k1_off26_eq k) (k1_off24_eq k) (by omega) (by omega)
    (pay_lo I Rw 0 (16 * k.val + 5) _ (id_of I 0 (16 * k.val + 5) (by decide) (k1_off2_eq k) (by omega)) rfl (row_val k.val k.isLt 5#32 (by decide)) (lane_val _))
    (pay_hi I Rw 0 (16 * k.val + 5) _ (id_of I 0 (16 * k.val + 5) (by decide) (k1_off2_eq k) (by omega)) rfl (row_val k.val k.isLt 5#32 (by decide)) (lane16_val _)) ?_
  refine writes_lane 0 I Rw Rs _ (n := 16 * k.val + 4) (k1_off22_eq k) (k1_off20_eq k) (by omega) (by omega)
    (pay_lo I Rw 0 (16 * k.val + 4) _ (id_of I 0 (16 * k.val + 4) (by decide) (k1_off2_eq k) (by omega)) rfl (row_val k.val k.isLt 4#32 (by decide)) (lane_val _))
    (pay_hi I Rw 0 (16 * k.val + 4) _ (id_of I 0 (16 * k.val + 4) (by decide) (k1_off2_eq k) (by omega)) rfl (row_val k.val k.isLt 4#32 (by decide)) (lane16_val _)) ?_
  refine writes_lane 0 I Rw Rs _ (n := 16 * k.val + 3) (k1_off18_eq k) (k1_off16_eq k) (by omega) (by omega)
    (pay_lo I Rw 0 (16 * k.val + 3) _ (id_of I 0 (16 * k.val + 3) (by decide) (k1_off2_eq k) (by omega)) rfl (row_val k.val k.isLt 3#32 (by decide)) (lane_val _))
    (pay_hi I Rw 0 (16 * k.val + 3) _ (id_of I 0 (16 * k.val + 3) (by decide) (k1_off2_eq k) (by omega)) rfl (row_val k.val k.isLt 3#32 (by decide)) (lane16_val _)) ?_
  refine writes_lane 0 I Rw Rs _ (n := 16 * k.val + 2) (k1_off14_eq k) (k1_off12_eq k) (by omega) (by omega)
    (pay_lo I Rw 0 (16 * k.val + 2) _ (id_of I 0 (16 * k.val + 2) (by decide) (k1_off2_eq k) (by omega)) rfl (row_val k.val k.isLt 2#32 (by decide)) (lane_val _))
    (pay_hi I Rw 0 (16 * k.val + 2) _ (id_of I 0 (16 * k.val + 2) (by decide) (k1_off2_eq k) (by omega)) rfl (row_val k.val k.isLt 2#32 (by decide)) (lane16_val _)) ?_
  refine writes_lane 0 I Rw Rs _ (n := 16 * k.val + 1) (k1_off10_eq k) (k1_off8_eq k) (by omega) (by omega)
    (pay_lo I Rw 0 (16 * k.val + 1) _ (id_of I 0 (16 * k.val + 1) (by decide) (k1_off2_eq k) (by omega)) rfl (row_val k.val k.isLt 1#32 (by decide)) (lane_val _))
    (pay_hi I Rw 0 (16 * k.val + 1) _ (id_of I 0 (16 * k.val + 1) (by decide) (k1_off2_eq k) (by omega)) rfl (row_val k.val k.isLt 1#32 (by decide)) (lane16_val _)) ?_
  refine writes_lane 0 I Rw Rs _ (n := 16 * k.val) (k1_off6_eq k) (k1_off4_eq k) (by omega) (by omega)
    (pay_lo I Rw 0 (16 * k.val) _ (id_of I 0 (16 * k.val) (by decide) (k1_off2_eq k) (by omega)) rfl (row_val k.val k.isLt 0#32 (by decide)) (lane_val _))
    (pay_hi I Rw 0 (16 * k.val) _ (id_of I 0 (16 * k.val) (by decide) (k1_off2_eq k) (by omega)) rfl (row_val k.val k.isLt 0#32 (by decide)) (lane16_val _)) ?_
  rfl

end Cert.Kernel.Lk

end
-- ==== Proof.LoopB2.lean ====
/-
  The four counted loops of the gather kernel's tile body, part 4: loop 2 — its invariant over the trip count and
  one trip's run from the invariant to the invariant.
-/
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.LoopBPure

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 2: chunk 1, read from half 1 of the row buffer -/

/-- Before trip `g` of loop 2: the index scratch whole at `I`, half 1 of the row buffer by its own elements at `Rw`,
    and the result scratch with the first `16 g` rows of chunk 1 done over `Rs`. -/
def inv2 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsB).view.loc (V d (cV L) (jV L)) ↦[(rowsB).view.set]{fullShare} Rw)
    ∗ ((s3V).view.loc (V d (cV L) (jV L)) ↦{fullShare} resRows 1 I Rw Rs (16 * g)))

set_option maxHeartbeats 8000000 in
/-- One trip of loop 2 from the invariant to the invariant at the next trip: the sixteen class ids are loaded, each
    id's side condition holds of any word, each of its two windows lies in the half held, and the thirty-two stores
    are the sixteen rows `writes_lane` adds. -/
theorem trip2 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t2_loop.trips) (acc : Unit) :
    inv2 d L I Rw Rs k.val acc
      ⊢ wp frame (wpE (defs₀ (F := F)) 𝒱₀ (V d (cV L) (jV L)) none) Set.univ
          (k1_t2_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv2 d L I Rw Rs (k.val + 1)) := by
  unfold inv2 k1_t2_body
  have e68 : ∀ v h, ((s2V).access (Rect.unit (s := S2x128x128) (k1_off68 k v) S1x1x16.size h)).set ⊆ (rowsB).view.set := fun v h => rowsB_incl _ h rfl
  have e70 : ∀ v h, ((s2V).access (Rect.unit (s := S2x128x128) (k1_off70 k v) S1x1x16.size h)).set ⊆ (rowsB).view.set := fun v h => rowsB_incl _ h rfl
  have e72 : ∀ v h, ((s2V).access (Rect.unit (s := S2x128x128) (k1_off72 k v) S1x1x16.size h)).set ⊆ (rowsB).view.set := fun v h => rowsB_incl _ h rfl
  have e74 : ∀ v h, ((s2V).access (Rect.unit (s := S2x128x128) (k1_off74 k v) S1x1x16.size h)).set ⊆ (rowsB).view.set := fun v h => rowsB_incl _ h rfl
  have e76 : ∀ v h, ((s2V).access (Rect.unit (s := S2x128x128) (k1_off76 k v) S1x1x16.size h)).set ⊆ (rowsB).view.set := fun v h => rowsB_incl _ h rfl
  have e78 : ∀ v h, ((s2V).access (Rect.unit (s := S2x128x128) (k1_off78 k v) S1x1x16.size h)).set ⊆ (rowsB).view.set := fun v h => rowsB_incl _ h rfl
  have e80 : ∀ v h, ((s2V).access (Rect.unit (s := S2x128x128) (k1_off80 k v) S1x1x16.size h)).set ⊆ (rowsB).view.set := fun v h => rowsB_incl _ h rfl
  have e82 : ∀ v h, ((s2V).access (Rect.unit (s := S2x128x128) (k1_off82 k v) S1x1x16.size h)).set ⊆ (rowsB).view.set := fun v h => rowsB_incl _ h rfl
  have e84 : ∀ v h, ((s2V).access (Rect.unit (s := S2x128x128) (k1_off84 k v) S1x1x16.size h)).set ⊆ (rowsB).view.set := fun v h => rowsB_incl _ h rfl
  have e86 : ∀ v h, ((s2V).access (Rect.unit (s := S2x128x128) (k1_off86 k v) S1x1x16.size h)).set ⊆ (rowsB).view.set := fun v h => rowsB_incl _ h rfl
  have e88 : ∀ v h, ((s2V).access (Rect.unit (s := S2x128x128) (k1_off88 k v) S1x1x16.size h)).set ⊆ (rowsB).view.set := fun v h => rowsB_incl _ h rfl
  have e90 : ∀ v h, ((s2V).access (Rect.unit (s := S2x128x128) (k1_off90 k v) S1x1x16.size h)).set ⊆ (rowsB).view.set := fun v h => rowsB_incl _ h rfl
  have e92 : ∀ v h, ((s2V).access (Rect.unit (s := S2x128x128) (k1_off92 k v) S1x1x16.size h)).set ⊆ (rowsB).view.set := fun v h => rowsB_incl _ h rfl
  have e94 : ∀ v h, ((s2V).access (Rect.unit (s := S2x128x128) (k1_off94 k v) S1x1x16.size h)).set ⊆ (rowsB).view.set := fun v h => rowsB_incl _ h rfl
  have e96 : ∀ v h, ((s2V).access (Rect.unit (s := S2x128x128) (k1_off96 k v) S1x1x16.size h)).set ⊆ (rowsB).view.set := fun v h => rowsB_incl _ h rfl
  have e98 : ∀ v h, ((s2V).access (Rect.unit (s := S2x128x128) (k1_off98 k v) S1x1x16.size h)).set ⊆ (rowsB).view.set := fun v h => rowsB_incl _ h rfl
  have e100 : ∀ v h, ((s2V).access (Rect.unit (s := S2x128x128) (k1_off100 k v) S1x1x16.size h)).set ⊆ (rowsB).view.set := fun v h => rowsB_incl _ h rfl
  have e102 : ∀ v h, ((s2V).access (Rect.unit (s := S2x128x128) (k1_off102 k v) S1x1x16.size h)).set ⊆ (rowsB).view.set := fun v h => rowsB_incl _ h rfl
  have e104 : ∀ v h, ((s2V).access (Rect.unit (s := S2x128x128) (k1_off104 k v) S1x1x16.size h)).set ⊆ (rowsB).view.set := fun v h => rowsB_incl _ h rfl
  have e106 : ∀ v h, ((s2V).access (Rect.unit (s := S2x128x128) (k1_off106 k v) S1x1x16.size h)).set ⊆ (rowsB).view.set := fun v h => rowsB_incl _ h rfl
  have e108 : ∀ v h, ((s2V).access (Rect.unit (s := S2x128x128) (k1_off108 k v) S1x1x16.size h)).set ⊆ (rowsB).view.set := fun v h => rowsB_incl _ h rfl
  have e110 : ∀ v h, ((s2V).access (Rect.unit (s := S2x128x128) (k1_off110 k v) S1x1x16.size h)).set ⊆ (rowsB).view.set := fun v h => rowsB_incl _ h rfl
  have e112 : ∀ v h, ((s2V).access (Rect.unit (s := S2x128x128) (k1_off112 k v) S1x1x16.size h)).set ⊆ (rowsB).view.set := fun v h => rowsB_incl _ h rfl
  have e114 : ∀ v h, ((s2V).access (Rect.unit (s := S2x128x128) (k1_off114 k v) S1x1x16.size h)).set ⊆ (rowsB).view.set := fun v h => rowsB_incl _ h rfl
  have e116 : ∀ v h, ((s2V).access (Rect.unit (s := S2x128x128) (k1_off116 k v) S1x1x16.size h)).set ⊆ (rowsB).view.set := fun v h => rowsB_incl _ h rfl
  have e118 : ∀ v h, ((s2V).access (Rect.unit (s := S2x128x128) (k1_off118 k v) S1x1x16.size h)).set ⊆ (rowsB).view.set := fun v h => rowsB_incl _ h rfl
  have e120 : ∀ v h, ((s2V).access (Rect.unit (s := S2x128x128) (k1_off120 k v) S1x1x16.size h)).set ⊆ (rowsB).view.set := fun v h => rowsB_incl _ h rfl
  have e122 : ∀ v h, ((s2V).access (Rect.unit (s := S2x128x128) (k1_off122 k v) S1x1x16.size h)).set ⊆ (rowsB).view.set := fun v h => rowsB_incl _ h rfl
  have e124 : ∀ v h, ((s2V).access (Rect.unit (s := S2x128x128) (k1_off124 k v) S1x1x16.size h)).set ⊆ (rowsB).view.set := fun v h => rowsB_incl _ h rfl
  have e126 : ∀ v h, ((s2V).access (Rect.unit (s := S2x128x128) (k1_off126 k v) S1x1x16.size h)).set ⊆ (rowsB).view.set := fun v h => rowsB_incl _ h rfl
  have e128 : ∀ v h, ((s2V).access (Rect.unit (s := S2x128x128) (k1_off128 k v) S1x1x16.size h)).set ⊆ (rowsB).view.set := fun v h => rowsB_incl _ h rfl
  have e130 : ∀ v h, ((s2V).access (Rect.unit (s := S2x128x128) (k1_off130 k v) S1x1x16.size h)).set ⊆ (rowsB).view.set := fun v h => rowsB_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 1 I Rw Rs _ (n := 16 * k.val + 15) (k1_off131_eq k) (k1_off129_eq k) (by omega) (by omega)
    (pay_lo I Rw 1 (16 * k.val + 15) _ (id_of I 1 (16 * k.val + 15) (by decide) (k1_off67_eq k) (by omega)) rfl (row_val k.val k.isLt 15#32 (by decide)) (lane_val _))
    (pay_hi I Rw 1 (16 * k.val + 15) _ (id_of I 1 (16 * k.val + 15) (by decide) (k1_off67_eq k) (by omega)) rfl (row_val k.val k.isLt 15#32 (by decide)) (lane16_val _)) ?_
  refine writes_lane 1 I Rw Rs _ (n := 16 * k.val + 14) (k1_off127_eq k) (k1_off125_eq k) (by omega) (by omega)
    (pay_lo I Rw 1 (16 * k.val + 14) _ (id_of I 1 (16 * k.val + 14) (by decide) (k1_off67_eq k) (by omega)) rfl (row_val k.val k.isLt 14#32 (by decide)) (lane_val _))
    (pay_hi I Rw 1 (16 * k.val + 14) _ (id_of I 1 (16 * k.val + 14) (by decide) (k1_off67_eq k) (by omega)) rfl (row_val k.val k.isLt 14#32 (by decide)) (lane16_val _)) ?_
  refine writes_lane 1 I Rw Rs _ (n := 16 * k.val + 13) (k1_off123_eq k) (k1_off121_eq k) (by omega) (by omega)
    (pay_lo I Rw 1 (16 * k.val + 13) _ (id_of I 1 (16 * k.val + 13) (by decide) (k1_off67_eq k) (by omega)) rfl (row_val k.val k.isLt 13#32 (by decide)) (lane_val _))
    (pay_hi I Rw 1 (16 * k.val + 13) _ (id_of I 1 (16 * k.val + 13) (by decide) (k1_off67_eq k) (by omega)) rfl (row_val k.val k.isLt 13#32 (by decide)) (lane16_val _)) ?_
  refine writes_lane 1 I Rw Rs _ (n := 16 * k.val + 12) (k1_off119_eq k) (k1_off117_eq k) (by omega) (by omega)
    (pay_lo I Rw 1 (16 * k.val + 12) _ (id_of I 1 (16 * k.val + 12) (by decide) (k1_off67_eq k) (by omega)) rfl (row_val k.val k.isLt 12#32 (by decide)) (lane_val _))
    (pay_hi I Rw 1 (16 * k.val + 12) _ (id_of I 1 (16 * k.val + 12) (by decide) (k1_off67_eq k) (by omega)) rfl (row_val k.val k.isLt 12#32 (by decide)) (lane16_val _)) ?_
  refine writes_lane 1 I Rw Rs _ (n := 16 * k.val + 11) (k1_off115_eq k) (k1_off113_eq k) (by omega) (by omega)
    (pay_lo I Rw 1 (16 * k.val + 11) _ (id_of I 1 (16 * k.val + 11) (by decide) (k1_off67_eq k) (by omega)) rfl (row_val k.val k.isLt 11#32 (by decide)) (lane_val _))
    (pay_hi I Rw 1 (16 * k.val + 11) _ (id_of I 1 (16 * k.val + 11) (by decide) (k1_off67_eq k) (by omega)) rfl (row_val k.val k.isLt 11#32 (by decide)) (lane16_val _)) ?_
  refine writes_lane 1 I Rw Rs _ (n := 16 * k.val + 10) (k1_off111_eq k) (k1_off109_eq k) (by omega) (by omega)
    (pay_lo I Rw 1 (16 * k.val + 10) _ (id_of I 1 (16 * k.val + 10) (by decide) (k1_off67_eq k) (by omega)) rfl (row_val k.val k.isLt 10#32 (by decide)) (lane_val _))
    (pay_hi I Rw 1 (16 * k.val + 10) _ (id_of I 1 (16 * k.val + 10) (by decide) (k1_off67_eq k) (by omega)) rfl (row_val k.val k.isLt 10#32 (by decide)) (lane16_val _)) ?_
  refine writes_lane 1 I Rw Rs _ (n := 16 * k.val + 9) (k1_off107_eq k) (k1_off105_eq k) (by omega) (by omega)
    (pay_lo I Rw 1 (16 * k.val + 9) _ (id_of I 1 (16 * k.val + 9) (by decide) (k1_off67_eq k) (by omega)) rfl (row_val k.val k.isLt 9#32 (by decide)) (lane_val _))
    (pay_hi I Rw 1 (16 * k.val + 9) _ (id_of I 1 (16 * k.val + 9) (by decide) (k1_off67_eq k) (by omega)) rfl (row_val k.val k.isLt 9#32 (by decide)) (lane16_val _)) ?_
  refine writes_lane 1 I Rw Rs _ (n := 16 * k.val + 8) (k1_off103_eq k) (k1_off101_eq k) (by omega) (by omega)
    (pay_lo I Rw 1 (16 * k.val + 8) _ (id_of I 1 (16 * k.val + 8) (by decide) (k1_off67_eq k) (by omega)) rfl (row_val k.val k.isLt 8#32 (by decide)) (lane_val _))
    (pay_hi I Rw 1 (16 * k.val + 8) _ (id_of I 1 (16 * k.val + 8) (by decide) (k1_off67_eq k) (by omega)) rfl (row_val k.val k.isLt 8#32 (by decide)) (lane16_val _)) ?_
  refine writes_lane 1 I Rw Rs _ (n := 16 * k.val + 7) (k1_off99_eq k) (k1_off97_eq k) (by omega) (by omega)
    (pay_lo I Rw 1 (16 * k.val + 7) _ (id_of I 1 (16 * k.val + 7) (by decide) (k1_off67_eq k) (by omega)) rfl (row_val k.val k.isLt 7#32 (by decide)) (lane_val _))
    (pay_hi I Rw 1 (16 * k.val + 7) _ (id_of I 1 (16 * k.val + 7) (by decide) (k1_off67_eq k) (by omega)) rfl (row_val k.val k.isLt 7#32 (by decide)) (lane16_val _)) ?_
  refine writes_lane 1 I Rw Rs _ (n := 16 * k.val + 6) (k1_off95_eq k) (k1_off93_eq k) (by omega) (by omega)
    (pay_lo I Rw 1 (16 * k.val + 6) _ (id_of I 1 (16 * k.val + 6) (by decide) (k1_off67_eq k) (by omega)) rfl (row_val k.val k.isLt 6#32 (by decide)) (lane_val _))
    (pay_hi I Rw 1 (16 * k.val + 6) _ (id_of I 1 (16 * k.val + 6) (by decide) (k1_off67_eq k) (by omega)) rfl (row_val k.val k.isLt 6#32 (by decide)) (lane16_val _)) ?_
  refine writes_lane 1 I Rw Rs _ (n := 16 * k.val + 5) (k1_off91_eq k) (k1_off89_eq k) (by omega) (by omega)
    (pay_lo I Rw 1 (16 * k.val + 5) _ (id_of I 1 (16 * k.val + 5) (by decide) (k1_off67_eq k) (by omega)) rfl (row_val k.val k.isLt 5#32 (by decide)) (lane_val _))
    (pay_hi I Rw 1 (16 * k.val + 5) _ (id_of I 1 (16 * k.val + 5) (by decide) (k1_off67_eq k) (by omega)) rfl (row_val k.val k.isLt 5#32 (by decide)) (lane16_val _)) ?_
  refine writes_lane 1 I Rw Rs _ (n := 16 * k.val + 4) (k1_off87_eq k) (k1_off85_eq k) (by omega) (by omega)
    (pay_lo I Rw 1 (16 * k.val + 4) _ (id_of I 1 (16 * k.val + 4) (by decide) (k1_off67_eq k) (by omega)) rfl (row_val k.val k.isLt 4#32 (by decide)) (lane_val _))
    (pay_hi I Rw 1 (16 * k.val + 4) _ (id_of I 1 (16 * k.val + 4) (by decide) (k1_off67_eq k) (by omega)) rfl (row_val k.val k.isLt 4#32 (by decide)) (lane16_val _)) ?_
  refine writes_lane 1 I Rw Rs _ (n := 16 * k.val + 3) (k1_off83_eq k) (k1_off81_eq k) (by omega) (by omega)
    (pay_lo I Rw 1 (16 * k.val + 3) _ (id_of I 1 (16 * k.val + 3) (by decide) (k1_off67_eq k) (by omega)) rfl (row_val k.val k.isLt 3#32 (by decide)) (lane_val _))
    (pay_hi I Rw 1 (16 * k.val + 3) _ (id_of I 1 (16 * k.val + 3) (by decide) (k1_off67_eq k) (by omega)) rfl (row_val k.val k.isLt 3#32 (by decide)) (lane16_val _)) ?_
  refine writes_lane 1 I Rw Rs _ (n := 16 * k.val + 2) (k1_off79_eq k) (k1_off77_eq k) (by omega) (by omega)
    (pay_lo I Rw 1 (16 * k.val + 2) _ (id_of I 1 (16 * k.val + 2) (by decide) (k1_off67_eq k) (by omega)) rfl (row_val k.val k.isLt 2#32 (by decide)) (lane_val _))
    (pay_hi I Rw 1 (16 * k.val + 2) _ (id_of I 1 (16 * k.val + 2) (by decide) (k1_off67_eq k) (by omega)) rfl (row_val k.val k.isLt 2#32 (by decide)) (lane16_val _)) ?_
  refine writes_lane 1 I Rw Rs _ (n := 16 * k.val + 1) (k1_off75_eq k) (k1_off73_eq k) (by omega) (by omega)
    (pay_lo I Rw 1 (16 * k.val + 1) _ (id_of I 1 (16 * k.val + 1) (by decide) (k1_off67_eq k) (by omega)) rfl (row_val k.val k.isLt 1#32 (by decide)) (lane_val _))
    (pay_hi I Rw 1 (16 * k.val + 1) _ (id_of I 1 (16 * k.val + 1) (by decide) (k1_off67_eq k) (by omega)) rfl (row_val k.val k.isLt 1#32 (by decide)) (lane16_val _)) ?_
  refine writes_lane 1 I Rw Rs _ (n := 16 * k.val) (k1_off71_eq k) (k1_off69_eq k) (by omega) (by omega)
    (pay_lo I Rw 1 (16 * k.val) _ (id_of I 1 (16 * k.val) (by decide) (k1_off67_eq k) (by omega)) rfl (row_val k.val k.isLt 0#32 (by decide)) (lane_val _))
    (pay_hi I Rw 1 (16 * k.val) _ (id_of I 1 (16 * k.val) (by decide) (k1_off67_eq k) (by omega)) rfl (row_val k.val k.isLt 0#32 (by decide)) (lane16_val _)) ?_
  rfl

end Cert.Kernel.Lk

end
-- ==== Proof.LoopB3.lean ====
/-
  The four counted loops of the gather kernel's tile body, part 5: loop 3 — its invariant over the trip count and
  one trip's run from the invariant to the invariant.
-/
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.LoopBPure

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 3: chunk 2, read from half 0 of the row buffer -/

/-- Before trip `g` of loop 3: the index scratch whole at `I`, half 0 of the row buffer by its own elements at `Rw`,
    and the result scratch with the first `16 g` rows of chunk 2 done over `Rs`. -/
def inv3 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsA).view.loc (V d (cV L) (jV L)) ↦[(rowsA).view.set]{fullShare} Rw)
    ∗ ((s3V).view.loc (V d (cV L) (jV L)) ↦{fullShare} resRows 2 I Rw Rs (16 * g)))

set_option maxHeartbeats 8000000 in
/-- One trip of loop 3 from the invariant to the invariant at the next trip: the sixteen class ids are loaded, each
    id's side condition holds of any word, each of its two windows lies in the half held, and the thirty-two stores
    are the sixteen rows `writes_lane` adds. -/
theorem trip3 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t3_loop.trips) (acc : Unit) :
    inv3 d L I Rw Rs k.val acc
      ⊢ wp frame (wpE (defs₀ (F := F)) 𝒱₀ (V d (cV L) (jV L)) none) Set.univ
          (k1_t3_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv3 d L I Rw Rs (k.val + 1)) := by
  unfold inv3 k1_t3_body
  have e133 : ∀ v h, ((s2V).access (Rect.unit (s := S2x128x128) (k1_off133 k v) S1x1x16.size h)).set ⊆ (rowsA).view.set := fun v h => rowsA_incl _ h rfl
  have e135 : ∀ v h, ((s2V).access (Rect.unit (s := S2x128x128) (k1_off135 k v) S1x1x16.size h)).set ⊆ (rowsA).view.set := fun v h => rowsA_incl _ h rfl
  have e137 : ∀ v h, ((s2V).access (Rect.unit (s := S2x128x128) (k1_off137 k v) S1x1x16.size h)).set ⊆ (rowsA).view.set := fun v h => rowsA_incl _ h rfl
  have e139 : ∀ v h, ((s2V).access (Rect.unit (s := S2x128x128) (k1_off139 k v) S1x1x16.size h)).set ⊆ (rowsA).view.set := fun v h => rowsA_incl _ h rfl
  have e141 : ∀ v h, ((s2V).access (Rect.unit (s := S2x128x128) (k1_off141 k v) S1x1x16.size h)).set ⊆ (rowsA).view.set := fun v h => rowsA_incl _ h rfl
  have e143 : ∀ v h, ((s2V).access (Rect.unit (s := S2x128x128) (k1_off143 k v) S1x1x16.size h)).set ⊆ (rowsA).view.set := fun v h => rowsA_incl _ h rfl
  have e145 : ∀ v h, ((s2V).access (Rect.unit (s := S2x128x128) (k1_off145 k v) S1x1x16.size h)).set ⊆ (rowsA).view.set := fun v h => rowsA_incl _ h rfl
  have e147 : ∀ v h, ((s2V).access (Rect.unit (s := S2x128x128) (k1_off147 k v) S1x1x16.size h)).set ⊆ (rowsA).view.set := fun v h => rowsA_incl _ h rfl
  have e149 : ∀ v h, ((s2V).access (Rect.unit (s := S2x128x128) (k1_off149 k v) S1x1x16.size h)).set ⊆ (rowsA).view.set := fun v h => rowsA_incl _ h rfl
  have e151 : ∀ v h, ((s2V).access (Rect.unit (s := S2x128x128) (k1_off151 k v) S1x1x16.size h)).set ⊆ (rowsA).view.set := fun v h => rowsA_incl _ h rfl
  have e153 : ∀ v h, ((s2V).access (Rect.unit (s := S2x128x128) (k1_off153 k v) S1x1x16.size h)).set ⊆ (rowsA).view.set := fun v h => rowsA_incl _ h rfl
  have e155 : ∀ v h, ((s2V).access (Rect.unit (s := S2x128x128) (k1_off155 k v) S1x1x16.size h)).set ⊆ (rowsA).view.set := fun v h => rowsA_incl _ h rfl
  have e157 : ∀ v h, ((s2V).access (Rect.unit (s := S2x128x128) (k1_off157 k v) S1x1x16.size h)).set ⊆ (rowsA).view.set := fun v h => rowsA_incl _ h rfl
  have e159 : ∀ v h, ((s2V).access (Rect.unit (s := S2x128x128) (k1_off159 k v) S1x1x16.size h)).set ⊆ (rowsA).view.set := fun v h => rowsA_incl _ h rfl
  have e161 : ∀ v h, ((s2V).access (Rect.unit (s := S2x128x128) (k1_off161 k v) S1x1x16.size h)).set ⊆ (rowsA).view.set := fun v h => rowsA_incl _ h rfl
  have e163 : ∀ v h, ((s2V).access (Rect.unit (s := S2x128x128) (k1_off163 k v) S1x1x16.size h)).set ⊆ (rowsA).view.set := fun v h => rowsA_incl _ h rfl
  have e165 : ∀ v h, ((s2V).access (Rect.unit (s := S2x128x128) (k1_off165 k v) S1x1x16.size h)).set ⊆ (rowsA).view.set := fun v h => rowsA_incl _ h rfl
  have e167 : ∀ v h, ((s2V).access (Rect.unit (s := S2x128x128) (k1_off167 k v) S1x1x16.size h)).set ⊆ (rowsA).view.set := fun v h => rowsA_incl _ h rfl
  have e169 : ∀ v h, ((s2V).access (Rect.unit (s := S2x128x128) (k1_off169 k v) S1x1x16.size h)).set ⊆ (rowsA).view.set := fun v h => rowsA_incl _ h rfl
  have e171 : ∀ v h, ((s2V).access (Rect.unit (s := S2x128x128) (k1_off171 k v) S1x1x16.size h)).set ⊆ (rowsA).view.set := fun v h => rowsA_incl _ h rfl
  have e173 : ∀ v h, ((s2V).access (Rect.unit (s := S2x128x128) (k1_off173 k v) S1x1x16.size h)).set ⊆ (rowsA).view.set := fun v h => rowsA_incl _ h rfl
  have e175 : ∀ v h, ((s2V).access (Rect.unit (s := S2x128x128) (k1_off175 k v) S1x1x16.size h)).set ⊆ (rowsA).view.set := fun v h => rowsA_incl _ h rfl
  have e177 : ∀ v h, ((s2V).access (Rect.unit (s := S2x128x128) (k1_off177 k v) S1x1x16.size h)).set ⊆ (rowsA).view.set := fun v h => rowsA_incl _ h rfl
  have e179 : ∀ v h, ((s2V).access (Rect.unit (s := S2x128x128) (k1_off179 k v) S1x1x16.size h)).set ⊆ (rowsA).view.set := fun v h => rowsA_incl _ h rfl
  have e181 : ∀ v h, ((s2V).access (Rect.unit (s := S2x128x128) (k1_off181 k v) S1x1x16.size h)).set ⊆ (rowsA).view.set := fun v h => rowsA_incl _ h rfl
  have e183 : ∀ v h, ((s2V).access (Rect.unit (s := S2x128x128) (k1_off183 k v) S1x1x16.size h)).set ⊆ (rowsA).view.set := fun v h => rowsA_incl _ h rfl
  have e185 : ∀ v h, ((s2V).access (Rect.unit (s := S2x128x128) (k1_off185 k v) S1x1x16.size h)).set ⊆ (rowsA).view.set := fun v h => rowsA_incl _ h rfl
  have e187 : ∀ v h, ((s2V).access (Rect.unit (s := S2x128x128) (k1_off187 k v) S1x1x16.size h)).set ⊆ (rowsA).view.set := fun v h => rowsA_incl _ h rfl
  have e189 : ∀ v h, ((s2V).access (Rect.unit (s := S2x128x128) (k1_off189 k v) S1x1x16.size h)).set ⊆ (rowsA).view.set := fun v h => rowsA_incl _ h rfl
  have e191 : ∀ v h, ((s2V).access (Rect.unit (s := S2x128x128) (k1_off191 k v) S1x1x16.size h)).set ⊆ (rowsA).view.set := fun v h => rowsA_incl _ h rfl
  have e193 : ∀ v h, ((s2V).access (Rect.unit (s := S2x128x128) (k1_off193 k v) S1x1x16.size h)).set ⊆ (rowsA).view.set := fun v h => rowsA_incl _ h rfl
  have e195 : ∀ v h, ((s2V).access (Rect.unit (s := S2x128x128) (k1_off195 k v) S1x1x16.size h)).set ⊆ (rowsA).view.set := fun v h => rowsA_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 2 I Rw Rs _ (n := 16 * k.val + 15) (k1_off196_eq k) (k1_off194_eq k) (by omega) (by omega)
    (pay_lo I Rw 2 (16 * k.val + 15) _ (id_of I 2 (16 * k.val + 15) (by decide) (k1_off132_eq k) (by omega)) rfl (row_val k.val k.isLt 15#32 (by decide)) (lane_val _))
    (pay_hi I Rw 2 (16 * k.val + 15) _ (id_of I 2 (16 * k.val + 15) (by decide) (k1_off132_eq k) (by omega)) rfl (row_val k.val k.isLt 15#32 (by decide)) (lane16_val _)) ?_
  refine writes_lane 2 I Rw Rs _ (n := 16 * k.val + 14) (k1_off192_eq k) (k1_off190_eq k) (by omega) (by omega)
    (pay_lo I Rw 2 (16 * k.val + 14) _ (id_of I 2 (16 * k.val + 14) (by decide) (k1_off132_eq k) (by omega)) rfl (row_val k.val k.isLt 14#32 (by decide)) (lane_val _))
    (pay_hi I Rw 2 (16 * k.val + 14) _ (id_of I 2 (16 * k.val + 14) (by decide) (k1_off132_eq k) (by omega)) rfl (row_val k.val k.isLt 14#32 (by decide)) (lane16_val _)) ?_
  refine writes_lane 2 I Rw Rs _ (n := 16 * k.val + 13) (k1_off188_eq k) (k1_off186_eq k) (by omega) (by omega)
    (pay_lo I Rw 2 (16 * k.val + 13) _ (id_of I 2 (16 * k.val + 13) (by decide) (k1_off132_eq k) (by omega)) rfl (row_val k.val k.isLt 13#32 (by decide)) (lane_val _))
    (pay_hi I Rw 2 (16 * k.val + 13) _ (id_of I 2 (16 * k.val + 13) (by decide) (k1_off132_eq k) (by omega)) rfl (row_val k.val k.isLt 13#32 (by decide)) (lane16_val _)) ?_
  refine writes_lane 2 I Rw Rs _ (n := 16 * k.val + 12) (k1_off184_eq k) (k1_off182_eq k) (by omega) (by omega)
    (pay_lo I Rw 2 (16 * k.val + 12) _ (id_of I 2 (16 * k.val + 12) (by decide) (k1_off132_eq k) (by omega)) rfl (row_val k.val k.isLt 12#32 (by decide)) (lane_val _))
    (pay_hi I Rw 2 (16 * k.val + 12) _ (id_of I 2 (16 * k.val + 12) (by decide) (k1_off132_eq k) (by omega)) rfl (row_val k.val k.isLt 12#32 (by decide)) (lane16_val _)) ?_
  refine writes_lane 2 I Rw Rs _ (n := 16 * k.val + 11) (k1_off180_eq k) (k1_off178_eq k) (by omega) (by omega)
    (pay_lo I Rw 2 (16 * k.val + 11) _ (id_of I 2 (16 * k.val + 11) (by decide) (k1_off132_eq k) (by omega)) rfl (row_val k.val k.isLt 11#32 (by decide)) (lane_val _))
    (pay_hi I Rw 2 (16 * k.val + 11) _ (id_of I 2 (16 * k.val + 11) (by decide) (k1_off132_eq k) (by omega)) rfl (row_val k.val k.isLt 11#32 (by decide)) (lane16_val _)) ?_
  refine writes_lane 2 I Rw Rs _ (n := 16 * k.val + 10) (k1_off176_eq k) (k1_off174_eq k) (by omega) (by omega)
    (pay_lo I Rw 2 (16 * k.val + 10) _ (id_of I 2 (16 * k.val + 10) (by decide) (k1_off132_eq k) (by omega)) rfl (row_val k.val k.isLt 10#32 (by decide)) (lane_val _))
    (pay_hi I Rw 2 (16 * k.val + 10) _ (id_of I 2 (16 * k.val + 10) (by decide) (k1_off132_eq k) (by omega)) rfl (row_val k.val k.isLt 10#32 (by decide)) (lane16_val _)) ?_
  refine writes_lane 2 I Rw Rs _ (n := 16 * k.val + 9) (k1_off172_eq k) (k1_off170_eq k) (by omega) (by omega)
    (pay_lo I Rw 2 (16 * k.val + 9) _ (id_of I 2 (16 * k.val + 9) (by decide) (k1_off132_eq k) (by omega)) rfl (row_val k.val k.isLt 9#32 (by decide)) (lane_val _))
    (pay_hi I Rw 2 (16 * k.val + 9) _ (id_of I 2 (16 * k.val + 9) (by decide) (k1_off132_eq k) (by omega)) rfl (row_val k.val k.isLt 9#32 (by decide)) (lane16_val _)) ?_
  refine writes_lane 2 I Rw Rs _ (n := 16 * k.val + 8) (k1_off168_eq k) (k1_off166_eq k) (by omega) (by omega)
    (pay_lo I Rw 2 (16 * k.val + 8) _ (id_of I 2 (16 * k.val + 8) (by decide) (k1_off132_eq k) (by omega)) rfl (row_val k.val k.isLt 8#32 (by decide)) (lane_val _))
    (pay_hi I Rw 2 (16 * k.val + 8) _ (id_of I 2 (16 * k.val + 8) (by decide) (k1_off132_eq k) (by omega)) rfl (row_val k.val k.isLt 8#32 (by decide)) (lane16_val _)) ?_
  refine writes_lane 2 I Rw Rs _ (n := 16 * k.val + 7) (k1_off164_eq k) (k1_off162_eq k) (by omega) (by omega)
    (pay_lo I Rw 2 (16 * k.val + 7) _ (id_of I 2 (16 * k.val + 7) (by decide) (k1_off132_eq k) (by omega)) rfl (row_val k.val k.isLt 7#32 (by decide)) (lane_val _))
    (pay_hi I Rw 2 (16 * k.val + 7) _ (id_of I 2 (16 * k.val + 7) (by decide) (k1_off132_eq k) (by omega)) rfl (row_val k.val k.isLt 7#32 (by decide)) (lane16_val _)) ?_
  refine writes_lane 2 I Rw Rs _ (n := 16 * k.val + 6) (k1_off160_eq k) (k1_off158_eq k) (by omega) (by omega)
    (pay_lo I Rw 2 (16 * k.val + 6) _ (id_of I 2 (16 * k.val + 6) (by decide) (k1_off132_eq k) (by omega)) rfl (row_val k.val k.isLt 6#32 (by decide)) (lane_val _))
    (pay_hi I Rw 2 (16 * k.val + 6) _ (id_of I 2 (16 * k.val + 6) (by decide) (k1_off132_eq k) (by omega)) rfl (row_val k.val k.isLt 6#32 (by decide)) (lane16_val _)) ?_
  refine writes_lane 2 I Rw Rs _ (n := 16 * k.val + 5) (k1_off156_eq k) (k1_off154_eq k) (by omega) (by omega)
    (pay_lo I Rw 2 (16 * k.val + 5) _ (id_of I 2 (16 * k.val + 5) (by decide) (k1_off132_eq k) (by omega)) rfl (row_val k.val k.isLt 5#32 (by decide)) (lane_val _))
    (pay_hi I Rw 2 (16 * k.val + 5) _ (id_of I 2 (16 * k.val + 5) (by decide) (k1_off132_eq k) (by omega)) rfl (row_val k.val k.isLt 5#32 (by decide)) (lane16_val _)) ?_
  refine writes_lane 2 I Rw Rs _ (n := 16 * k.val + 4) (k1_off152_eq k) (k1_off150_eq k) (by omega) (by omega)
    (pay_lo I Rw 2 (16 * k.val + 4) _ (id_of I 2 (16 * k.val + 4) (by decide) (k1_off132_eq k) (by omega)) rfl (row_val k.val k.isLt 4#32 (by decide)) (lane_val _))
    (pay_hi I Rw 2 (16 * k.val + 4) _ (id_of I 2 (16 * k.val + 4) (by decide) (k1_off132_eq k) (by omega)) rfl (row_val k.val k.isLt 4#32 (by decide)) (lane16_val _)) ?_
  refine writes_lane 2 I Rw Rs _ (n := 16 * k.val + 3) (k1_off148_eq k) (k1_off146_eq k) (by omega) (by omega)
    (pay_lo I Rw 2 (16 * k.val + 3) _ (id_of I 2 (16 * k.val + 3) (by decide) (k1_off132_eq k) (by omega)) rfl (row_val k.val k.isLt 3#32 (by decide)) (lane_val _))
    (pay_hi I Rw 2 (16 * k.val + 3) _ (id_of I 2 (16 * k.val + 3) (by decide) (k1_off132_eq k) (by omega)) rfl (row_val k.val k.isLt 3#32 (by decide)) (lane16_val _)) ?_
  refine writes_lane 2 I Rw Rs _ (n := 16 * k.val + 2) (k1_off144_eq k) (k1_off142_eq k) (by omega) (by omega)
    (pay_lo I Rw 2 (16 * k.val + 2) _ (id_of I 2 (16 * k.val + 2) (by decide) (k1_off132_eq k) (by omega)) rfl (row_val k.val k.isLt 2#32 (by decide)) (lane_val _))
    (pay_hi I Rw 2 (16 * k.val + 2) _ (id_of I 2 (16 * k.val + 2) (by decide) (k1_off132_eq k) (by omega)) rfl (row_val k.val k.isLt 2#32 (by decide)) (lane16_val _)) ?_
  refine writes_lane 2 I Rw Rs _ (n := 16 * k.val + 1) (k1_off140_eq k) (k1_off138_eq k) (by omega) (by omega)
    (pay_lo I Rw 2 (16 * k.val + 1) _ (id_of I 2 (16 * k.val + 1) (by decide) (k1_off132_eq k) (by omega)) rfl (row_val k.val k.isLt 1#32 (by decide)) (lane_val _))
    (pay_hi I Rw 2 (16 * k.val + 1) _ (id_of I 2 (16 * k.val + 1) (by decide) (k1_off132_eq k) (by omega)) rfl (row_val k.val k.isLt 1#32 (by decide)) (lane16_val _)) ?_
  refine writes_lane 2 I Rw Rs _ (n := 16 * k.val) (k1_off136_eq k) (k1_off134_eq k) (by omega) (by omega)
    (pay_lo I Rw 2 (16 * k.val) _ (id_of I 2 (16 * k.val) (by decide) (k1_off132_eq k) (by omega)) rfl (row_val k.val k.isLt 0#32 (by decide)) (lane_val _))
    (pay_hi I Rw 2 (16 * k.val) _ (id_of I 2 (16 * k.val) (by decide) (k1_off132_eq k) (by omega)) rfl (row_val k.val k.isLt 0#32 (by decide)) (lane16_val _)) ?_
  rfl

end Cert.Kernel.Lk

end
-- ==== Proof.LoopB4.lean ====
/-
  The four counted loops of the gather kernel's tile body, part 6: loop 4 — its invariant over the trip count and
  one trip's run from the invariant to the invariant.
-/
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.LoopBPure

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

variable {F : FTy → Type} [FloatOps F]
local notation "𝕄" => MT nD τ sig (HIx 1) (Elt F) ℕ UU ℕ

/-! ## Loop 4: chunk 3, read from half 1 of the row buffer -/

/-- Before trip `g` of loop 4: the index scratch whole at `I`, half 1 of the row buffer by its own elements at `Rw`,
    and the result scratch with the first `16 g` rows of chunk 3 done over `Rs`. -/
def inv4 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (g : ℕ) (_ : Unit) : sProp 𝕄 :=
  iprop(((s0V).view.loc (V d (cV L) (jV L)) ↦{fullShare} I)
    ∗ ((rowsB).view.loc (V d (cV L) (jV L)) ↦[(rowsB).view.set]{fullShare} Rw)
    ∗ ((s3V).view.loc (V d (cV L) (jV L)) ↦{fullShare} resRows 3 I Rw Rs (16 * g)))

set_option maxHeartbeats 8000000 in
/-- One trip of loop 4 from the invariant to the invariant at the next trip: the sixteen class ids are loaded, each
    id's side condition holds of any word, each of its two windows lies in the half held, and the thirty-two stores
    are the sixteen rows `writes_lane` adds. -/
theorem trip4 (d : Dev nD) (L : grid1.Coords)
    (I : Buf (Elt F) ((V d (cV L) (jV L)).loc cc1_scratch0)) (Rw : Buf (Elt F) ((V d (cV L) (jV L)).loc cc1_scratch2))
    (Rs : Buf (Elt F) ((V d (cV L) (jV L)).loc cc1_scratch3)) (k : Fin k1_t4_loop.trips) (acc : Unit) :
    inv4 d L I Rw Rs k.val acc
      ⊢ wp frame (wpE (defs₀ (F := F)) 𝒱₀ (V d (cV L) (jV L)) none) Set.univ
          (k1_t4_body (F := F) L iV (Memref.isWhole_whole _) pV (Memref.isWhole_whole _) oV (Memref.isWhole_whole _)
            s0V (Memref.isWhole_whole _) s1V (Memref.isWhole_whole _) s2V (Memref.isWhole_whole _) s3V (Memref.isWhole_whole _)
            cc1_scratch4 cc1_scoped0 cc1_scoped1 cc1_scoped2 cc1_scoped3 cc1_scoped4 k acc)
          (inv4 d L I Rw Rs (k.val + 1)) := by
  unfold inv4 k1_t4_body
  have e198 : ∀ v h, ((s2V).access (Rect.unit (s := S2x128x128) (k1_off198 k v) S1x1x16.size h)).set ⊆ (rowsB).view.set := fun v h => rowsB_incl _ h rfl
  have e200 : ∀ v h, ((s2V).access (Rect.unit (s := S2x128x128) (k1_off200 k v) S1x1x16.size h)).set ⊆ (rowsB).view.set := fun v h => rowsB_incl _ h rfl
  have e202 : ∀ v h, ((s2V).access (Rect.unit (s := S2x128x128) (k1_off202 k v) S1x1x16.size h)).set ⊆ (rowsB).view.set := fun v h => rowsB_incl _ h rfl
  have e204 : ∀ v h, ((s2V).access (Rect.unit (s := S2x128x128) (k1_off204 k v) S1x1x16.size h)).set ⊆ (rowsB).view.set := fun v h => rowsB_incl _ h rfl
  have e206 : ∀ v h, ((s2V).access (Rect.unit (s := S2x128x128) (k1_off206 k v) S1x1x16.size h)).set ⊆ (rowsB).view.set := fun v h => rowsB_incl _ h rfl
  have e208 : ∀ v h, ((s2V).access (Rect.unit (s := S2x128x128) (k1_off208 k v) S1x1x16.size h)).set ⊆ (rowsB).view.set := fun v h => rowsB_incl _ h rfl
  have e210 : ∀ v h, ((s2V).access (Rect.unit (s := S2x128x128) (k1_off210 k v) S1x1x16.size h)).set ⊆ (rowsB).view.set := fun v h => rowsB_incl _ h rfl
  have e212 : ∀ v h, ((s2V).access (Rect.unit (s := S2x128x128) (k1_off212 k v) S1x1x16.size h)).set ⊆ (rowsB).view.set := fun v h => rowsB_incl _ h rfl
  have e214 : ∀ v h, ((s2V).access (Rect.unit (s := S2x128x128) (k1_off214 k v) S1x1x16.size h)).set ⊆ (rowsB).view.set := fun v h => rowsB_incl _ h rfl
  have e216 : ∀ v h, ((s2V).access (Rect.unit (s := S2x128x128) (k1_off216 k v) S1x1x16.size h)).set ⊆ (rowsB).view.set := fun v h => rowsB_incl _ h rfl
  have e218 : ∀ v h, ((s2V).access (Rect.unit (s := S2x128x128) (k1_off218 k v) S1x1x16.size h)).set ⊆ (rowsB).view.set := fun v h => rowsB_incl _ h rfl
  have e220 : ∀ v h, ((s2V).access (Rect.unit (s := S2x128x128) (k1_off220 k v) S1x1x16.size h)).set ⊆ (rowsB).view.set := fun v h => rowsB_incl _ h rfl
  have e222 : ∀ v h, ((s2V).access (Rect.unit (s := S2x128x128) (k1_off222 k v) S1x1x16.size h)).set ⊆ (rowsB).view.set := fun v h => rowsB_incl _ h rfl
  have e224 : ∀ v h, ((s2V).access (Rect.unit (s := S2x128x128) (k1_off224 k v) S1x1x16.size h)).set ⊆ (rowsB).view.set := fun v h => rowsB_incl _ h rfl
  have e226 : ∀ v h, ((s2V).access (Rect.unit (s := S2x128x128) (k1_off226 k v) S1x1x16.size h)).set ⊆ (rowsB).view.set := fun v h => rowsB_incl _ h rfl
  have e228 : ∀ v h, ((s2V).access (Rect.unit (s := S2x128x128) (k1_off228 k v) S1x1x16.size h)).set ⊆ (rowsB).view.set := fun v h => rowsB_incl _ h rfl
  have e230 : ∀ v h, ((s2V).access (Rect.unit (s := S2x128x128) (k1_off230 k v) S1x1x16.size h)).set ⊆ (rowsB).view.set := fun v h => rowsB_incl _ h rfl
  have e232 : ∀ v h, ((s2V).access (Rect.unit (s := S2x128x128) (k1_off232 k v) S1x1x16.size h)).set ⊆ (rowsB).view.set := fun v h => rowsB_incl _ h rfl
  have e234 : ∀ v h, ((s2V).access (Rect.unit (s := S2x128x128) (k1_off234 k v) S1x1x16.size h)).set ⊆ (rowsB).view.set := fun v h => rowsB_incl _ h rfl
  have e236 : ∀ v h, ((s2V).access (Rect.unit (s := S2x128x128) (k1_off236 k v) S1x1x16.size h)).set ⊆ (rowsB).view.set := fun v h => rowsB_incl _ h rfl
  have e238 : ∀ v h, ((s2V).access (Rect.unit (s := S2x128x128) (k1_off238 k v) S1x1x16.size h)).set ⊆ (rowsB).view.set := fun v h => rowsB_incl _ h rfl
  have e240 : ∀ v h, ((s2V).access (Rect.unit (s := S2x128x128) (k1_off240 k v) S1x1x16.size h)).set ⊆ (rowsB).view.set := fun v h => rowsB_incl _ h rfl
  have e242 : ∀ v h, ((s2V).access (Rect.unit (s := S2x128x128) (k1_off242 k v) S1x1x16.size h)).set ⊆ (rowsB).view.set := fun v h => rowsB_incl _ h rfl
  have e244 : ∀ v h, ((s2V).access (Rect.unit (s := S2x128x128) (k1_off244 k v) S1x1x16.size h)).set ⊆ (rowsB).view.set := fun v h => rowsB_incl _ h rfl
  have e246 : ∀ v h, ((s2V).access (Rect.unit (s := S2x128x128) (k1_off246 k v) S1x1x16.size h)).set ⊆ (rowsB).view.set := fun v h => rowsB_incl _ h rfl
  have e248 : ∀ v h, ((s2V).access (Rect.unit (s := S2x128x128) (k1_off248 k v) S1x1x16.size h)).set ⊆ (rowsB).view.set := fun v h => rowsB_incl _ h rfl
  have e250 : ∀ v h, ((s2V).access (Rect.unit (s := S2x128x128) (k1_off250 k v) S1x1x16.size h)).set ⊆ (rowsB).view.set := fun v h => rowsB_incl _ h rfl
  have e252 : ∀ v h, ((s2V).access (Rect.unit (s := S2x128x128) (k1_off252 k v) S1x1x16.size h)).set ⊆ (rowsB).view.set := fun v h => rowsB_incl _ h rfl
  have e254 : ∀ v h, ((s2V).access (Rect.unit (s := S2x128x128) (k1_off254 k v) S1x1x16.size h)).set ⊆ (rowsB).view.set := fun v h => rowsB_incl _ h rfl
  have e256 : ∀ v h, ((s2V).access (Rect.unit (s := S2x128x128) (k1_off256 k v) S1x1x16.size h)).set ⊆ (rowsB).view.set := fun v h => rowsB_incl _ h rfl
  have e258 : ∀ v h, ((s2V).access (Rect.unit (s := S2x128x128) (k1_off258 k v) S1x1x16.size h)).set ⊆ (rowsB).view.set := fun v h => rowsB_incl _ h rfl
  have e260 : ∀ v h, ((s2V).access (Rect.unit (s := S2x128x128) (k1_off260 k v) S1x1x16.size h)).set ⊆ (rowsB).view.set := fun v h => rowsB_incl _ h rfl
  iintro ⟨Hi, Hr, Hs⟩
  sl_exec (disch := lk_chk)
  sl_step
  isplitl [Hi]; · iexact Hi
  isplitl [Hr]; · iexact Hr
  iapply (pts_congr d (cV L) (jV L) _ _ ?_) $$ Hs
  refine writes_lane 3 I Rw Rs _ (n := 16 * k.val + 15) (k1_off261_eq k) (k1_off259_eq k) (by omega) (by omega)
    (pay_lo I Rw 3 (16 * k.val + 15) _ (id_of I 3 (16 * k.val + 15) (by decide) (k1_off197_eq k) (by omega)) rfl (row_val k.val k.isLt 15#32 (by decide)) (lane_val _))
    (pay_hi I Rw 3 (16 * k.val + 15) _ (id_of I 3 (16 * k.val + 15) (by decide) (k1_off197_eq k) (by omega)) rfl (row_val k.val k.isLt 15#32 (by decide)) (lane16_val _)) ?_
  refine writes_lane 3 I Rw Rs _ (n := 16 * k.val + 14) (k1_off257_eq k) (k1_off255_eq k) (by omega) (by omega)
    (pay_lo I Rw 3 (16 * k.val + 14) _ (id_of I 3 (16 * k.val + 14) (by decide) (k1_off197_eq k) (by omega)) rfl (row_val k.val k.isLt 14#32 (by decide)) (lane_val _))
    (pay_hi I Rw 3 (16 * k.val + 14) _ (id_of I 3 (16 * k.val + 14) (by decide) (k1_off197_eq k) (by omega)) rfl (row_val k.val k.isLt 14#32 (by decide)) (lane16_val _)) ?_
  refine writes_lane 3 I Rw Rs _ (n := 16 * k.val + 13) (k1_off253_eq k) (k1_off251_eq k) (by omega) (by omega)
    (pay_lo I Rw 3 (16 * k.val + 13) _ (id_of I 3 (16 * k.val + 13) (by decide) (k1_off197_eq k) (by omega)) rfl (row_val k.val k.isLt 13#32 (by decide)) (lane_val _))
    (pay_hi I Rw 3 (16 * k.val + 13) _ (id_of I 3 (16 * k.val + 13) (by decide) (k1_off197_eq k) (by omega)) rfl (row_val k.val k.isLt 13#32 (by decide)) (lane16_val _)) ?_
  refine writes_lane 3 I Rw Rs _ (n := 16 * k.val + 12) (k1_off249_eq k) (k1_off247_eq k) (by omega) (by omega)
    (pay_lo I Rw 3 (16 * k.val + 12) _ (id_of I 3 (16 * k.val + 12) (by decide) (k1_off197_eq k) (by omega)) rfl (row_val k.val k.isLt 12#32 (by decide)) (lane_val _))
    (pay_hi I Rw 3 (16 * k.val + 12) _ (id_of I 3 (16 * k.val + 12) (by decide) (k1_off197_eq k) (by omega)) rfl (row_val k.val k.isLt 12#32 (by decide)) (lane16_val _)) ?_
  refine writes_lane 3 I Rw Rs _ (n := 16 * k.val + 11) (k1_off245_eq k) (k1_off243_eq k) (by omega) (by omega)
    (pay_lo I Rw 3 (16 * k.val + 11) _ (id_of I 3 (16 * k.val + 11) (by decide) (k1_off197_eq k) (by omega)) rfl (row_val k.val k.isLt 11#32 (by decide)) (lane_val _))
    (pay_hi I Rw 3 (16 * k.val + 11) _ (id_of I 3 (16 * k.val + 11) (by decide) (k1_off197_eq k) (by omega)) rfl (row_val k.val k.isLt 11#32 (by decide)) (lane16_val _)) ?_
  refine writes_lane 3 I Rw Rs _ (n := 16 * k.val + 10) (k1_off241_eq k) (k1_off239_eq k) (by omega) (by omega)
    (pay_lo I Rw 3 (16 * k.val + 10) _ (id_of I 3 (16 * k.val + 10) (by decide) (k1_off197_eq k) (by omega)) rfl (row_val k.val k.isLt 10#32 (by decide)) (lane_val _))
    (pay_hi I Rw 3 (16 * k.val + 10) _ (id_of I 3 (16 * k.val + 10) (by decide) (k1_off197_eq k) (by omega)) rfl (row_val k.val k.isLt 10#32 (by decide)) (lane16_val _)) ?_
  refine writes_lane 3 I Rw Rs _ (n := 16 * k.val + 9) (k1_off237_eq k) (k1_off235_eq k) (by omega) (by omega)
    (pay_lo I Rw 3 (16 * k.val + 9) _ (id_of I 3 (16 * k.val + 9) (by decide) (k1_off197_eq k) (by omega)) rfl (row_val k.val k.isLt 9#32 (by decide)) (lane_val _))
    (pay_hi I Rw 3 (16 * k.val + 9) _ (id_of I 3 (16 * k.val + 9) (by decide) (k1_off197_eq k) (by omega)) rfl (row_val k.val k.isLt 9#32 (by decide)) (lane16_val _)) ?_
  refine writes_lane 3 I Rw Rs _ (n := 16 * k.val + 8) (k1_off233_eq k) (k1_off231_eq k) (by omega) (by omega)
    (pay_lo I Rw 3 (16 * k.val + 8) _ (id_of I 3 (16 * k.val + 8) (by decide) (k1_off197_eq k) (by omega)) rfl (row_val k.val k.isLt 8#32 (by decide)) (lane_val _))
    (pay_hi I Rw 3 (16 * k.val + 8) _ (id_of I 3 (16 * k.val + 8) (by decide) (k1_off197_eq k) (by omega)) rfl (row_val k.val k.isLt 8#32 (by decide)) (lane16_val _)) ?_
  refine writes_lane 3 I Rw Rs _ (n := 16 * k.val + 7) (k1_off229_eq k) (k1_off227_eq k) (by omega) (by omega)
    (pay_lo I Rw 3 (16 * k.val + 7) _ (id_of I 3 (16 * k.val + 7) (by decide) (k1_off197_eq k) (by omega)) rfl (row_val k.val k.isLt 7#32 (by decide)) (lane_val _))
    (pay_hi I Rw 3 (16 * k.val + 7) _ (id_of I 3 (16 * k.val + 7) (by decide) (k1_off197_eq k) (by omega)) rfl (row_val k.val k.isLt 7#32 (by decide)) (lane16_val _)) ?_
  refine writes_lane 3 I Rw Rs _ (n := 16 * k.val + 6) (k1_off225_eq k) (k1_off223_eq k) (by omega) (by omega)
    (pay_lo I Rw 3 (16 * k.val + 6) _ (id_of I 3 (16 * k.val + 6) (by decide) (k1_off197_eq k) (by omega)) rfl (row_val k.val k.isLt 6#32 (by decide)) (lane_val _))
    (pay_hi I Rw 3 (16 * k.val + 6) _ (id_of I 3 (16 * k.val + 6) (by decide) (k1_off197_eq k) (by omega)) rfl (row_val k.val k.isLt 6#32 (by decide)) (lane16_val _)) ?_
  refine writes_lane 3 I Rw Rs _ (n := 16 * k.val + 5) (k1_off221_eq k) (k1_off219_eq k) (by omega) (by omega)
    (pay_lo I Rw 3 (16 * k.val + 5) _ (id_of I 3 (16 * k.val + 5) (by decide) (k1_off197_eq k) (by omega)) rfl (row_val k.val k.isLt 5#32 (by decide)) (lane_val _))
    (pay_hi I Rw 3 (16 * k.val + 5) _ (id_of I 3 (16 * k.val + 5) (by decide) (k1_off197_eq k) (by omega)) rfl (row_val k.val k.isLt 5#32 (by decide)) (lane16_val _)) ?_
  refine writes_lane 3 I Rw Rs _ (n := 16 * k.val + 4) (k1_off217_eq k) (k1_off215_eq k) (by omega) (by omega)
    (pay_lo I Rw 3 (16 * k.val + 4) _ (id_of I 3 (16 * k.val + 4) (by decide) (k1_off197_eq k) (by omega)) rfl (row_val k.val k.isLt 4#32 (by decide)) (lane_val _))
    (pay_hi I Rw 3 (16 * k.val + 4) _ (id_of I 3 (16 * k.val + 4) (by decide) (k1_off197_eq k) (by omega)) rfl (row_val k.val k.isLt 4#32 (by decide)) (lane16_val _)) ?_
  refine writes_lane 3 I Rw Rs _ (n := 16 * k.val + 3) (k1_off213_eq k) (k1_off211_eq k) (by omega) (by omega)
    (pay_lo I Rw 3 (16 * k.val + 3) _ (id_of I 3 (16 * k.val + 3) (by decide) (k1_off197_eq k) (by omega)) rfl (row_val k.val k.isLt 3#32 (by decide)) (lane_val _))
    (pay_hi I Rw 3 (16 * k.val + 3) _ (id_of I 3 (16 * k.val + 3) (by decide) (k1_off197_eq k) (by omega)) rfl (row_val k.val k.isLt 3#32 (by decide)) (lane16_val _)) ?_
  refine writes_lane 3 I Rw Rs _ (n := 16 * k.val + 2) (k1_off209_eq k) (k1_off207_eq k) (by omega) (by omega)
    (pay_lo I Rw 3 (16 * k.val + 2) _ (id_of I 3 (16 * k.val + 2) (by decide) (k1_off197_eq k) (by omega)) rfl (row_val k.val k.isLt 2#32 (by decide)) (lane_val _))
    (pay_hi I Rw 3 (16 * k.val + 2) _ (id_of I 3 (16 * k.val + 2) (by decide) (k1_off197_eq k) (by omega)) rfl (row_val k.val k.isLt 2#32 (by decide)) (lane16_val _)) ?_
  refine writes_lane 3 I Rw Rs _ (n := 16 * k.val + 1) (k1_off205_eq k) (k1_off203_eq k) (by omega) (by omega)
    (pay_lo I Rw 3 (16 * k.val + 1) _ (id_of I 3 (16 * k.val + 1) (by decide) (k1_off197_eq k) (by omega)) rfl (row_val k.val k.isLt 1#32 (by decide)) (lane_val _))
    (pay_hi I Rw 3 (16 * k.val + 1) _ (id_of I 3 (16 * k.val + 1) (by decide) (k1_off197_eq k) (by omega)) rfl (row_val k.val k.isLt 1#32 (by decide)) (lane16_val _)) ?_
  refine writes_lane 3 I Rw Rs _ (n := 16 * k.val) (k1_off201_eq k) (k1_off199_eq k) (by omega) (by omega)
    (pay_lo I Rw 3 (16 * k.val) _ (id_of I 3 (16 * k.val) (by decide) (k1_off197_eq k) (by omega)) rfl (row_val k.val k.isLt 0#32 (by decide)) (lane_val _))
    (pay_hi I Rw 3 (16 * k.val) _ (id_of I 3 (16 * k.val) (by decide) (k1_off197_eq k) (by omega)) rfl (row_val k.val k.isLt 0#32 (by decide)) (lane16_val _)) ?_
  rfl

end Cert.Kernel.Lk

end
-- ==== Proof.TileB3.lean ====
/-
  One vector subcore's task, whole. The subcore at grid coordinates L owns class ids and result rows
  [1024 (L 1) + 512 (L 0), + 512). It copies its four chunks of 128 ids into the id scratch; stores every id shifted
  right by two (its quotient by four: the packed row that holds the id's table row) into the row-index scratch; then,
  chunk by chunk, gathers the 128 packed rows the chunk's row indices name into one half of the row buffer — every index
  below 250000, the ids being in range —, and from each gathered row keeps the 32 lanes starting at (id mod 4) * 32, as a
  row of the result scratch, while the next chunk's rows are gathered into the other half; at the end the result scratch
  goes out to the subcore's 512 result rows. What those rows then hold is entry (id / 4, (id mod 4) * 32 + e) of the
  packed array at (b, e): the function Cert.Lookup.unpacked. The ids and the packed array are only read; every scratch
  buffer and every counter comes back as it was lent: at some contents, at zero.
-/
import proofs.«204365_g77171972375186_cont_9to1c4b_67_15_alg».proof.Proof.CommonB
import proofs.«204365_g77171972375186_cont_9to1c4b_67_15_alg».proof.Proof.Gen.Kernel.Skeleton
import proofs.«204365_g77171972375186_cont_9to1c4b_67_15_alg».proof.Proof.TileB0
import proofs.«204365_g77171972375186_cont_9to1c4b_67_15_alg».proof.Proof.TileB1
import proofs.«204365_g77171972375186_cont_9to1c4b_67_15_alg».proof.Proof.TileBMath
import proofs.«204365_g77171972375186_cont_9to1c4b_67_15_alg».proof.Proof.TileB2
import proofs.«204365_g77171972375186_cont_9to1c4b_67_15_alg».proof.Proof.TileBFinal
import proofs.«204365_g77171972375186_cont_9to1c4b_67_15_alg».proof.Proof.TileBOut
import proofs.«204365_g77171972375186_cont_9to1c4b_67_15_alg».proof.Proof.TileBGather
import proofs.«204365_g77171972375186_cont_9to1c4b_67_15_alg».proof.Proof.LoopB1
import proofs.«204365_g77171972375186_cont_9to1c4b_67_15_alg».proof.Proof.LoopB2
import proofs.«204365_g77171972375186_cont_9to1c4b_67_15_alg».proof.Proof.LoopB3
import proofs.«204365_g77171972375186_cont_9to1c4b_67_15_alg».proof.Proof.LoopB4

noncomputable section

namespace Cert.Kernel.Lk

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-- Row c of the row-index scratch: the list of packed rows chunk c's gather reads. -/
abbrev ridx0 : Memref sig .scVector .vmem S128 .i32 :=
  ((s1V).slice (Rect.unit (s := S4x128) ![0, 0] S1x128.size inb_S4x128_S1x128_0_0) (fun _ => rfl)).squeeze S128 squeezes_S1x128_S128
abbrev ridx1 : Memref sig .scVector .vmem S128 .i32 :=
  ((s1V).slice (Rect.unit (s := S4x128) ![1, 0] S1x128.size inb_S4x128_S1x128_1_0) (fun _ => rfl)).squeeze S128 squeezes_S1x128_S128
abbrev ridx2 : Memref sig .scVector .vmem S128 .i32 :=
  ((s1V).slice (Rect.unit (s := S4x128) ![2, 0] S1x128.size inb_S4x128_S1x128_2_0) (fun _ => rfl)).squeeze S128 squeezes_S1x128_S128
abbrev ridx3 : Memref sig .scVector .vmem S128 .i32 :=
  ((s1V).slice (Rect.unit (s := S4x128) ![3, 0] S1x128.size inb_S4x128_S1x128_3_0) (fun _ => rfl)).squeeze S128 squeezes_S1x128_S128

set_option maxHeartbeats 4000000 in
/-- The subcore's task from its share of the ids and of the packed array, its block of the result at any contents and
    its own scratch: the block ends at the lookup of the subcore's ids in the packed array. -/
theorem tile_body (hF : (K (F := F)).Facts) (d : Dev nD) (L : grid1.Coords)
    (ids : Buf (Elt F) (idsLoc d)) (pk : Buf (Elt F) (pkLoc d)) (out0 : Buf (Elt F) (outLoc d))
    (qi qp : PosShare TreeShare) (hr : Cert.Lookup.InRange ids)
    (O : CellTallies nD τ sig (HIx 1)) (W : Waits sig (HIx 1)) (hO : ∀ g, O g none = 0) :
    iprop((levAts (K (F := F)).L (K (F := F)).lev : sProp 𝕄) ∗ emp
        ∗ ((idsLoc d ↦{qi} ids) ∗ (pkLoc d ↦{qp} pk) ∗ (outLoc d ↦[oRowSet L]{fullShare} out0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(((idsLoc d ↦{qi} ids) ∗ (pkLoc d ↦{qp} pk) ∗ (outLoc d ↦[oRowSet L]{fullShare} Cert.Lookup.unpacked ids pk))
            ∗ scopedBufs (V d (cV L) (jV L)) ∗ scopedSems0 (V d (cV L) (jV L))
            ∗ ∃ W', ⌜∀ p ∈ W', p ∈ W ∨ p.2 = none⌝ ∗ owes (V d (cV L) (jV L)) O W') := by
  delta tileProg; rw [cc1__gather_body_eq_skeleton]; unfold cc1__gather_body_skel
  rw [(K (F := F)).scopedBufs_V hF d (cV L) (jV L), SparseCore.Cfg.scopedSems0_V (Val := Elt F) d (cV L) (jV L), ownSems0_V, ownBufs_V]
  iintro ⟨#Hlv, -, ⟨Hi, Hp, Ho⟩, ⟨⟨%f0, Hs0⟩, ⟨%f1, Hs1⟩, ⟨%f2, Hs2⟩, ⟨%f3, Hs3⟩, Hbufs⟩, ⟨HsemG, Hsem0, Hsem1, Hsem2, Hsem3, Hsem4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (idsLoc d ↦{qi} ids : sProp 𝕄) = (iV).view.loc (V d (cV L) (jV L)) ↦{qi} ids from rfl)) $$ Hi
  ihave HpA := (Entails.of_eq (aside_eq (F := F) (pkLoc d ↦{qp} pk)).symm) $$ Hp
  ihave Ho' := (Entails.of_eq (show (outLoc d ↦[oRowSet L]{fullShare} out0 : sProp 𝕄)
      = (oRowK L).view.loc (V d (cV L) (jV L)) ↦[(oRowK L).view.set]{fullShare} out0 from rfl)) $$ Ho
  ihave Hs0' := (Entails.of_eq (show ((V d (cV L) (jV L)).loc cc1_scratch0 ↦{fullShare} f0 : sProp 𝕄) = (s0V).view.loc (V d (cV L) (jV L)) ↦{fullShare} f0 from rfl)) $$ Hs0
  ihave Hs1' := (Entails.of_eq (show ((V d (cV L) (jV L)).loc cc1_scratch1 ↦{fullShare} f1 : sProp 𝕄) = (s1V).view.loc (V d (cV L) (jV L)) ↦{fullShare} f1 from rfl)) $$ Hs1
  ihave Hs3' := (Entails.of_eq (show ((V d (cV L) (jV L)).loc cc1_scratch3 ↦{fullShare} f3 : sProp 𝕄) = (s3V).view.loc (V d (cV L) (jV L)) ↦{fullShare} f3 from rfl)) $$ Hs3

  ihave Hs2' := (Entails.of_eq (show ((V d (cV L) (jV L)).loc cc1_scratch2 ↦{fullShare} f2 : sProp 𝕄) = (s2V).view.loc (V d (cV L) (jV L)) ↦{fullShare} f2 from rfl)) $$ Hs2
  sl_exec_parts
  ihave Hs0a := (pts_abs (F := F) _) $$ Hs0'
  icases Hs0a with ⟨%I, %hI, Hs0'⟩
  ihave Hs1a := (pts_abs (F := F) _) $$ Hs1'
  icases Hs1a with ⟨%R, %hR, Hs1'⟩

  -- the id scratch holds the subcore's 512 ids; the row-index scratch holds each shifted right by two
  have hIv : ∀ y : S4x128.Idx, (s0V).view.read (Elt F) I y = ids (ix1 (tileId L (128 * (y 0).val + (y 1).val) (by
          have : (y 0).val < 4 := (y 0).isLt
          have : (y 1).val < 128 := (y 1).isLt
          omega))) := by
    rw [hI]
    exact idx_filled d L ids f0 _ _ _ _ (fun x => ids_row d L ⟨0, by decide⟩ ids x) (fun x => ids_row d L ⟨1, by decide⟩ ids x)
      (fun x => ids_row d L ⟨2, by decide⟩ ids x) (fun x => ids_row d L ⟨3, by decide⟩ ids x)
  have hRv : ∀ y : S4x128.Idx, ((s1V).view.read (Elt F) R y : BitVec 32) = ((s0V).view.read (Elt F) I y : BitVec 32) >>> 2 := by
    intro y
    rw [hR]
    refine View.read_writes_apply_of_pieces (v := (s1V).view) (f := f1)
      (fun y : S4x128.Idx => (((s0V).view.read (Elt F) I y : BitVec 32) >>> 2 : BitVec 32)) _ ?hp y ?hc
    case hc => exact View.cover_of_tiled _ ![1, 16] (by sl_kernel_rfl) y
    case hp =>
      rw [hI]
      exact all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_cons (fun x => pay_shr _ x) (all_nil))))))))))))))))))))))))))))))))

  -- so every row index is below 250000, the ids being in range
  have hin0 : ∀ x, ((ridx0).view.read (Elt F) R x).toNat < S250000x128.size gathers_S250000x128_S128x128.axis := fun x => by
    have e : ((ridx0).view.read (Elt F) R x : BitVec 32) = (s1V).view.read (Elt F) R ((ridx0).view.emb x) := rfl
    show BitVec.toNat _ < 250000
    rw [e, hRv, hIv]
    exact shr_lt _ (hr.toNat_le _)
  have hin1 : ∀ x, ((ridx1).view.read (Elt F) R x).toNat < S250000x128.size gathers_S250000x128_S128x128.axis := fun x => by
    have e : ((ridx1).view.read (Elt F) R x : BitVec 32) = (s1V).view.read (Elt F) R ((ridx1).view.emb x) := rfl
    show BitVec.toNat _ < 250000
    rw [e, hRv, hIv]
    exact shr_lt _ (hr.toNat_le _)
  have hin2 : ∀ x, ((ridx2).view.read (Elt F) R x).toNat < S250000x128.size gathers_S250000x128_S128x128.axis := fun x => by
    have e : ((ridx2).view.read (Elt F) R x : BitVec 32) = (s1V).view.read (Elt F) R ((ridx2).view.emb x) := rfl
    show BitVec.toNat _ < 250000
    rw [e, hRv, hIv]
    exact shr_lt _ (hr.toNat_le _)
  have hin3 : ∀ x, ((ridx3).view.read (Elt F) R x).toNat < S250000x128.size gathers_S250000x128_S128x128.axis := fun x => by
    have e : ((ridx3).view.read (Elt F) R x : BitVec 32) = (s1V).view.read (Elt F) R ((ridx3).view.emb x) := rfl
    show BitVec.toNat _ < 250000
    rw [e, hRv, hIv]
    exact shr_lt _ (hr.toNat_le _)
  -- the row buffer as its two halves, each held by its own elements
  ihave Hs2s := (pointsTo_split_subset (q := fullShare) (f := f2) (S := Finset.univ) (Finset.subset_univ (rowsA).view.set)).1 $$ Hs2'
  icases Hs2s with ⟨HrA, HrB⟩
  ihave HrA := (Entails.of_eq (show ((s2V).view.loc (V d (cV L) (jV L)) ↦[(rowsA).view.set]{fullShare} f2 : sProp 𝕄)
      = (rowsA).view.loc (V d (cV L) (jV L)) ↦[(rowsA).view.set]{fullShare} f2 from rfl)) $$ HrA
  ihave HrB := (Entails.of_eq (show ((s2V).view.loc (V d (cV L) (jV L)) ↦[Finset.univ \ (rowsA).view.set]{fullShare} f2 : sProp 𝕄)
      = (rowsB).view.loc (V d (cV L) (jV L)) ↦[(rowsB).view.set]{fullShare} f2 by rw [rows_compl])) $$ HrB
  ihave Hp := (Entails.of_eq (aside_eq (F := F) (pkLoc d ↦{qp} pk))) $$ HpA
  ihave Hp' := (Entails.of_eq (show (pkLoc d ↦{qp} pk : sProp 𝕄) = (pV).view.loc (V d (cV L) (jV L)) ↦{qp} pk from rfl)) $$ Hp
  sl_exec_parts

  -- the first counted loop: rows [0, 128) of the result scratch, read off half 0 of the row buffer
  ihave Hra := (pts_abs (F := F) _) $$ HrA
  icases Hra with ⟨%Rw1, %hRw1, HrA⟩
  ihave Hsa := (pts_abs (F := F) _) $$ Hs3'
  icases Hsa with ⟨%Rs1, %hRs1, Hs3'⟩
  sl_for (inv1 d L I Rw1 Rs1) $$ [Hs0' HrA Hs3']
  case region => exact fun k acc => trip1 d L I Rw1 Rs1 k acc
  · unfold inv1
    rw [Nat.mul_zero, resRows_zero]
    isplitl [Hs0']; · iexact Hs0'
    isplitl [HrA]; · iexact HrA
    iexact Hs3'
  iintro %_ HI
  have ht1 : Scf.trips k1_t1_loop.lb k1_t1_loop.ub k1_t1_loop.st = 8 := by decide
  rw [ht1]
  unfold inv1
  icases HI with ⟨Hs0', HrA, Hs3'⟩

  sl_exec_parts

  -- the second counted loop: rows [128, 256) of the result scratch, read off half 1 of the row buffer
  ihave Hra := (pts_abs (F := F) _) $$ HrB
  icases Hra with ⟨%Rw2, %hRw2, HrB⟩
  ihave Hsa := (pts_abs (F := F) _) $$ Hs3'
  icases Hsa with ⟨%Rs2, %hRs2, Hs3'⟩
  sl_for (inv2 d L I Rw2 Rs2) $$ [Hs0' HrB Hs3']
  case region => exact fun k acc => trip2 d L I Rw2 Rs2 k acc
  · unfold inv2
    rw [Nat.mul_zero, resRows_zero]
    isplitl [Hs0']; · iexact Hs0'
    isplitl [HrB]; · iexact HrB
    iexact Hs3'
  iintro %_ HI
  have ht2 : Scf.trips k1_t2_loop.lb k1_t2_loop.ub k1_t2_loop.st = 8 := by decide
  rw [ht2]
  unfold inv2
  icases HI with ⟨Hs0', HrB, Hs3'⟩

  sl_exec_parts

  -- the third counted loop: rows [256, 384) of the result scratch, read off half 0 of the row buffer
  ihave Hra := (pts_abs (F := F) _) $$ HrA
  icases Hra with ⟨%Rw3, %hRw3, HrA⟩
  ihave Hsa := (pts_abs (F := F) _) $$ Hs3'
  icases Hsa with ⟨%Rs3, %hRs3, Hs3'⟩
  sl_for (inv3 d L I Rw3 Rs3) $$ [Hs0' HrA Hs3']
  case region => exact fun k acc => trip3 d L I Rw3 Rs3 k acc
  · unfold inv3
    rw [Nat.mul_zero, resRows_zero]
    isplitl [Hs0']; · iexact Hs0'
    isplitl [HrA]; · iexact HrA
    iexact Hs3'
  iintro %_ HI
  have ht3 : Scf.trips k1_t3_loop.lb k1_t3_loop.ub k1_t3_loop.st = 8 := by decide
  rw [ht3]
  unfold inv3
  icases HI with ⟨Hs0', HrA, Hs3'⟩

  sl_exec_parts

  -- the fourth counted loop: rows [384, 512) of the result scratch, read off half 1 of the row buffer
  ihave Hra := (pts_abs (F := F) _) $$ HrB
  icases Hra with ⟨%Rw4, %hRw4, HrB⟩
  ihave Hsa := (pts_abs (F := F) _) $$ Hs3'
  icases Hsa with ⟨%Rs4, %hRs4, Hs3'⟩
  sl_for (inv4 d L I Rw4 Rs4) $$ [Hs0' HrB Hs3']
  case region => exact fun k acc => trip4 d L I Rw4 Rs4 k acc
  · unfold inv4
    rw [Nat.mul_zero, resRows_zero]
    isplitl [Hs0']; · iexact Hs0'
    isplitl [HrB]; · iexact HrB
    iexact Hs3'
  iintro %_ HI
  have ht4 : Scf.trips k1_t4_loop.lb k1_t4_loop.ub k1_t4_loop.st = 8 := by decide
  rw [ht4]
  unfold inv4
  icases HI with ⟨Hs0', HrB, Hs3'⟩

  sl_exec_parts

  -- what the copy out leaves in the subcore's block of the result, and why it is the lookup there
  ihave Hoa := (pts_abs (F := F) _) $$ Ho'
  icases Hoa with ⟨%Fo, %hFo, Ho'⟩
  -- each half, when its loop read it, held the packed rows its chunk's ids name
  have hG0 : ∀ (k col : Fin 128), Rw1 (ix3 ⟨0, by decide⟩ k col) = pk (ix2 (Cert.Lookup.pkRow (I (ix2 ⟨0, by decide⟩ k))) col) := fun k col => by
    rw [hRw1]
    refine gathered_half 0 (by decide) 0 (by decide) _ _ R pk _ _ hin0 k col (I (ix2 ⟨0, by decide⟩ k)) (hRv (ix2 ⟨0, by decide⟩ k)) ?_
    have e := hIv (ix2 ⟨0, by decide⟩ k)
    change I (ix2 ⟨0, by decide⟩ k) = _ at e
    rw [e]
    exact hr.toNat_le _
  have hG1 : ∀ (k col : Fin 128), Rw2 (ix3 ⟨1, by decide⟩ k col) = pk (ix2 (Cert.Lookup.pkRow (I (ix2 ⟨1, by decide⟩ k))) col) := fun k col => by
    rw [hRw2]
    refine gathered_half 1 (by decide) 1 (by decide) _ _ R pk _ _ hin1 k col (I (ix2 ⟨1, by decide⟩ k)) (hRv (ix2 ⟨1, by decide⟩ k)) ?_
    have e := hIv (ix2 ⟨1, by decide⟩ k)
    change I (ix2 ⟨1, by decide⟩ k) = _ at e
    rw [e]
    exact hr.toNat_le _
  have hG2 : ∀ (k col : Fin 128), Rw3 (ix3 ⟨0, by decide⟩ k col) = pk (ix2 (Cert.Lookup.pkRow (I (ix2 ⟨2, by decide⟩ k))) col) := fun k col => by
    rw [hRw3]
    refine gathered_half 0 (by decide) 2 (by decide) _ _ R pk _ _ hin2 k col (I (ix2 ⟨2, by decide⟩ k)) (hRv (ix2 ⟨2, by decide⟩ k)) ?_
    have e := hIv (ix2 ⟨2, by decide⟩ k)
    change I (ix2 ⟨2, by decide⟩ k) = _ at e
    rw [e]
    exact hr.toNat_le _
  have hG3 : ∀ (k col : Fin 128), Rw4 (ix3 ⟨1, by decide⟩ k col) = pk (ix2 (Cert.Lookup.pkRow (I (ix2 ⟨3, by decide⟩ k))) col) := fun k col => by
    rw [hRw4]
    refine gathered_half 1 (by decide) 3 (by decide) _ _ R pk _ _ hin3 k col (I (ix2 ⟨3, by decide⟩ k)) (hRv (ix2 ⟨3, by decide⟩ k)) ?_
    have e := hIv (ix2 ⟨3, by decide⟩ k)
    change I (ix2 ⟨3, by decide⟩ k) = _ at e
    rw [e]
    exact hr.toNat_le _
  have hfin : ∀ i ∈ (oRowK L).view.set, Fo i = Cert.Lookup.unpacked ids pk i := by
    rw [hFo]
    refine out_block d L ids pk _ out0 ?_
    intro j
    show resRows 3 I Rw4 Rs4 (16 * 8) j = _
    rw [hRs4, hRs3, hRs2]
    exact res_final L I Rw1 Rw2 Rw3 Rw4 Rs1 ids pk (fun y => hIv y) hG0 hG1 hG2 hG3 j
  sl_step
  isplitl [Hi' Hp' Ho']
  · isplitl [Hi']; · iexact Hi'
    isplitl [Hp']; · iexact Hp'
    iapply (Entails.of_eq (pointsTo_congr (q := fullShare) hfin)) $$ Ho'
  isplitl [Hs0' Hs1' HrA HrB Hs3' Hbufs]
  · isplitl [Hs0']; · iexists _; iexact Hs0'
    isplitl [Hs1']; · iexists _; iexact Hs1'
    isplitl [HrA HrB]
    · ihave HrB := (Entails.of_eq (show ((rowsB).view.loc (V d (cV L) (jV L)) ↦[(rowsB).view.set]{fullShare} _ : sProp 𝕄)
          = (rowsA).view.loc (V d (cV L) (jV L)) ↦[Finset.univ \ (rowsA).view.set]{fullShare} _ by rw [rows_compl])) $$ HrB
      iapply (pts_join_any (F := F) _ _) $$ [HrA HrB]
      isplitl [HrA]; · iexact HrA
      iexact HrB
    isplitl [Hs3']; · iexists _; iexact Hs3'
    iexact Hbufs
  isplitl [HsemG Hsem0 Hsem1 Hsem2 Hsem3 Hsem4 Hsems]
  · isplitl [HsemG]; · iexact HsemG
    isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  swap; · iexact HO
  ipureintro; intro p hp
  repeat (rcases Finset.mem_insert.mp hp with hp | hp; · exact .inr (hp ▸ rfl))
  exact .inl hp

end Cert.Kernel.Lk

end
-- ==== Proof.lean ====
/-
  The five claims. Both programs are compared with one function, the lookup: entry (b, e) of the result is entry
  (ids b, e) of the table. The kernel packs four table rows into one 128-lane row and reads, for class id i, lanes
  (i % 4) * 32 onward of packed row i / 4: that is row i of the table, since 4 (i / 4) + i % 4 = i. The reference
  gathers row i directly (its wrap-around of negative ids and its out-of-range mask do nothing on ids in range).
  The frames are the same runs with the result dropped.
-/
import proofs.«204365_g77171972375186_cont_9to1c4b_67_15_alg».proof.Defs
import proofs.«204365_g77171972375186_cont_9to1c4b_67_15_alg».proof.Proof.Gen.Kernel
import proofs.«204365_g77171972375186_cont_9to1c4b_67_15_alg».proof.Proof.Gen.KernelIdeal
import proofs.«204365_g77171972375186_cont_9to1c4b_67_15_alg».proof.Proof.Gen.ReferenceIdeal
import proofs.«204365_g77171972375186_cont_9to1c4b_67_15_alg».proof.Proof.Gen.Pre_input_domain
import proofs.«204365_g77171972375186_cont_9to1c4b_67_15_alg».proof.Proof.LaunchIB
import proofs.«204365_g77171972375186_cont_9to1c4b_67_15_alg».proof.Proof.LaunchBB
import proofs.«204365_g77171972375186_cont_9to1c4b_67_15_alg».proof.Proof.RefRun
import proofs.«204365_g77171972375186_cont_9to1c4b_67_15_alg».proof.Proof.PreRange
import proofs.«204365_g77171972375186_cont_9to1c4b_67_15_alg».proof.Proof.PackISeg
import proofs.«204365_g77171972375186_cont_9to1c4b_67_15_alg».proof.Proof.PackBSeg
import proofs.«204365_g77171972375186_cont_9to1c4b_67_15_alg».proof.Proof.TileI3
import proofs.«204365_g77171972375186_cont_9to1c4b_67_15_alg».proof.Proof.TileB3
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_input_domain.Gen.facts

/-! ## Everything the TensorCore owes sits at a call's index -/

theorem Otc_none_I {F : FTy → Type} (d : Dev Cert.KernelIdeal.nD) (n : ℕ) (g : GSem Cert.KernelIdeal.nD Cert.KernelIdeal.τ Cert.KernelIdeal.sig) :
    (Cert.KernelIdeal.Lk.K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply]; simp
  · rfl

theorem Otc_none_B {F : FTy → Type} (d : Dev Cert.Kernel.nD) (n : ℕ) (g : GSem Cert.Kernel.nD Cert.Kernel.τ Cert.Kernel.sig) :
    (Cert.Kernel.Lk.K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply]; simp
  · rfl

/-! ## The precondition puts every class id in range -/

theorem okI (m : (ℓ : Loc Cert.KernelIdeal.nD Cert.KernelIdeal.τ Cert.KernelIdeal.sig) → Buf (Elt Ideal) ℓ) (h : Cert.Pre_KernelIdeal m) :
    Cert.KernelIdeal.Lk.PreOK (F := Ideal) m :=
  fun d => Cert.Lookup.inRange_of_pre (F := Ideal) _ _ (h d)

theorem okB (m : (ℓ : Loc Cert.Kernel.nD Cert.Kernel.τ Cert.Kernel.sig) → Buf (Elt Bits) ℓ) (h : Cert.Pre_Kernel m) :
    Cert.Kernel.Lk.PreOK (F := Bits) m :=
  fun d => Cert.Lookup.inRange_of_pre (F := Bits) _ _ (h d)

/-! ## One vector subcore's task, at both instances -/

theorem htbI : Cert.KernelIdeal.Lk.TileBodySpec (F := Ideal) :=
  fun hF d L ids pk out0 qi qp hr O W hO => Cert.KernelIdeal.Lk.tile_body (F := Ideal) hF d L ids pk out0 qi qp hr O W hO

theorem htbB : Cert.Kernel.Lk.TileBodySpec (F := Bits) :=
  fun hF d L ids pk out0 qi qp hr O W hO => Cert.Kernel.Lk.tile_body (F := Bits) hF d L ids pk out0 qi qp hr O W hO

/-! ## The pack region's rule at what the TensorCore owes before the call, and its result as the packed table -/

theorem hregI : Cert.KernelIdeal.Lk.RegionSpec (F := Ideal) (fun _ X => Cert.KernelIdeal.Lk.repack (α := Elt Ideal .f32) X) := fun d X k Q => by
  unfold Cert.KernelIdeal.Lk.Gd
  exact Cert.KernelIdeal.Lk.pack_wp (F := Ideal) d X _ (Otc_none_I d 0) k Q

theorem hregB : Cert.Kernel.Lk.RegionSpec (F := Bits) (fun _ X => Cert.Kernel.Lk.repack (α := Elt Bits .f32) X) := fun d X k Q => by
  unfold Cert.Kernel.Lk.Gd
  exact Cert.Kernel.Lk.pack_wp (F := Bits) d X _ (Otc_none_B d 0) k Q

theorem hrpI (m : (ℓ : Loc Cert.KernelIdeal.nD Cert.KernelIdeal.τ Cert.KernelIdeal.sig) → Buf (Elt Ideal) ℓ) (d : Dev Cert.KernelIdeal.nD) :
    Cert.KernelIdeal.Lk.repack (α := Elt Ideal .f32) (Cert.KernelIdeal.Lk.tabTOf m d) = Cert.KernelIdeal.Lk.pkOf m d := by
  unfold Cert.KernelIdeal.Lk.tabTOf Cert.KernelIdeal.Lk.pkOf
  exact Cert.KernelIdeal.Lk.repack_transpose _

theorem hrpB (m : (ℓ : Loc Cert.Kernel.nD Cert.Kernel.τ Cert.Kernel.sig) → Buf (Elt Bits) ℓ) (d : Dev Cert.Kernel.nD) :
    Cert.Kernel.Lk.repack (α := Elt Bits .f32) (Cert.Kernel.Lk.tabTOf m d) = Cert.Kernel.Lk.pkOf m d := by
  unfold Cert.Kernel.Lk.tabTOf Cert.Kernel.Lk.pkOf
  exact Cert.Kernel.Lk.repack_transpose _

/-! ## The two runs of the kernel, with the result named -/

theorem runI (m : (ℓ : Loc Cert.KernelIdeal.nD Cert.KernelIdeal.τ Cert.KernelIdeal.sig) → Buf (Elt Ideal) ℓ) (ρ : Dev Cert.KernelIdeal.nD → PrngReg)
    (h : Cert.Pre_KernelIdeal m) :
    θ_run (Cert.KernelIdeal.defs (F := Ideal)) (Cert.KernelIdeal.threads (F := Ideal)) ⟨m, fun _ => 0, ρ⟩ (Cert.KernelIdeal.Lk.QC m) :=
  Cert.KernelIdeal.Lk.run_main (F := Ideal) m ρ htbI _ hregI (hrpI m) (okI m h)

theorem runB (m : (ℓ : Loc Cert.Kernel.nD Cert.Kernel.τ Cert.Kernel.sig) → Buf (Elt Bits) ℓ) (ρ : Dev Cert.Kernel.nD → PrngReg)
    (h : Cert.Pre_Kernel m) :
    θ_run (Cert.Kernel.defs (F := Bits)) (Cert.Kernel.threads (F := Bits)) ⟨m, fun _ => 0, ρ⟩ (Cert.Kernel.Lk.QC m) :=
  Cert.Kernel.Lk.run_main (F := Bits) m ρ htbB _ hregB (hrpB m) (okB m h)

/-! ## The claims -/

theorem frame_k : Cert.frame_Kernel := fun m ρ hpre =>
  (θ_run Cert.Kernel.defs _ _).mono (fun _ h c => ⟨(h c).2.1, (h c).2.2⟩) (runB m ρ hpre)

theorem frame_ki : Cert.frame_KernelIdeal := fun m ρ hpre =>
  (θ_run Cert.KernelIdeal.defs _ _).mono (fun _ h c => ⟨(h c).2.1, (h c).2.2⟩) (runI m ρ hpre)

theorem frame_ri : Cert.frame_ReferenceIdeal := fun m ρ hpre =>
  (θ_run Cert.ReferenceIdeal.defs _ _).mono (fun _ h c => ⟨(h c).2.1, (h c).2.2⟩)
    (Cert.ReferenceIdeal.RefValue.run m ρ fun c => Cert.Lookup.inRange_of_pre (F := Ideal) _ _ (hpre c))

/-- The kernel's result is the packed table read where each class id names, which is the looked-up row; the
    reference's is the looked-up row of arguments that agree. -/
theorem algebraic : Cert.algebraic_KernelIdeal_ReferenceIdeal := by
  intro m ρ m' ρ' hpre hagree
  refine ⟨fun c => Cert.Lookup.lookup (α := Elt Ideal .f32) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2.1, (h c).2.2⟩) (runI m ρ hpre)
    exact Cert.Lookup.unpacked_packed (okI m hpre c) _
  · have hr' : ∀ c : Dev Cert.ReferenceIdeal.nD, Cert.Lookup.InRange (m' ((c.tc : Thread Cert.ReferenceIdeal.nD Cert.ReferenceIdeal.τ).loc Cert.ReferenceIdeal.main_arg0)) :=
      fun c => by rw [(hagree c).1]; exact okI m hpre c
    refine (θ_run Cert.ReferenceIdeal.defs _ _).mono (fun r h c => ⟨(h c).1.trans ?_, (h c).2.1, (h c).2.2⟩)
      (Cert.ReferenceIdeal.RefValue.run m' ρ' hr')
    rw [(hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
